-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v240)) (v1 : (c : Dev Cert.KernelIdeal.nD) → Buf (Elt Ideal) ((c.tc : Thread Cert.KernelIdeal.nD Cert.KernelIdeal.τ).loc Cert.KernelIdeal.main_v188)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v240) = v0 c
          ∧ r.2.mem ((c.tc : Thread Cert.KernelIdeal.nD Cert.KernelIdeal.τ).loc Cert.KernelIdeal.main_v188) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v453) = v0 c
          ∧ r.2.mem ((c.tc : Thread Cert.ReferenceIdeal.nD Cert.ReferenceIdeal.τ).loc Cert.ReferenceIdeal.main_v340) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S5000x128 : Shape := ⟨2, ![5000, 128]⟩
abbrev S1000000 : Shape := ⟨1, ![1000000]⟩
abbrev S4x128x128 : Shape := ⟨3, ![4, 128, 128]⟩
abbrev S4x128 : Shape := ⟨2, ![4, 128]⟩
abbrev S4x128x64 : Shape := ⟨3, ![4, 128, 64]⟩
abbrev S4x64 : Shape := ⟨2, ![4, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S5000x128 : S_.BroadcastsInDim S5000x128 (![] : Fin 0 → Fin S5000x128.rank)
  reducesTo_S5000x128_S_d0_1 : S5000x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part2 {F : FTy → Type} [FloatOps F] (main_arg11 : FVec F S4x64 .f32) (main_v33 : IVec S_ 1) : IVec S_ 1 :=
  let main_v34 : FVec F S4x64 .f32 := Host.absf main_arg11
  let main_cst_12 : FVec F S_ .f32 := constant S_ .f32 0x7F800000#32
  let main_v35 : FVec F S4x64 .f32 := broadcastInDim S4x64 ![] bcast_S_S4x64 main_cst_12
  let main_v36 : IVec S4x64 1 := cmpf .olt main_v34 main_v35
  let main_c_13 : IVec S_ 1 := constantI S_ 1 1#1
  let main_v37 : IVec S_ 1 := (fun x v => Host.reduce IntOp.andi x v reducesTo_S4x64_S_d0_1 h_S_) main_v36 main_c_13
  let main_v38 : IVec S_ 1 := andi main_v33 main_v37
  main_v38

def fn_part1 {F : FTy → Type} [FloatOps F] (main_arg8 : FVec F S4x128x128 .f32) (main_arg9 : FVec F S4x128 .f32) (main_arg10 : FVec F S4x128x64 .f32) (main_arg11 : FVec F S4x64 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128x128 .f32 := Host.absf main_arg8
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg9
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128x64 .f32 := Host.absf main_arg10
  let main_cst_10 : FVec F S_ .f32 := constant S_ .f32 0x7F800000#32
  let main_v30 : FVec F S4x128x64 .f32 := broadcastInDim S4x128x64 ![] bcast_S_S4x128x64 main_cst_10
  let main_v31 : IVec S4x128x64 1 := cmpf .olt main_v29 main_v30
  let main_c_11 : IVec S_ 1 := constantI S_ 1 1#1
  let main_v32 : IVec S_ 1 := (fun x v => Host.reduce IntOp.andi x v reducesTo_S4x128x64_S_d0_1_2 h_S_) main_v31 main_c_11
  let main_v33 : IVec S_ 1 := andi main_v28 main_v32
  fn_part2 (F := F) main_arg11 main_v33

def fn {F : FTy → Type} [FloatOps F] (main_arg0 : FVec F S100000x128 .f32) (main_arg1 : FVec F S5000x128 .f32) (main_arg2 : IVec S1000000 32) (main_arg3 : IVec S1000000 32) (main_arg4 : IVec S1000000 32) (main_arg5 : IVec S1000000 32) (main_arg6 : FVec F S4x128x128 .f32) (main_arg7 : FVec F S4x128 .f32) (main_arg8 : FVec F S4x128x128 .f32) (main_arg9 : FVec F S4x128 .f32) (main_arg10 : FVec F S4x128x64 .f32) (main_arg11 : FVec F S4x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S5000x128 .f32 := Host.absf main_arg1
  let main_cst_0 : FVec F S_ .f32 := constant S_ .f32 0x7F800000#32
  let main_v5 : FVec F S5000x128 .f32 := broadcastInDim S5000x128 ![] bcast_S_S5000x128 main_cst_0
  let main_v6 : IVec S5000x128 1 := cmpf .olt main_v4 main_v5
  let main_c_1 : IVec S_ 1 := constantI S_ 1 1#1
  let main_v7 : IVec S_ 1 := (fun x v => Host.reduce IntOp.andi x v reducesTo_S5000x128_S_d0_1 h_S_) main_v6 main_c_1
  let main_v8 : IVec S_ 1 := andi main_v3 main_v7
  let main_v9 : FVec F S4x128x128 .f32 := Host.absf main_arg6
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg7
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg8 main_arg9 main_arg10 main_arg11 main_v13 main_v16
-- ==== Kernel.lean ====
abbrev S100000x128 : Shape := ⟨2, ![100000, 128]⟩
abbrev S5000x128 : Shape := ⟨2, ![5000, 128]⟩
abbrev S1000000 : Shape := ⟨1, ![1000000]⟩
abbrev S4x128x128 : Shape := ⟨3, ![4, 128, 128]⟩
abbrev S4x128 : Shape := ⟨2, ![4, 128]⟩
abbrev S4x128x64 : Shape := ⟨3, ![4, 128, 64]⟩
abbrev S4x64 : Shape := ⟨2, ![4, 64]⟩
abbrev S_ : Shape := ⟨0, ![]⟩
abbrev S100000 : Shape := ⟨1, ![100000]⟩
abbrev S1000000x1 : Shape := ⟨2, ![1000000, 1]⟩
abbrev S5000 : Shape := ⟨1, ![5000]⟩
abbrev S100000x1 : Shape := ⟨2, ![100000, 1]⟩
abbrev S1000000x128 : Shape := ⟨2, ![1000000, 128]⟩
abbrev S1x5000x128 : Shape := ⟨3, ![1, 5000, 128]⟩
abbrev S1x5000 : Shape := ⟨2, ![1, 5000]⟩
abbrev S1x128x128 : Shape := ⟨3, ![1, 128, 128]⟩
abbrev S1x128 : Shape := ⟨2, ![1, 128]⟩
abbrev S1x5000x1 : Shape := ⟨3, ![1, 5000, 1]⟩
abbrev S1x1x128 : Shape := ⟨3, ![1, 1, 128]⟩
abbrev S5000x1 : Shape := ⟨2, ![5000, 1]⟩
abbrev S128x128 : Shape := ⟨2, ![128, 128]⟩
abbrev S1x100000x128 : Shape := ⟨3, ![1, 100000, 128]⟩
abbrev S3x100000x128 : Shape := ⟨3, ![3, 100000, 128]⟩
abbrev S1x100000 : Shape := ⟨2, ![1, 100000]⟩
abbrev S3x100000 : Shape := ⟨2, ![3, 100000]⟩
abbrev S3x128x128 : Shape := ⟨3, ![3, 128, 128]⟩
abbrev S3x128 : Shape := ⟨2, ![3, 128]⟩
abbrev S3x100000x1 : Shape := ⟨3, ![3, 100000, 1]⟩
abbrev S3x1x128 : Shape := ⟨3, ![3, 1, 128]⟩
abbrev S1x128x64 : Shape := ⟨3, ![1, 128, 64]⟩
abbrev S1x64 : Shape := ⟨2, ![1, 64]⟩
abbrev S1x1x64 : Shape := ⟨3, ![1, 1, 64]⟩
abbrev S5000x64 : Shape := ⟨2, ![5000, 64]⟩
abbrev S128x64 : Shape := ⟨2, ![128, 64]⟩
abbrev S3x128x64 : Shape := ⟨3, ![3, 128, 64]⟩
abbrev S3x64 : Shape := ⟨2, ![3, 64]⟩
abbrev S3x1x64 : Shape := ⟨3, ![3, 1, 64]⟩
abbrev S100000x64 : Shape := ⟨2, ![100000, 64]⟩

abbrev nBuf : Space → Nat
  | .hbm => 298
  | .vmem => 51
  | .smem => 0
  | _ => 0

abbrev hbmTy0_0 (i : Nat) : BufTy := match i % 128 with
  | 0 => ⟨S100000x128, .f32⟩
  | 1 => ⟨S5000x128, .f32⟩
  | 2 => ⟨S1000000, .i32⟩
  | 3 => ⟨S1000000, .i32⟩
  | 4 => ⟨S1000000, .i32⟩
  | 5 => ⟨S1000000, .i32⟩
  | 6 => ⟨S4x128x128, .f32⟩
  | 7 => ⟨S4x128, .f32⟩
  | 8 => ⟨S4x128x128, .f32⟩
  | 9 => ⟨S4x128, .f32⟩
  | 10 => ⟨S4x128x64, .f32⟩
  | 11 => ⟨S4x64, .f32⟩
  | 12 => ⟨S_, .f32⟩
  | 13 => ⟨S1000000, .f32⟩
  | 14 => ⟨S_, .f32⟩
  | 15 => ⟨S100000, .f32⟩
  | 16 => ⟨S1000000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S_, .f32⟩
  | 23 => ⟨S5000, .f32⟩
  | 24 => ⟨S1000000x1, .i32⟩
  | 25 => ⟨S5000, .f32⟩
  | 26 => ⟨S_, .f32⟩
  | 27 => ⟨S5000, .f32⟩
  | 28 => ⟨S5000, .f32⟩
  | 29 => ⟨S5000, .f32⟩
  | 30 => ⟨S_, .f32⟩
  | 31 => ⟨S100000, .f32⟩
  | 32 => ⟨S1000000x1, .i32⟩
  | 33 => ⟨S100000, .f32⟩
  | 34 => ⟨S_, .f32⟩
  | 35 => ⟨S100000, .f32⟩
  | 36 => ⟨S100000, .f32⟩
  | 37 => ⟨S100000, .f32⟩
  | 38 => ⟨S_, .f32⟩
  | 39 => ⟨S100000, .f32⟩
  | 40 => ⟨S1000000x1, .i32⟩
  | 41 => ⟨S100000, .f32⟩
  | 42 => ⟨S_, .f32⟩
  | 43 => ⟨S100000, .f32⟩
  | 44 => ⟨S100000, .f32⟩
  | 45 => ⟨S100000, .f32⟩
  | 46 => ⟨S100000x1, .f32⟩
  | 47 => ⟨S100000x128, .f32⟩
  | 48 => ⟨S100000x128, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000x128, .f32⟩
  | 58 => ⟨S_, .f32⟩
  | 59 => ⟨S5000x128, .f32⟩
  | 60 => ⟨S1000000x1, .i32⟩
  | 61 => ⟨S5000x128, .f32⟩
  | 62 => ⟨S1x5000x128, .f32⟩
  | 63 => ⟨S1x5000, .f32⟩
  | 64 => ⟨S1x128x128, .f32⟩
  | 65 => ⟨S1x128, .f32⟩
  | 66 => ⟨S1x5000x1, .f32⟩
  | 67 => ⟨S1x1x128, .f32⟩
  | 68 => ⟨S5000x128, .f32⟩
  | 69 => ⟨S5000x1, .f32⟩
  | 70 => ⟨S5000x128, .f32⟩
  | 71 => ⟨S5000x128, .f32⟩
  | 72 => ⟨S_, .i32⟩
  | 73 => ⟨S1000000, .i32⟩
  | 74 => ⟨S1000000, .i1⟩
  | 75 => ⟨S_, .i32⟩
  | 76 => ⟨S1000000, .i32⟩
  | 77 => ⟨S1000000, .i32⟩
  | 78 => ⟨S1000000, .i32⟩
  | 79 => ⟨S1000000x1, .i32⟩
  | 80 => ⟨S1000000x128, .f32⟩
  | 81 => ⟨S_, .f32⟩
  | 82 => ⟨S100000x128, .f32⟩
  | 83 => ⟨S1000000x1, .i32⟩
  | 84 => ⟨S100000x128, .f32⟩
  | 85 => ⟨S100000x1, .f32⟩
  | 86 => ⟨S100000x128, .f32⟩
  | 87 => ⟨S100000x128, .f32⟩
  | 88 => ⟨S_, .i32⟩
  | 89 => ⟨S1000000, .i32⟩
  | 90 => ⟨S1000000, .i1⟩
  | 91 => ⟨S_, .i32⟩
  | 92 => ⟨S1000000, .i32⟩
  | 93 => ⟨S1000000, .i32⟩
  | 94 => ⟨S1000000, .i32⟩
  | 95 => ⟨S1000000x1, .i32⟩
  | 96 => ⟨S1000000x128, .f32⟩
  | 97 => ⟨S_, .f32⟩
  | 98 => ⟨S100000x128, .f32⟩
  | 99 => ⟨S1000000x1, .i32⟩
  | 100 => ⟨S100000x128, .f32⟩
  | 101 => ⟨S100000x1, .f32⟩
  | 102 => ⟨S100000x128, .f32⟩
  | 103 => ⟨S100000x128, .f32⟩
  | 104 => ⟨S_, .i32⟩
  | 105 => ⟨S1000000, .i32⟩
  | 106 => ⟨S1000000, .i1⟩
  | 107 => ⟨S_, .i32⟩
  | 108 => ⟨S1000000, .i32⟩
  | 109 => ⟨S1000000, .i32⟩
  | 110 => ⟨S1000000, .i32⟩
  | 111 => ⟨S1000000x1, .i32⟩
  | 112 => ⟨S1000000x128, .f32⟩
  | 113 => ⟨S_, .f32⟩
  | 114 => ⟨S100000x128, .f32⟩
  | 115 => ⟨S1000000x1, .i32⟩
  | 116 => ⟨S100000x128, .f32⟩
  | 117 => ⟨S1x100000x128, .f32⟩
  | 118 => ⟨S1x100000x128, .f32⟩
  | 119 => ⟨S1x100000x128, .f32⟩
  | 120 => ⟨S3x100000x128, .f32⟩
  | 121 => ⟨S1x100000, .f32⟩
  | 122 => ⟨S1x100000, .f32⟩
  | 123 => ⟨S1x100000, .f32⟩
  | 124 => ⟨S3x100000, .f32⟩
  | 125 => ⟨S3x128x128, .f32⟩
  | 126 => ⟨S3x128, .f32⟩
  | 127 => ⟨S3x100000x1, .f32⟩
  | _ => ⟨S100000x128, .f32⟩

abbrev hbmTy0_1 (i : Nat) : BufTy := match i % 128 with
  | 0 => ⟨S3x1x128, .f32⟩
  | 1 => ⟨S100000x128, .f32⟩
  | 2 => ⟨S100000x1, .f32⟩
  | 3 => ⟨S100000x128, .f32⟩
  | 4 => ⟨S100000x128, .f32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1000000x128, .f32⟩
  | 14 => ⟨S_, .f32⟩
  | 15 => ⟨S5000x128, .f32⟩
  | 16 => ⟨S1000000x1, .i32⟩
  | 17 => ⟨S5000x128, .f32⟩
  | 18 => ⟨S1x5000x128, .f32⟩
  | 19 => ⟨S1x5000, .f32⟩
  | 20 => ⟨S1x128x128, .f32⟩
  | 21 => ⟨S1x128, .f32⟩
  | 22 => ⟨S1x5000x1, .f32⟩
  | 23 => ⟨S1x1x128, .f32⟩
  | 24 => ⟨S5000x128, .f32⟩
  | 25 => ⟨S5000x1, .f32⟩
  | 26 => ⟨S5000x128, .f32⟩
  | 27 => ⟨S5000x128, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000x128, .f32⟩
  | 37 => ⟨S_, .f32⟩
  | 38 => ⟨S100000x128, .f32⟩
  | 39 => ⟨S1000000x1, .i32⟩
  | 40 => ⟨S100000x128, .f32⟩
  | 41 => ⟨S100000x1, .f32⟩
  | 42 => ⟨S100000x128, .f32⟩
  | 43 => ⟨S100000x128, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000x128, .f32⟩
  | 53 => ⟨S_, .f32⟩
  | 54 => ⟨S100000x128, .f32⟩
  | 55 => ⟨S1000000x1, .i32⟩
  | 56 => ⟨S100000x128, .f32⟩
  | 57 => ⟨S100000x1, .f32⟩
  | 58 => ⟨S100000x128, .f32⟩
  | 59 => ⟨S100000x128, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x128, .f32⟩
  | 69 => ⟨S_, .f32⟩
  | 70 => ⟨S100000x128, .f32⟩
  | 71 => ⟨S1000000x1, .i32⟩
  | 72 => ⟨S100000x128, .f32⟩
  | 73 => ⟨S1x100000x128, .f32⟩
  | 74 => ⟨S1x100000x128, .f32⟩
  | 75 => ⟨S1x100000x128, .f32⟩
  | 76 => ⟨S3x100000x128, .f32⟩
  | 77 => ⟨S1x100000, .f32⟩
  | 78 => ⟨S1x100000, .f32⟩
  | 79 => ⟨S1x100000, .f32⟩
  | 80 => ⟨S3x100000, .f32⟩
  | 81 => ⟨S3x128x128, .f32⟩
  | 82 => ⟨S3x128, .f32⟩
  | 83 => ⟨S3x100000x1, .f32⟩
  | 84 => ⟨S3x1x128, .f32⟩
  | 85 => ⟨S100000x128, .f32⟩
  | 86 => ⟨S100000x1, .f32⟩
  | 87 => ⟨S100000x128, .f32⟩
  | 88 => ⟨S100000x128, .f32⟩
  | 89 => ⟨S_, .i32⟩
  | 90 => ⟨S1000000, .i32⟩
  | 91 => ⟨S1000000, .i1⟩
  | 92 => ⟨S_, .i32⟩
  | 93 => ⟨S1000000, .i32⟩
  | 94 => ⟨S1000000, .i32⟩
  | 95 => ⟨S1000000, .i32⟩
  | 96 => ⟨S1000000x1, .i32⟩
  | 97 => ⟨S1000000x128, .f32⟩
  | 98 => ⟨S_, .f32⟩
  | 99 => ⟨S5000x128, .f32⟩
  | 100 => ⟨S1000000x1, .i32⟩
  | 101 => ⟨S5000x128, .f32⟩
  | 102 => ⟨S1x5000x128, .f32⟩
  | 103 => ⟨S1x5000, .f32⟩
  | 104 => ⟨S1x128x64, .f32⟩
  | 105 => ⟨S1x64, .f32⟩
  | 106 => ⟨S1x5000x1, .f32⟩
  | 107 => ⟨S1x1x64, .f32⟩
  | 108 => ⟨S5000x64, .f32⟩
  | 109 => ⟨S5000x1, .f32⟩
  | 110 => ⟨S5000x128, .f32⟩
  | 111 => ⟨S5000x128, .f32⟩
  | 112 => ⟨S_, .i32⟩
  | 113 => ⟨S1000000, .i32⟩
  | 114 => ⟨S1000000, .i1⟩
  | 115 => ⟨S_, .i32⟩
  | 116 => ⟨S1000000, .i32⟩
  | 117 => ⟨S1000000, .i32⟩
  | 118 => ⟨S1000000, .i32⟩
  | 119 => ⟨S1000000x1, .i32⟩
  | 120 => ⟨S1000000x128, .f32⟩
  | 121 => ⟨S_, .f32⟩
  | 122 => ⟨S100000x128, .f32⟩
  | 123 => ⟨S1000000x1, .i32⟩
  | 124 => ⟨S100000x128, .f32⟩
  | 125 => ⟨S100000x1, .f32⟩
  | 126 => ⟨S100000x128, .f32⟩
  | 127 => ⟨S100000x128, .f32⟩
  | _ => ⟨S100000x128, .f32⟩

abbrev hbmTy0_2 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000x128, .f32⟩
  | 9 => ⟨S_, .f32⟩
  | 10 => ⟨S100000x128, .f32⟩
  | 11 => ⟨S1000000x1, .i32⟩
  | 12 => ⟨S100000x128, .f32⟩
  | 13 => ⟨S100000x1, .f32⟩
  | 14 => ⟨S100000x128, .f32⟩
  | 15 => ⟨S100000x128, .f32⟩
  | 16 => ⟨S_, .i32⟩
  | 17 => ⟨S1000000, .i32⟩
  | 18 => ⟨S1000000, .i1⟩
  | 19 => ⟨S_, .i32⟩
  | 20 => ⟨S1000000, .i32⟩
  | 21 => ⟨S1000000, .i32⟩
  | 22 => ⟨S1000000, .i32⟩
  | 23 => ⟨S1000000x1, .i32⟩
  | 24 => ⟨S1000000x128, .f32⟩
  | 25 => ⟨S_, .f32⟩
  | 26 => ⟨S100000x128, .f32⟩
  | 27 => ⟨S1000000x1, .i32⟩
  | 28 => ⟨S100000x128, .f32⟩
  | 29 => ⟨S1x100000x128, .f32⟩
  | 30 => ⟨S1x100000x128, .f32⟩
  | 31 => ⟨S1x100000x128, .f32⟩
  | 32 => ⟨S3x100000x128, .f32⟩
  | 33 => ⟨S1x100000, .f32⟩
  | 34 => ⟨S1x100000, .f32⟩
  | 35 => ⟨S1x100000, .f32⟩
  | 36 => ⟨S3x100000, .f32⟩
  | 37 => ⟨S3x128x64, .f32⟩
  | 38 => ⟨S3x64, .f32⟩
  | 39 => ⟨S3x100000x1, .f32⟩
  | 40 => ⟨S3x1x64, .f32⟩
  | 41 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S1x5000x128, .f32⟩
  | .local _ .vmem, ⟨1, _⟩ => ⟨S1x5000x1, .f32⟩
  | .local _ .vmem, ⟨2, _⟩ => ⟨S1x128x128, .f32⟩
  | .local _ .vmem, ⟨3, _⟩ => ⟨S1x1x128, .f32⟩
  | .local _ .vmem, ⟨4, _⟩ => ⟨S5000x128, .f32⟩
  | .local _ .vmem, ⟨5, _⟩ => ⟨S5000x128, .f32⟩
  | .local _ .vmem, ⟨6, _⟩ => ⟨S1x5000x128, .f32⟩
  | .local _ .vmem, ⟨7, _⟩ => ⟨S1x5000x128, .f32⟩
  | .local _ .vmem, ⟨8, _⟩ => ⟨S1x5000x1, .f32⟩
  | .local _ .vmem, ⟨9, _⟩ => ⟨S1x5000x1, .f32⟩
  | .local _ .vmem, ⟨10, _⟩ => ⟨S1x128x128, .f32⟩
  | .local _ .vmem, ⟨11, _⟩ => ⟨S1x128x128, .f32⟩
  | .local _ .vmem, ⟨12, _⟩ => ⟨S1x1x128, .f32⟩
  | .local _ .vmem, ⟨13, _⟩ => ⟨S1x1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x5000x128, .f32⟩
  | .local _ .vmem, ⟨18, _⟩ => ⟨S1x5000x1, .f32⟩
  | .local _ .vmem, ⟨19, _⟩ => ⟨S1x128x128, .f32⟩
  | .local _ .vmem, ⟨20, _⟩ => ⟨S1x1x128, .f32⟩
  | .local _ .vmem, ⟨21, _⟩ => ⟨S5000x128, .f32⟩
  | .local _ .vmem, ⟨22, _⟩ => ⟨S5000x128, .f32⟩
  | .local _ .vmem, ⟨23, _⟩ => ⟨S1x5000x128, .f32⟩
  | .local _ .vmem, ⟨24, _⟩ => ⟨S1x5000x128, .f32⟩
  | .local _ .vmem, ⟨25, _⟩ => ⟨S1x5000x1, .f32⟩
  | .local _ .vmem, ⟨26, _⟩ => ⟨S1x5000x1, .f32⟩
  | .local _ .vmem, ⟨27, _⟩ => ⟨S1x128x128, .f32⟩
  | .local _ .vmem, ⟨28, _⟩ => ⟨S1x128x128, .f32⟩
  | .local _ .vmem, ⟨29, _⟩ => ⟨S1x1x128, .f32⟩
  | .local _ .vmem, ⟨30, _⟩ => ⟨S1x1x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S1x5000x128, .f32⟩
  | .local _ .vmem, ⟨35, _⟩ => ⟨S1x5000x1, .f32⟩
  | .local _ .vmem, ⟨36, _⟩ => ⟨S1x128x64, .f32⟩
  | .local _ .vmem, ⟨37, _⟩ => ⟨S1x1x64, .f32⟩
  | .local _ .vmem, ⟨38, _⟩ => ⟨S5000x64, .f32⟩
  | .local _ .vmem, ⟨39, _⟩ => ⟨S5000x64, .f32⟩
  | .local _ .vmem, ⟨40, _⟩ => ⟨S1x5000x128, .f32⟩
  | .local _ .vmem, ⟨41, _⟩ => ⟨S1x5000x128, .f32⟩
  | .local _ .vmem, ⟨42, _⟩ => ⟨S1x5000x1, .f32⟩
  | .local _ .vmem, ⟨43, _⟩ => ⟨S1x5000x1, .f32⟩
  | .local _ .vmem, ⟨44, _⟩ => ⟨S1x128x64, .f32⟩
  | .local _ .vmem, ⟨45, _⟩ => ⟨S1x128x64, .f32⟩
  | .local _ .vmem, ⟨46, _⟩ => ⟨S1x1x64, .f32⟩
  | .local _ .vmem, ⟨47, _⟩ => ⟨S1x1x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_13 : Ref sig .tc := ⟨.hbm, 88, rfl⟩
abbrev main_v61 : Ref sig .tc := ⟨.hbm, 89, rfl⟩
abbrev main_v62 : Ref sig .tc := ⟨.hbm, 90, rfl⟩
abbrev main_c_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_19 : Ref sig .tc := ⟨.hbm, 133, rfl⟩
abbrev main_v100 : Ref sig .tc := ⟨.hbm, 134, rfl⟩
abbrev main_v101 : Ref sig .tc := ⟨.hbm, 135, rfl⟩
abbrev main_c_20 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_21 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_c_22 : Ref sig .tc := ⟨.hbm, 156, rfl⟩
abbrev main_v120 : Ref sig .tc := ⟨.hbm, 157, rfl⟩
abbrev main_v121 : Ref sig .tc := ⟨.hbm, 158, rfl⟩
abbrev main_c_23 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_24 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_c_25 : Ref sig .tc := ⟨.hbm, 172, rfl⟩
abbrev main_v133 : Ref sig .tc := ⟨.hbm, 173, rfl⟩
abbrev main_v134 : Ref sig .tc := ⟨.hbm, 174, rfl⟩
abbrev main_c_26 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_cst_27 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_c_28 : Ref sig .tc := ⟨.hbm, 188, rfl⟩
abbrev main_v146 : Ref sig .tc := ⟨.hbm, 189, rfl⟩
abbrev main_v147 : Ref sig .tc := ⟨.hbm, 190, rfl⟩
abbrev main_c_29 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_cst_30 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_c_31 : Ref sig .tc := ⟨.hbm, 217, rfl⟩
abbrev main_v172 : Ref sig .tc := ⟨.hbm, 218, rfl⟩
abbrev main_v173 : Ref sig .tc := ⟨.hbm, 219, rfl⟩
abbrev main_c_32 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_cst_33 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_c_34 : Ref sig .tc := ⟨.hbm, 240, rfl⟩
abbrev main_v192 : Ref sig .tc := ⟨.hbm, 241, rfl⟩
abbrev main_v193 : Ref sig .tc := ⟨.hbm, 242, rfl⟩
abbrev main_c_35 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_cst_36 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_c_37 : Ref sig .tc := ⟨.hbm, 256, rfl⟩
abbrev main_v205 : Ref sig .tc := ⟨.hbm, 257, rfl⟩
abbrev main_v206 : Ref sig .tc := ⟨.hbm, 258, rfl⟩
abbrev main_c_38 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_cst_39 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_c_40 : Ref sig .tc := ⟨.hbm, 272, rfl⟩
abbrev main_v218 : Ref sig .tc := ⟨.hbm, 273, rfl⟩
abbrev main_v219 : Ref sig .tc := ⟨.hbm, 274, rfl⟩
abbrev main_c_41 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_cst_42 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc3_scratch0 : Ref sig .tc := ⟨.vmem, 33, rfl⟩
abbrev cc4_stg0_0 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_scratch0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc5_stg3_0 : Ref sig .tc := ⟨.vmem, 46, rfl⟩
abbrev cc5_stg3_1 : Ref sig .tc := ⟨.vmem, 47, rfl⟩
abbrev cc5_stg4_0 : Ref sig .tc := ⟨.vmem, 48, rfl⟩
abbrev cc5_stg4_1 : Ref sig .tc := ⟨.vmem, 49, rfl⟩
abbrev cc5_scratch0 : Ref sig .tc := ⟨.vmem, 50, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem1_0 : DmaSem sig := 16
abbrev cc2_sem2_0 : DmaSem sig := 17
abbrev cc2_sem3_0 : DmaSem sig := 18
abbrev cc2_sem4_0 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc4_sem0_0 : DmaSem sig := 30
abbrev cc4_sem1_0 : DmaSem sig := 31
abbrev cc4_sem2_0 : DmaSem sig := 32
abbrev cc4_sem3_0 : DmaSem sig := 33
abbrev cc4_sem4_0 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc5_sem3_0 : DmaSem sig := 41
abbrev cc5_sem3_1 : DmaSem sig := 42
abbrev cc5_sem4_0 : DmaSem sig := 43
abbrev cc5_sem4_1 : DmaSem sig := 44

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_16 : BitVec 32 := 0#32
  let v23 : BitVec 1 := Scalar.cmpi .eq arg1 c0_i32_16
  let v24 : BitVec 32 := Scalar.extui v23
  let c0_i32_17 : BitVec 32 := 0#32
  let v25 : BitVec 1 := Scalar.cmpi .ne v24 c0_i32_17
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x5000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x5000x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S5000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev grid1 : Pipeline.Grid := ⟨2, ![20, 3], ![false, false]⟩

def k1_cond2 (i : grid1.Coords) : BitVec 1 :=
  let arg1 : BitVec 32 := BitVec.ofNat 32 (i 1).val
  let c2_i32 : BitVec 32 := 2#32
  let v23 : BitVec 1 := Scalar.cmpi .eq arg1 c2_i32
  let v24 : BitVec 32 := Scalar.extui v23
  let c0_i32_16 : BitVec 32 := 0#32
  let v25 : BitVec 1 := Scalar.cmpi .ne v24 c0_i32_16
  v25

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![1, 1], ![false, false]⟩

def k2_cond2 (i : grid2.Coords) : BitVec 1 :=
  let arg1 : BitVec 32 := BitVec.ofNat 32 (i 1).val
  let c0_i32_16 : BitVec 32 := 0#32
  let v23 : BitVec 1 := Scalar.cmpi .eq arg1 c0_i32_16
  let v24 : BitVec 32 := Scalar.extui v23
  let c0_i32_17 : BitVec 32 := 0#32
  let v25 : BitVec 1 := Scalar.cmpi .ne v24 c0_i32_17
  v25

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 1 → Memref sig .tc .vmem S1x5000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, true]

abbrev stage2_1 : Fin 1 → Memref sig .tc .vmem S1x5000x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, true]

abbrev stage2_2 : Fin 1 → Memref sig .tc .vmem S1x128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 1 → Memref sig .tc .vmem S1x1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, true]

abbrev stage2_4 : Fin 1 → Memref sig .tc .vmem S5000x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true, false]

abbrev grid3 : Pipeline.Grid := ⟨2, ![20, 3], ![false, false]⟩

def k3_cond2 (i : grid3.Coords) : BitVec 1 :=
  let arg1 : BitVec 32 := BitVec.ofNat 32 (i 1).val
  let c2_i32 : BitVec 32 := 2#32
  let v23 : BitVec 1 := Scalar.cmpi .eq arg1 c2_i32
  let v24 : BitVec 32 := Scalar.extui v23
  let c0_i32_16 : BitVec 32 := 0#32
  let v25 : BitVec 1 := Scalar.cmpi .ne v24 c0_i32_16
  v25

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x128x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1x1x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![1, 1], ![false, false]⟩

def k4_cond2 (i : grid4.Coords) : BitVec 1 :=
  let arg1 : BitVec 32 := BitVec.ofNat 32 (i 1).val
  let c0_i32_16 : BitVec 32 := 0#32
  let v23 : BitVec 1 := Scalar.cmpi .eq arg1 c0_i32_16
  let v24 : BitVec 32 := Scalar.extui v23
  let c0_i32_17 : BitVec 32 := 0#32
  let v25 : BitVec 1 := Scalar.cmpi .ne v24 c0_i32_17
  v25

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 1 → Memref sig .tc .vmem S1x5000x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, true]

abbrev stage4_1 : Fin 1 → Memref sig .tc .vmem S1x5000x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, true]

abbrev stage4_2 : Fin 1 → Memref sig .tc .vmem S1x128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, true]

abbrev stage4_3 : Fin 1 → Memref sig .tc .vmem S1x1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, true]

abbrev stage4_4 : Fin 1 → Memref sig .tc .vmem S5000x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true, false]

abbrev grid5 : Pipeline.Grid := ⟨2, ![20, 3], ![false, false]⟩

def k5_cond2 (i : grid5.Coords) : BitVec 1 :=
  let arg1 : BitVec 32 := BitVec.ofNat 32 (i 1).val
  let c2_i32 : BitVec 32 := 2#32
  let v23 : BitVec 1 := Scalar.cmpi .eq arg1 c2_i32
  let v24 : BitVec 32 := Scalar.extui v23
  let c0_i32_16 : BitVec 32 := 0#32
  let v25 : BitVec 1 := Scalar.cmpi .ne v24 c0_i32_16
  v25

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x128x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S1x1x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S5000 : S_.BroadcastsInDim S5000 (![] : Fin 0 → Fin S5000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S5000x128 : S_.BroadcastsInDim S5000x128 (![] : Fin 0 → Fin S5000x128.rank)
  bcast_S5000x128_S1x5000x128_1_2 : S5000x128.BroadcastsInDim S1x5000x128 (![1, 2] : Fin 2 → Fin S1x5000x128.rank)
  bcast_S5000_S1x5000_1 : S5000.BroadcastsInDim S1x5000 (![1] : Fin 1 → Fin S1x5000.rank)
  slices_S4x128x128_S1x128x128_0_0_0 : S4x128x128.Slices ![0, 0, 0] S1x128x128
  slices_S4x128_S1x128_0_0 : S4x128.Slices ![0, 0] S1x128
  shapeCasts_S1x5000_S1x5000x1 : S1x5000.ShapeCasts S1x5000x1
  shapeCasts_S1x128_S1x1x128 : S1x128.ShapeCasts S1x1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  inb_S1x5000x1_S1x5000x1_0_0_0 : ∀ a, (![0, 0, 0] : Fin 3 → Nat) a + S1x5000x1.size a ≤ S1x5000x1.size a
  h_S1x5000x1 : 0 < S1x5000x1.numel
  shapeCasts_S1x5000x1_S5000x1 : S1x5000x1.ShapeCasts S5000x1
  broadcasts_S5000x1_S5000x128 : S5000x1.Broadcasts S5000x128
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S5000x128 : S1x128.Broadcasts S5000x128
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  bcast_S_S100000x128 : S_.BroadcastsInDim S100000x128 (![] : Fin 0 → Fin S100000x128.rank)
  bcast_S100000x128_S1x100000x128_1_2 : S100000x128.BroadcastsInDim S1x100000x128 (![1, 2] : Fin 2 → Fin S1x100000x128.rank)
  concatenates_S1x100000x128_S1x100000x128_S1x100000x128_S3x100000x128_d0 : Shape.Concatenates [S1x100000x128, S1x100000x128, S1x100000x128] S3x100000x128 0
  bcast_S100000_S1x100000_1 : S100000.BroadcastsInDim S1x100000 (![1] : Fin 1 → Fin S1x100000.rank)
  concatenates_S1x100000_S1x100000_S1x100000_S3x100000_d0 : Shape.Concatenates [S1x100000, S1x100000, S1x100000] S3x100000 0
  slices_S4x128x128_S3x128x128_1_0_0 : S4x128x128.Slices ![1, 0, 0] S3x128x128
  slices_S4x128_S3x128_1_0 : S4x128.Slices ![1, 0] S3x128
  shapeCasts_S3x100000_S3x100000x1 : S3x100000.ShapeCasts S3x100000x1
  shapeCasts_S3x128_S3x1x128 : S3x128.ShapeCasts S3x1x128
  slices_S4x128x64_S1x128x64_0_0_0 : S4x128x64.Slices ![0, 0, 0] S1x128x64
  slices_S4x64_S1x64_0_0 : S4x64.Slices ![0, 0] S1x64
  shapeCasts_S1x64_S1x1x64 : S1x64.ShapeCasts S1x1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S5000x64 : S1x64.Broadcasts S5000x64
  slices_S4x128x64_S3x128x64_1_0_0 : S4x128x64.Slices ![1, 0, 0] S3x128x64
  slices_S4x64_S3x64_1_0 : S4x64.Slices ![1, 0] S3x64
  shapeCasts_S3x64_S3x1x64 : S3x64.ShapeCasts S3x1x64
  scatter_S100000_S1000000x1_S1000000_n_0_0_1_wf : ScatterDims.WF S100000 S1000000x1 S1000000 [] [0] [0] 1
  scatter_S5000_S1000000x1_S1000000_n_0_0_1_wf : ScatterDims.WF S5000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S5000x128_S1000000x1_S1000000x128_1_0_0_1_wf : ScatterDims.WF S5000x128 S1000000x1 S1000000x128 [1] [0] [0] 1
  dot_S5000x128_S128x128_S5000x128_1_0_0_1_n_n_wf : DotDims.WF S5000x128 S128x128 S5000x128 [1] [0] [0] [1] [] []
  gather_S5000x128_S1000000x1_S1000000x128_1_0_n_n_0_1_1128_wf : GatherDims.WF S5000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S1x5000x128.size a ≤ S1x5000x128.size a
  hwx0_0 : ∀ i : grid0.Coords, EltTy.bits .f32 = 32 ∨ (Rect.block (s := S1x5000x128) S1x5000x128.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S1x5000x1.size a ≤ S1x5000x1.size a
  hwx0_1 : ∀ i : grid0.Coords, EltTy.bits .f32 = 32 ∨ (Rect.block (s := S1x5000x1) S1x5000x1.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S1x128x128.size a
  hwx0_2 : ∀ i : grid0.Coords, EltTy.bits .f32 = 32 ∨ (Rect.block (s := S1x128x128) S1x128x128.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S1x1x128.size a
  hwx0_3 : ∀ i : grid0.Coords, EltTy.bits .f32 = 32 ∨ (Rect.block (s := S1x1x128) S1x1x128.size (cc0_transform_3 i) (hinb0_3 i)).WholeWords (EltTy.packing .f32)
  hstage0_4 : ∀ j, (stage0_4 j).IsWhole
  nbuf0_4 : grid0.bufCount reads0_4 false = 1
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S5000x128.size a
  hwx0_4 : ∀ i : grid0.Coords, EltTy.bits .f32 = 32 ∨ (Rect.block (s := S5000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x5000x128.size a ≤ S3x100000x128.size a
  hwx1_0 : ∀ i : grid1.Coords, EltTy.bits .f32 = 32 ∨ (Rect.block (s := S3x100000x128) S1x5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x5000x1.size a ≤ S3x100000x1.size a
  hwx1_1 : ∀ i : grid1.Coords, EltTy.bits .f32 = 32 ∨ (Rect.block (s := S3x100000x1) S1x5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128.size a ≤ S3x128x128.size a
  hwx1_2 : ∀ i : grid1.Coords, EltTy.bits .f32 = 32 ∨ (Rect.block (s := S3x128x128) S1x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S3x1x128.size a
  hwx1_3 : ∀ i : grid1.Coords, EltTy.bits .f32 = 32 ∨ (Rect.block (s := S3x1x128) S1x1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S1x5000x128.size a ≤ S1x5000x128.size a
  hwx2_0 : ∀ i : grid2.Coords, EltTy.bits .f32 = 32 ∨ (Rect.block (s := S1x5000x128) S1x5000x128.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1x5000x1.size a ≤ S1x5000x1.size a
  hwx2_1 : ∀ i : grid2.Coords, EltTy.bits .f32 = 32 ∨ (Rect.block (s := S1x5000x1) S1x5000x1.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x128x128.size a ≤ S1x128x128.size a
  hwx2_2 : ∀ i : grid2.Coords, EltTy.bits .f32 = 32 ∨ (Rect.block (s := S1x128x128) S1x128x128.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S1x1x128.size a ≤ S1x1x128.size a
  hwx2_3 : ∀ i : grid2.Coords, EltTy.bits .f32 = 32 ∨ (Rect.block (s := S1x1x128) S1x1x128.size (cc2_transform_3 i) (hinb2_3 i)).WholeWords (EltTy.packing .f32)
  hstage2_4 : ∀ j, (stage2_4 j).IsWhole
  nbuf2_4 : grid2.bufCount reads2_4 false = 1
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S5000x128.size a
  hwx2_4 : ∀ i : grid2.Coords, EltTy.bits .f32 = 32 ∨ (Rect.block (s := S5000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x5000x128.size a ≤ S3x100000x128.size a
  hwx3_0 : ∀ i : grid3.Coords, EltTy.bits .f32 = 32 ∨ (Rect.block (s := S3x100000x128) S1x5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x5000x1.size a ≤ S3x100000x1.size a
  hwx3_1 : ∀ i : grid3.Coords, EltTy.bits .f32 = 32 ∨ (Rect.block (s := S3x100000x1) S1x5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x128x128.size a ≤ S3x128x128.size a
  hwx3_2 : ∀ i : grid3.Coords, EltTy.bits .f32 = 32 ∨ (Rect.block (s := S3x128x128) S1x128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x128.size a ≤ S3x1x128.size a
  hwx3_3 : ∀ i : grid3.Coords, EltTy.bits .f32 = 32 ∨ (Rect.block (s := S3x1x128) S1x1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S1x5000x128.size a ≤ S1x5000x128.size a
  hwx4_0 : ∀ i : grid4.Coords, EltTy.bits .f32 = 32 ∨ (Rect.block (s := S1x5000x128) S1x5000x128.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S1x5000x1.size a ≤ S1x5000x1.size a
  hwx4_1 : ∀ i : grid4.Coords, EltTy.bits .f32 = 32 ∨ (Rect.block (s := S1x5000x1) S1x5000x1.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S1x128x64.size a ≤ S1x128x64.size a
  hwx4_2 : ∀ i : grid4.Coords, EltTy.bits .f32 = 32 ∨ (Rect.block (s := S1x128x64) S1x128x64.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S1x1x64.size a ≤ S1x1x64.size a
  hwx4_3 : ∀ i : grid4.Coords, EltTy.bits .f32 = 32 ∨ (Rect.block (s := S1x1x64) S1x1x64.size (cc4_transform_3 i) (hinb4_3 i)).WholeWords (EltTy.packing .f32)
  hstage4_4 : ∀ j, (stage4_4 j).IsWhole
  nbuf4_4 : grid4.bufCount reads4_4 false = 1
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S5000x64.size a
  hwx4_4 : ∀ i : grid4.Coords, EltTy.bits .f32 = 32 ∨ (Rect.block (s := S5000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x5000x128.size a ≤ S3x100000x128.size a
  hwx5_0 : ∀ i : grid5.Coords, EltTy.bits .f32 = 32 ∨ (Rect.block (s := S3x100000x128) S1x5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x5000x1.size a ≤ S3x100000x1.size a
  hwx5_1 : ∀ i : grid5.Coords, EltTy.bits .f32 = 32 ∨ (Rect.block (s := S3x100000x1) S1x5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x128x64.size a ≤ S3x128x64.size a
  hwx5_2 : ∀ i : grid5.Coords, EltTy.bits .f32 = 32 ∨ (Rect.block (s := S3x128x64) S1x128x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x1x64.size a ≤ S3x1x64.size a
  hwx5_3 : ∀ i : grid5.Coords, EltTy.bits .f32 = 32 ∨ (Rect.block (s := S3x1x64) S1x1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S5000_S1000000x1_S1000000_n_0_0_1 : ScatterDims S5000 S1000000x1 S1000000 where
  updateWindowDims := []
  insertedWindowDims := [0]
  scatterDimsToOperandDims := [0]
  indexVectorDim := 1
  wf := scatter_S5000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S5000x128_S1000000x1_S1000000x128_1_0_0_1 : ScatterDims S5000x128 S1000000x1 S1000000x128 where
  updateWindowDims := [1]
  insertedWindowDims := [0]
  scatterDimsToOperandDims := [0]
  indexVectorDim := 1
  wf := scatter_S5000x128_S1000000x1_S1000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S5000x128_S1000000x1_S1000000x128_1_0_n_n_0_1_1128 : GatherDims S5000x128 S1000000x1 S1000000x128 where
  offsetDims := [1]
  collapsedSliceDims := [0]
  operandBatchingDims := []
  startIndicesBatchingDims := []
  startIndexMap := [0]
  indexVectorDim := 1
  sliceSizes := ![1, 128]
  wf := gather_S5000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v38) S1x5000x128.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v42) S1x5000x1.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x128x128.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1x1x128.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S5000x128.size cc0_transform_4 reads0_4 true false 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v87) S1x5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v94) S1x5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v92) S1x128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v95) S1x1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v96) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v110) S1x5000x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v114) S1x5000x1.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v112) S1x128x128.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v115) S1x1x128.size cc2_transform_3 reads2_3 false false 1 stage2_3 sem2_3
    hrank2 hreads2_3 hinb2_3 nbuf2_3 (Memref.isWhole_whole _) hwx2_3 hstage2_3

abbrev win2_4 : Pipeline.Window sig grid2 :=
  Pipeline.Window.ofSpec (Memref.whole main_v116) S5000x128.size cc2_transform_4 reads2_4 true false 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v159) S1x5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v166) S1x5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v164) S1x128x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v167) S1x1x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v168) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v182) S1x5000x128.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v186) S1x5000x1.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v184) S1x128x64.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v187) S1x1x64.size cc4_transform_3 reads4_3 false false 1 stage4_3 sem4_3
    hrank4 hreads4_3 hinb4_3 nbuf4_3 (Memref.isWhole_whole _) hwx4_3 hstage4_3

abbrev win4_4 : Pipeline.Window sig grid4 :=
  Pipeline.Window.ofSpec (Memref.whole main_v188) S5000x64.size cc4_transform_4 reads4_4 true false 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v231) S1x5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v238) S1x5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v236) S1x128x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v239) S1x1x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v240) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S5000x128 : Shape := ⟨2, ![5000, 128]⟩
abbrev S1000000 : Shape := ⟨1, ![1000000]⟩
abbrev S4x128x128 : Shape := ⟨3, ![4, 128, 128]⟩
abbrev S4x128 : Shape := ⟨2, ![4, 128]⟩
abbrev S4x128x64 : Shape := ⟨3, ![4, 128, 64]⟩
abbrev S4x64 : Shape := ⟨2, ![4, 64]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S100000 : Shape := ⟨1, ![100000]⟩
abbrev S1000000x1 : Shape := ⟨2, ![1000000, 1]⟩
abbrev S5000 : Shape := ⟨1, ![5000]⟩
abbrev S100000x1 : Shape := ⟨2, ![100000, 1]⟩
abbrev S1000000x128 : Shape := ⟨2, ![1000000, 128]⟩
abbrev S5000x1 : Shape := ⟨2, ![5000, 1]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S5000x64 : Shape := ⟨2, ![5000, 64]⟩
abbrev S100000x64 : Shape := ⟨2, ![100000, 64]⟩

abbrev nBuf : Space → Nat
  | .hbm => 570
  | .vmem => 0
  | .smem => 0
  | _ => 0

abbrev hbmTy0_0 (i : Nat) : BufTy := match i % 128 with
  | 0 => ⟨S100000x128, .f32⟩
  | 1 => ⟨S5000x128, .f32⟩
  | 2 => ⟨S1000000, .i32⟩
  | 3 => ⟨S1000000, .i32⟩
  | 4 => ⟨S1000000, .i32⟩
  | 5 => ⟨S1000000, .i32⟩
  | 6 => ⟨S4x128x128, .f32⟩
  | 7 => ⟨S4x128, .f32⟩
  | 8 => ⟨S4x128x128, .f32⟩
  | 9 => ⟨S4x128, .f32⟩
  | 10 => ⟨S4x128x64, .f32⟩
  | 11 => ⟨S4x64, .f32⟩
  | 12 => ⟨S1x128x128, .f32⟩
  | 13 => ⟨S128x128, .f32⟩
  | 14 => ⟨S1x128, .f32⟩
  | 15 => ⟨S128, .f32⟩
  | 16 => ⟨S_, .f32⟩
  | 17 => ⟨S1000000, .f32⟩
  | 18 => ⟨S_, .f32⟩
  | 19 => ⟨S100000, .f32⟩
  | 20 => ⟨S1000000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S5000, .f32⟩
  | 27 => ⟨S1000000x1, .i32⟩
  | 28 => ⟨S5000, .f32⟩
  | 29 => ⟨S_, .f32⟩
  | 30 => ⟨S5000, .f32⟩
  | 31 => ⟨S5000, .f32⟩
  | 32 => ⟨S100000, .f32⟩
  | 33 => ⟨S100000x1, .f32⟩
  | 34 => ⟨S100000x128, .f32⟩
  | 35 => ⟨S100000x128, .f32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000x128, .f32⟩
  | 45 => ⟨S_, .f32⟩
  | 46 => ⟨S5000x128, .f32⟩
  | 47 => ⟨S1000000x1, .i32⟩
  | 48 => ⟨S5000x128, .f32⟩
  | 49 => ⟨S5000, .f32⟩
  | 50 => ⟨S5000x1, .f32⟩
  | 51 => ⟨S5000x128, .f32⟩
  | 52 => ⟨S5000x128, .f32⟩
  | 53 => ⟨S5000x128, .f32⟩
  | 54 => ⟨S1x128, .f32⟩
  | 55 => ⟨S5000x128, .f32⟩
  | 56 => ⟨S5000x128, .f32⟩
  | 57 => ⟨S1x128x128, .f32⟩
  | 58 => ⟨S128x128, .f32⟩
  | 59 => ⟨S1x128, .f32⟩
  | 60 => ⟨S128, .f32⟩
  | 61 => ⟨S_, .f32⟩
  | 62 => ⟨S1000000, .f32⟩
  | 63 => ⟨S_, .f32⟩
  | 64 => ⟨S5000, .f32⟩
  | 65 => ⟨S1000000x1, .i32⟩
  | 66 => ⟨S5000, .f32⟩
  | 67 => ⟨S_, .f32⟩
  | 68 => ⟨S5000, .f32⟩
  | 69 => ⟨S5000, .f32⟩
  | 70 => ⟨S_, .f32⟩
  | 71 => ⟨S100000, .f32⟩
  | 72 => ⟨S1000000x1, .i32⟩
  | 73 => ⟨S100000, .f32⟩
  | 74 => ⟨S_, .f32⟩
  | 75 => ⟨S100000, .f32⟩
  | 76 => ⟨S100000, .f32⟩
  | 77 => ⟨S5000, .f32⟩
  | 78 => ⟨S5000x1, .f32⟩
  | 79 => ⟨S5000x128, .f32⟩
  | 80 => ⟨S5000x128, .f32⟩
  | 81 => ⟨S_, .i32⟩
  | 82 => ⟨S1000000, .i32⟩
  | 83 => ⟨S1000000, .i1⟩
  | 84 => ⟨S_, .i32⟩
  | 85 => ⟨S1000000, .i32⟩
  | 86 => ⟨S1000000, .i32⟩
  | 87 => ⟨S1000000, .i32⟩
  | 88 => ⟨S1000000x1, .i32⟩
  | 89 => ⟨S1000000x128, .f32⟩
  | 90 => ⟨S_, .f32⟩
  | 91 => ⟨S100000x128, .f32⟩
  | 92 => ⟨S1000000x1, .i32⟩
  | 93 => ⟨S100000x128, .f32⟩
  | 94 => ⟨S100000, .f32⟩
  | 95 => ⟨S100000x1, .f32⟩
  | 96 => ⟨S100000x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S1x128x128, .f32⟩
  | 103 => ⟨S128x128, .f32⟩
  | 104 => ⟨S1x128, .f32⟩
  | 105 => ⟨S128, .f32⟩
  | 106 => ⟨S_, .f32⟩
  | 107 => ⟨S1000000, .f32⟩
  | 108 => ⟨S_, .f32⟩
  | 109 => ⟨S100000, .f32⟩
  | 110 => ⟨S1000000x1, .i32⟩
  | 111 => ⟨S100000, .f32⟩
  | 112 => ⟨S_, .f32⟩
  | 113 => ⟨S100000, .f32⟩
  | 114 => ⟨S100000, .f32⟩
  | 115 => ⟨S_, .f32⟩
  | 116 => ⟨S100000, .f32⟩
  | 117 => ⟨S1000000x1, .i32⟩
  | 118 => ⟨S100000, .f32⟩
  | 119 => ⟨S_, .f32⟩
  | 120 => ⟨S100000, .f32⟩
  | 121 => ⟨S100000, .f32⟩
  | 122 => ⟨S100000, .f32⟩
  | 123 => ⟨S100000x1, .f32⟩
  | 124 => ⟨S100000x128, .f32⟩
  | 125 => ⟨S100000x128, .f32⟩
  | 126 => ⟨S_, .i32⟩
  | 127 => ⟨S1000000, .i32⟩
  | _ => ⟨S100000x128, .f32⟩

abbrev hbmTy0_1 (i : Nat) : BufTy := match i % 128 with
  | 0 => ⟨S1000000, .i1⟩
  | 1 => ⟨S_, .i32⟩
  | 2 => ⟨S1000000, .i32⟩
  | 3 => ⟨S1000000, .i32⟩
  | 4 => ⟨S1000000, .i32⟩
  | 5 => ⟨S1000000x1, .i32⟩
  | 6 => ⟨S1000000x128, .f32⟩
  | 7 => ⟨S_, .f32⟩
  | 8 => ⟨S100000x128, .f32⟩
  | 9 => ⟨S1000000x1, .i32⟩
  | 10 => ⟨S100000x128, .f32⟩
  | 11 => ⟨S100000, .f32⟩
  | 12 => ⟨S100000x1, .f32⟩
  | 13 => ⟨S100000x128, .f32⟩
  | 14 => ⟨S100000x128, .f32⟩
  | 15 => ⟨S100000x128, .f32⟩
  | 16 => ⟨S1x128, .f32⟩
  | 17 => ⟨S100000x128, .f32⟩
  | 18 => ⟨S100000x128, .f32⟩
  | 19 => ⟨S100000x128, .f32⟩
  | 20 => ⟨S1x128x128, .f32⟩
  | 21 => ⟨S128x128, .f32⟩
  | 22 => ⟨S1x128, .f32⟩
  | 23 => ⟨S128, .f32⟩
  | 24 => ⟨S_, .f32⟩
  | 25 => ⟨S1000000, .f32⟩
  | 26 => ⟨S_, .f32⟩
  | 27 => ⟨S100000, .f32⟩
  | 28 => ⟨S1000000x1, .i32⟩
  | 29 => ⟨S100000, .f32⟩
  | 30 => ⟨S_, .f32⟩
  | 31 => ⟨S100000, .f32⟩
  | 32 => ⟨S100000, .f32⟩
  | 33 => ⟨S_, .f32⟩
  | 34 => ⟨S100000, .f32⟩
  | 35 => ⟨S1000000x1, .i32⟩
  | 36 => ⟨S100000, .f32⟩
  | 37 => ⟨S_, .f32⟩
  | 38 => ⟨S100000, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000x128, .f32⟩
  | 53 => ⟨S_, .f32⟩
  | 54 => ⟨S100000x128, .f32⟩
  | 55 => ⟨S1000000x1, .i32⟩
  | 56 => ⟨S100000x128, .f32⟩
  | 57 => ⟨S100000, .f32⟩
  | 58 => ⟨S100000x1, .f32⟩
  | 59 => ⟨S100000x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S_, .f32⟩
  | 70 => ⟨S5000x128, .f32⟩
  | 71 => ⟨S5000x128, .f32⟩
  | 72 => ⟨S1x128x128, .f32⟩
  | 73 => ⟨S128x128, .f32⟩
  | 74 => ⟨S1x128, .f32⟩
  | 75 => ⟨S128, .f32⟩
  | 76 => ⟨S_, .f32⟩
  | 77 => ⟨S1000000, .f32⟩
  | 78 => ⟨S_, .f32⟩
  | 79 => ⟨S100000, .f32⟩
  | 80 => ⟨S1000000x1, .i32⟩
  | 81 => ⟨S100000, .f32⟩
  | 82 => ⟨S_, .f32⟩
  | 83 => ⟨S100000, .f32⟩
  | 84 => ⟨S100000, .f32⟩
  | 85 => ⟨S_, .f32⟩
  | 86 => ⟨S5000, .f32⟩
  | 87 => ⟨S1000000x1, .i32⟩
  | 88 => ⟨S5000, .f32⟩
  | 89 => ⟨S_, .f32⟩
  | 90 => ⟨S5000, .f32⟩
  | 91 => ⟨S5000, .f32⟩
  | 92 => ⟨S100000, .f32⟩
  | 93 => ⟨S100000x1, .f32⟩
  | 94 => ⟨S100000x128, .f32⟩
  | 95 => ⟨S100000x128, .f32⟩
  | 96 => ⟨S_, .i32⟩
  | 97 => ⟨S1000000, .i32⟩
  | 98 => ⟨S1000000, .i1⟩
  | 99 => ⟨S_, .i32⟩
  | 100 => ⟨S1000000, .i32⟩
  | 101 => ⟨S1000000, .i32⟩
  | 102 => ⟨S1000000, .i32⟩
  | 103 => ⟨S1000000x1, .i32⟩
  | 104 => ⟨S1000000x128, .f32⟩
  | 105 => ⟨S_, .f32⟩
  | 106 => ⟨S5000x128, .f32⟩
  | 107 => ⟨S1000000x1, .i32⟩
  | 108 => ⟨S5000x128, .f32⟩
  | 109 => ⟨S5000, .f32⟩
  | 110 => ⟨S5000x1, .f32⟩
  | 111 => ⟨S5000x128, .f32⟩
  | 112 => ⟨S5000x128, .f32⟩
  | 113 => ⟨S5000x128, .f32⟩
  | 114 => ⟨S1x128, .f32⟩
  | 115 => ⟨S5000x128, .f32⟩
  | 116 => ⟨S5000x128, .f32⟩
  | 117 => ⟨S1x128x128, .f32⟩
  | 118 => ⟨S128x128, .f32⟩
  | 119 => ⟨S1x128, .f32⟩
  | 120 => ⟨S128, .f32⟩
  | 121 => ⟨S_, .f32⟩
  | 122 => ⟨S1000000, .f32⟩
  | 123 => ⟨S_, .f32⟩
  | 124 => ⟨S5000, .f32⟩
  | 125 => ⟨S1000000x1, .i32⟩
  | 126 => ⟨S5000, .f32⟩
  | 127 => ⟨S_, .f32⟩
  | _ => ⟨S100000x128, .f32⟩

abbrev hbmTy0_2 (i : Nat) : BufTy := match i % 128 with
  | 0 => ⟨S5000, .f32⟩
  | 1 => ⟨S5000, .f32⟩
  | 2 => ⟨S_, .f32⟩
  | 3 => ⟨S100000, .f32⟩
  | 4 => ⟨S1000000x1, .i32⟩
  | 5 => ⟨S100000, .f32⟩
  | 6 => ⟨S_, .f32⟩
  | 7 => ⟨S100000, .f32⟩
  | 8 => ⟨S100000, .f32⟩
  | 9 => ⟨S5000, .f32⟩
  | 10 => ⟨S5000x1, .f32⟩
  | 11 => ⟨S5000x128, .f32⟩
  | 12 => ⟨S5000x128, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000x128, .f32⟩
  | 22 => ⟨S_, .f32⟩
  | 23 => ⟨S100000x128, .f32⟩
  | 24 => ⟨S1000000x1, .i32⟩
  | 25 => ⟨S100000x128, .f32⟩
  | 26 => ⟨S100000, .f32⟩
  | 27 => ⟨S100000x1, .f32⟩
  | 28 => ⟨S100000x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S1x128x128, .f32⟩
  | 35 => ⟨S128x128, .f32⟩
  | 36 => ⟨S1x128, .f32⟩
  | 37 => ⟨S128, .f32⟩
  | 38 => ⟨S_, .f32⟩
  | 39 => ⟨S1000000, .f32⟩
  | 40 => ⟨S_, .f32⟩
  | 41 => ⟨S100000, .f32⟩
  | 42 => ⟨S1000000x1, .i32⟩
  | 43 => ⟨S100000, .f32⟩
  | 44 => ⟨S_, .f32⟩
  | 45 => ⟨S100000, .f32⟩
  | 46 => ⟨S100000, .f32⟩
  | 47 => ⟨S_, .f32⟩
  | 48 => ⟨S100000, .f32⟩
  | 49 => ⟨S1000000x1, .i32⟩
  | 50 => ⟨S100000, .f32⟩
  | 51 => ⟨S_, .f32⟩
  | 52 => ⟨S100000, .f32⟩
  | 53 => ⟨S100000, .f32⟩
  | 54 => ⟨S100000, .f32⟩
  | 55 => ⟨S100000x1, .f32⟩
  | 56 => ⟨S100000x128, .f32⟩
  | 57 => ⟨S100000x128, .f32⟩
  | 58 => ⟨S_, .i32⟩
  | 59 => ⟨S1000000, .i32⟩
  | 60 => ⟨S1000000, .i1⟩
  | 61 => ⟨S_, .i32⟩
  | 62 => ⟨S1000000, .i32⟩
  | 63 => ⟨S1000000, .i32⟩
  | 64 => ⟨S1000000, .i32⟩
  | 65 => ⟨S1000000x1, .i32⟩
  | 66 => ⟨S1000000x128, .f32⟩
  | 67 => ⟨S_, .f32⟩
  | 68 => ⟨S100000x128, .f32⟩
  | 69 => ⟨S1000000x1, .i32⟩
  | 70 => ⟨S100000x128, .f32⟩
  | 71 => ⟨S100000, .f32⟩
  | 72 => ⟨S100000x1, .f32⟩
  | 73 => ⟨S100000x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S100000x128, .f32⟩
  | 80 => ⟨S1x128x128, .f32⟩
  | 81 => ⟨S128x128, .f32⟩
  | 82 => ⟨S1x128, .f32⟩
  | 83 => ⟨S128, .f32⟩
  | 84 => ⟨S_, .f32⟩
  | 85 => ⟨S1000000, .f32⟩
  | 86 => ⟨S_, .f32⟩
  | 87 => ⟨S100000, .f32⟩
  | 88 => ⟨S1000000x1, .i32⟩
  | 89 => ⟨S100000, .f32⟩
  | 90 => ⟨S_, .f32⟩
  | 91 => ⟨S100000, .f32⟩
  | 92 => ⟨S100000, .f32⟩
  | 93 => ⟨S_, .f32⟩
  | 94 => ⟨S100000, .f32⟩
  | 95 => ⟨S1000000x1, .i32⟩
  | 96 => ⟨S100000, .f32⟩
  | 97 => ⟨S_, .f32⟩
  | 98 => ⟨S100000, .f32⟩
  | 99 => ⟨S100000, .f32⟩
  | 100 => ⟨S100000, .f32⟩
  | 101 => ⟨S100000x1, .f32⟩
  | 102 => ⟨S100000x128, .f32⟩
  | 103 => ⟨S100000x128, .f32⟩
  | 104 => ⟨S_, .i32⟩
  | 105 => ⟨S1000000, .i32⟩
  | 106 => ⟨S1000000, .i1⟩
  | 107 => ⟨S_, .i32⟩
  | 108 => ⟨S1000000, .i32⟩
  | 109 => ⟨S1000000, .i32⟩
  | 110 => ⟨S1000000, .i32⟩
  | 111 => ⟨S1000000x1, .i32⟩
  | 112 => ⟨S1000000x128, .f32⟩
  | 113 => ⟨S_, .f32⟩
  | 114 => ⟨S100000x128, .f32⟩
  | 115 => ⟨S1000000x1, .i32⟩
  | 116 => ⟨S100000x128, .f32⟩
  | 117 => ⟨S100000, .f32⟩
  | 118 => ⟨S100000x1, .f32⟩
  | 119 => ⟨S100000x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_3 (i : Nat) : BufTy := match i % 128 with
  | 0 => ⟨S100000x128, .f32⟩
  | 1 => ⟨S_, .f32⟩
  | 2 => ⟨S5000x128, .f32⟩
  | 3 => ⟨S5000x128, .f32⟩
  | 4 => ⟨S1x128x64, .f32⟩
  | 5 => ⟨S128x64, .f32⟩
  | 6 => ⟨S1x64, .f32⟩
  | 7 => ⟨S64, .f32⟩
  | 8 => ⟨S_, .f32⟩
  | 9 => ⟨S1000000, .f32⟩
  | 10 => ⟨S_, .f32⟩
  | 11 => ⟨S100000, .f32⟩
  | 12 => ⟨S1000000x1, .i32⟩
  | 13 => ⟨S100000, .f32⟩
  | 14 => ⟨S_, .f32⟩
  | 15 => ⟨S100000, .f32⟩
  | 16 => ⟨S100000, .f32⟩
  | 17 => ⟨S_, .f32⟩
  | 18 => ⟨S5000, .f32⟩
  | 19 => ⟨S1000000x1, .i32⟩
  | 20 => ⟨S5000, .f32⟩
  | 21 => ⟨S_, .f32⟩
  | 22 => ⟨S5000, .f32⟩
  | 23 => ⟨S5000, .f32⟩
  | 24 => ⟨S100000, .f32⟩
  | 25 => ⟨S100000x1, .f32⟩
  | 26 => ⟨S100000x128, .f32⟩
  | 27 => ⟨S100000x128, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000x128, .f32⟩
  | 37 => ⟨S_, .f32⟩
  | 38 => ⟨S5000x128, .f32⟩
  | 39 => ⟨S1000000x1, .i32⟩
  | 40 => ⟨S5000x128, .f32⟩
  | 41 => ⟨S5000, .f32⟩
  | 42 => ⟨S5000x1, .f32⟩
  | 43 => ⟨S5000x128, .f32⟩
  | 44 => ⟨S5000x128, .f32⟩
  | 45 => ⟨S5000x64, .f32⟩
  | 46 => ⟨S1x64, .f32⟩
  | 47 => ⟨S5000x64, .f32⟩
  | 48 => ⟨S5000x64, .f32⟩
  | 49 => ⟨S1x128x64, .f32⟩
  | 50 => ⟨S128x64, .f32⟩
  | 51 => ⟨S1x64, .f32⟩
  | 52 => ⟨S64, .f32⟩
  | 53 => ⟨S_, .f32⟩
  | 54 => ⟨S1000000, .f32⟩
  | 55 => ⟨S_, .f32⟩
  | 56 => ⟨S5000, .f32⟩
  | 57 => ⟨S1000000x1, .i32⟩
  | 58 => ⟨S5000, .f32⟩
  | 59 => ⟨S_, .f32⟩
  | 60 => ⟨S5000, .f32⟩
  | 61 => ⟨S5000, .f32⟩
  | 62 => ⟨S_, .f32⟩
  | 63 => ⟨S100000, .f32⟩
  | 64 => ⟨S1000000x1, .i32⟩
  | 65 => ⟨S100000, .f32⟩
  | 66 => ⟨S_, .f32⟩
  | 67 => ⟨S100000, .f32⟩
  | 68 => ⟨S100000, .f32⟩
  | 69 => ⟨S5000, .f32⟩
  | 70 => ⟨S5000x1, .f32⟩
  | 71 => ⟨S5000x128, .f32⟩
  | 72 => ⟨S5000x128, .f32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1000000x128, .f32⟩
  | 82 => ⟨S_, .f32⟩
  | 83 => ⟨S100000x128, .f32⟩
  | 84 => ⟨S1000000x1, .i32⟩
  | 85 => ⟨S100000x128, .f32⟩
  | 86 => ⟨S100000, .f32⟩
  | 87 => ⟨S100000x1, .f32⟩
  | 88 => ⟨S100000x128, .f32⟩
  | 89 => ⟨S100000x128, .f32⟩
  | 90 => ⟨S100000x64, .f32⟩
  | 91 => ⟨S1x64, .f32⟩
  | 92 => ⟨S100000x64, .f32⟩
  | 93 => ⟨S100000x64, .f32⟩
  | 94 => ⟨S1x128x64, .f32⟩
  | 95 => ⟨S128x64, .f32⟩
  | 96 => ⟨S1x64, .f32⟩
  | 97 => ⟨S64, .f32⟩
  | 98 => ⟨S_, .f32⟩
  | 99 => ⟨S1000000, .f32⟩
  | 100 => ⟨S_, .f32⟩
  | 101 => ⟨S100000, .f32⟩
  | 102 => ⟨S1000000x1, .i32⟩
  | 103 => ⟨S100000, .f32⟩
  | 104 => ⟨S_, .f32⟩
  | 105 => ⟨S100000, .f32⟩
  | 106 => ⟨S100000, .f32⟩
  | 107 => ⟨S_, .f32⟩
  | 108 => ⟨S100000, .f32⟩
  | 109 => ⟨S1000000x1, .i32⟩
  | 110 => ⟨S100000, .f32⟩
  | 111 => ⟨S_, .f32⟩
  | 112 => ⟨S100000, .f32⟩
  | 113 => ⟨S100000, .f32⟩
  | 114 => ⟨S100000, .f32⟩
  | 115 => ⟨S100000x1, .f32⟩
  | 116 => ⟨S100000x128, .f32⟩
  | 117 => ⟨S100000x128, .f32⟩
  | 118 => ⟨S_, .i32⟩
  | 119 => ⟨S1000000, .i32⟩
  | 120 => ⟨S1000000, .i1⟩
  | 121 => ⟨S_, .i32⟩
  | 122 => ⟨S1000000, .i32⟩
  | 123 => ⟨S1000000, .i32⟩
  | 124 => ⟨S1000000, .i32⟩
  | 125 => ⟨S1000000x1, .i32⟩
  | 126 => ⟨S1000000x128, .f32⟩
  | 127 => ⟨S_, .f32⟩
  | _ => ⟨S100000x128, .f32⟩

abbrev hbmTy0_4 (i : Nat) : BufTy := match i % 128 with
  | 0 => ⟨S100000x128, .f32⟩
  | 1 => ⟨S1000000x1, .i32⟩
  | 2 => ⟨S100000x128, .f32⟩
  | 3 => ⟨S100000, .f32⟩
  | 4 => ⟨S100000x1, .f32⟩
  | 5 => ⟨S100000x128, .f32⟩
  | 6 => ⟨S100000x128, .f32⟩
  | 7 => ⟨S100000x64, .f32⟩
  | 8 => ⟨S1x64, .f32⟩
  | 9 => ⟨S100000x64, .f32⟩
  | 10 => ⟨S100000x64, .f32⟩
  | 11 => ⟨S100000x64, .f32⟩
  | 12 => ⟨S1x128x64, .f32⟩
  | 13 => ⟨S128x64, .f32⟩
  | 14 => ⟨S1x64, .f32⟩
  | 15 => ⟨S64, .f32⟩
  | 16 => ⟨S_, .f32⟩
  | 17 => ⟨S1000000, .f32⟩
  | 18 => ⟨S_, .f32⟩
  | 19 => ⟨S100000, .f32⟩
  | 20 => ⟨S1000000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S1000000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S100000x1, .f32⟩
  | 34 => ⟨S100000x128, .f32⟩
  | 35 => ⟨S100000x128, .f32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000x128, .f32⟩
  | 45 => ⟨S_, .f32⟩
  | 46 => ⟨S100000x128, .f32⟩
  | 47 => ⟨S1000000x1, .i32⟩
  | 48 => ⟨S100000x128, .f32⟩
  | 49 => ⟨S100000, .f32⟩
  | 50 => ⟨S100000x1, .f32⟩
  | 51 => ⟨S100000x128, .f32⟩
  | 52 => ⟨S100000x128, .f32⟩
  | 53 => ⟨S100000x64, .f32⟩
  | 54 => ⟨S1x64, .f32⟩
  | 55 => ⟨S100000x64, .f32⟩
  | 56 => ⟨S100000x64, .f32⟩
  | 57 => ⟨S100000x64, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_14 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_16 : Ref sig .tc := ⟨.hbm, 112, rfl⟩
abbrev main_v82 : Ref sig .tc := ⟨.hbm, 113, rfl⟩
abbrev main_v83 : Ref sig .tc := ⟨.hbm, 114, rfl⟩
abbrev main_cst_17 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_18 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_19 : Ref sig .tc := ⟨.hbm, 126, rfl⟩
abbrev main_v93 : Ref sig .tc := ⟨.hbm, 127, rfl⟩
abbrev main_v94 : Ref sig .tc := ⟨.hbm, 128, rfl⟩
abbrev main_c_20 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_21 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_22 : Ref sig .tc := ⟨.hbm, 152, rfl⟩
abbrev main_v116 : Ref sig .tc := ⟨.hbm, 153, rfl⟩
abbrev main_cst_23 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_24 : Ref sig .tc := ⟨.hbm, 158, rfl⟩
abbrev main_v120 : Ref sig .tc := ⟨.hbm, 159, rfl⟩
abbrev main_v121 : Ref sig .tc := ⟨.hbm, 160, rfl⟩
abbrev main_cst_25 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_26 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_c_27 : Ref sig .tc := ⟨.hbm, 172, rfl⟩
abbrev main_v131 : Ref sig .tc := ⟨.hbm, 173, rfl⟩
abbrev main_v132 : Ref sig .tc := ⟨.hbm, 174, rfl⟩
abbrev main_c_28 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_29 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_call0_cst : Ref sig .tc := ⟨.hbm, 194, rfl⟩
abbrev main_call0_v0 : Ref sig .tc := ⟨.hbm, 195, rfl⟩
abbrev main_v150 : Ref sig .tc := ⟨.hbm, 196, rfl⟩
abbrev main_call1_cst : Ref sig .tc := ⟨.hbm, 197, rfl⟩
abbrev main_call1_v0 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_cst_30 : Ref sig .tc := ⟨.hbm, 204, rfl⟩
abbrev main_v156 : Ref sig .tc := ⟨.hbm, 205, rfl⟩
abbrev main_cst_31 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_cst_32 : Ref sig .tc := ⟨.hbm, 210, rfl⟩
abbrev main_v160 : Ref sig .tc := ⟨.hbm, 211, rfl⟩
abbrev main_v161 : Ref sig .tc := ⟨.hbm, 212, rfl⟩
abbrev main_cst_33 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_cst_34 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_c_35 : Ref sig .tc := ⟨.hbm, 224, rfl⟩
abbrev main_v171 : Ref sig .tc := ⟨.hbm, 225, rfl⟩
abbrev main_v172 : Ref sig .tc := ⟨.hbm, 226, rfl⟩
abbrev main_c_36 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_cst_37 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_cst_38 : Ref sig .tc := ⟨.hbm, 249, rfl⟩
abbrev main_v193 : Ref sig .tc := ⟨.hbm, 250, rfl⟩
abbrev main_cst_39 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_cst_40 : Ref sig .tc := ⟨.hbm, 255, rfl⟩
abbrev main_v197 : Ref sig .tc := ⟨.hbm, 256, rfl⟩
abbrev main_v198 : Ref sig .tc := ⟨.hbm, 257, rfl⟩
abbrev main_cst_41 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_cst_42 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_c_43 : Ref sig .tc := ⟨.hbm, 269, rfl⟩
abbrev main_v208 : Ref sig .tc := ⟨.hbm, 270, rfl⟩
abbrev main_v209 : Ref sig .tc := ⟨.hbm, 271, rfl⟩
abbrev main_c_44 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_cst_45 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_cst_46 : Ref sig .tc := ⟨.hbm, 294, rfl⟩
abbrev main_v230 : Ref sig .tc := ⟨.hbm, 295, rfl⟩
abbrev main_cst_47 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_cst_48 : Ref sig .tc := ⟨.hbm, 300, rfl⟩
abbrev main_v234 : Ref sig .tc := ⟨.hbm, 301, rfl⟩
abbrev main_v235 : Ref sig .tc := ⟨.hbm, 302, rfl⟩
abbrev main_cst_49 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_cst_50 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_c_51 : Ref sig .tc := ⟨.hbm, 314, rfl⟩
abbrev main_v245 : Ref sig .tc := ⟨.hbm, 315, rfl⟩
abbrev main_v246 : Ref sig .tc := ⟨.hbm, 316, rfl⟩
abbrev main_c_52 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_cst_53 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_v262 : Ref sig .tc := ⟨.hbm, 334, rfl⟩
abbrev main_v263 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_v267 : Ref sig .tc := ⟨.hbm, 339, rfl⟩
abbrev main_cst_54 : Ref sig .tc := ⟨.hbm, 340, rfl⟩
abbrev main_v268 : Ref sig .tc := ⟨.hbm, 341, rfl⟩
abbrev main_cst_55 : Ref sig .tc := ⟨.hbm, 342, rfl⟩
abbrev main_v269 : Ref sig .tc := ⟨.hbm, 343, rfl⟩
abbrev main_v270 : Ref sig .tc := ⟨.hbm, 344, rfl⟩
abbrev main_v271 : Ref sig .tc := ⟨.hbm, 345, rfl⟩
abbrev main_cst_56 : Ref sig .tc := ⟨.hbm, 346, rfl⟩
abbrev main_v272 : Ref sig .tc := ⟨.hbm, 347, rfl⟩
abbrev main_v273 : Ref sig .tc := ⟨.hbm, 348, rfl⟩
abbrev main_cst_57 : Ref sig .tc := ⟨.hbm, 349, rfl⟩
abbrev main_v274 : Ref sig .tc := ⟨.hbm, 350, rfl⟩
abbrev main_v275 : Ref sig .tc := ⟨.hbm, 351, rfl⟩
abbrev main_v276 : Ref sig .tc := ⟨.hbm, 352, rfl⟩
abbrev main_cst_58 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_c_59 : Ref sig .tc := ⟨.hbm, 360, rfl⟩
abbrev main_v283 : Ref sig .tc := ⟨.hbm, 361, rfl⟩
abbrev main_v284 : Ref sig .tc := ⟨.hbm, 362, rfl⟩
abbrev main_c_60 : Ref sig .tc := ⟨.hbm, 363, rfl⟩
abbrev main_v285 : Ref sig .tc := ⟨.hbm, 364, rfl⟩
abbrev main_v286 : Ref sig .tc := ⟨.hbm, 365, rfl⟩
abbrev main_v287 : Ref sig .tc := ⟨.hbm, 366, rfl⟩
abbrev main_v288 : Ref sig .tc := ⟨.hbm, 367, rfl⟩
abbrev main_v289 : Ref sig .tc := ⟨.hbm, 368, rfl⟩
abbrev main_cst_61 : Ref sig .tc := ⟨.hbm, 369, rfl⟩
abbrev main_v290 : Ref sig .tc := ⟨.hbm, 370, rfl⟩
abbrev main_v291 : Ref sig .tc := ⟨.hbm, 371, rfl⟩
abbrev main_v292 : Ref sig .tc := ⟨.hbm, 372, rfl⟩
abbrev main_v293 : Ref sig .tc := ⟨.hbm, 373, rfl⟩
abbrev main_v294 : Ref sig .tc := ⟨.hbm, 374, rfl⟩
abbrev main_v295 : Ref sig .tc := ⟨.hbm, 375, rfl⟩
abbrev main_v296 : Ref sig .tc := ⟨.hbm, 376, rfl⟩
abbrev main_v297 : Ref sig .tc := ⟨.hbm, 377, rfl⟩
abbrev main_v298 : Ref sig .tc := ⟨.hbm, 378, rfl⟩
abbrev main_v299 : Ref sig .tc := ⟨.hbm, 379, rfl⟩
abbrev main_v300 : Ref sig .tc := ⟨.hbm, 380, rfl⟩
abbrev main_v301 : Ref sig .tc := ⟨.hbm, 381, rfl⟩
abbrev main_call2_cst : Ref sig .tc := ⟨.hbm, 382, rfl⟩
abbrev main_call2_v0 : Ref sig .tc := ⟨.hbm, 383, rfl⟩
abbrev main_v302 : Ref sig .tc := ⟨.hbm, 384, rfl⟩
abbrev main_call3_cst : Ref sig .tc := ⟨.hbm, 385, rfl⟩
abbrev main_call3_v0 : Ref sig .tc := ⟨.hbm, 386, rfl⟩
abbrev main_v303 : Ref sig .tc := ⟨.hbm, 387, rfl⟩
abbrev main_v304 : Ref sig .tc := ⟨.hbm, 388, rfl⟩
abbrev main_v305 : Ref sig .tc := ⟨.hbm, 389, rfl⟩
abbrev main_v306 : Ref sig .tc := ⟨.hbm, 390, rfl⟩
abbrev main_v307 : Ref sig .tc := ⟨.hbm, 391, rfl⟩
abbrev main_cst_62 : Ref sig .tc := ⟨.hbm, 392, rfl⟩
abbrev main_v308 : Ref sig .tc := ⟨.hbm, 393, rfl⟩
abbrev main_cst_63 : Ref sig .tc := ⟨.hbm, 394, rfl⟩
abbrev main_v309 : Ref sig .tc := ⟨.hbm, 395, rfl⟩
abbrev main_v310 : Ref sig .tc := ⟨.hbm, 396, rfl⟩
abbrev main_v311 : Ref sig .tc := ⟨.hbm, 397, rfl⟩
abbrev main_cst_64 : Ref sig .tc := ⟨.hbm, 398, rfl⟩
abbrev main_v312 : Ref sig .tc := ⟨.hbm, 399, rfl⟩
abbrev main_v313 : Ref sig .tc := ⟨.hbm, 400, rfl⟩
abbrev main_cst_65 : Ref sig .tc := ⟨.hbm, 401, rfl⟩
abbrev main_v314 : Ref sig .tc := ⟨.hbm, 402, rfl⟩
abbrev main_v315 : Ref sig .tc := ⟨.hbm, 403, rfl⟩
abbrev main_v316 : Ref sig .tc := ⟨.hbm, 404, rfl⟩
abbrev main_cst_66 : Ref sig .tc := ⟨.hbm, 405, rfl⟩
abbrev main_v317 : Ref sig .tc := ⟨.hbm, 406, rfl⟩
abbrev main_v318 : Ref sig .tc := ⟨.hbm, 407, rfl⟩
abbrev main_v319 : Ref sig .tc := ⟨.hbm, 408, rfl⟩
abbrev main_v320 : Ref sig .tc := ⟨.hbm, 409, rfl⟩
abbrev main_v321 : Ref sig .tc := ⟨.hbm, 410, rfl⟩
abbrev main_v322 : Ref sig .tc := ⟨.hbm, 411, rfl⟩
abbrev main_c_67 : Ref sig .tc := ⟨.hbm, 412, rfl⟩
abbrev main_v323 : Ref sig .tc := ⟨.hbm, 413, rfl⟩
abbrev main_v324 : Ref sig .tc := ⟨.hbm, 414, rfl⟩
abbrev main_c_68 : Ref sig .tc := ⟨.hbm, 415, rfl⟩
abbrev main_v325 : Ref sig .tc := ⟨.hbm, 416, rfl⟩
abbrev main_v326 : Ref sig .tc := ⟨.hbm, 417, rfl⟩
abbrev main_v327 : Ref sig .tc := ⟨.hbm, 418, rfl⟩
abbrev main_v328 : Ref sig .tc := ⟨.hbm, 419, rfl⟩
abbrev main_v329 : Ref sig .tc := ⟨.hbm, 420, rfl⟩
abbrev main_cst_69 : Ref sig .tc := ⟨.hbm, 421, rfl⟩
abbrev main_v330 : Ref sig .tc := ⟨.hbm, 422, rfl⟩
abbrev main_v331 : Ref sig .tc := ⟨.hbm, 423, rfl⟩
abbrev main_v332 : Ref sig .tc := ⟨.hbm, 424, rfl⟩
abbrev main_v333 : Ref sig .tc := ⟨.hbm, 425, rfl⟩
abbrev main_v334 : Ref sig .tc := ⟨.hbm, 426, rfl⟩
abbrev main_v335 : Ref sig .tc := ⟨.hbm, 427, rfl⟩
abbrev main_v336 : Ref sig .tc := ⟨.hbm, 428, rfl⟩
abbrev main_v337 : Ref sig .tc := ⟨.hbm, 429, rfl⟩
abbrev main_v338 : Ref sig .tc := ⟨.hbm, 430, rfl⟩
abbrev main_v339 : Ref sig .tc := ⟨.hbm, 431, rfl⟩
abbrev main_v340 : Ref sig .tc := ⟨.hbm, 432, rfl⟩
abbrev main_v341 : Ref sig .tc := ⟨.hbm, 433, rfl⟩
abbrev main_v342 : Ref sig .tc := ⟨.hbm, 434, rfl⟩
abbrev main_v343 : Ref sig .tc := ⟨.hbm, 435, rfl⟩
abbrev main_v344 : Ref sig .tc := ⟨.hbm, 436, rfl⟩
abbrev main_cst_70 : Ref sig .tc := ⟨.hbm, 437, rfl⟩
abbrev main_v345 : Ref sig .tc := ⟨.hbm, 438, rfl⟩
abbrev main_cst_71 : Ref sig .tc := ⟨.hbm, 439, rfl⟩
abbrev main_v346 : Ref sig .tc := ⟨.hbm, 440, rfl⟩
abbrev main_v347 : Ref sig .tc := ⟨.hbm, 441, rfl⟩
abbrev main_v348 : Ref sig .tc := ⟨.hbm, 442, rfl⟩
abbrev main_cst_72 : Ref sig .tc := ⟨.hbm, 443, rfl⟩
abbrev main_v349 : Ref sig .tc := ⟨.hbm, 444, rfl⟩
abbrev main_v350 : Ref sig .tc := ⟨.hbm, 445, rfl⟩
abbrev main_cst_73 : Ref sig .tc := ⟨.hbm, 446, rfl⟩
abbrev main_v351 : Ref sig .tc := ⟨.hbm, 447, rfl⟩
abbrev main_v352 : Ref sig .tc := ⟨.hbm, 448, rfl⟩
abbrev main_v353 : Ref sig .tc := ⟨.hbm, 449, rfl⟩
abbrev main_cst_74 : Ref sig .tc := ⟨.hbm, 450, rfl⟩
abbrev main_v354 : Ref sig .tc := ⟨.hbm, 451, rfl⟩
abbrev main_v355 : Ref sig .tc := ⟨.hbm, 452, rfl⟩
abbrev main_v356 : Ref sig .tc := ⟨.hbm, 453, rfl⟩
abbrev main_v357 : Ref sig .tc := ⟨.hbm, 454, rfl⟩
abbrev main_v358 : Ref sig .tc := ⟨.hbm, 455, rfl⟩
abbrev main_v359 : Ref sig .tc := ⟨.hbm, 456, rfl⟩
abbrev main_c_75 : Ref sig .tc := ⟨.hbm, 457, rfl⟩
abbrev main_v360 : Ref sig .tc := ⟨.hbm, 458, rfl⟩
abbrev main_v361 : Ref sig .tc := ⟨.hbm, 459, rfl⟩
abbrev main_c_76 : Ref sig .tc := ⟨.hbm, 460, rfl⟩
abbrev main_v362 : Ref sig .tc := ⟨.hbm, 461, rfl⟩
abbrev main_v363 : Ref sig .tc := ⟨.hbm, 462, rfl⟩
abbrev main_v364 : Ref sig .tc := ⟨.hbm, 463, rfl⟩
abbrev main_v365 : Ref sig .tc := ⟨.hbm, 464, rfl⟩
abbrev main_v366 : Ref sig .tc := ⟨.hbm, 465, rfl⟩
abbrev main_cst_77 : Ref sig .tc := ⟨.hbm, 466, rfl⟩
abbrev main_v367 : Ref sig .tc := ⟨.hbm, 467, rfl⟩
abbrev main_v368 : Ref sig .tc := ⟨.hbm, 468, rfl⟩
abbrev main_v369 : Ref sig .tc := ⟨.hbm, 469, rfl⟩
abbrev main_v370 : Ref sig .tc := ⟨.hbm, 470, rfl⟩
abbrev main_v371 : Ref sig .tc := ⟨.hbm, 471, rfl⟩
abbrev main_v372 : Ref sig .tc := ⟨.hbm, 472, rfl⟩
abbrev main_v373 : Ref sig .tc := ⟨.hbm, 473, rfl⟩
abbrev main_v374 : Ref sig .tc := ⟨.hbm, 474, rfl⟩
abbrev main_v375 : Ref sig .tc := ⟨.hbm, 475, rfl⟩
abbrev main_v376 : Ref sig .tc := ⟨.hbm, 476, rfl⟩
abbrev main_v377 : Ref sig .tc := ⟨.hbm, 477, rfl⟩
abbrev main_v378 : Ref sig .tc := ⟨.hbm, 478, rfl⟩
abbrev main_v379 : Ref sig .tc := ⟨.hbm, 479, rfl⟩
abbrev main_v380 : Ref sig .tc := ⟨.hbm, 480, rfl⟩
abbrev main_v381 : Ref sig .tc := ⟨.hbm, 481, rfl⟩
abbrev main_cst_78 : Ref sig .tc := ⟨.hbm, 482, rfl⟩
abbrev main_v382 : Ref sig .tc := ⟨.hbm, 483, rfl⟩
abbrev main_cst_79 : Ref sig .tc := ⟨.hbm, 484, rfl⟩
abbrev main_v383 : Ref sig .tc := ⟨.hbm, 485, rfl⟩
abbrev main_v384 : Ref sig .tc := ⟨.hbm, 486, rfl⟩
abbrev main_v385 : Ref sig .tc := ⟨.hbm, 487, rfl⟩
abbrev main_cst_80 : Ref sig .tc := ⟨.hbm, 488, rfl⟩
abbrev main_v386 : Ref sig .tc := ⟨.hbm, 489, rfl⟩
abbrev main_v387 : Ref sig .tc := ⟨.hbm, 490, rfl⟩
abbrev main_cst_81 : Ref sig .tc := ⟨.hbm, 491, rfl⟩
abbrev main_v388 : Ref sig .tc := ⟨.hbm, 492, rfl⟩
abbrev main_v389 : Ref sig .tc := ⟨.hbm, 493, rfl⟩
abbrev main_v390 : Ref sig .tc := ⟨.hbm, 494, rfl⟩
abbrev main_cst_82 : Ref sig .tc := ⟨.hbm, 495, rfl⟩
abbrev main_v391 : Ref sig .tc := ⟨.hbm, 496, rfl⟩
abbrev main_v392 : Ref sig .tc := ⟨.hbm, 497, rfl⟩
abbrev main_v393 : Ref sig .tc := ⟨.hbm, 498, rfl⟩
abbrev main_v394 : Ref sig .tc := ⟨.hbm, 499, rfl⟩
abbrev main_v395 : Ref sig .tc := ⟨.hbm, 500, rfl⟩
abbrev main_v396 : Ref sig .tc := ⟨.hbm, 501, rfl⟩
abbrev main_c_83 : Ref sig .tc := ⟨.hbm, 502, rfl⟩
abbrev main_v397 : Ref sig .tc := ⟨.hbm, 503, rfl⟩
abbrev main_v398 : Ref sig .tc := ⟨.hbm, 504, rfl⟩
abbrev main_c_84 : Ref sig .tc := ⟨.hbm, 505, rfl⟩
abbrev main_v399 : Ref sig .tc := ⟨.hbm, 506, rfl⟩
abbrev main_v400 : Ref sig .tc := ⟨.hbm, 507, rfl⟩
abbrev main_v401 : Ref sig .tc := ⟨.hbm, 508, rfl⟩
abbrev main_v402 : Ref sig .tc := ⟨.hbm, 509, rfl⟩
abbrev main_v403 : Ref sig .tc := ⟨.hbm, 510, rfl⟩
abbrev main_cst_85 : Ref sig .tc := ⟨.hbm, 511, rfl⟩
abbrev main_v404 : Ref sig .tc := ⟨.hbm, 512, rfl⟩
abbrev main_v405 : Ref sig .tc := ⟨.hbm, 513, rfl⟩
abbrev main_v406 : Ref sig .tc := ⟨.hbm, 514, rfl⟩
abbrev main_v407 : Ref sig .tc := ⟨.hbm, 515, rfl⟩
abbrev main_v408 : Ref sig .tc := ⟨.hbm, 516, rfl⟩
abbrev main_v409 : Ref sig .tc := ⟨.hbm, 517, rfl⟩
abbrev main_v410 : Ref sig .tc := ⟨.hbm, 518, rfl⟩
abbrev main_v411 : Ref sig .tc := ⟨.hbm, 519, rfl⟩
abbrev main_v412 : Ref sig .tc := ⟨.hbm, 520, rfl⟩
abbrev main_v413 : Ref sig .tc := ⟨.hbm, 521, rfl⟩
abbrev main_v414 : Ref sig .tc := ⟨.hbm, 522, rfl⟩
abbrev main_v415 : Ref sig .tc := ⟨.hbm, 523, rfl⟩
abbrev main_v416 : Ref sig .tc := ⟨.hbm, 524, rfl⟩
abbrev main_v417 : Ref sig .tc := ⟨.hbm, 525, rfl⟩
abbrev main_v418 : Ref sig .tc := ⟨.hbm, 526, rfl⟩
abbrev main_v419 : Ref sig .tc := ⟨.hbm, 527, rfl⟩
abbrev main_cst_86 : Ref sig .tc := ⟨.hbm, 528, rfl⟩
abbrev main_v420 : Ref sig .tc := ⟨.hbm, 529, rfl⟩
abbrev main_cst_87 : Ref sig .tc := ⟨.hbm, 530, rfl⟩
abbrev main_v421 : Ref sig .tc := ⟨.hbm, 531, rfl⟩
abbrev main_v422 : Ref sig .tc := ⟨.hbm, 532, rfl⟩
abbrev main_v423 : Ref sig .tc := ⟨.hbm, 533, rfl⟩
abbrev main_cst_88 : Ref sig .tc := ⟨.hbm, 534, rfl⟩
abbrev main_v424 : Ref sig .tc := ⟨.hbm, 535, rfl⟩
abbrev main_v425 : Ref sig .tc := ⟨.hbm, 536, rfl⟩
abbrev main_cst_89 : Ref sig .tc := ⟨.hbm, 537, rfl⟩
abbrev main_v426 : Ref sig .tc := ⟨.hbm, 538, rfl⟩
abbrev main_v427 : Ref sig .tc := ⟨.hbm, 539, rfl⟩
abbrev main_v428 : Ref sig .tc := ⟨.hbm, 540, rfl⟩
abbrev main_cst_90 : Ref sig .tc := ⟨.hbm, 541, rfl⟩
abbrev main_v429 : Ref sig .tc := ⟨.hbm, 542, rfl⟩
abbrev main_v430 : Ref sig .tc := ⟨.hbm, 543, rfl⟩
abbrev main_v431 : Ref sig .tc := ⟨.hbm, 544, rfl⟩
abbrev main_v432 : Ref sig .tc := ⟨.hbm, 545, rfl⟩
abbrev main_v433 : Ref sig .tc := ⟨.hbm, 546, rfl⟩
abbrev main_v434 : Ref sig .tc := ⟨.hbm, 547, rfl⟩
abbrev main_c_91 : Ref sig .tc := ⟨.hbm, 548, rfl⟩
abbrev main_v435 : Ref sig .tc := ⟨.hbm, 549, rfl⟩
abbrev main_v436 : Ref sig .tc := ⟨.hbm, 550, rfl⟩
abbrev main_c_92 : Ref sig .tc := ⟨.hbm, 551, rfl⟩
abbrev main_v437 : Ref sig .tc := ⟨.hbm, 552, rfl⟩
abbrev main_v438 : Ref sig .tc := ⟨.hbm, 553, rfl⟩
abbrev main_v439 : Ref sig .tc := ⟨.hbm, 554, rfl⟩
abbrev main_v440 : Ref sig .tc := ⟨.hbm, 555, rfl⟩
abbrev main_v441 : Ref sig .tc := ⟨.hbm, 556, rfl⟩
abbrev main_cst_93 : Ref sig .tc := ⟨.hbm, 557, rfl⟩
abbrev main_v442 : Ref sig .tc := ⟨.hbm, 558, rfl⟩
abbrev main_v443 : Ref sig .tc := ⟨.hbm, 559, rfl⟩
abbrev main_v444 : Ref sig .tc := ⟨.hbm, 560, rfl⟩
abbrev main_v445 : Ref sig .tc := ⟨.hbm, 561, rfl⟩
abbrev main_v446 : Ref sig .tc := ⟨.hbm, 562, rfl⟩
abbrev main_v447 : Ref sig .tc := ⟨.hbm, 563, rfl⟩
abbrev main_v448 : Ref sig .tc := ⟨.hbm, 564, rfl⟩
abbrev main_v449 : Ref sig .tc := ⟨.hbm, 565, rfl⟩
abbrev main_v450 : Ref sig .tc := ⟨.hbm, 566, rfl⟩
abbrev main_v451 : Ref sig .tc := ⟨.hbm, 567, rfl⟩
abbrev main_v452 : Ref sig .tc := ⟨.hbm, 568, rfl⟩
abbrev main_v453 : Ref sig .tc := ⟨.hbm, 569, rfl⟩

abbrev nD : Nat := 1
abbrev τ : Topo := Topo.v7x

variable {F : FTy → Type} [FloatOps F]

class Facts₀ : Prop where
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S5000 : S_.BroadcastsInDim S5000 (![] : Fin 0 → Fin S5000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S5000x128 : S_.BroadcastsInDim S5000x128 (![] : Fin 0 → Fin S5000x128.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  bcast_S128_S1x128_1 : S128.BroadcastsInDim S1x128 (![1] : Fin 1 → Fin S1x128.rank)
  bcast_S1x128_S5000x128_0_1 : S1x128.BroadcastsInDim S5000x128 (![0, 1] : Fin 2 → Fin S5000x128.rank)
  slices_S4x128x128_S1x128x128_1_0_0 : S4x128x128.Slices ![1, 0, 0] S1x128x128
  slices_S4x128_S1x128_1_0 : S4x128.Slices ![1, 0] S1x128
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S5000x64_0_1 : S1x64.BroadcastsInDim S5000x64 (![0, 1] : Fin 2 → Fin S5000x64.rank)
  slices_S4x128x64_S1x128x64_1_0_0 : S4x128x64.Slices ![1, 0, 0] S1x128x64
  slices_S4x64_S1x64_1_0 : S4x64.Slices ![1, 0] S1x64
  bcast_S1x64_S100000x64_0_1 : S1x64.BroadcastsInDim S100000x64 (![0, 1] : Fin 2 → Fin S100000x64.rank)
  slices_S4x128x64_S1x128x64_2_0_0 : S4x128x64.Slices ![2, 0, 0] S1x128x64
  slices_S4x64_S1x64_2_0 : S4x64.Slices ![2, 0] S1x64
  slices_S4x128x64_S1x128x64_3_0_0 : S4x128x64.Slices ![3, 0, 0] S1x128x64
  slices_S4x64_S1x64_3_0 : S4x64.Slices ![3, 0] S1x64
  scatter_S100000_S1000000x1_S1000000_n_0_0_1_wf : ScatterDims.WF S100000 S1000000x1 S1000000 [] [0] [0] 1
  scatter_S5000_S1000000x1_S1000000_n_0_0_1_wf : ScatterDims.WF S5000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S5000x128_S1000000x1_S1000000x128_1_0_0_1_wf : ScatterDims.WF S5000x128 S1000000x1 S1000000x128 [1] [0] [0] 1
  dot_S5000x128_S128x128_S5000x128_1_0_0_1_n_n_wf : DotDims.WF S5000x128 S128x128 S5000x128 [1] [0] [0] [1] [] []
  gather_S5000x128_S1000000x1_S1000000x128_1_0_n_n_0_1_1128_wf : GatherDims.WF S5000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []
  dot_S5000x128_S128x64_S5000x64_1_0_0_1_n_n_wf : DotDims.WF S5000x128 S128x64 S5000x64 [1] [0] [0] [1] [] []
  dot_S100000x128_S128x64_S100000x64_1_0_0_1_n_n_wf : DotDims.WF S100000x128 S128x64 S100000x64 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S5000_S1000000x1_S1000000_n_0_0_1 : ScatterDims S5000 S1000000x1 S1000000 where
  updateWindowDims := []
  insertedWindowDims := [0]
  scatterDimsToOperandDims := [0]
  indexVectorDim := 1
  wf := scatter_S5000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S5000x128_S1000000x1_S1000000x128_1_0_0_1 : ScatterDims S5000x128 S1000000x1 S1000000x128 where
  updateWindowDims := [1]
  insertedWindowDims := [0]
  scatterDimsToOperandDims := [0]
  indexVectorDim := 1
  wf := scatter_S5000x128_S1000000x1_S1000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S5000x128_S1000000x1_S1000000x128_1_0_n_n_0_1_1128 : GatherDims S5000x128 S1000000x1 S1000000x128 where
  offsetDims := [1]
  collapsedSliceDims := [0]
  operandBatchingDims := []
  startIndicesBatchingDims := []
  startIndexMap := [0]
  indexVectorDim := 1
  sliceSizes := ![1, 128]
  wf := gather_S5000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.K.Reg0Run.lean ====
import proofs.«166004_j3839700763193_1_alg».proof.Proof.Gen.Kernel.Launch
import proofs.«166004_j3839700763193_1_alg».proof.Proof.Gen.Kernel.Skeleton
import proofs.«166004_j3839700763193_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body's conditions and its run at the region's single point -/

/-- The condition of the body's first conditional (the reduction coordinate is 0), from the grid coordinates. -/
abbrev cond0_0 (i : grid0.Coords) : Prop := (Scalar.cmpi .ne (Scalar.extui (Scalar.cmpi .eq (BitVec.ofNat 32 (i 1).val) 0#32)) 0#32) = 1#1
/-- It holds at every point of the grid (the reduction axis has extent 1). -/
theorem hcond0_0 : ∀ t : Fin cfg0.N, cond0_0 (grid0.coords t) :=
  (by decide +kernel : ∀ t : Fin grid0.N, cond0_0 (grid0.coords t))

/-- The condition of the body's second conditional (the reduction coordinate is the last one). -/
abbrev cond0_1 (i : grid0.Coords) : Prop := k0_cond2 i = 1#1
/-- It holds at every point of the grid. -/
theorem hcond0_1 : ∀ t : Fin cfg0.N, cond0_1 (grid0.coords t) :=
  (by decide +kernel : ∀ t : Fin grid0.N, cond0_1 (grid0.coords t))

/-- No window is idle at any point: the inputs never are, and the output is stored at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-- The scratch accumulator, a whole scoped buffer of the kernel's own, and its view. -/
abbrev scM0 : Memref sig .tc .vmem S5000x128 .f32 := Memref.whole cc0_scratch0
abbrev VS0 : View sig .tc .vmem S5000x128 .f32 := scM0.view
/-- One staging buffer of the output window, through which its contents are stated. -/
abbrev VO0 : View sig .tc .vmem S5000x128 .f32 := (Memref.whole cc0_stg4_0 : Memref sig .tc .vmem S5000x128 .f32).view

set_option maxHeartbeats 1000000 in
/-- The body on whole memrefs, both conditionals taken: from the four input blocks at `x0 … x3`, the output buffer and
    the accumulator at anything, it runs to the continuation holding the inputs as they were, and the output buffer
    and the accumulator with the listed pieces written (last store first). -/
noncomputable def kernelRun0 (c : Dev nD) (i : grid0.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond0_0 i) (hc1 : cond0_1 i)
    (x0 : Vec F S1x5000x128 .f32) (x1 : Vec F S1x5000x1 .f32) (x2 : Vec F S1x128x128 .f32) (x3 : Vec F S1x1x128 .f32) :
    Σ' (L4 : List (View.Piece (Elt F) S5000x128 .f32)), { LS0 : List (View.Piece (Elt F) S5000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.Reg0.lean ====
import proofs.«166004_j3839700763193_1_alg».proof.Proof.K.Reg0Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's data is stated at
variable (V : (c : Dev nD) → (b : Ref sig .tc) → Buf (Elt F) ((c : Thread nD τ).loc b))

/-! # Region 0: the proof data of the pipeline and its body obligation, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, for any proof data whose array is
    `V`'s (`hA`) and whose body leaves the block in place (`hafter`): the windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, spelled as the pipeline passes it, and its wholeness. -/
abbrev ms0_0 (t : Fin cfg0.N) : Memref sig .tc .vmem S1x5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5000x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5000x128 .f32 := win0_4.stage (cfg0.slots t 4)
abbrev hs0_4 (t : Fin cfg0.N) : (ms0_4 t).IsWhole := hstage0_4 ((cfg0.slots t 4).cast nbuf0_4)

/-- The region invariant the launch hands the body, with the accumulator split off the kernel's other scoped
    buffers: the accumulator whole at some contents, the remaining scoped buffers unopened, the generator register
    at some state. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-! ## What the body leaves in the output block and in the accumulator -/

/-- The pieces the run stores into the output block cover it (one whole-block store). -/
theorem cover0_4 (c : Dev nD) (i : grid0.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond0_0 i) (hc1 : cond0_1 i)
    (x0 : Vec F S1x5000x128 .f32) (x1 : Vec F S1x5000x1 .f32) (x2 : Vec F S1x128x128 .f32) (x3 : Vec F S1x1x128 .f32) (y : S5000x128.Idx) :
    ∃ pc ∈ (kernelRun0 c i arg2 harg2 arg3 harg3 arg4 harg4 arg5 harg5 arg6 harg6 arg7 harg7 hc0 hc1 x0 x1 x2 x3).1, y ∈ pc.1.set :=
  View.cover_of_tiledL (kernelRun0 c i arg2 harg2 arg3 harg3 arg4 harg4 arg5 harg5 arg6 harg6 arg7 harg7 hc0 hc1 x0 x1 x2 x3).1 S5000x128.size (by sl_kernel_rfl) y

/-- What the body leaves in the output window's staging buffer: its pieces read back. -/
def out0_4 (c : Dev nD) (i : grid0.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond0_0 i) (hc1 : cond0_1 i)
    (x0 : Vec F S1x5000x128 .f32) (x1 : Vec F S1x5000x1 .f32) (x2 : Vec F S1x128x128 .f32) (x3 : Vec F S1x1x128 .f32) : Vec F S5000x128 .f32 :=
  VO0.read (Elt F) (VO0.writes (Elt F) VO0.junk (kernelRun0 c i arg2 harg2 arg3 harg3 arg4 harg4 arg5 harg5 arg6 harg6 arg7 harg7 hc0 hc1 x0 x1 x2 x3).1)

/-- The pieces the run stores into the accumulator cover it (whole-block stores). -/
theorem scover0_0 (c : Dev nD) (i : grid0.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond0_0 i) (hc1 : cond0_1 i)
    (x0 : Vec F S1x5000x128 .f32) (x1 : Vec F S1x5000x1 .f32) (x2 : Vec F S1x128x128 .f32) (x3 : Vec F S1x1x128 .f32) (y : S5000x128.Idx) :
    ∃ pc ∈ (kernelRun0 c i arg2 harg2 arg3 harg3 arg4 harg4 arg5 harg5 arg6 harg6 arg7 harg7 hc0 hc1 x0 x1 x2 x3).2.1, y ∈ pc.1.set :=
  View.cover_of_tiledL (kernelRun0 c i arg2 harg2 arg3 harg3 arg4 harg4 arg5 harg5 arg6 harg6 arg7 harg7 hc0 hc1 x0 x1 x2 x3).2.1 S5000x128.size (by sl_kernel_rfl) y

/-- What the body leaves in the accumulator: its pieces read back. -/
def sout0_0 (c : Dev nD) (i : grid0.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond0_0 i) (hc1 : cond0_1 i)
    (x0 : Vec F S1x5000x128 .f32) (x1 : Vec F S1x5000x1 .f32) (x2 : Vec F S1x128x128 .f32) (x3 : Vec F S1x1x128 .f32) : Vec F S5000x128 .f32 :=
  VS0.read (Elt F) (VS0.writes (Elt F) VS0.junk (kernelRun0 c i arg2 harg2 arg3 harg3 arg4 harg4 arg5 harg5 arg6 harg6 arg7 harg7 hc0 hc1 x0 x1 x2 x3).2.1)

/-- The output block after the body at point `t`, from the point's input blocks. -/
def outAt0 (c : Dev nD) (t : Fin cfg0.N) : Vec F S5000x128 .f32 :=
  out0_4 c (grid0.coords t) (ms0_0 t) (hs0_0 t) (ms0_1 t) (hs0_1 t) (ms0_2 t) (hs0_2 t) (ms0_3 t) (hs0_3 t) (ms0_4 t) (hs0_4 t) scM0 (Memref.isWhole_whole _) (hcond0_0 t) (hcond0_1 t) (iblk0 V c 0 t) (iblk0 V c 1 t) (iblk0 V c 2 t) (iblk0 V c 3 t)

/-- The accumulator after the body at point `t`, from the point's input blocks. -/
def accAt0 (c : Dev nD) (t : Fin cfg0.N) : Vec F S5000x128 .f32 :=
  sout0_0 c (grid0.coords t) (ms0_0 t) (hs0_0 t) (ms0_1 t) (hs0_1 t) (ms0_2 t) (hs0_2 t) (ms0_3 t) (hs0_3 t) (ms0_4 t) (hs0_4 t) scM0 (Memref.isWhole_whole _) (hcond0_0 t) (hcond0_1 t) (iblk0 V c 0 t) (iblk0 V c 1 t) (iblk0 V c 2 t) (iblk0 V c 3 t)

/-! ## The invariant -/

/-- The region invariant before position `n`: before the first point what the launch hands over (`ΦA`); after point
    `n` the accumulator at what that point left in it, the kernel's other scoped buffers unopened and the generator
    register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c ⟨n, hn⟩)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c ⟨n, hn⟩)
      ∗ Pipeline.scopedRestBut (Ix := Unit) (Name := ℕ) (U := UR sig nD τ) (Lvl := ℕ) (Val := Elt F) spec0 c [cc0_scratch0]) ∗ (∃ r, prngReg c r)) := rfl

/-! ## The pipeline's proof data -/

/-- The proof data of pipeline 0 on core `c`: the arrays as the region finds them (`V`); after the body at point
    `t` each input's buffer at its block and the output's at `outAt0`; the invariant `PhiS0`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]

/-- Every array is held at the full share. -/
theorem share0 (c : Dev nD) : ∀ w, (dat0 V c).share w = fullShare := (dat0 V c).share_full fun _ => rfl

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at the region's point: the inputs' memrefs hold their blocks; the invariant hands the body the
    accumulator at some contents (the point is the first) and takes it back at this point's contents; the output
    buffer comes back at its pieces read back; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hz : t.val = 0 := by have hN : t.val < 1 := lt_of_lt_of_eq t.isLt (show cfg0.N = 1 from N_0); omega
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  unfold outAt0 accAt0 out0_4 sout0_0; (try dsimp only)
  rw [PhiS0_castSucc V c t, PhiS0_zero V c _ _ hz, PhiA0_eq]
  iintro ⟨⟨⟨HS0, Hrest⟩, Hg⟩, Ho, ⟨%d0, H0⟩, ⟨%d1, H1⟩, ⟨%d2, H2⟩, ⟨%d3, H3⟩, ⟨%d4, H4⟩⟩
  iapply ((kernelRun0 c (grid0.coords t) _ _ _ _ _ _ _ _ _ _ _ _ (hcond0_0 t) (hcond0_1 t) (iblk0 V c 0 t) (iblk0 V c 1 t) (iblk0 V c 2 t) (iblk0 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hrest Hg]
  · isplitl [HS0 Hrest]
    · isplitl [HS0]
      · unfold owns; iexists _; isplitr
        swap; · iexact HS0
        ipureintro; exact View.read_writes_of_cover _ _ _ _ _ (scover0_0 c _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_4 c _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (`ΦA`) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- Before a position that is not the first: the accumulator at what the point before left. -/
theorem PhiS0_pos (c : Dev nD) (n : ℕ) (h : n ≤ cfg0.N) (hz : n ≠ 0) :
    PhiS0 V c n h = iprop(iprop(owns (c : Thread nD τ) scM0 fullShare (accAt0 V c ⟨n - 1, by omega⟩)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- After any point the invariant gives `ΦA` back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 1 := N_0; omega)

end Cert.Kernel.Hand

end
-- ==== Proof.K.Reg1Runs.lean ====
import proofs.«166004_j3839700763193_1_alg».proof.Proof.Gen.Kernel.Launch
import proofs.«166004_j3839700763193_1_alg».proof.Proof.Gen.Kernel.Skeleton
import proofs.«166004_j3839700763193_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what the three control cases share

The grid is 20 × 3: point `t = 3·n + r` is reduction step `r` of row block `n`. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, for any proof data whose array is the
    entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, for any proof data whose array is the
    entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, for any proof data whose array is the
    entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditionals, in closed form over the grid -/

/-- The first conditional (reduction step 0: the accumulator is zeroed). -/
abbrev cond1_0 (i : grid1.Coords) : Prop := (Scalar.cmpi .ne (Scalar.extui (Scalar.cmpi .eq (BitVec.ofNat 32 (i 1).val) 0#32)) 0#32) = 1#1
/-- It holds exactly at the points `t ≡ 0 (mod 3)`. -/
theorem hcond1_0 : ∀ t : Fin cfg1.N, cond1_0 (grid1.coords t) ↔ t.val % 3 = 0 :=
  (by decide +kernel : ∀ t : Fin grid1.N, cond1_0 (grid1.coords t) ↔ t.val % 3 = 0)

/-- The second conditional (last reduction step: the output block is stored from the accumulator). -/
abbrev cond1_1 (i : grid1.Coords) : Prop := k1_cond2 i = 1#1
/-- It holds exactly at the points `t ≡ 2 (mod 3)`. -/
theorem hcond1_1 : ∀ t : Fin cfg1.N, cond1_1 (grid1.coords t) ↔ t.val % 3 = 2 :=
  (by decide +kernel : ∀ t : Fin grid1.N, cond1_1 (grid1.coords t) ↔ t.val % 3 = 2)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from the last reduction step the output window is idle: nothing is stored into it, -/
theorem idleAt1_4 : ∀ t : Fin cfg1.N, ¬ t.val % 3 = 2 → cfg1.idle 4 (grid1.coords t) = true :=
  (by decide +kernel : ∀ t : Fin grid1.N, ¬ t.val % 3 = 2 → cfg1.idle 4 (grid1.coords t) = true)
/-- and its block is not written back. -/
theorem noFlush1_4 : ∀ t : Fin cfg1.N, ¬ t.val % 3 = 2 → (cfg1.win 4).flush t = false :=
  (by decide +kernel : ∀ t : Fin grid1.N, ¬ t.val % 3 = 2 → (cfg1.win 4).flush t = false)
/-- At the last reduction step it is live. -/
theorem liveAt1_4 : ∀ t : Fin cfg1.N, t.val % 3 = 2 → cfg1.idle 4 (grid1.coords t) = false :=
  (by decide +kernel : ∀ t : Fin grid1.N, t.val % 3 = 2 → cfg1.idle 4 (grid1.coords t) = false)

/-! ## The staging memrefs and the scratch -/

/-- One staging buffer of the output window, through which its contents are stated. -/
abbrev VO1_4 : View sig .tc .vmem S5000x128 .f32 := (Memref.whole cc1_stg4_0 : Memref sig .tc .vmem S5000x128 .f32).view
/-- Each window's current staging memref at point `t`, spelled as the pipeline passes it, and its wholeness. -/
abbrev ms1_0 (t : Fin cfg1.N) : Memref sig .tc .vmem S1x5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S5000x128 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev scM1_0 : Memref sig .tc .vmem S5000x128 .f32 := Memref.whole cc1_scratch0
/-- The accumulator as a view: what it holds is stated through it. -/
abbrev VS1_0 : View sig .tc .vmem S5000x128 .f32 := scM1_0.view

/-- The other scoped buffers of the core (neither this call's staging buffers nor its accumulator), unopened. -/
abbrev restBut1 (c : Dev nD) : sProp 𝕄 :=
  Pipeline.scopedRestBut (Ix := Unit) (Name := ℕ) (U := UR sig nD τ) (Lvl := ℕ) (Val := Elt F) spec1 c [cc1_scratch0]

/-- The region invariant with the accumulator as a memref owned at some contents. -/
theorem PhiA1_eq (c : Dev nD) :
    (Pipeline.ΦA spec1 c : sProp 𝕄)
      = iprop(iprop(iprop((∃ d, owns (c : Thread nD τ) scM1_0 fullShare d)) ∗ restBut1 (F := F) c) ∗ (∃ r, prngReg c r)) := by
  unfold Pipeline.ΦA; rw [scopedRest1_split]; simp only [scM1_0, owns_whole]; try rfl

end Cert.Kernel.Hand

end
-- ==== Proof.K.Reg1RunA.lean ====
import proofs.«166004_j3839700763193_1_alg».proof.Proof.K.Reg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in case A (first reduction step: the accumulator is zeroed, then one contribution is added; the output window is left untouched): on whole staging memrefs — the inputs' at their contents `x·`, the accumulator at anything, the output's at contents `xi4` handed back untouched — the body
    runs to the continuation holding the inputs' as they were and each buffer it stored into with its pieces written
    (`L4` the output's, `LS0` the accumulator's; last store first). The pieces are the witness the run finds. -/
noncomputable def kernelRun1_A (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond1_0 i) (hc1 : ¬cond1_1 i)
    (x0 : Vec F S1x5000x128 .f32) (x1 : Vec F S1x5000x1 .f32) (x2 : Vec F S1x128x128 .f32) (x3 : Vec F S1x1x128 .f32) :
    Σ' (L4 : List (View.Piece (Elt F) S5000x128 .f32)), { LS0 : List (View.Piece (Elt F) S5000x128 .f32) //
      ∀ (xi4 : Vec F S5000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, fun xi4 E K => ?run⟩
  case run =>
    rw [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.Reg1RunB.lean ====
import proofs.«166004_j3839700763193_1_alg».proof.Proof.K.Reg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in case B (middle reduction step: one contribution is added to the accumulator; the output window is left untouched): on whole staging memrefs — the inputs' at their contents `x·`, the accumulator at what the step before left (`xs0`), the output's at contents `xi4` handed back untouched — the body
    runs to the continuation holding the inputs' as they were and each buffer it stored into with its pieces written
    (`L4` the output's, `LS0` the accumulator's; last store first). The pieces are the witness the run finds. -/
noncomputable def kernelRun1_B (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : ¬cond1_1 i)
    (x0 : Vec F S1x5000x128 .f32) (x1 : Vec F S1x5000x1 .f32) (x2 : Vec F S1x128x128 .f32) (x3 : Vec F S1x1x128 .f32) (xs0 : Vec F S5000x128 .f32) :
    Σ' (L4 : List (View.Piece (Elt F) S5000x128 .f32)), { LS0 : List (View.Piece (Elt F) S5000x128 .f32) //
      ∀ (xi4 : Vec F S5000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, fun xi4 E K => ?run⟩
  case run =>
    rw [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.Reg1RunC.lean ====
import proofs.«166004_j3839700763193_1_alg».proof.Proof.K.Reg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in case C (last reduction step: one contribution is added to the accumulator, then the output block is stored from it): on whole staging memrefs — the inputs' at their contents `x·`, the accumulator at what the step before left (`xs0`), the output's at anything — the body
    runs to the continuation holding the inputs' as they were and each buffer it stored into with its pieces written
    (`L4` the output's, `LS0` the accumulator's; last store first). The pieces are the witness the run finds. -/
noncomputable def kernelRun1_C (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : cond1_1 i)
    (x0 : Vec F S1x5000x128 .f32) (x1 : Vec F S1x5000x1 .f32) (x2 : Vec F S1x128x128 .f32) (x3 : Vec F S1x1x128 .f32) (xs0 : Vec F S5000x128 .f32) :
    Σ' (L4 : List (View.Piece (Elt F) S5000x128 .f32)), { LS0 : List (View.Piece (Elt F) S5000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, fun E K => ?run⟩
  case run =>
    rw [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.Reg1Val.lean ====
import proofs.«166004_j3839700763193_1_alg».proof.Proof.K.Reg1RunA
import proofs.«166004_j3839700763193_1_alg».proof.Proof.K.Reg1RunB
import proofs.«166004_j3839700763193_1_alg».proof.Proof.K.Reg1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what each control case leaves in the accumulator and in the output block

Every store of the body is of a whole buffer, through the rectangle at zero offsets of the buffer's own sizes; a
load through it reads the contents, and the last store through it leaves its payload. -/

private theorem zero2 : (![0, 0] : Fin 2 → ℕ) = fun _ => 0 := by funext a; fin_cases a <;> rfl
private theorem zero3 : (![0, 0, 0] : Fin 3 → ℕ) = fun _ => 0 := by funext a; fin_cases a <;> rfl

/-- Case A: the accumulator's last store is of the whole buffer, so its pieces cover it. -/
theorem scover1_A (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond1_0 i) (hc1 : ¬cond1_1 i)
    (x0 : Vec F S1x5000x128 .f32) (x1 : Vec F S1x5000x1 .f32) (x2 : Vec F S1x128x128 .f32) (x3 : Vec F S1x1x128 .f32) (y : S5000x128.Idx) :
    ∃ pc ∈ (kernelRun1_A c i arg2 harg2 arg3 harg3 arg4 harg4 arg5 harg5 arg6 harg6 arg7 harg7 hc0 hc1 x0 x1 x2 x3).2.1, y ∈ pc.1.set := by
  unfold kernelRun1_A; dsimp only
  sl_unfold_run_names
  exact ⟨_, List.mem_cons_self, View.mem_set_unit_zero (S := S5000x128) zero2 inb_S5000x128_S5000x128_0_0 y⟩

/-- Case A: what the accumulator's pieces amount to — one contribution added to zeros. -/
theorem cval1_A (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond1_0 i) (hc1 : ¬cond1_1 i)
    (x0 : Vec F S1x5000x128 .f32) (x1 : Vec F S1x5000x1 .f32) (x2 : Vec F S1x128x128 .f32) (x3 : Vec F S1x1x128 .f32) :
    View.canon (kernelRun1_A c i arg2 harg2 arg3 harg3 arg4 harg4 arg5 harg5 arg6 harg6 arg7 harg7 hc0 hc1 x0 x1 x2 x3).2.1 = k1_pay2 x0 x1 x2 k1_pay1 x3 := by
  unfold kernelRun1_A; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x128) zero3,
    View.ld_unit_zero (S := S1x1x128) zero3, View.ld_unit_zero (S := S5000x128) zero2]

/-- Case A: the accumulator read back through any view, over any prior contents. -/
theorem sval1_A (v : View sig .tc .vmem S5000x128 .f32) (f : v.ty.Contents (Elt F)) (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond1_0 i) (hc1 : ¬cond1_1 i)
    (x0 : Vec F S1x5000x128 .f32) (x1 : Vec F S1x5000x1 .f32) (x2 : Vec F S1x128x128 .f32) (x3 : Vec F S1x1x128 .f32) :
    v.read (Elt F) (v.writes (Elt F) f (kernelRun1_A c i arg2 harg2 arg3 harg3 arg4 harg4 arg5 harg5 arg6 harg6 arg7 harg7 hc0 hc1 x0 x1 x2 x3).2.1) = k1_pay2 x0 x1 x2 k1_pay1 x3 :=
  (View.read_writes_eq_canon v f _ (scover1_A c i arg2 harg2 arg3 harg3 arg4 harg4 arg5 harg5 arg6 harg6 arg7 harg7 hc0 hc1 x0 x1 x2 x3)).trans (cval1_A c i arg2 harg2 arg3 harg3 arg4 harg4 arg5 harg5 arg6 harg6 arg7 harg7 hc0 hc1 x0 x1 x2 x3)

/-- Case B: the accumulator's last store is of the whole buffer, so its pieces cover it. -/
theorem scover1_B (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : ¬cond1_1 i)
    (x0 : Vec F S1x5000x128 .f32) (x1 : Vec F S1x5000x1 .f32) (x2 : Vec F S1x128x128 .f32) (x3 : Vec F S1x1x128 .f32) (xs0 : Vec F S5000x128 .f32) (y : S5000x128.Idx) :
    ∃ pc ∈ (kernelRun1_B c i arg2 harg2 arg3 harg3 arg4 harg4 arg5 harg5 arg6 harg6 arg7 harg7 hc0 hc1 x0 x1 x2 x3 xs0).2.1, y ∈ pc.1.set := by
  unfold kernelRun1_B; dsimp only
  sl_unfold_run_names
  exact ⟨_, List.mem_cons_self, View.mem_set_unit_zero (S := S5000x128) zero2 inb_S5000x128_S5000x128_0_0 y⟩

/-- Case B: what the accumulator's pieces amount to — one contribution added to what the step before left. -/
theorem cval1_B (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : ¬cond1_1 i)
    (x0 : Vec F S1x5000x128 .f32) (x1 : Vec F S1x5000x1 .f32) (x2 : Vec F S1x128x128 .f32) (x3 : Vec F S1x1x128 .f32) (xs0 : Vec F S5000x128 .f32) :
    View.canon (kernelRun1_B c i arg2 harg2 arg3 harg3 arg4 harg4 arg5 harg5 arg6 harg6 arg7 harg7 hc0 hc1 x0 x1 x2 x3 xs0).2.1 = k1_pay2 x0 x1 x2 xs0 x3 := by
  unfold kernelRun1_B; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x128) zero3,
    View.ld_unit_zero (S := S1x1x128) zero3, View.ld_unit_zero (S := S5000x128) zero2]

/-- Case B: the accumulator read back through any view, over any prior contents. -/
theorem sval1_B (v : View sig .tc .vmem S5000x128 .f32) (f : v.ty.Contents (Elt F)) (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : ¬cond1_1 i)
    (x0 : Vec F S1x5000x128 .f32) (x1 : Vec F S1x5000x1 .f32) (x2 : Vec F S1x128x128 .f32) (x3 : Vec F S1x1x128 .f32) (xs0 : Vec F S5000x128 .f32) :
    v.read (Elt F) (v.writes (Elt F) f (kernelRun1_B c i arg2 harg2 arg3 harg3 arg4 harg4 arg5 harg5 arg6 harg6 arg7 harg7 hc0 hc1 x0 x1 x2 x3 xs0).2.1) = k1_pay2 x0 x1 x2 xs0 x3 :=
  (View.read_writes_eq_canon v f _ (scover1_B c i arg2 harg2 arg3 harg3 arg4 harg4 arg5 harg5 arg6 harg6 arg7 harg7 hc0 hc1 x0 x1 x2 x3 xs0)).trans (cval1_B c i arg2 harg2 arg3 harg3 arg4 harg4 arg5 harg5 arg6 harg6 arg7 harg7 hc0 hc1 x0 x1 x2 x3 xs0)

/-- Case C: the accumulator's last store is of the whole buffer, so its pieces cover it. -/
theorem scover1_C (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : cond1_1 i)
    (x0 : Vec F S1x5000x128 .f32) (x1 : Vec F S1x5000x1 .f32) (x2 : Vec F S1x128x128 .f32) (x3 : Vec F S1x1x128 .f32) (xs0 : Vec F S5000x128 .f32) (y : S5000x128.Idx) :
    ∃ pc ∈ (kernelRun1_C c i arg2 harg2 arg3 harg3 arg4 harg4 arg5 harg5 arg6 harg6 arg7 harg7 hc0 hc1 x0 x1 x2 x3 xs0).2.1, y ∈ pc.1.set := by
  unfold kernelRun1_C; dsimp only
  sl_unfold_run_names
  exact ⟨_, List.mem_cons_self, View.mem_set_unit_zero (S := S5000x128) zero2 inb_S5000x128_S5000x128_0_0 y⟩

/-- Case C: what the accumulator's pieces amount to — one contribution added to what the step before left. -/
theorem cval1_C (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : cond1_1 i)
    (x0 : Vec F S1x5000x128 .f32) (x1 : Vec F S1x5000x1 .f32) (x2 : Vec F S1x128x128 .f32) (x3 : Vec F S1x1x128 .f32) (xs0 : Vec F S5000x128 .f32) :
    View.canon (kernelRun1_C c i arg2 harg2 arg3 harg3 arg4 harg4 arg5 harg5 arg6 harg6 arg7 harg7 hc0 hc1 x0 x1 x2 x3 xs0).2.1 = k1_pay2 x0 x1 x2 xs0 x3 := by
  unfold kernelRun1_C; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x128) zero3,
    View.ld_unit_zero (S := S1x1x128) zero3, View.ld_unit_zero (S := S5000x128) zero2]

/-- Case C: the accumulator read back through any view, over any prior contents. -/
theorem sval1_C (v : View sig .tc .vmem S5000x128 .f32) (f : v.ty.Contents (Elt F)) (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : cond1_1 i)
    (x0 : Vec F S1x5000x128 .f32) (x1 : Vec F S1x5000x1 .f32) (x2 : Vec F S1x128x128 .f32) (x3 : Vec F S1x1x128 .f32) (xs0 : Vec F S5000x128 .f32) :
    v.read (Elt F) (v.writes (Elt F) f (kernelRun1_C c i arg2 harg2 arg3 harg3 arg4 harg4 arg5 harg5 arg6 harg6 arg7 harg7 hc0 hc1 x0 x1 x2 x3 xs0).2.1) = k1_pay2 x0 x1 x2 xs0 x3 :=
  (View.read_writes_eq_canon v f _ (scover1_C c i arg2 harg2 arg3 harg3 arg4 harg4 arg5 harg5 arg6 harg6 arg7 harg7 hc0 hc1 x0 x1 x2 x3 xs0)).trans (cval1_C c i arg2 harg2 arg3 harg3 arg4 harg4 arg5 harg5 arg6 harg6 arg7 harg7 hc0 hc1 x0 x1 x2 x3 xs0)

/-- Case C: the output block's one store is of the whole buffer. -/
theorem ocover1_C (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : cond1_1 i)
    (x0 : Vec F S1x5000x128 .f32) (x1 : Vec F S1x5000x1 .f32) (x2 : Vec F S1x128x128 .f32) (x3 : Vec F S1x1x128 .f32) (xs0 : Vec F S5000x128 .f32) (y : S5000x128.Idx) :
    ∃ pc ∈ (kernelRun1_C c i arg2 harg2 arg3 harg3 arg4 harg4 arg5 harg5 arg6 harg6 arg7 harg7 hc0 hc1 x0 x1 x2 x3 xs0).1, y ∈ pc.1.set := by
  unfold kernelRun1_C; dsimp only
  sl_unfold_run_names
  exact ⟨_, List.mem_cons_self, View.mem_set_unit_zero (S := S5000x128) zero2 inb_S5000x128_S5000x128_0_0 y⟩

/-- Case C: the output block is the maximum with zero of the finished accumulator. -/
theorem oval1_C_canon (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : cond1_1 i)
    (x0 : Vec F S1x5000x128 .f32) (x1 : Vec F S1x5000x1 .f32) (x2 : Vec F S1x128x128 .f32) (x3 : Vec F S1x1x128 .f32) (xs0 : Vec F S5000x128 .f32) :
    View.canon (kernelRun1_C c i arg2 harg2 arg3 harg3 arg4 harg4 arg5 harg5 arg6 harg6 arg7 harg7 hc0 hc1 x0 x1 x2 x3 xs0).1 = k1_pay3 (k1_pay2 x0 x1 x2 xs0 x3) := by
  unfold kernelRun1_C; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x128) zero3,
    View.ld_unit_zero (S := S1x1x128) zero3, View.ld_unit_zero (S := S5000x128) zero2]

/-- Case C: the output block read back through any view, over any prior contents. -/
theorem oval1_C (v : View sig .tc .vmem S5000x128 .f32) (f : v.ty.Contents (Elt F)) (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : cond1_1 i)
    (x0 : Vec F S1x5000x128 .f32) (x1 : Vec F S1x5000x1 .f32) (x2 : Vec F S1x128x128 .f32) (x3 : Vec F S1x1x128 .f32) (xs0 : Vec F S5000x128 .f32) :
    v.read (Elt F) (v.writes (Elt F) f (kernelRun1_C c i arg2 harg2 arg3 harg3 arg4 harg4 arg5 harg5 arg6 harg6 arg7 harg7 hc0 hc1 x0 x1 x2 x3 xs0).1) = k1_pay3 (k1_pay2 x0 x1 x2 xs0 x3) :=
  (View.read_writes_eq_canon v f _ (ocover1_C c i arg2 harg2 arg3 harg3 arg4 harg4 arg5 harg5 arg6 harg6 arg7 harg7 hc0 hc1 x0 x1 x2 x3 xs0)).trans (oval1_C_canon c i arg2 harg2 arg3 harg3 arg4 harg4 arg5 harg5 arg6 harg6 arg7 harg7 hc0 hc1 x0 x1 x2 x3 xs0)

end Cert.Kernel.Hand

end
-- ==== Proof.K.Reg1.lean ====
import proofs.«166004_j3839700763193_1_alg».proof.Proof.K.Reg1Val

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the proof data and the body obligation

The grid is 20 × 3, point `t = 3·n + r`. At `r = 0` the accumulator is zeroed; at every `r` one relation's contribution
`(agg·inv) @ W + b` is added to it; at `r = 2` the output block `n` is stored from it through the maximum with zero and written back. -/

/-! ## The accumulator, point by point -/

/-- One reduction step at point `t`: the contribution of the point's four input blocks added to `a`. -/
def step1 (c : Dev nD) (t : Fin cfg1.N) (a : Vec F S5000x128 .f32) : Vec F S5000x128 .f32 :=
  k1_pay2 (iblk1 V c 0 t) (iblk1 V c 1 t) (iblk1 V c 2 t) a (iblk1 V c 3 t)

/-- What the accumulator holds after the body at position `n`: a step from zeros where `n ≡ 0 (mod 3)`, else a step
    from what the position before left. -/
def acc1 (c : Dev nD) : (n : ℕ) → n < cfg1.N → Vec F S5000x128 .f32
  | 0, hn => step1 V c ⟨0, hn⟩ k1_pay1
  | n + 1, hn =>
    if (n + 1) % 3 = 0 then step1 V c ⟨n + 1, hn⟩ k1_pay1
    else step1 V c ⟨n + 1, hn⟩ (acc1 c n (Nat.lt_of_succ_lt hn))

/-- At a first reduction step the accumulator restarts from zeros. -/
theorem acc1_first (c : Dev nD) (t : Fin cfg1.N) (h0 : t.val % 3 = 0) :
    acc1 V c t.val t.isLt = step1 V c t k1_pay1 := by
  obtain ⟨n, hn⟩ := t
  cases n with
  | zero => rfl
  | succ n => exact if_pos h0

/-- At a later reduction step it continues from the point before. -/
theorem acc1_next (c : Dev nD) (t : Fin cfg1.N) (h0 : ¬t.val % 3 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h0
  | succ n => exact if_neg h0

/-- What the output window's staging buffer holds after the body at point `t` (read only where `t ≡ 2 (mod 3)`:
    elsewhere the window is idle and not written back): the maximum with zero of the accumulator. -/
def out1 (c : Dev nD) (t : Fin cfg1.N) : Vec F S5000x128 .f32 := k1_pay3 (acc1 V c t.val t.isLt)

/-! ## The invariant carrying the accumulator -/

/-- Before position `n`: at the region's entry the launch's invariant (the accumulator at anything); afterwards the
    accumulator at what the position before left, the other scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (acc1 V c n hn)) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (acc1 V c n hn)) ∗ restBut1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (acc1 V c (n - 1) (by omega))) ∗ restBut1 (F := F) c) ∗ (∃ r, prngReg c r)) := by
  cases n with
  | zero => exact absurd rfl hz
  | succ n => rfl

/-! ## The proof data -/

/-- The proof data of pipeline 1 on core `c`, at the region's entry contents `V`: the arrays as the region finds them;
    after the body each input's buffer at its block and the output's at `out1`; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- Every array is held at the full share. -/
theorem share1 (c : Dev nD) : ∀ w, (dat1 V c).share w = fullShare := (dat1 V c).share_full fun _ => rfl

theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; `t % 3` says which case the point is in; the invariant
    hands the body the accumulator at what the point before left (at anything at the region's first point) and takes
    it back at this point's contents; the output's buffer is handed back untouched at the idle points and holds
    `out1` at the last reduction step; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 60 := lt_of_lt_of_eq t.isLt (show cfg1.N = 60 from N_1)
  by_cases h0 : t.val % 3 = 0
  · have h2 : ¬t.val % 3 = 2 := by omega
    rw [Dat.leavesExact_idle (dat1 V c) 4 t (idleAt1_4 t h2) (noFlush1_4 t h2)]
    rw [acc1_first V c t h0]; unfold step1
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h2 ((hcond1_1 t).mp h)) (iblk1 V c 0 t) (iblk1 V c 1 t) (iblk1 V c 2 t) (iblk1 V c 3 t)).2.2 ((dat1 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact sval1_A scM1_0.view es0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h2 ((hcond1_1 t).mp h)) (iblk1 V c 0 t) (iblk1 V c 1 t) (iblk1 V c 2 t) (iblk1 V c 3 t)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h2 ((hcond1_1 t).mp h)) (iblk1 V c 0 t) (iblk1 V c 1 t) (iblk1 V c 2 t) (iblk1 V c 3 t)).2.2 ((dat1 V c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact sval1_A scM1_0.view es0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h2 ((hcond1_1 t).mp h)) (iblk1 V c 0 t) (iblk1 V c 1 t) (iblk1 V c 2 t) (iblk1 V c 3 t)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiS1_castSucc V c t, PhiS1_pos V c _ _ hz]
    rw [acc1_next V c t h0]; unfold step1
    by_cases h2 : t.val % 3 = 2
    · rw [show (dat1 V c).leavesExact 4 t = owns (c : Thread nD τ) (ms1_4 t) fullShare ((dat1 V c).after 4 t) from by
        unfold Dat.leavesExact; rw [liveAt1_4 t h2], after1_4]
      unfold out1; rw [acc1_next V c t h0]; unfold step1
      iintro ⟨⟨⟨HS0, Hr⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h2) (iblk1 V c 0 t) (iblk1 V c 1 t) (iblk1 V c 2 t) (iblk1 V c 3 t) (acc1 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact sval1_C scM1_0.view es0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h2) (iblk1 V c 0 t) (iblk1 V c 1 t) (iblk1 V c 2 t) (iblk1 V c 3 t) (acc1 V c (t.val - 1) (Nat.lt_of_le_of_lt (Nat.sub_le _ _) t.isLt))
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact oval1_C (ms1_4 t).view e4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h2) (iblk1 V c 0 t) (iblk1 V c 1 t) (iblk1 V c 2 t) (iblk1 V c 3 t) (acc1 V c (t.val - 1) (Nat.lt_of_le_of_lt (Nat.sub_le _ _) t.isLt))
    · rw [Dat.leavesExact_idle (dat1 V c) 4 t (idleAt1_4 t h2) (noFlush1_4 t h2)]
      iintro ⟨⟨⟨HS0, Hr⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h2 ((hcond1_1 t).mp h)) (iblk1 V c 0 t) (iblk1 V c 1 t) (iblk1 V c 2 t) (iblk1 V c 3 t) (acc1 V c (t.val - 1) (Nat.lt_of_le_of_lt (Nat.sub_le _ _) t.isLt))).2.2 ((dat1 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact sval1_B scM1_0.view es0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h2 ((hcond1_1 t).mp h)) (iblk1 V c 0 t) (iblk1 V c 1 t) (iblk1 V c 2 t) (iblk1 V c 3 t) (acc1 V c (t.val - 1) (Nat.lt_of_le_of_lt (Nat.sub_le _ _) t.isLt))
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 60 := N_1; omega)

/-! ## The output block at a point that writes it back -/

/-- At the last reduction step `t = 3·n + 2` the output's staging buffer holds the maximum with zero of the three relations'
    contributions added in order to zeros: the steps at `t - 2`, `t - 1`, `t`. -/
theorem after1_4_flush (c : Dev nD) (t : Fin cfg1.N) (h2 : t.val % 3 = 2) :
    (dat1 V c).after 4 t = k1_pay3 (step1 V c t (step1 V c ⟨t.val - 1, by omega⟩ (step1 V c ⟨t.val - 2, by omega⟩ k1_pay1))) := by
  rw [after1_4]; unfold out1
  have e2 : acc1 V c t.val t.isLt = step1 V c t (acc1 V c (t.val - 1) (Nat.lt_of_le_of_lt (Nat.sub_le _ _) t.isLt)) := acc1_next V c t (by omega)
  have e1 : (acc1 V c (t.val - 1) (Nat.lt_of_le_of_lt (Nat.sub_le _ _) t.isLt)) = step1 V c ⟨t.val - 1, by omega⟩ (acc1 V c (t.val - 1 - 1) (by omega)) :=
    acc1_next V c ⟨t.val - 1, by omega⟩ (by show ¬(t.val - 1) % 3 = 0; omega)
  have e0 : acc1 V c (t.val - 1 - 1) (by omega) = step1 V c ⟨t.val - 1 - 1, by omega⟩ k1_pay1 :=
    acc1_first V c ⟨t.val - 1 - 1, by omega⟩ (by show (t.val - 1 - 1) % 3 = 0; omega)
  rw [e2, e1, e0]
  have e : (⟨t.val - 1 - 1, by omega⟩ : Fin cfg1.N) = ⟨t.val - 2, by omega⟩ := Fin.ext (by show t.val - 1 - 1 = t.val - 2; omega)
  rw [e]

end Cert.Kernel.Hand

end
-- ==== Proof.K.Reg2Run.lean ====
import proofs.«166004_j3839700763193_1_alg».proof.Proof.Gen.Kernel.Launch
import proofs.«166004_j3839700763193_1_alg».proof.Proof.Gen.Kernel.Skeleton
import proofs.«166004_j3839700763193_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the body's conditions and its run at the region's single point -/

/-- The condition of the body's first conditional (the reduction coordinate is 0), from the grid coordinates. -/
abbrev cond2_0 (i : grid2.Coords) : Prop := (Scalar.cmpi .ne (Scalar.extui (Scalar.cmpi .eq (BitVec.ofNat 32 (i 1).val) 0#32)) 0#32) = 1#1
/-- It holds at every point of the grid (the reduction axis has extent 1). -/
theorem hcond2_0 : ∀ t : Fin cfg2.N, cond2_0 (grid2.coords t) :=
  (by decide +kernel : ∀ t : Fin grid2.N, cond2_0 (grid2.coords t))

/-- The condition of the body's second conditional (the reduction coordinate is the last one). -/
abbrev cond2_1 (i : grid2.Coords) : Prop := k2_cond2 i = 1#1
/-- It holds at every point of the grid. -/
theorem hcond2_1 : ∀ t : Fin cfg2.N, cond2_1 (grid2.coords t) :=
  (by decide +kernel : ∀ t : Fin grid2.N, cond2_1 (grid2.coords t))

/-- No window is idle at any point: the inputs never are, and the output is stored at every point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel

/-- The scratch accumulator, a whole scoped buffer of the kernel's own, and its view. -/
abbrev scM2 : Memref sig .tc .vmem S5000x128 .f32 := Memref.whole cc2_scratch0
abbrev VS2 : View sig .tc .vmem S5000x128 .f32 := scM2.view
/-- One staging buffer of the output window, through which its contents are stated. -/
abbrev VO2 : View sig .tc .vmem S5000x128 .f32 := (Memref.whole cc2_stg4_0 : Memref sig .tc .vmem S5000x128 .f32).view

set_option maxHeartbeats 1000000 in
/-- The body on whole memrefs, both conditionals taken: from the four input blocks at `x0 … x3`, the output buffer and
    the accumulator at anything, it runs to the continuation holding the inputs as they were, and the output buffer
    and the accumulator with the listed pieces written (last store first). -/
noncomputable def kernelRun2 (c : Dev nD) (i : grid2.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond2_0 i) (hc1 : cond2_1 i)
    (x0 : Vec F S1x5000x128 .f32) (x1 : Vec F S1x5000x1 .f32) (x2 : Vec F S1x128x128 .f32) (x3 : Vec F S1x1x128 .f32) :
    Σ' (L4 : List (View.Piece (Elt F) S5000x128 .f32)), { LS0 : List (View.Piece (Elt F) S5000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg2 harg2 arg3 harg3 arg4 harg4 arg5 harg5 arg6 harg6 arg7 harg7) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.Reg2.lean ====
import proofs.«166004_j3839700763193_1_alg».proof.Proof.K.Reg2Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's data is stated at
variable (V : (c : Dev nD) → (b : Ref sig .tc) → Buf (Elt F) ((c : Thread nD τ).loc b))

/-! # Region 2: the proof data of the pipeline and its body obligation, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, for any proof data whose array is
    `V`'s (`hA`) and whose body leaves the block in place (`hafter`): the windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at point `t`, spelled as the pipeline passes it, and its wholeness. -/
abbrev ms2_0 (t : Fin cfg2.N) : Memref sig .tc .vmem S1x5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x5000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S5000x128 .f32 := win2_4.stage (cfg2.slots t 4)
abbrev hs2_4 (t : Fin cfg2.N) : (ms2_4 t).IsWhole := hstage2_4 ((cfg2.slots t 4).cast nbuf2_4)

/-- The region invariant the launch hands the body, with the accumulator split off the kernel's other scoped
    buffers: the accumulator whole at some contents, the remaining scoped buffers unopened, the generator register
    at some state. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## What the body leaves in the output block and in the accumulator -/

/-- The pieces the run stores into the output block cover it (one whole-block store). -/
theorem cover2_4 (c : Dev nD) (i : grid2.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond2_0 i) (hc1 : cond2_1 i)
    (x0 : Vec F S1x5000x128 .f32) (x1 : Vec F S1x5000x1 .f32) (x2 : Vec F S1x128x128 .f32) (x3 : Vec F S1x1x128 .f32) (y : S5000x128.Idx) :
    ∃ pc ∈ (kernelRun2 c i arg2 harg2 arg3 harg3 arg4 harg4 arg5 harg5 arg6 harg6 arg7 harg7 hc0 hc1 x0 x1 x2 x3).1, y ∈ pc.1.set :=
  View.cover_of_tiledL (kernelRun2 c i arg2 harg2 arg3 harg3 arg4 harg4 arg5 harg5 arg6 harg6 arg7 harg7 hc0 hc1 x0 x1 x2 x3).1 S5000x128.size (by sl_kernel_rfl) y

/-- What the body leaves in the output window's staging buffer: its pieces read back. -/
def out2_4 (c : Dev nD) (i : grid2.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond2_0 i) (hc1 : cond2_1 i)
    (x0 : Vec F S1x5000x128 .f32) (x1 : Vec F S1x5000x1 .f32) (x2 : Vec F S1x128x128 .f32) (x3 : Vec F S1x1x128 .f32) : Vec F S5000x128 .f32 :=
  VO2.read (Elt F) (VO2.writes (Elt F) VO2.junk (kernelRun2 c i arg2 harg2 arg3 harg3 arg4 harg4 arg5 harg5 arg6 harg6 arg7 harg7 hc0 hc1 x0 x1 x2 x3).1)

/-- The pieces the run stores into the accumulator cover it (whole-block stores). -/
theorem scover2_0 (c : Dev nD) (i : grid2.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond2_0 i) (hc1 : cond2_1 i)
    (x0 : Vec F S1x5000x128 .f32) (x1 : Vec F S1x5000x1 .f32) (x2 : Vec F S1x128x128 .f32) (x3 : Vec F S1x1x128 .f32) (y : S5000x128.Idx) :
    ∃ pc ∈ (kernelRun2 c i arg2 harg2 arg3 harg3 arg4 harg4 arg5 harg5 arg6 harg6 arg7 harg7 hc0 hc1 x0 x1 x2 x3).2.1, y ∈ pc.1.set :=
  View.cover_of_tiledL (kernelRun2 c i arg2 harg2 arg3 harg3 arg4 harg4 arg5 harg5 arg6 harg6 arg7 harg7 hc0 hc1 x0 x1 x2 x3).2.1 S5000x128.size (by sl_kernel_rfl) y

/-- What the body leaves in the accumulator: its pieces read back. -/
def sout2_0 (c : Dev nD) (i : grid2.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond2_0 i) (hc1 : cond2_1 i)
    (x0 : Vec F S1x5000x128 .f32) (x1 : Vec F S1x5000x1 .f32) (x2 : Vec F S1x128x128 .f32) (x3 : Vec F S1x1x128 .f32) : Vec F S5000x128 .f32 :=
  VS2.read (Elt F) (VS2.writes (Elt F) VS2.junk (kernelRun2 c i arg2 harg2 arg3 harg3 arg4 harg4 arg5 harg5 arg6 harg6 arg7 harg7 hc0 hc1 x0 x1 x2 x3).2.1)

/-- The output block after the body at point `t`, from the point's input blocks. -/
def outAt2 (c : Dev nD) (t : Fin cfg2.N) : Vec F S5000x128 .f32 :=
  out2_4 c (grid2.coords t) (ms2_0 t) (hs2_0 t) (ms2_1 t) (hs2_1 t) (ms2_2 t) (hs2_2 t) (ms2_3 t) (hs2_3 t) (ms2_4 t) (hs2_4 t) scM2 (Memref.isWhole_whole _) (hcond2_0 t) (hcond2_1 t) (iblk2 V c 0 t) (iblk2 V c 1 t) (iblk2 V c 2 t) (iblk2 V c 3 t)

/-- The accumulator after the body at point `t`, from the point's input blocks. -/
def accAt2 (c : Dev nD) (t : Fin cfg2.N) : Vec F S5000x128 .f32 :=
  sout2_0 c (grid2.coords t) (ms2_0 t) (hs2_0 t) (ms2_1 t) (hs2_1 t) (ms2_2 t) (hs2_2 t) (ms2_3 t) (hs2_3 t) (ms2_4 t) (hs2_4 t) scM2 (Memref.isWhole_whole _) (hcond2_0 t) (hcond2_1 t) (iblk2 V c 0 t) (iblk2 V c 1 t) (iblk2 V c 2 t) (iblk2 V c 3 t)

/-! ## The invariant -/

/-- The region invariant before position `n`: before the first point what the launch hands over (`ΦA`); after point
    `n` the accumulator at what that point left in it, the kernel's other scoped buffers unopened and the generator
    register at some state. -/
def PhiS2 (c : Dev nD) : (n : ℕ) → n ≤ cfg2.N → sProp 𝕄
  | 0, _ => Pipeline.ΦA spec2 c
  | n + 1, hn => iprop(iprop(owns (c : Thread nD τ) scM2 fullShare (accAt2 V c ⟨n, hn⟩)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (accAt2 V c ⟨n, hn⟩)
      ∗ Pipeline.scopedRestBut (Ix := Unit) (Name := ℕ) (U := UR sig nD τ) (Lvl := ℕ) (Val := Elt F) spec2 c [cc2_scratch0]) ∗ (∃ r, prngReg c r)) := rfl

/-! ## The pipeline's proof data -/

/-- The proof data of pipeline 2 on core `c`: the arrays as the region finds them (`V`); after the body at point
    `t` each input's buffer at its block and the output's at `outAt2`; the invariant `PhiS2`; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outAt2 V c t
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outAt2 V c t := by dsimp only [dat2]

/-- Every array is held at the full share. -/
theorem share2 (c : Dev nD) : ∀ w, (dat2 V c).share w = fullShare := (dat2 V c).share_full fun _ => rfl

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at the region's point: the inputs' memrefs hold their blocks; the invariant hands the body the
    accumulator at some contents (the point is the first) and takes it back at this point's contents; the output
    buffer comes back at its pieces read back; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hz : t.val = 0 := by have hN : t.val < 1 := lt_of_lt_of_eq t.isLt (show cfg2.N = 1 from N_2); omega
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  unfold outAt2 accAt2 out2_4 sout2_0; (try dsimp only)
  rw [PhiS2_castSucc V c t, PhiS2_zero V c _ _ hz, PhiA2_eq]
  iintro ⟨⟨⟨HS0, Hrest⟩, Hg⟩, Ho, ⟨%d0, H0⟩, ⟨%d1, H1⟩, ⟨%d2, H2⟩, ⟨%d3, H3⟩, ⟨%d4, H4⟩⟩
  iapply ((kernelRun2 c (grid2.coords t) _ _ _ _ _ _ _ _ _ _ _ _ (hcond2_0 t) (hcond2_1 t) (iblk2 V c 0 t) (iblk2 V c 1 t) (iblk2 V c 2 t) (iblk2 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hrest Hg]
  · isplitl [HS0 Hrest]
    · isplitl [HS0]
      · unfold owns; iexists _; isplitr
        swap; · iexact HS0
        ipureintro; exact View.read_writes_of_cover _ _ _ _ _ (scover2_0 c _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2_4 c _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (`ΦA`) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- Before a position that is not the first: the accumulator at what the point before left. -/
theorem PhiS2_pos (c : Dev nD) (n : ℕ) (h : n ≤ cfg2.N) (hz : n ≠ 0) :
    PhiS2 V c n h = iprop(iprop(owns (c : Thread nD τ) scM2 fullShare (accAt2 V c ⟨n - 1, by omega⟩)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- After any point the invariant gives `ΦA` back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 1 := N_2; omega)

end Cert.Kernel.Hand

end
-- ==== Proof.K.Reg3Runs.lean ====
import proofs.«166004_j3839700763193_1_alg».proof.Proof.Gen.Kernel.Launch
import proofs.«166004_j3839700763193_1_alg».proof.Proof.Gen.Kernel.Skeleton
import proofs.«166004_j3839700763193_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: what the three control cases share

The grid is 20 × 3: point `t = 3·n + r` is reduction step `r` of row block `n`. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, for any proof data whose array is the
    entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, for any proof data whose array is the
    entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, for any proof data whose array is the
    entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditionals, in closed form over the grid -/

/-- The first conditional (reduction step 0: the accumulator is zeroed). -/
abbrev cond3_0 (i : grid3.Coords) : Prop := (Scalar.cmpi .ne (Scalar.extui (Scalar.cmpi .eq (BitVec.ofNat 32 (i 1).val) 0#32)) 0#32) = 1#1
/-- It holds exactly at the points `t ≡ 0 (mod 3)`. -/
theorem hcond3_0 : ∀ t : Fin cfg3.N, cond3_0 (grid3.coords t) ↔ t.val % 3 = 0 :=
  (by decide +kernel : ∀ t : Fin grid3.N, cond3_0 (grid3.coords t) ↔ t.val % 3 = 0)

/-- The second conditional (last reduction step: the output block is stored from the accumulator). -/
abbrev cond3_1 (i : grid3.Coords) : Prop := k3_cond2 i = 1#1
/-- It holds exactly at the points `t ≡ 2 (mod 3)`. -/
theorem hcond3_1 : ∀ t : Fin cfg3.N, cond3_1 (grid3.coords t) ↔ t.val % 3 = 2 :=
  (by decide +kernel : ∀ t : Fin grid3.N, cond3_1 (grid3.coords t) ↔ t.val % 3 = 2)

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
/-- Away from the last reduction step the output window is idle: nothing is stored into it, -/
theorem idleAt3_4 : ∀ t : Fin cfg3.N, ¬ t.val % 3 = 2 → cfg3.idle 4 (grid3.coords t) = true :=
  (by decide +kernel : ∀ t : Fin grid3.N, ¬ t.val % 3 = 2 → cfg3.idle 4 (grid3.coords t) = true)
/-- and its block is not written back. -/
theorem noFlush3_4 : ∀ t : Fin cfg3.N, ¬ t.val % 3 = 2 → (cfg3.win 4).flush t = false :=
  (by decide +kernel : ∀ t : Fin grid3.N, ¬ t.val % 3 = 2 → (cfg3.win 4).flush t = false)
/-- At the last reduction step it is live. -/
theorem liveAt3_4 : ∀ t : Fin cfg3.N, t.val % 3 = 2 → cfg3.idle 4 (grid3.coords t) = false :=
  (by decide +kernel : ∀ t : Fin grid3.N, t.val % 3 = 2 → cfg3.idle 4 (grid3.coords t) = false)

/-! ## The staging memrefs and the scratch -/

/-- One staging buffer of the output window, through which its contents are stated. -/
abbrev VO3_4 : View sig .tc .vmem S5000x128 .f32 := (Memref.whole cc3_stg4_0 : Memref sig .tc .vmem S5000x128 .f32).view
/-- Each window's current staging memref at point `t`, spelled as the pipeline passes it, and its wholeness. -/
abbrev ms3_0 (t : Fin cfg3.N) : Memref sig .tc .vmem S1x5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x5000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S5000x128 .f32 := win3_4.stage (cfg3.slots t 4)
abbrev hs3_4 (t : Fin cfg3.N) : (ms3_4 t).IsWhole := hstage3_4 ((cfg3.slots t 4).cast nbuf3_4)
/-- The accumulator: a whole scoped buffer of the kernel's own, passed beside the windows. -/
abbrev scM3_0 : Memref sig .tc .vmem S5000x128 .f32 := Memref.whole cc3_scratch0
/-- The accumulator as a view: what it holds is stated through it. -/
abbrev VS3_0 : View sig .tc .vmem S5000x128 .f32 := scM3_0.view

/-- The other scoped buffers of the core (neither this call's staging buffers nor its accumulator), unopened. -/
abbrev restBut3 (c : Dev nD) : sProp 𝕄 :=
  Pipeline.scopedRestBut (Ix := Unit) (Name := ℕ) (U := UR sig nD τ) (Lvl := ℕ) (Val := Elt F) spec3 c [cc3_scratch0]

/-- The region invariant with the accumulator as a memref owned at some contents. -/
theorem PhiA3_eq (c : Dev nD) :
    (Pipeline.ΦA spec3 c : sProp 𝕄)
      = iprop(iprop(iprop((∃ d, owns (c : Thread nD τ) scM3_0 fullShare d)) ∗ restBut3 (F := F) c) ∗ (∃ r, prngReg c r)) := by
  unfold Pipeline.ΦA; rw [scopedRest3_split]; simp only [scM3_0, owns_whole]; try rfl

end Cert.Kernel.Hand

end
-- ==== Proof.K.Reg3RunA.lean ====
import proofs.«166004_j3839700763193_1_alg».proof.Proof.K.Reg3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in case A (first reduction step: the accumulator is zeroed, then one contribution is added; the output window is left untouched): on whole staging memrefs — the inputs' at their contents `x·`, the accumulator at anything, the output's at contents `xi4` handed back untouched — the body
    runs to the continuation holding the inputs' as they were and each buffer it stored into with its pieces written
    (`L4` the output's, `LS0` the accumulator's; last store first). The pieces are the witness the run finds. -/
noncomputable def kernelRun3_A (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond3_0 i) (hc1 : ¬cond3_1 i)
    (x0 : Vec F S1x5000x128 .f32) (x1 : Vec F S1x5000x1 .f32) (x2 : Vec F S1x128x128 .f32) (x3 : Vec F S1x1x128 .f32) :
    Σ' (L4 : List (View.Piece (Elt F) S5000x128 .f32)), { LS0 : List (View.Piece (Elt F) S5000x128 .f32) //
      ∀ (xi4 : Vec F S5000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3_kernel i arg2 harg2 arg3 harg3 arg4 harg4 arg5 harg5 arg6 harg6 arg7 harg7) K } := by
  refine ⟨[], ?_, fun xi4 E K => ?run⟩
  case run =>
    rw [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.Reg3RunB.lean ====
import proofs.«166004_j3839700763193_1_alg».proof.Proof.K.Reg3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in case B (middle reduction step: one contribution is added to the accumulator; the output window is left untouched): on whole staging memrefs — the inputs' at their contents `x·`, the accumulator at what the step before left (`xs0`), the output's at contents `xi4` handed back untouched — the body
    runs to the continuation holding the inputs' as they were and each buffer it stored into with its pieces written
    (`L4` the output's, `LS0` the accumulator's; last store first). The pieces are the witness the run finds. -/
noncomputable def kernelRun3_B (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : ¬cond3_1 i)
    (x0 : Vec F S1x5000x128 .f32) (x1 : Vec F S1x5000x1 .f32) (x2 : Vec F S1x128x128 .f32) (x3 : Vec F S1x1x128 .f32) (xs0 : Vec F S5000x128 .f32) :
    Σ' (L4 : List (View.Piece (Elt F) S5000x128 .f32)), { LS0 : List (View.Piece (Elt F) S5000x128 .f32) //
      ∀ (xi4 : Vec F S5000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3_kernel i arg2 harg2 arg3 harg3 arg4 harg4 arg5 harg5 arg6 harg6 arg7 harg7) K } := by
  refine ⟨[], ?_, fun xi4 E K => ?run⟩
  case run =>
    rw [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.Reg3RunC.lean ====
import proofs.«166004_j3839700763193_1_alg».proof.Proof.K.Reg3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in case C (last reduction step: one contribution is added to the accumulator, then the output block is stored from it): on whole staging memrefs — the inputs' at their contents `x·`, the accumulator at what the step before left (`xs0`), the output's at anything — the body
    runs to the continuation holding the inputs' as they were and each buffer it stored into with its pieces written
    (`L4` the output's, `LS0` the accumulator's; last store first). The pieces are the witness the run finds. -/
noncomputable def kernelRun3_C (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : cond3_1 i)
    (x0 : Vec F S1x5000x128 .f32) (x1 : Vec F S1x5000x1 .f32) (x2 : Vec F S1x128x128 .f32) (x3 : Vec F S1x1x128 .f32) (xs0 : Vec F S5000x128 .f32) :
    Σ' (L4 : List (View.Piece (Elt F) S5000x128 .f32)), { LS0 : List (View.Piece (Elt F) S5000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc3_kernel i arg2 harg2 arg3 harg3 arg4 harg4 arg5 harg5 arg6 harg6 arg7 harg7) K } := by
  refine ⟨?_, ?_, fun E K => ?run⟩
  case run =>
    rw [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.Reg3Val.lean ====
import proofs.«166004_j3839700763193_1_alg».proof.Proof.K.Reg3RunA
import proofs.«166004_j3839700763193_1_alg».proof.Proof.K.Reg3RunB
import proofs.«166004_j3839700763193_1_alg».proof.Proof.K.Reg3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: what each control case leaves in the accumulator and in the output block

Every store of the body is of a whole buffer, through the rectangle at zero offsets of the buffer's own sizes; a
load through it reads the contents, and the last store through it leaves its payload. -/

private theorem zero2 : (![0, 0] : Fin 2 → ℕ) = fun _ => 0 := by funext a; fin_cases a <;> rfl
private theorem zero3 : (![0, 0, 0] : Fin 3 → ℕ) = fun _ => 0 := by funext a; fin_cases a <;> rfl

/-- Case A: the accumulator's last store is of the whole buffer, so its pieces cover it. -/
theorem scover3_A (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond3_0 i) (hc1 : ¬cond3_1 i)
    (x0 : Vec F S1x5000x128 .f32) (x1 : Vec F S1x5000x1 .f32) (x2 : Vec F S1x128x128 .f32) (x3 : Vec F S1x1x128 .f32) (y : S5000x128.Idx) :
    ∃ pc ∈ (kernelRun3_A c i arg2 harg2 arg3 harg3 arg4 harg4 arg5 harg5 arg6 harg6 arg7 harg7 hc0 hc1 x0 x1 x2 x3).2.1, y ∈ pc.1.set := by
  unfold kernelRun3_A; dsimp only
  sl_unfold_run_names
  exact ⟨_, List.mem_cons_self, View.mem_set_unit_zero (S := S5000x128) zero2 inb_S5000x128_S5000x128_0_0 y⟩

/-- Case A: what the accumulator's pieces amount to — one contribution added to zeros. -/
theorem cval3_A (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond3_0 i) (hc1 : ¬cond3_1 i)
    (x0 : Vec F S1x5000x128 .f32) (x1 : Vec F S1x5000x1 .f32) (x2 : Vec F S1x128x128 .f32) (x3 : Vec F S1x1x128 .f32) :
    View.canon (kernelRun3_A c i arg2 harg2 arg3 harg3 arg4 harg4 arg5 harg5 arg6 harg6 arg7 harg7 hc0 hc1 x0 x1 x2 x3).2.1 = k3_pay2 x0 x1 x2 k3_pay1 x3 := by
  unfold kernelRun3_A; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x128) zero3,
    View.ld_unit_zero (S := S1x1x128) zero3, View.ld_unit_zero (S := S5000x128) zero2]

/-- Case A: the accumulator read back through any view, over any prior contents. -/
theorem sval3_A (v : View sig .tc .vmem S5000x128 .f32) (f : v.ty.Contents (Elt F)) (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond3_0 i) (hc1 : ¬cond3_1 i)
    (x0 : Vec F S1x5000x128 .f32) (x1 : Vec F S1x5000x1 .f32) (x2 : Vec F S1x128x128 .f32) (x3 : Vec F S1x1x128 .f32) :
    v.read (Elt F) (v.writes (Elt F) f (kernelRun3_A c i arg2 harg2 arg3 harg3 arg4 harg4 arg5 harg5 arg6 harg6 arg7 harg7 hc0 hc1 x0 x1 x2 x3).2.1) = k3_pay2 x0 x1 x2 k3_pay1 x3 :=
  (View.read_writes_eq_canon v f _ (scover3_A c i arg2 harg2 arg3 harg3 arg4 harg4 arg5 harg5 arg6 harg6 arg7 harg7 hc0 hc1 x0 x1 x2 x3)).trans (cval3_A c i arg2 harg2 arg3 harg3 arg4 harg4 arg5 harg5 arg6 harg6 arg7 harg7 hc0 hc1 x0 x1 x2 x3)

/-- Case B: the accumulator's last store is of the whole buffer, so its pieces cover it. -/
theorem scover3_B (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : ¬cond3_1 i)
    (x0 : Vec F S1x5000x128 .f32) (x1 : Vec F S1x5000x1 .f32) (x2 : Vec F S1x128x128 .f32) (x3 : Vec F S1x1x128 .f32) (xs0 : Vec F S5000x128 .f32) (y : S5000x128.Idx) :
    ∃ pc ∈ (kernelRun3_B c i arg2 harg2 arg3 harg3 arg4 harg4 arg5 harg5 arg6 harg6 arg7 harg7 hc0 hc1 x0 x1 x2 x3 xs0).2.1, y ∈ pc.1.set := by
  unfold kernelRun3_B; dsimp only
  sl_unfold_run_names
  exact ⟨_, List.mem_cons_self, View.mem_set_unit_zero (S := S5000x128) zero2 inb_S5000x128_S5000x128_0_0 y⟩

/-- Case B: what the accumulator's pieces amount to — one contribution added to what the step before left. -/
theorem cval3_B (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : ¬cond3_1 i)
    (x0 : Vec F S1x5000x128 .f32) (x1 : Vec F S1x5000x1 .f32) (x2 : Vec F S1x128x128 .f32) (x3 : Vec F S1x1x128 .f32) (xs0 : Vec F S5000x128 .f32) :
    View.canon (kernelRun3_B c i arg2 harg2 arg3 harg3 arg4 harg4 arg5 harg5 arg6 harg6 arg7 harg7 hc0 hc1 x0 x1 x2 x3 xs0).2.1 = k3_pay2 x0 x1 x2 xs0 x3 := by
  unfold kernelRun3_B; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x128) zero3,
    View.ld_unit_zero (S := S1x1x128) zero3, View.ld_unit_zero (S := S5000x128) zero2]

/-- Case B: the accumulator read back through any view, over any prior contents. -/
theorem sval3_B (v : View sig .tc .vmem S5000x128 .f32) (f : v.ty.Contents (Elt F)) (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : ¬cond3_1 i)
    (x0 : Vec F S1x5000x128 .f32) (x1 : Vec F S1x5000x1 .f32) (x2 : Vec F S1x128x128 .f32) (x3 : Vec F S1x1x128 .f32) (xs0 : Vec F S5000x128 .f32) :
    v.read (Elt F) (v.writes (Elt F) f (kernelRun3_B c i arg2 harg2 arg3 harg3 arg4 harg4 arg5 harg5 arg6 harg6 arg7 harg7 hc0 hc1 x0 x1 x2 x3 xs0).2.1) = k3_pay2 x0 x1 x2 xs0 x3 :=
  (View.read_writes_eq_canon v f _ (scover3_B c i arg2 harg2 arg3 harg3 arg4 harg4 arg5 harg5 arg6 harg6 arg7 harg7 hc0 hc1 x0 x1 x2 x3 xs0)).trans (cval3_B c i arg2 harg2 arg3 harg3 arg4 harg4 arg5 harg5 arg6 harg6 arg7 harg7 hc0 hc1 x0 x1 x2 x3 xs0)

/-- Case C: the accumulator's last store is of the whole buffer, so its pieces cover it. -/
theorem scover3_C (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : cond3_1 i)
    (x0 : Vec F S1x5000x128 .f32) (x1 : Vec F S1x5000x1 .f32) (x2 : Vec F S1x128x128 .f32) (x3 : Vec F S1x1x128 .f32) (xs0 : Vec F S5000x128 .f32) (y : S5000x128.Idx) :
    ∃ pc ∈ (kernelRun3_C c i arg2 harg2 arg3 harg3 arg4 harg4 arg5 harg5 arg6 harg6 arg7 harg7 hc0 hc1 x0 x1 x2 x3 xs0).2.1, y ∈ pc.1.set := by
  unfold kernelRun3_C; dsimp only
  sl_unfold_run_names
  exact ⟨_, List.mem_cons_self, View.mem_set_unit_zero (S := S5000x128) zero2 inb_S5000x128_S5000x128_0_0 y⟩

/-- Case C: what the accumulator's pieces amount to — one contribution added to what the step before left. -/
theorem cval3_C (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : cond3_1 i)
    (x0 : Vec F S1x5000x128 .f32) (x1 : Vec F S1x5000x1 .f32) (x2 : Vec F S1x128x128 .f32) (x3 : Vec F S1x1x128 .f32) (xs0 : Vec F S5000x128 .f32) :
    View.canon (kernelRun3_C c i arg2 harg2 arg3 harg3 arg4 harg4 arg5 harg5 arg6 harg6 arg7 harg7 hc0 hc1 x0 x1 x2 x3 xs0).2.1 = k3_pay2 x0 x1 x2 xs0 x3 := by
  unfold kernelRun3_C; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x128) zero3,
    View.ld_unit_zero (S := S1x1x128) zero3, View.ld_unit_zero (S := S5000x128) zero2]

/-- Case C: the accumulator read back through any view, over any prior contents. -/
theorem sval3_C (v : View sig .tc .vmem S5000x128 .f32) (f : v.ty.Contents (Elt F)) (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : cond3_1 i)
    (x0 : Vec F S1x5000x128 .f32) (x1 : Vec F S1x5000x1 .f32) (x2 : Vec F S1x128x128 .f32) (x3 : Vec F S1x1x128 .f32) (xs0 : Vec F S5000x128 .f32) :
    v.read (Elt F) (v.writes (Elt F) f (kernelRun3_C c i arg2 harg2 arg3 harg3 arg4 harg4 arg5 harg5 arg6 harg6 arg7 harg7 hc0 hc1 x0 x1 x2 x3 xs0).2.1) = k3_pay2 x0 x1 x2 xs0 x3 :=
  (View.read_writes_eq_canon v f _ (scover3_C c i arg2 harg2 arg3 harg3 arg4 harg4 arg5 harg5 arg6 harg6 arg7 harg7 hc0 hc1 x0 x1 x2 x3 xs0)).trans (cval3_C c i arg2 harg2 arg3 harg3 arg4 harg4 arg5 harg5 arg6 harg6 arg7 harg7 hc0 hc1 x0 x1 x2 x3 xs0)

/-- Case C: the output block's one store is of the whole buffer. -/
theorem ocover3_C (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : cond3_1 i)
    (x0 : Vec F S1x5000x128 .f32) (x1 : Vec F S1x5000x1 .f32) (x2 : Vec F S1x128x128 .f32) (x3 : Vec F S1x1x128 .f32) (xs0 : Vec F S5000x128 .f32) (y : S5000x128.Idx) :
    ∃ pc ∈ (kernelRun3_C c i arg2 harg2 arg3 harg3 arg4 harg4 arg5 harg5 arg6 harg6 arg7 harg7 hc0 hc1 x0 x1 x2 x3 xs0).1, y ∈ pc.1.set := by
  unfold kernelRun3_C; dsimp only
  sl_unfold_run_names
  exact ⟨_, List.mem_cons_self, View.mem_set_unit_zero (S := S5000x128) zero2 inb_S5000x128_S5000x128_0_0 y⟩

/-- Case C: the output block is the maximum with zero of the finished accumulator. -/
theorem oval3_C_canon (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : cond3_1 i)
    (x0 : Vec F S1x5000x128 .f32) (x1 : Vec F S1x5000x1 .f32) (x2 : Vec F S1x128x128 .f32) (x3 : Vec F S1x1x128 .f32) (xs0 : Vec F S5000x128 .f32) :
    View.canon (kernelRun3_C c i arg2 harg2 arg3 harg3 arg4 harg4 arg5 harg5 arg6 harg6 arg7 harg7 hc0 hc1 x0 x1 x2 x3 xs0).1 = k3_pay3 (k3_pay2 x0 x1 x2 xs0 x3) := by
  unfold kernelRun3_C; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x128) zero3,
    View.ld_unit_zero (S := S1x1x128) zero3, View.ld_unit_zero (S := S5000x128) zero2]

/-- Case C: the output block read back through any view, over any prior contents. -/
theorem oval3_C (v : View sig .tc .vmem S5000x128 .f32) (f : v.ty.Contents (Elt F)) (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : cond3_1 i)
    (x0 : Vec F S1x5000x128 .f32) (x1 : Vec F S1x5000x1 .f32) (x2 : Vec F S1x128x128 .f32) (x3 : Vec F S1x1x128 .f32) (xs0 : Vec F S5000x128 .f32) :
    v.read (Elt F) (v.writes (Elt F) f (kernelRun3_C c i arg2 harg2 arg3 harg3 arg4 harg4 arg5 harg5 arg6 harg6 arg7 harg7 hc0 hc1 x0 x1 x2 x3 xs0).1) = k3_pay3 (k3_pay2 x0 x1 x2 xs0 x3) :=
  (View.read_writes_eq_canon v f _ (ocover3_C c i arg2 harg2 arg3 harg3 arg4 harg4 arg5 harg5 arg6 harg6 arg7 harg7 hc0 hc1 x0 x1 x2 x3 xs0)).trans (oval3_C_canon c i arg2 harg2 arg3 harg3 arg4 harg4 arg5 harg5 arg6 harg6 arg7 harg7 hc0 hc1 x0 x1 x2 x3 xs0)

end Cert.Kernel.Hand

end
-- ==== Proof.K.Reg3.lean ====
import proofs.«166004_j3839700763193_1_alg».proof.Proof.K.Reg3Val

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the proof data and the body obligation

The grid is 20 × 3, point `t = 3·n + r`. At `r = 0` the accumulator is zeroed; at every `r` one relation's contribution
`(agg·inv) @ W + b` is added to it; at `r = 2` the output block `n` is stored from it through the maximum with zero and written back. -/

/-! ## The accumulator, point by point -/

/-- One reduction step at point `t`: the contribution of the point's four input blocks added to `a`. -/
def step3 (c : Dev nD) (t : Fin cfg3.N) (a : Vec F S5000x128 .f32) : Vec F S5000x128 .f32 :=
  k3_pay2 (iblk3 V c 0 t) (iblk3 V c 1 t) (iblk3 V c 2 t) a (iblk3 V c 3 t)

/-- What the accumulator holds after the body at position `n`: a step from zeros where `n ≡ 0 (mod 3)`, else a step
    from what the position before left. -/
def acc3 (c : Dev nD) : (n : ℕ) → n < cfg3.N → Vec F S5000x128 .f32
  | 0, hn => step3 V c ⟨0, hn⟩ k3_pay1
  | n + 1, hn =>
    if (n + 1) % 3 = 0 then step3 V c ⟨n + 1, hn⟩ k3_pay1
    else step3 V c ⟨n + 1, hn⟩ (acc3 c n (Nat.lt_of_succ_lt hn))

/-- At a first reduction step the accumulator restarts from zeros. -/
theorem acc3_first (c : Dev nD) (t : Fin cfg3.N) (h0 : t.val % 3 = 0) :
    acc3 V c t.val t.isLt = step3 V c t k3_pay1 := by
  obtain ⟨n, hn⟩ := t
  cases n with
  | zero => rfl
  | succ n => exact if_pos h0

/-- At a later reduction step it continues from the point before. -/
theorem acc3_next (c : Dev nD) (t : Fin cfg3.N) (h0 : ¬t.val % 3 = 0) :
    acc3 V c t.val t.isLt = step3 V c t (acc3 V c (t.val - 1) (Nat.lt_of_le_of_lt (Nat.sub_le _ _) t.isLt)) := by
  obtain ⟨n, hn⟩ := t
  cases n with
  | zero => exact absurd (Nat.zero_mod _) h0
  | succ n => exact if_neg h0

/-- What the output window's staging buffer holds after the body at point `t` (read only where `t ≡ 2 (mod 3)`:
    elsewhere the window is idle and not written back): the maximum with zero of the accumulator. -/
def out3 (c : Dev nD) (t : Fin cfg3.N) : Vec F S5000x128 .f32 := k3_pay3 (acc3 V c t.val t.isLt)

/-! ## The invariant carrying the accumulator -/

/-- Before position `n`: at the region's entry the launch's invariant (the accumulator at anything); afterwards the
    accumulator at what the position before left, the other scoped buffers unopened, the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare (acc3 V c n hn)) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (acc3 V c n hn)) ∗ restBut3 (F := F) c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (acc3 V c (n - 1) (by omega))) ∗ restBut3 (F := F) c) ∗ (∃ r, prngReg c r)) := by
  cases n with
  | zero => exact absurd rfl hz
  | succ n => rfl

/-! ## The proof data -/

/-- The proof data of pipeline 3 on core `c`, at the region's entry contents `V`: the arrays as the region finds them;
    after the body each input's buffer at its block and the output's at `out3`; the invariant `PhiS3`; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 V c t
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- Every array is held at the full share. -/
theorem share3 (c : Dev nD) : ∀ w, (dat3 V c).share w = fullShare := (dat3 V c).share_full fun _ => rfl

theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 V c t := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' memrefs hold their blocks; `t % 3` says which case the point is in; the invariant
    hands the body the accumulator at what the point before left (at anything at the region's first point) and takes
    it back at this point's contents; the output's buffer is handed back untouched at the idle points and holds
    `out3` at the last reduction step; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  have hN : t.val < 60 := lt_of_lt_of_eq t.isLt (show cfg3.N = 60 from N_3)
  by_cases h0 : t.val % 3 = 0
  · have h2 : ¬t.val % 3 = 2 := by omega
    rw [Dat.leavesExact_idle (dat3 V c) 4 t (idleAt3_4 t h2) (noFlush3_4 t h2)]
    rw [acc3_first V c t h0]; unfold step3
    by_cases hz : t.val = 0
    · rw [PhiS3_castSucc V c t, PhiS3_zero V c _ _ hz, PhiA3_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun3_A c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h2 ((hcond3_1 t).mp h)) (iblk3 V c 0 t) (iblk3 V c 1 t) (iblk3 V c 2 t) (iblk3 V c 3 t)).2.2 ((dat3 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact sval3_A scM3_0.view es0 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h2 ((hcond3_1 t).mp h)) (iblk3 V c 0 t) (iblk3 V c 1 t) (iblk3 V c 2 t) (iblk3 V c 3 t)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS3_castSucc V c t, PhiS3_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun3_A c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h2 ((hcond3_1 t).mp h)) (iblk3 V c 0 t) (iblk3 V c 1 t) (iblk3 V c 2 t) (iblk3 V c 3 t)).2.2 ((dat3 V c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact sval3_A scM3_0.view es0 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h2 ((hcond3_1 t).mp h)) (iblk3 V c 0 t) (iblk3 V c 1 t) (iblk3 V c 2 t) (iblk3 V c 3 t)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiS3_castSucc V c t, PhiS3_pos V c _ _ hz]
    rw [acc3_next V c t h0]; unfold step3
    by_cases h2 : t.val % 3 = 2
    · rw [show (dat3 V c).leavesExact 4 t = owns (c : Thread nD τ) (ms3_4 t) fullShare ((dat3 V c).after 4 t) from by
        unfold Dat.leavesExact; rw [liveAt3_4 t h2], after3_4]
      unfold out3; rw [acc3_next V c t h0]; unfold step3
      iintro ⟨⟨⟨HS0, Hr⟩, Hg⟩, Ho, ⟨%d0, H0⟩, ⟨%d1, H1⟩, ⟨%d2, H2⟩, ⟨%d3, H3⟩, ⟨%d4, H4⟩⟩
      iapply ((kernelRun3_C c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h2) (iblk3 V c 0 t) (iblk3 V c 1 t) (iblk3 V c 2 t) (iblk3 V c 3 t) (acc3 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact sval3_C scM3_0.view es0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h2) (iblk3 V c 0 t) (iblk3 V c 1 t) (iblk3 V c 2 t) (iblk3 V c 3 t) (acc3 V c (t.val - 1) (Nat.lt_of_le_of_lt (Nat.sub_le _ _) t.isLt))
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact oval3_C (ms3_4 t).view e4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h2) (iblk3 V c 0 t) (iblk3 V c 1 t) (iblk3 V c 2 t) (iblk3 V c 3 t) (acc3 V c (t.val - 1) (Nat.lt_of_le_of_lt (Nat.sub_le _ _) t.isLt))
    · rw [Dat.leavesExact_idle (dat3 V c) 4 t (idleAt3_4 t h2) (noFlush3_4 t h2)]
      iintro ⟨⟨⟨HS0, Hr⟩, Hg⟩, Ho, ⟨%d0, H0⟩, ⟨%d1, H1⟩, ⟨%d2, H2⟩, ⟨%d3, H3⟩, ⟨%d4, H4⟩⟩
      iapply ((kernelRun3_B c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h2 ((hcond3_1 t).mp h)) (iblk3 V c 0 t) (iblk3 V c 1 t) (iblk3 V c 2 t) (iblk3 V c 3 t) (acc3 V c (t.val - 1) (Nat.lt_of_le_of_lt (Nat.sub_le _ _) t.isLt))).2.2 ((dat3 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact sval3_B scM3_0.view es0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h2 ((hcond3_1 t).mp h)) (iblk3 V c 0 t) (iblk3 V c 1 t) (iblk3 V c 2 t) (iblk3 V c 3 t) (acc3 V c (t.val - 1) (Nat.lt_of_le_of_lt (Nat.sub_le _ _) t.isLt))
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 60 := N_3; omega)

/-! ## The output block at a point that writes it back -/

/-- At the last reduction step `t = 3·n + 2` the output's staging buffer holds the maximum with zero of the three relations'
    contributions added in order to zeros: the steps at `t - 2`, `t - 1`, `t`. -/
theorem after3_4_flush (c : Dev nD) (t : Fin cfg3.N) (h2 : t.val % 3 = 2) :
    (dat3 V c).after 4 t = k3_pay3 (step3 V c t (step3 V c ⟨t.val - 1, by omega⟩ (step3 V c ⟨t.val - 2, by omega⟩ k3_pay1))) := by
  rw [after3_4]; unfold out3
  have e2 : acc3 V c t.val t.isLt = step3 V c t (acc3 V c (t.val - 1) (Nat.lt_of_le_of_lt (Nat.sub_le _ _) t.isLt)) := acc3_next V c t (by omega)
  have e1 : (acc3 V c (t.val - 1) (Nat.lt_of_le_of_lt (Nat.sub_le _ _) t.isLt)) = step3 V c ⟨t.val - 1, by omega⟩ (acc3 V c (t.val - 1 - 1) (by omega)) :=
    acc3_next V c ⟨t.val - 1, by omega⟩ (by show ¬(t.val - 1) % 3 = 0; omega)
  have e0 : acc3 V c (t.val - 1 - 1) (by omega) = step3 V c ⟨t.val - 1 - 1, by omega⟩ k3_pay1 :=
    acc3_first V c ⟨t.val - 1 - 1, by omega⟩ (by show (t.val - 1 - 1) % 3 = 0; omega)
  rw [e2, e1, e0]
  have e : (⟨t.val - 1 - 1, by omega⟩ : Fin cfg3.N) = ⟨t.val - 2, by omega⟩ := Fin.ext (by show t.val - 1 - 1 = t.val - 2; omega)
  rw [e]

end Cert.Kernel.Hand

end
-- ==== Proof.K.Reg4Run.lean ====
import proofs.«166004_j3839700763193_1_alg».proof.Proof.Gen.Kernel.Launch
import proofs.«166004_j3839700763193_1_alg».proof.Proof.Gen.Kernel.Skeleton
import proofs.«166004_j3839700763193_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the body's conditions and its run at the region's single point -/

/-- The condition of the body's first conditional (the reduction coordinate is 0), from the grid coordinates. -/
abbrev cond4_0 (i : grid4.Coords) : Prop := (Scalar.cmpi .ne (Scalar.extui (Scalar.cmpi .eq (BitVec.ofNat 32 (i 1).val) 0#32)) 0#32) = 1#1
/-- It holds at every point of the grid (the reduction axis has extent 1). -/
theorem hcond4_0 : ∀ t : Fin cfg4.N, cond4_0 (grid4.coords t) :=
  (by decide +kernel : ∀ t : Fin grid4.N, cond4_0 (grid4.coords t))

/-- The condition of the body's second conditional (the reduction coordinate is the last one). -/
abbrev cond4_1 (i : grid4.Coords) : Prop := k4_cond2 i = 1#1
/-- It holds at every point of the grid. -/
theorem hcond4_1 : ∀ t : Fin cfg4.N, cond4_1 (grid4.coords t) :=
  (by decide +kernel : ∀ t : Fin grid4.N, cond4_1 (grid4.coords t))

/-- No window is idle at any point: the inputs never are, and the output is stored at every point. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel

/-- The scratch accumulator, a whole scoped buffer of the kernel's own, and its view. -/
abbrev scM4 : Memref sig .tc .vmem S5000x64 .f32 := Memref.whole cc4_scratch0
abbrev VS4 : View sig .tc .vmem S5000x64 .f32 := scM4.view
/-- One staging buffer of the output window, through which its contents are stated. -/
abbrev VO4 : View sig .tc .vmem S5000x64 .f32 := (Memref.whole cc4_stg4_0 : Memref sig .tc .vmem S5000x64 .f32).view

set_option maxHeartbeats 1000000 in
/-- The body on whole memrefs, both conditionals taken: from the four input blocks at `x0 … x3`, the output buffer and
    the accumulator at anything, it runs to the continuation holding the inputs as they were, and the output buffer
    and the accumulator with the listed pieces written (last store first). -/
noncomputable def kernelRun4 (c : Dev nD) (i : grid4.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond4_0 i) (hc1 : cond4_1 i)
    (x0 : Vec F S1x5000x128 .f32) (x1 : Vec F S1x5000x1 .f32) (x2 : Vec F S1x128x64 .f32) (x3 : Vec F S1x1x64 .f32) :
    Σ' (L4 : List (View.Piece (Elt F) S5000x64 .f32)), { LS0 : List (View.Piece (Elt F) S5000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc4_kernel i arg2 harg2 arg3 harg3 arg4 harg4 arg5 harg5 arg6 harg6 arg7 harg7) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.Reg4.lean ====
import proofs.«166004_j3839700763193_1_alg».proof.Proof.K.Reg4Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's data is stated at
variable (V : (c : Dev nD) → (b : Ref sig .tc) → Buf (Elt F) ((c : Thread nD τ).loc b))

/-! # Region 4: the proof data of the pipeline and its body obligation, at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current staging buffer holds its block at every point, for any proof data whose array is
    `V`'s (`hA`) and whose body leaves the block in place (`hafter`): the windows are uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Each window's current staging memref at point `t`, spelled as the pipeline passes it, and its wholeness. -/
abbrev ms4_0 (t : Fin cfg4.N) : Memref sig .tc .vmem S1x5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x5000x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x64 .f32 := win4_4.stage (cfg4.slots t 4)
abbrev hs4_4 (t : Fin cfg4.N) : (ms4_4 t).IsWhole := hstage4_4 ((cfg4.slots t 4).cast nbuf4_4)

/-- The region invariant the launch hands the body, with the accumulator split off the kernel's other scoped
    buffers: the accumulator whole at some contents, the remaining scoped buffers unopened, the generator register
    at some state. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-! ## What the body leaves in the output block and in the accumulator -/

/-- The pieces the run stores into the output block cover it (one whole-block store). -/
theorem cover4_4 (c : Dev nD) (i : grid4.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond4_0 i) (hc1 : cond4_1 i)
    (x0 : Vec F S1x5000x128 .f32) (x1 : Vec F S1x5000x1 .f32) (x2 : Vec F S1x128x64 .f32) (x3 : Vec F S1x1x64 .f32) (y : S5000x64.Idx) :
    ∃ pc ∈ (kernelRun4 c i arg2 harg2 arg3 harg3 arg4 harg4 arg5 harg5 arg6 harg6 arg7 harg7 hc0 hc1 x0 x1 x2 x3).1, y ∈ pc.1.set :=
  View.cover_of_tiledL (kernelRun4 c i arg2 harg2 arg3 harg3 arg4 harg4 arg5 harg5 arg6 harg6 arg7 harg7 hc0 hc1 x0 x1 x2 x3).1 S5000x64.size (by sl_kernel_rfl) y

/-- What the body leaves in the output window's staging buffer: its pieces read back. -/
def out4_4 (c : Dev nD) (i : grid4.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond4_0 i) (hc1 : cond4_1 i)
    (x0 : Vec F S1x5000x128 .f32) (x1 : Vec F S1x5000x1 .f32) (x2 : Vec F S1x128x64 .f32) (x3 : Vec F S1x1x64 .f32) : Vec F S5000x64 .f32 :=
  VO4.read (Elt F) (VO4.writes (Elt F) VO4.junk (kernelRun4 c i arg2 harg2 arg3 harg3 arg4 harg4 arg5 harg5 arg6 harg6 arg7 harg7 hc0 hc1 x0 x1 x2 x3).1)

/-- The pieces the run stores into the accumulator cover it (whole-block stores). -/
theorem scover4_0 (c : Dev nD) (i : grid4.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond4_0 i) (hc1 : cond4_1 i)
    (x0 : Vec F S1x5000x128 .f32) (x1 : Vec F S1x5000x1 .f32) (x2 : Vec F S1x128x64 .f32) (x3 : Vec F S1x1x64 .f32) (y : S5000x64.Idx) :
    ∃ pc ∈ (kernelRun4 c i arg2 harg2 arg3 harg3 arg4 harg4 arg5 harg5 arg6 harg6 arg7 harg7 hc0 hc1 x0 x1 x2 x3).2.1, y ∈ pc.1.set :=
  View.cover_of_tiledL (kernelRun4 c i arg2 harg2 arg3 harg3 arg4 harg4 arg5 harg5 arg6 harg6 arg7 harg7 hc0 hc1 x0 x1 x2 x3).2.1 S5000x64.size (by sl_kernel_rfl) y

/-- What the body leaves in the accumulator: its pieces read back. -/
def sout4_0 (c : Dev nD) (i : grid4.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond4_0 i) (hc1 : cond4_1 i)
    (x0 : Vec F S1x5000x128 .f32) (x1 : Vec F S1x5000x1 .f32) (x2 : Vec F S1x128x64 .f32) (x3 : Vec F S1x1x64 .f32) : Vec F S5000x64 .f32 :=
  VS4.read (Elt F) (VS4.writes (Elt F) VS4.junk (kernelRun4 c i arg2 harg2 arg3 harg3 arg4 harg4 arg5 harg5 arg6 harg6 arg7 harg7 hc0 hc1 x0 x1 x2 x3).2.1)

/-- The output block after the body at point `t`, from the point's input blocks. -/
def outAt4 (c : Dev nD) (t : Fin cfg4.N) : Vec F S5000x64 .f32 :=
  out4_4 c (grid4.coords t) (ms4_0 t) (hs4_0 t) (ms4_1 t) (hs4_1 t) (ms4_2 t) (hs4_2 t) (ms4_3 t) (hs4_3 t) (ms4_4 t) (hs4_4 t) scM4 (Memref.isWhole_whole _) (hcond4_0 t) (hcond4_1 t) (iblk4 V c 0 t) (iblk4 V c 1 t) (iblk4 V c 2 t) (iblk4 V c 3 t)

/-- The accumulator after the body at point `t`, from the point's input blocks. -/
def accAt4 (c : Dev nD) (t : Fin cfg4.N) : Vec F S5000x64 .f32 :=
  sout4_0 c (grid4.coords t) (ms4_0 t) (hs4_0 t) (ms4_1 t) (hs4_1 t) (ms4_2 t) (hs4_2 t) (ms4_3 t) (hs4_3 t) (ms4_4 t) (hs4_4 t) scM4 (Memref.isWhole_whole _) (hcond4_0 t) (hcond4_1 t) (iblk4 V c 0 t) (iblk4 V c 1 t) (iblk4 V c 2 t) (iblk4 V c 3 t)

/-! ## The invariant -/

/-- The region invariant before position `n`: before the first point what the launch hands over (`ΦA`); after point
    `n` the accumulator at what that point left in it, the kernel's other scoped buffers unopened and the generator
    register at some state. -/
def PhiS4 (c : Dev nD) : (n : ℕ) → n ≤ cfg4.N → sProp 𝕄
  | 0, _ => Pipeline.ΦA spec4 c
  | n + 1, hn => iprop(iprop(owns (c : Thread nD τ) scM4 fullShare (accAt4 V c ⟨n, hn⟩)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (accAt4 V c ⟨n, hn⟩)
      ∗ Pipeline.scopedRestBut (Ix := Unit) (Name := ℕ) (U := UR sig nD τ) (Lvl := ℕ) (Val := Elt F) spec4 c [cc4_scratch0]) ∗ (∃ r, prngReg c r)) := rfl

/-! ## The pipeline's proof data -/

/-- The proof data of pipeline 4 on core `c`: the arrays as the region finds them (`V`); after the body at point
    `t` each input's buffer at its block and the output's at `outAt4`; the invariant `PhiS4`; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outAt4 V c t
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = outAt4 V c t := by dsimp only [dat4]

/-- Every array is held at the full share. -/
theorem share4 (c : Dev nD) : ∀ w, (dat4 V c).share w = fullShare := (dat4 V c).share_full fun _ => rfl

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at the region's point: the inputs' memrefs hold their blocks; the invariant hands the body the
    accumulator at some contents (the point is the first) and takes it back at this point's contents; the output
    buffer comes back at its pieces read back; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hz : t.val = 0 := by have hN : t.val < 1 := lt_of_lt_of_eq t.isLt (show cfg4.N = 1 from N_4); omega
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  unfold outAt4 accAt4 out4_4 sout4_0; (try dsimp only)
  rw [PhiS4_castSucc V c t, PhiS4_zero V c _ _ hz, PhiA4_eq]
  iintro ⟨⟨⟨HS0, Hrest⟩, Hg⟩, Ho, ⟨%d0, H0⟩, ⟨%d1, H1⟩, ⟨%d2, H2⟩, ⟨%d3, H3⟩, ⟨%d4, H4⟩⟩
  iapply ((kernelRun4 c (grid4.coords t) _ _ _ _ _ _ _ _ _ _ _ _ (hcond4_0 t) (hcond4_1 t) (iblk4 V c 0 t) (iblk4 V c 1 t) (iblk4 V c 2 t) (iblk4 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hrest Hg]
  · isplitl [HS0 Hrest]
    · isplitl [HS0]
      · unfold owns; iexists _; isplitr
        swap; · iexact HS0
        ipureintro; exact View.read_writes_of_cover _ _ _ _ _ (scover4_0 c _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover4_4 c _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region (`ΦA`) is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- Before a position that is not the first: the accumulator at what the point before left. -/
theorem PhiS4_pos (c : Dev nD) (n : ℕ) (h : n ≤ cfg4.N) (hz : n ≠ 0) :
    PhiS4 V c n h = iprop(iprop(owns (c : Thread nD τ) scM4 fullShare (accAt4 V c ⟨n - 1, by omega⟩)
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- After any point the invariant gives `ΦA` back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hrest⟩, Hg⟩
  isplitl [HS0 Hrest]
  · isplitl [HS0]
    · iexists _; iexact HS0
    iexact Hrest
  iexact Hg

/-- The same after the last point. -/
theorem hout4 (c : Dev nD) : (dat4 V c).Φ (Fin.last cfg4.N) ⊢ Pipeline.ΦA spec4 c :=
  Phi_out4 V c _ (by rw [Fin.val_last]; have : cfg4.N = 1 := N_4; omega)

end Cert.Kernel.Hand

end
-- ==== Proof.K.Reg5Runs.lean ====
import proofs.«166004_j3839700763193_1_alg».proof.Proof.Gen.Kernel.Launch
import proofs.«166004_j3839700763193_1_alg».proof.Proof.Gen.Kernel.Skeleton
import proofs.«166004_j3839700763193_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: what the three control cases share

The grid is 20 × 3: point `t = 3·n + r` is reduction step `r` of row block `n`. -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, for any proof data whose array is the
    entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, for any proof data whose array is the
    entry contents and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, for any proof data whose array is the
    entry contents and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, for any proof data whose array is the
    entry contents and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditionals, in closed form over the grid -/

/-- The first conditional (reduction step 0: the accumulator is zeroed). -/
abbrev cond5_0 (i : grid5.Coords) : Prop := (Scalar.cmpi .ne (Scalar.extui (Scalar.cmpi .eq (BitVec.ofNat 32 (i 1).val) 0#32)) 0#32) = 1#1
/-- It holds exactly at the points `t ≡ 0 (mod 3)`. -/
theorem hcond5_0 : ∀ t : Fin cfg5.N, cond5_0 (grid5.coords t) ↔ t.val % 3 = 0 :=
  (by decide +kernel : ∀ t : Fin grid5.N, cond5_0 (grid5.coords t) ↔ t.val % 3 = 0)

/-- The second conditional (last reduction step: the output block is stored from the accumulator). -/
abbrev cond5_1 (i : grid5.Coords) : Prop := k5_cond2 i = 1#1
/-- It holds exactly at the points `t ≡ 2 (mod 3)`. -/
theorem hcond5_1 : ∀ t : Fin cfg5.N, cond5_1 (grid5.coords t) ↔ t.val % 3 = 2 :=
  (by decide +kernel : ∀ t : Fin grid5.N, cond5_1 (grid5.coords t) ↔ t.val % 3 = 2)

/-! ## Where the windows are idle -/

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
theorem liveAt5_3 : ∀ t : Fin cfg5.N, cfg5.idle 3 (grid5.coords t) = false := fun _ => rfl
/-- Away from the last reduction step the output window is idle: nothing is stored into it, -/
theorem idleAt5_4 : ∀ t : Fin cfg5.N, ¬ t.val % 3 = 2 → cfg5.idle 4 (grid5.coords t) = true :=
  (by decide +kernel : ∀ t : Fin grid5.N, ¬ t.val % 3 = 2 → cfg5.idle 4 (grid5.coords t) = true)
/-- and its block is not written back. -/
theorem noFlush5_4 : ∀ t : Fin cfg5.N, ¬ t.val % 3 = 2 → (cfg5.win 4).flush t = false :=
  (by decide +kernel : ∀ t : Fin grid5.N, ¬ t.val % 3 = 2 → (cfg5.win 4).flush t = false)
/-- At the last reduction step it is live. -/
theorem liveAt5_4 : ∀ t : Fin cfg5.N, t.val % 3 = 2 → cfg5.idle 4 (grid5.coords t) = false :=
  (by decide +kernel : ∀ t : Fin grid5.N, t.val % 3 = 2 → cfg5.idle 4 (grid5.coords t) = false)

/-! ## The staging memrefs and the scratch -/

/-- One staging buffer of the output window, through which its contents are stated. -/
abbrev VO5_4 : View sig .tc .vmem S5000x64 .f32 := (Memref.whole cc5_stg4_0 : Memref sig .tc .vmem S5000x64 .f32).view
/-- Each window's current staging memref at point `t`, spelled as the pipeline passes it, and its wholeness. -/
abbrev ms5_0 (t : Fin cfg5.N) : Memref sig .tc .vmem S1x5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x5000x1 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x1x64 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S5000x64 .f32 := win5_4.stage (cfg5.slots t 4)
abbrev hs5_4 (t : Fin cfg5.N) : (ms5_4 t).IsWhole := hstage5_4 ((cfg5.slots t 4).cast nbuf5_4)
/-- The accumulator: a whole scoped buffer of the kernel's own, passed beside the windows. -/
abbrev scM5_0 : Memref sig .tc .vmem S5000x64 .f32 := Memref.whole cc5_scratch0
/-- The accumulator as a view: what it holds is stated through it. -/
abbrev VS5_0 : View sig .tc .vmem S5000x64 .f32 := scM5_0.view

/-- The other scoped buffers of the core (neither this call's staging buffers nor its accumulator), unopened. -/
abbrev restBut5 (c : Dev nD) : sProp 𝕄 :=
  Pipeline.scopedRestBut (Ix := Unit) (Name := ℕ) (U := UR sig nD τ) (Lvl := ℕ) (Val := Elt F) spec5 c [cc5_scratch0]

/-- The region invariant with the accumulator as a memref owned at some contents. -/
theorem PhiA5_eq (c : Dev nD) :
    (Pipeline.ΦA spec5 c : sProp 𝕄)
      = iprop(iprop(iprop((∃ d, owns (c : Thread nD τ) scM5_0 fullShare d)) ∗ restBut5 (F := F) c) ∗ (∃ r, prngReg c r)) := by
  unfold Pipeline.ΦA; rw [scopedRest5_split]; simp only [scM5_0, owns_whole]; try rfl

end Cert.Kernel.Hand

end
-- ==== Proof.K.Reg5RunA.lean ====
import proofs.«166004_j3839700763193_1_alg».proof.Proof.K.Reg5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in case A (first reduction step: the accumulator is zeroed, then one contribution is added; the output window is left untouched): on whole staging memrefs — the inputs' at their contents `x·`, the accumulator at anything, the output's at contents `xi4` handed back untouched — the body
    runs to the continuation holding the inputs' as they were and each buffer it stored into with its pieces written
    (`L4` the output's, `LS0` the accumulator's; last store first). The pieces are the witness the run finds. -/
noncomputable def kernelRun5_A (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond5_0 i) (hc1 : ¬cond5_1 i)
    (x0 : Vec F S1x5000x128 .f32) (x1 : Vec F S1x5000x1 .f32) (x2 : Vec F S1x128x64 .f32) (x3 : Vec F S1x1x64 .f32) :
    Σ' (L4 : List (View.Piece (Elt F) S5000x64 .f32)), { LS0 : List (View.Piece (Elt F) S5000x64 .f32) //
      ∀ (xi4 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc5_kernel i arg2 harg2 arg3 harg3 arg4 harg4 arg5 harg5 arg6 harg6 arg7 harg7) K } := by
  refine ⟨[], ?_, fun xi4 E K => ?run⟩
  case run =>
    rw [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.Reg5RunB.lean ====
import proofs.«166004_j3839700763193_1_alg».proof.Proof.K.Reg5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in case B (middle reduction step: one contribution is added to the accumulator; the output window is left untouched): on whole staging memrefs — the inputs' at their contents `x·`, the accumulator at what the step before left (`xs0`), the output's at contents `xi4` handed back untouched — the body
    runs to the continuation holding the inputs' as they were and each buffer it stored into with its pieces written
    (`L4` the output's, `LS0` the accumulator's; last store first). The pieces are the witness the run finds. -/
noncomputable def kernelRun5_B (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : ¬cond5_1 i)
    (x0 : Vec F S1x5000x128 .f32) (x1 : Vec F S1x5000x1 .f32) (x2 : Vec F S1x128x64 .f32) (x3 : Vec F S1x1x64 .f32) (xs0 : Vec F S5000x64 .f32) :
    Σ' (L4 : List (View.Piece (Elt F) S5000x64 .f32)), { LS0 : List (View.Piece (Elt F) S5000x64 .f32) //
      ∀ (xi4 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc5_kernel i arg2 harg2 arg3 harg3 arg4 harg4 arg5 harg5 arg6 harg6 arg7 harg7) K } := by
  refine ⟨[], ?_, fun xi4 E K => ?run⟩
  case run =>
    rw [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.Reg5RunC.lean ====
import proofs.«166004_j3839700763193_1_alg».proof.Proof.K.Reg5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in case C (last reduction step: one contribution is added to the accumulator, then the output block is stored from it): on whole staging memrefs — the inputs' at their contents `x·`, the accumulator at what the step before left (`xs0`), the output's at anything — the body
    runs to the continuation holding the inputs' as they were and each buffer it stored into with its pieces written
    (`L4` the output's, `LS0` the accumulator's; last store first). The pieces are the witness the run finds. -/
noncomputable def kernelRun5_C (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : cond5_1 i)
    (x0 : Vec F S1x5000x128 .f32) (x1 : Vec F S1x5000x1 .f32) (x2 : Vec F S1x128x64 .f32) (x3 : Vec F S1x1x64 .f32) (xs0 : Vec F S5000x64 .f32) :
    Σ' (L4 : List (View.Piece (Elt F) S5000x64 .f32)), { LS0 : List (View.Piece (Elt F) S5000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc5_kernel i arg2 harg2 arg3 harg3 arg4 harg4 arg5 harg5 arg6 harg6 arg7 harg7) K } := by
  refine ⟨?_, ?_, fun E K => ?run⟩
  case run =>
    rw [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.Reg5Val.lean ====
import proofs.«166004_j3839700763193_1_alg».proof.Proof.K.Reg5RunA
import proofs.«166004_j3839700763193_1_alg».proof.Proof.K.Reg5RunB
import proofs.«166004_j3839700763193_1_alg».proof.Proof.K.Reg5RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: what each control case leaves in the accumulator and in the output block

Every store of the body is of a whole buffer, through the rectangle at zero offsets of the buffer's own sizes; a
load through it reads the contents, and the last store through it leaves its payload. -/

private theorem zero2 : (![0, 0] : Fin 2 → ℕ) = fun _ => 0 := by funext a; fin_cases a <;> rfl
private theorem zero3 : (![0, 0, 0] : Fin 3 → ℕ) = fun _ => 0 := by funext a; fin_cases a <;> rfl

/-- Case A: the accumulator's last store is of the whole buffer, so its pieces cover it. -/
theorem scover5_A (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond5_0 i) (hc1 : ¬cond5_1 i)
    (x0 : Vec F S1x5000x128 .f32) (x1 : Vec F S1x5000x1 .f32) (x2 : Vec F S1x128x64 .f32) (x3 : Vec F S1x1x64 .f32) (y : S5000x64.Idx) :
    ∃ pc ∈ (kernelRun5_A c i arg2 harg2 arg3 harg3 arg4 harg4 arg5 harg5 arg6 harg6 arg7 harg7 hc0 hc1 x0 x1 x2 x3).2.1, y ∈ pc.1.set := by
  unfold kernelRun5_A; dsimp only
  sl_unfold_run_names
  exact ⟨_, List.mem_cons_self, View.mem_set_unit_zero (S := S5000x64) zero2 inb_S5000x64_S5000x64_0_0 y⟩

/-- Case A: what the accumulator's pieces amount to — one contribution added to zeros. -/
theorem cval5_A (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond5_0 i) (hc1 : ¬cond5_1 i)
    (x0 : Vec F S1x5000x128 .f32) (x1 : Vec F S1x5000x1 .f32) (x2 : Vec F S1x128x64 .f32) (x3 : Vec F S1x1x64 .f32) :
    View.canon (kernelRun5_A c i arg2 harg2 arg3 harg3 arg4 harg4 arg5 harg5 arg6 harg6 arg7 harg7 hc0 hc1 x0 x1 x2 x3).2.1 = k5_pay2 x0 x1 x2 k5_pay1 x3 := by
  unfold kernelRun5_A; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x64) zero3,
    View.ld_unit_zero (S := S1x1x64) zero3, View.ld_unit_zero (S := S5000x64) zero2]

/-- Case A: the accumulator read back through any view, over any prior contents. -/
theorem sval5_A (v : View sig .tc .vmem S5000x64 .f32) (f : v.ty.Contents (Elt F)) (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond5_0 i) (hc1 : ¬cond5_1 i)
    (x0 : Vec F S1x5000x128 .f32) (x1 : Vec F S1x5000x1 .f32) (x2 : Vec F S1x128x64 .f32) (x3 : Vec F S1x1x64 .f32) :
    v.read (Elt F) (v.writes (Elt F) f (kernelRun5_A c i arg2 harg2 arg3 harg3 arg4 harg4 arg5 harg5 arg6 harg6 arg7 harg7 hc0 hc1 x0 x1 x2 x3).2.1) = k5_pay2 x0 x1 x2 k5_pay1 x3 :=
  (View.read_writes_eq_canon v f _ (scover5_A c i arg2 harg2 arg3 harg3 arg4 harg4 arg5 harg5 arg6 harg6 arg7 harg7 hc0 hc1 x0 x1 x2 x3)).trans (cval5_A c i arg2 harg2 arg3 harg3 arg4 harg4 arg5 harg5 arg6 harg6 arg7 harg7 hc0 hc1 x0 x1 x2 x3)

/-- Case B: the accumulator's last store is of the whole buffer, so its pieces cover it. -/
theorem scover5_B (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : ¬cond5_1 i)
    (x0 : Vec F S1x5000x128 .f32) (x1 : Vec F S1x5000x1 .f32) (x2 : Vec F S1x128x64 .f32) (x3 : Vec F S1x1x64 .f32) (xs0 : Vec F S5000x64 .f32) (y : S5000x64.Idx) :
    ∃ pc ∈ (kernelRun5_B c i arg2 harg2 arg3 harg3 arg4 harg4 arg5 harg5 arg6 harg6 arg7 harg7 hc0 hc1 x0 x1 x2 x3 xs0).2.1, y ∈ pc.1.set := by
  unfold kernelRun5_B; dsimp only
  sl_unfold_run_names
  exact ⟨_, List.mem_cons_self, View.mem_set_unit_zero (S := S5000x64) zero2 inb_S5000x64_S5000x64_0_0 y⟩

/-- Case B: what the accumulator's pieces amount to — one contribution added to what the step before left. -/
theorem cval5_B (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : ¬cond5_1 i)
    (x0 : Vec F S1x5000x128 .f32) (x1 : Vec F S1x5000x1 .f32) (x2 : Vec F S1x128x64 .f32) (x3 : Vec F S1x1x64 .f32) (xs0 : Vec F S5000x64 .f32) :
    View.canon (kernelRun5_B c i arg2 harg2 arg3 harg3 arg4 harg4 arg5 harg5 arg6 harg6 arg7 harg7 hc0 hc1 x0 x1 x2 x3 xs0).2.1 = k5_pay2 x0 x1 x2 xs0 x3 := by
  unfold kernelRun5_B; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x64) zero3,
    View.ld_unit_zero (S := S1x1x64) zero3, View.ld_unit_zero (S := S5000x64) zero2]

/-- Case B: the accumulator read back through any view, over any prior contents. -/
theorem sval5_B (v : View sig .tc .vmem S5000x64 .f32) (f : v.ty.Contents (Elt F)) (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : ¬cond5_1 i)
    (x0 : Vec F S1x5000x128 .f32) (x1 : Vec F S1x5000x1 .f32) (x2 : Vec F S1x128x64 .f32) (x3 : Vec F S1x1x64 .f32) (xs0 : Vec F S5000x64 .f32) :
    v.read (Elt F) (v.writes (Elt F) f (kernelRun5_B c i arg2 harg2 arg3 harg3 arg4 harg4 arg5 harg5 arg6 harg6 arg7 harg7 hc0 hc1 x0 x1 x2 x3 xs0).2.1) = k5_pay2 x0 x1 x2 xs0 x3 :=
  (View.read_writes_eq_canon v f _ (scover5_B c i arg2 harg2 arg3 harg3 arg4 harg4 arg5 harg5 arg6 harg6 arg7 harg7 hc0 hc1 x0 x1 x2 x3 xs0)).trans (cval5_B c i arg2 harg2 arg3 harg3 arg4 harg4 arg5 harg5 arg6 harg6 arg7 harg7 hc0 hc1 x0 x1 x2 x3 xs0)

/-- Case C: the accumulator's last store is of the whole buffer, so its pieces cover it. -/
theorem scover5_C (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : cond5_1 i)
    (x0 : Vec F S1x5000x128 .f32) (x1 : Vec F S1x5000x1 .f32) (x2 : Vec F S1x128x64 .f32) (x3 : Vec F S1x1x64 .f32) (xs0 : Vec F S5000x64 .f32) (y : S5000x64.Idx) :
    ∃ pc ∈ (kernelRun5_C c i arg2 harg2 arg3 harg3 arg4 harg4 arg5 harg5 arg6 harg6 arg7 harg7 hc0 hc1 x0 x1 x2 x3 xs0).2.1, y ∈ pc.1.set := by
  unfold kernelRun5_C; dsimp only
  sl_unfold_run_names
  exact ⟨_, List.mem_cons_self, View.mem_set_unit_zero (S := S5000x64) zero2 inb_S5000x64_S5000x64_0_0 y⟩

/-- Case C: what the accumulator's pieces amount to — one contribution added to what the step before left. -/
theorem cval5_C (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : cond5_1 i)
    (x0 : Vec F S1x5000x128 .f32) (x1 : Vec F S1x5000x1 .f32) (x2 : Vec F S1x128x64 .f32) (x3 : Vec F S1x1x64 .f32) (xs0 : Vec F S5000x64 .f32) :
    View.canon (kernelRun5_C c i arg2 harg2 arg3 harg3 arg4 harg4 arg5 harg5 arg6 harg6 arg7 harg7 hc0 hc1 x0 x1 x2 x3 xs0).2.1 = k5_pay2 x0 x1 x2 xs0 x3 := by
  unfold kernelRun5_C; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x64) zero3,
    View.ld_unit_zero (S := S1x1x64) zero3, View.ld_unit_zero (S := S5000x64) zero2]

/-- Case C: the accumulator read back through any view, over any prior contents. -/
theorem sval5_C (v : View sig .tc .vmem S5000x64 .f32) (f : v.ty.Contents (Elt F)) (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : cond5_1 i)
    (x0 : Vec F S1x5000x128 .f32) (x1 : Vec F S1x5000x1 .f32) (x2 : Vec F S1x128x64 .f32) (x3 : Vec F S1x1x64 .f32) (xs0 : Vec F S5000x64 .f32) :
    v.read (Elt F) (v.writes (Elt F) f (kernelRun5_C c i arg2 harg2 arg3 harg3 arg4 harg4 arg5 harg5 arg6 harg6 arg7 harg7 hc0 hc1 x0 x1 x2 x3 xs0).2.1) = k5_pay2 x0 x1 x2 xs0 x3 :=
  (View.read_writes_eq_canon v f _ (scover5_C c i arg2 harg2 arg3 harg3 arg4 harg4 arg5 harg5 arg6 harg6 arg7 harg7 hc0 hc1 x0 x1 x2 x3 xs0)).trans (cval5_C c i arg2 harg2 arg3 harg3 arg4 harg4 arg5 harg5 arg6 harg6 arg7 harg7 hc0 hc1 x0 x1 x2 x3 xs0)

/-- Case C: the output block's one store is of the whole buffer. -/
theorem ocover5_C (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : cond5_1 i)
    (x0 : Vec F S1x5000x128 .f32) (x1 : Vec F S1x5000x1 .f32) (x2 : Vec F S1x128x64 .f32) (x3 : Vec F S1x1x64 .f32) (xs0 : Vec F S5000x64 .f32) (y : S5000x64.Idx) :
    ∃ pc ∈ (kernelRun5_C c i arg2 harg2 arg3 harg3 arg4 harg4 arg5 harg5 arg6 harg6 arg7 harg7 hc0 hc1 x0 x1 x2 x3 xs0).1, y ∈ pc.1.set := by
  unfold kernelRun5_C; dsimp only
  sl_unfold_run_names
  exact ⟨_, List.mem_cons_self, View.mem_set_unit_zero (S := S5000x64) zero2 inb_S5000x64_S5000x64_0_0 y⟩

/-- Case C: the output block is the finished accumulator. -/
theorem oval5_C_canon (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : cond5_1 i)
    (x0 : Vec F S1x5000x128 .f32) (x1 : Vec F S1x5000x1 .f32) (x2 : Vec F S1x128x64 .f32) (x3 : Vec F S1x1x64 .f32) (xs0 : Vec F S5000x64 .f32) :
    View.canon (kernelRun5_C c i arg2 harg2 arg3 harg3 arg4 harg4 arg5 harg5 arg6 harg6 arg7 harg7 hc0 hc1 x0 x1 x2 x3 xs0).1 = k5_pay2 x0 x1 x2 xs0 x3 := by
  unfold kernelRun5_C; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x64) zero3,
    View.ld_unit_zero (S := S1x1x64) zero3, View.ld_unit_zero (S := S5000x64) zero2]

/-- Case C: the output block read back through any view, over any prior contents. -/
theorem oval5_C (v : View sig .tc .vmem S5000x64 .f32) (f : v.ty.Contents (Elt F)) (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : cond5_1 i)
    (x0 : Vec F S1x5000x128 .f32) (x1 : Vec F S1x5000x1 .f32) (x2 : Vec F S1x128x64 .f32) (x3 : Vec F S1x1x64 .f32) (xs0 : Vec F S5000x64 .f32) :
    v.read (Elt F) (v.writes (Elt F) f (kernelRun5_C c i arg2 harg2 arg3 harg3 arg4 harg4 arg5 harg5 arg6 harg6 arg7 harg7 hc0 hc1 x0 x1 x2 x3 xs0).1) = k5_pay2 x0 x1 x2 xs0 x3 :=
  (View.read_writes_eq_canon v f _ (ocover5_C c i arg2 harg2 arg3 harg3 arg4 harg4 arg5 harg5 arg6 harg6 arg7 harg7 hc0 hc1 x0 x1 x2 x3 xs0)).trans (oval5_C_canon c i arg2 harg2 arg3 harg3 arg4 harg4 arg5 harg5 arg6 harg6 arg7 harg7 hc0 hc1 x0 x1 x2 x3 xs0)

end Cert.Kernel.Hand

end
-- ==== Proof.K.Reg5.lean ====
import proofs.«166004_j3839700763193_1_alg».proof.Proof.K.Reg5Val

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the proof data and the body obligation

The grid is 20 × 3, point `t = 3·n + r`. At `r = 0` the accumulator is zeroed; at every `r` one relation's contribution
`(agg·inv) @ W + b` is added to it; at `r = 2` the output block `n` is stored from it and written back. -/

/-! ## The accumulator, point by point -/

/-- One reduction step at point `t`: the contribution of the point's four input blocks added to `a`. -/
def step5 (c : Dev nD) (t : Fin cfg5.N) (a : Vec F S5000x64 .f32) : Vec F S5000x64 .f32 :=
  k5_pay2 (iblk5 V c 0 t) (iblk5 V c 1 t) (iblk5 V c 2 t) a (iblk5 V c 3 t)

/-- What the accumulator holds after the body at position `n`: a step from zeros where `n ≡ 0 (mod 3)`, else a step
    from what the position before left. -/
def acc5 (c : Dev nD) : (n : ℕ) → n < cfg5.N → Vec F S5000x64 .f32
  | 0, hn => step5 V c ⟨0, hn⟩ k5_pay1
  | n + 1, hn =>
    if (n + 1) % 3 = 0 then step5 V c ⟨n + 1, hn⟩ k5_pay1
    else step5 V c ⟨n + 1, hn⟩ (acc5 c n (Nat.lt_of_succ_lt hn))

/-- At a first reduction step the accumulator restarts from zeros. -/
theorem acc5_first (c : Dev nD) (t : Fin cfg5.N) (h0 : t.val % 3 = 0) :
    acc5 V c t.val t.isLt = step5 V c t k5_pay1 := by
  obtain ⟨n, hn⟩ := t
  cases n with
  | zero => rfl
  | succ n => exact if_pos h0

/-- At a later reduction step it continues from the point before. -/
theorem acc5_next (c : Dev nD) (t : Fin cfg5.N) (h0 : ¬t.val % 3 = 0) :
    acc5 V c t.val t.isLt = step5 V c t (acc5 V c (t.val - 1) (Nat.lt_of_le_of_lt (Nat.sub_le _ _) t.isLt)) := by
  obtain ⟨n, hn⟩ := t
  cases n with
  | zero => exact absurd (Nat.zero_mod _) h0
  | succ n => exact if_neg h0

/-- What the output window's staging buffer holds after the body at point `t` (read only where `t ≡ 2 (mod 3)`:
    elsewhere the window is idle and not written back): the accumulator. -/
def out5 (c : Dev nD) (t : Fin cfg5.N) : Vec F S5000x64 .f32 := acc5 V c t.val t.isLt

/-! ## The invariant carrying the accumulator -/

/-- Before position `n`: at the region's entry the launch's invariant (the accumulator at anything); afterwards the
    accumulator at what the position before left, the other scoped buffers unopened, the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare (acc5 V c n hn)) ∗ restBut5 (F := F) c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare (acc5 V c n hn)) ∗ restBut5 (F := F) c) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare (acc5 V c (n - 1) (by omega))) ∗ restBut5 (F := F) c) ∗ (∃ r, prngReg c r)) := by
  cases n with
  | zero => exact absurd rfl hz
  | succ n => rfl

/-! ## The proof data -/

/-- The proof data of pipeline 5 on core `c`, at the region's entry contents `V`: the arrays as the region finds them;
    after the body each input's buffer at its block and the output's at `out5`; the invariant `PhiS5`; nothing owed;
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5 V c t
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

/-- Every array is held at the full share. -/
theorem share5 (c : Dev nD) : ∀ w, (dat5 V c).share w = fullShare := (dat5 V c).share_full fun _ => rfl

theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5 V c t := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in
/-- The body at any point: the inputs' memrefs hold their blocks; `t % 3` says which case the point is in; the invariant
    hands the body the accumulator at what the point before left (at anything at the region's first point) and takes
    it back at this point's contents; the output's buffer is handed back untouched at the idle points and holds
    `out5` at the last reduction step; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  have hN : t.val < 60 := lt_of_lt_of_eq t.isLt (show cfg5.N = 60 from N_5)
  by_cases h0 : t.val % 3 = 0
  · have h2 : ¬t.val % 3 = 2 := by omega
    rw [Dat.leavesExact_idle (dat5 V c) 4 t (idleAt5_4 t h2) (noFlush5_4 t h2)]
    rw [acc5_first V c t h0]; unfold step5
    by_cases hz : t.val = 0
    · rw [PhiS5_castSucc V c t, PhiS5_zero V c _ _ hz, PhiA5_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun5_A c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h2 ((hcond5_1 t).mp h)) (iblk5 V c 0 t) (iblk5 V c 1 t) (iblk5 V c 2 t) (iblk5 V c 3 t)).2.2 ((dat5 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact sval5_A scM5_0.view es0 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h2 ((hcond5_1 t).mp h)) (iblk5 V c 0 t) (iblk5 V c 1 t) (iblk5 V c 2 t) (iblk5 V c 3 t)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS5_castSucc V c t, PhiS5_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun5_A c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h2 ((hcond5_1 t).mp h)) (iblk5 V c 0 t) (iblk5 V c 1 t) (iblk5 V c 2 t) (iblk5 V c 3 t)).2.2 ((dat5 V c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact sval5_A scM5_0.view es0 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h2 ((hcond5_1 t).mp h)) (iblk5 V c 0 t) (iblk5 V c 1 t) (iblk5 V c 2 t) (iblk5 V c 3 t)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiS5_castSucc V c t, PhiS5_pos V c _ _ hz]
    rw [acc5_next V c t h0]; unfold step5
    by_cases h2 : t.val % 3 = 2
    · rw [show (dat5 V c).leavesExact 4 t = owns (c : Thread nD τ) (ms5_4 t) fullShare ((dat5 V c).after 4 t) from by
        unfold Dat.leavesExact; rw [liveAt5_4 t h2], after5_4]
      unfold out5; rw [acc5_next V c t h0]; unfold step5
      iintro ⟨⟨⟨HS0, Hr⟩, Hg⟩, Ho, ⟨%d0, H0⟩, ⟨%d1, H1⟩, ⟨%d2, H2⟩, ⟨%d3, H3⟩, ⟨%d4, H4⟩⟩
      iapply ((kernelRun5_C c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h2) (iblk5 V c 0 t) (iblk5 V c 1 t) (iblk5 V c 2 t) (iblk5 V c 3 t) (acc5 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact sval5_C scM5_0.view es0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h2) (iblk5 V c 0 t) (iblk5 V c 1 t) (iblk5 V c 2 t) (iblk5 V c 3 t) (acc5 V c (t.val - 1) (Nat.lt_of_le_of_lt (Nat.sub_le _ _) t.isLt))
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact oval5_C (ms5_4 t).view e4 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h2) (iblk5 V c 0 t) (iblk5 V c 1 t) (iblk5 V c 2 t) (iblk5 V c 3 t) (acc5 V c (t.val - 1) (Nat.lt_of_le_of_lt (Nat.sub_le _ _) t.isLt))
    · rw [Dat.leavesExact_idle (dat5 V c) 4 t (idleAt5_4 t h2) (noFlush5_4 t h2)]
      iintro ⟨⟨⟨HS0, Hr⟩, Hg⟩, Ho, ⟨%d0, H0⟩, ⟨%d1, H1⟩, ⟨%d2, H2⟩, ⟨%d3, H3⟩, ⟨%d4, H4⟩⟩
      iapply ((kernelRun5_B c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (fun h => h2 ((hcond5_1 t).mp h)) (iblk5 V c 0 t) (iblk5 V c 1 t) (iblk5 V c 2 t) (iblk5 V c 3 t) (acc5 V c (t.val - 1) (Nat.lt_of_le_of_lt (Nat.sub_le _ _) t.isLt))).2.2 ((dat5 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact sval5_B scM5_0.view es0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (fun h => h2 ((hcond5_1 t).mp h)) (iblk5 V c 0 t) (iblk5 V c 1 t) (iblk5 V c 2 t) (iblk5 V c 3 t) (acc5 V c (t.val - 1) (Nat.lt_of_le_of_lt (Nat.sub_le _ _) t.isLt))
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the launch's back: the accumulator's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, Hr⟩, Hg⟩
  isplitl [HS0 Hr]
  · isplitl [HS0]
    · iexists _; iexact HS0
    iexact Hr
  iexact Hg

/-- The same after the last point. -/
theorem hout5 (c : Dev nD) : (dat5 V c).Φ (Fin.last cfg5.N) ⊢ Pipeline.ΦA spec5 c :=
  Phi_out5 V c _ (by rw [Fin.val_last]; have : cfg5.N = 60 := N_5; omega)

/-! ## The output block at a point that writes it back -/

/-- At the last reduction step `t = 3·n + 2` the output's staging buffer holds the three relations'
    contributions added in order to zeros: the steps at `t - 2`, `t - 1`, `t`. -/
theorem after5_4_flush (c : Dev nD) (t : Fin cfg5.N) (h2 : t.val % 3 = 2) :
    (dat5 V c).after 4 t = (step5 V c t (step5 V c ⟨t.val - 1, by omega⟩ (step5 V c ⟨t.val - 2, by omega⟩ k5_pay1))) := by
  rw [after5_4]; unfold out5
  have e2 : acc5 V c t.val t.isLt = step5 V c t (acc5 V c (t.val - 1) (Nat.lt_of_le_of_lt (Nat.sub_le _ _) t.isLt)) := acc5_next V c t (by omega)
  have e1 : (acc5 V c (t.val - 1) (Nat.lt_of_le_of_lt (Nat.sub_le _ _) t.isLt)) = step5 V c ⟨t.val - 1, by omega⟩ (acc5 V c (t.val - 1 - 1) (by omega)) :=
    acc5_next V c ⟨t.val - 1, by omega⟩ (by show ¬(t.val - 1) % 3 = 0; omega)
  have e0 : acc5 V c (t.val - 1 - 1) (by omega) = step5 V c ⟨t.val - 1 - 1, by omega⟩ k5_pay1 :=
    acc5_first V c ⟨t.val - 1 - 1, by omega⟩ (by show (t.val - 1 - 1) % 3 = 0; omega)
  rw [e2, e1, e0]
  have e : (⟨t.val - 1 - 1, by omega⟩ : Fin cfg5.N) = ⟨t.val - 2, by omega⟩ := Fin.ext (by show t.val - 1 - 1 = t.val - 2; omega)
  rw [e]

end Cert.Kernel.Hand

end
-- ==== Proof.K.Frame.lean ====
/- The frame of the kernel program as printed: @main as six host stretches and six kernel regions. Between two items every
   unscoped buffer of a core is held whole at a named valuation: the launch contents, then each host stretch's operations
   applied, then, after a region, the same contents with the region's output array at the fold of the write-backs of its
   output window over the grid. Each region is entered by splitting its five arrays out of the unscoped buffers, runs its
   pipeline under the region's proof data (the scratch accumulator and the generator register travel inside the region's
   invariant), and puts the arrays back. Nothing is owed at any boundary. The arguments are written by no stretch and by no
   region, so they end as launched. -/
import proofs.«166004_j3839700763193_1_alg».proof.Proof.Gen.Kernel.Regions
import proofs.«166004_j3839700763193_1_alg».proof.Proof.Gen.Kernel.Points
import proofs.«166004_j3839700763193_1_alg».proof.Proof.K.Reg0
import proofs.«166004_j3839700763193_1_alg».proof.Proof.K.Reg1
import proofs.«166004_j3839700763193_1_alg».proof.Proof.K.Reg2
import proofs.«166004_j3839700763193_1_alg».proof.Proof.K.Reg3
import proofs.«166004_j3839700763193_1_alg».proof.Proof.K.Reg4
import proofs.«166004_j3839700763193_1_alg».proof.Proof.K.Reg5
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No core owes another anything: no level is assigned. -/
abbrev Lz : GSem nD τ sig → Finset Unit := fun _ => ∅
abbrev lvz : GSem nD τ sig → Unit → ℕ := fun _ _ => 0
/-- What rides beside the buffers through every segment: the core's generator register at some state and its dues, at nothing. -/
abbrev Rz (c : Dev nD) : sProp 𝕄 := iprop((∃ r, prngReg c r) ∗ ∃ W, owes (c : Thread nD τ) (0 : CellTallies nD τ sig Unit) W)

/-- The unscoped buffers of core `c` when region 0 is entered: the launch contents after the first host stretch. -/
def X1 (c : Dev nD) : Valuation τ sig (Elt F) := V1 m c
abbrev T1 : (c : Dev nD) → (b : Ref sig .tc) → Buf (Elt F) ((c : Thread nD τ).loc b) := fun c b => X1 m c b

/-- What region 0 leaves in its output array: the write-backs of its output window folded over the grid. -/
def o2 (c : Dev nD) : Buf (Elt F) ((c : Thread nD τ).loc main_v44) := (dat0 (T1 m) c).arrAt 4 cfg0.N
/-- The unscoped buffers after region 0: as at its entry, its output array at what the region leaves. -/
def X2 (c : Dev nD) : Valuation τ sig (Elt F) := Function.update (X1 m c) main_v44 (o2 m c)
/-- … and after the host stretch that follows it. -/
def X3 (c : Dev nD) : Valuation τ sig (Elt F) := StableHlo.after hostOps1 (X2 m c)
abbrev T3 : (c : Dev nD) → (b : Ref sig .tc) → Buf (Elt F) ((c : Thread nD τ).loc b) := fun c b => X3 m c b

/-- What region 1 leaves in its output array: the write-backs of its output window folded over the grid. -/
def o4 (c : Dev nD) : Buf (Elt F) ((c : Thread nD τ).loc main_v96) := (dat1 (T3 m) c).arrAt 4 cfg1.N
/-- The unscoped buffers after region 1: as at its entry, its output array at what the region leaves. -/
def X4 (c : Dev nD) : Valuation τ sig (Elt F) := Function.update (X3 m c) main_v96 (o4 m c)
/-- … and after the host stretch that follows it. -/
def X5 (c : Dev nD) : Valuation τ sig (Elt F) := StableHlo.after hostOps2 (X4 m c)
abbrev T5 : (c : Dev nD) → (b : Ref sig .tc) → Buf (Elt F) ((c : Thread nD τ).loc b) := fun c b => X5 m c b

/-- What region 2 leaves in its output array: the write-backs of its output window folded over the grid. -/
def o6 (c : Dev nD) : Buf (Elt F) ((c : Thread nD τ).loc main_v116) := (dat2 (T5 m) c).arrAt 4 cfg2.N
/-- The unscoped buffers after region 2: as at its entry, its output array at what the region leaves. -/
def X6 (c : Dev nD) : Valuation τ sig (Elt F) := Function.update (X5 m c) main_v116 (o6 m c)
/-- … and after the host stretch that follows it. -/
def X7 (c : Dev nD) : Valuation τ sig (Elt F) := StableHlo.after hostOps3 (X6 m c)
abbrev T7 : (c : Dev nD) → (b : Ref sig .tc) → Buf (Elt F) ((c : Thread nD τ).loc b) := fun c b => X7 m c b

/-- What region 3 leaves in its output array: the write-backs of its output window folded over the grid. -/
def o8 (c : Dev nD) : Buf (Elt F) ((c : Thread nD τ).loc main_v168) := (dat3 (T7 m) c).arrAt 4 cfg3.N
/-- The unscoped buffers after region 3: as at its entry, its output array at what the region leaves. -/
def X8 (c : Dev nD) : Valuation τ sig (Elt F) := Function.update (X7 m c) main_v168 (o8 m c)
/-- … and after the host stretch that follows it. -/
def X9 (c : Dev nD) : Valuation τ sig (Elt F) := StableHlo.after hostOps4 (X8 m c)
abbrev T9 : (c : Dev nD) → (b : Ref sig .tc) → Buf (Elt F) ((c : Thread nD τ).loc b) := fun c b => X9 m c b

/-- What region 4 leaves in its output array: the write-backs of its output window folded over the grid. -/
def o10 (c : Dev nD) : Buf (Elt F) ((c : Thread nD τ).loc main_v188) := (dat4 (T9 m) c).arrAt 4 cfg4.N
/-- The unscoped buffers after region 4: as at its entry, its output array at what the region leaves. -/
def X10 (c : Dev nD) : Valuation τ sig (Elt F) := Function.update (X9 m c) main_v188 (o10 m c)
/-- … and after the host stretch that follows it. -/
def X11 (c : Dev nD) : Valuation τ sig (Elt F) := StableHlo.after hostOps5 (X10 m c)
abbrev T11 : (c : Dev nD) → (b : Ref sig .tc) → Buf (Elt F) ((c : Thread nD τ).loc b) := fun c b => X11 m c b

/-- What region 5 leaves in its output array: the write-backs of its output window folded over the grid. -/
def o12 (c : Dev nD) : Buf (Elt F) ((c : Thread nD τ).loc main_v240) := (dat5 (T11 m) c).arrAt 4 cfg5.N
/-- The unscoped buffers after region 5: as at its entry, its output array at what the region leaves. -/
def X12 (c : Dev nD) : Valuation τ sig (Elt F) := Function.update (X11 m c) main_v240 (o12 m c)

/-- The contents the regions leave, as the conditional frame wants them: after item J−1 every buffer at the valuation above. -/
def outs : Outs (F := F) := fun J r c => match J with
  | 2 => X2 m c r | 4 => X4 m c r | 6 => X6 m c r | 8 => X8 m c r | 10 => X10 m c r | 12 => X12 m c r | _ => V0 m c r

theorem V1_eq (c : Dev nD) : V1 m c = X1 m c := rfl
theorem V2_eq (c : Dev nD) : V2 m (outs m) c = X2 m c := by
  show Function.update (V1 m c) main_v44 (X2 m c main_v44) = X2 m c
  rw [V1_eq]; unfold X2; rw [Function.update_self]
theorem V3_eq (c : Dev nD) : V3 m (outs m) c = X3 m c := by
  show StableHlo.after hostOps1 (V2 m (outs m) c) = X3 m c
  rw [V2_eq]; rfl
theorem V4_eq (c : Dev nD) : V4 m (outs m) c = X4 m c := by
  show Function.update (V3 m (outs m) c) main_v96 (X4 m c main_v96) = X4 m c
  rw [V3_eq]; unfold X4; rw [Function.update_self]
theorem V5_eq (c : Dev nD) : V5 m (outs m) c = X5 m c := by
  show StableHlo.after hostOps2 (V4 m (outs m) c) = X5 m c
  rw [V4_eq]; rfl
theorem V6_eq (c : Dev nD) : V6 m (outs m) c = X6 m c := by
  show Function.update (V5 m (outs m) c) main_v116 (X6 m c main_v116) = X6 m c
  rw [V5_eq]; unfold X6; rw [Function.update_self]
theorem V7_eq (c : Dev nD) : V7 m (outs m) c = X7 m c := by
  show StableHlo.after hostOps3 (V6 m (outs m) c) = X7 m c
  rw [V6_eq]; rfl
theorem V8_eq (c : Dev nD) : V8 m (outs m) c = X8 m c := by
  show Function.update (V7 m (outs m) c) main_v168 (X8 m c main_v168) = X8 m c
  rw [V7_eq]; unfold X8; rw [Function.update_self]
theorem V9_eq (c : Dev nD) : V9 m (outs m) c = X9 m c := by
  show StableHlo.after hostOps4 (V8 m (outs m) c) = X9 m c
  rw [V8_eq]; rfl
theorem V10_eq (c : Dev nD) : V10 m (outs m) c = X10 m c := by
  show Function.update (V9 m (outs m) c) main_v188 (X10 m c main_v188) = X10 m c
  rw [V9_eq]; unfold X10; rw [Function.update_self]
theorem V11_eq (c : Dev nD) : V11 m (outs m) c = X11 m c := by
  show StableHlo.after hostOps5 (V10 m (outs m) c) = X11 m c
  rw [V10_eq]; rfl
theorem V12_eq (c : Dev nD) : V12 m (outs m) c = X12 m c := by
  show Function.update (V11 m (outs m) c) main_v240 (X12 m c main_v240) = X12 m c
  rw [V11_eq]; unfold X12; rw [Function.update_self]

/-- Every region's proof data, each at its region's entry contents. -/
def pdats : (p : Fin 6) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T5 m) c
  | ⟨3, _⟩ => fun c => dat3 (T7 m) c
  | ⟨4, _⟩ => fun c => dat4 (T9 m) c
  | ⟨5, _⟩ => fun c => dat5 (T11 m) c

/-- At region 0's exit each of its arrays holds what the pipeline leaves: an input window's array is as it was entered,
    the output window's array is the fold of its write-backs. -/
theorem hF0 (c : Dev nD) (w : Fin cfg0.W) : (dat0 (T1 m) c).arrAt w cfg0.N = (fun b : Ref sig .tc => X2 m c b) (Pipeline.arrRef spec0 w) := by
  have hcases : w = 4 ∨ ((cfg0.win w).isOut = false ∧ Pipeline.arrRef spec0 w ≠ main_v44) := by
    revert w; exact (by decide +kernel : ∀ w : Fin cfg0.W, w = 4 ∨ ((cfg0.win w).isOut = false ∧ Pipeline.arrRef spec0 w ≠ main_v44))
  rcases hcases with rfl | ⟨hin, hne⟩
  · show _ = X2 m c _
    unfold X2
    exact (Function.update_self (Proc.devRef (τ := τ) .tc main_v44) (o2 m c) (X1 m c)).symm
  · refine ((dat0 (T1 m) c).arrAt_in w hin _).trans ((A_eq0 (T1 m) c w).trans ?_)
    show X1 m c _ = X2 m c _
    unfold X2
    exact (Function.update_of_ne (StableHlo.devRef_ne_of_ne hne) _ _).symm
/-- … and every other buffer what it held at entry. -/
theorem hrest0 (c : Dev nD) : ∀ b : Ref sig .tc, b ∉ Finset.univ.image (Pipeline.arrRef spec0) → (fun b : Ref sig .tc => X2 m c b) b = T1 m c b := by
  intro b hb
  have hne : b ≠ main_v44 := fun e => hb (Finset.mem_image.mpr ⟨4, Finset.mem_univ _, e.symm ▸ rfl⟩)
  show X2 m c _ = X1 m c _
  unfold X2
  exact Function.update_of_ne (StableHlo.devRef_ne_of_ne hne) _ _

set_option backward.isDefEq.respectTransparency.types false in
/-- Region 0 as a segment: entered from every unscoped buffer at the contents before it, left at the contents after it;
    its arrays are split out of the unscoped buffers and put back at the exit contents; the generator register and the
    kernel's scratch enter the region's invariant and come back; nothing is owed; the kernel has no semaphore of its own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ Lz lvz 0 fun _ _ => rfl
  pre c := iprop(StableHlo.held (c : Thread nD τ) (Pipeline.ucRefs τ sig) (V1 m c) ∗ Rz c)
  post c := iprop(StableHlo.held (c : Thread nD τ) (Pipeline.ucRefs τ sig) (V2 m (outs m) c) ∗ Rz c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none, V1_eq]
    have hsplit := Pipeline.arrays_of_unscopedBufs (p := 0) (pcfgs (F := F)) adm (pdats m) launch0.win launch0.arr_whole c
      (share0 (T1 m) c) (T1 m c) (A_eq0 (T1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (T1 m) c)
    unfold Pipeline.ΦA
    iintro ⟨Hp, -, Hr⟩
    isplitl [Hr]; · iexact Hr
    iexact Hp
  hout c := by
    rw [Pipeline.ownSems0_none]
    refine (hout0 (T1 m) c).trans ?_
    unfold Pipeline.ΦA
    iintro ⟨Hr, Hp⟩
    isplitl [Hp]; · iexact Hp
    isplitr; · iempintro
    iexact Hr
  hexit c := by
    rw [V2_eq]
    have hjoin := Pipeline.unscopedBufs_of_arrays (p := 0) (pcfgs (F := F)) adm (Ix := Unit) (Name := ℕ) (U := UR sig nD τ) (Lvl := ℕ)
      launch0.win launch0.arr_whole c (pdats m) (share0 (T1 m) c)
      (T1 m c) (fun b : Ref sig .tc => X2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves: an input window's array is as it was entered,
    the output window's array is the fold of its write-backs. -/
theorem hF1 (c : Dev nD) (w : Fin cfg1.W) : (dat1 (T3 m) c).arrAt w cfg1.N = (fun b : Ref sig .tc => X4 m c b) (Pipeline.arrRef spec1 w) := by
  have hcases : w = 4 ∨ ((cfg1.win w).isOut = false ∧ Pipeline.arrRef spec1 w ≠ main_v96) := by
    revert w; exact (by decide +kernel : ∀ w : Fin cfg1.W, w = 4 ∨ ((cfg1.win w).isOut = false ∧ Pipeline.arrRef spec1 w ≠ main_v96))
  rcases hcases with rfl | ⟨hin, hne⟩
  · show _ = X4 m c _
    unfold X4
    exact (Function.update_self (Proc.devRef (τ := τ) .tc main_v96) (o4 m c) (X3 m c)).symm
  · refine ((dat1 (T3 m) c).arrAt_in w hin _).trans ((A_eq1 (T3 m) c w).trans ?_)
    show X3 m c _ = X4 m c _
    unfold X4
    exact (Function.update_of_ne (StableHlo.devRef_ne_of_ne hne) _ _).symm
/-- … and every other buffer what it held at entry. -/
theorem hrest1 (c : Dev nD) : ∀ b : Ref sig .tc, b ∉ Finset.univ.image (Pipeline.arrRef spec1) → (fun b : Ref sig .tc => X4 m c b) b = T3 m c b := by
  intro b hb
  have hne : b ≠ main_v96 := fun e => hb (Finset.mem_image.mpr ⟨4, Finset.mem_univ _, e.symm ▸ rfl⟩)
  show X4 m c _ = X3 m c _
  unfold X4
  exact Function.update_of_ne (StableHlo.devRef_ne_of_ne hne) _ _

set_option backward.isDefEq.respectTransparency.types false in
/-- Region 1 as a segment: entered from every unscoped buffer at the contents before it, left at the contents after it;
    its arrays are split out of the unscoped buffers and put back at the exit contents; the generator register and the
    kernel's scratch enter the region's invariant and come back; nothing is owed; the kernel has no semaphore of its own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ Lz lvz 1 fun _ _ => rfl
  pre c := iprop(StableHlo.held (c : Thread nD τ) (Pipeline.ucRefs τ sig) (V3 m (outs m) c) ∗ Rz c)
  post c := iprop(StableHlo.held (c : Thread nD τ) (Pipeline.ucRefs τ sig) (V4 m (outs m) c) ∗ Rz c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none, V3_eq]
    have hsplit := Pipeline.arrays_of_unscopedBufs (p := 1) (pcfgs (F := F)) adm (pdats m) launch1.win launch1.arr_whole c
      (share1 (T3 m) c) (T3 m c) (A_eq1 (T3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (T3 m) c)
    unfold Pipeline.ΦA
    iintro ⟨Hp, -, Hr⟩
    isplitl [Hr]; · iexact Hr
    iexact Hp
  hout c := by
    rw [Pipeline.ownSems0_none]
    refine (hout1 (T3 m) c).trans ?_
    unfold Pipeline.ΦA
    iintro ⟨Hr, Hp⟩
    isplitl [Hp]; · iexact Hp
    isplitr; · iempintro
    iexact Hr
  hexit c := by
    rw [V4_eq]
    have hjoin := Pipeline.unscopedBufs_of_arrays (p := 1) (pcfgs (F := F)) adm (Ix := Unit) (Name := ℕ) (U := UR sig nD τ) (Lvl := ℕ)
      launch1.win launch1.arr_whole c (pdats m) (share1 (T3 m) c)
      (T3 m c) (fun b : Ref sig .tc => X4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves: an input window's array is as it was entered,
    the output window's array is the fold of its write-backs. -/
theorem hF2 (c : Dev nD) (w : Fin cfg2.W) : (dat2 (T5 m) c).arrAt w cfg2.N = (fun b : Ref sig .tc => X6 m c b) (Pipeline.arrRef spec2 w) := by
  have hcases : w = 4 ∨ ((cfg2.win w).isOut = false ∧ Pipeline.arrRef spec2 w ≠ main_v116) := by
    revert w; exact (by decide +kernel : ∀ w : Fin cfg2.W, w = 4 ∨ ((cfg2.win w).isOut = false ∧ Pipeline.arrRef spec2 w ≠ main_v116))
  rcases hcases with rfl | ⟨hin, hne⟩
  · show _ = X6 m c _
    unfold X6
    exact (Function.update_self (Proc.devRef (τ := τ) .tc main_v116) (o6 m c) (X5 m c)).symm
  · refine ((dat2 (T5 m) c).arrAt_in w hin _).trans ((A_eq2 (T5 m) c w).trans ?_)
    show X5 m c _ = X6 m c _
    unfold X6
    exact (Function.update_of_ne (StableHlo.devRef_ne_of_ne hne) _ _).symm
/-- … and every other buffer what it held at entry. -/
theorem hrest2 (c : Dev nD) : ∀ b : Ref sig .tc, b ∉ Finset.univ.image (Pipeline.arrRef spec2) → (fun b : Ref sig .tc => X6 m c b) b = T5 m c b := by
  intro b hb
  have hne : b ≠ main_v116 := fun e => hb (Finset.mem_image.mpr ⟨4, Finset.mem_univ _, e.symm ▸ rfl⟩)
  show X6 m c _ = X5 m c _
  unfold X6
  exact Function.update_of_ne (StableHlo.devRef_ne_of_ne hne) _ _

set_option backward.isDefEq.respectTransparency.types false in
/-- Region 2 as a segment: entered from every unscoped buffer at the contents before it, left at the contents after it;
    its arrays are split out of the unscoped buffers and put back at the exit contents; the generator register and the
    kernel's scratch enter the region's invariant and come back; nothing is owed; the kernel has no semaphore of its own. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ Lz lvz 2 fun _ _ => rfl
  pre c := iprop(StableHlo.held (c : Thread nD τ) (Pipeline.ucRefs τ sig) (V5 m (outs m) c) ∗ Rz c)
  post c := iprop(StableHlo.held (c : Thread nD τ) (Pipeline.ucRefs τ sig) (V6 m (outs m) c) ∗ Rz c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none, V5_eq]
    have hsplit := Pipeline.arrays_of_unscopedBufs (p := 2) (pcfgs (F := F)) adm (pdats m) launch2.win launch2.arr_whole c
      (share2 (T5 m) c) (T5 m c) (A_eq2 (T5 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (T5 m) c)
    unfold Pipeline.ΦA
    iintro ⟨Hp, -, Hr⟩
    isplitl [Hr]; · iexact Hr
    iexact Hp
  hout c := by
    rw [Pipeline.ownSems0_none]
    refine (hout2 (T5 m) c).trans ?_
    unfold Pipeline.ΦA
    iintro ⟨Hr, Hp⟩
    isplitl [Hp]; · iexact Hp
    isplitr; · iempintro
    iexact Hr
  hexit c := by
    rw [V6_eq]
    have hjoin := Pipeline.unscopedBufs_of_arrays (p := 2) (pcfgs (F := F)) adm (Ix := Unit) (Name := ℕ) (U := UR sig nD τ) (Lvl := ℕ)
      launch2.win launch2.arr_whole c (pdats m) (share2 (T5 m) c)
      (T5 m c) (fun b : Ref sig .tc => X6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 3's exit each of its arrays holds what the pipeline leaves: an input window's array is as it was entered,
    the output window's array is the fold of its write-backs. -/
theorem hF3 (c : Dev nD) (w : Fin cfg3.W) : (dat3 (T7 m) c).arrAt w cfg3.N = (fun b : Ref sig .tc => X8 m c b) (Pipeline.arrRef spec3 w) := by
  have hcases : w = 4 ∨ ((cfg3.win w).isOut = false ∧ Pipeline.arrRef spec3 w ≠ main_v168) := by
    revert w; exact (by decide +kernel : ∀ w : Fin cfg3.W, w = 4 ∨ ((cfg3.win w).isOut = false ∧ Pipeline.arrRef spec3 w ≠ main_v168))
  rcases hcases with rfl | ⟨hin, hne⟩
  · show _ = X8 m c _
    unfold X8
    exact (Function.update_self (Proc.devRef (τ := τ) .tc main_v168) (o8 m c) (X7 m c)).symm
  · refine ((dat3 (T7 m) c).arrAt_in w hin _).trans ((A_eq3 (T7 m) c w).trans ?_)
    show X7 m c _ = X8 m c _
    unfold X8
    exact (Function.update_of_ne (StableHlo.devRef_ne_of_ne hne) _ _).symm
/-- … and every other buffer what it held at entry. -/
theorem hrest3 (c : Dev nD) : ∀ b : Ref sig .tc, b ∉ Finset.univ.image (Pipeline.arrRef spec3) → (fun b : Ref sig .tc => X8 m c b) b = T7 m c b := by
  intro b hb
  have hne : b ≠ main_v168 := fun e => hb (Finset.mem_image.mpr ⟨4, Finset.mem_univ _, e.symm ▸ rfl⟩)
  show X8 m c _ = X7 m c _
  unfold X8
  exact Function.update_of_ne (StableHlo.devRef_ne_of_ne hne) _ _

set_option backward.isDefEq.respectTransparency.types false in
/-- Region 3 as a segment: entered from every unscoped buffer at the contents before it, left at the contents after it;
    its arrays are split out of the unscoped buffers and put back at the exit contents; the generator register and the
    kernel's scratch enter the region's invariant and come back; nothing is owed; the kernel has no semaphore of its own. -/
def reg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (T7 m) c).loose
  hwaits := Pipeline.hwaits_of_owed_zero _ _ _ _ Lz lvz 3 fun _ _ => rfl
  pre c := iprop(StableHlo.held (c : Thread nD τ) (Pipeline.ucRefs τ sig) (V7 m (outs m) c) ∗ Rz c)
  post c := iprop(StableHlo.held (c : Thread nD τ) (Pipeline.ucRefs τ sig) (V8 m (outs m) c) ∗ Rz c)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none, V7_eq]
    have hsplit := Pipeline.arrays_of_unscopedBufs (p := 3) (pcfgs (F := F)) adm (pdats m) launch3.win launch3.arr_whole c
      (share3 (T7 m) c) (T7 m c) (A_eq3 (T7 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (T7 m) c)
    unfold Pipeline.ΦA
    iintro ⟨Hp, -, Hr⟩
    isplitl [Hr]; · iexact Hr
    iexact Hp
  hout c := by
    rw [Pipeline.ownSems0_none]
    refine (hout3 (T7 m) c).trans ?_
    unfold Pipeline.ΦA
    iintro ⟨Hr, Hp⟩
    isplitl [Hp]; · iexact Hp
    isplitr; · iempintro
    iexact Hr
  hexit c := by
    rw [V8_eq]
    have hjoin := Pipeline.unscopedBufs_of_arrays (p := 3) (pcfgs (F := F)) adm (Ix := Unit) (Name := ℕ) (U := UR sig nD τ) (Lvl := ℕ)
      launch3.win launch3.arr_whole c (pdats m) (share3 (T7 m) c)
      (T7 m c) (fun b : Ref sig .tc => X8 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 4's exit each of its arrays holds what the pipeline leaves: an input window's array is as it was entered,
    the output window's array is the fold of its write-backs. -/
theorem hF4 (c : Dev nD) (w : Fin cfg4.W) : (dat4 (T9 m) c).arrAt w cfg4.N = (fun b : Ref sig .tc => X10 m c b) (Pipeline.arrRef spec4 w) := by
  have hcases : w = 4 ∨ ((cfg4.win w).isOut = false ∧ Pipeline.arrRef spec4 w ≠ main_v188) := by
    revert w; exact (by decide +kernel : ∀ w : Fin cfg4.W, w = 4 ∨ ((cfg4.win w).isOut = false ∧ Pipeline.arrRef spec4 w ≠ main_v188))
  rcases hcases with rfl | ⟨hin, hne⟩
  · show _ = X10 m c _
    unfold X10
    exact (Function.update_self (Proc.devRef (τ := τ) .tc main_v188) (o10 m c) (X9 m c)).symm
  · refine ((dat4 (T9 m) c).arrAt_in w hin _).trans ((A_eq4 (T9 m) c w).trans ?_)
    show X9 m c _ = X10 m c _
    unfold X10
    exact (Function.update_of_ne (StableHlo.devRef_ne_of_ne hne) _ _).symm
/-- … and every other buffer what it held at entry. -/
theorem hrest4 (c : Dev nD) : ∀ b : Ref sig .tc, b ∉ Finset.univ.image (Pipeline.arrRef spec4) → (fun b : Ref sig .tc => X10 m c b) b = T9 m c b := by
  intro b hb
  have hne : b ≠ main_v188 := fun e => hb (Finset.mem_image.mpr ⟨4, Finset.mem_univ _, e.symm ▸ rfl⟩)
  show X10 m c _ = X9 m c _
  unfold X10
  exact Function.update_of_ne (StableHlo.devRef_ne_of_ne hne) _ _

set_option backward.isDefEq.respectTransparency.types false in
/-- Region 4 as a segment: entered from every unscoped buffer at the contents before it, left at the contents after it;
    its arrays are split out of the unscoped buffers and put back at the exit contents; the generator register and the
    kernel's scratch enter the region's invariant and come back; nothing is owed; the kernel has no semaphore of its own. -/
def reg4 : Pipeline.RegionSeg (pcfgs (F := F)) adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (T9 m) c).loose
  hwaits := Pipeline.hwaits_of_owed_zero _ _ _ _ Lz lvz 4 fun _ _ => rfl
  pre c := iprop(StableHlo.held (c : Thread nD τ) (Pipeline.ucRefs τ sig) (V9 m (outs m) c) ∗ Rz c)
  post c := iprop(StableHlo.held (c : Thread nD τ) (Pipeline.ucRefs τ sig) (V10 m (outs m) c) ∗ Rz c)
  X c := iprop(∃ r, prngReg c r)
  Y c := iprop(∃ r, prngReg c r)
  Z c := Pipeline.unscopedRest (Ix := Unit) (Name := ℕ) (U := UR sig nD τ) (Lvl := ℕ) spec4 c (T9 m c)
  hentry c := by
    rw [Pipeline.ownSems0_none, V9_eq]
    have hsplit := Pipeline.arrays_of_unscopedBufs (p := 4) (pcfgs (F := F)) adm (pdats m) launch4.win launch4.arr_whole c
      (share4 (T9 m) c) (T9 m c) (A_eq4 (T9 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (T9 m) c)
    unfold Pipeline.ΦA
    iintro ⟨Hp, -, Hr⟩
    isplitl [Hr]; · iexact Hr
    iexact Hp
  hout c := by
    rw [Pipeline.ownSems0_none]
    refine (hout4 (T9 m) c).trans ?_
    unfold Pipeline.ΦA
    iintro ⟨Hr, Hp⟩
    isplitl [Hp]; · iexact Hp
    isplitr; · iempintro
    iexact Hr
  hexit c := by
    rw [V10_eq]
    have hjoin := Pipeline.unscopedBufs_of_arrays (p := 4) (pcfgs (F := F)) adm (Ix := Unit) (Name := ℕ) (U := UR sig nD τ) (Lvl := ℕ)
      launch4.win launch4.arr_whole c (pdats m) (share4 (T9 m) c)
      (T9 m c) (fun b : Ref sig .tc => X10 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 5's exit each of its arrays holds what the pipeline leaves: an input window's array is as it was entered,
    the output window's array is the fold of its write-backs. -/
theorem hF5 (c : Dev nD) (w : Fin cfg5.W) : (dat5 (T11 m) c).arrAt w cfg5.N = (fun b : Ref sig .tc => X12 m c b) (Pipeline.arrRef spec5 w) := by
  have hcases : w = 4 ∨ ((cfg5.win w).isOut = false ∧ Pipeline.arrRef spec5 w ≠ main_v240) := by
    revert w; exact (by decide +kernel : ∀ w : Fin cfg5.W, w = 4 ∨ ((cfg5.win w).isOut = false ∧ Pipeline.arrRef spec5 w ≠ main_v240))
  rcases hcases with rfl | ⟨hin, hne⟩
  · show _ = X12 m c _
    unfold X12
    exact (Function.update_self (Proc.devRef (τ := τ) .tc main_v240) (o12 m c) (X11 m c)).symm
  · refine ((dat5 (T11 m) c).arrAt_in w hin _).trans ((A_eq5 (T11 m) c w).trans ?_)
    show X11 m c _ = X12 m c _
    unfold X12
    exact (Function.update_of_ne (StableHlo.devRef_ne_of_ne hne) _ _).symm
/-- … and every other buffer what it held at entry. -/
theorem hrest5 (c : Dev nD) : ∀ b : Ref sig .tc, b ∉ Finset.univ.image (Pipeline.arrRef spec5) → (fun b : Ref sig .tc => X12 m c b) b = T11 m c b := by
  intro b hb
  have hne : b ≠ main_v240 := fun e => hb (Finset.mem_image.mpr ⟨4, Finset.mem_univ _, e.symm ▸ rfl⟩)
  show X12 m c _ = X11 m c _
  unfold X12
  exact Function.update_of_ne (StableHlo.devRef_ne_of_ne hne) _ _

set_option backward.isDefEq.respectTransparency.types false in
/-- Region 5 as a segment: entered from every unscoped buffer at the contents before it, left at the contents after it;
    its arrays are split out of the unscoped buffers and put back at the exit contents; the generator register and the
    kernel's scratch enter the region's invariant and come back; nothing is owed; the kernel has no semaphore of its own. -/
def reg5 : Pipeline.RegionSeg (pcfgs (F := F)) adm (pdats m) () defs₀ Variants.none Lz lvz 5 where
  win := launch5.win.to₀
  block_pos := launch5.block_pos
  stage_whole := launch5.stage_whole
  K := PEmpty
  osem k := k.elim
  ho := Pipeline.OwnSemFacts.none _
  hbody c := (body_obligation5 (T11 m) c).loose
  hwaits := Pipeline.hwaits_of_owed_zero _ _ _ _ Lz lvz 5 fun _ _ => rfl
  pre c := iprop(StableHlo.held (c : Thread nD τ) (Pipeline.ucRefs τ sig) (V11 m (outs m) c) ∗ Rz c)
  post c := iprop(StableHlo.held (c : Thread nD τ) (Pipeline.ucRefs τ sig) (V12 m (outs m) c) ∗ Rz c)
  X c := iprop(∃ r, prngReg c r)
  Y c := iprop(∃ r, prngReg c r)
  Z c := Pipeline.unscopedRest (Ix := Unit) (Name := ℕ) (U := UR sig nD τ) (Lvl := ℕ) spec5 c (T11 m c)
  hentry c := by
    rw [Pipeline.ownSems0_none, V11_eq]
    have hsplit := Pipeline.arrays_of_unscopedBufs (p := 5) (pcfgs (F := F)) adm (pdats m) launch5.win launch5.arr_whole c
      (share5 (T11 m) c) (T11 m c) (A_eq5 (T11 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin5 (T11 m) c)
    unfold Pipeline.ΦA
    iintro ⟨Hp, -, Hr⟩
    isplitl [Hr]; · iexact Hr
    iexact Hp
  hout c := by
    rw [Pipeline.ownSems0_none]
    refine (hout5 (T11 m) c).trans ?_
    unfold Pipeline.ΦA
    iintro ⟨Hr, Hp⟩
    isplitl [Hp]; · iexact Hp
    isplitr; · iempintro
    iexact Hr
  hexit c := by
    rw [V12_eq]
    have hjoin := Pipeline.unscopedBufs_of_arrays (p := 5) (pcfgs (F := F)) adm (Ix := Unit) (Name := ℕ) (U := UR sig nD τ) (Lvl := ℕ)
      launch5.win launch5.arr_whole c (pdats m) (share5 (T11 m) c)
      (T11 m c) (fun b : Ref sig .tc => X12 m c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch leaves beside the buffers on a core is the rest every segment carries: the generator register at its
    launch state and the core owing nothing. -/
theorem launchRest (ρ : Dev nD → PrngReg) (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ emp) : sProp 𝕄)
      ⊢ Rz (F := F) c := by
  iintro ⟨-, HO, -, Hp, -⟩
  isplitl [Hp]; · iexists _; iexact Hp
  iexists ∅; iexact HO

set_option backward.isDefEq.respectTransparency.types false in
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m emb₁ () Variants.none Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rz c)
    (by
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ emp))
          ⊢ (bigSep Finset.univ (fun c : Dev nD => Rz (F := F) c) : sProp 𝕄) :=
        bigSep_mono fun c _ => launchRest (F := F) ρ c
      iintro ⟨H, -⟩
      ihave H' := hmono $$ H
      imodintro
      iexact H')
    (fun c => by iintro ⟨-, HO⟩; iexact HO)
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)

end Cert.Kernel.Hand

end
-- ==== Proof.KI.Reg0Run.lean ====
import proofs.«166004_j3839700763193_1_alg».proof.Proof.Gen.KernelIdeal.Launch
import proofs.«166004_j3839700763193_1_alg».proof.Proof.Gen.KernelIdeal.Skeleton
import proofs.«166004_j3839700763193_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the body's conditions and its run at the region's single point -/

/-- The condition of the body's first conditional (the reduction coordinate is 0), from the grid coordinates. -/
abbrev cond0_0 (i : grid0.Coords) : Prop := (Scalar.cmpi .ne (Scalar.extui (Scalar.cmpi .eq (BitVec.ofNat 32 (i 1).val) 0#32)) 0#32) = 1#1
/-- It holds at every point of the grid (the reduction axis has extent 1). -/
theorem hcond0_0 : ∀ t : Fin cfg0.N, cond0_0 (grid0.coords t) :=
  (by decide +kernel : ∀ t : Fin grid0.N, cond0_0 (grid0.coords t))

/-- The condition of the body's second conditional (the reduction coordinate is the last one). -/
abbrev cond0_1 (i : grid0.Coords) : Prop := k0_cond2 i = 1#1
/-- It holds at every point of the grid. -/
theorem hcond0_1 : ∀ t : Fin cfg0.N, cond0_1 (grid0.coords t) :=
  (by decide +kernel : ∀ t : Fin grid0.N, cond0_1 (grid0.coords t))

/-- No window is idle at any point: the inputs never are, and the output is stored at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-- The scratch accumulator, a whole scoped buffer of the kernel's own, and its view. -/
abbrev scM0 : Memref sig .tc .vmem S5000x128 .f32 := Memref.whole cc0_scratch0
abbrev VS0 : View sig .tc .vmem S5000x128 .f32 := scM0.view
/-- One staging buffer of the output window, through which its contents are stated. -/
abbrev VO0 : View sig .tc .vmem S5000x128 .f32 := (Memref.whole cc0_stg4_0 : Memref sig .tc .vmem S5000x128 .f32).view

set_option maxHeartbeats 1000000 in
/-- The body on whole memrefs, both conditionals taken: from the four input blocks at `x0 … x3`, the output buffer and
    the accumulator at anything, it runs to the continuation holding the inputs as they were, and the output buffer
    and the accumulator with the listed pieces written (last store first). -/
noncomputable def kernelRun0 (c : Dev nD) (i : grid0.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond0_0 i) (hc1 : cond0_1 i)
    (x0 : Vec F S1x5000x128 .f32) (x1 : Vec F S1x5000x1 .f32) (x2 : Vec F S1x128x128 .f32) (x3 : Vec F S1x1x128 .f32) :
    Σ' (L4 : List (View.Piece (Elt F) S5000x128 .f32)), { LS0 : List (View.Piece (Elt F) S5000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Reg0.lean ====
import proofs.«166004_j3839700763193_1_alg».proof.Proof.KI.Reg0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's data is stated at
variable (V : (c : Dev nD) → (b : Ref sig .tc) → Buf (Elt F) ((c : Thread nD τ).loc b))

/-! # Region 0: the proof data of the pipeline and its body obligation, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, for any proof data whose array is
    `V`'s (`hA`) and whose body leaves the block in place (`hafter`): the windows are uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, spelled as the pipeline passes it, and its wholeness. -/
abbrev ms0_0 (t : Fin cfg0.N) : Memref sig .tc .vmem S1x5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5000x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5000x128 .f32 := win0_4.stage (cfg0.slots t 4)
abbrev hs0_4 (t : Fin cfg0.N) : (ms0_4 t).IsWhole := hstage0_4 ((cfg0.slots t 4).cast nbuf0_4)

/-- The region invariant the launch hands the body, with the accumulator split off the kernel's other scoped
    buffers: the accumulator whole at some contents, the remaining scoped buffers unopened, the generator register
    at some state. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-! ## What the body leaves in the output block and in the accumulator -/

/-- The pieces the run stores into the output block cover it (one whole-block store). -/
theorem cover0_4 (c : Dev nD) (i : grid0.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond0_0 i) (hc1 : cond0_1 i)
    (x0 : Vec F S1x5000x128 .f32) (x1 : Vec F S1x5000x1 .f32) (x2 : Vec F S1x128x128 .f32) (x3 : Vec F S1x1x128 .f32) (y : S5000x128.Idx) :
    ∃ pc ∈ (kernelRun0 c i arg2 harg2 arg3 harg3 arg4 harg4 arg5 harg5 arg6 harg6 arg7 harg7 hc0 hc1 x0 x1 x2 x3).1, y ∈ pc.1.set :=
  View.cover_of_tiledL (kernelRun0 c i arg2 harg2 arg3 harg3 arg4 harg4 arg5 harg5 arg6 harg6 arg7 harg7 hc0 hc1 x0 x1 x2 x3).1 S5000x128.size (by sl_kernel_rfl) y

/-- What the body leaves in the output window's staging buffer: its pieces read back. -/
def out0_4 (c : Dev nD) (i : grid0.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond0_0 i) (hc1 : cond0_1 i)
    (x0 : Vec F S1x5000x128 .f32) (x1 : Vec F S1x5000x1 .f32) (x2 : Vec F S1x128x128 .f32) (x3 : Vec F S1x1x128 .f32) : Vec F S5000x128 .f32 :=
  VO0.read (Elt F) (VO0.writes (Elt F) VO0.junk (kernelRun0 c i arg2 harg2 arg3 harg3 arg4 harg4 arg5 harg5 arg6 harg6 arg7 harg7 hc0 hc1 x0 x1 x2 x3).1)

/-- The pieces the run stores into the accumulator cover it (whole-block stores). -/
theorem scover0_0 (c : Dev nD) (i : grid0.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond0_0 i) (hc1 : cond0_1 i)
    (x0 : Vec F S1x5000x128 .f32) (x1 : Vec F S1x5000x1 .f32) (x2 : Vec F S1x128x128 .f32) (x3 : Vec F S1x1x128 .f32) (y : S5000x128.Idx) :
    ∃ pc ∈ (kernelRun0 c i arg2 harg2 arg3 harg3 arg4 harg4 arg5 harg5 arg6 harg6 arg7 harg7 hc0 hc1 x0 x1 x2 x3).2.1, y ∈ pc.1.set :=
  View.cover_of_tiledL (kernelRun0 c i arg2 harg2 arg3 harg3 arg4 harg4 arg5 harg5 arg6 harg6 arg7 harg7 hc0 hc1 x0 x1 x2 x3).2.1 S5000x128.size (by sl_kernel_rfl) y

/-- What the body leaves in the accumulator: its pieces read back. -/
def sout0_0 (c : Dev nD) (i : grid0.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond0_0 i) (hc1 : cond0_1 i)
    (x0 : Vec F S1x5000x128 .f32) (x1 : Vec F S1x5000x1 .f32) (x2 : Vec F S1x128x128 .f32) (x3 : Vec F S1x1x128 .f32) : Vec F S5000x128 .f32 :=
  VS0.read (Elt F) (VS0.writes (Elt F) VS0.junk (kernelRun0 c i arg2 harg2 arg3 harg3 arg4 harg4 arg5 harg5 arg6 harg6 arg7 harg7 hc0 hc1 x0 x1 x2 x3).2.1)

/-- The output block after the body at point `t`, from the point's input blocks. -/
def outAt0 (c : Dev nD) (t : Fin cfg0.N) : Vec F S5000x128 .f32 :=
  out0_4 c (grid0.coords t) (ms0_0 t) (hs0_0 t) (ms0_1 t) (hs0_1 t) (ms0_2 t) (hs0_2 t) (ms0_3 t) (hs0_3 t) (ms0_4 t) (hs0_4 t) scM0 (Memref.isWhole_whole _) (hcond0_0 t) (hcond0_1 t) (iblk0 V c 0 t) (iblk0 V c 1 t) (iblk0 V c 2 t) (iblk0 V c 3 t)

/-- The accumulator after the body at point `t`, from the point's input blocks. -/
def accAt0 (c : Dev nD) (t : Fin cfg0.N) : Vec F S5000x128 .f32 :=
  sout0_0 c (grid0.coords t) (ms0_0 t) (hs0_0 t) (ms0_1 t) (hs0_1 t) (ms0_2 t) (hs0_2 t) (ms0_3 t) (hs0_3 t) (ms0_4 t) (hs0_4 t) scM0 (Memref.isWhole_whole _) (hcond0_0 t) (hcond0_1 t) (iblk0 V c 0 t) (iblk0 V c 1 t) (iblk0 V c 2 t) (iblk0 V c 3 t)

/-! ## The invariant -/

/-- The region invariant before position `n`: before the first point what the launch hands over (`ΦA`); after point
    `n` the accumulator at what that point left in it, the kernel's other scoped buffers unopened and the generator
    register at some state. -/
def PhiS0 (c : Dev nD) : (n : ℕ) → n ≤ cfg0.N → sProp 𝕄
  | 0, _ => Pipeline.ΦA spec0 c
  | n + 1, hn => iprop(iprop(owns (c : Thread nD τ) scM0 fullShare (accAt0 V c ⟨n, hn⟩)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c ⟨n, hn⟩)
      ∗ Pipeline.scopedRestBut (Ix := Unit) (Name := ℕ) (U := UR sig nD τ) (Lvl := ℕ) (Val := Elt F) spec0 c [cc0_scratch0]) ∗ (∃ r, prngReg c r)) := rfl

/-! ## The pipeline's proof data -/

/-- The proof data of pipeline 0 on core `c`: the arrays as the region finds them (`V`); after the body at point
    `t` each input's buffer at its block and the output's at `outAt0`; the invariant `PhiS0`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]

/-- Every array is held at the full share. -/
theorem share0 (c : Dev nD) : ∀ w, (dat0 V c).share w = fullShare := (dat0 V c).share_full fun _ => rfl

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at the region's point: the inputs' memrefs hold their blocks; the invariant hands the body the
    accumulator at some contents (the point is the first) and takes it back at this point's contents; the output
    buffer comes back at its pieces read back; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hz : t.val = 0 := by have hN : t.val < 1 := lt_of_lt_of_eq t.isLt (show cfg0.N = 1 from N_0); omega
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  unfold outAt0 accAt0 out0_4 sout0_0; (try dsimp only)
  rw [PhiS0_castSucc V c t, PhiS0_zero V c _ _ hz, PhiA0_eq]
  iintro ⟨⟨⟨HS0, Hrest⟩, Hg⟩, Ho, ⟨%d0, H0⟩, ⟨%d1, H1⟩, ⟨%d2, H2⟩, ⟨%d3, H3⟩, ⟨%d4, H4⟩⟩
  iapply ((kernelRun0 c (grid0.coords t) _ _ _ _ _ _ _ _ _ _ _ _ (hcond0_0 t) (hcond0_1 t) (iblk0 V c 0 t) (iblk0 V c 1 t) (iblk0 V c 2 t) (iblk0 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hrest Hg]
  · isplitl [HS0 Hrest]
    · isplitl [HS0]
      · unfold owns; iexists _; isplitr
        swap; · iexact HS0
        ipureintro; exact View.read_writes_of_cover _ _ _ _ _ (scover0_0 c _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_4 c _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (`ΦA`) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- Before a position that is not the first: the accumulator at what the point before left. -/
theorem PhiS0_pos (c : Dev nD) (n : ℕ) (h : n ≤ cfg0.N) (hz : n ≠ 0) :
    PhiS0 V c n h = iprop(iprop(owns (c : Thread nD τ) scM0 fullShare (accAt0 V c ⟨n - 1, by omega⟩)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- After any point the invariant gives `ΦA` back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 1 := N_0; omega)

end Cert.KernelIdeal.Hand

end
-- ==== Proof.KI.Reg1Runs.lean ====
import proofs.«166004_j3839700763193_1_alg».proof.Proof.Gen.KernelIdeal.Launch
import proofs.«166004_j3839700763193_1_alg».proof.Proof.Gen.KernelIdeal.Skeleton
import proofs.«166004_j3839700763193_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what the three control cases share

The grid is 20 × 3: point `t = 3·n + r` is reduction step `r` of row block `n`. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, for any proof data whose array is the
    entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, for any proof data whose array is the
    entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, for any proof data whose array is the
    entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditionals, in closed form over the grid -/

/-- The first conditional (reduction step 0: the accumulator is zeroed). -/
abbrev cond1_0 (i : grid1.Coords) : Prop := (Scalar.cmpi .ne (Scalar.extui (Scalar.cmpi .eq (BitVec.ofNat 32 (i 1).val) 0#32)) 0#32) = 1#1
/-- It holds exactly at the points `t ≡ 0 (mod 3)`. -/
theorem hcond1_0 : ∀ t : Fin cfg1.N, cond1_0 (grid1.coords t) ↔ t.val % 3 = 0 :=
  (by decide +kernel : ∀ t : Fin grid1.N, cond1_0 (grid1.coords t) ↔ t.val % 3 = 0)

/-- The second conditional (last reduction step: the output block is stored from the accumulator). -/
abbrev cond1_1 (i : grid1.Coords) : Prop := k1_cond2 i = 1#1
/-- It holds exactly at the points `t ≡ 2 (mod 3)`. -/
theorem hcond1_1 : ∀ t : Fin cfg1.N, cond1_1 (grid1.coords t) ↔ t.val % 3 = 2 :=
  (by decide +kernel : ∀ t : Fin grid1.N, cond1_1 (grid1.coords t) ↔ t.val % 3 = 2)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from the last reduction step the output window is idle: nothing is stored into it, -/
theorem idleAt1_4 : ∀ t : Fin cfg1.N, ¬ t.val % 3 = 2 → cfg1.idle 4 (grid1.coords t) = true :=
  (by decide +kernel : ∀ t : Fin grid1.N, ¬ t.val % 3 = 2 → cfg1.idle 4 (grid1.coords t) = true)
/-- and its block is not written back. -/
theorem noFlush1_4 : ∀ t : Fin cfg1.N, ¬ t.val % 3 = 2 → (cfg1.win 4).flush t = false :=
  (by decide +kernel : ∀ t : Fin grid1.N, ¬ t.val % 3 = 2 → (cfg1.win 4).flush t = false)
/-- At the last reduction step it is live. -/
theorem liveAt1_4 : ∀ t : Fin cfg1.N, t.val % 3 = 2 → cfg1.idle 4 (grid1.coords t) = false :=
  (by decide +kernel : ∀ t : Fin grid1.N, t.val % 3 = 2 → cfg1.idle 4 (grid1.coords t) = false)

/-! ## The staging memrefs and the scratch -/

/-- One staging buffer of the output window, through which its contents are stated. -/
abbrev VO1_4 : View sig .tc .vmem S5000x128 .f32 := (Memref.whole cc1_stg4_0 : Memref sig .tc .vmem S5000x128 .f32).view
/-- Each window's current staging memref at point `t`, spelled as the pipeline passes it, and its wholeness. -/
abbrev ms1_0 (t : Fin cfg1.N) : Memref sig .tc .vmem S1x5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S5000x128 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows. -/
abbrev scM1_0 : Memref sig .tc .vmem S5000x128 .f32 := Memref.whole cc1_scratch0
/-- The accumulator as a view: what it holds is stated through it. -/
abbrev VS1_0 : View sig .tc .vmem S5000x128 .f32 := scM1_0.view

/-- The other scoped buffers of the core (neither this call's staging buffers nor its accumulator), unopened. -/
abbrev restBut1 (c : Dev nD) : sProp 𝕄 :=
  Pipeline.scopedRestBut (Ix := Unit) (Name := ℕ) (U := UR sig nD τ) (Lvl := ℕ) (Val := Elt F) spec1 c [cc1_scratch0]

/-- The region invariant with the accumulator as a memref owned at some contents. -/
theorem PhiA1_eq (c : Dev nD) :
    (Pipeline.ΦA spec1 c : sProp 𝕄)
      = iprop(iprop(iprop((∃ d, owns (c : Thread nD τ) scM1_0 fullShare d)) ∗ restBut1 (F := F) c) ∗ (∃ r, prngReg c r)) := by
  unfold Pipeline.ΦA; rw [scopedRest1_split]; simp only [scM1_0, owns_whole]; try rfl

end Cert.KernelIdeal.Hand

end
-- ==== Proof.KI.Reg1RunA.lean ====
import proofs.«166004_j3839700763193_1_alg».proof.Proof.KI.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in case A (first reduction step: the accumulator is zeroed, then one contribution is added; the output window is left untouched): on whole staging memrefs — the inputs' at their contents `x·`, the accumulator at anything, the output's at contents `xi4` handed back untouched — the body
    runs to the continuation holding the inputs' as they were and each buffer it stored into with its pieces written
    (`L4` the output's, `LS0` the accumulator's; last store first). The pieces are the witness the run finds. -/
noncomputable def kernelRun1_A (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond1_0 i) (hc1 : ¬cond1_1 i)
    (x0 : Vec F S1x5000x128 .f32) (x1 : Vec F S1x5000x1 .f32) (x2 : Vec F S1x128x128 .f32) (x3 : Vec F S1x1x128 .f32) :
    Σ' (L4 : List (View.Piece (Elt F) S5000x128 .f32)), { LS0 : List (View.Piece (Elt F) S5000x128 .f32) //
      ∀ (xi4 : Vec F S5000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, fun xi4 E K => ?run⟩
  case run =>
    rw [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.Reg1RunB.lean ====
import proofs.«166004_j3839700763193_1_alg».proof.Proof.KI.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in case B (middle reduction step: one contribution is added to the accumulator; the output window is left untouched): on whole staging memrefs — the inputs' at their contents `x·`, the accumulator at what the step before left (`xs0`), the output's at contents `xi4` handed back untouched — the body
    runs to the continuation holding the inputs' as they were and each buffer it stored into with its pieces written
    (`L4` the output's, `LS0` the accumulator's; last store first). The pieces are the witness the run finds. -/
noncomputable def kernelRun1_B (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : ¬cond1_1 i)
    (x0 : Vec F S1x5000x128 .f32) (x1 : Vec F S1x5000x1 .f32) (x2 : Vec F S1x128x128 .f32) (x3 : Vec F S1x1x128 .f32) (xs0 : Vec F S5000x128 .f32) :
    Σ' (L4 : List (View.Piece (Elt F) S5000x128 .f32)), { LS0 : List (View.Piece (Elt F) S5000x128 .f32) //
      ∀ (xi4 : Vec F S5000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg2 harg2 arg3 harg3 arg4 harg4 arg5 harg5 arg6 harg6 arg7 harg7) K } := by
  refine ⟨[], ?_, fun xi4 E K => ?run⟩
  case run =>
    rw [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.Reg1RunC.lean ====
import proofs.«166004_j3839700763193_1_alg».proof.Proof.KI.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in case C (last reduction step: one contribution is added to the accumulator, then the output block is stored from it): on whole staging memrefs — the inputs' at their contents `x·`, the accumulator at what the step before left (`xs0`), the output's at anything — the body
    runs to the continuation holding the inputs' as they were and each buffer it stored into with its pieces written
    (`L4` the output's, `LS0` the accumulator's; last store first). The pieces are the witness the run finds. -/
noncomputable def kernelRun1_C (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : cond1_1 i)
    (x0 : Vec F S1x5000x128 .f32) (x1 : Vec F S1x5000x1 .f32) (x2 : Vec F S1x128x128 .f32) (x3 : Vec F S1x1x128 .f32) (xs0 : Vec F S5000x128 .f32) :
    Σ' (L4 : List (View.Piece (Elt F) S5000x128 .f32)), { LS0 : List (View.Piece (Elt F) S5000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg2 harg2 arg3 harg3 arg4 harg4 arg5 harg5 arg6 harg6 arg7 harg7) K } := by
  refine ⟨?_, ?_, fun E K => ?run⟩
  case run =>
    rw [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Reg1Val.lean ====
import proofs.«166004_j3839700763193_1_alg».proof.Proof.KI.Reg1RunA
import proofs.«166004_j3839700763193_1_alg».proof.Proof.KI.Reg1RunB
import proofs.«166004_j3839700763193_1_alg».proof.Proof.KI.Reg1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what each control case leaves in the accumulator and in the output block

Every store of the body is of a whole buffer, through the rectangle at zero offsets of the buffer's own sizes; a
load through it reads the contents, and the last store through it leaves its payload. -/

private theorem zero2 : (![0, 0] : Fin 2 → ℕ) = fun _ => 0 := by funext a; fin_cases a <;> rfl
private theorem zero3 : (![0, 0, 0] : Fin 3 → ℕ) = fun _ => 0 := by funext a; fin_cases a <;> rfl

/-- Case A: the accumulator's last store is of the whole buffer, so its pieces cover it. -/
theorem scover1_A (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond1_0 i) (hc1 : ¬cond1_1 i)
    (x0 : Vec F S1x5000x128 .f32) (x1 : Vec F S1x5000x1 .f32) (x2 : Vec F S1x128x128 .f32) (x3 : Vec F S1x1x128 .f32) (y : S5000x128.Idx) :
    ∃ pc ∈ (kernelRun1_A c i arg2 harg2 arg3 harg3 arg4 harg4 arg5 harg5 arg6 harg6 arg7 harg7 hc0 hc1 x0 x1 x2 x3).2.1, y ∈ pc.1.set := by
  unfold kernelRun1_A; dsimp only
  sl_unfold_run_names
  exact ⟨_, List.mem_cons_self, View.mem_set_unit_zero (S := S5000x128) zero2 inb_S5000x128_S5000x128_0_0 y⟩

/-- Case A: what the accumulator's pieces amount to — one contribution added to zeros. -/
theorem cval1_A (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond1_0 i) (hc1 : ¬cond1_1 i)
    (x0 : Vec F S1x5000x128 .f32) (x1 : Vec F S1x5000x1 .f32) (x2 : Vec F S1x128x128 .f32) (x3 : Vec F S1x1x128 .f32) :
    View.canon (kernelRun1_A c i arg2 harg2 arg3 harg3 arg4 harg4 arg5 harg5 arg6 harg6 arg7 harg7 hc0 hc1 x0 x1 x2 x3).2.1 = k1_pay2 x0 x1 x2 k1_pay1 x3 := by
  unfold kernelRun1_A; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x128) zero3,
    View.ld_unit_zero (S := S1x1x128) zero3, View.ld_unit_zero (S := S5000x128) zero2]

/-- Case A: the accumulator read back through any view, over any prior contents. -/
theorem sval1_A (v : View sig .tc .vmem S5000x128 .f32) (f : v.ty.Contents (Elt F)) (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond1_0 i) (hc1 : ¬cond1_1 i)
    (x0 : Vec F S1x5000x128 .f32) (x1 : Vec F S1x5000x1 .f32) (x2 : Vec F S1x128x128 .f32) (x3 : Vec F S1x1x128 .f32) :
    v.read (Elt F) (v.writes (Elt F) f (kernelRun1_A c i arg2 harg2 arg3 harg3 arg4 harg4 arg5 harg5 arg6 harg6 arg7 harg7 hc0 hc1 x0 x1 x2 x3).2.1) = k1_pay2 x0 x1 x2 k1_pay1 x3 :=
  (View.read_writes_eq_canon v f _ (scover1_A c i arg2 harg2 arg3 harg3 arg4 harg4 arg5 harg5 arg6 harg6 arg7 harg7 hc0 hc1 x0 x1 x2 x3)).trans (cval1_A c i arg2 harg2 arg3 harg3 arg4 harg4 arg5 harg5 arg6 harg6 arg7 harg7 hc0 hc1 x0 x1 x2 x3)

/-- Case B: the accumulator's last store is of the whole buffer, so its pieces cover it. -/
theorem scover1_B (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : ¬cond1_1 i)
    (x0 : Vec F S1x5000x128 .f32) (x1 : Vec F S1x5000x1 .f32) (x2 : Vec F S1x128x128 .f32) (x3 : Vec F S1x1x128 .f32) (xs0 : Vec F S5000x128 .f32) (y : S5000x128.Idx) :
    ∃ pc ∈ (kernelRun1_B c i arg2 harg2 arg3 harg3 arg4 harg4 arg5 harg5 arg6 harg6 arg7 harg7 hc0 hc1 x0 x1 x2 x3 xs0).2.1, y ∈ pc.1.set := by
  unfold kernelRun1_B; dsimp only
  sl_unfold_run_names
  exact ⟨_, List.mem_cons_self, View.mem_set_unit_zero (S := S5000x128) zero2 inb_S5000x128_S5000x128_0_0 y⟩

/-- Case B: what the accumulator's pieces amount to — one contribution added to what the step before left. -/
theorem cval1_B (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : ¬cond1_1 i)
    (x0 : Vec F S1x5000x128 .f32) (x1 : Vec F S1x5000x1 .f32) (x2 : Vec F S1x128x128 .f32) (x3 : Vec F S1x1x128 .f32) (xs0 : Vec F S5000x128 .f32) :
    View.canon (kernelRun1_B c i arg2 harg2 arg3 harg3 arg4 harg4 arg5 harg5 arg6 harg6 arg7 harg7 hc0 hc1 x0 x1 x2 x3 xs0).2.1 = k1_pay2 x0 x1 x2 xs0 x3 := by
  unfold kernelRun1_B; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x128) zero3,
    View.ld_unit_zero (S := S1x1x128) zero3, View.ld_unit_zero (S := S5000x128) zero2]

/-- Case B: the accumulator read back through any view, over any prior contents. -/
theorem sval1_B (v : View sig .tc .vmem S5000x128 .f32) (f : v.ty.Contents (Elt F)) (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : ¬cond1_1 i)
    (x0 : Vec F S1x5000x128 .f32) (x1 : Vec F S1x5000x1 .f32) (x2 : Vec F S1x128x128 .f32) (x3 : Vec F S1x1x128 .f32) (xs0 : Vec F S5000x128 .f32) :
    v.read (Elt F) (v.writes (Elt F) f (kernelRun1_B c i arg2 harg2 arg3 harg3 arg4 harg4 arg5 harg5 arg6 harg6 arg7 harg7 hc0 hc1 x0 x1 x2 x3 xs0).2.1) = k1_pay2 x0 x1 x2 xs0 x3 :=
  (View.read_writes_eq_canon v f _ (scover1_B c i arg2 harg2 arg3 harg3 arg4 harg4 arg5 harg5 arg6 harg6 arg7 harg7 hc0 hc1 x0 x1 x2 x3 xs0)).trans (cval1_B c i arg2 harg2 arg3 harg3 arg4 harg4 arg5 harg5 arg6 harg6 arg7 harg7 hc0 hc1 x0 x1 x2 x3 xs0)

/-- Case C: the accumulator's last store is of the whole buffer, so its pieces cover it. -/
theorem scover1_C (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : cond1_1 i)
    (x0 : Vec F S1x5000x128 .f32) (x1 : Vec F S1x5000x1 .f32) (x2 : Vec F S1x128x128 .f32) (x3 : Vec F S1x1x128 .f32) (xs0 : Vec F S5000x128 .f32) (y : S5000x128.Idx) :
    ∃ pc ∈ (kernelRun1_C c i arg2 harg2 arg3 harg3 arg4 harg4 arg5 harg5 arg6 harg6 arg7 harg7 hc0 hc1 x0 x1 x2 x3 xs0).2.1, y ∈ pc.1.set := by
  unfold kernelRun1_C; dsimp only
  sl_unfold_run_names
  exact ⟨_, List.mem_cons_self, View.mem_set_unit_zero (S := S5000x128) zero2 inb_S5000x128_S5000x128_0_0 y⟩

/-- Case C: what the accumulator's pieces amount to — one contribution added to what the step before left. -/
theorem cval1_C (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : cond1_1 i)
    (x0 : Vec F S1x5000x128 .f32) (x1 : Vec F S1x5000x1 .f32) (x2 : Vec F S1x128x128 .f32) (x3 : Vec F S1x1x128 .f32) (xs0 : Vec F S5000x128 .f32) :
    View.canon (kernelRun1_C c i arg2 harg2 arg3 harg3 arg4 harg4 arg5 harg5 arg6 harg6 arg7 harg7 hc0 hc1 x0 x1 x2 x3 xs0).2.1 = k1_pay2 x0 x1 x2 xs0 x3 := by
  unfold kernelRun1_C; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x128) zero3,
    View.ld_unit_zero (S := S1x1x128) zero3, View.ld_unit_zero (S := S5000x128) zero2]

/-- Case C: the accumulator read back through any view, over any prior contents. -/
theorem sval1_C (v : View sig .tc .vmem S5000x128 .f32) (f : v.ty.Contents (Elt F)) (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : cond1_1 i)
    (x0 : Vec F S1x5000x128 .f32) (x1 : Vec F S1x5000x1 .f32) (x2 : Vec F S1x128x128 .f32) (x3 : Vec F S1x1x128 .f32) (xs0 : Vec F S5000x128 .f32) :
    v.read (Elt F) (v.writes (Elt F) f (kernelRun1_C c i arg2 harg2 arg3 harg3 arg4 harg4 arg5 harg5 arg6 harg6 arg7 harg7 hc0 hc1 x0 x1 x2 x3 xs0).2.1) = k1_pay2 x0 x1 x2 xs0 x3 :=
  (View.read_writes_eq_canon v f _ (scover1_C c i arg2 harg2 arg3 harg3 arg4 harg4 arg5 harg5 arg6 harg6 arg7 harg7 hc0 hc1 x0 x1 x2 x3 xs0)).trans (cval1_C c i arg2 harg2 arg3 harg3 arg4 harg4 arg5 harg5 arg6 harg6 arg7 harg7 hc0 hc1 x0 x1 x2 x3 xs0)

/-- Case C: the output block's one store is of the whole buffer. -/
theorem ocover1_C (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : cond1_1 i)
    (x0 : Vec F S1x5000x128 .f32) (x1 : Vec F S1x5000x1 .f32) (x2 : Vec F S1x128x128 .f32) (x3 : Vec F S1x1x128 .f32) (xs0 : Vec F S5000x128 .f32) (y : S5000x128.Idx) :
    ∃ pc ∈ (kernelRun1_C c i arg2 harg2 arg3 harg3 arg4 harg4 arg5 harg5 arg6 harg6 arg7 harg7 hc0 hc1 x0 x1 x2 x3 xs0).1, y ∈ pc.1.set := by
  unfold kernelRun1_C; dsimp only
  sl_unfold_run_names
  exact ⟨_, List.mem_cons_self, View.mem_set_unit_zero (S := S5000x128) zero2 inb_S5000x128_S5000x128_0_0 y⟩

/-- Case C: the output block is the maximum with zero of the finished accumulator. -/
theorem oval1_C_canon (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : cond1_1 i)
    (x0 : Vec F S1x5000x128 .f32) (x1 : Vec F S1x5000x1 .f32) (x2 : Vec F S1x128x128 .f32) (x3 : Vec F S1x1x128 .f32) (xs0 : Vec F S5000x128 .f32) :
    View.canon (kernelRun1_C c i arg2 harg2 arg3 harg3 arg4 harg4 arg5 harg5 arg6 harg6 arg7 harg7 hc0 hc1 x0 x1 x2 x3 xs0).1 = k1_pay3 (k1_pay2 x0 x1 x2 xs0 x3) := by
  unfold kernelRun1_C; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x128) zero3,
    View.ld_unit_zero (S := S1x1x128) zero3, View.ld_unit_zero (S := S5000x128) zero2]

/-- Case C: the output block read back through any view, over any prior contents. -/
theorem oval1_C (v : View sig .tc .vmem S5000x128 .f32) (f : v.ty.Contents (Elt F)) (c : Dev nD) (i : grid1.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond1_0 i) (hc1 : cond1_1 i)
    (x0 : Vec F S1x5000x128 .f32) (x1 : Vec F S1x5000x1 .f32) (x2 : Vec F S1x128x128 .f32) (x3 : Vec F S1x1x128 .f32) (xs0 : Vec F S5000x128 .f32) :
    v.read (Elt F) (v.writes (Elt F) f (kernelRun1_C c i arg2 harg2 arg3 harg3 arg4 harg4 arg5 harg5 arg6 harg6 arg7 harg7 hc0 hc1 x0 x1 x2 x3 xs0).1) = k1_pay3 (k1_pay2 x0 x1 x2 xs0 x3) :=
  (View.read_writes_eq_canon v f _ (ocover1_C c i arg2 harg2 arg3 harg3 arg4 harg4 arg5 harg5 arg6 harg6 arg7 harg7 hc0 hc1 x0 x1 x2 x3 xs0)).trans (oval1_C_canon c i arg2 harg2 arg3 harg3 arg4 harg4 arg5 harg5 arg6 harg6 arg7 harg7 hc0 hc1 x0 x1 x2 x3 xs0)

end Cert.KernelIdeal.Hand

end
-- ==== Proof.KI.Reg1.lean ====
import proofs.«166004_j3839700763193_1_alg».proof.Proof.KI.Reg1Val

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the proof data and the body obligation

The grid is 20 × 3, point `t = 3·n + r`. At `r = 0` the accumulator is zeroed; at every `r` one relation's contribution
`(agg·inv) @ W + b` is added to it; at `r = 2` the output block `n` is stored from it through the maximum with zero and written back. -/

/-! ## The accumulator, point by point -/

/-- One reduction step at point `t`: the contribution of the point's four input blocks added to `a`. -/
def step1 (c : Dev nD) (t : Fin cfg1.N) (a : Vec F S5000x128 .f32) : Vec F S5000x128 .f32 :=
  k1_pay2 (iblk1 V c 0 t) (iblk1 V c 1 t) (iblk1 V c 2 t) a (iblk1 V c 3 t)

/-- What the accumulator holds after the body at position `n`: a step from zeros where `n ≡ 0 (mod 3)`, else a step
    from what the position before left. -/
def acc1 (c : Dev nD) : (n : ℕ) → n < cfg1.N → Vec F S5000x128 .f32
  | 0, hn => step1 V c ⟨0, hn⟩ k1_pay1
  | n + 1, hn =>
    if (n + 1) % 3 = 0 then step1 V c ⟨n + 1, hn⟩ k1_pay1
    else step1 V c ⟨n + 1, hn⟩ (acc1 c n (Nat.lt_of_succ_lt hn))

/-- At a first reduction step the accumulator restarts from zeros. -/
theorem acc1_first (c : Dev nD) (t : Fin cfg1.N) (h0 : t.val % 3 = 0) :
    acc1 V c t.val t.isLt = step1 V c t k1_pay1 := by
  obtain ⟨n, hn⟩ := t
  cases n with
  | zero => rfl
  | succ n => exact if_pos h0

/-- At a later reduction step it continues from the point before. -/
theorem acc1_next (c : Dev nD) (t : Fin cfg1.N) (h0 : ¬t.val % 3 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h0
  | succ n => exact if_neg h0

/-- What the output window's staging buffer holds after the body at point `t` (read only where `t ≡ 2 (mod 3)`:
    elsewhere the window is idle and not written back): the maximum with zero of the accumulator. -/
def out1 (c : Dev nD) (t : Fin cfg1.N) : Vec F S5000x128 .f32 := k1_pay3 (acc1 V c t.val t.isLt)

/-! ## The invariant carrying the accumulator -/

/-- Before position `n`: at the region's entry the launch's invariant (the accumulator at anything); afterwards the
    accumulator at what the position before left, the other scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (acc1 V c n hn)) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (acc1 V c n hn)) ∗ restBut1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (acc1 V c (n - 1) (by omega))) ∗ restBut1 (F := F) c) ∗ (∃ r, prngReg c r)) := by
  cases n with
  | zero => exact absurd rfl hz
  | succ n => rfl

/-! ## The proof data -/

/-- The proof data of pipeline 1 on core `c`, at the region's entry contents `V`: the arrays as the region finds them;
    after the body each input's buffer at its block and the output's at `out1`; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- Every array is held at the full share. -/
theorem share1 (c : Dev nD) : ∀ w, (dat1 V c).share w = fullShare := (dat1 V c).share_full fun _ => rfl

theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; `t % 3` says which case the point is in; the invariant
    hands the body the accumulator at what the point before left (at anything at the region's first point) and takes
    it back at this point's contents; the output's buffer is handed back untouched at the idle points and holds
    `out1` at the last reduction step; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 60 := lt_of_lt_of_eq t.isLt (show cfg1.N = 60 from N_1)
  by_cases h0 : t.val % 3 = 0
  · have h2 : ¬t.val % 3 = 2 := by omega
    rw [Dat.leavesExact_idle (dat1 V c) 4 t (idleAt1_4 t h2) (noFlush1_4 t h2)]
    rw [acc1_first V c t h0]; unfold step1
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h2 ((hcond1_1 t).mp h)) (iblk1 V c 0 t) (iblk1 V c 1 t) (iblk1 V c 2 t) (iblk1 V c 3 t)).2.2 ((dat1 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact sval1_A scM1_0.view es0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h2 ((hcond1_1 t).mp h)) (iblk1 V c 0 t) (iblk1 V c 1 t) (iblk1 V c 2 t) (iblk1 V c 3 t)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h2 ((hcond1_1 t).mp h)) (iblk1 V c 0 t) (iblk1 V c 1 t) (iblk1 V c 2 t) (iblk1 V c 3 t)).2.2 ((dat1 V c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact sval1_A scM1_0.view es0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h2 ((hcond1_1 t).mp h)) (iblk1 V c 0 t) (iblk1 V c 1 t) (iblk1 V c 2 t) (iblk1 V c 3 t)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiS1_castSucc V c t, PhiS1_pos V c _ _ hz]
    rw [acc1_next V c t h0]; unfold step1
    by_cases h2 : t.val % 3 = 2
    · rw [show (dat1 V c).leavesExact 4 t = owns (c : Thread nD τ) (ms1_4 t) fullShare ((dat1 V c).after 4 t) from by
        unfold Dat.leavesExact; rw [liveAt1_4 t h2], after1_4]
      unfold out1; rw [acc1_next V c t h0]; unfold step1
      iintro ⟨⟨⟨HS0, Hr⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h2) (iblk1 V c 0 t) (iblk1 V c 1 t) (iblk1 V c 2 t) (iblk1 V c 3 t) (acc1 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact sval1_C scM1_0.view es0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h2) (iblk1 V c 0 t) (iblk1 V c 1 t) (iblk1 V c 2 t) (iblk1 V c 3 t) (acc1 V c (t.val - 1) (Nat.lt_of_le_of_lt (Nat.sub_le _ _) t.isLt))
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact oval1_C (ms1_4 t).view e4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h2) (iblk1 V c 0 t) (iblk1 V c 1 t) (iblk1 V c 2 t) (iblk1 V c 3 t) (acc1 V c (t.val - 1) (Nat.lt_of_le_of_lt (Nat.sub_le _ _) t.isLt))
    · rw [Dat.leavesExact_idle (dat1 V c) 4 t (idleAt1_4 t h2) (noFlush1_4 t h2)]
      iintro ⟨⟨⟨HS0, Hr⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h2 ((hcond1_1 t).mp h)) (iblk1 V c 0 t) (iblk1 V c 1 t) (iblk1 V c 2 t) (iblk1 V c 3 t) (acc1 V c (t.val - 1) (Nat.lt_of_le_of_lt (Nat.sub_le _ _) t.isLt))).2.2 ((dat1 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact sval1_B scM1_0.view es0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h2 ((hcond1_1 t).mp h)) (iblk1 V c 0 t) (iblk1 V c 1 t) (iblk1 V c 2 t) (iblk1 V c 3 t) (acc1 V c (t.val - 1) (Nat.lt_of_le_of_lt (Nat.sub_le _ _) t.isLt))
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 60 := N_1; omega)

/-! ## The output block at a point that writes it back -/

/-- At the last reduction step `t = 3·n + 2` the output's staging buffer holds the maximum with zero of the three relations'
    contributions added in order to zeros: the steps at `t - 2`, `t - 1`, `t`. -/
theorem after1_4_flush (c : Dev nD) (t : Fin cfg1.N) (h2 : t.val % 3 = 2) :
    (dat1 V c).after 4 t = k1_pay3 (step1 V c t (step1 V c ⟨t.val - 1, by omega⟩ (step1 V c ⟨t.val - 2, by omega⟩ k1_pay1))) := by
  rw [after1_4]; unfold out1
  have e2 : acc1 V c t.val t.isLt = step1 V c t (acc1 V c (t.val - 1) (Nat.lt_of_le_of_lt (Nat.sub_le _ _) t.isLt)) := acc1_next V c t (by omega)
  have e1 : (acc1 V c (t.val - 1) (Nat.lt_of_le_of_lt (Nat.sub_le _ _) t.isLt)) = step1 V c ⟨t.val - 1, by omega⟩ (acc1 V c (t.val - 1 - 1) (by omega)) :=
    acc1_next V c ⟨t.val - 1, by omega⟩ (by show ¬(t.val - 1) % 3 = 0; omega)
  have e0 : acc1 V c (t.val - 1 - 1) (by omega) = step1 V c ⟨t.val - 1 - 1, by omega⟩ k1_pay1 :=
    acc1_first V c ⟨t.val - 1 - 1, by omega⟩ (by show (t.val - 1 - 1) % 3 = 0; omega)
  rw [e2, e1, e0]
  have e : (⟨t.val - 1 - 1, by omega⟩ : Fin cfg1.N) = ⟨t.val - 2, by omega⟩ := Fin.ext (by show t.val - 1 - 1 = t.val - 2; omega)
  rw [e]

end Cert.KernelIdeal.Hand

end
-- ==== Proof.KI.Reg2Run.lean ====
import proofs.«166004_j3839700763193_1_alg».proof.Proof.Gen.KernelIdeal.Launch
import proofs.«166004_j3839700763193_1_alg».proof.Proof.Gen.KernelIdeal.Skeleton
import proofs.«166004_j3839700763193_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the body's conditions and its run at the region's single point -/

/-- The condition of the body's first conditional (the reduction coordinate is 0), from the grid coordinates. -/
abbrev cond2_0 (i : grid2.Coords) : Prop := (Scalar.cmpi .ne (Scalar.extui (Scalar.cmpi .eq (BitVec.ofNat 32 (i 1).val) 0#32)) 0#32) = 1#1
/-- It holds at every point of the grid (the reduction axis has extent 1). -/
theorem hcond2_0 : ∀ t : Fin cfg2.N, cond2_0 (grid2.coords t) :=
  (by decide +kernel : ∀ t : Fin grid2.N, cond2_0 (grid2.coords t))

/-- The condition of the body's second conditional (the reduction coordinate is the last one). -/
abbrev cond2_1 (i : grid2.Coords) : Prop := k2_cond2 i = 1#1
/-- It holds at every point of the grid. -/
theorem hcond2_1 : ∀ t : Fin cfg2.N, cond2_1 (grid2.coords t) :=
  (by decide +kernel : ∀ t : Fin grid2.N, cond2_1 (grid2.coords t))

/-- No window is idle at any point: the inputs never are, and the output is stored at every point. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel

/-- The scratch accumulator, a whole scoped buffer of the kernel's own, and its view. -/
abbrev scM2 : Memref sig .tc .vmem S5000x128 .f32 := Memref.whole cc2_scratch0
abbrev VS2 : View sig .tc .vmem S5000x128 .f32 := scM2.view
/-- One staging buffer of the output window, through which its contents are stated. -/
abbrev VO2 : View sig .tc .vmem S5000x128 .f32 := (Memref.whole cc2_stg4_0 : Memref sig .tc .vmem S5000x128 .f32).view

set_option maxHeartbeats 1000000 in
/-- The body on whole memrefs, both conditionals taken: from the four input blocks at `x0 … x3`, the output buffer and
    the accumulator at anything, it runs to the continuation holding the inputs as they were, and the output buffer
    and the accumulator with the listed pieces written (last store first). -/
noncomputable def kernelRun2 (c : Dev nD) (i : grid2.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond2_0 i) (hc1 : cond2_1 i)
    (x0 : Vec F S1x5000x128 .f32) (x1 : Vec F S1x5000x1 .f32) (x2 : Vec F S1x128x128 .f32) (x3 : Vec F S1x1x128 .f32) :
    Σ' (L4 : List (View.Piece (Elt F) S5000x128 .f32)), { LS0 : List (View.Piece (Elt F) S5000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg2 harg2 arg3 harg3 arg4 harg4 arg5 harg5 arg6 harg6 arg7 harg7) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Reg2.lean ====
import proofs.«166004_j3839700763193_1_alg».proof.Proof.KI.Reg2Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's data is stated at
variable (V : (c : Dev nD) → (b : Ref sig .tc) → Buf (Elt F) ((c : Thread nD τ).loc b))

/-! # Region 2: the proof data of the pipeline and its body obligation, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, for any proof data whose array is
    `V`'s (`hA`) and whose body leaves the block in place (`hafter`): the windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging memref at point `t`, spelled as the pipeline passes it, and its wholeness. -/
abbrev ms2_0 (t : Fin cfg2.N) : Memref sig .tc .vmem S1x5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x5000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S5000x128 .f32 := win2_4.stage (cfg2.slots t 4)
abbrev hs2_4 (t : Fin cfg2.N) : (ms2_4 t).IsWhole := hstage2_4 ((cfg2.slots t 4).cast nbuf2_4)

/-- The region invariant the launch hands the body, with the accumulator split off the kernel's other scoped
    buffers: the accumulator whole at some contents, the remaining scoped buffers unopened, the generator register
    at some state. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## What the body leaves in the output block and in the accumulator -/

/-- The pieces the run stores into the output block cover it (one whole-block store). -/
theorem cover2_4 (c : Dev nD) (i : grid2.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond2_0 i) (hc1 : cond2_1 i)
    (x0 : Vec F S1x5000x128 .f32) (x1 : Vec F S1x5000x1 .f32) (x2 : Vec F S1x128x128 .f32) (x3 : Vec F S1x1x128 .f32) (y : S5000x128.Idx) :
    ∃ pc ∈ (kernelRun2 c i arg2 harg2 arg3 harg3 arg4 harg4 arg5 harg5 arg6 harg6 arg7 harg7 hc0 hc1 x0 x1 x2 x3).1, y ∈ pc.1.set :=
  View.cover_of_tiledL (kernelRun2 c i arg2 harg2 arg3 harg3 arg4 harg4 arg5 harg5 arg6 harg6 arg7 harg7 hc0 hc1 x0 x1 x2 x3).1 S5000x128.size (by sl_kernel_rfl) y

/-- What the body leaves in the output window's staging buffer: its pieces read back. -/
def out2_4 (c : Dev nD) (i : grid2.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond2_0 i) (hc1 : cond2_1 i)
    (x0 : Vec F S1x5000x128 .f32) (x1 : Vec F S1x5000x1 .f32) (x2 : Vec F S1x128x128 .f32) (x3 : Vec F S1x1x128 .f32) : Vec F S5000x128 .f32 :=
  VO2.read (Elt F) (VO2.writes (Elt F) VO2.junk (kernelRun2 c i arg2 harg2 arg3 harg3 arg4 harg4 arg5 harg5 arg6 harg6 arg7 harg7 hc0 hc1 x0 x1 x2 x3).1)

/-- The pieces the run stores into the accumulator cover it (whole-block stores). -/
theorem scover2_0 (c : Dev nD) (i : grid2.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond2_0 i) (hc1 : cond2_1 i)
    (x0 : Vec F S1x5000x128 .f32) (x1 : Vec F S1x5000x1 .f32) (x2 : Vec F S1x128x128 .f32) (x3 : Vec F S1x1x128 .f32) (y : S5000x128.Idx) :
    ∃ pc ∈ (kernelRun2 c i arg2 harg2 arg3 harg3 arg4 harg4 arg5 harg5 arg6 harg6 arg7 harg7 hc0 hc1 x0 x1 x2 x3).2.1, y ∈ pc.1.set :=
  View.cover_of_tiledL (kernelRun2 c i arg2 harg2 arg3 harg3 arg4 harg4 arg5 harg5 arg6 harg6 arg7 harg7 hc0 hc1 x0 x1 x2 x3).2.1 S5000x128.size (by sl_kernel_rfl) y

/-- What the body leaves in the accumulator: its pieces read back. -/
def sout2_0 (c : Dev nD) (i : grid2.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond2_0 i) (hc1 : cond2_1 i)
    (x0 : Vec F S1x5000x128 .f32) (x1 : Vec F S1x5000x1 .f32) (x2 : Vec F S1x128x128 .f32) (x3 : Vec F S1x1x128 .f32) : Vec F S5000x128 .f32 :=
  VS2.read (Elt F) (VS2.writes (Elt F) VS2.junk (kernelRun2 c i arg2 harg2 arg3 harg3 arg4 harg4 arg5 harg5 arg6 harg6 arg7 harg7 hc0 hc1 x0 x1 x2 x3).2.1)

/-- The output block after the body at point `t`, from the point's input blocks. -/
def outAt2 (c : Dev nD) (t : Fin cfg2.N) : Vec F S5000x128 .f32 :=
  out2_4 c (grid2.coords t) (ms2_0 t) (hs2_0 t) (ms2_1 t) (hs2_1 t) (ms2_2 t) (hs2_2 t) (ms2_3 t) (hs2_3 t) (ms2_4 t) (hs2_4 t) scM2 (Memref.isWhole_whole _) (hcond2_0 t) (hcond2_1 t) (iblk2 V c 0 t) (iblk2 V c 1 t) (iblk2 V c 2 t) (iblk2 V c 3 t)

/-- The accumulator after the body at point `t`, from the point's input blocks. -/
def accAt2 (c : Dev nD) (t : Fin cfg2.N) : Vec F S5000x128 .f32 :=
  sout2_0 c (grid2.coords t) (ms2_0 t) (hs2_0 t) (ms2_1 t) (hs2_1 t) (ms2_2 t) (hs2_2 t) (ms2_3 t) (hs2_3 t) (ms2_4 t) (hs2_4 t) scM2 (Memref.isWhole_whole _) (hcond2_0 t) (hcond2_1 t) (iblk2 V c 0 t) (iblk2 V c 1 t) (iblk2 V c 2 t) (iblk2 V c 3 t)

/-! ## The invariant -/

/-- The region invariant before position `n`: before the first point what the launch hands over (`ΦA`); after point
    `n` the accumulator at what that point left in it, the kernel's other scoped buffers unopened and the generator
    register at some state. -/
def PhiS2 (c : Dev nD) : (n : ℕ) → n ≤ cfg2.N → sProp 𝕄
  | 0, _ => Pipeline.ΦA spec2 c
  | n + 1, hn => iprop(iprop(owns (c : Thread nD τ) scM2 fullShare (accAt2 V c ⟨n, hn⟩)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (accAt2 V c ⟨n, hn⟩)
      ∗ Pipeline.scopedRestBut (Ix := Unit) (Name := ℕ) (U := UR sig nD τ) (Lvl := ℕ) (Val := Elt F) spec2 c [cc2_scratch0]) ∗ (∃ r, prngReg c r)) := rfl

/-! ## The pipeline's proof data -/

/-- The proof data of pipeline 2 on core `c`: the arrays as the region finds them (`V`); after the body at point
    `t` each input's buffer at its block and the output's at `outAt2`; the invariant `PhiS2`; nothing owed; full
    shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outAt2 V c t
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outAt2 V c t := by dsimp only [dat2]

/-- Every array is held at the full share. -/
theorem share2 (c : Dev nD) : ∀ w, (dat2 V c).share w = fullShare := (dat2 V c).share_full fun _ => rfl

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at the region's point: the inputs' memrefs hold their blocks; the invariant hands the body the
    accumulator at some contents (the point is the first) and takes it back at this point's contents; the output
    buffer comes back at its pieces read back; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hz : t.val = 0 := by have hN : t.val < 1 := lt_of_lt_of_eq t.isLt (show cfg2.N = 1 from N_2); omega
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  unfold outAt2 accAt2 out2_4 sout2_0; (try dsimp only)
  rw [PhiS2_castSucc V c t, PhiS2_zero V c _ _ hz, PhiA2_eq]
  iintro ⟨⟨⟨HS0, Hrest⟩, Hg⟩, Ho, ⟨%d0, H0⟩, ⟨%d1, H1⟩, ⟨%d2, H2⟩, ⟨%d3, H3⟩, ⟨%d4, H4⟩⟩
  iapply ((kernelRun2 c (grid2.coords t) _ _ _ _ _ _ _ _ _ _ _ _ (hcond2_0 t) (hcond2_1 t) (iblk2 V c 0 t) (iblk2 V c 1 t) (iblk2 V c 2 t) (iblk2 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hrest Hg]
  · isplitl [HS0 Hrest]
    · isplitl [HS0]
      · unfold owns; iexists _; isplitr
        swap; · iexact HS0
        ipureintro; exact View.read_writes_of_cover _ _ _ _ _ (scover2_0 c _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2_4 c _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (`ΦA`) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- Before a position that is not the first: the accumulator at what the point before left. -/
theorem PhiS2_pos (c : Dev nD) (n : ℕ) (h : n ≤ cfg2.N) (hz : n ≠ 0) :
    PhiS2 V c n h = iprop(iprop(owns (c : Thread nD τ) scM2 fullShare (accAt2 V c ⟨n - 1, by omega⟩)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- After any point the invariant gives `ΦA` back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 1 := N_2; omega)

end Cert.KernelIdeal.Hand

end
-- ==== Proof.KI.Reg3Runs.lean ====
import proofs.«166004_j3839700763193_1_alg».proof.Proof.Gen.KernelIdeal.Launch
import proofs.«166004_j3839700763193_1_alg».proof.Proof.Gen.KernelIdeal.Skeleton
import proofs.«166004_j3839700763193_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: what the three control cases share

The grid is 20 × 3: point `t = 3·n + r` is reduction step `r` of row block `n`. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, for any proof data whose array is the
    entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, for any proof data whose array is the
    entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, for any proof data whose array is the
    entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditionals, in closed form over the grid -/

/-- The first conditional (reduction step 0: the accumulator is zeroed). -/
abbrev cond3_0 (i : grid3.Coords) : Prop := (Scalar.cmpi .ne (Scalar.extui (Scalar.cmpi .eq (BitVec.ofNat 32 (i 1).val) 0#32)) 0#32) = 1#1
/-- It holds exactly at the points `t ≡ 0 (mod 3)`. -/
theorem hcond3_0 : ∀ t : Fin cfg3.N, cond3_0 (grid3.coords t) ↔ t.val % 3 = 0 :=
  (by decide +kernel : ∀ t : Fin grid3.N, cond3_0 (grid3.coords t) ↔ t.val % 3 = 0)

/-- The second conditional (last reduction step: the output block is stored from the accumulator). -/
abbrev cond3_1 (i : grid3.Coords) : Prop := k3_cond2 i = 1#1
/-- It holds exactly at the points `t ≡ 2 (mod 3)`. -/
theorem hcond3_1 : ∀ t : Fin cfg3.N, cond3_1 (grid3.coords t) ↔ t.val % 3 = 2 :=
  (by decide +kernel : ∀ t : Fin grid3.N, cond3_1 (grid3.coords t) ↔ t.val % 3 = 2)

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
/-- Away from the last reduction step the output window is idle: nothing is stored into it, -/
theorem idleAt3_4 : ∀ t : Fin cfg3.N, ¬ t.val % 3 = 2 → cfg3.idle 4 (grid3.coords t) = true :=
  (by decide +kernel : ∀ t : Fin grid3.N, ¬ t.val % 3 = 2 → cfg3.idle 4 (grid3.coords t) = true)
/-- and its block is not written back. -/
theorem noFlush3_4 : ∀ t : Fin cfg3.N, ¬ t.val % 3 = 2 → (cfg3.win 4).flush t = false :=
  (by decide +kernel : ∀ t : Fin grid3.N, ¬ t.val % 3 = 2 → (cfg3.win 4).flush t = false)
/-- At the last reduction step it is live. -/
theorem liveAt3_4 : ∀ t : Fin cfg3.N, t.val % 3 = 2 → cfg3.idle 4 (grid3.coords t) = false :=
  (by decide +kernel : ∀ t : Fin grid3.N, t.val % 3 = 2 → cfg3.idle 4 (grid3.coords t) = false)

/-! ## The staging memrefs and the scratch -/

/-- One staging buffer of the output window, through which its contents are stated. -/
abbrev VO3_4 : View sig .tc .vmem S5000x128 .f32 := (Memref.whole cc3_stg4_0 : Memref sig .tc .vmem S5000x128 .f32).view
/-- Each window's current staging memref at point `t`, spelled as the pipeline passes it, and its wholeness. -/
abbrev ms3_0 (t : Fin cfg3.N) : Memref sig .tc .vmem S1x5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x5000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S5000x128 .f32 := win3_4.stage (cfg3.slots t 4)
abbrev hs3_4 (t : Fin cfg3.N) : (ms3_4 t).IsWhole := hstage3_4 ((cfg3.slots t 4).cast nbuf3_4)
/-- The accumulator: a whole scoped buffer of the kernel's own, passed beside the windows. -/
abbrev scM3_0 : Memref sig .tc .vmem S5000x128 .f32 := Memref.whole cc3_scratch0
/-- The accumulator as a view: what it holds is stated through it. -/
abbrev VS3_0 : View sig .tc .vmem S5000x128 .f32 := scM3_0.view

/-- The other scoped buffers of the core (neither this call's staging buffers nor its accumulator), unopened. -/
abbrev restBut3 (c : Dev nD) : sProp 𝕄 :=
  Pipeline.scopedRestBut (Ix := Unit) (Name := ℕ) (U := UR sig nD τ) (Lvl := ℕ) (Val := Elt F) spec3 c [cc3_scratch0]

/-- The region invariant with the accumulator as a memref owned at some contents. -/
theorem PhiA3_eq (c : Dev nD) :
    (Pipeline.ΦA spec3 c : sProp 𝕄)
      = iprop(iprop(iprop((∃ d, owns (c : Thread nD τ) scM3_0 fullShare d)) ∗ restBut3 (F := F) c) ∗ (∃ r, prngReg c r)) := by
  unfold Pipeline.ΦA; rw [scopedRest3_split]; simp only [scM3_0, owns_whole]; try rfl

end Cert.KernelIdeal.Hand

end
-- ==== Proof.KI.Reg3RunA.lean ====
import proofs.«166004_j3839700763193_1_alg».proof.Proof.KI.Reg3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in case A (first reduction step: the accumulator is zeroed, then one contribution is added; the output window is left untouched): on whole staging memrefs — the inputs' at their contents `x·`, the accumulator at anything, the output's at contents `xi4` handed back untouched — the body
    runs to the continuation holding the inputs' as they were and each buffer it stored into with its pieces written
    (`L4` the output's, `LS0` the accumulator's; last store first). The pieces are the witness the run finds. -/
noncomputable def kernelRun3_A (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond3_0 i) (hc1 : ¬cond3_1 i)
    (x0 : Vec F S1x5000x128 .f32) (x1 : Vec F S1x5000x1 .f32) (x2 : Vec F S1x128x128 .f32) (x3 : Vec F S1x1x128 .f32) :
    Σ' (L4 : List (View.Piece (Elt F) S5000x128 .f32)), { LS0 : List (View.Piece (Elt F) S5000x128 .f32) //
      ∀ (xi4 : Vec F S5000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3_kernel i arg2 harg2 arg3 harg3 arg4 harg4 arg5 harg5 arg6 harg6 arg7 harg7) K } := by
  refine ⟨[], ?_, fun xi4 E K => ?run⟩
  case run =>
    rw [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.Reg3RunB.lean ====
import proofs.«166004_j3839700763193_1_alg».proof.Proof.KI.Reg3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in case B (middle reduction step: one contribution is added to the accumulator; the output window is left untouched): on whole staging memrefs — the inputs' at their contents `x·`, the accumulator at what the step before left (`xs0`), the output's at contents `xi4` handed back untouched — the body
    runs to the continuation holding the inputs' as they were and each buffer it stored into with its pieces written
    (`L4` the output's, `LS0` the accumulator's; last store first). The pieces are the witness the run finds. -/
noncomputable def kernelRun3_B (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : ¬cond3_1 i)
    (x0 : Vec F S1x5000x128 .f32) (x1 : Vec F S1x5000x1 .f32) (x2 : Vec F S1x128x128 .f32) (x3 : Vec F S1x1x128 .f32) (xs0 : Vec F S5000x128 .f32) :
    Σ' (L4 : List (View.Piece (Elt F) S5000x128 .f32)), { LS0 : List (View.Piece (Elt F) S5000x128 .f32) //
      ∀ (xi4 : Vec F S5000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc3_kernel i arg2 harg2 arg3 harg3 arg4 harg4 arg5 harg5 arg6 harg6 arg7 harg7) K } := by
  refine ⟨[], ?_, fun xi4 E K => ?run⟩
  case run =>
    rw [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.Reg3RunC.lean ====
import proofs.«166004_j3839700763193_1_alg».proof.Proof.KI.Reg3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in case C (last reduction step: one contribution is added to the accumulator, then the output block is stored from it): on whole staging memrefs — the inputs' at their contents `x·`, the accumulator at what the step before left (`xs0`), the output's at anything — the body
    runs to the continuation holding the inputs' as they were and each buffer it stored into with its pieces written
    (`L4` the output's, `LS0` the accumulator's; last store first). The pieces are the witness the run finds. -/
noncomputable def kernelRun3_C (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : cond3_1 i)
    (x0 : Vec F S1x5000x128 .f32) (x1 : Vec F S1x5000x1 .f32) (x2 : Vec F S1x128x128 .f32) (x3 : Vec F S1x1x128 .f32) (xs0 : Vec F S5000x128 .f32) :
    Σ' (L4 : List (View.Piece (Elt F) S5000x128 .f32)), { LS0 : List (View.Piece (Elt F) S5000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc3_kernel i arg2 harg2 arg3 harg3 arg4 harg4 arg5 harg5 arg6 harg6 arg7 harg7) K } := by
  refine ⟨?_, ?_, fun E K => ?run⟩
  case run =>
    rw [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Reg3Val.lean ====
import proofs.«166004_j3839700763193_1_alg».proof.Proof.KI.Reg3RunA
import proofs.«166004_j3839700763193_1_alg».proof.Proof.KI.Reg3RunB
import proofs.«166004_j3839700763193_1_alg».proof.Proof.KI.Reg3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: what each control case leaves in the accumulator and in the output block

Every store of the body is of a whole buffer, through the rectangle at zero offsets of the buffer's own sizes; a
load through it reads the contents, and the last store through it leaves its payload. -/

private theorem zero2 : (![0, 0] : Fin 2 → ℕ) = fun _ => 0 := by funext a; fin_cases a <;> rfl
private theorem zero3 : (![0, 0, 0] : Fin 3 → ℕ) = fun _ => 0 := by funext a; fin_cases a <;> rfl

/-- Case A: the accumulator's last store is of the whole buffer, so its pieces cover it. -/
theorem scover3_A (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond3_0 i) (hc1 : ¬cond3_1 i)
    (x0 : Vec F S1x5000x128 .f32) (x1 : Vec F S1x5000x1 .f32) (x2 : Vec F S1x128x128 .f32) (x3 : Vec F S1x1x128 .f32) (y : S5000x128.Idx) :
    ∃ pc ∈ (kernelRun3_A c i arg2 harg2 arg3 harg3 arg4 harg4 arg5 harg5 arg6 harg6 arg7 harg7 hc0 hc1 x0 x1 x2 x3).2.1, y ∈ pc.1.set := by
  unfold kernelRun3_A; dsimp only
  sl_unfold_run_names
  exact ⟨_, List.mem_cons_self, View.mem_set_unit_zero (S := S5000x128) zero2 inb_S5000x128_S5000x128_0_0 y⟩

/-- Case A: what the accumulator's pieces amount to — one contribution added to zeros. -/
theorem cval3_A (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond3_0 i) (hc1 : ¬cond3_1 i)
    (x0 : Vec F S1x5000x128 .f32) (x1 : Vec F S1x5000x1 .f32) (x2 : Vec F S1x128x128 .f32) (x3 : Vec F S1x1x128 .f32) :
    View.canon (kernelRun3_A c i arg2 harg2 arg3 harg3 arg4 harg4 arg5 harg5 arg6 harg6 arg7 harg7 hc0 hc1 x0 x1 x2 x3).2.1 = k3_pay2 x0 x1 x2 k3_pay1 x3 := by
  unfold kernelRun3_A; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x128) zero3,
    View.ld_unit_zero (S := S1x1x128) zero3, View.ld_unit_zero (S := S5000x128) zero2]

/-- Case A: the accumulator read back through any view, over any prior contents. -/
theorem sval3_A (v : View sig .tc .vmem S5000x128 .f32) (f : v.ty.Contents (Elt F)) (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond3_0 i) (hc1 : ¬cond3_1 i)
    (x0 : Vec F S1x5000x128 .f32) (x1 : Vec F S1x5000x1 .f32) (x2 : Vec F S1x128x128 .f32) (x3 : Vec F S1x1x128 .f32) :
    v.read (Elt F) (v.writes (Elt F) f (kernelRun3_A c i arg2 harg2 arg3 harg3 arg4 harg4 arg5 harg5 arg6 harg6 arg7 harg7 hc0 hc1 x0 x1 x2 x3).2.1) = k3_pay2 x0 x1 x2 k3_pay1 x3 :=
  (View.read_writes_eq_canon v f _ (scover3_A c i arg2 harg2 arg3 harg3 arg4 harg4 arg5 harg5 arg6 harg6 arg7 harg7 hc0 hc1 x0 x1 x2 x3)).trans (cval3_A c i arg2 harg2 arg3 harg3 arg4 harg4 arg5 harg5 arg6 harg6 arg7 harg7 hc0 hc1 x0 x1 x2 x3)

/-- Case B: the accumulator's last store is of the whole buffer, so its pieces cover it. -/
theorem scover3_B (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : ¬cond3_1 i)
    (x0 : Vec F S1x5000x128 .f32) (x1 : Vec F S1x5000x1 .f32) (x2 : Vec F S1x128x128 .f32) (x3 : Vec F S1x1x128 .f32) (xs0 : Vec F S5000x128 .f32) (y : S5000x128.Idx) :
    ∃ pc ∈ (kernelRun3_B c i arg2 harg2 arg3 harg3 arg4 harg4 arg5 harg5 arg6 harg6 arg7 harg7 hc0 hc1 x0 x1 x2 x3 xs0).2.1, y ∈ pc.1.set := by
  unfold kernelRun3_B; dsimp only
  sl_unfold_run_names
  exact ⟨_, List.mem_cons_self, View.mem_set_unit_zero (S := S5000x128) zero2 inb_S5000x128_S5000x128_0_0 y⟩

/-- Case B: what the accumulator's pieces amount to — one contribution added to what the step before left. -/
theorem cval3_B (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : ¬cond3_1 i)
    (x0 : Vec F S1x5000x128 .f32) (x1 : Vec F S1x5000x1 .f32) (x2 : Vec F S1x128x128 .f32) (x3 : Vec F S1x1x128 .f32) (xs0 : Vec F S5000x128 .f32) :
    View.canon (kernelRun3_B c i arg2 harg2 arg3 harg3 arg4 harg4 arg5 harg5 arg6 harg6 arg7 harg7 hc0 hc1 x0 x1 x2 x3 xs0).2.1 = k3_pay2 x0 x1 x2 xs0 x3 := by
  unfold kernelRun3_B; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x128) zero3,
    View.ld_unit_zero (S := S1x1x128) zero3, View.ld_unit_zero (S := S5000x128) zero2]

/-- Case B: the accumulator read back through any view, over any prior contents. -/
theorem sval3_B (v : View sig .tc .vmem S5000x128 .f32) (f : v.ty.Contents (Elt F)) (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : ¬cond3_1 i)
    (x0 : Vec F S1x5000x128 .f32) (x1 : Vec F S1x5000x1 .f32) (x2 : Vec F S1x128x128 .f32) (x3 : Vec F S1x1x128 .f32) (xs0 : Vec F S5000x128 .f32) :
    v.read (Elt F) (v.writes (Elt F) f (kernelRun3_B c i arg2 harg2 arg3 harg3 arg4 harg4 arg5 harg5 arg6 harg6 arg7 harg7 hc0 hc1 x0 x1 x2 x3 xs0).2.1) = k3_pay2 x0 x1 x2 xs0 x3 :=
  (View.read_writes_eq_canon v f _ (scover3_B c i arg2 harg2 arg3 harg3 arg4 harg4 arg5 harg5 arg6 harg6 arg7 harg7 hc0 hc1 x0 x1 x2 x3 xs0)).trans (cval3_B c i arg2 harg2 arg3 harg3 arg4 harg4 arg5 harg5 arg6 harg6 arg7 harg7 hc0 hc1 x0 x1 x2 x3 xs0)

/-- Case C: the accumulator's last store is of the whole buffer, so its pieces cover it. -/
theorem scover3_C (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : cond3_1 i)
    (x0 : Vec F S1x5000x128 .f32) (x1 : Vec F S1x5000x1 .f32) (x2 : Vec F S1x128x128 .f32) (x3 : Vec F S1x1x128 .f32) (xs0 : Vec F S5000x128 .f32) (y : S5000x128.Idx) :
    ∃ pc ∈ (kernelRun3_C c i arg2 harg2 arg3 harg3 arg4 harg4 arg5 harg5 arg6 harg6 arg7 harg7 hc0 hc1 x0 x1 x2 x3 xs0).2.1, y ∈ pc.1.set := by
  unfold kernelRun3_C; dsimp only
  sl_unfold_run_names
  exact ⟨_, List.mem_cons_self, View.mem_set_unit_zero (S := S5000x128) zero2 inb_S5000x128_S5000x128_0_0 y⟩

/-- Case C: what the accumulator's pieces amount to — one contribution added to what the step before left. -/
theorem cval3_C (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : cond3_1 i)
    (x0 : Vec F S1x5000x128 .f32) (x1 : Vec F S1x5000x1 .f32) (x2 : Vec F S1x128x128 .f32) (x3 : Vec F S1x1x128 .f32) (xs0 : Vec F S5000x128 .f32) :
    View.canon (kernelRun3_C c i arg2 harg2 arg3 harg3 arg4 harg4 arg5 harg5 arg6 harg6 arg7 harg7 hc0 hc1 x0 x1 x2 x3 xs0).2.1 = k3_pay2 x0 x1 x2 xs0 x3 := by
  unfold kernelRun3_C; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x128) zero3,
    View.ld_unit_zero (S := S1x1x128) zero3, View.ld_unit_zero (S := S5000x128) zero2]

/-- Case C: the accumulator read back through any view, over any prior contents. -/
theorem sval3_C (v : View sig .tc .vmem S5000x128 .f32) (f : v.ty.Contents (Elt F)) (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : cond3_1 i)
    (x0 : Vec F S1x5000x128 .f32) (x1 : Vec F S1x5000x1 .f32) (x2 : Vec F S1x128x128 .f32) (x3 : Vec F S1x1x128 .f32) (xs0 : Vec F S5000x128 .f32) :
    v.read (Elt F) (v.writes (Elt F) f (kernelRun3_C c i arg2 harg2 arg3 harg3 arg4 harg4 arg5 harg5 arg6 harg6 arg7 harg7 hc0 hc1 x0 x1 x2 x3 xs0).2.1) = k3_pay2 x0 x1 x2 xs0 x3 :=
  (View.read_writes_eq_canon v f _ (scover3_C c i arg2 harg2 arg3 harg3 arg4 harg4 arg5 harg5 arg6 harg6 arg7 harg7 hc0 hc1 x0 x1 x2 x3 xs0)).trans (cval3_C c i arg2 harg2 arg3 harg3 arg4 harg4 arg5 harg5 arg6 harg6 arg7 harg7 hc0 hc1 x0 x1 x2 x3 xs0)

/-- Case C: the output block's one store is of the whole buffer. -/
theorem ocover3_C (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : cond3_1 i)
    (x0 : Vec F S1x5000x128 .f32) (x1 : Vec F S1x5000x1 .f32) (x2 : Vec F S1x128x128 .f32) (x3 : Vec F S1x1x128 .f32) (xs0 : Vec F S5000x128 .f32) (y : S5000x128.Idx) :
    ∃ pc ∈ (kernelRun3_C c i arg2 harg2 arg3 harg3 arg4 harg4 arg5 harg5 arg6 harg6 arg7 harg7 hc0 hc1 x0 x1 x2 x3 xs0).1, y ∈ pc.1.set := by
  unfold kernelRun3_C; dsimp only
  sl_unfold_run_names
  exact ⟨_, List.mem_cons_self, View.mem_set_unit_zero (S := S5000x128) zero2 inb_S5000x128_S5000x128_0_0 y⟩

/-- Case C: the output block is the maximum with zero of the finished accumulator. -/
theorem oval3_C_canon (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : cond3_1 i)
    (x0 : Vec F S1x5000x128 .f32) (x1 : Vec F S1x5000x1 .f32) (x2 : Vec F S1x128x128 .f32) (x3 : Vec F S1x1x128 .f32) (xs0 : Vec F S5000x128 .f32) :
    View.canon (kernelRun3_C c i arg2 harg2 arg3 harg3 arg4 harg4 arg5 harg5 arg6 harg6 arg7 harg7 hc0 hc1 x0 x1 x2 x3 xs0).1 = k3_pay3 (k3_pay2 x0 x1 x2 xs0 x3) := by
  unfold kernelRun3_C; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x128) zero3,
    View.ld_unit_zero (S := S1x1x128) zero3, View.ld_unit_zero (S := S5000x128) zero2]

/-- Case C: the output block read back through any view, over any prior contents. -/
theorem oval3_C (v : View sig .tc .vmem S5000x128 .f32) (f : v.ty.Contents (Elt F)) (c : Dev nD) (i : grid3.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : ¬cond3_0 i) (hc1 : cond3_1 i)
    (x0 : Vec F S1x5000x128 .f32) (x1 : Vec F S1x5000x1 .f32) (x2 : Vec F S1x128x128 .f32) (x3 : Vec F S1x1x128 .f32) (xs0 : Vec F S5000x128 .f32) :
    v.read (Elt F) (v.writes (Elt F) f (kernelRun3_C c i arg2 harg2 arg3 harg3 arg4 harg4 arg5 harg5 arg6 harg6 arg7 harg7 hc0 hc1 x0 x1 x2 x3 xs0).1) = k3_pay3 (k3_pay2 x0 x1 x2 xs0 x3) :=
  (View.read_writes_eq_canon v f _ (ocover3_C c i arg2 harg2 arg3 harg3 arg4 harg4 arg5 harg5 arg6 harg6 arg7 harg7 hc0 hc1 x0 x1 x2 x3 xs0)).trans (oval3_C_canon c i arg2 harg2 arg3 harg3 arg4 harg4 arg5 harg5 arg6 harg6 arg7 harg7 hc0 hc1 x0 x1 x2 x3 xs0)

end Cert.KernelIdeal.Hand

end
-- ==== Proof.KI.Reg3.lean ====
import proofs.«166004_j3839700763193_1_alg».proof.Proof.KI.Reg3Val

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the proof data and the body obligation

The grid is 20 × 3, point `t = 3·n + r`. At `r = 0` the accumulator is zeroed; at every `r` one relation's contribution
`(agg·inv) @ W + b` is added to it; at `r = 2` the output block `n` is stored from it through the maximum with zero and written back. -/

/-! ## The accumulator, point by point -/

/-- One reduction step at point `t`: the contribution of the point's four input blocks added to `a`. -/
def step3 (c : Dev nD) (t : Fin cfg3.N) (a : Vec F S5000x128 .f32) : Vec F S5000x128 .f32 :=
  k3_pay2 (iblk3 V c 0 t) (iblk3 V c 1 t) (iblk3 V c 2 t) a (iblk3 V c 3 t)

/-- What the accumulator holds after the body at position `n`: a step from zeros where `n ≡ 0 (mod 3)`, else a step
    from what the position before left. -/
def acc3 (c : Dev nD) : (n : ℕ) → n < cfg3.N → Vec F S5000x128 .f32
  | 0, hn => step3 V c ⟨0, hn⟩ k3_pay1
  | n + 1, hn =>
    if (n + 1) % 3 = 0 then step3 V c ⟨n + 1, hn⟩ k3_pay1
    else step3 V c ⟨n + 1, hn⟩ (acc3 c n (Nat.lt_of_succ_lt hn))

/-- At a first reduction step the accumulator restarts from zeros. -/
theorem acc3_first (c : Dev nD) (t : Fin cfg3.N) (h0 : t.val % 3 = 0) :
    acc3 V c t.val t.isLt = step3 V c t k3_pay1 := by
  obtain ⟨n, hn⟩ := t
  cases n with
  | zero => rfl
  | succ n => exact if_pos h0

/-- At a later reduction step it continues from the point before. -/
theorem acc3_next (c : Dev nD) (t : Fin cfg3.N) (h0 : ¬t.val % 3 = 0) :
    acc3 V c t.val t.isLt = step3 V c t (acc3 V c (t.val - 1) (Nat.lt_of_le_of_lt (Nat.sub_le _ _) t.isLt)) := by
  obtain ⟨n, hn⟩ := t
  cases n with
  | zero => exact absurd (Nat.zero_mod _) h0
  | succ n => exact if_neg h0

/-- What the output window's staging buffer holds after the body at point `t` (read only where `t ≡ 2 (mod 3)`:
    elsewhere the window is idle and not written back): the maximum with zero of the accumulator. -/
def out3 (c : Dev nD) (t : Fin cfg3.N) : Vec F S5000x128 .f32 := k3_pay3 (acc3 V c t.val t.isLt)

/-! ## The invariant carrying the accumulator -/

/-- Before position `n`: at the region's entry the launch's invariant (the accumulator at anything); afterwards the
    accumulator at what the position before left, the other scoped buffers unopened, the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare (acc3 V c n hn)) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (acc3 V c n hn)) ∗ restBut3 (F := F) c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (acc3 V c (n - 1) (by omega))) ∗ restBut3 (F := F) c) ∗ (∃ r, prngReg c r)) := by
  cases n with
  | zero => exact absurd rfl hz
  | succ n => rfl

/-! ## The proof data -/

/-- The proof data of pipeline 3 on core `c`, at the region's entry contents `V`: the arrays as the region finds them;
    after the body each input's buffer at its block and the output's at `out3`; the invariant `PhiS3`; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 V c t
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- Every array is held at the full share. -/
theorem share3 (c : Dev nD) : ∀ w, (dat3 V c).share w = fullShare := (dat3 V c).share_full fun _ => rfl

theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 V c t := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' memrefs hold their blocks; `t % 3` says which case the point is in; the invariant
    hands the body the accumulator at what the point before left (at anything at the region's first point) and takes
    it back at this point's contents; the output's buffer is handed back untouched at the idle points and holds
    `out3` at the last reduction step; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  have hN : t.val < 60 := lt_of_lt_of_eq t.isLt (show cfg3.N = 60 from N_3)
  by_cases h0 : t.val % 3 = 0
  · have h2 : ¬t.val % 3 = 2 := by omega
    rw [Dat.leavesExact_idle (dat3 V c) 4 t (idleAt3_4 t h2) (noFlush3_4 t h2)]
    rw [acc3_first V c t h0]; unfold step3
    by_cases hz : t.val = 0
    · rw [PhiS3_castSucc V c t, PhiS3_zero V c _ _ hz, PhiA3_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun3_A c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h2 ((hcond3_1 t).mp h)) (iblk3 V c 0 t) (iblk3 V c 1 t) (iblk3 V c 2 t) (iblk3 V c 3 t)).2.2 ((dat3 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact sval3_A scM3_0.view es0 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h2 ((hcond3_1 t).mp h)) (iblk3 V c 0 t) (iblk3 V c 1 t) (iblk3 V c 2 t) (iblk3 V c 3 t)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS3_castSucc V c t, PhiS3_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun3_A c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h2 ((hcond3_1 t).mp h)) (iblk3 V c 0 t) (iblk3 V c 1 t) (iblk3 V c 2 t) (iblk3 V c 3 t)).2.2 ((dat3 V c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact sval3_A scM3_0.view es0 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h2 ((hcond3_1 t).mp h)) (iblk3 V c 0 t) (iblk3 V c 1 t) (iblk3 V c 2 t) (iblk3 V c 3 t)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiS3_castSucc V c t, PhiS3_pos V c _ _ hz]
    rw [acc3_next V c t h0]; unfold step3
    by_cases h2 : t.val % 3 = 2
    · rw [show (dat3 V c).leavesExact 4 t = owns (c : Thread nD τ) (ms3_4 t) fullShare ((dat3 V c).after 4 t) from by
        unfold Dat.leavesExact; rw [liveAt3_4 t h2], after3_4]
      unfold out3; rw [acc3_next V c t h0]; unfold step3
      iintro ⟨⟨⟨HS0, Hr⟩, Hg⟩, Ho, ⟨%d0, H0⟩, ⟨%d1, H1⟩, ⟨%d2, H2⟩, ⟨%d3, H3⟩, ⟨%d4, H4⟩⟩
      iapply ((kernelRun3_C c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h2) (iblk3 V c 0 t) (iblk3 V c 1 t) (iblk3 V c 2 t) (iblk3 V c 3 t) (acc3 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact sval3_C scM3_0.view es0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h2) (iblk3 V c 0 t) (iblk3 V c 1 t) (iblk3 V c 2 t) (iblk3 V c 3 t) (acc3 V c (t.val - 1) (Nat.lt_of_le_of_lt (Nat.sub_le _ _) t.isLt))
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact oval3_C (ms3_4 t).view e4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h2) (iblk3 V c 0 t) (iblk3 V c 1 t) (iblk3 V c 2 t) (iblk3 V c 3 t) (acc3 V c (t.val - 1) (Nat.lt_of_le_of_lt (Nat.sub_le _ _) t.isLt))
    · rw [Dat.leavesExact_idle (dat3 V c) 4 t (idleAt3_4 t h2) (noFlush3_4 t h2)]
      iintro ⟨⟨⟨HS0, Hr⟩, Hg⟩, Ho, ⟨%d0, H0⟩, ⟨%d1, H1⟩, ⟨%d2, H2⟩, ⟨%d3, H3⟩, ⟨%d4, H4⟩⟩
      iapply ((kernelRun3_B c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h2 ((hcond3_1 t).mp h)) (iblk3 V c 0 t) (iblk3 V c 1 t) (iblk3 V c 2 t) (iblk3 V c 3 t) (acc3 V c (t.val - 1) (Nat.lt_of_le_of_lt (Nat.sub_le _ _) t.isLt))).2.2 ((dat3 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact sval3_B scM3_0.view es0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h2 ((hcond3_1 t).mp h)) (iblk3 V c 0 t) (iblk3 V c 1 t) (iblk3 V c 2 t) (iblk3 V c 3 t) (acc3 V c (t.val - 1) (Nat.lt_of_le_of_lt (Nat.sub_le _ _) t.isLt))
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 60 := N_3; omega)

/-! ## The output block at a point that writes it back -/

/-- At the last reduction step `t = 3·n + 2` the output's staging buffer holds the maximum with zero of the three relations'
    contributions added in order to zeros: the steps at `t - 2`, `t - 1`, `t`. -/
theorem after3_4_flush (c : Dev nD) (t : Fin cfg3.N) (h2 : t.val % 3 = 2) :
    (dat3 V c).after 4 t = k3_pay3 (step3 V c t (step3 V c ⟨t.val - 1, by omega⟩ (step3 V c ⟨t.val - 2, by omega⟩ k3_pay1))) := by
  rw [after3_4]; unfold out3
  have e2 : acc3 V c t.val t.isLt = step3 V c t (acc3 V c (t.val - 1) (Nat.lt_of_le_of_lt (Nat.sub_le _ _) t.isLt)) := acc3_next V c t (by omega)
  have e1 : (acc3 V c (t.val - 1) (Nat.lt_of_le_of_lt (Nat.sub_le _ _) t.isLt)) = step3 V c ⟨t.val - 1, by omega⟩ (acc3 V c (t.val - 1 - 1) (by omega)) :=
    acc3_next V c ⟨t.val - 1, by omega⟩ (by show ¬(t.val - 1) % 3 = 0; omega)
  have e0 : acc3 V c (t.val - 1 - 1) (by omega) = step3 V c ⟨t.val - 1 - 1, by omega⟩ k3_pay1 :=
    acc3_first V c ⟨t.val - 1 - 1, by omega⟩ (by show (t.val - 1 - 1) % 3 = 0; omega)
  rw [e2, e1, e0]
  have e : (⟨t.val - 1 - 1, by omega⟩ : Fin cfg3.N) = ⟨t.val - 2, by omega⟩ := Fin.ext (by show t.val - 1 - 1 = t.val - 2; omega)
  rw [e]

end Cert.KernelIdeal.Hand

end
-- ==== Proof.KI.Reg4Run.lean ====
import proofs.«166004_j3839700763193_1_alg».proof.Proof.Gen.KernelIdeal.Launch
import proofs.«166004_j3839700763193_1_alg».proof.Proof.Gen.KernelIdeal.Skeleton
import proofs.«166004_j3839700763193_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the body's conditions and its run at the region's single point -/

/-- The condition of the body's first conditional (the reduction coordinate is 0), from the grid coordinates. -/
abbrev cond4_0 (i : grid4.Coords) : Prop := (Scalar.cmpi .ne (Scalar.extui (Scalar.cmpi .eq (BitVec.ofNat 32 (i 1).val) 0#32)) 0#32) = 1#1
/-- It holds at every point of the grid (the reduction axis has extent 1). -/
theorem hcond4_0 : ∀ t : Fin cfg4.N, cond4_0 (grid4.coords t) :=
  (by decide +kernel : ∀ t : Fin grid4.N, cond4_0 (grid4.coords t))

/-- The condition of the body's second conditional (the reduction coordinate is the last one). -/
abbrev cond4_1 (i : grid4.Coords) : Prop := k4_cond2 i = 1#1
/-- It holds at every point of the grid. -/
theorem hcond4_1 : ∀ t : Fin cfg4.N, cond4_1 (grid4.coords t) :=
  (by decide +kernel : ∀ t : Fin grid4.N, cond4_1 (grid4.coords t))

/-- No window is idle at any point: the inputs never are, and the output is stored at every point. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel

/-- The scratch accumulator, a whole scoped buffer of the kernel's own, and its view. -/
abbrev scM4 : Memref sig .tc .vmem S5000x64 .f32 := Memref.whole cc4_scratch0
abbrev VS4 : View sig .tc .vmem S5000x64 .f32 := scM4.view
/-- One staging buffer of the output window, through which its contents are stated. -/
abbrev VO4 : View sig .tc .vmem S5000x64 .f32 := (Memref.whole cc4_stg4_0 : Memref sig .tc .vmem S5000x64 .f32).view

set_option maxHeartbeats 1000000 in
/-- The body on whole memrefs, both conditionals taken: from the four input blocks at `x0 … x3`, the output buffer and
    the accumulator at anything, it runs to the continuation holding the inputs as they were, and the output buffer
    and the accumulator with the listed pieces written (last store first). -/
noncomputable def kernelRun4 (c : Dev nD) (i : grid4.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond4_0 i) (hc1 : cond4_1 i)
    (x0 : Vec F S1x5000x128 .f32) (x1 : Vec F S1x5000x1 .f32) (x2 : Vec F S1x128x64 .f32) (x3 : Vec F S1x1x64 .f32) :
    Σ' (L4 : List (View.Piece (Elt F) S5000x64 .f32)), { LS0 : List (View.Piece (Elt F) S5000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc4_kernel i arg2 harg2 arg3 harg3 arg4 harg4 arg5 harg5 arg6 harg6 arg7 harg7) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Reg4.lean ====
import proofs.«166004_j3839700763193_1_alg».proof.Proof.KI.Reg4Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's data is stated at
variable (V : (c : Dev nD) → (b : Ref sig .tc) → Buf (Elt F) ((c : Thread nD τ).loc b))

/-! # Region 4: the proof data of the pipeline and its body obligation, at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current staging buffer holds its block at every point, for any proof data whose array is
    `V`'s (`hA`) and whose body leaves the block in place (`hafter`): the windows are uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Each window's current staging memref at point `t`, spelled as the pipeline passes it, and its wholeness. -/
abbrev ms4_0 (t : Fin cfg4.N) : Memref sig .tc .vmem S1x5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x5000x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S5000x64 .f32 := win4_4.stage (cfg4.slots t 4)
abbrev hs4_4 (t : Fin cfg4.N) : (ms4_4 t).IsWhole := hstage4_4 ((cfg4.slots t 4).cast nbuf4_4)

/-- The region invariant the launch hands the body, with the accumulator split off the kernel's other scoped
    buffers: the accumulator whole at some contents, the remaining scoped buffers unopened, the generator register
    at some state. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-! ## What the body leaves in the output block and in the accumulator -/

/-- The pieces the run stores into the output block cover it (one whole-block store). -/
theorem cover4_4 (c : Dev nD) (i : grid4.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond4_0 i) (hc1 : cond4_1 i)
    (x0 : Vec F S1x5000x128 .f32) (x1 : Vec F S1x5000x1 .f32) (x2 : Vec F S1x128x64 .f32) (x3 : Vec F S1x1x64 .f32) (y : S5000x64.Idx) :
    ∃ pc ∈ (kernelRun4 c i arg2 harg2 arg3 harg3 arg4 harg4 arg5 harg5 arg6 harg6 arg7 harg7 hc0 hc1 x0 x1 x2 x3).1, y ∈ pc.1.set :=
  View.cover_of_tiledL (kernelRun4 c i arg2 harg2 arg3 harg3 arg4 harg4 arg5 harg5 arg6 harg6 arg7 harg7 hc0 hc1 x0 x1 x2 x3).1 S5000x64.size (by sl_kernel_rfl) y

/-- What the body leaves in the output window's staging buffer: its pieces read back. -/
def out4_4 (c : Dev nD) (i : grid4.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond4_0 i) (hc1 : cond4_1 i)
    (x0 : Vec F S1x5000x128 .f32) (x1 : Vec F S1x5000x1 .f32) (x2 : Vec F S1x128x64 .f32) (x3 : Vec F S1x1x64 .f32) : Vec F S5000x64 .f32 :=
  VO4.read (Elt F) (VO4.writes (Elt F) VO4.junk (kernelRun4 c i arg2 harg2 arg3 harg3 arg4 harg4 arg5 harg5 arg6 harg6 arg7 harg7 hc0 hc1 x0 x1 x2 x3).1)

/-- The pieces the run stores into the accumulator cover it (whole-block stores). -/
theorem scover4_0 (c : Dev nD) (i : grid4.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond4_0 i) (hc1 : cond4_1 i)
    (x0 : Vec F S1x5000x128 .f32) (x1 : Vec F S1x5000x1 .f32) (x2 : Vec F S1x128x64 .f32) (x3 : Vec F S1x1x64 .f32) (y : S5000x64.Idx) :
    ∃ pc ∈ (kernelRun4 c i arg2 harg2 arg3 harg3 arg4 harg4 arg5 harg5 arg6 harg6 arg7 harg7 hc0 hc1 x0 x1 x2 x3).2.1, y ∈ pc.1.set :=
  View.cover_of_tiledL (kernelRun4 c i arg2 harg2 arg3 harg3 arg4 harg4 arg5 harg5 arg6 harg6 arg7 harg7 hc0 hc1 x0 x1 x2 x3).2.1 S5000x64.size (by sl_kernel_rfl) y

/-- What the body leaves in the accumulator: its pieces read back. -/
def sout4_0 (c : Dev nD) (i : grid4.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond4_0 i) (hc1 : cond4_1 i)
    (x0 : Vec F S1x5000x128 .f32) (x1 : Vec F S1x5000x1 .f32) (x2 : Vec F S1x128x64 .f32) (x3 : Vec F S1x1x64 .f32) : Vec F S5000x64 .f32 :=
  VS4.read (Elt F) (VS4.writes (Elt F) VS4.junk (kernelRun4 c i arg2 harg2 arg3 harg3 arg4 harg4 arg5 harg5 arg6 harg6 arg7 harg7 hc0 hc1 x0 x1 x2 x3).2.1)

/-- The output block after the body at point `t`, from the point's input blocks. -/
def outAt4 (c : Dev nD) (t : Fin cfg4.N) : Vec F S5000x64 .f32 :=
  out4_4 c (grid4.coords t) (ms4_0 t) (hs4_0 t) (ms4_1 t) (hs4_1 t) (ms4_2 t) (hs4_2 t) (ms4_3 t) (hs4_3 t) (ms4_4 t) (hs4_4 t) scM4 (Memref.isWhole_whole _) (hcond4_0 t) (hcond4_1 t) (iblk4 V c 0 t) (iblk4 V c 1 t) (iblk4 V c 2 t) (iblk4 V c 3 t)

/-- The accumulator after the body at point `t`, from the point's input blocks. -/
def accAt4 (c : Dev nD) (t : Fin cfg4.N) : Vec F S5000x64 .f32 :=
  sout4_0 c (grid4.coords t) (ms4_0 t) (hs4_0 t) (ms4_1 t) (hs4_1 t) (ms4_2 t) (hs4_2 t) (ms4_3 t) (hs4_3 t) (ms4_4 t) (hs4_4 t) scM4 (Memref.isWhole_whole _) (hcond4_0 t) (hcond4_1 t) (iblk4 V c 0 t) (iblk4 V c 1 t) (iblk4 V c 2 t) (iblk4 V c 3 t)

/-! ## The invariant -/

/-- The region invariant before position `n`: before the first point what the launch hands over (`ΦA`); after point
    `n` the accumulator at what that point left in it, the kernel's other scoped buffers unopened and the generator
    register at some state. -/
def PhiS4 (c : Dev nD) : (n : ℕ) → n ≤ cfg4.N → sProp 𝕄
  | 0, _ => Pipeline.ΦA spec4 c
  | n + 1, hn => iprop(iprop(owns (c : Thread nD τ) scM4 fullShare (accAt4 V c ⟨n, hn⟩)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (accAt4 V c ⟨n, hn⟩)
      ∗ Pipeline.scopedRestBut (Ix := Unit) (Name := ℕ) (U := UR sig nD τ) (Lvl := ℕ) (Val := Elt F) spec4 c [cc4_scratch0]) ∗ (∃ r, prngReg c r)) := rfl

/-! ## The pipeline's proof data -/

/-- The proof data of pipeline 4 on core `c`: the arrays as the region finds them (`V`); after the body at point
    `t` each input's buffer at its block and the output's at `outAt4`; the invariant `PhiS4`; nothing owed; full
    shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outAt4 V c t
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = outAt4 V c t := by dsimp only [dat4]

/-- Every array is held at the full share. -/
theorem share4 (c : Dev nD) : ∀ w, (dat4 V c).share w = fullShare := (dat4 V c).share_full fun _ => rfl

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at the region's point: the inputs' memrefs hold their blocks; the invariant hands the body the
    accumulator at some contents (the point is the first) and takes it back at this point's contents; the output
    buffer comes back at its pieces read back; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hz : t.val = 0 := by have hN : t.val < 1 := lt_of_lt_of_eq t.isLt (show cfg4.N = 1 from N_4); omega
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  unfold outAt4 accAt4 out4_4 sout4_0; (try dsimp only)
  rw [PhiS4_castSucc V c t, PhiS4_zero V c _ _ hz, PhiA4_eq]
  iintro ⟨⟨⟨HS0, Hrest⟩, Hg⟩, Ho, ⟨%d0, H0⟩, ⟨%d1, H1⟩, ⟨%d2, H2⟩, ⟨%d3, H3⟩, ⟨%d4, H4⟩⟩
  iapply ((kernelRun4 c (grid4.coords t) _ _ _ _ _ _ _ _ _ _ _ _ (hcond4_0 t) (hcond4_1 t) (iblk4 V c 0 t) (iblk4 V c 1 t) (iblk4 V c 2 t) (iblk4 V c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hrest Hg]
  · isplitl [HS0 Hrest]
    · isplitl [HS0]
      · unfold owns; iexists _; isplitr
        swap; · iexact HS0
        ipureintro; exact View.read_writes_of_cover _ _ _ _ _ (scover4_0 c _ _ _ _ _ _ _ _ _ _ _ _ _ _ _ _ _ _ _)
      iexact Hrest
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover4_4 c _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region (`ΦA`) is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- Before a position that is not the first: the accumulator at what the point before left. -/
theorem PhiS4_pos (c : Dev nD) (n : ℕ) (h : n ≤ cfg4.N) (hz : n ≠ 0) :
    PhiS4 V c n h = iprop(iprop(owns (c : Thread nD τ) scM4 fullShare (accAt4 V c ⟨n - 1, by omega⟩)
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- After any point the invariant gives `ΦA` back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hrest⟩, Hg⟩
  isplitl [HS0 Hrest]
  · isplitl [HS0]
    · iexists _; iexact HS0
    iexact Hrest
  iexact Hg

/-- The same after the last point. -/
theorem hout4 (c : Dev nD) : (dat4 V c).Φ (Fin.last cfg4.N) ⊢ Pipeline.ΦA spec4 c :=
  Phi_out4 V c _ (by rw [Fin.val_last]; have : cfg4.N = 1 := N_4; omega)

end Cert.KernelIdeal.Hand

end
-- ==== Proof.KI.Reg5Runs.lean ====
import proofs.«166004_j3839700763193_1_alg».proof.Proof.Gen.KernelIdeal.Launch
import proofs.«166004_j3839700763193_1_alg».proof.Proof.Gen.KernelIdeal.Skeleton
import proofs.«166004_j3839700763193_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: what the three control cases share

The grid is 20 × 3: point `t = 3·n + r` is reduction step `r` of row block `n`. -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, for any proof data whose array is the
    entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, for any proof data whose array is the
    entry contents and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, for any proof data whose array is the
    entry contents and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, for any proof data whose array is the
    entry contents and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's two conditionals, in closed form over the grid -/

/-- The first conditional (reduction step 0: the accumulator is zeroed). -/
abbrev cond5_0 (i : grid5.Coords) : Prop := (Scalar.cmpi .ne (Scalar.extui (Scalar.cmpi .eq (BitVec.ofNat 32 (i 1).val) 0#32)) 0#32) = 1#1
/-- It holds exactly at the points `t ≡ 0 (mod 3)`. -/
theorem hcond5_0 : ∀ t : Fin cfg5.N, cond5_0 (grid5.coords t) ↔ t.val % 3 = 0 :=
  (by decide +kernel : ∀ t : Fin grid5.N, cond5_0 (grid5.coords t) ↔ t.val % 3 = 0)

/-- The second conditional (last reduction step: the output block is stored from the accumulator). -/
abbrev cond5_1 (i : grid5.Coords) : Prop := k5_cond2 i = 1#1
/-- It holds exactly at the points `t ≡ 2 (mod 3)`. -/
theorem hcond5_1 : ∀ t : Fin cfg5.N, cond5_1 (grid5.coords t) ↔ t.val % 3 = 2 :=
  (by decide +kernel : ∀ t : Fin grid5.N, cond5_1 (grid5.coords t) ↔ t.val % 3 = 2)

/-! ## Where the windows are idle -/

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
theorem liveAt5_3 : ∀ t : Fin cfg5.N, cfg5.idle 3 (grid5.coords t) = false := fun _ => rfl
/-- Away from the last reduction step the output window is idle: nothing is stored into it, -/
theorem idleAt5_4 : ∀ t : Fin cfg5.N, ¬ t.val % 3 = 2 → cfg5.idle 4 (grid5.coords t) = true :=
  (by decide +kernel : ∀ t : Fin grid5.N, ¬ t.val % 3 = 2 → cfg5.idle 4 (grid5.coords t) = true)
/-- and its block is not written back. -/
theorem noFlush5_4 : ∀ t : Fin cfg5.N, ¬ t.val % 3 = 2 → (cfg5.win 4).flush t = false :=
  (by decide +kernel : ∀ t : Fin grid5.N, ¬ t.val % 3 = 2 → (cfg5.win 4).flush t = false)
/-- At the last reduction step it is live. -/
theorem liveAt5_4 : ∀ t : Fin cfg5.N, t.val % 3 = 2 → cfg5.idle 4 (grid5.coords t) = false :=
  (by decide +kernel : ∀ t : Fin grid5.N, t.val % 3 = 2 → cfg5.idle 4 (grid5.coords t) = false)

/-! ## The staging memrefs and the scratch -/

/-- One staging buffer of the output window, through which its contents are stated. -/
abbrev VO5_4 : View sig .tc .vmem S5000x64 .f32 := (Memref.whole cc5_stg4_0 : Memref sig .tc .vmem S5000x64 .f32).view
/-- Each window's current staging memref at point `t`, spelled as the pipeline passes it, and its wholeness. -/
abbrev ms5_0 (t : Fin cfg5.N) : Memref sig .tc .vmem S1x5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x5000x1 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x1x64 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S5000x64 .f32 := win5_4.stage (cfg5.slots t 4)
abbrev hs5_4 (t : Fin cfg5.N) : (ms5_4 t).IsWhole := hstage5_4 ((cfg5.slots t 4).cast nbuf5_4)
/-- The accumulator: a whole scoped buffer of the kernel's own, passed beside the windows. -/
abbrev scM5_0 : Memref sig .tc .vmem S5000x64 .f32 := Memref.whole cc5_scratch0
/-- The accumulator as a view: what it holds is stated through it. -/
abbrev VS5_0 : View sig .tc .vmem S5000x64 .f32 := scM5_0.view

/-- The other scoped buffers of the core (neither this call's staging buffers nor its accumulator), unopened. -/
abbrev restBut5 (c : Dev nD) : sProp 𝕄 :=
  Pipeline.scopedRestBut (Ix := Unit) (Name := ℕ) (U := UR sig nD τ) (Lvl := ℕ) (Val := Elt F) spec5 c [cc5_scratch0]

/-- The region invariant with the accumulator as a memref owned at some contents. -/
theorem PhiA5_eq (c : Dev nD) :
    (Pipeline.ΦA spec5 c : sProp 𝕄)
      = iprop(iprop(iprop((∃ d, owns (c : Thread nD τ) scM5_0 fullShare d)) ∗ restBut5 (F := F) c) ∗ (∃ r, prngReg c r)) := by
  unfold Pipeline.ΦA; rw [scopedRest5_split]; simp only [scM5_0, owns_whole]; try rfl

end Cert.KernelIdeal.Hand

end
-- ==== Proof.KI.Reg5RunA.lean ====
import proofs.«166004_j3839700763193_1_alg».proof.Proof.KI.Reg5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in case A (first reduction step: the accumulator is zeroed, then one contribution is added; the output window is left untouched): on whole staging memrefs — the inputs' at their contents `x·`, the accumulator at anything, the output's at contents `xi4` handed back untouched — the body
    runs to the continuation holding the inputs' as they were and each buffer it stored into with its pieces written
    (`L4` the output's, `LS0` the accumulator's; last store first). The pieces are the witness the run finds. -/
noncomputable def kernelRun5_A (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond5_0 i) (hc1 : ¬cond5_1 i)
    (x0 : Vec F S1x5000x128 .f32) (x1 : Vec F S1x5000x1 .f32) (x2 : Vec F S1x128x64 .f32) (x3 : Vec F S1x1x64 .f32) :
    Σ' (L4 : List (View.Piece (Elt F) S5000x64 .f32)), { LS0 : List (View.Piece (Elt F) S5000x64 .f32) //
      ∀ (xi4 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc5_kernel i arg2 harg2 arg3 harg3 arg4 harg4 arg5 harg5 arg6 harg6 arg7 harg7) K } := by
  refine ⟨[], ?_, fun xi4 E K => ?run⟩
  case run =>
    rw [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.Reg5RunB.lean ====
import proofs.«166004_j3839700763193_1_alg».proof.Proof.KI.Reg5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in case B (middle reduction step: one contribution is added to the accumulator; the output window is left untouched): on whole staging memrefs — the inputs' at their contents `x·`, the accumulator at what the step before left (`xs0`), the output's at contents `xi4` handed back untouched — the body
    runs to the continuation holding the inputs' as they were and each buffer it stored into with its pieces written
    (`L4` the output's, `LS0` the accumulator's; last store first). The pieces are the witness the run finds. -/
noncomputable def kernelRun5_B (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : ¬cond5_1 i)
    (x0 : Vec F S1x5000x128 .f32) (x1 : Vec F S1x5000x1 .f32) (x2 : Vec F S1x128x64 .f32) (x3 : Vec F S1x1x64 .f32) (xs0 : Vec F S5000x64 .f32) :
    Σ' (L4 : List (View.Piece (Elt F) S5000x64 .f32)), { LS0 : List (View.Piece (Elt F) S5000x64 .f32) //
      ∀ (xi4 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc5_kernel i arg2 harg2 arg3 harg3 arg4 harg4 arg5 harg5 arg6 harg6 arg7 harg7) K } := by
  refine ⟨[], ?_, fun xi4 E K => ?run⟩
  case run =>
    rw [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.Reg5RunC.lean ====
import proofs.«166004_j3839700763193_1_alg».proof.Proof.KI.Reg5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in case C (last reduction step: one contribution is added to the accumulator, then the output block is stored from it): on whole staging memrefs — the inputs' at their contents `x·`, the accumulator at what the step before left (`xs0`), the output's at anything — the body
    runs to the continuation holding the inputs' as they were and each buffer it stored into with its pieces written
    (`L4` the output's, `LS0` the accumulator's; last store first). The pieces are the witness the run finds. -/
noncomputable def kernelRun5_C (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : cond5_1 i)
    (x0 : Vec F S1x5000x128 .f32) (x1 : Vec F S1x5000x1 .f32) (x2 : Vec F S1x128x64 .f32) (x3 : Vec F S1x1x64 .f32) (xs0 : Vec F S5000x64 .f32) :
    Σ' (L4 : List (View.Piece (Elt F) S5000x64 .f32)), { LS0 : List (View.Piece (Elt F) S5000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc5_kernel i arg2 harg2 arg3 harg3 arg4 harg4 arg5 harg5 arg6 harg6 arg7 harg7) K } := by
  refine ⟨?_, ?_, fun E K => ?run⟩
  case run =>
    rw [cc5_kernel_eq_skeleton]; unfold cc5_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Reg5Val.lean ====
import proofs.«166004_j3839700763193_1_alg».proof.Proof.KI.Reg5RunA
import proofs.«166004_j3839700763193_1_alg».proof.Proof.KI.Reg5RunB
import proofs.«166004_j3839700763193_1_alg».proof.Proof.KI.Reg5RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: what each control case leaves in the accumulator and in the output block

Every store of the body is of a whole buffer, through the rectangle at zero offsets of the buffer's own sizes; a
load through it reads the contents, and the last store through it leaves its payload. -/

private theorem zero2 : (![0, 0] : Fin 2 → ℕ) = fun _ => 0 := by funext a; fin_cases a <;> rfl
private theorem zero3 : (![0, 0, 0] : Fin 3 → ℕ) = fun _ => 0 := by funext a; fin_cases a <;> rfl

/-- Case A: the accumulator's last store is of the whole buffer, so its pieces cover it. -/
theorem scover5_A (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond5_0 i) (hc1 : ¬cond5_1 i)
    (x0 : Vec F S1x5000x128 .f32) (x1 : Vec F S1x5000x1 .f32) (x2 : Vec F S1x128x64 .f32) (x3 : Vec F S1x1x64 .f32) (y : S5000x64.Idx) :
    ∃ pc ∈ (kernelRun5_A c i arg2 harg2 arg3 harg3 arg4 harg4 arg5 harg5 arg6 harg6 arg7 harg7 hc0 hc1 x0 x1 x2 x3).2.1, y ∈ pc.1.set := by
  unfold kernelRun5_A; dsimp only
  sl_unfold_run_names
  exact ⟨_, List.mem_cons_self, View.mem_set_unit_zero (S := S5000x64) zero2 inb_S5000x64_S5000x64_0_0 y⟩

/-- Case A: what the accumulator's pieces amount to — one contribution added to zeros. -/
theorem cval5_A (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond5_0 i) (hc1 : ¬cond5_1 i)
    (x0 : Vec F S1x5000x128 .f32) (x1 : Vec F S1x5000x1 .f32) (x2 : Vec F S1x128x64 .f32) (x3 : Vec F S1x1x64 .f32) :
    View.canon (kernelRun5_A c i arg2 harg2 arg3 harg3 arg4 harg4 arg5 harg5 arg6 harg6 arg7 harg7 hc0 hc1 x0 x1 x2 x3).2.1 = k5_pay2 x0 x1 x2 k5_pay1 x3 := by
  unfold kernelRun5_A; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x64) zero3,
    View.ld_unit_zero (S := S1x1x64) zero3, View.ld_unit_zero (S := S5000x64) zero2]

/-- Case A: the accumulator read back through any view, over any prior contents. -/
theorem sval5_A (v : View sig .tc .vmem S5000x64 .f32) (f : v.ty.Contents (Elt F)) (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond5_0 i) (hc1 : ¬cond5_1 i)
    (x0 : Vec F S1x5000x128 .f32) (x1 : Vec F S1x5000x1 .f32) (x2 : Vec F S1x128x64 .f32) (x3 : Vec F S1x1x64 .f32) :
    v.read (Elt F) (v.writes (Elt F) f (kernelRun5_A c i arg2 harg2 arg3 harg3 arg4 harg4 arg5 harg5 arg6 harg6 arg7 harg7 hc0 hc1 x0 x1 x2 x3).2.1) = k5_pay2 x0 x1 x2 k5_pay1 x3 :=
  (View.read_writes_eq_canon v f _ (scover5_A c i arg2 harg2 arg3 harg3 arg4 harg4 arg5 harg5 arg6 harg6 arg7 harg7 hc0 hc1 x0 x1 x2 x3)).trans (cval5_A c i arg2 harg2 arg3 harg3 arg4 harg4 arg5 harg5 arg6 harg6 arg7 harg7 hc0 hc1 x0 x1 x2 x3)

/-- Case B: the accumulator's last store is of the whole buffer, so its pieces cover it. -/
theorem scover5_B (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : ¬cond5_1 i)
    (x0 : Vec F S1x5000x128 .f32) (x1 : Vec F S1x5000x1 .f32) (x2 : Vec F S1x128x64 .f32) (x3 : Vec F S1x1x64 .f32) (xs0 : Vec F S5000x64 .f32) (y : S5000x64.Idx) :
    ∃ pc ∈ (kernelRun5_B c i arg2 harg2 arg3 harg3 arg4 harg4 arg5 harg5 arg6 harg6 arg7 harg7 hc0 hc1 x0 x1 x2 x3 xs0).2.1, y ∈ pc.1.set := by
  unfold kernelRun5_B; dsimp only
  sl_unfold_run_names
  exact ⟨_, List.mem_cons_self, View.mem_set_unit_zero (S := S5000x64) zero2 inb_S5000x64_S5000x64_0_0 y⟩

/-- Case B: what the accumulator's pieces amount to — one contribution added to what the step before left. -/
theorem cval5_B (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : ¬cond5_1 i)
    (x0 : Vec F S1x5000x128 .f32) (x1 : Vec F S1x5000x1 .f32) (x2 : Vec F S1x128x64 .f32) (x3 : Vec F S1x1x64 .f32) (xs0 : Vec F S5000x64 .f32) :
    View.canon (kernelRun5_B c i arg2 harg2 arg3 harg3 arg4 harg4 arg5 harg5 arg6 harg6 arg7 harg7 hc0 hc1 x0 x1 x2 x3 xs0).2.1 = k5_pay2 x0 x1 x2 xs0 x3 := by
  unfold kernelRun5_B; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x64) zero3,
    View.ld_unit_zero (S := S1x1x64) zero3, View.ld_unit_zero (S := S5000x64) zero2]

/-- Case B: the accumulator read back through any view, over any prior contents. -/
theorem sval5_B (v : View sig .tc .vmem S5000x64 .f32) (f : v.ty.Contents (Elt F)) (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : ¬cond5_1 i)
    (x0 : Vec F S1x5000x128 .f32) (x1 : Vec F S1x5000x1 .f32) (x2 : Vec F S1x128x64 .f32) (x3 : Vec F S1x1x64 .f32) (xs0 : Vec F S5000x64 .f32) :
    v.read (Elt F) (v.writes (Elt F) f (kernelRun5_B c i arg2 harg2 arg3 harg3 arg4 harg4 arg5 harg5 arg6 harg6 arg7 harg7 hc0 hc1 x0 x1 x2 x3 xs0).2.1) = k5_pay2 x0 x1 x2 xs0 x3 :=
  (View.read_writes_eq_canon v f _ (scover5_B c i arg2 harg2 arg3 harg3 arg4 harg4 arg5 harg5 arg6 harg6 arg7 harg7 hc0 hc1 x0 x1 x2 x3 xs0)).trans (cval5_B c i arg2 harg2 arg3 harg3 arg4 harg4 arg5 harg5 arg6 harg6 arg7 harg7 hc0 hc1 x0 x1 x2 x3 xs0)

/-- Case C: the accumulator's last store is of the whole buffer, so its pieces cover it. -/
theorem scover5_C (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : cond5_1 i)
    (x0 : Vec F S1x5000x128 .f32) (x1 : Vec F S1x5000x1 .f32) (x2 : Vec F S1x128x64 .f32) (x3 : Vec F S1x1x64 .f32) (xs0 : Vec F S5000x64 .f32) (y : S5000x64.Idx) :
    ∃ pc ∈ (kernelRun5_C c i arg2 harg2 arg3 harg3 arg4 harg4 arg5 harg5 arg6 harg6 arg7 harg7 hc0 hc1 x0 x1 x2 x3 xs0).2.1, y ∈ pc.1.set := by
  unfold kernelRun5_C; dsimp only
  sl_unfold_run_names
  exact ⟨_, List.mem_cons_self, View.mem_set_unit_zero (S := S5000x64) zero2 inb_S5000x64_S5000x64_0_0 y⟩

/-- Case C: what the accumulator's pieces amount to — one contribution added to what the step before left. -/
theorem cval5_C (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : cond5_1 i)
    (x0 : Vec F S1x5000x128 .f32) (x1 : Vec F S1x5000x1 .f32) (x2 : Vec F S1x128x64 .f32) (x3 : Vec F S1x1x64 .f32) (xs0 : Vec F S5000x64 .f32) :
    View.canon (kernelRun5_C c i arg2 harg2 arg3 harg3 arg4 harg4 arg5 harg5 arg6 harg6 arg7 harg7 hc0 hc1 x0 x1 x2 x3 xs0).2.1 = k5_pay2 x0 x1 x2 xs0 x3 := by
  unfold kernelRun5_C; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x64) zero3,
    View.ld_unit_zero (S := S1x1x64) zero3, View.ld_unit_zero (S := S5000x64) zero2]

/-- Case C: the accumulator read back through any view, over any prior contents. -/
theorem sval5_C (v : View sig .tc .vmem S5000x64 .f32) (f : v.ty.Contents (Elt F)) (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : cond5_1 i)
    (x0 : Vec F S1x5000x128 .f32) (x1 : Vec F S1x5000x1 .f32) (x2 : Vec F S1x128x64 .f32) (x3 : Vec F S1x1x64 .f32) (xs0 : Vec F S5000x64 .f32) :
    v.read (Elt F) (v.writes (Elt F) f (kernelRun5_C c i arg2 harg2 arg3 harg3 arg4 harg4 arg5 harg5 arg6 harg6 arg7 harg7 hc0 hc1 x0 x1 x2 x3 xs0).2.1) = k5_pay2 x0 x1 x2 xs0 x3 :=
  (View.read_writes_eq_canon v f _ (scover5_C c i arg2 harg2 arg3 harg3 arg4 harg4 arg5 harg5 arg6 harg6 arg7 harg7 hc0 hc1 x0 x1 x2 x3 xs0)).trans (cval5_C c i arg2 harg2 arg3 harg3 arg4 harg4 arg5 harg5 arg6 harg6 arg7 harg7 hc0 hc1 x0 x1 x2 x3 xs0)

/-- Case C: the output block's one store is of the whole buffer. -/
theorem ocover5_C (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : cond5_1 i)
    (x0 : Vec F S1x5000x128 .f32) (x1 : Vec F S1x5000x1 .f32) (x2 : Vec F S1x128x64 .f32) (x3 : Vec F S1x1x64 .f32) (xs0 : Vec F S5000x64 .f32) (y : S5000x64.Idx) :
    ∃ pc ∈ (kernelRun5_C c i arg2 harg2 arg3 harg3 arg4 harg4 arg5 harg5 arg6 harg6 arg7 harg7 hc0 hc1 x0 x1 x2 x3 xs0).1, y ∈ pc.1.set := by
  unfold kernelRun5_C; dsimp only
  sl_unfold_run_names
  exact ⟨_, List.mem_cons_self, View.mem_set_unit_zero (S := S5000x64) zero2 inb_S5000x64_S5000x64_0_0 y⟩

/-- Case C: the output block is the finished accumulator. -/
theorem oval5_C_canon (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : cond5_1 i)
    (x0 : Vec F S1x5000x128 .f32) (x1 : Vec F S1x5000x1 .f32) (x2 : Vec F S1x128x64 .f32) (x3 : Vec F S1x1x64 .f32) (xs0 : Vec F S5000x64 .f32) :
    View.canon (kernelRun5_C c i arg2 harg2 arg3 harg3 arg4 harg4 arg5 harg5 arg6 harg6 arg7 harg7 hc0 hc1 x0 x1 x2 x3 xs0).1 = k5_pay2 x0 x1 x2 xs0 x3 := by
  unfold kernelRun5_C; dsimp only
  sl_unfold_run_names
  rw [View.canon_cons_unit_zero zero2]
  simp only [View.readAt_eq_ld, harg2.read_unread, harg3.read_unread, harg4.read_unread, harg5.read_unread, harg6.read_unread, harg7.read_unread,
    View.readCov_cons_toLoadRect,
    View.ld_unit_zero (S := S1x5000x128) zero3, View.ld_unit_zero (S := S1x5000x1) zero3, View.ld_unit_zero (S := S1x128x64) zero3,
    View.ld_unit_zero (S := S1x1x64) zero3, View.ld_unit_zero (S := S5000x64) zero2]

/-- Case C: the output block read back through any view, over any prior contents. -/
theorem oval5_C (v : View sig .tc .vmem S5000x64 .f32) (f : v.ty.Contents (Elt F)) (c : Dev nD) (i : grid5.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : ¬cond5_0 i) (hc1 : cond5_1 i)
    (x0 : Vec F S1x5000x128 .f32) (x1 : Vec F S1x5000x1 .f32) (x2 : Vec F S1x128x64 .f32) (x3 : Vec F S1x1x64 .f32) (xs0 : Vec F S5000x64 .f32) :
    v.read (Elt F) (v.writes (Elt F) f (kernelRun5_C c i arg2 harg2 arg3 harg3 arg4 harg4 arg5 harg5 arg6 harg6 arg7 harg7 hc0 hc1 x0 x1 x2 x3 xs0).1) = k5_pay2 x0 x1 x2 xs0 x3 :=
  (View.read_writes_eq_canon v f _ (ocover5_C c i arg2 harg2 arg3 harg3 arg4 harg4 arg5 harg5 arg6 harg6 arg7 harg7 hc0 hc1 x0 x1 x2 x3 xs0)).trans (oval5_C_canon c i arg2 harg2 arg3 harg3 arg4 harg4 arg5 harg5 arg6 harg6 arg7 harg7 hc0 hc1 x0 x1 x2 x3 xs0)

end Cert.KernelIdeal.Hand

end
-- ==== Proof.KI.Reg5.lean ====
import proofs.«166004_j3839700763193_1_alg».proof.Proof.KI.Reg5Val

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the proof data and the body obligation

The grid is 20 × 3, point `t = 3·n + r`. At `r = 0` the accumulator is zeroed; at every `r` one relation's contribution
`(agg·inv) @ W + b` is added to it; at `r = 2` the output block `n` is stored from it and written back. -/

/-! ## The accumulator, point by point -/

/-- One reduction step at point `t`: the contribution of the point's four input blocks added to `a`. -/
def step5 (c : Dev nD) (t : Fin cfg5.N) (a : Vec F S5000x64 .f32) : Vec F S5000x64 .f32 :=
  k5_pay2 (iblk5 V c 0 t) (iblk5 V c 1 t) (iblk5 V c 2 t) a (iblk5 V c 3 t)

/-- What the accumulator holds after the body at position `n`: a step from zeros where `n ≡ 0 (mod 3)`, else a step
    from what the position before left. -/
def acc5 (c : Dev nD) : (n : ℕ) → n < cfg5.N → Vec F S5000x64 .f32
  | 0, hn => step5 V c ⟨0, hn⟩ k5_pay1
  | n + 1, hn =>
    if (n + 1) % 3 = 0 then step5 V c ⟨n + 1, hn⟩ k5_pay1
    else step5 V c ⟨n + 1, hn⟩ (acc5 c n (Nat.lt_of_succ_lt hn))

/-- At a first reduction step the accumulator restarts from zeros. -/
theorem acc5_first (c : Dev nD) (t : Fin cfg5.N) (h0 : t.val % 3 = 0) :
    acc5 V c t.val t.isLt = step5 V c t k5_pay1 := by
  obtain ⟨n, hn⟩ := t
  cases n with
  | zero => rfl
  | succ n => exact if_pos h0

/-- At a later reduction step it continues from the point before. -/
theorem acc5_next (c : Dev nD) (t : Fin cfg5.N) (h0 : ¬t.val % 3 = 0) :
    acc5 V c t.val t.isLt = step5 V c t (acc5 V c (t.val - 1) (Nat.lt_of_le_of_lt (Nat.sub_le _ _) t.isLt)) := by
  obtain ⟨n, hn⟩ := t
  cases n with
  | zero => exact absurd (Nat.zero_mod _) h0
  | succ n => exact if_neg h0

/-- What the output window's staging buffer holds after the body at point `t` (read only where `t ≡ 2 (mod 3)`:
    elsewhere the window is idle and not written back): the accumulator. -/
def out5 (c : Dev nD) (t : Fin cfg5.N) : Vec F S5000x64 .f32 := acc5 V c t.val t.isLt

/-! ## The invariant carrying the accumulator -/

/-- Before position `n`: at the region's entry the launch's invariant (the accumulator at anything); afterwards the
    accumulator at what the position before left, the other scoped buffers unopened, the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare (acc5 V c n hn)) ∗ restBut5 (F := F) c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare (acc5 V c n hn)) ∗ restBut5 (F := F) c) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare (acc5 V c (n - 1) (by omega))) ∗ restBut5 (F := F) c) ∗ (∃ r, prngReg c r)) := by
  cases n with
  | zero => exact absurd rfl hz
  | succ n => rfl

/-! ## The proof data -/

/-- The proof data of pipeline 5 on core `c`, at the region's entry contents `V`: the arrays as the region finds them;
    after the body each input's buffer at its block and the output's at `out5`; the invariant `PhiS5`; nothing owed;
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5 V c t
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

/-- Every array is held at the full share. -/
theorem share5 (c : Dev nD) : ∀ w, (dat5 V c).share w = fullShare := (dat5 V c).share_full fun _ => rfl

theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5 V c t := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in
/-- The body at any point: the inputs' memrefs hold their blocks; `t % 3` says which case the point is in; the invariant
    hands the body the accumulator at what the point before left (at anything at the region's first point) and takes
    it back at this point's contents; the output's buffer is handed back untouched at the idle points and holds
    `out5` at the last reduction step; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  have hN : t.val < 60 := lt_of_lt_of_eq t.isLt (show cfg5.N = 60 from N_5)
  by_cases h0 : t.val % 3 = 0
  · have h2 : ¬t.val % 3 = 2 := by omega
    rw [Dat.leavesExact_idle (dat5 V c) 4 t (idleAt5_4 t h2) (noFlush5_4 t h2)]
    rw [acc5_first V c t h0]; unfold step5
    by_cases hz : t.val = 0
    · rw [PhiS5_castSucc V c t, PhiS5_zero V c _ _ hz, PhiA5_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun5_A c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h2 ((hcond5_1 t).mp h)) (iblk5 V c 0 t) (iblk5 V c 1 t) (iblk5 V c 2 t) (iblk5 V c 3 t)).2.2 ((dat5 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact sval5_A scM5_0.view es0 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h2 ((hcond5_1 t).mp h)) (iblk5 V c 0 t) (iblk5 V c 1 t) (iblk5 V c 2 t) (iblk5 V c 3 t)
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS5_castSucc V c t, PhiS5_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun5_A c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h2 ((hcond5_1 t).mp h)) (iblk5 V c 0 t) (iblk5 V c 1 t) (iblk5 V c 2 t) (iblk5 V c 3 t)).2.2 ((dat5 V c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact sval5_A scM5_0.view es0 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h2 ((hcond5_1 t).mp h)) (iblk5 V c 0 t) (iblk5 V c 1 t) (iblk5 V c 2 t) (iblk5 V c 3 t)
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiS5_castSucc V c t, PhiS5_pos V c _ _ hz]
    rw [acc5_next V c t h0]; unfold step5
    by_cases h2 : t.val % 3 = 2
    · rw [show (dat5 V c).leavesExact 4 t = owns (c : Thread nD τ) (ms5_4 t) fullShare ((dat5 V c).after 4 t) from by
        unfold Dat.leavesExact; rw [liveAt5_4 t h2], after5_4]
      unfold out5; rw [acc5_next V c t h0]; unfold step5
      iintro ⟨⟨⟨HS0, Hr⟩, Hg⟩, Ho, ⟨%d0, H0⟩, ⟨%d1, H1⟩, ⟨%d2, H2⟩, ⟨%d3, H3⟩, ⟨%d4, H4⟩⟩
      iapply ((kernelRun5_C c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h2) (iblk5 V c 0 t) (iblk5 V c 1 t) (iblk5 V c 2 t) (iblk5 V c 3 t) (acc5 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact sval5_C scM5_0.view es0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h2) (iblk5 V c 0 t) (iblk5 V c 1 t) (iblk5 V c 2 t) (iblk5 V c 3 t) (acc5 V c (t.val - 1) (Nat.lt_of_le_of_lt (Nat.sub_le _ _) t.isLt))
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact oval5_C (ms5_4 t).view e4 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h2) (iblk5 V c 0 t) (iblk5 V c 1 t) (iblk5 V c 2 t) (iblk5 V c 3 t) (acc5 V c (t.val - 1) (Nat.lt_of_le_of_lt (Nat.sub_le _ _) t.isLt))
    · rw [Dat.leavesExact_idle (dat5 V c) 4 t (idleAt5_4 t h2) (noFlush5_4 t h2)]
      iintro ⟨⟨⟨HS0, Hr⟩, Hg⟩, Ho, ⟨%d0, H0⟩, ⟨%d1, H1⟩, ⟨%d2, H2⟩, ⟨%d3, H3⟩, ⟨%d4, H4⟩⟩
      iapply ((kernelRun5_B c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (fun h => h2 ((hcond5_1 t).mp h)) (iblk5 V c 0 t) (iblk5 V c 1 t) (iblk5 V c 2 t) (iblk5 V c 3 t) (acc5 V c (t.val - 1) (Nat.lt_of_le_of_lt (Nat.sub_le _ _) t.isLt))).2.2 ((dat5 V c).before 4 t d4) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact sval5_B scM5_0.view es0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (fun h => h2 ((hcond5_1 t).mp h)) (iblk5 V c 0 t) (iblk5 V c 1 t) (iblk5 V c 2 t) (iblk5 V c 3 t) (acc5 V c (t.val - 1) (Nat.lt_of_le_of_lt (Nat.sub_le _ _) t.isLt))
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the launch's back: the accumulator's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, Hr⟩, Hg⟩
  isplitl [HS0 Hr]
  · isplitl [HS0]
    · iexists _; iexact HS0
    iexact Hr
  iexact Hg

/-- The same after the last point. -/
theorem hout5 (c : Dev nD) : (dat5 V c).Φ (Fin.last cfg5.N) ⊢ Pipeline.ΦA spec5 c :=
  Phi_out5 V c _ (by rw [Fin.val_last]; have : cfg5.N = 60 := N_5; omega)

/-! ## The output block at a point that writes it back -/

/-- At the last reduction step `t = 3·n + 2` the output's staging buffer holds the three relations'
    contributions added in order to zeros: the steps at `t - 2`, `t - 1`, `t`. -/
theorem after5_4_flush (c : Dev nD) (t : Fin cfg5.N) (h2 : t.val % 3 = 2) :
    (dat5 V c).after 4 t = (step5 V c t (step5 V c ⟨t.val - 1, by omega⟩ (step5 V c ⟨t.val - 2, by omega⟩ k5_pay1))) := by
  rw [after5_4]; unfold out5
  have e2 : acc5 V c t.val t.isLt = step5 V c t (acc5 V c (t.val - 1) (Nat.lt_of_le_of_lt (Nat.sub_le _ _) t.isLt)) := acc5_next V c t (by omega)
  have e1 : (acc5 V c (t.val - 1) (Nat.lt_of_le_of_lt (Nat.sub_le _ _) t.isLt)) = step5 V c ⟨t.val - 1, by omega⟩ (acc5 V c (t.val - 1 - 1) (by omega)) :=
    acc5_next V c ⟨t.val - 1, by omega⟩ (by show ¬(t.val - 1) % 3 = 0; omega)
  have e0 : acc5 V c (t.val - 1 - 1) (by omega) = step5 V c ⟨t.val - 1 - 1, by omega⟩ k5_pay1 :=
    acc5_first V c ⟨t.val - 1 - 1, by omega⟩ (by show (t.val - 1 - 1) % 3 = 0; omega)
  rw [e2, e1, e0]
  have e : (⟨t.val - 1 - 1, by omega⟩ : Fin cfg5.N) = ⟨t.val - 2, by omega⟩ := Fin.ext (by show t.val - 1 - 1 = t.val - 2; omega)
  rw [e]

end Cert.KernelIdeal.Hand

end
-- ==== Proof.KI.Frame.lean ====
/- The frame of the idealized kernel program: @main as six host stretches and six kernel regions. Between two items every
   unscoped buffer of a core is held whole at a named valuation: the launch contents, then each host stretch's operations
   applied, then, after a region, the same contents with the region's output array at the fold of the write-backs of its
   output window over the grid. Each region is entered by splitting its five arrays out of the unscoped buffers, runs its
   pipeline under the region's proof data (the scratch accumulator and the generator register travel inside the region's
   invariant), and puts the arrays back. Nothing is owed at any boundary. The arguments are written by no stretch and by no
   region, so they end as launched; the two results end at the last valuation. -/
import proofs.«166004_j3839700763193_1_alg».proof.Proof.Gen.KernelIdeal.Regions
import proofs.«166004_j3839700763193_1_alg».proof.Proof.Gen.KernelIdeal.Points
import proofs.«166004_j3839700763193_1_alg».proof.Proof.KI.Reg0
import proofs.«166004_j3839700763193_1_alg».proof.Proof.KI.Reg1
import proofs.«166004_j3839700763193_1_alg».proof.Proof.KI.Reg2
import proofs.«166004_j3839700763193_1_alg».proof.Proof.KI.Reg3
import proofs.«166004_j3839700763193_1_alg».proof.Proof.KI.Reg4
import proofs.«166004_j3839700763193_1_alg».proof.Proof.KI.Reg5
import proofs.«166004_j3839700763193_1_alg».proof.Proof.KI.RegionsVal
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No core owes another anything: no level is assigned. -/
abbrev Lz : GSem nD τ sig → Finset Unit := fun _ => ∅
abbrev lvz : GSem nD τ sig → Unit → ℕ := fun _ _ => 0
/-- What rides beside the buffers through every segment: the core's generator register at some state and its dues, at nothing. -/
abbrev Rz (c : Dev nD) : sProp 𝕄 := iprop((∃ r, prngReg c r) ∗ ∃ W, owes (c : Thread nD τ) (0 : CellTallies nD τ sig Unit) W)

/-- The unscoped buffers of core `c` when region 0 is entered: the launch contents after the first host stretch. -/
def X1 (c : Dev nD) : Valuation τ sig (Elt F) := V1 m c
abbrev T1 : (c : Dev nD) → (b : Ref sig .tc) → Buf (Elt F) ((c : Thread nD τ).loc b) := fun c b => X1 m c b

/-- What region 0 leaves in its output array: the write-backs of its output window folded over the grid. -/
def o2 (c : Dev nD) : Buf (Elt F) ((c : Thread nD τ).loc main_v44) := (dat0 (T1 m) c).arrAt 4 cfg0.N
/-- The unscoped buffers after region 0: as at its entry, its output array at what the region leaves. -/
def X2 (c : Dev nD) : Valuation τ sig (Elt F) := Function.update (X1 m c) main_v44 (o2 m c)
/-- … and after the host stretch that follows it. -/
def X3 (c : Dev nD) : Valuation τ sig (Elt F) := StableHlo.after hostOps1 (X2 m c)
abbrev T3 : (c : Dev nD) → (b : Ref sig .tc) → Buf (Elt F) ((c : Thread nD τ).loc b) := fun c b => X3 m c b

/-- What region 1 leaves in its output array: the write-backs of its output window folded over the grid. -/
def o4 (c : Dev nD) : Buf (Elt F) ((c : Thread nD τ).loc main_v96) := (dat1 (T3 m) c).arrAt 4 cfg1.N
/-- The unscoped buffers after region 1: as at its entry, its output array at what the region leaves. -/
def X4 (c : Dev nD) : Valuation τ sig (Elt F) := Function.update (X3 m c) main_v96 (o4 m c)
/-- … and after the host stretch that follows it. -/
def X5 (c : Dev nD) : Valuation τ sig (Elt F) := StableHlo.after hostOps2 (X4 m c)
abbrev T5 : (c : Dev nD) → (b : Ref sig .tc) → Buf (Elt F) ((c : Thread nD τ).loc b) := fun c b => X5 m c b

/-- What region 2 leaves in its output array: the write-backs of its output window folded over the grid. -/
def o6 (c : Dev nD) : Buf (Elt F) ((c : Thread nD τ).loc main_v116) := (dat2 (T5 m) c).arrAt 4 cfg2.N
/-- The unscoped buffers after region 2: as at its entry, its output array at what the region leaves. -/
def X6 (c : Dev nD) : Valuation τ sig (Elt F) := Function.update (X5 m c) main_v116 (o6 m c)
/-- … and after the host stretch that follows it. -/
def X7 (c : Dev nD) : Valuation τ sig (Elt F) := StableHlo.after hostOps3 (X6 m c)
abbrev T7 : (c : Dev nD) → (b : Ref sig .tc) → Buf (Elt F) ((c : Thread nD τ).loc b) := fun c b => X7 m c b

/-- What region 3 leaves in its output array: the write-backs of its output window folded over the grid. -/
def o8 (c : Dev nD) : Buf (Elt F) ((c : Thread nD τ).loc main_v168) := (dat3 (T7 m) c).arrAt 4 cfg3.N
/-- The unscoped buffers after region 3: as at its entry, its output array at what the region leaves. -/
def X8 (c : Dev nD) : Valuation τ sig (Elt F) := Function.update (X7 m c) main_v168 (o8 m c)
/-- … and after the host stretch that follows it. -/
def X9 (c : Dev nD) : Valuation τ sig (Elt F) := StableHlo.after hostOps4 (X8 m c)
abbrev T9 : (c : Dev nD) → (b : Ref sig .tc) → Buf (Elt F) ((c : Thread nD τ).loc b) := fun c b => X9 m c b

/-- What region 4 leaves in its output array: the write-backs of its output window folded over the grid. -/
def o10 (c : Dev nD) : Buf (Elt F) ((c : Thread nD τ).loc main_v188) := (dat4 (T9 m) c).arrAt 4 cfg4.N
/-- The unscoped buffers after region 4: as at its entry, its output array at what the region leaves. -/
def X10 (c : Dev nD) : Valuation τ sig (Elt F) := Function.update (X9 m c) main_v188 (o10 m c)
/-- … and after the host stretch that follows it. -/
def X11 (c : Dev nD) : Valuation τ sig (Elt F) := StableHlo.after hostOps5 (X10 m c)
abbrev T11 : (c : Dev nD) → (b : Ref sig .tc) → Buf (Elt F) ((c : Thread nD τ).loc b) := fun c b => X11 m c b

/-- What region 5 leaves in its output array: the write-backs of its output window folded over the grid. -/
def o12 (c : Dev nD) : Buf (Elt F) ((c : Thread nD τ).loc main_v240) := (dat5 (T11 m) c).arrAt 4 cfg5.N
/-- The unscoped buffers after region 5: as at its entry, its output array at what the region leaves. -/
def X12 (c : Dev nD) : Valuation τ sig (Elt F) := Function.update (X11 m c) main_v240 (o12 m c)

/-- The contents the regions leave, as the conditional frame wants them: after item J−1 every buffer at the valuation above. -/
def outs : Outs (F := F) := fun J r c => match J with
  | 2 => X2 m c r | 4 => X4 m c r | 6 => X6 m c r | 8 => X8 m c r | 10 => X10 m c r | 12 => X12 m c r | _ => V0 m c r

theorem V1_eq (c : Dev nD) : V1 m c = X1 m c := rfl
theorem V2_eq (c : Dev nD) : V2 m (outs m) c = X2 m c := by
  show Function.update (V1 m c) main_v44 (X2 m c main_v44) = X2 m c
  rw [V1_eq]; unfold X2; rw [Function.update_self]
theorem V3_eq (c : Dev nD) : V3 m (outs m) c = X3 m c := by
  show StableHlo.after hostOps1 (V2 m (outs m) c) = X3 m c
  rw [V2_eq]; rfl
theorem V4_eq (c : Dev nD) : V4 m (outs m) c = X4 m c := by
  show Function.update (V3 m (outs m) c) main_v96 (X4 m c main_v96) = X4 m c
  rw [V3_eq]; unfold X4; rw [Function.update_self]
theorem V5_eq (c : Dev nD) : V5 m (outs m) c = X5 m c := by
  show StableHlo.after hostOps2 (V4 m (outs m) c) = X5 m c
  rw [V4_eq]; rfl
theorem V6_eq (c : Dev nD) : V6 m (outs m) c = X6 m c := by
  show Function.update (V5 m (outs m) c) main_v116 (X6 m c main_v116) = X6 m c
  rw [V5_eq]; unfold X6; rw [Function.update_self]
theorem V7_eq (c : Dev nD) : V7 m (outs m) c = X7 m c := by
  show StableHlo.after hostOps3 (V6 m (outs m) c) = X7 m c
  rw [V6_eq]; rfl
theorem V8_eq (c : Dev nD) : V8 m (outs m) c = X8 m c := by
  show Function.update (V7 m (outs m) c) main_v168 (X8 m c main_v168) = X8 m c
  rw [V7_eq]; unfold X8; rw [Function.update_self]
theorem V9_eq (c : Dev nD) : V9 m (outs m) c = X9 m c := by
  show StableHlo.after hostOps4 (V8 m (outs m) c) = X9 m c
  rw [V8_eq]; rfl
theorem V10_eq (c : Dev nD) : V10 m (outs m) c = X10 m c := by
  show Function.update (V9 m (outs m) c) main_v188 (X10 m c main_v188) = X10 m c
  rw [V9_eq]; unfold X10; rw [Function.update_self]
theorem V11_eq (c : Dev nD) : V11 m (outs m) c = X11 m c := by
  show StableHlo.after hostOps5 (V10 m (outs m) c) = X11 m c
  rw [V10_eq]; rfl
theorem V12_eq (c : Dev nD) : V12 m (outs m) c = X12 m c := by
  show Function.update (V11 m (outs m) c) main_v240 (X12 m c main_v240) = X12 m c
  rw [V11_eq]; unfold X12; rw [Function.update_self]

/-- Every region's proof data, each at its region's entry contents. -/
def pdats : (p : Fin 6) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T5 m) c
  | ⟨3, _⟩ => fun c => dat3 (T7 m) c
  | ⟨4, _⟩ => fun c => dat4 (T9 m) c
  | ⟨5, _⟩ => fun c => dat5 (T11 m) c

/-- At region 0's exit each of its arrays holds what the pipeline leaves: an input window's array is as it was entered,
    the output window's array is the fold of its write-backs. -/
theorem hF0 (c : Dev nD) (w : Fin cfg0.W) : (dat0 (T1 m) c).arrAt w cfg0.N = (fun b : Ref sig .tc => X2 m c b) (Pipeline.arrRef spec0 w) := by
  have hcases : w = 4 ∨ ((cfg0.win w).isOut = false ∧ Pipeline.arrRef spec0 w ≠ main_v44) := by
    revert w; exact (by decide +kernel : ∀ w : Fin cfg0.W, w = 4 ∨ ((cfg0.win w).isOut = false ∧ Pipeline.arrRef spec0 w ≠ main_v44))
  rcases hcases with rfl | ⟨hin, hne⟩
  · show _ = X2 m c _
    unfold X2
    exact (Function.update_self (Proc.devRef (τ := τ) .tc main_v44) (o2 m c) (X1 m c)).symm
  · refine ((dat0 (T1 m) c).arrAt_in w hin _).trans ((A_eq0 (T1 m) c w).trans ?_)
    show X1 m c _ = X2 m c _
    unfold X2
    exact (Function.update_of_ne (StableHlo.devRef_ne_of_ne hne) _ _).symm
/-- … and every other buffer what it held at entry. -/
theorem hrest0 (c : Dev nD) : ∀ b : Ref sig .tc, b ∉ Finset.univ.image (Pipeline.arrRef spec0) → (fun b : Ref sig .tc => X2 m c b) b = T1 m c b := by
  intro b hb
  have hne : b ≠ main_v44 := fun e => hb (Finset.mem_image.mpr ⟨4, Finset.mem_univ _, e.symm ▸ rfl⟩)
  show X2 m c _ = X1 m c _
  unfold X2
  exact Function.update_of_ne (StableHlo.devRef_ne_of_ne hne) _ _

set_option backward.isDefEq.respectTransparency.types false in
/-- Region 0 as a segment: entered from every unscoped buffer at the contents before it, left at the contents after it;
    its arrays are split out of the unscoped buffers and put back at the exit contents; the generator register and the
    kernel's scratch enter the region's invariant and come back; nothing is owed; the kernel has no semaphore of its own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ Lz lvz 0 fun _ _ => rfl
  pre c := iprop(StableHlo.held (c : Thread nD τ) (Pipeline.ucRefs τ sig) (V1 m c) ∗ Rz c)
  post c := iprop(StableHlo.held (c : Thread nD τ) (Pipeline.ucRefs τ sig) (V2 m (outs m) c) ∗ Rz c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none, V1_eq]
    have hsplit := Pipeline.arrays_of_unscopedBufs (p := 0) (pcfgs (F := F)) adm (pdats m) launch0.win launch0.arr_whole c
      (share0 (T1 m) c) (T1 m c) (A_eq0 (T1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (T1 m) c)
    unfold Pipeline.ΦA
    iintro ⟨Hp, -, Hr⟩
    isplitl [Hr]; · iexact Hr
    iexact Hp
  hout c := by
    rw [Pipeline.ownSems0_none]
    refine (hout0 (T1 m) c).trans ?_
    unfold Pipeline.ΦA
    iintro ⟨Hr, Hp⟩
    isplitl [Hp]; · iexact Hp
    isplitr; · iempintro
    iexact Hr
  hexit c := by
    rw [V2_eq]
    have hjoin := Pipeline.unscopedBufs_of_arrays (p := 0) (pcfgs (F := F)) adm (Ix := Unit) (Name := ℕ) (U := UR sig nD τ) (Lvl := ℕ)
      launch0.win launch0.arr_whole c (pdats m) (share0 (T1 m) c)
      (T1 m c) (fun b : Ref sig .tc => X2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves: an input window's array is as it was entered,
    the output window's array is the fold of its write-backs. -/
theorem hF1 (c : Dev nD) (w : Fin cfg1.W) : (dat1 (T3 m) c).arrAt w cfg1.N = (fun b : Ref sig .tc => X4 m c b) (Pipeline.arrRef spec1 w) := by
  have hcases : w = 4 ∨ ((cfg1.win w).isOut = false ∧ Pipeline.arrRef spec1 w ≠ main_v96) := by
    revert w; exact (by decide +kernel : ∀ w : Fin cfg1.W, w = 4 ∨ ((cfg1.win w).isOut = false ∧ Pipeline.arrRef spec1 w ≠ main_v96))
  rcases hcases with rfl | ⟨hin, hne⟩
  · show _ = X4 m c _
    unfold X4
    exact (Function.update_self (Proc.devRef (τ := τ) .tc main_v96) (o4 m c) (X3 m c)).symm
  · refine ((dat1 (T3 m) c).arrAt_in w hin _).trans ((A_eq1 (T3 m) c w).trans ?_)
    show X3 m c _ = X4 m c _
    unfold X4
    exact (Function.update_of_ne (StableHlo.devRef_ne_of_ne hne) _ _).symm
/-- … and every other buffer what it held at entry. -/
theorem hrest1 (c : Dev nD) : ∀ b : Ref sig .tc, b ∉ Finset.univ.image (Pipeline.arrRef spec1) → (fun b : Ref sig .tc => X4 m c b) b = T3 m c b := by
  intro b hb
  have hne : b ≠ main_v96 := fun e => hb (Finset.mem_image.mpr ⟨4, Finset.mem_univ _, e.symm ▸ rfl⟩)
  show X4 m c _ = X3 m c _
  unfold X4
  exact Function.update_of_ne (StableHlo.devRef_ne_of_ne hne) _ _

set_option backward.isDefEq.respectTransparency.types false in
/-- Region 1 as a segment: entered from every unscoped buffer at the contents before it, left at the contents after it;
    its arrays are split out of the unscoped buffers and put back at the exit contents; the generator register and the
    kernel's scratch enter the region's invariant and come back; nothing is owed; the kernel has no semaphore of its own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ Lz lvz 1 fun _ _ => rfl
  pre c := iprop(StableHlo.held (c : Thread nD τ) (Pipeline.ucRefs τ sig) (V3 m (outs m) c) ∗ Rz c)
  post c := iprop(StableHlo.held (c : Thread nD τ) (Pipeline.ucRefs τ sig) (V4 m (outs m) c) ∗ Rz c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none, V3_eq]
    have hsplit := Pipeline.arrays_of_unscopedBufs (p := 1) (pcfgs (F := F)) adm (pdats m) launch1.win launch1.arr_whole c
      (share1 (T3 m) c) (T3 m c) (A_eq1 (T3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (T3 m) c)
    unfold Pipeline.ΦA
    iintro ⟨Hp, -, Hr⟩
    isplitl [Hr]; · iexact Hr
    iexact Hp
  hout c := by
    rw [Pipeline.ownSems0_none]
    refine (hout1 (T3 m) c).trans ?_
    unfold Pipeline.ΦA
    iintro ⟨Hr, Hp⟩
    isplitl [Hp]; · iexact Hp
    isplitr; · iempintro
    iexact Hr
  hexit c := by
    rw [V4_eq]
    have hjoin := Pipeline.unscopedBufs_of_arrays (p := 1) (pcfgs (F := F)) adm (Ix := Unit) (Name := ℕ) (U := UR sig nD τ) (Lvl := ℕ)
      launch1.win launch1.arr_whole c (pdats m) (share1 (T3 m) c)
      (T3 m c) (fun b : Ref sig .tc => X4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves: an input window's array is as it was entered,
    the output window's array is the fold of its write-backs. -/
theorem hF2 (c : Dev nD) (w : Fin cfg2.W) : (dat2 (T5 m) c).arrAt w cfg2.N = (fun b : Ref sig .tc => X6 m c b) (Pipeline.arrRef spec2 w) := by
  have hcases : w = 4 ∨ ((cfg2.win w).isOut = false ∧ Pipeline.arrRef spec2 w ≠ main_v116) := by
    revert w; exact (by decide +kernel : ∀ w : Fin cfg2.W, w = 4 ∨ ((cfg2.win w).isOut = false ∧ Pipeline.arrRef spec2 w ≠ main_v116))
  rcases hcases with rfl | ⟨hin, hne⟩
  · show _ = X6 m c _
    unfold X6
    exact (Function.update_self (Proc.devRef (τ := τ) .tc main_v116) (o6 m c) (X5 m c)).symm
  · refine ((dat2 (T5 m) c).arrAt_in w hin _).trans ((A_eq2 (T5 m) c w).trans ?_)
    show X5 m c _ = X6 m c _
    unfold X6
    exact (Function.update_of_ne (StableHlo.devRef_ne_of_ne hne) _ _).symm
/-- … and every other buffer what it held at entry. -/
theorem hrest2 (c : Dev nD) : ∀ b : Ref sig .tc, b ∉ Finset.univ.image (Pipeline.arrRef spec2) → (fun b : Ref sig .tc => X6 m c b) b = T5 m c b := by
  intro b hb
  have hne : b ≠ main_v116 := fun e => hb (Finset.mem_image.mpr ⟨4, Finset.mem_univ _, e.symm ▸ rfl⟩)
  show X6 m c _ = X5 m c _
  unfold X6
  exact Function.update_of_ne (StableHlo.devRef_ne_of_ne hne) _ _

set_option backward.isDefEq.respectTransparency.types false in
/-- Region 2 as a segment: entered from every unscoped buffer at the contents before it, left at the contents after it;
    its arrays are split out of the unscoped buffers and put back at the exit contents; the generator register and the
    kernel's scratch enter the region's invariant and come back; nothing is owed; the kernel has no semaphore of its own. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ Lz lvz 2 fun _ _ => rfl
  pre c := iprop(StableHlo.held (c : Thread nD τ) (Pipeline.ucRefs τ sig) (V5 m (outs m) c) ∗ Rz c)
  post c := iprop(StableHlo.held (c : Thread nD τ) (Pipeline.ucRefs τ sig) (V6 m (outs m) c) ∗ Rz c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none, V5_eq]
    have hsplit := Pipeline.arrays_of_unscopedBufs (p := 2) (pcfgs (F := F)) adm (pdats m) launch2.win launch2.arr_whole c
      (share2 (T5 m) c) (T5 m c) (A_eq2 (T5 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (T5 m) c)
    unfold Pipeline.ΦA
    iintro ⟨Hp, -, Hr⟩
    isplitl [Hr]; · iexact Hr
    iexact Hp
  hout c := by
    rw [Pipeline.ownSems0_none]
    refine (hout2 (T5 m) c).trans ?_
    unfold Pipeline.ΦA
    iintro ⟨Hr, Hp⟩
    isplitl [Hp]; · iexact Hp
    isplitr; · iempintro
    iexact Hr
  hexit c := by
    rw [V6_eq]
    have hjoin := Pipeline.unscopedBufs_of_arrays (p := 2) (pcfgs (F := F)) adm (Ix := Unit) (Name := ℕ) (U := UR sig nD τ) (Lvl := ℕ)
      launch2.win launch2.arr_whole c (pdats m) (share2 (T5 m) c)
      (T5 m c) (fun b : Ref sig .tc => X6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 3's exit each of its arrays holds what the pipeline leaves: an input window's array is as it was entered,
    the output window's array is the fold of its write-backs. -/
theorem hF3 (c : Dev nD) (w : Fin cfg3.W) : (dat3 (T7 m) c).arrAt w cfg3.N = (fun b : Ref sig .tc => X8 m c b) (Pipeline.arrRef spec3 w) := by
  have hcases : w = 4 ∨ ((cfg3.win w).isOut = false ∧ Pipeline.arrRef spec3 w ≠ main_v168) := by
    revert w; exact (by decide +kernel : ∀ w : Fin cfg3.W, w = 4 ∨ ((cfg3.win w).isOut = false ∧ Pipeline.arrRef spec3 w ≠ main_v168))
  rcases hcases with rfl | ⟨hin, hne⟩
  · show _ = X8 m c _
    unfold X8
    exact (Function.update_self (Proc.devRef (τ := τ) .tc main_v168) (o8 m c) (X7 m c)).symm
  · refine ((dat3 (T7 m) c).arrAt_in w hin _).trans ((A_eq3 (T7 m) c w).trans ?_)
    show X7 m c _ = X8 m c _
    unfold X8
    exact (Function.update_of_ne (StableHlo.devRef_ne_of_ne hne) _ _).symm
/-- … and every other buffer what it held at entry. -/
theorem hrest3 (c : Dev nD) : ∀ b : Ref sig .tc, b ∉ Finset.univ.image (Pipeline.arrRef spec3) → (fun b : Ref sig .tc => X8 m c b) b = T7 m c b := by
  intro b hb
  have hne : b ≠ main_v168 := fun e => hb (Finset.mem_image.mpr ⟨4, Finset.mem_univ _, e.symm ▸ rfl⟩)
  show X8 m c _ = X7 m c _
  unfold X8
  exact Function.update_of_ne (StableHlo.devRef_ne_of_ne hne) _ _

set_option backward.isDefEq.respectTransparency.types false in
/-- Region 3 as a segment: entered from every unscoped buffer at the contents before it, left at the contents after it;
    its arrays are split out of the unscoped buffers and put back at the exit contents; the generator register and the
    kernel's scratch enter the region's invariant and come back; nothing is owed; the kernel has no semaphore of its own. -/
def reg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (body_obligation3 (T7 m) c).loose
  hwaits := Pipeline.hwaits_of_owed_zero _ _ _ _ Lz lvz 3 fun _ _ => rfl
  pre c := iprop(StableHlo.held (c : Thread nD τ) (Pipeline.ucRefs τ sig) (V7 m (outs m) c) ∗ Rz c)
  post c := iprop(StableHlo.held (c : Thread nD τ) (Pipeline.ucRefs τ sig) (V8 m (outs m) c) ∗ Rz c)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none, V7_eq]
    have hsplit := Pipeline.arrays_of_unscopedBufs (p := 3) (pcfgs (F := F)) adm (pdats m) launch3.win launch3.arr_whole c
      (share3 (T7 m) c) (T7 m c) (A_eq3 (T7 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin3 (T7 m) c)
    unfold Pipeline.ΦA
    iintro ⟨Hp, -, Hr⟩
    isplitl [Hr]; · iexact Hr
    iexact Hp
  hout c := by
    rw [Pipeline.ownSems0_none]
    refine (hout3 (T7 m) c).trans ?_
    unfold Pipeline.ΦA
    iintro ⟨Hr, Hp⟩
    isplitl [Hp]; · iexact Hp
    isplitr; · iempintro
    iexact Hr
  hexit c := by
    rw [V8_eq]
    have hjoin := Pipeline.unscopedBufs_of_arrays (p := 3) (pcfgs (F := F)) adm (Ix := Unit) (Name := ℕ) (U := UR sig nD τ) (Lvl := ℕ)
      launch3.win launch3.arr_whole c (pdats m) (share3 (T7 m) c)
      (T7 m c) (fun b : Ref sig .tc => X8 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 4's exit each of its arrays holds what the pipeline leaves: an input window's array is as it was entered,
    the output window's array is the fold of its write-backs. -/
theorem hF4 (c : Dev nD) (w : Fin cfg4.W) : (dat4 (T9 m) c).arrAt w cfg4.N = (fun b : Ref sig .tc => X10 m c b) (Pipeline.arrRef spec4 w) := by
  have hcases : w = 4 ∨ ((cfg4.win w).isOut = false ∧ Pipeline.arrRef spec4 w ≠ main_v188) := by
    revert w; exact (by decide +kernel : ∀ w : Fin cfg4.W, w = 4 ∨ ((cfg4.win w).isOut = false ∧ Pipeline.arrRef spec4 w ≠ main_v188))
  rcases hcases with rfl | ⟨hin, hne⟩
  · show _ = X10 m c _
    unfold X10
    exact (Function.update_self (Proc.devRef (τ := τ) .tc main_v188) (o10 m c) (X9 m c)).symm
  · refine ((dat4 (T9 m) c).arrAt_in w hin _).trans ((A_eq4 (T9 m) c w).trans ?_)
    show X9 m c _ = X10 m c _
    unfold X10
    exact (Function.update_of_ne (StableHlo.devRef_ne_of_ne hne) _ _).symm
/-- … and every other buffer what it held at entry. -/
theorem hrest4 (c : Dev nD) : ∀ b : Ref sig .tc, b ∉ Finset.univ.image (Pipeline.arrRef spec4) → (fun b : Ref sig .tc => X10 m c b) b = T9 m c b := by
  intro b hb
  have hne : b ≠ main_v188 := fun e => hb (Finset.mem_image.mpr ⟨4, Finset.mem_univ _, e.symm ▸ rfl⟩)
  show X10 m c _ = X9 m c _
  unfold X10
  exact Function.update_of_ne (StableHlo.devRef_ne_of_ne hne) _ _

set_option backward.isDefEq.respectTransparency.types false in
/-- Region 4 as a segment: entered from every unscoped buffer at the contents before it, left at the contents after it;
    its arrays are split out of the unscoped buffers and put back at the exit contents; the generator register and the
    kernel's scratch enter the region's invariant and come back; nothing is owed; the kernel has no semaphore of its own. -/
def reg4 : Pipeline.RegionSeg (pcfgs (F := F)) adm (pdats m) () defs₀ Variants.none Lz lvz 4 where
  win := launch4.win.to₀
  block_pos := launch4.block_pos
  stage_whole := launch4.stage_whole
  K := PEmpty
  osem k := k.elim
  ho := Pipeline.OwnSemFacts.none _
  hbody c := (body_obligation4 (T9 m) c).loose
  hwaits := Pipeline.hwaits_of_owed_zero _ _ _ _ Lz lvz 4 fun _ _ => rfl
  pre c := iprop(StableHlo.held (c : Thread nD τ) (Pipeline.ucRefs τ sig) (V9 m (outs m) c) ∗ Rz c)
  post c := iprop(StableHlo.held (c : Thread nD τ) (Pipeline.ucRefs τ sig) (V10 m (outs m) c) ∗ Rz c)
  X c := iprop(∃ r, prngReg c r)
  Y c := iprop(∃ r, prngReg c r)
  Z c := Pipeline.unscopedRest (Ix := Unit) (Name := ℕ) (U := UR sig nD τ) (Lvl := ℕ) spec4 c (T9 m c)
  hentry c := by
    rw [Pipeline.ownSems0_none, V9_eq]
    have hsplit := Pipeline.arrays_of_unscopedBufs (p := 4) (pcfgs (F := F)) adm (pdats m) launch4.win launch4.arr_whole c
      (share4 (T9 m) c) (T9 m c) (A_eq4 (T9 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (T9 m) c)
    unfold Pipeline.ΦA
    iintro ⟨Hp, -, Hr⟩
    isplitl [Hr]; · iexact Hr
    iexact Hp
  hout c := by
    rw [Pipeline.ownSems0_none]
    refine (hout4 (T9 m) c).trans ?_
    unfold Pipeline.ΦA
    iintro ⟨Hr, Hp⟩
    isplitl [Hp]; · iexact Hp
    isplitr; · iempintro
    iexact Hr
  hexit c := by
    rw [V10_eq]
    have hjoin := Pipeline.unscopedBufs_of_arrays (p := 4) (pcfgs (F := F)) adm (Ix := Unit) (Name := ℕ) (U := UR sig nD τ) (Lvl := ℕ)
      launch4.win launch4.arr_whole c (pdats m) (share4 (T9 m) c)
      (T9 m c) (fun b : Ref sig .tc => X10 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 5's exit each of its arrays holds what the pipeline leaves: an input window's array is as it was entered,
    the output window's array is the fold of its write-backs. -/
theorem hF5 (c : Dev nD) (w : Fin cfg5.W) : (dat5 (T11 m) c).arrAt w cfg5.N = (fun b : Ref sig .tc => X12 m c b) (Pipeline.arrRef spec5 w) := by
  have hcases : w = 4 ∨ ((cfg5.win w).isOut = false ∧ Pipeline.arrRef spec5 w ≠ main_v240) := by
    revert w; exact (by decide +kernel : ∀ w : Fin cfg5.W, w = 4 ∨ ((cfg5.win w).isOut = false ∧ Pipeline.arrRef spec5 w ≠ main_v240))
  rcases hcases with rfl | ⟨hin, hne⟩
  · show _ = X12 m c _
    unfold X12
    exact (Function.update_self (Proc.devRef (τ := τ) .tc main_v240) (o12 m c) (X11 m c)).symm
  · refine ((dat5 (T11 m) c).arrAt_in w hin _).trans ((A_eq5 (T11 m) c w).trans ?_)
    show X11 m c _ = X12 m c _
    unfold X12
    exact (Function.update_of_ne (StableHlo.devRef_ne_of_ne hne) _ _).symm
/-- … and every other buffer what it held at entry. -/
theorem hrest5 (c : Dev nD) : ∀ b : Ref sig .tc, b ∉ Finset.univ.image (Pipeline.arrRef spec5) → (fun b : Ref sig .tc => X12 m c b) b = T11 m c b := by
  intro b hb
  have hne : b ≠ main_v240 := fun e => hb (Finset.mem_image.mpr ⟨4, Finset.mem_univ _, e.symm ▸ rfl⟩)
  show X12 m c _ = X11 m c _
  unfold X12
  exact Function.update_of_ne (StableHlo.devRef_ne_of_ne hne) _ _

set_option backward.isDefEq.respectTransparency.types false in
/-- Region 5 as a segment: entered from every unscoped buffer at the contents before it, left at the contents after it;
    its arrays are split out of the unscoped buffers and put back at the exit contents; the generator register and the
    kernel's scratch enter the region's invariant and come back; nothing is owed; the kernel has no semaphore of its own. -/
def reg5 : Pipeline.RegionSeg (pcfgs (F := F)) adm (pdats m) () defs₀ Variants.none Lz lvz 5 where
  win := launch5.win.to₀
  block_pos := launch5.block_pos
  stage_whole := launch5.stage_whole
  K := PEmpty
  osem k := k.elim
  ho := Pipeline.OwnSemFacts.none _
  hbody c := (body_obligation5 (T11 m) c).loose
  hwaits := Pipeline.hwaits_of_owed_zero _ _ _ _ Lz lvz 5 fun _ _ => rfl
  pre c := iprop(StableHlo.held (c : Thread nD τ) (Pipeline.ucRefs τ sig) (V11 m (outs m) c) ∗ Rz c)
  post c := iprop(StableHlo.held (c : Thread nD τ) (Pipeline.ucRefs τ sig) (V12 m (outs m) c) ∗ Rz c)
  X c := iprop(∃ r, prngReg c r)
  Y c := iprop(∃ r, prngReg c r)
  Z c := Pipeline.unscopedRest (Ix := Unit) (Name := ℕ) (U := UR sig nD τ) (Lvl := ℕ) spec5 c (T11 m c)
  hentry c := by
    rw [Pipeline.ownSems0_none, V11_eq]
    have hsplit := Pipeline.arrays_of_unscopedBufs (p := 5) (pcfgs (F := F)) adm (pdats m) launch5.win launch5.arr_whole c
      (share5 (T11 m) c) (T11 m c) (A_eq5 (T11 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin5 (T11 m) c)
    unfold Pipeline.ΦA
    iintro ⟨Hp, -, Hr⟩
    isplitl [Hr]; · iexact Hr
    iexact Hp
  hout c := by
    rw [Pipeline.ownSems0_none]
    refine (hout5 (T11 m) c).trans ?_
    unfold Pipeline.ΦA
    iintro ⟨Hr, Hp⟩
    isplitl [Hp]; · iexact Hp
    isplitr; · iempintro
    iexact Hr
  hexit c := by
    rw [V12_eq]
    have hjoin := Pipeline.unscopedBufs_of_arrays (p := 5) (pcfgs (F := F)) adm (Ix := Unit) (Name := ℕ) (U := UR sig nD τ) (Lvl := ℕ)
      launch5.win launch5.arr_whole c (pdats m) (share5 (T11 m) c)
      (T11 m c) (fun b : Ref sig .tc => X12 m c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch leaves beside the buffers on a core is the rest every segment carries: the generator register at its
    launch state and the core owing nothing. -/
theorem launchRest (ρ : Dev nD → PrngReg) (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ emp) : sProp 𝕄)
      ⊢ Rz (F := F) c := by
  iintro ⟨-, HO, -, Hp, -⟩
  isplitl [Hp]; · iexists _; iexact Hp
  iexists ∅; iexact HO

set_option backward.isDefEq.respectTransparency.types false in
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m emb₁ () Variants.none Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rz c)
    (by
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ emp))
          ⊢ (bigSep Finset.univ (fun c : Dev nD => Rz (F := F) c) : sProp 𝕄) :=
        bigSep_mono fun c _ => launchRest (F := F) ρ c
      iintro ⟨H, -⟩
      ihave H' := hmono $$ H
      imodintro
      iexact H')
    (fun c => by iintro ⟨-, HO⟩; iexact HO)
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)

set_option backward.isDefEq.respectTransparency.types false in
theorem frame_val (ρ : Dev nD → PrngReg) : θ_run defs (onTc (τ := τ) (main (F := F))) ⟨m, fun _ => 0, ρ⟩ (fun r => ∀ c : Dev nD,
      r.2.mem ((c.tc : Thread nD τ).loc main_v240) = V12 m (outs m) c main_v240
      ∧ r.2.mem ((c.tc : Thread nD τ).loc main_v188) = V12 m (outs m) c main_v188
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond_val m emb₁ () Variants.none Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rz c)
    (by
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ emp))
          ⊢ (bigSep Finset.univ (fun c : Dev nD => Rz (F := F) c) : sProp 𝕄) :=
        bigSep_mono fun c _ => launchRest (F := F) ρ c
      iintro ⟨H, -⟩
      ihave H' := hmono $$ H
      imodintro
      iexact H')
    (fun c => by iintro ⟨-, HO⟩; iexact HO)
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)

end Cert.KernelIdeal.Hand

end
-- ==== Proof.Ref.RunPieces.lean ====
/- The reference program's 558 host operations (the list `ops` of the run module, verbatim and in order) cut into fourteen
   consecutive literal pieces, one per graph convolution and one per pair of rectifiers, each with the list of the references its operations write.
   A table only; what is proved about the pieces is in the module that imports this one. -/
import proofs.«166004_j3839700763193_1_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- Operations 0–44 of @main, in order. -/
def p0 : List (HloOp τ sig (Elt F)) :=
  [ unary main_arg6 main_v0 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v0 main_v1 rfl shapeCasts_S1x128x128_S128x128,
    unary main_arg7 main_v2 ((extractStridedSlice S1x128 ![0, 0] · slices_S4x128_S1x128_0_0) : (⟨S4x128, .f32⟩ : BufTy).Contents (Elt F) → (⟨S1x128, .f32⟩ : BufTy).Contents (Elt F)),
    reshape main_v2 main_v3 rfl shapeCasts_S1x128_S128,
    nullary main_cst (constant S_ .f32 0x3F800000#32),
    unary main_cst main_v4 (broadcastInDim S1000000 ![] bcast_S_S1000000 : (⟨S_, .f32⟩ : BufTy).Contents (Elt F) → (⟨S1000000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_arg2 main_v6 (broadcastInDim S1000000x1 ![0] bcast_S1000000_S1000000x1_0 : (⟨S1000000, .i32⟩ : BufTy).Contents (Elt F) → (⟨S1000000x1, .i32⟩ : BufTy).Contents (Elt F)),
    ternary main_v5 main_v6 main_v4 main_v7 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    nullary main_cst_2 (constant S_ .f32 0x00000000#32),
    unary main_cst_2 main_v10 (broadcastInDim S5000 ![] bcast_S_S5000 : (⟨S_, .f32⟩ : BufTy).Contents (Elt F) → (⟨S5000, .f32⟩ : BufTy).Contents (Elt F)),
    unary main_arg3 main_v11 (broadcastInDim S1000000x1 ![0] bcast_S1000000_S1000000x1_0 : (⟨S1000000, .i32⟩ : BufTy).Contents (Elt F) → (⟨S1000000x1, .i32⟩ : BufTy).Contents (Elt F)),
    ternary main_v10 main_v11 main_v4 main_v12 ((fun x i u => Host.scatterAdd scatter_S5000_S1000000x1_S1000000_n_0_0_1 x i u) : (⟨S5000, .f32⟩ : BufTy).Contents (Elt F) → (⟨S1000000x1, .i32⟩ : BufTy).Contents (Elt F) → (⟨S1000000, .f32⟩ : BufTy).Contents (Elt F) → (⟨S5000, .f32⟩ : BufTy).Contents (Elt F)),
    nullary main_cst_3 (constant S_ .f32 0x3F800000#32),
    unary main_cst_3 main_v13 (broadcastInDim S5000 ![] bcast_S_S5000 : (⟨S_, .f32⟩ : BufTy).Contents (Elt F) → (⟨S5000, .f32⟩ : BufTy).Contents (Elt F)),
    binary main_v12 main_v13 main_v14 (maximumf : (⟨S5000, .f32⟩ : BufTy).Contents (Elt F) → (⟨S5000, .f32⟩ : BufTy).Contents (Elt F) → (⟨S5000, .f32⟩ : BufTy).Contents (Elt F)),
    unary main_v9 main_v15 (Host.rsqrt : (⟨S100000, .f32⟩ : BufTy).Contents (Elt F) → (⟨S100000, .f32⟩ : BufTy).Contents (Elt F)),
    unary main_v15 main_v16 (broadcastInDim S100000x1 ![0] bcast_S100000_S100000x1_0 : (⟨S100000, .f32⟩ : BufTy).Contents (Elt F) → (⟨S100000x1, .f32⟩ : BufTy).Contents (Elt F)),
    unary main_v16 main_v17 (broadcastInDim S100000x128 ![0, 1] bcast_S100000x1_S100000x128_0_1 : (⟨S100000x1, .f32⟩ : BufTy).Contents (Elt F) → (⟨S100000x128, .f32⟩ : BufTy).Contents (Elt F)),
    binary main_arg0 main_v17 main_v18 (mulf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    unary main_c main_v19 (broadcastInDim S1000000 ![] bcast_S_S1000000 : (⟨S_, .i32⟩ : BufTy).Contents (Elt F) → (⟨S1000000, .i32⟩ : BufTy).Contents (Elt F)),
    binary main_arg2 main_v19 main_v20 (cmpi .slt : (⟨S1000000, .i32⟩ : BufTy).Contents (Elt F) → (⟨S1000000, .i32⟩ : BufTy).Contents (Elt F) → (⟨S1000000, .i1⟩ : BufTy).Contents (Elt F)),
    nullary main_c_4 (constantI S_ 32 100000#32),
    unary main_c_4 main_v21 (broadcastInDim S1000000 ![] bcast_S_S1000000 : (⟨S_, .i32⟩ : BufTy).Contents (Elt F) → (⟨S1000000, .i32⟩ : BufTy).Contents (Elt F)),
    binary main_arg2 main_v21 main_v22 (addi : (⟨S1000000, .i32⟩ : BufTy).Contents (Elt F) → (⟨S1000000, .i32⟩ : BufTy).Contents (Elt F) → (⟨S1000000, .i32⟩ : BufTy).Contents (Elt F)),
    ternary main_v20 main_v22 main_arg2 main_v23 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v23 main_v24 (broadcastInDim S1000000x1 ![0] bcast_S1000000_S1000000x1_0 : (⟨S1000000, .i32⟩ : BufTy).Contents (Elt F) → (⟨S1000000x1, .i32⟩ : BufTy).Contents (Elt F)),
    binary main_v18 main_v24 main_v25 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_5 (constant S_ .f32 0x00000000#32),
    unary main_cst_5 main_v26 (broadcastInDim S5000x128 ![] bcast_S_S5000x128 : (⟨S_, .f32⟩ : BufTy).Contents (Elt F) → (⟨S5000x128, .f32⟩ : BufTy).Contents (Elt F)),
    unary main_arg3 main_v27 (broadcastInDim S1000000x1 ![0] bcast_S1000000_S1000000x1_0 : (⟨S1000000, .i32⟩ : BufTy).Contents (Elt F) → (⟨S1000000x1, .i32⟩ : BufTy).Contents (Elt F)),
    ternary main_v26 main_v27 main_v25 main_v28 ((fun x i u => Host.scatterAdd scatter_S5000x128_S1000000x1_S1000000x128_1_0_0_1 x i u) : (⟨S5000x128, .f32⟩ : BufTy).Contents (Elt F) → (⟨S1000000x1, .i32⟩ : BufTy).Contents (Elt F) → (⟨S1000000x128, .f32⟩ : BufTy).Contents (Elt F) → (⟨S5000x128, .f32⟩ : BufTy).Contents (Elt F)),
    unary main_v14 main_v29 (Host.rsqrt : (⟨S5000, .f32⟩ : BufTy).Contents (Elt F) → (⟨S5000, .f32⟩ : BufTy).Contents (Elt F)),
    unary main_v29 main_v30 (broadcastInDim S5000x1 ![0] bcast_S5000_S5000x1_0 : (⟨S5000, .f32⟩ : BufTy).Contents (Elt F) → (⟨S5000x1, .f32⟩ : BufTy).Contents (Elt F)),
    unary main_v30 main_v31 (broadcastInDim S5000x128 ![0, 1] bcast_S5000x1_S5000x128_0_1 : (⟨S5000x1, .f32⟩ : BufTy).Contents (Elt F) → (⟨S5000x128, .f32⟩ : BufTy).Contents (Elt F)),
    binary main_v28 main_v31 main_v32 (mulf : (⟨S5000x128, .f32⟩ : BufTy).Contents (Elt F) → (⟨S5000x128, .f32⟩ : BufTy).Contents (Elt F) → (⟨S5000x128, .f32⟩ : BufTy).Contents (Elt F)),
    binary main_v32 main_v1 main_v33 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v3 main_v34 (broadcastInDim S1x128 ![1] bcast_S128_S1x128_1 : (⟨S128, .f32⟩ : BufTy).Contents (Elt F) → (⟨S1x128, .f32⟩ : BufTy).Contents (Elt F)),
    unary main_v34 main_v35 (broadcastInDim S5000x128 ![0, 1] bcast_S1x128_S5000x128_0_1 : (⟨S1x128, .f32⟩ : BufTy).Contents (Elt F) → (⟨S5000x128, .f32⟩ : BufTy).Contents (Elt F)),
    binary main_v33 main_v35 main_v36 (addf : (⟨S5000x128, .f32⟩ : BufTy).Contents (Elt F) → (⟨S5000x128, .f32⟩ : BufTy).Contents (Elt F) → (⟨S5000x128, .f32⟩ : BufTy).Contents (Elt F)) ]
/-- The references operations 0–44 write. -/
abbrev p0_W : List (Ref sig .tc) := [main_v0, main_v1, main_v2, main_v3, main_cst, main_v4, main_cst_0, main_v5, main_v6, main_v7, main_cst_1, main_v8, main_v9, main_cst_2, main_v10, main_v11, main_v12, main_cst_3, main_v13, main_v14, main_v15, main_v16, main_v17, main_v18, main_c, main_v19, main_v20, main_c_4, main_v21, main_v22, main_v23, main_v24, main_v25, main_cst_5, main_v26, main_v27, main_v28, main_v29, main_v30, main_v31, main_v32, main_v33, main_v34, main_v35, main_v36]

/-- Operations 45–89 of @main, in order. -/
def p1 : List (HloOp τ sig (Elt F)) :=
  [ unary main_arg6 main_v37 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v37 main_v38 rfl shapeCasts_S1x128x128_S128x128,
    unary main_arg7 main_v39 ((extractStridedSlice S1x128 ![1, 0] · slices_S4x128_S1x128_1_0) : (⟨S4x128, .f32⟩ : BufTy).Contents (Elt F) → (⟨S1x128, .f32⟩ : BufTy).Contents (Elt F)),
    reshape main_v39 main_v40 rfl shapeCasts_S1x128_S128,
    nullary main_cst_6 (constant S_ .f32 0x3F800000#32),
    unary main_cst_6 main_v41 (broadcastInDim S1000000 ![] bcast_S_S1000000 : (⟨S_, .f32⟩ : BufTy).Contents (Elt F) → (⟨S1000000, .f32⟩ : BufTy).Contents (Elt F)),
    nullary main_cst_7 (constant S_ .f32 0x00000000#32),
    unary main_cst_7 main_v42 (broadcastInDim S5000 ![] bcast_S_S5000 : (⟨S_, .f32⟩ : BufTy).Contents (Elt F) → (⟨S5000, .f32⟩ : BufTy).Contents (Elt F)),
    unary main_arg3 main_v43 (broadcastInDim S1000000x1 ![0] bcast_S1000000_S1000000x1_0 : (⟨S1000000, .i32⟩ : BufTy).Contents (Elt F) → (⟨S1000000x1, .i32⟩ : BufTy).Contents (Elt F)),
    ternary main_v42 main_v43 main_v41 main_v44 ((fun x i u => Host.scatterAdd scatter_S5000_S1000000x1_S1000000_n_0_0_1 x i u) : (⟨S5000, .f32⟩ : BufTy).Contents (Elt F) → (⟨S1000000x1, .i32⟩ : BufTy).Contents (Elt F) → (⟨S1000000, .f32⟩ : BufTy).Contents (Elt F) → (⟨S5000, .f32⟩ : BufTy).Contents (Elt F)),
    nullary main_cst_8 (constant S_ .f32 0x3F800000#32),
    unary main_cst_8 main_v45 (broadcastInDim S5000 ![] bcast_S_S5000 : (⟨S_, .f32⟩ : BufTy).Contents (Elt F) → (⟨S5000, .f32⟩ : BufTy).Contents (Elt F)),
    binary main_v44 main_v45 main_v46 (maximumf : (⟨S5000, .f32⟩ : BufTy).Contents (Elt F) → (⟨S5000, .f32⟩ : BufTy).Contents (Elt F) → (⟨S5000, .f32⟩ : BufTy).Contents (Elt F)),
    nullary main_cst_9 (constant S_ .f32 0x00000000#32),
    unary main_cst_9 main_v47 (broadcastInDim S100000 ![] bcast_S_S100000 : (⟨S_, .f32⟩ : BufTy).Contents (Elt F) → (⟨S100000, .f32⟩ : BufTy).Contents (Elt F)),
    unary main_arg2 main_v48 (broadcastInDim S1000000x1 ![0] bcast_S1000000_S1000000x1_0 : (⟨S1000000, .i32⟩ : BufTy).Contents (Elt F) → (⟨S1000000x1, .i32⟩ : BufTy).Contents (Elt F)),
    ternary main_v47 main_v48 main_v41 main_v49 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_10 (constant S_ .f32 0x3F800000#32),
    unary main_cst_10 main_v50 (broadcastInDim S100000 ![] bcast_S_S100000 : (⟨S_, .f32⟩ : BufTy).Contents (Elt F) → (⟨S100000, .f32⟩ : BufTy).Contents (Elt F)),
    binary main_v49 main_v50 main_v51 (maximumf : (⟨S100000, .f32⟩ : BufTy).Contents (Elt F) → (⟨S100000, .f32⟩ : BufTy).Contents (Elt F) → (⟨S100000, .f32⟩ : BufTy).Contents (Elt F)),
    unary main_v46 main_v52 (Host.rsqrt : (⟨S5000, .f32⟩ : BufTy).Contents (Elt F) → (⟨S5000, .f32⟩ : BufTy).Contents (Elt F)),
    unary main_v52 main_v53 (broadcastInDim S5000x1 ![0] bcast_S5000_S5000x1_0 : (⟨S5000, .f32⟩ : BufTy).Contents (Elt F) → (⟨S5000x1, .f32⟩ : BufTy).Contents (Elt F)),
    unary main_v53 main_v54 (broadcastInDim S5000x128 ![0, 1] bcast_S5000x1_S5000x128_0_1 : (⟨S5000x1, .f32⟩ : BufTy).Contents (Elt F) → (⟨S5000x128, .f32⟩ : BufTy).Contents (Elt F)),
    binary main_arg1 main_v54 main_v55 (mulf : (⟨S5000x128, .f32⟩ : BufTy).Contents (Elt F) → (⟨S5000x128, .f32⟩ : BufTy).Contents (Elt F) → (⟨S5000x128, .f32⟩ : BufTy).Contents (Elt F)),
    nullary main_c_11 (constantI S_ 32 0#32),
    unary main_c_11 main_v56 (broadcastInDim S1000000 ![] bcast_S_S1000000 : (⟨S_, .i32⟩ : BufTy).Contents (Elt F) → (⟨S1000000, .i32⟩ : BufTy).Contents (Elt F)),
    binary main_arg3 main_v56 main_v57 (cmpi .slt : (⟨S1000000, .i32⟩ : BufTy).Contents (Elt F) → (⟨S1000000, .i32⟩ : BufTy).Contents (Elt F) → (⟨S1000000, .i1⟩ : BufTy).Contents (Elt F)),
    nullary main_c_12 (constantI S_ 32 5000#32),
    unary main_c_12 main_v58 (broadcastInDim S1000000 ![] bcast_S_S1000000 : (⟨S_, .i32⟩ : BufTy).Contents (Elt F) → (⟨S1000000, .i32⟩ : BufTy).Contents (Elt F)),
    binary main_arg3 main_v58 main_v59 (addi : (⟨S1000000, .i32⟩ : BufTy).Contents (Elt F) → (⟨S1000000, .i32⟩ : BufTy).Contents (Elt F) → (⟨S1000000, .i32⟩ : BufTy).Contents (Elt F)),
    ternary main_v57 main_v59 main_arg3 main_v60 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v60 main_v61 (broadcastInDim S1000000x1 ![0] bcast_S1000000_S1000000x1_0 : (⟨S1000000, .i32⟩ : BufTy).Contents (Elt F) → (⟨S1000000x1, .i32⟩ : BufTy).Contents (Elt F)),
    binary main_v55 main_v61 main_v62 ((fun x i => Host.gather gather_S5000x128_S1000000x1_S1000000x128_1_0_n_n_0_1_1128 x i) : (⟨S5000x128, .f32⟩ : BufTy).Contents (Elt F) → (⟨S1000000x1, .i32⟩ : BufTy).Contents (Elt F) → (⟨S1000000x128, .f32⟩ : BufTy).Contents (Elt F)),
    nullary main_cst_13 (constant S_ .f32 0x00000000#32),
    unary main_cst_13 main_v63 (broadcastInDim S100000x128 ![] bcast_S_S100000x128 : (⟨S_, .f32⟩ : BufTy).Contents (Elt F) → (⟨S100000x128, .f32⟩ : BufTy).Contents (Elt F)),
    unary main_arg2 main_v64 (broadcastInDim S1000000x1 ![0] bcast_S1000000_S1000000x1_0 : (⟨S1000000, .i32⟩ : BufTy).Contents (Elt F) → (⟨S1000000x1, .i32⟩ : BufTy).Contents (Elt F)),
    ternary main_v63 main_v64 main_v62 main_v65 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    unary main_v51 main_v66 (Host.rsqrt : (⟨S100000, .f32⟩ : BufTy).Contents (Elt F) → (⟨S100000, .f32⟩ : BufTy).Contents (Elt F)),
    unary main_v66 main_v67 (broadcastInDim S100000x1 ![0] bcast_S100000_S100000x1_0 : (⟨S100000, .f32⟩ : BufTy).Contents (Elt F) → (⟨S100000x1, .f32⟩ : BufTy).Contents (Elt F)),
    unary main_v67 main_v68 (broadcastInDim S100000x128 ![0, 1] bcast_S100000x1_S100000x128_0_1 : (⟨S100000x1, .f32⟩ : BufTy).Contents (Elt F) → (⟨S100000x128, .f32⟩ : BufTy).Contents (Elt F)),
    binary main_v65 main_v68 main_v69 (mulf : (⟨S100000x128, .f32⟩ : BufTy).Contents (Elt F) → (⟨S100000x128, .f32⟩ : BufTy).Contents (Elt F) → (⟨S100000x128, .f32⟩ : BufTy).Contents (Elt F)),
    binary main_v69 main_v38 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v40 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v70 main_v72 main_v73 (addf : (⟨S100000x128, .f32⟩ : BufTy).Contents (Elt F) → (⟨S100000x128, .f32⟩ : BufTy).Contents (Elt F) → (⟨S100000x128, .f32⟩ : BufTy).Contents (Elt F)) ]
/-- The references operations 45–89 write. -/
abbrev p1_W : List (Ref sig .tc) := [main_v37, main_v38, main_v39, main_v40, main_cst_6, main_v41, main_cst_7, main_v42, main_v43, main_v44, main_cst_8, main_v45, main_v46, main_cst_9, main_v47, main_v48, main_v49, main_cst_10, main_v50, main_v51, main_v52, main_v53, main_v54, main_v55, main_c_11, main_v56, main_v57, main_c_12, main_v58, main_v59, main_v60, main_v61, main_v62, main_cst_13, main_v63, main_v64, main_v65, main_v66, main_v67, main_v68, main_v69, main_v70, main_v71, main_v72, main_v73]

/-- Operations 90–135 of @main, in order. -/
def p2 : List (HloOp τ sig (Elt F)) :=
  [ unary main_arg6 main_v74 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v74 main_v75 rfl shapeCasts_S1x128x128_S128x128,
    unary main_arg7 main_v76 ((extractStridedSlice S1x128 ![2, 0] · slices_S4x128_S1x128_2_0) : (⟨S4x128, .f32⟩ : BufTy).Contents (Elt F) → (⟨S1x128, .f32⟩ : BufTy).Contents (Elt F)),
    reshape main_v76 main_v77 rfl shapeCasts_S1x128_S128,
    nullary main_cst_14 (constant S_ .f32 0x3F800000#32),
    unary main_cst_14 main_v78 (broadcastInDim S1000000 ![] bcast_S_S1000000 : (⟨S_, .f32⟩ : BufTy).Contents (Elt F) → (⟨S1000000, .f32⟩ : BufTy).Contents (Elt F)),
    nullary main_cst_15 (constant S_ .f32 0x00000000#32),
    unary main_cst_15 main_v79 (broadcastInDim S100000 ![] bcast_S_S100000 : (⟨S_, .f32⟩ : BufTy).Contents (Elt F) → (⟨S100000, .f32⟩ : BufTy).Contents (Elt F)),
    unary main_arg4 main_v80 (broadcastInDim S1000000x1 ![0] bcast_S1000000_S1000000x1_0 : (⟨S1000000, .i32⟩ : BufTy).Contents (Elt F) → (⟨S1000000x1, .i32⟩ : BufTy).Contents (Elt F)),
    ternary main_v79 main_v80 main_v78 main_v81 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_16 (constant S_ .f32 0x3F800000#32),
    unary main_cst_16 main_v82 (broadcastInDim S100000 ![] bcast_S_S100000 : (⟨S_, .f32⟩ : BufTy).Contents (Elt F) → (⟨S100000, .f32⟩ : BufTy).Contents (Elt F)),
    binary main_v81 main_v82 main_v83 (maximumf : (⟨S100000, .f32⟩ : BufTy).Contents (Elt F) → (⟨S100000, .f32⟩ : BufTy).Contents (Elt F) → (⟨S100000, .f32⟩ : BufTy).Contents (Elt F)),
    nullary main_cst_17 (constant S_ .f32 0x00000000#32),
    unary main_cst_17 main_v84 (broadcastInDim S100000 ![] bcast_S_S100000 : (⟨S_, .f32⟩ : BufTy).Contents (Elt F) → (⟨S100000, .f32⟩ : BufTy).Contents (Elt F)),
    unary main_arg5 main_v85 (broadcastInDim S1000000x1 ![0] bcast_S1000000_S1000000x1_0 : (⟨S1000000, .i32⟩ : BufTy).Contents (Elt F) → (⟨S1000000x1, .i32⟩ : BufTy).Contents (Elt F)),
    ternary main_v84 main_v85 main_v78 main_v86 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_18 (constant S_ .f32 0x3F800000#32),
    unary main_cst_18 main_v87 (broadcastInDim S100000 ![] bcast_S_S100000 : (⟨S_, .f32⟩ : BufTy).Contents (Elt F) → (⟨S100000, .f32⟩ : BufTy).Contents (Elt F)),
    binary main_v86 main_v87 main_v88 (maximumf : (⟨S100000, .f32⟩ : BufTy).Contents (Elt F) → (⟨S100000, .f32⟩ : BufTy).Contents (Elt F) → (⟨S100000, .f32⟩ : BufTy).Contents (Elt F)),
    unary main_v83 main_v89 (Host.rsqrt : (⟨S100000, .f32⟩ : BufTy).Contents (Elt F) → (⟨S100000, .f32⟩ : BufTy).Contents (Elt F)),
    unary main_v89 main_v90 (broadcastInDim S100000x1 ![0] bcast_S100000_S100000x1_0 : (⟨S100000, .f32⟩ : BufTy).Contents (Elt F) → (⟨S100000x1, .f32⟩ : BufTy).Contents (Elt F)),
    unary main_v90 main_v91 (broadcastInDim S100000x128 ![0, 1] bcast_S100000x1_S100000x128_0_1 : (⟨S100000x1, .f32⟩ : BufTy).Contents (Elt F) → (⟨S100000x128, .f32⟩ : BufTy).Contents (Elt F)),
    binary main_arg0 main_v91 main_v92 (mulf : (⟨S100000x128, .f32⟩ : BufTy).Contents (Elt F) → (⟨S100000x128, .f32⟩ : BufTy).Contents (Elt F) → (⟨S100000x128, .f32⟩ : BufTy).Contents (Elt F)),
    nullary main_c_19 (constantI S_ 32 0#32),
    unary main_c_19 main_v93 (broadcastInDim S1000000 ![] bcast_S_S1000000 : (⟨S_, .i32⟩ : BufTy).Contents (Elt F) → (⟨S1000000, .i32⟩ : BufTy).Contents (Elt F)),
    binary main_arg4 main_v93 main_v94 (cmpi .slt : (⟨S1000000, .i32⟩ : BufTy).Contents (Elt F) → (⟨S1000000, .i32⟩ : BufTy).Contents (Elt F) → (⟨S1000000, .i1⟩ : BufTy).Contents (Elt F)),
    nullary main_c_20 (constantI S_ 32 100000#32),
    unary main_c_20 main_v95 (broadcastInDim S1000000 ![] bcast_S_S1000000 : (⟨S_, .i32⟩ : BufTy).Contents (Elt F) → (⟨S1000000, .i32⟩ : BufTy).Contents (Elt F)),
    binary main_arg4 main_v95 main_v96 (addi : (⟨S1000000, .i32⟩ : BufTy).Contents (Elt F) → (⟨S1000000, .i32⟩ : BufTy).Contents (Elt F) → (⟨S1000000, .i32⟩ : BufTy).Contents (Elt F)),
    ternary main_v94 main_v96 main_arg4 main_v97 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v97 main_v98 (broadcastInDim S1000000x1 ![0] bcast_S1000000_S1000000x1_0 : (⟨S1000000, .i32⟩ : BufTy).Contents (Elt F) → (⟨S1000000x1, .i32⟩ : BufTy).Contents (Elt F)),
    binary main_v92 main_v98 main_v99 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_21 (constant S_ .f32 0x00000000#32),
    unary main_cst_21 main_v100 (broadcastInDim S100000x128 ![] bcast_S_S100000x128 : (⟨S_, .f32⟩ : BufTy).Contents (Elt F) → (⟨S100000x128, .f32⟩ : BufTy).Contents (Elt F)),
    unary main_arg5 main_v101 (broadcastInDim S1000000x1 ![0] bcast_S1000000_S1000000x1_0 : (⟨S1000000, .i32⟩ : BufTy).Contents (Elt F) → (⟨S1000000x1, .i32⟩ : BufTy).Contents (Elt F)),
    ternary main_v100 main_v101 main_v99 main_v102 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    unary main_v88 main_v103 (Host.rsqrt : (⟨S100000, .f32⟩ : BufTy).Contents (Elt F) → (⟨S100000, .f32⟩ : BufTy).Contents (Elt F)),
    unary main_v103 main_v104 (broadcastInDim S100000x1 ![0] bcast_S100000_S100000x1_0 : (⟨S100000, .f32⟩ : BufTy).Contents (Elt F) → (⟨S100000x1, .f32⟩ : BufTy).Contents (Elt F)),
    unary main_v104 main_v105 (broadcastInDim S100000x128 ![0, 1] bcast_S100000x1_S100000x128_0_1 : (⟨S100000x1, .f32⟩ : BufTy).Contents (Elt F) → (⟨S100000x128, .f32⟩ : BufTy).Contents (Elt F)),
    binary main_v102 main_v105 main_v106 (mulf : (⟨S100000x128, .f32⟩ : BufTy).Contents (Elt F) → (⟨S100000x128, .f32⟩ : BufTy).Contents (Elt F) → (⟨S100000x128, .f32⟩ : BufTy).Contents (Elt F)),
    binary main_v106 main_v75 main_v107 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v77 main_v108 (broadcastInDim S1x128 ![1] bcast_S128_S1x128_1 : (⟨S128, .f32⟩ : BufTy).Contents (Elt F) → (⟨S1x128, .f32⟩ : BufTy).Contents (Elt F)),
    unary main_v108 main_v109 (broadcastInDim S100000x128 ![0, 1] bcast_S1x128_S100000x128_0_1 : (⟨S1x128, .f32⟩ : BufTy).Contents (Elt F) → (⟨S100000x128, .f32⟩ : BufTy).Contents (Elt F)),
    binary main_v107 main_v109 main_v110 (addf : (⟨S100000x128, .f32⟩ : BufTy).Contents (Elt F) → (⟨S100000x128, .f32⟩ : BufTy).Contents (Elt F) → (⟨S100000x128, .f32⟩ : BufTy).Contents (Elt F)),
    binary main_v73 main_v110 main_v111 (addf : (⟨S100000x128, .f32⟩ : BufTy).Contents (Elt F) → (⟨S100000x128, .f32⟩ : BufTy).Contents (Elt F) → (⟨S100000x128, .f32⟩ : BufTy).Contents (Elt F)) ]
/-- The references operations 90–135 write. -/
abbrev p2_W : List (Ref sig .tc) := [main_v74, main_v75, main_v76, main_v77, main_cst_14, main_v78, main_cst_15, main_v79, main_v80, main_v81, main_cst_16, main_v82, main_v83, main_cst_17, main_v84, main_v85, main_v86, main_cst_18, main_v87, main_v88, main_v89, main_v90, main_v91, main_v92, main_c_19, main_v93, main_v94, main_c_20, main_v95, main_v96, main_v97, main_v98, main_v99, main_cst_21, main_v100, main_v101, main_v102, main_v103, main_v104, main_v105, main_v106, main_v107, main_v108, main_v109, main_v110, main_v111]

/-- Operations 136–181 of @main, in order. -/
def p3 : List (HloOp τ sig (Elt F)) :=
  [ unary main_arg6 main_v112 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v112 main_v113 rfl shapeCasts_S1x128x128_S128x128,
    unary main_arg7 main_v114 ((extractStridedSlice S1x128 ![3, 0] · slices_S4x128_S1x128_3_0) : (⟨S4x128, .f32⟩ : BufTy).Contents (Elt F) → (⟨S1x128, .f32⟩ : BufTy).Contents (Elt F)),
    reshape main_v114 main_v115 rfl shapeCasts_S1x128_S128,
    nullary main_cst_22 (constant S_ .f32 0x3F800000#32),
    unary main_cst_22 main_v116 (broadcastInDim S1000000 ![] bcast_S_S1000000 : (⟨S_, .f32⟩ : BufTy).Contents (Elt F) → (⟨S1000000, .f32⟩ : BufTy).Contents (Elt F)),
    nullary main_cst_23 (constant S_ .f32 0x00000000#32),
    unary main_cst_23 main_v117 (broadcastInDim S100000 ![] bcast_S_S100000 : (⟨S_, .f32⟩ : BufTy).Contents (Elt F) → (⟨S100000, .f32⟩ : BufTy).Contents (Elt F)),
    unary main_arg5 main_v118 (broadcastInDim S1000000x1 ![0] bcast_S1000000_S1000000x1_0 : (⟨S1000000, .i32⟩ : BufTy).Contents (Elt F) → (⟨S1000000x1, .i32⟩ : BufTy).Contents (Elt F)),
    ternary main_v117 main_v118 main_v116 main_v119 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_24 (constant S_ .f32 0x3F800000#32),
    unary main_cst_24 main_v120 (broadcastInDim S100000 ![] bcast_S_S100000 : (⟨S_, .f32⟩ : BufTy).Contents (Elt F) → (⟨S100000, .f32⟩ : BufTy).Contents (Elt F)),
    binary main_v119 main_v120 main_v121 (maximumf : (⟨S100000, .f32⟩ : BufTy).Contents (Elt F) → (⟨S100000, .f32⟩ : BufTy).Contents (Elt F) → (⟨S100000, .f32⟩ : BufTy).Contents (Elt F)),
    nullary main_cst_25 (constant S_ .f32 0x00000000#32),
    unary main_cst_25 main_v122 (broadcastInDim S100000 ![] bcast_S_S100000 : (⟨S_, .f32⟩ : BufTy).Contents (Elt F) → (⟨S100000, .f32⟩ : BufTy).Contents (Elt F)),
    unary main_arg4 main_v123 (broadcastInDim S1000000x1 ![0] bcast_S1000000_S1000000x1_0 : (⟨S1000000, .i32⟩ : BufTy).Contents (Elt F) → (⟨S1000000x1, .i32⟩ : BufTy).Contents (Elt F)),
    ternary main_v122 main_v123 main_v116 main_v124 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_26 (constant S_ .f32 0x3F800000#32),
    unary main_cst_26 main_v125 (broadcastInDim S100000 ![] bcast_S_S100000 : (⟨S_, .f32⟩ : BufTy).Contents (Elt F) → (⟨S100000, .f32⟩ : BufTy).Contents (Elt F)),
    binary main_v124 main_v125 main_v126 (maximumf : (⟨S100000, .f32⟩ : BufTy).Contents (Elt F) → (⟨S100000, .f32⟩ : BufTy).Contents (Elt F) → (⟨S100000, .f32⟩ : BufTy).Contents (Elt F)),
    unary main_v121 main_v127 (Host.rsqrt : (⟨S100000, .f32⟩ : BufTy).Contents (Elt F) → (⟨S100000, .f32⟩ : BufTy).Contents (Elt F)),
    unary main_v127 main_v128 (broadcastInDim S100000x1 ![0] bcast_S100000_S100000x1_0 : (⟨S100000, .f32⟩ : BufTy).Contents (Elt F) → (⟨S100000x1, .f32⟩ : BufTy).Contents (Elt F)),
    unary main_v128 main_v129 (broadcastInDim S100000x128 ![0, 1] bcast_S100000x1_S100000x128_0_1 : (⟨S100000x1, .f32⟩ : BufTy).Contents (Elt F) → (⟨S100000x128, .f32⟩ : BufTy).Contents (Elt F)),
    binary main_arg0 main_v129 main_v130 (mulf : (⟨S100000x128, .f32⟩ : BufTy).Contents (Elt F) → (⟨S100000x128, .f32⟩ : BufTy).Contents (Elt F) → (⟨S100000x128, .f32⟩ : BufTy).Contents (Elt F)),
    nullary main_c_27 (constantI S_ 32 0#32),
    unary main_c_27 main_v131 (broadcastInDim S1000000 ![] bcast_S_S1000000 : (⟨S_, .i32⟩ : BufTy).Contents (Elt F) → (⟨S1000000, .i32⟩ : BufTy).Contents (Elt F)),
    binary main_arg5 main_v131 main_v132 (cmpi .slt : (⟨S1000000, .i32⟩ : BufTy).Contents (Elt F) → (⟨S1000000, .i32⟩ : BufTy).Contents (Elt F) → (⟨S1000000, .i1⟩ : BufTy).Contents (Elt F)),
    nullary main_c_28 (constantI S_ 32 100000#32),
    unary main_c_28 main_v133 (broadcastInDim S1000000 ![] bcast_S_S1000000 : (⟨S_, .i32⟩ : BufTy).Contents (Elt F) → (⟨S1000000, .i32⟩ : BufTy).Contents (Elt F)),
    binary main_arg5 main_v133 main_v134 (addi : (⟨S1000000, .i32⟩ : BufTy).Contents (Elt F) → (⟨S1000000, .i32⟩ : BufTy).Contents (Elt F) → (⟨S1000000, .i32⟩ : BufTy).Contents (Elt F)),
    ternary main_v132 main_v134 main_arg5 main_v135 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v135 main_v136 (broadcastInDim S1000000x1 ![0] bcast_S1000000_S1000000x1_0 : (⟨S1000000, .i32⟩ : BufTy).Contents (Elt F) → (⟨S1000000x1, .i32⟩ : BufTy).Contents (Elt F)),
    binary main_v130 main_v136 main_v137 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_29 (constant S_ .f32 0x00000000#32),
    unary main_cst_29 main_v138 (broadcastInDim S100000x128 ![] bcast_S_S100000x128 : (⟨S_, .f32⟩ : BufTy).Contents (Elt F) → (⟨S100000x128, .f32⟩ : BufTy).Contents (Elt F)),
    unary main_arg4 main_v139 (broadcastInDim S1000000x1 ![0] bcast_S1000000_S1000000x1_0 : (⟨S1000000, .i32⟩ : BufTy).Contents (Elt F) → (⟨S1000000x1, .i32⟩ : BufTy).Contents (Elt F)),
    ternary main_v138 main_v139 main_v137 main_v140 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    unary main_v126 main_v141 (Host.rsqrt : (⟨S100000, .f32⟩ : BufTy).Contents (Elt F) → (⟨S100000, .f32⟩ : BufTy).Contents (Elt F)),
    unary main_v141 main_v142 (broadcastInDim S100000x1 ![0] bcast_S100000_S100000x1_0 : (⟨S100000, .f32⟩ : BufTy).Contents (Elt F) → (⟨S100000x1, .f32⟩ : BufTy).Contents (Elt F)),
    unary main_v142 main_v143 (broadcastInDim S100000x128 ![0, 1] bcast_S100000x1_S100000x128_0_1 : (⟨S100000x1, .f32⟩ : BufTy).Contents (Elt F) → (⟨S100000x128, .f32⟩ : BufTy).Contents (Elt F)),
    binary main_v140 main_v143 main_v144 (mulf : (⟨S100000x128, .f32⟩ : BufTy).Contents (Elt F) → (⟨S100000x128, .f32⟩ : BufTy).Contents (Elt F) → (⟨S100000x128, .f32⟩ : BufTy).Contents (Elt F)),
    binary main_v144 main_v113 main_v145 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v115 main_v146 (broadcastInDim S1x128 ![1] bcast_S128_S1x128_1 : (⟨S128, .f32⟩ : BufTy).Contents (Elt F) → (⟨S1x128, .f32⟩ : BufTy).Contents (Elt F)),
    unary main_v146 main_v147 (broadcastInDim S100000x128 ![0, 1] bcast_S1x128_S100000x128_0_1 : (⟨S1x128, .f32⟩ : BufTy).Contents (Elt F) → (⟨S100000x128, .f32⟩ : BufTy).Contents (Elt F)),
    binary main_v145 main_v147 main_v148 (addf : (⟨S100000x128, .f32⟩ : BufTy).Contents (Elt F) → (⟨S100000x128, .f32⟩ : BufTy).Contents (Elt F) → (⟨S100000x128, .f32⟩ : BufTy).Contents (Elt F)),
    binary main_v111 main_v148 main_v149 (addf : (⟨S100000x128, .f32⟩ : BufTy).Contents (Elt F) → (⟨S100000x128, .f32⟩ : BufTy).Contents (Elt F) → (⟨S100000x128, .f32⟩ : BufTy).Contents (Elt F)) ]
/-- The references operations 136–181 write. -/
abbrev p3_W : List (Ref sig .tc) := [main_v112, main_v113, main_v114, main_v115, main_cst_22, main_v116, main_cst_23, main_v117, main_v118, main_v119, main_cst_24, main_v120, main_v121, main_cst_25, main_v122, main_v123, main_v124, main_cst_26, main_v125, main_v126, main_v127, main_v128, main_v129, main_v130, main_c_27, main_v131, main_v132, main_c_28, main_v133, main_v134, main_v135, main_v136, main_v137, main_cst_29, main_v138, main_v139, main_v140, main_v141, main_v142, main_v143, main_v144, main_v145, main_v146, main_v147, main_v148, main_v149]

/-- Operations 182–187 of @main, in order. -/
def p4 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v149) (TRef.of (T := ⟨S100000x128, .f32⟩) main_call0_v0) (TRef.of (T := ⟨S100000x128, .f32⟩) main_v150) maximumf,
    TRef.nullary (TRef.of (T := ⟨S_, .f32⟩) main_call1_cst) (constant S_ .f32 0x00000000#32),
    TRef.unary (TRef.of (T := ⟨S_, .f32⟩) main_call1_cst) (TRef.of (T := ⟨S5000x128, .f32⟩) main_call1_v0) (broadcastInDim S5000x128 ![] bcast_S_S5000x128),
    TRef.binary (TRef.of (T := ⟨S5000x128, .f32⟩) main_v36) (TRef.of (T := ⟨S5000x128, .f32⟩) main_call1_v0) (TRef.of (T := ⟨S5000x128, .f32⟩) main_v151) maximumf ]
/-- The references operations 182–187 write. -/
abbrev p4_W : List (Ref sig .tc) := [main_call0_cst, main_call0_v0, main_v150, main_call1_cst, main_call1_v0, main_v151]

/-- Operations 188–232 of @main, in order. -/
def p5 : List (HloOp τ sig (Elt F)) :=
  [ unary main_arg8 main_v152 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v152 main_v153 rfl shapeCasts_S1x128x128_S128x128,
    unary main_arg9 main_v154 ((extractStridedSlice S1x128 ![0, 0] · slices_S4x128_S1x128_0_0) : (⟨S4x128, .f32⟩ : BufTy).Contents (Elt F) → (⟨S1x128, .f32⟩ : BufTy).Contents (Elt F)),
    reshape main_v154 main_v155 rfl shapeCasts_S1x128_S128,
    nullary main_cst_30 (constant S_ .f32 0x3F800000#32),
    unary main_cst_30 main_v156 (broadcastInDim S1000000 ![] bcast_S_S1000000 : (⟨S_, .f32⟩ : BufTy).Contents (Elt F) → (⟨S1000000, .f32⟩ : BufTy).Contents (Elt F)),
    nullary main_cst_31 (constant S_ .f32 0x00000000#32),
    unary main_cst_31 main_v157 (broadcastInDim S100000 ![] bcast_S_S100000 : (⟨S_, .f32⟩ : BufTy).Contents (Elt F) → (⟨S100000, .f32⟩ : BufTy).Contents (Elt F)),
    unary main_arg2 main_v158 (broadcastInDim S1000000x1 ![0] bcast_S1000000_S1000000x1_0 : (⟨S1000000, .i32⟩ : BufTy).Contents (Elt F) → (⟨S1000000x1, .i32⟩ : BufTy).Contents (Elt F)),
    ternary main_v157 main_v158 main_v156 main_v159 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_32 (constant S_ .f32 0x3F800000#32),
    unary main_cst_32 main_v160 (broadcastInDim S100000 ![] bcast_S_S100000 : (⟨S_, .f32⟩ : BufTy).Contents (Elt F) → (⟨S100000, .f32⟩ : BufTy).Contents (Elt F)),
    binary main_v159 main_v160 main_v161 (maximumf : (⟨S100000, .f32⟩ : BufTy).Contents (Elt F) → (⟨S100000, .f32⟩ : BufTy).Contents (Elt F) → (⟨S100000, .f32⟩ : BufTy).Contents (Elt F)),
    nullary main_cst_33 (constant S_ .f32 0x00000000#32),
    unary main_cst_33 main_v162 (broadcastInDim S5000 ![] bcast_S_S5000 : (⟨S_, .f32⟩ : BufTy).Contents (Elt F) → (⟨S5000, .f32⟩ : BufTy).Contents (Elt F)),
    unary main_arg3 main_v163 (broadcastInDim S1000000x1 ![0] bcast_S1000000_S1000000x1_0 : (⟨S1000000, .i32⟩ : BufTy).Contents (Elt F) → (⟨S1000000x1, .i32⟩ : BufTy).Contents (Elt F)),
    ternary main_v162 main_v163 main_v156 main_v164 ((fun x i u => Host.scatterAdd scatter_S5000_S1000000x1_S1000000_n_0_0_1 x i u) : (⟨S5000, .f32⟩ : BufTy).Contents (Elt F) → (⟨S1000000x1, .i32⟩ : BufTy).Contents (Elt F) → (⟨S1000000, .f32⟩ : BufTy).Contents (Elt F) → (⟨S5000, .f32⟩ : BufTy).Contents (Elt F)),
    nullary main_cst_34 (constant S_ .f32 0x3F800000#32),
    unary main_cst_34 main_v165 (broadcastInDim S5000 ![] bcast_S_S5000 : (⟨S_, .f32⟩ : BufTy).Contents (Elt F) → (⟨S5000, .f32⟩ : BufTy).Contents (Elt F)),
    binary main_v164 main_v165 main_v166 (maximumf : (⟨S5000, .f32⟩ : BufTy).Contents (Elt F) → (⟨S5000, .f32⟩ : BufTy).Contents (Elt F) → (⟨S5000, .f32⟩ : BufTy).Contents (Elt F)),
    unary main_v161 main_v167 (Host.rsqrt : (⟨S100000, .f32⟩ : BufTy).Contents (Elt F) → (⟨S100000, .f32⟩ : BufTy).Contents (Elt F)),
    unary main_v167 main_v168 (broadcastInDim S100000x1 ![0] bcast_S100000_S100000x1_0 : (⟨S100000, .f32⟩ : BufTy).Contents (Elt F) → (⟨S100000x1, .f32⟩ : BufTy).Contents (Elt F)),
    unary main_v168 main_v169 (broadcastInDim S100000x128 ![0, 1] bcast_S100000x1_S100000x128_0_1 : (⟨S100000x1, .f32⟩ : BufTy).Contents (Elt F) → (⟨S100000x128, .f32⟩ : BufTy).Contents (Elt F)),
    binary main_v150 main_v169 main_v170 (mulf : (⟨S100000x128, .f32⟩ : BufTy).Contents (Elt F) → (⟨S100000x128, .f32⟩ : BufTy).Contents (Elt F) → (⟨S100000x128, .f32⟩ : BufTy).Contents (Elt F)),
    nullary main_c_35 (constantI S_ 32 0#32),
    unary main_c_35 main_v171 (broadcastInDim S1000000 ![] bcast_S_S1000000 : (⟨S_, .i32⟩ : BufTy).Contents (Elt F) → (⟨S1000000, .i32⟩ : BufTy).Contents (Elt F)),
    binary main_arg2 main_v171 main_v172 (cmpi .slt : (⟨S1000000, .i32⟩ : BufTy).Contents (Elt F) → (⟨S1000000, .i32⟩ : BufTy).Contents (Elt F) → (⟨S1000000, .i1⟩ : BufTy).Contents (Elt F)),
    nullary main_c_36 (constantI S_ 32 100000#32),
    unary main_c_36 main_v173 (broadcastInDim S1000000 ![] bcast_S_S1000000 : (⟨S_, .i32⟩ : BufTy).Contents (Elt F) → (⟨S1000000, .i32⟩ : BufTy).Contents (Elt F)),
    binary main_arg2 main_v173 main_v174 (addi : (⟨S1000000, .i32⟩ : BufTy).Contents (Elt F) → (⟨S1000000, .i32⟩ : BufTy).Contents (Elt F) → (⟨S1000000, .i32⟩ : BufTy).Contents (Elt F)),
    ternary main_v172 main_v174 main_arg2 main_v175 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v175 main_v176 (broadcastInDim S1000000x1 ![0] bcast_S1000000_S1000000x1_0 : (⟨S1000000, .i32⟩ : BufTy).Contents (Elt F) → (⟨S1000000x1, .i32⟩ : BufTy).Contents (Elt F)),
    binary main_v170 main_v176 main_v177 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_37 (constant S_ .f32 0x00000000#32),
    unary main_cst_37 main_v178 (broadcastInDim S5000x128 ![] bcast_S_S5000x128 : (⟨S_, .f32⟩ : BufTy).Contents (Elt F) → (⟨S5000x128, .f32⟩ : BufTy).Contents (Elt F)),
    unary main_arg3 main_v179 (broadcastInDim S1000000x1 ![0] bcast_S1000000_S1000000x1_0 : (⟨S1000000, .i32⟩ : BufTy).Contents (Elt F) → (⟨S1000000x1, .i32⟩ : BufTy).Contents (Elt F)),
    ternary main_v178 main_v179 main_v177 main_v180 ((fun x i u => Host.scatterAdd scatter_S5000x128_S1000000x1_S1000000x128_1_0_0_1 x i u) : (⟨S5000x128, .f32⟩ : BufTy).Contents (Elt F) → (⟨S1000000x1, .i32⟩ : BufTy).Contents (Elt F) → (⟨S1000000x128, .f32⟩ : BufTy).Contents (Elt F) → (⟨S5000x128, .f32⟩ : BufTy).Contents (Elt F)),
    unary main_v166 main_v181 (Host.rsqrt : (⟨S5000, .f32⟩ : BufTy).Contents (Elt F) → (⟨S5000, .f32⟩ : BufTy).Contents (Elt F)),
    unary main_v181 main_v182 (broadcastInDim S5000x1 ![0] bcast_S5000_S5000x1_0 : (⟨S5000, .f32⟩ : BufTy).Contents (Elt F) → (⟨S5000x1, .f32⟩ : BufTy).Contents (Elt F)),
    unary main_v182 main_v183 (broadcastInDim S5000x128 ![0, 1] bcast_S5000x1_S5000x128_0_1 : (⟨S5000x1, .f32⟩ : BufTy).Contents (Elt F) → (⟨S5000x128, .f32⟩ : BufTy).Contents (Elt F)),
    binary main_v180 main_v183 main_v184 (mulf : (⟨S5000x128, .f32⟩ : BufTy).Contents (Elt F) → (⟨S5000x128, .f32⟩ : BufTy).Contents (Elt F) → (⟨S5000x128, .f32⟩ : BufTy).Contents (Elt F)),
    binary main_v184 main_v153 main_v185 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    unary main_v155 main_v186 (broadcastInDim S1x128 ![1] bcast_S128_S1x128_1 : (⟨S128, .f32⟩ : BufTy).Contents (Elt F) → (⟨S1x128, .f32⟩ : BufTy).Contents (Elt F)),
    unary main_v186 main_v187 (broadcastInDim S5000x128 ![0, 1] bcast_S1x128_S5000x128_0_1 : (⟨S1x128, .f32⟩ : BufTy).Contents (Elt F) → (⟨S5000x128, .f32⟩ : BufTy).Contents (Elt F)),
    binary main_v185 main_v187 main_v188 (addf : (⟨S5000x128, .f32⟩ : BufTy).Contents (Elt F) → (⟨S5000x128, .f32⟩ : BufTy).Contents (Elt F) → (⟨S5000x128, .f32⟩ : BufTy).Contents (Elt F)) ]
/-- The references operations 188–232 write. -/
abbrev p5_W : List (Ref sig .tc) := [main_v152, main_v153, main_v154, main_v155, main_cst_30, main_v156, main_cst_31, main_v157, main_v158, main_v159, main_cst_32, main_v160, main_v161, main_cst_33, main_v162, main_v163, main_v164, main_cst_34, main_v165, main_v166, main_v167, main_v168, main_v169, main_v170, main_c_35, main_v171, main_v172, main_c_36, main_v173, main_v174, main_v175, main_v176, main_v177, main_cst_37, main_v178, main_v179, main_v180, main_v181, main_v182, main_v183, main_v184, main_v185, main_v186, main_v187, main_v188]

/-- Operations 233–277 of @main, in order. -/
def p6 : List (HloOp τ sig (Elt F)) :=
  [ unary main_arg8 main_v189 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v189 main_v190 rfl shapeCasts_S1x128x128_S128x128,
    unary main_arg9 main_v191 ((extractStridedSlice S1x128 ![1, 0] · slices_S4x128_S1x128_1_0) : (⟨S4x128, .f32⟩ : BufTy).Contents (Elt F) → (⟨S1x128, .f32⟩ : BufTy).Contents (Elt F)),
    reshape main_v191 main_v192 rfl shapeCasts_S1x128_S128,
    nullary main_cst_38 (constant S_ .f32 0x3F800000#32),
    unary main_cst_38 main_v193 (broadcastInDim S1000000 ![] bcast_S_S1000000 : (⟨S_, .f32⟩ : BufTy).Contents (Elt F) → (⟨S1000000, .f32⟩ : BufTy).Contents (Elt F)),
    nullary main_cst_39 (constant S_ .f32 0x00000000#32),
    unary main_cst_39 main_v194 (broadcastInDim S5000 ![] bcast_S_S5000 : (⟨S_, .f32⟩ : BufTy).Contents (Elt F) → (⟨S5000, .f32⟩ : BufTy).Contents (Elt F)),
    unary main_arg3 main_v195 (broadcastInDim S1000000x1 ![0] bcast_S1000000_S1000000x1_0 : (⟨S1000000, .i32⟩ : BufTy).Contents (Elt F) → (⟨S1000000x1, .i32⟩ : BufTy).Contents (Elt F)),
    ternary main_v194 main_v195 main_v193 main_v196 ((fun x i u => Host.scatterAdd scatter_S5000_S1000000x1_S1000000_n_0_0_1 x i u) : (⟨S5000, .f32⟩ : BufTy).Contents (Elt F) → (⟨S1000000x1, .i32⟩ : BufTy).Contents (Elt F) → (⟨S1000000, .f32⟩ : BufTy).Contents (Elt F) → (⟨S5000, .f32⟩ : BufTy).Contents (Elt F)),
    nullary main_cst_40 (constant S_ .f32 0x3F800000#32),
    unary main_cst_40 main_v197 (broadcastInDim S5000 ![] bcast_S_S5000 : (⟨S_, .f32⟩ : BufTy).Contents (Elt F) → (⟨S5000, .f32⟩ : BufTy).Contents (Elt F)),
    binary main_v196 main_v197 main_v198 (maximumf : (⟨S5000, .f32⟩ : BufTy).Contents (Elt F) → (⟨S5000, .f32⟩ : BufTy).Contents (Elt F) → (⟨S5000, .f32⟩ : BufTy).Contents (Elt F)),
    nullary main_cst_41 (constant S_ .f32 0x00000000#32),
    unary main_cst_41 main_v199 (broadcastInDim S100000 ![] bcast_S_S100000 : (⟨S_, .f32⟩ : BufTy).Contents (Elt F) → (⟨S100000, .f32⟩ : BufTy).Contents (Elt F)),
    unary main_arg2 main_v200 (broadcastInDim S1000000x1 ![0] bcast_S1000000_S1000000x1_0 : (⟨S1000000, .i32⟩ : BufTy).Contents (Elt F) → (⟨S1000000x1, .i32⟩ : BufTy).Contents (Elt F)),
    ternary main_v199 main_v200 main_v193 main_v201 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_42 (constant S_ .f32 0x3F800000#32),
    unary main_cst_42 main_v202 (broadcastInDim S100000 ![] bcast_S_S100000 : (⟨S_, .f32⟩ : BufTy).Contents (Elt F) → (⟨S100000, .f32⟩ : BufTy).Contents (Elt F)),
    binary main_v201 main_v202 main_v203 (maximumf : (⟨S100000, .f32⟩ : BufTy).Contents (Elt F) → (⟨S100000, .f32⟩ : BufTy).Contents (Elt F) → (⟨S100000, .f32⟩ : BufTy).Contents (Elt F)),
    unary main_v198 main_v204 (Host.rsqrt : (⟨S5000, .f32⟩ : BufTy).Contents (Elt F) → (⟨S5000, .f32⟩ : BufTy).Contents (Elt F)),
    unary main_v204 main_v205 (broadcastInDim S5000x1 ![0] bcast_S5000_S5000x1_0 : (⟨S5000, .f32⟩ : BufTy).Contents (Elt F) → (⟨S5000x1, .f32⟩ : BufTy).Contents (Elt F)),
    unary main_v205 main_v206 (broadcastInDim S5000x128 ![0, 1] bcast_S5000x1_S5000x128_0_1 : (⟨S5000x1, .f32⟩ : BufTy).Contents (Elt F) → (⟨S5000x128, .f32⟩ : BufTy).Contents (Elt F)),
    binary main_v151 main_v206 main_v207 (mulf : (⟨S5000x128, .f32⟩ : BufTy).Contents (Elt F) → (⟨S5000x128, .f32⟩ : BufTy).Contents (Elt F) → (⟨S5000x128, .f32⟩ : BufTy).Contents (Elt F)),
    nullary main_c_43 (constantI S_ 32 0#32),
    unary main_c_43 main_v208 (broadcastInDim S1000000 ![] bcast_S_S1000000 : (⟨S_, .i32⟩ : BufTy).Contents (Elt F) → (⟨S1000000, .i32⟩ : BufTy).Contents (Elt F)),
    binary main_arg3 main_v208 main_v209 (cmpi .slt : (⟨S1000000, .i32⟩ : BufTy).Contents (Elt F) → (⟨S1000000, .i32⟩ : BufTy).Contents (Elt F) → (⟨S1000000, .i1⟩ : BufTy).Contents (Elt F)),
    nullary main_c_44 (constantI S_ 32 5000#32),
    unary main_c_44 main_v210 (broadcastInDim S1000000 ![] bcast_S_S1000000 : (⟨S_, .i32⟩ : BufTy).Contents (Elt F) → (⟨S1000000, .i32⟩ : BufTy).Contents (Elt F)),
    binary main_arg3 main_v210 main_v211 (addi : (⟨S1000000, .i32⟩ : BufTy).Contents (Elt F) → (⟨S1000000, .i32⟩ : BufTy).Contents (Elt F) → (⟨S1000000, .i32⟩ : BufTy).Contents (Elt F)),
    ternary main_v209 main_v211 main_arg3 main_v212 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v212 main_v213 (broadcastInDim S1000000x1 ![0] bcast_S1000000_S1000000x1_0 : (⟨S1000000, .i32⟩ : BufTy).Contents (Elt F) → (⟨S1000000x1, .i32⟩ : BufTy).Contents (Elt F)),
    binary main_v207 main_v213 main_v214 ((fun x i => Host.gather gather_S5000x128_S1000000x1_S1000000x128_1_0_n_n_0_1_1128 x i) : (⟨S5000x128, .f32⟩ : BufTy).Contents (Elt F) → (⟨S1000000x1, .i32⟩ : BufTy).Contents (Elt F) → (⟨S1000000x128, .f32⟩ : BufTy).Contents (Elt F)),
    nullary main_cst_45 (constant S_ .f32 0x00000000#32),
    unary main_cst_45 main_v215 (broadcastInDim S100000x128 ![] bcast_S_S100000x128 : (⟨S_, .f32⟩ : BufTy).Contents (Elt F) → (⟨S100000x128, .f32⟩ : BufTy).Contents (Elt F)),
    unary main_arg2 main_v216 (broadcastInDim S1000000x1 ![0] bcast_S1000000_S1000000x1_0 : (⟨S1000000, .i32⟩ : BufTy).Contents (Elt F) → (⟨S1000000x1, .i32⟩ : BufTy).Contents (Elt F)),
    ternary main_v215 main_v216 main_v214 main_v217 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    unary main_v203 main_v218 (Host.rsqrt : (⟨S100000, .f32⟩ : BufTy).Contents (Elt F) → (⟨S100000, .f32⟩ : BufTy).Contents (Elt F)),
    unary main_v218 main_v219 (broadcastInDim S100000x1 ![0] bcast_S100000_S100000x1_0 : (⟨S100000, .f32⟩ : BufTy).Contents (Elt F) → (⟨S100000x1, .f32⟩ : BufTy).Contents (Elt F)),
    unary main_v219 main_v220 (broadcastInDim S100000x128 ![0, 1] bcast_S100000x1_S100000x128_0_1 : (⟨S100000x1, .f32⟩ : BufTy).Contents (Elt F) → (⟨S100000x128, .f32⟩ : BufTy).Contents (Elt F)),
    binary main_v217 main_v220 main_v221 (mulf : (⟨S100000x128, .f32⟩ : BufTy).Contents (Elt F) → (⟨S100000x128, .f32⟩ : BufTy).Contents (Elt F) → (⟨S100000x128, .f32⟩ : BufTy).Contents (Elt F)),
    binary main_v221 main_v190 main_v222 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v192 main_v223 (broadcastInDim S1x128 ![1] bcast_S128_S1x128_1 : (⟨S128, .f32⟩ : BufTy).Contents (Elt F) → (⟨S1x128, .f32⟩ : BufTy).Contents (Elt F)),
    unary main_v223 main_v224 (broadcastInDim S100000x128 ![0, 1] bcast_S1x128_S100000x128_0_1 : (⟨S1x128, .f32⟩ : BufTy).Contents (Elt F) → (⟨S100000x128, .f32⟩ : BufTy).Contents (Elt F)),
    binary main_v222 main_v224 main_v225 (addf : (⟨S100000x128, .f32⟩ : BufTy).Contents (Elt F) → (⟨S100000x128, .f32⟩ : BufTy).Contents (Elt F) → (⟨S100000x128, .f32⟩ : BufTy).Contents (Elt F)) ]
/-- The references operations 233–277 write. -/
abbrev p6_W : List (Ref sig .tc) := [main_v189, main_v190, main_v191, main_v192, main_cst_38, main_v193, main_cst_39, main_v194, main_v195, main_v196, main_cst_40, main_v197, main_v198, main_cst_41, main_v199, main_v200, main_v201, main_cst_42, main_v202, main_v203, main_v204, main_v205, main_v206, main_v207, main_c_43, main_v208, main_v209, main_c_44, main_v210, main_v211, main_v212, main_v213, main_v214, main_cst_45, main_v215, main_v216, main_v217, main_v218, main_v219, main_v220, main_v221, main_v222, main_v223, main_v224, main_v225]

/-- Operations 278–323 of @main, in order. -/
def p7 : List (HloOp τ sig (Elt F)) :=
  [ unary main_arg8 main_v226 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v226 main_v227 rfl shapeCasts_S1x128x128_S128x128,
    unary main_arg9 main_v228 ((extractStridedSlice S1x128 ![2, 0] · slices_S4x128_S1x128_2_0) : (⟨S4x128, .f32⟩ : BufTy).Contents (Elt F) → (⟨S1x128, .f32⟩ : BufTy).Contents (Elt F)),
    reshape main_v228 main_v229 rfl shapeCasts_S1x128_S128,
    nullary main_cst_46 (constant S_ .f32 0x3F800000#32),
    unary main_cst_46 main_v230 (broadcastInDim S1000000 ![] bcast_S_S1000000 : (⟨S_, .f32⟩ : BufTy).Contents (Elt F) → (⟨S1000000, .f32⟩ : BufTy).Contents (Elt F)),
    nullary main_cst_47 (constant S_ .f32 0x00000000#32),
    unary main_cst_47 main_v231 (broadcastInDim S100000 ![] bcast_S_S100000 : (⟨S_, .f32⟩ : BufTy).Contents (Elt F) → (⟨S100000, .f32⟩ : BufTy).Contents (Elt F)),
    unary main_arg4 main_v232 (broadcastInDim S1000000x1 ![0] bcast_S1000000_S1000000x1_0 : (⟨S1000000, .i32⟩ : BufTy).Contents (Elt F) → (⟨S1000000x1, .i32⟩ : BufTy).Contents (Elt F)),
    ternary main_v231 main_v232 main_v230 main_v233 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_48 (constant S_ .f32 0x3F800000#32),
    unary main_cst_48 main_v234 (broadcastInDim S100000 ![] bcast_S_S100000 : (⟨S_, .f32⟩ : BufTy).Contents (Elt F) → (⟨S100000, .f32⟩ : BufTy).Contents (Elt F)),
    binary main_v233 main_v234 main_v235 (maximumf : (⟨S100000, .f32⟩ : BufTy).Contents (Elt F) → (⟨S100000, .f32⟩ : BufTy).Contents (Elt F) → (⟨S100000, .f32⟩ : BufTy).Contents (Elt F)),
    nullary main_cst_49 (constant S_ .f32 0x00000000#32),
    unary main_cst_49 main_v236 (broadcastInDim S100000 ![] bcast_S_S100000 : (⟨S_, .f32⟩ : BufTy).Contents (Elt F) → (⟨S100000, .f32⟩ : BufTy).Contents (Elt F)),
    unary main_arg5 main_v237 (broadcastInDim S1000000x1 ![0] bcast_S1000000_S1000000x1_0 : (⟨S1000000, .i32⟩ : BufTy).Contents (Elt F) → (⟨S1000000x1, .i32⟩ : BufTy).Contents (Elt F)),
    ternary main_v236 main_v237 main_v230 main_v238 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_50 (constant S_ .f32 0x3F800000#32),
    unary main_cst_50 main_v239 (broadcastInDim S100000 ![] bcast_S_S100000 : (⟨S_, .f32⟩ : BufTy).Contents (Elt F) → (⟨S100000, .f32⟩ : BufTy).Contents (Elt F)),
    binary main_v238 main_v239 main_v240 (maximumf : (⟨S100000, .f32⟩ : BufTy).Contents (Elt F) → (⟨S100000, .f32⟩ : BufTy).Contents (Elt F) → (⟨S100000, .f32⟩ : BufTy).Contents (Elt F)),
    unary main_v235 main_v241 (Host.rsqrt : (⟨S100000, .f32⟩ : BufTy).Contents (Elt F) → (⟨S100000, .f32⟩ : BufTy).Contents (Elt F)),
    unary main_v241 main_v242 (broadcastInDim S100000x1 ![0] bcast_S100000_S100000x1_0 : (⟨S100000, .f32⟩ : BufTy).Contents (Elt F) → (⟨S100000x1, .f32⟩ : BufTy).Contents (Elt F)),
    unary main_v242 main_v243 (broadcastInDim S100000x128 ![0, 1] bcast_S100000x1_S100000x128_0_1 : (⟨S100000x1, .f32⟩ : BufTy).Contents (Elt F) → (⟨S100000x128, .f32⟩ : BufTy).Contents (Elt F)),
    binary main_v150 main_v243 main_v244 (mulf : (⟨S100000x128, .f32⟩ : BufTy).Contents (Elt F) → (⟨S100000x128, .f32⟩ : BufTy).Contents (Elt F) → (⟨S100000x128, .f32⟩ : BufTy).Contents (Elt F)),
    nullary main_c_51 (constantI S_ 32 0#32),
    unary main_c_51 main_v245 (broadcastInDim S1000000 ![] bcast_S_S1000000 : (⟨S_, .i32⟩ : BufTy).Contents (Elt F) → (⟨S1000000, .i32⟩ : BufTy).Contents (Elt F)),
    binary main_arg4 main_v245 main_v246 (cmpi .slt : (⟨S1000000, .i32⟩ : BufTy).Contents (Elt F) → (⟨S1000000, .i32⟩ : BufTy).Contents (Elt F) → (⟨S1000000, .i1⟩ : BufTy).Contents (Elt F)),
    nullary main_c_52 (constantI S_ 32 100000#32),
    unary main_c_52 main_v247 (broadcastInDim S1000000 ![] bcast_S_S1000000 : (⟨S_, .i32⟩ : BufTy).Contents (Elt F) → (⟨S1000000, .i32⟩ : BufTy).Contents (Elt F)),
    binary main_arg4 main_v247 main_v248 (addi : (⟨S1000000, .i32⟩ : BufTy).Contents (Elt F) → (⟨S1000000, .i32⟩ : BufTy).Contents (Elt F) → (⟨S1000000, .i32⟩ : BufTy).Contents (Elt F)),
    ternary main_v246 main_v248 main_arg4 main_v249 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v249 main_v250 (broadcastInDim S1000000x1 ![0] bcast_S1000000_S1000000x1_0 : (⟨S1000000, .i32⟩ : BufTy).Contents (Elt F) → (⟨S1000000x1, .i32⟩ : BufTy).Contents (Elt F)),
    binary main_v244 main_v250 main_v251 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_53 (constant S_ .f32 0x00000000#32),
    unary main_cst_53 main_v252 (broadcastInDim S100000x128 ![] bcast_S_S100000x128 : (⟨S_, .f32⟩ : BufTy).Contents (Elt F) → (⟨S100000x128, .f32⟩ : BufTy).Contents (Elt F)),
    unary main_arg5 main_v253 (broadcastInDim S1000000x1 ![0] bcast_S1000000_S1000000x1_0 : (⟨S1000000, .i32⟩ : BufTy).Contents (Elt F) → (⟨S1000000x1, .i32⟩ : BufTy).Contents (Elt F)),
    ternary main_v252 main_v253 main_v251 main_v254 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    unary main_v240 main_v255 (Host.rsqrt : (⟨S100000, .f32⟩ : BufTy).Contents (Elt F) → (⟨S100000, .f32⟩ : BufTy).Contents (Elt F)),
    unary main_v255 main_v256 (broadcastInDim S100000x1 ![0] bcast_S100000_S100000x1_0 : (⟨S100000, .f32⟩ : BufTy).Contents (Elt F) → (⟨S100000x1, .f32⟩ : BufTy).Contents (Elt F)),
    unary main_v256 main_v257 (broadcastInDim S100000x128 ![0, 1] bcast_S100000x1_S100000x128_0_1 : (⟨S100000x1, .f32⟩ : BufTy).Contents (Elt F) → (⟨S100000x128, .f32⟩ : BufTy).Contents (Elt F)),
    binary main_v254 main_v257 main_v258 (mulf : (⟨S100000x128, .f32⟩ : BufTy).Contents (Elt F) → (⟨S100000x128, .f32⟩ : BufTy).Contents (Elt F) → (⟨S100000x128, .f32⟩ : BufTy).Contents (Elt F)),
    binary main_v258 main_v227 main_v259 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v229 main_v260 (broadcastInDim S1x128 ![1] bcast_S128_S1x128_1 : (⟨S128, .f32⟩ : BufTy).Contents (Elt F) → (⟨S1x128, .f32⟩ : BufTy).Contents (Elt F)),
    unary main_v260 main_v261 (broadcastInDim S100000x128 ![0, 1] bcast_S1x128_S100000x128_0_1 : (⟨S1x128, .f32⟩ : BufTy).Contents (Elt F) → (⟨S100000x128, .f32⟩ : BufTy).Contents (Elt F)),
    binary main_v259 main_v261 main_v262 (addf : (⟨S100000x128, .f32⟩ : BufTy).Contents (Elt F) → (⟨S100000x128, .f32⟩ : BufTy).Contents (Elt F) → (⟨S100000x128, .f32⟩ : BufTy).Contents (Elt F)),
    binary main_v225 main_v262 main_v263 (addf : (⟨S100000x128, .f32⟩ : BufTy).Contents (Elt F) → (⟨S100000x128, .f32⟩ : BufTy).Contents (Elt F) → (⟨S100000x128, .f32⟩ : BufTy).Contents (Elt F)) ]
/-- The references operations 278–323 write. -/
abbrev p7_W : List (Ref sig .tc) := [main_v226, main_v227, main_v228, main_v229, main_cst_46, main_v230, main_cst_47, main_v231, main_v232, main_v233, main_cst_48, main_v234, main_v235, main_cst_49, main_v236, main_v237, main_v238, main_cst_50, main_v239, main_v240, main_v241, main_v242, main_v243, main_v244, main_c_51, main_v245, main_v246, main_c_52, main_v247, main_v248, main_v249, main_v250, main_v251, main_cst_53, main_v252, main_v253, main_v254, main_v255, main_v256, main_v257, main_v258, main_v259, main_v260, main_v261, main_v262, main_v263]

/-- Operations 324–369 of @main, in order. -/
def p8 : List (HloOp τ sig (Elt F)) :=
  [ unary main_arg8 main_v264 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v264 main_v265 rfl shapeCasts_S1x128x128_S128x128,
    unary main_arg9 main_v266 ((extractStridedSlice S1x128 ![3, 0] · slices_S4x128_S1x128_3_0) : (⟨S4x128, .f32⟩ : BufTy).Contents (Elt F) → (⟨S1x128, .f32⟩ : BufTy).Contents (Elt F)),
    reshape main_v266 main_v267 rfl shapeCasts_S1x128_S128,
    nullary main_cst_54 (constant S_ .f32 0x3F800000#32),
    unary main_cst_54 main_v268 (broadcastInDim S1000000 ![] bcast_S_S1000000 : (⟨S_, .f32⟩ : BufTy).Contents (Elt F) → (⟨S1000000, .f32⟩ : BufTy).Contents (Elt F)),
    nullary main_cst_55 (constant S_ .f32 0x00000000#32),
    unary main_cst_55 main_v269 (broadcastInDim S100000 ![] bcast_S_S100000 : (⟨S_, .f32⟩ : BufTy).Contents (Elt F) → (⟨S100000, .f32⟩ : BufTy).Contents (Elt F)),
    unary main_arg5 main_v270 (broadcastInDim S1000000x1 ![0] bcast_S1000000_S1000000x1_0 : (⟨S1000000, .i32⟩ : BufTy).Contents (Elt F) → (⟨S1000000x1, .i32⟩ : BufTy).Contents (Elt F)),
    ternary main_v269 main_v270 main_v268 main_v271 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_56 (constant S_ .f32 0x3F800000#32),
    unary main_cst_56 main_v272 (broadcastInDim S100000 ![] bcast_S_S100000 : (⟨S_, .f32⟩ : BufTy).Contents (Elt F) → (⟨S100000, .f32⟩ : BufTy).Contents (Elt F)),
    binary main_v271 main_v272 main_v273 (maximumf : (⟨S100000, .f32⟩ : BufTy).Contents (Elt F) → (⟨S100000, .f32⟩ : BufTy).Contents (Elt F) → (⟨S100000, .f32⟩ : BufTy).Contents (Elt F)),
    nullary main_cst_57 (constant S_ .f32 0x00000000#32),
    unary main_cst_57 main_v274 (broadcastInDim S100000 ![] bcast_S_S100000 : (⟨S_, .f32⟩ : BufTy).Contents (Elt F) → (⟨S100000, .f32⟩ : BufTy).Contents (Elt F)),
    unary main_arg4 main_v275 (broadcastInDim S1000000x1 ![0] bcast_S1000000_S1000000x1_0 : (⟨S1000000, .i32⟩ : BufTy).Contents (Elt F) → (⟨S1000000x1, .i32⟩ : BufTy).Contents (Elt F)),
    ternary main_v274 main_v275 main_v268 main_v276 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_58 (constant S_ .f32 0x3F800000#32),
    unary main_cst_58 main_v277 (broadcastInDim S100000 ![] bcast_S_S100000 : (⟨S_, .f32⟩ : BufTy).Contents (Elt F) → (⟨S100000, .f32⟩ : BufTy).Contents (Elt F)),
    binary main_v276 main_v277 main_v278 (maximumf : (⟨S100000, .f32⟩ : BufTy).Contents (Elt F) → (⟨S100000, .f32⟩ : BufTy).Contents (Elt F) → (⟨S100000, .f32⟩ : BufTy).Contents (Elt F)),
    unary main_v273 main_v279 (Host.rsqrt : (⟨S100000, .f32⟩ : BufTy).Contents (Elt F) → (⟨S100000, .f32⟩ : BufTy).Contents (Elt F)),
    unary main_v279 main_v280 (broadcastInDim S100000x1 ![0] bcast_S100000_S100000x1_0 : (⟨S100000, .f32⟩ : BufTy).Contents (Elt F) → (⟨S100000x1, .f32⟩ : BufTy).Contents (Elt F)),
    unary main_v280 main_v281 (broadcastInDim S100000x128 ![0, 1] bcast_S100000x1_S100000x128_0_1 : (⟨S100000x1, .f32⟩ : BufTy).Contents (Elt F) → (⟨S100000x128, .f32⟩ : BufTy).Contents (Elt F)),
    binary main_v150 main_v281 main_v282 (mulf : (⟨S100000x128, .f32⟩ : BufTy).Contents (Elt F) → (⟨S100000x128, .f32⟩ : BufTy).Contents (Elt F) → (⟨S100000x128, .f32⟩ : BufTy).Contents (Elt F)),
    nullary main_c_59 (constantI S_ 32 0#32),
    unary main_c_59 main_v283 (broadcastInDim S1000000 ![] bcast_S_S1000000 : (⟨S_, .i32⟩ : BufTy).Contents (Elt F) → (⟨S1000000, .i32⟩ : BufTy).Contents (Elt F)),
    binary main_arg5 main_v283 main_v284 (cmpi .slt : (⟨S1000000, .i32⟩ : BufTy).Contents (Elt F) → (⟨S1000000, .i32⟩ : BufTy).Contents (Elt F) → (⟨S1000000, .i1⟩ : BufTy).Contents (Elt F)),
    nullary main_c_60 (constantI S_ 32 100000#32),
    unary main_c_60 main_v285 (broadcastInDim S1000000 ![] bcast_S_S1000000 : (⟨S_, .i32⟩ : BufTy).Contents (Elt F) → (⟨S1000000, .i32⟩ : BufTy).Contents (Elt F)),
    binary main_arg5 main_v285 main_v286 (addi : (⟨S1000000, .i32⟩ : BufTy).Contents (Elt F) → (⟨S1000000, .i32⟩ : BufTy).Contents (Elt F) → (⟨S1000000, .i32⟩ : BufTy).Contents (Elt F)),
    ternary main_v284 main_v286 main_arg5 main_v287 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v287 main_v288 (broadcastInDim S1000000x1 ![0] bcast_S1000000_S1000000x1_0 : (⟨S1000000, .i32⟩ : BufTy).Contents (Elt F) → (⟨S1000000x1, .i32⟩ : BufTy).Contents (Elt F)),
    binary main_v282 main_v288 main_v289 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_61 (constant S_ .f32 0x00000000#32),
    unary main_cst_61 main_v290 (broadcastInDim S100000x128 ![] bcast_S_S100000x128 : (⟨S_, .f32⟩ : BufTy).Contents (Elt F) → (⟨S100000x128, .f32⟩ : BufTy).Contents (Elt F)),
    unary main_arg4 main_v291 (broadcastInDim S1000000x1 ![0] bcast_S1000000_S1000000x1_0 : (⟨S1000000, .i32⟩ : BufTy).Contents (Elt F) → (⟨S1000000x1, .i32⟩ : BufTy).Contents (Elt F)),
    ternary main_v290 main_v291 main_v289 main_v292 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    unary main_v278 main_v293 (Host.rsqrt : (⟨S100000, .f32⟩ : BufTy).Contents (Elt F) → (⟨S100000, .f32⟩ : BufTy).Contents (Elt F)),
    unary main_v293 main_v294 (broadcastInDim S100000x1 ![0] bcast_S100000_S100000x1_0 : (⟨S100000, .f32⟩ : BufTy).Contents (Elt F) → (⟨S100000x1, .f32⟩ : BufTy).Contents (Elt F)),
    unary main_v294 main_v295 (broadcastInDim S100000x128 ![0, 1] bcast_S100000x1_S100000x128_0_1 : (⟨S100000x1, .f32⟩ : BufTy).Contents (Elt F) → (⟨S100000x128, .f32⟩ : BufTy).Contents (Elt F)),
    binary main_v292 main_v295 main_v296 (mulf : (⟨S100000x128, .f32⟩ : BufTy).Contents (Elt F) → (⟨S100000x128, .f32⟩ : BufTy).Contents (Elt F) → (⟨S100000x128, .f32⟩ : BufTy).Contents (Elt F)),
    binary main_v296 main_v265 main_v297 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v267 main_v298 (broadcastInDim S1x128 ![1] bcast_S128_S1x128_1 : (⟨S128, .f32⟩ : BufTy).Contents (Elt F) → (⟨S1x128, .f32⟩ : BufTy).Contents (Elt F)),
    unary main_v298 main_v299 (broadcastInDim S100000x128 ![0, 1] bcast_S1x128_S100000x128_0_1 : (⟨S1x128, .f32⟩ : BufTy).Contents (Elt F) → (⟨S100000x128, .f32⟩ : BufTy).Contents (Elt F)),
    binary main_v297 main_v299 main_v300 (addf : (⟨S100000x128, .f32⟩ : BufTy).Contents (Elt F) → (⟨S100000x128, .f32⟩ : BufTy).Contents (Elt F) → (⟨S100000x128, .f32⟩ : BufTy).Contents (Elt F)),
    binary main_v263 main_v300 main_v301 (addf : (⟨S100000x128, .f32⟩ : BufTy).Contents (Elt F) → (⟨S100000x128, .f32⟩ : BufTy).Contents (Elt F) → (⟨S100000x128, .f32⟩ : BufTy).Contents (Elt F)) ]
/-- The references operations 324–369 write. -/
abbrev p8_W : List (Ref sig .tc) := [main_v264, main_v265, main_v266, main_v267, main_cst_54, main_v268, main_cst_55, main_v269, main_v270, main_v271, main_cst_56, main_v272, main_v273, main_cst_57, main_v274, main_v275, main_v276, main_cst_58, main_v277, main_v278, main_v279, main_v280, main_v281, main_v282, main_c_59, main_v283, main_v284, main_c_60, main_v285, main_v286, main_v287, main_v288, main_v289, main_cst_61, main_v290, main_v291, main_v292, main_v293, main_v294, main_v295, main_v296, main_v297, main_v298, main_v299, main_v300, main_v301]

/-- Operations 370–375 of @main, in order. -/
def p9 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v301) (TRef.of (T := ⟨S100000x128, .f32⟩) main_call2_v0) (TRef.of (T := ⟨S100000x128, .f32⟩) main_v302) maximumf,
    TRef.nullary (TRef.of (T := ⟨S_, .f32⟩) main_call3_cst) (constant S_ .f32 0x00000000#32),
    TRef.unary (TRef.of (T := ⟨S_, .f32⟩) main_call3_cst) (TRef.of (T := ⟨S5000x128, .f32⟩) main_call3_v0) (broadcastInDim S5000x128 ![] bcast_S_S5000x128),
    TRef.binary (TRef.of (T := ⟨S5000x128, .f32⟩) main_v188) (TRef.of (T := ⟨S5000x128, .f32⟩) main_call3_v0) (TRef.of (T := ⟨S5000x128, .f32⟩) main_v303) maximumf ]
/-- The references operations 370–375 write. -/
abbrev p9_W : List (Ref sig .tc) := [main_call2_cst, main_call2_v0, main_v302, main_call3_cst, main_call3_v0, main_v303]

/-- Operations 376–420 of @main, in order. -/
def p10 : List (HloOp τ sig (Elt F)) :=
  [ unary main_arg10 main_v304 ((extractStridedSlice S1x128x64 ![0, 0, 0] · slices_S4x128x64_S1x128x64_0_0_0) : (⟨S4x128x64, .f32⟩ : BufTy).Contents (Elt F) → (⟨S1x128x64, .f32⟩ : BufTy).Contents (Elt F)),
    reshape main_v304 main_v305 rfl shapeCasts_S1x128x64_S128x64,
    unary main_arg11 main_v306 ((extractStridedSlice S1x64 ![0, 0] · slices_S4x64_S1x64_0_0) : (⟨S4x64, .f32⟩ : BufTy).Contents (Elt F) → (⟨S1x64, .f32⟩ : BufTy).Contents (Elt F)),
    reshape main_v306 main_v307 rfl shapeCasts_S1x64_S64,
    nullary main_cst_62 (constant S_ .f32 0x3F800000#32),
    unary main_cst_62 main_v308 (broadcastInDim S1000000 ![] bcast_S_S1000000 : (⟨S_, .f32⟩ : BufTy).Contents (Elt F) → (⟨S1000000, .f32⟩ : BufTy).Contents (Elt F)),
    nullary main_cst_63 (constant S_ .f32 0x00000000#32),
    unary main_cst_63 main_v309 (broadcastInDim S100000 ![] bcast_S_S100000 : (⟨S_, .f32⟩ : BufTy).Contents (Elt F) → (⟨S100000, .f32⟩ : BufTy).Contents (Elt F)),
    unary main_arg2 main_v310 (broadcastInDim S1000000x1 ![0] bcast_S1000000_S1000000x1_0 : (⟨S1000000, .i32⟩ : BufTy).Contents (Elt F) → (⟨S1000000x1, .i32⟩ : BufTy).Contents (Elt F)),
    ternary main_v309 main_v310 main_v308 main_v311 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_64 (constant S_ .f32 0x3F800000#32),
    unary main_cst_64 main_v312 (broadcastInDim S100000 ![] bcast_S_S100000 : (⟨S_, .f32⟩ : BufTy).Contents (Elt F) → (⟨S100000, .f32⟩ : BufTy).Contents (Elt F)),
    binary main_v311 main_v312 main_v313 (maximumf : (⟨S100000, .f32⟩ : BufTy).Contents (Elt F) → (⟨S100000, .f32⟩ : BufTy).Contents (Elt F) → (⟨S100000, .f32⟩ : BufTy).Contents (Elt F)),
    nullary main_cst_65 (constant S_ .f32 0x00000000#32),
    unary main_cst_65 main_v314 (broadcastInDim S5000 ![] bcast_S_S5000 : (⟨S_, .f32⟩ : BufTy).Contents (Elt F) → (⟨S5000, .f32⟩ : BufTy).Contents (Elt F)),
    unary main_arg3 main_v315 (broadcastInDim S1000000x1 ![0] bcast_S1000000_S1000000x1_0 : (⟨S1000000, .i32⟩ : BufTy).Contents (Elt F) → (⟨S1000000x1, .i32⟩ : BufTy).Contents (Elt F)),
    ternary main_v314 main_v315 main_v308 main_v316 ((fun x i u => Host.scatterAdd scatter_S5000_S1000000x1_S1000000_n_0_0_1 x i u) : (⟨S5000, .f32⟩ : BufTy).Contents (Elt F) → (⟨S1000000x1, .i32⟩ : BufTy).Contents (Elt F) → (⟨S1000000, .f32⟩ : BufTy).Contents (Elt F) → (⟨S5000, .f32⟩ : BufTy).Contents (Elt F)),
    nullary main_cst_66 (constant S_ .f32 0x3F800000#32),
    unary main_cst_66 main_v317 (broadcastInDim S5000 ![] bcast_S_S5000 : (⟨S_, .f32⟩ : BufTy).Contents (Elt F) → (⟨S5000, .f32⟩ : BufTy).Contents (Elt F)),
    binary main_v316 main_v317 main_v318 (maximumf : (⟨S5000, .f32⟩ : BufTy).Contents (Elt F) → (⟨S5000, .f32⟩ : BufTy).Contents (Elt F) → (⟨S5000, .f32⟩ : BufTy).Contents (Elt F)),
    unary main_v313 main_v319 (Host.rsqrt : (⟨S100000, .f32⟩ : BufTy).Contents (Elt F) → (⟨S100000, .f32⟩ : BufTy).Contents (Elt F)),
    unary main_v319 main_v320 (broadcastInDim S100000x1 ![0] bcast_S100000_S100000x1_0 : (⟨S100000, .f32⟩ : BufTy).Contents (Elt F) → (⟨S100000x1, .f32⟩ : BufTy).Contents (Elt F)),
    unary main_v320 main_v321 (broadcastInDim S100000x128 ![0, 1] bcast_S100000x1_S100000x128_0_1 : (⟨S100000x1, .f32⟩ : BufTy).Contents (Elt F) → (⟨S100000x128, .f32⟩ : BufTy).Contents (Elt F)),
    binary main_v302 main_v321 main_v322 (mulf : (⟨S100000x128, .f32⟩ : BufTy).Contents (Elt F) → (⟨S100000x128, .f32⟩ : BufTy).Contents (Elt F) → (⟨S100000x128, .f32⟩ : BufTy).Contents (Elt F)),
    nullary main_c_67 (constantI S_ 32 0#32),
    unary main_c_67 main_v323 (broadcastInDim S1000000 ![] bcast_S_S1000000 : (⟨S_, .i32⟩ : BufTy).Contents (Elt F) → (⟨S1000000, .i32⟩ : BufTy).Contents (Elt F)),
    binary main_arg2 main_v323 main_v324 (cmpi .slt : (⟨S1000000, .i32⟩ : BufTy).Contents (Elt F) → (⟨S1000000, .i32⟩ : BufTy).Contents (Elt F) → (⟨S1000000, .i1⟩ : BufTy).Contents (Elt F)),
    nullary main_c_68 (constantI S_ 32 100000#32),
    unary main_c_68 main_v325 (broadcastInDim S1000000 ![] bcast_S_S1000000 : (⟨S_, .i32⟩ : BufTy).Contents (Elt F) → (⟨S1000000, .i32⟩ : BufTy).Contents (Elt F)),
    binary main_arg2 main_v325 main_v326 (addi : (⟨S1000000, .i32⟩ : BufTy).Contents (Elt F) → (⟨S1000000, .i32⟩ : BufTy).Contents (Elt F) → (⟨S1000000, .i32⟩ : BufTy).Contents (Elt F)),
    ternary main_v324 main_v326 main_arg2 main_v327 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v327 main_v328 (broadcastInDim S1000000x1 ![0] bcast_S1000000_S1000000x1_0 : (⟨S1000000, .i32⟩ : BufTy).Contents (Elt F) → (⟨S1000000x1, .i32⟩ : BufTy).Contents (Elt F)),
    binary main_v322 main_v328 main_v329 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_69 (constant S_ .f32 0x00000000#32),
    unary main_cst_69 main_v330 (broadcastInDim S5000x128 ![] bcast_S_S5000x128 : (⟨S_, .f32⟩ : BufTy).Contents (Elt F) → (⟨S5000x128, .f32⟩ : BufTy).Contents (Elt F)),
    unary main_arg3 main_v331 (broadcastInDim S1000000x1 ![0] bcast_S1000000_S1000000x1_0 : (⟨S1000000, .i32⟩ : BufTy).Contents (Elt F) → (⟨S1000000x1, .i32⟩ : BufTy).Contents (Elt F)),
    ternary main_v330 main_v331 main_v329 main_v332 ((fun x i u => Host.scatterAdd scatter_S5000x128_S1000000x1_S1000000x128_1_0_0_1 x i u) : (⟨S5000x128, .f32⟩ : BufTy).Contents (Elt F) → (⟨S1000000x1, .i32⟩ : BufTy).Contents (Elt F) → (⟨S1000000x128, .f32⟩ : BufTy).Contents (Elt F) → (⟨S5000x128, .f32⟩ : BufTy).Contents (Elt F)),
    unary main_v318 main_v333 (Host.rsqrt : (⟨S5000, .f32⟩ : BufTy).Contents (Elt F) → (⟨S5000, .f32⟩ : BufTy).Contents (Elt F)),
    unary main_v333 main_v334 (broadcastInDim S5000x1 ![0] bcast_S5000_S5000x1_0 : (⟨S5000, .f32⟩ : BufTy).Contents (Elt F) → (⟨S5000x1, .f32⟩ : BufTy).Contents (Elt F)),
    unary main_v334 main_v335 (broadcastInDim S5000x128 ![0, 1] bcast_S5000x1_S5000x128_0_1 : (⟨S5000x1, .f32⟩ : BufTy).Contents (Elt F) → (⟨S5000x128, .f32⟩ : BufTy).Contents (Elt F)),
    binary main_v332 main_v335 main_v336 (mulf : (⟨S5000x128, .f32⟩ : BufTy).Contents (Elt F) → (⟨S5000x128, .f32⟩ : BufTy).Contents (Elt F) → (⟨S5000x128, .f32⟩ : BufTy).Contents (Elt F)),
    binary main_v336 main_v305 main_v337 ((fun l r => Host.dotGeneral dot_S5000x128_S128x64_S5000x64_1_0_0_1_n_n none l r) : (⟨S5000x128, .f32⟩ : BufTy).Contents (Elt F) → (⟨S128x64, .f32⟩ : BufTy).Contents (Elt F) → (⟨S5000x64, .f32⟩ : BufTy).Contents (Elt F)),
    unary main_v307 main_v338 (broadcastInDim S1x64 ![1] bcast_S64_S1x64_1 : (⟨S64, .f32⟩ : BufTy).Contents (Elt F) → (⟨S1x64, .f32⟩ : BufTy).Contents (Elt F)),
    unary main_v338 main_v339 (broadcastInDim S5000x64 ![0, 1] bcast_S1x64_S5000x64_0_1 : (⟨S1x64, .f32⟩ : BufTy).Contents (Elt F) → (⟨S5000x64, .f32⟩ : BufTy).Contents (Elt F)),
    binary main_v337 main_v339 main_v340 (addf : (⟨S5000x64, .f32⟩ : BufTy).Contents (Elt F) → (⟨S5000x64, .f32⟩ : BufTy).Contents (Elt F) → (⟨S5000x64, .f32⟩ : BufTy).Contents (Elt F)) ]
/-- The references operations 376–420 write. -/
abbrev p10_W : List (Ref sig .tc) := [main_v304, main_v305, main_v306, main_v307, main_cst_62, main_v308, main_cst_63, main_v309, main_v310, main_v311, main_cst_64, main_v312, main_v313, main_cst_65, main_v314, main_v315, main_v316, main_cst_66, main_v317, main_v318, main_v319, main_v320, main_v321, main_v322, main_c_67, main_v323, main_v324, main_c_68, main_v325, main_v326, main_v327, main_v328, main_v329, main_cst_69, main_v330, main_v331, main_v332, main_v333, main_v334, main_v335, main_v336, main_v337, main_v338, main_v339, main_v340]

/-- Operations 421–465 of @main, in order. -/
def p11 : List (HloOp τ sig (Elt F)) :=
  [ unary main_arg10 main_v341 ((extractStridedSlice S1x128x64 ![1, 0, 0] · slices_S4x128x64_S1x128x64_1_0_0) : (⟨S4x128x64, .f32⟩ : BufTy).Contents (Elt F) → (⟨S1x128x64, .f32⟩ : BufTy).Contents (Elt F)),
    reshape main_v341 main_v342 rfl shapeCasts_S1x128x64_S128x64,
    unary main_arg11 main_v343 ((extractStridedSlice S1x64 ![1, 0] · slices_S4x64_S1x64_1_0) : (⟨S4x64, .f32⟩ : BufTy).Contents (Elt F) → (⟨S1x64, .f32⟩ : BufTy).Contents (Elt F)),
    reshape main_v343 main_v344 rfl shapeCasts_S1x64_S64,
    nullary main_cst_70 (constant S_ .f32 0x3F800000#32),
    unary main_cst_70 main_v345 (broadcastInDim S1000000 ![] bcast_S_S1000000 : (⟨S_, .f32⟩ : BufTy).Contents (Elt F) → (⟨S1000000, .f32⟩ : BufTy).Contents (Elt F)),
    nullary main_cst_71 (constant S_ .f32 0x00000000#32),
    unary main_cst_71 main_v346 (broadcastInDim S5000 ![] bcast_S_S5000 : (⟨S_, .f32⟩ : BufTy).Contents (Elt F) → (⟨S5000, .f32⟩ : BufTy).Contents (Elt F)),
    unary main_arg3 main_v347 (broadcastInDim S1000000x1 ![0] bcast_S1000000_S1000000x1_0 : (⟨S1000000, .i32⟩ : BufTy).Contents (Elt F) → (⟨S1000000x1, .i32⟩ : BufTy).Contents (Elt F)),
    ternary main_v346 main_v347 main_v345 main_v348 ((fun x i u => Host.scatterAdd scatter_S5000_S1000000x1_S1000000_n_0_0_1 x i u) : (⟨S5000, .f32⟩ : BufTy).Contents (Elt F) → (⟨S1000000x1, .i32⟩ : BufTy).Contents (Elt F) → (⟨S1000000, .f32⟩ : BufTy).Contents (Elt F) → (⟨S5000, .f32⟩ : BufTy).Contents (Elt F)),
    nullary main_cst_72 (constant S_ .f32 0x3F800000#32),
    unary main_cst_72 main_v349 (broadcastInDim S5000 ![] bcast_S_S5000 : (⟨S_, .f32⟩ : BufTy).Contents (Elt F) → (⟨S5000, .f32⟩ : BufTy).Contents (Elt F)),
    binary main_v348 main_v349 main_v350 (maximumf : (⟨S5000, .f32⟩ : BufTy).Contents (Elt F) → (⟨S5000, .f32⟩ : BufTy).Contents (Elt F) → (⟨S5000, .f32⟩ : BufTy).Contents (Elt F)),
    nullary main_cst_73 (constant S_ .f32 0x00000000#32),
    unary main_cst_73 main_v351 (broadcastInDim S100000 ![] bcast_S_S100000 : (⟨S_, .f32⟩ : BufTy).Contents (Elt F) → (⟨S100000, .f32⟩ : BufTy).Contents (Elt F)),
    unary main_arg2 main_v352 (broadcastInDim S1000000x1 ![0] bcast_S1000000_S1000000x1_0 : (⟨S1000000, .i32⟩ : BufTy).Contents (Elt F) → (⟨S1000000x1, .i32⟩ : BufTy).Contents (Elt F)),
    ternary main_v351 main_v352 main_v345 main_v353 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_74 (constant S_ .f32 0x3F800000#32),
    unary main_cst_74 main_v354 (broadcastInDim S100000 ![] bcast_S_S100000 : (⟨S_, .f32⟩ : BufTy).Contents (Elt F) → (⟨S100000, .f32⟩ : BufTy).Contents (Elt F)),
    binary main_v353 main_v354 main_v355 (maximumf : (⟨S100000, .f32⟩ : BufTy).Contents (Elt F) → (⟨S100000, .f32⟩ : BufTy).Contents (Elt F) → (⟨S100000, .f32⟩ : BufTy).Contents (Elt F)),
    unary main_v350 main_v356 (Host.rsqrt : (⟨S5000, .f32⟩ : BufTy).Contents (Elt F) → (⟨S5000, .f32⟩ : BufTy).Contents (Elt F)),
    unary main_v356 main_v357 (broadcastInDim S5000x1 ![0] bcast_S5000_S5000x1_0 : (⟨S5000, .f32⟩ : BufTy).Contents (Elt F) → (⟨S5000x1, .f32⟩ : BufTy).Contents (Elt F)),
    unary main_v357 main_v358 (broadcastInDim S5000x128 ![0, 1] bcast_S5000x1_S5000x128_0_1 : (⟨S5000x1, .f32⟩ : BufTy).Contents (Elt F) → (⟨S5000x128, .f32⟩ : BufTy).Contents (Elt F)),
    binary main_v303 main_v358 main_v359 (mulf : (⟨S5000x128, .f32⟩ : BufTy).Contents (Elt F) → (⟨S5000x128, .f32⟩ : BufTy).Contents (Elt F) → (⟨S5000x128, .f32⟩ : BufTy).Contents (Elt F)),
    nullary main_c_75 (constantI S_ 32 0#32),
    unary main_c_75 main_v360 (broadcastInDim S1000000 ![] bcast_S_S1000000 : (⟨S_, .i32⟩ : BufTy).Contents (Elt F) → (⟨S1000000, .i32⟩ : BufTy).Contents (Elt F)),
    binary main_arg3 main_v360 main_v361 (cmpi .slt : (⟨S1000000, .i32⟩ : BufTy).Contents (Elt F) → (⟨S1000000, .i32⟩ : BufTy).Contents (Elt F) → (⟨S1000000, .i1⟩ : BufTy).Contents (Elt F)),
    nullary main_c_76 (constantI S_ 32 5000#32),
    unary main_c_76 main_v362 (broadcastInDim S1000000 ![] bcast_S_S1000000 : (⟨S_, .i32⟩ : BufTy).Contents (Elt F) → (⟨S1000000, .i32⟩ : BufTy).Contents (Elt F)),
    binary main_arg3 main_v362 main_v363 (addi : (⟨S1000000, .i32⟩ : BufTy).Contents (Elt F) → (⟨S1000000, .i32⟩ : BufTy).Contents (Elt F) → (⟨S1000000, .i32⟩ : BufTy).Contents (Elt F)),
    ternary main_v361 main_v363 main_arg3 main_v364 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v364 main_v365 (broadcastInDim S1000000x1 ![0] bcast_S1000000_S1000000x1_0 : (⟨S1000000, .i32⟩ : BufTy).Contents (Elt F) → (⟨S1000000x1, .i32⟩ : BufTy).Contents (Elt F)),
    binary main_v359 main_v365 main_v366 ((fun x i => Host.gather gather_S5000x128_S1000000x1_S1000000x128_1_0_n_n_0_1_1128 x i) : (⟨S5000x128, .f32⟩ : BufTy).Contents (Elt F) → (⟨S1000000x1, .i32⟩ : BufTy).Contents (Elt F) → (⟨S1000000x128, .f32⟩ : BufTy).Contents (Elt F)),
    nullary main_cst_77 (constant S_ .f32 0x00000000#32),
    unary main_cst_77 main_v367 (broadcastInDim S100000x128 ![] bcast_S_S100000x128 : (⟨S_, .f32⟩ : BufTy).Contents (Elt F) → (⟨S100000x128, .f32⟩ : BufTy).Contents (Elt F)),
    unary main_arg2 main_v368 (broadcastInDim S1000000x1 ![0] bcast_S1000000_S1000000x1_0 : (⟨S1000000, .i32⟩ : BufTy).Contents (Elt F) → (⟨S1000000x1, .i32⟩ : BufTy).Contents (Elt F)),
    ternary main_v367 main_v368 main_v366 main_v369 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    unary main_v355 main_v370 (Host.rsqrt : (⟨S100000, .f32⟩ : BufTy).Contents (Elt F) → (⟨S100000, .f32⟩ : BufTy).Contents (Elt F)),
    unary main_v370 main_v371 (broadcastInDim S100000x1 ![0] bcast_S100000_S100000x1_0 : (⟨S100000, .f32⟩ : BufTy).Contents (Elt F) → (⟨S100000x1, .f32⟩ : BufTy).Contents (Elt F)),
    unary main_v371 main_v372 (broadcastInDim S100000x128 ![0, 1] bcast_S100000x1_S100000x128_0_1 : (⟨S100000x1, .f32⟩ : BufTy).Contents (Elt F) → (⟨S100000x128, .f32⟩ : BufTy).Contents (Elt F)),
    binary main_v369 main_v372 main_v373 (mulf : (⟨S100000x128, .f32⟩ : BufTy).Contents (Elt F) → (⟨S100000x128, .f32⟩ : BufTy).Contents (Elt F) → (⟨S100000x128, .f32⟩ : BufTy).Contents (Elt F)),
    binary main_v373 main_v342 main_v374 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_v344 main_v375 (broadcastInDim S1x64 ![1] bcast_S64_S1x64_1 : (⟨S64, .f32⟩ : BufTy).Contents (Elt F) → (⟨S1x64, .f32⟩ : BufTy).Contents (Elt F)),
    unary main_v375 main_v376 (broadcastInDim S100000x64 ![0, 1] bcast_S1x64_S100000x64_0_1 : (⟨S1x64, .f32⟩ : BufTy).Contents (Elt F) → (⟨S100000x64, .f32⟩ : BufTy).Contents (Elt F)),
    binary main_v374 main_v376 main_v377 (addf : (⟨S100000x64, .f32⟩ : BufTy).Contents (Elt F) → (⟨S100000x64, .f32⟩ : BufTy).Contents (Elt F) → (⟨S100000x64, .f32⟩ : BufTy).Contents (Elt F)) ]
/-- The references operations 421–465 write. -/
abbrev p11_W : List (Ref sig .tc) := [main_v341, main_v342, main_v343, main_v344, main_cst_70, main_v345, main_cst_71, main_v346, main_v347, main_v348, main_cst_72, main_v349, main_v350, main_cst_73, main_v351, main_v352, main_v353, main_cst_74, main_v354, main_v355, main_v356, main_v357, main_v358, main_v359, main_c_75, main_v360, main_v361, main_c_76, main_v362, main_v363, main_v364, main_v365, main_v366, main_cst_77, main_v367, main_v368, main_v369, main_v370, main_v371, main_v372, main_v373, main_v374, main_v375, main_v376, main_v377]

/-- Operations 466–511 of @main, in order. -/
def p12 : List (HloOp τ sig (Elt F)) :=
  [ unary main_arg10 main_v378 ((extractStridedSlice S1x128x64 ![2, 0, 0] · slices_S4x128x64_S1x128x64_2_0_0) : (⟨S4x128x64, .f32⟩ : BufTy).Contents (Elt F) → (⟨S1x128x64, .f32⟩ : BufTy).Contents (Elt F)),
    reshape main_v378 main_v379 rfl shapeCasts_S1x128x64_S128x64,
    unary main_arg11 main_v380 ((extractStridedSlice S1x64 ![2, 0] · slices_S4x64_S1x64_2_0) : (⟨S4x64, .f32⟩ : BufTy).Contents (Elt F) → (⟨S1x64, .f32⟩ : BufTy).Contents (Elt F)),
    reshape main_v380 main_v381 rfl shapeCasts_S1x64_S64,
    nullary main_cst_78 (constant S_ .f32 0x3F800000#32),
    unary main_cst_78 main_v382 (broadcastInDim S1000000 ![] bcast_S_S1000000 : (⟨S_, .f32⟩ : BufTy).Contents (Elt F) → (⟨S1000000, .f32⟩ : BufTy).Contents (Elt F)),
    nullary main_cst_79 (constant S_ .f32 0x00000000#32),
    unary main_cst_79 main_v383 (broadcastInDim S100000 ![] bcast_S_S100000 : (⟨S_, .f32⟩ : BufTy).Contents (Elt F) → (⟨S100000, .f32⟩ : BufTy).Contents (Elt F)),
    unary main_arg4 main_v384 (broadcastInDim S1000000x1 ![0] bcast_S1000000_S1000000x1_0 : (⟨S1000000, .i32⟩ : BufTy).Contents (Elt F) → (⟨S1000000x1, .i32⟩ : BufTy).Contents (Elt F)),
    ternary main_v383 main_v384 main_v382 main_v385 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_80 (constant S_ .f32 0x3F800000#32),
    unary main_cst_80 main_v386 (broadcastInDim S100000 ![] bcast_S_S100000 : (⟨S_, .f32⟩ : BufTy).Contents (Elt F) → (⟨S100000, .f32⟩ : BufTy).Contents (Elt F)),
    binary main_v385 main_v386 main_v387 (maximumf : (⟨S100000, .f32⟩ : BufTy).Contents (Elt F) → (⟨S100000, .f32⟩ : BufTy).Contents (Elt F) → (⟨S100000, .f32⟩ : BufTy).Contents (Elt F)),
    nullary main_cst_81 (constant S_ .f32 0x00000000#32),
    unary main_cst_81 main_v388 (broadcastInDim S100000 ![] bcast_S_S100000 : (⟨S_, .f32⟩ : BufTy).Contents (Elt F) → (⟨S100000, .f32⟩ : BufTy).Contents (Elt F)),
    unary main_arg5 main_v389 (broadcastInDim S1000000x1 ![0] bcast_S1000000_S1000000x1_0 : (⟨S1000000, .i32⟩ : BufTy).Contents (Elt F) → (⟨S1000000x1, .i32⟩ : BufTy).Contents (Elt F)),
    ternary main_v388 main_v389 main_v382 main_v390 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_82 (constant S_ .f32 0x3F800000#32),
    unary main_cst_82 main_v391 (broadcastInDim S100000 ![] bcast_S_S100000 : (⟨S_, .f32⟩ : BufTy).Contents (Elt F) → (⟨S100000, .f32⟩ : BufTy).Contents (Elt F)),
    binary main_v390 main_v391 main_v392 (maximumf : (⟨S100000, .f32⟩ : BufTy).Contents (Elt F) → (⟨S100000, .f32⟩ : BufTy).Contents (Elt F) → (⟨S100000, .f32⟩ : BufTy).Contents (Elt F)),
    unary main_v387 main_v393 (Host.rsqrt : (⟨S100000, .f32⟩ : BufTy).Contents (Elt F) → (⟨S100000, .f32⟩ : BufTy).Contents (Elt F)),
    unary main_v393 main_v394 (broadcastInDim S100000x1 ![0] bcast_S100000_S100000x1_0 : (⟨S100000, .f32⟩ : BufTy).Contents (Elt F) → (⟨S100000x1, .f32⟩ : BufTy).Contents (Elt F)),
    unary main_v394 main_v395 (broadcastInDim S100000x128 ![0, 1] bcast_S100000x1_S100000x128_0_1 : (⟨S100000x1, .f32⟩ : BufTy).Contents (Elt F) → (⟨S100000x128, .f32⟩ : BufTy).Contents (Elt F)),
    binary main_v302 main_v395 main_v396 (mulf : (⟨S100000x128, .f32⟩ : BufTy).Contents (Elt F) → (⟨S100000x128, .f32⟩ : BufTy).Contents (Elt F) → (⟨S100000x128, .f32⟩ : BufTy).Contents (Elt F)),
    nullary main_c_83 (constantI S_ 32 0#32),
    unary main_c_83 main_v397 (broadcastInDim S1000000 ![] bcast_S_S1000000 : (⟨S_, .i32⟩ : BufTy).Contents (Elt F) → (⟨S1000000, .i32⟩ : BufTy).Contents (Elt F)),
    binary main_arg4 main_v397 main_v398 (cmpi .slt : (⟨S1000000, .i32⟩ : BufTy).Contents (Elt F) → (⟨S1000000, .i32⟩ : BufTy).Contents (Elt F) → (⟨S1000000, .i1⟩ : BufTy).Contents (Elt F)),
    nullary main_c_84 (constantI S_ 32 100000#32),
    unary main_c_84 main_v399 (broadcastInDim S1000000 ![] bcast_S_S1000000 : (⟨S_, .i32⟩ : BufTy).Contents (Elt F) → (⟨S1000000, .i32⟩ : BufTy).Contents (Elt F)),
    binary main_arg4 main_v399 main_v400 (addi : (⟨S1000000, .i32⟩ : BufTy).Contents (Elt F) → (⟨S1000000, .i32⟩ : BufTy).Contents (Elt F) → (⟨S1000000, .i32⟩ : BufTy).Contents (Elt F)),
    ternary main_v398 main_v400 main_arg4 main_v401 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v401 main_v402 (broadcastInDim S1000000x1 ![0] bcast_S1000000_S1000000x1_0 : (⟨S1000000, .i32⟩ : BufTy).Contents (Elt F) → (⟨S1000000x1, .i32⟩ : BufTy).Contents (Elt F)),
    binary main_v396 main_v402 main_v403 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_85 (constant S_ .f32 0x00000000#32),
    unary main_cst_85 main_v404 (broadcastInDim S100000x128 ![] bcast_S_S100000x128 : (⟨S_, .f32⟩ : BufTy).Contents (Elt F) → (⟨S100000x128, .f32⟩ : BufTy).Contents (Elt F)),
    unary main_arg5 main_v405 (broadcastInDim S1000000x1 ![0] bcast_S1000000_S1000000x1_0 : (⟨S1000000, .i32⟩ : BufTy).Contents (Elt F) → (⟨S1000000x1, .i32⟩ : BufTy).Contents (Elt F)),
    ternary main_v404 main_v405 main_v403 main_v406 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    unary main_v392 main_v407 (Host.rsqrt : (⟨S100000, .f32⟩ : BufTy).Contents (Elt F) → (⟨S100000, .f32⟩ : BufTy).Contents (Elt F)),
    unary main_v407 main_v408 (broadcastInDim S100000x1 ![0] bcast_S100000_S100000x1_0 : (⟨S100000, .f32⟩ : BufTy).Contents (Elt F) → (⟨S100000x1, .f32⟩ : BufTy).Contents (Elt F)),
    unary main_v408 main_v409 (broadcastInDim S100000x128 ![0, 1] bcast_S100000x1_S100000x128_0_1 : (⟨S100000x1, .f32⟩ : BufTy).Contents (Elt F) → (⟨S100000x128, .f32⟩ : BufTy).Contents (Elt F)),
    binary main_v406 main_v409 main_v410 (mulf : (⟨S100000x128, .f32⟩ : BufTy).Contents (Elt F) → (⟨S100000x128, .f32⟩ : BufTy).Contents (Elt F) → (⟨S100000x128, .f32⟩ : BufTy).Contents (Elt F)),
    binary main_v410 main_v379 main_v411 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_v381 main_v412 (broadcastInDim S1x64 ![1] bcast_S64_S1x64_1 : (⟨S64, .f32⟩ : BufTy).Contents (Elt F) → (⟨S1x64, .f32⟩ : BufTy).Contents (Elt F)),
    unary main_v412 main_v413 (broadcastInDim S100000x64 ![0, 1] bcast_S1x64_S100000x64_0_1 : (⟨S1x64, .f32⟩ : BufTy).Contents (Elt F) → (⟨S100000x64, .f32⟩ : BufTy).Contents (Elt F)),
    binary main_v411 main_v413 main_v414 (addf : (⟨S100000x64, .f32⟩ : BufTy).Contents (Elt F) → (⟨S100000x64, .f32⟩ : BufTy).Contents (Elt F) → (⟨S100000x64, .f32⟩ : BufTy).Contents (Elt F)),
    binary main_v377 main_v414 main_v415 (addf : (⟨S100000x64, .f32⟩ : BufTy).Contents (Elt F) → (⟨S100000x64, .f32⟩ : BufTy).Contents (Elt F) → (⟨S100000x64, .f32⟩ : BufTy).Contents (Elt F)) ]
/-- The references operations 466–511 write. -/
abbrev p12_W : List (Ref sig .tc) := [main_v378, main_v379, main_v380, main_v381, main_cst_78, main_v382, main_cst_79, main_v383, main_v384, main_v385, main_cst_80, main_v386, main_v387, main_cst_81, main_v388, main_v389, main_v390, main_cst_82, main_v391, main_v392, main_v393, main_v394, main_v395, main_v396, main_c_83, main_v397, main_v398, main_c_84, main_v399, main_v400, main_v401, main_v402, main_v403, main_cst_85, main_v404, main_v405, main_v406, main_v407, main_v408, main_v409, main_v410, main_v411, main_v412, main_v413, main_v414, main_v415]

/-- Operations 512–557 of @main, in order. -/
def p13 : List (HloOp τ sig (Elt F)) :=
  [ unary main_arg10 main_v416 ((extractStridedSlice S1x128x64 ![3, 0, 0] · slices_S4x128x64_S1x128x64_3_0_0) : (⟨S4x128x64, .f32⟩ : BufTy).Contents (Elt F) → (⟨S1x128x64, .f32⟩ : BufTy).Contents (Elt F)),
    reshape main_v416 main_v417 rfl shapeCasts_S1x128x64_S128x64,
    unary main_arg11 main_v418 ((extractStridedSlice S1x64 ![3, 0] · slices_S4x64_S1x64_3_0) : (⟨S4x64, .f32⟩ : BufTy).Contents (Elt F) → (⟨S1x64, .f32⟩ : BufTy).Contents (Elt F)),
    reshape main_v418 main_v419 rfl shapeCasts_S1x64_S64,
    nullary main_cst_86 (constant S_ .f32 0x3F800000#32),
    unary main_cst_86 main_v420 (broadcastInDim S1000000 ![] bcast_S_S1000000 : (⟨S_, .f32⟩ : BufTy).Contents (Elt F) → (⟨S1000000, .f32⟩ : BufTy).Contents (Elt F)),
    nullary main_cst_87 (constant S_ .f32 0x00000000#32),
    unary main_cst_87 main_v421 (broadcastInDim S100000 ![] bcast_S_S100000 : (⟨S_, .f32⟩ : BufTy).Contents (Elt F) → (⟨S100000, .f32⟩ : BufTy).Contents (Elt F)),
    unary main_arg5 main_v422 (broadcastInDim S1000000x1 ![0] bcast_S1000000_S1000000x1_0 : (⟨S1000000, .i32⟩ : BufTy).Contents (Elt F) → (⟨S1000000x1, .i32⟩ : BufTy).Contents (Elt F)),
    ternary main_v421 main_v422 main_v420 main_v423 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_88 (constant S_ .f32 0x3F800000#32),
    unary main_cst_88 main_v424 (broadcastInDim S100000 ![] bcast_S_S100000 : (⟨S_, .f32⟩ : BufTy).Contents (Elt F) → (⟨S100000, .f32⟩ : BufTy).Contents (Elt F)),
    binary main_v423 main_v424 main_v425 (maximumf : (⟨S100000, .f32⟩ : BufTy).Contents (Elt F) → (⟨S100000, .f32⟩ : BufTy).Contents (Elt F) → (⟨S100000, .f32⟩ : BufTy).Contents (Elt F)),
    nullary main_cst_89 (constant S_ .f32 0x00000000#32),
    unary main_cst_89 main_v426 (broadcastInDim S100000 ![] bcast_S_S100000 : (⟨S_, .f32⟩ : BufTy).Contents (Elt F) → (⟨S100000, .f32⟩ : BufTy).Contents (Elt F)),
    unary main_arg4 main_v427 (broadcastInDim S1000000x1 ![0] bcast_S1000000_S1000000x1_0 : (⟨S1000000, .i32⟩ : BufTy).Contents (Elt F) → (⟨S1000000x1, .i32⟩ : BufTy).Contents (Elt F)),
    ternary main_v426 main_v427 main_v420 main_v428 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_90 (constant S_ .f32 0x3F800000#32),
    unary main_cst_90 main_v429 (broadcastInDim S100000 ![] bcast_S_S100000 : (⟨S_, .f32⟩ : BufTy).Contents (Elt F) → (⟨S100000, .f32⟩ : BufTy).Contents (Elt F)),
    binary main_v428 main_v429 main_v430 (maximumf : (⟨S100000, .f32⟩ : BufTy).Contents (Elt F) → (⟨S100000, .f32⟩ : BufTy).Contents (Elt F) → (⟨S100000, .f32⟩ : BufTy).Contents (Elt F)),
    unary main_v425 main_v431 (Host.rsqrt : (⟨S100000, .f32⟩ : BufTy).Contents (Elt F) → (⟨S100000, .f32⟩ : BufTy).Contents (Elt F)),
    unary main_v431 main_v432 (broadcastInDim S100000x1 ![0] bcast_S100000_S100000x1_0 : (⟨S100000, .f32⟩ : BufTy).Contents (Elt F) → (⟨S100000x1, .f32⟩ : BufTy).Contents (Elt F)),
    unary main_v432 main_v433 (broadcastInDim S100000x128 ![0, 1] bcast_S100000x1_S100000x128_0_1 : (⟨S100000x1, .f32⟩ : BufTy).Contents (Elt F) → (⟨S100000x128, .f32⟩ : BufTy).Contents (Elt F)),
    binary main_v302 main_v433 main_v434 (mulf : (⟨S100000x128, .f32⟩ : BufTy).Contents (Elt F) → (⟨S100000x128, .f32⟩ : BufTy).Contents (Elt F) → (⟨S100000x128, .f32⟩ : BufTy).Contents (Elt F)),
    nullary main_c_91 (constantI S_ 32 0#32),
    unary main_c_91 main_v435 (broadcastInDim S1000000 ![] bcast_S_S1000000 : (⟨S_, .i32⟩ : BufTy).Contents (Elt F) → (⟨S1000000, .i32⟩ : BufTy).Contents (Elt F)),
    binary main_arg5 main_v435 main_v436 (cmpi .slt : (⟨S1000000, .i32⟩ : BufTy).Contents (Elt F) → (⟨S1000000, .i32⟩ : BufTy).Contents (Elt F) → (⟨S1000000, .i1⟩ : BufTy).Contents (Elt F)),
    nullary main_c_92 (constantI S_ 32 100000#32),
    unary main_c_92 main_v437 (broadcastInDim S1000000 ![] bcast_S_S1000000 : (⟨S_, .i32⟩ : BufTy).Contents (Elt F) → (⟨S1000000, .i32⟩ : BufTy).Contents (Elt F)),
    binary main_arg5 main_v437 main_v438 (addi : (⟨S1000000, .i32⟩ : BufTy).Contents (Elt F) → (⟨S1000000, .i32⟩ : BufTy).Contents (Elt F) → (⟨S1000000, .i32⟩ : BufTy).Contents (Elt F)),
    ternary main_v436 main_v438 main_arg5 main_v439 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v439 main_v440 (broadcastInDim S1000000x1 ![0] bcast_S1000000_S1000000x1_0 : (⟨S1000000, .i32⟩ : BufTy).Contents (Elt F) → (⟨S1000000x1, .i32⟩ : BufTy).Contents (Elt F)),
    binary main_v434 main_v440 main_v441 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_93 (constant S_ .f32 0x00000000#32),
    unary main_cst_93 main_v442 (broadcastInDim S100000x128 ![] bcast_S_S100000x128 : (⟨S_, .f32⟩ : BufTy).Contents (Elt F) → (⟨S100000x128, .f32⟩ : BufTy).Contents (Elt F)),
    unary main_arg4 main_v443 (broadcastInDim S1000000x1 ![0] bcast_S1000000_S1000000x1_0 : (⟨S1000000, .i32⟩ : BufTy).Contents (Elt F) → (⟨S1000000x1, .i32⟩ : BufTy).Contents (Elt F)),
    ternary main_v442 main_v443 main_v441 main_v444 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    unary main_v430 main_v445 (Host.rsqrt : (⟨S100000, .f32⟩ : BufTy).Contents (Elt F) → (⟨S100000, .f32⟩ : BufTy).Contents (Elt F)),
    unary main_v445 main_v446 (broadcastInDim S100000x1 ![0] bcast_S100000_S100000x1_0 : (⟨S100000, .f32⟩ : BufTy).Contents (Elt F) → (⟨S100000x1, .f32⟩ : BufTy).Contents (Elt F)),
    unary main_v446 main_v447 (broadcastInDim S100000x128 ![0, 1] bcast_S100000x1_S100000x128_0_1 : (⟨S100000x1, .f32⟩ : BufTy).Contents (Elt F) → (⟨S100000x128, .f32⟩ : BufTy).Contents (Elt F)),
    binary main_v444 main_v447 main_v448 (mulf : (⟨S100000x128, .f32⟩ : BufTy).Contents (Elt F) → (⟨S100000x128, .f32⟩ : BufTy).Contents (Elt F) → (⟨S100000x128, .f32⟩ : BufTy).Contents (Elt F)),
    binary main_v448 main_v417 main_v449 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_v419 main_v450 (broadcastInDim S1x64 ![1] bcast_S64_S1x64_1 : (⟨S64, .f32⟩ : BufTy).Contents (Elt F) → (⟨S1x64, .f32⟩ : BufTy).Contents (Elt F)),
    unary main_v450 main_v451 (broadcastInDim S100000x64 ![0, 1] bcast_S1x64_S100000x64_0_1 : (⟨S1x64, .f32⟩ : BufTy).Contents (Elt F) → (⟨S100000x64, .f32⟩ : BufTy).Contents (Elt F)),
    binary main_v449 main_v451 main_v452 (addf : (⟨S100000x64, .f32⟩ : BufTy).Contents (Elt F) → (⟨S100000x64, .f32⟩ : BufTy).Contents (Elt F) → (⟨S100000x64, .f32⟩ : BufTy).Contents (Elt F)),
    binary main_v415 main_v452 main_v453 (addf : (⟨S100000x64, .f32⟩ : BufTy).Contents (Elt F) → (⟨S100000x64, .f32⟩ : BufTy).Contents (Elt F) → (⟨S100000x64, .f32⟩ : BufTy).Contents (Elt F)) ]
/-- The references operations 512–557 write. -/
abbrev p13_W : List (Ref sig .tc) := [main_v416, main_v417, main_v418, main_v419, main_cst_86, main_v420, main_cst_87, main_v421, main_v422, main_v423, main_cst_88, main_v424, main_v425, main_cst_89, main_v426, main_v427, main_v428, main_cst_90, main_v429, main_v430, main_v431, main_v432, main_v433, main_v434, main_c_91, main_v435, main_v436, main_c_92, main_v437, main_v438, main_v439, main_v440, main_v441, main_cst_93, main_v442, main_v443, main_v444, main_v445, main_v446, main_v447, main_v448, main_v449, main_v450, main_v451, main_v452, main_v453]

end Cert.ReferenceIdeal.RunH

end
-- ==== Proof.LibTypedRef.lean ====
/-
  A typed reference's transports cancel.

  A typed reference pairs a buffer with a proof that the buffer's declared type is a given one; a host operation built
  over typed references carries its operands from the buffers' types to the given types and its result back, along
  those equations.  Carrying a value to the buffer's type and back again is the identity, whatever proof of the equation
  the reference holds — so a chain of such operations, each reading what the one before wrote, composes to the plain
  composition of their functions.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, _, _⟩ := x
  rfl

/-- From the buffer's type and back. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.Ref.RunH.lean ====
/-
  The reference program's run, read back piece by piece.

  The program is a straight line of 558 host operations. Run from any contents of the buffers, each buffer ends at the
  fold of the operations' results; the fold over a concatenation is the fold over the second list from the fold over
  the first. The line is cut into fourteen consecutive pieces, one per graph convolution and one per pair of
  rectifiers. Each piece, run from ANY contents that hold the arguments and the earlier stages it reads, leaves the
  stage it computes at the read module's stage function of the arguments; it writes none of the arguments and none of
  the stages a later piece still reads. Carried along the fourteen pieces this gives both results as the stage
  functions of the arguments, and the arguments unchanged.
-/
import proofs.«166004_j3839700763193_1_alg».proof.Proof.Ref.RunLite
import proofs.«166004_j3839700763193_1_alg».proof.Proof.Ref.RunPieces
import proofs.«166004_j3839700763193_1_alg».proof.Proof.Ref.Read
import proofs.«166004_j3839700763193_1_alg».proof.Proof.LibTypedRef

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

set_option quotPrecheck false in
local notation "R[" r "]" => Proc.devRef .tc r

/-- A float / a 32-bit integer array over a literal shape, at the extended reals. -/
abbrev TF (S : Shape) : Type := (⟨S, .f32⟩ : BufTy).Contents (Elt Ideal)
abbrev TI (S : Shape) : Type := (⟨S, .i32⟩ : BufTy).Contents (Elt Ideal)

/-! ## The fold over a concatenation, and what a list of operations does not write -/

/-- Running two lists of operations one after the other is running their concatenation. -/
theorem after_app {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- The twelve arguments. -/
abbrev argRefs : List (Ref sig .tc) :=
  [main_arg0, main_arg1, main_arg2, main_arg3, main_arg4, main_arg5, main_arg6, main_arg7, main_arg8, main_arg9,
    main_arg10, main_arg11]

/-- `W` holds the twelve arguments as `V` does. -/
def Keeps (V W : Valuation τ sig (Elt Ideal)) : Prop := ∀ r ∈ argRefs, W R[r] = V R[r]

theorem Keeps.refl (V : Valuation τ sig (Elt Ideal)) : Keeps V V := fun _ _ => rfl

/-- A list of operations that writes none of the arguments keeps them. -/
theorem Keeps.step {V W : Valuation τ sig (Elt Ideal)} (h : Keeps V W) (l : List (HloOp τ sig (Elt Ideal)))
    (Wl : List (Ref sig .tc)) (hw : l.Forall fun op => op.writes ⊆ (Wl.map (Proc.devRef (τ := τ) .tc)).toFinset)
    (hd : ∀ r ∈ argRefs, r ∉ Wl) : Keeps V (StableHlo.after l W) :=
  fun r hr => (StableHlo.after_of_writes_sub l W hw (hd r hr)).trans (h r hr)

/-- Each operation of a literal piece writes a reference of the piece's list. -/
macro "piece_writes" : tactic =>
  `(tactic| (simp only [List.Forall]
             repeat' constructor
             all_goals (simp only [StableHlo.nullary_writes, StableHlo.unary_writes, StableHlo.binary_writes,
               StableHlo.ternary_writes, StableHlo.reshape_writes, Finset.singleton_subset_iff, List.mem_toFinset]
                        exact List.mem_map_of_mem (by decide))))

theorem p0_writes : (p0 (F := Ideal)).Forall fun op => op.writes ⊆ (p0_W.map (Proc.devRef (τ := τ) .tc)).toFinset := by
  unfold p0; piece_writes
theorem p1_writes : (p1 (F := Ideal)).Forall fun op => op.writes ⊆ (p1_W.map (Proc.devRef (τ := τ) .tc)).toFinset := by
  unfold p1; piece_writes
theorem p2_writes : (p2 (F := Ideal)).Forall fun op => op.writes ⊆ (p2_W.map (Proc.devRef (τ := τ) .tc)).toFinset := by
  unfold p2; piece_writes
theorem p3_writes : (p3 (F := Ideal)).Forall fun op => op.writes ⊆ (p3_W.map (Proc.devRef (τ := τ) .tc)).toFinset := by
  unfold p3; piece_writes
theorem p4_writes : (p4 (F := Ideal)).Forall fun op => op.writes ⊆ (p4_W.map (Proc.devRef (τ := τ) .tc)).toFinset := by
  unfold p4; piece_writes
theorem p5_writes : (p5 (F := Ideal)).Forall fun op => op.writes ⊆ (p5_W.map (Proc.devRef (τ := τ) .tc)).toFinset := by
  unfold p5; piece_writes
theorem p6_writes : (p6 (F := Ideal)).Forall fun op => op.writes ⊆ (p6_W.map (Proc.devRef (τ := τ) .tc)).toFinset := by
  unfold p6; piece_writes
theorem p7_writes : (p7 (F := Ideal)).Forall fun op => op.writes ⊆ (p7_W.map (Proc.devRef (τ := τ) .tc)).toFinset := by
  unfold p7; piece_writes
theorem p8_writes : (p8 (F := Ideal)).Forall fun op => op.writes ⊆ (p8_W.map (Proc.devRef (τ := τ) .tc)).toFinset := by
  unfold p8; piece_writes
theorem p9_writes : (p9 (F := Ideal)).Forall fun op => op.writes ⊆ (p9_W.map (Proc.devRef (τ := τ) .tc)).toFinset := by
  unfold p9; piece_writes
theorem p10_writes : (p10 (F := Ideal)).Forall fun op => op.writes ⊆ (p10_W.map (Proc.devRef (τ := τ) .tc)).toFinset := by
  unfold p10; piece_writes
theorem p11_writes : (p11 (F := Ideal)).Forall fun op => op.writes ⊆ (p11_W.map (Proc.devRef (τ := τ) .tc)).toFinset := by
  unfold p11; piece_writes
theorem p12_writes : (p12 (F := Ideal)).Forall fun op => op.writes ⊆ (p12_W.map (Proc.devRef (τ := τ) .tc)).toFinset := by
  unfold p12; piece_writes
theorem p13_writes : (p13 (F := Ideal)).Forall fun op => op.writes ⊆ (p13_W.map (Proc.devRef (τ := τ) .tc)).toFinset := by
  unfold p13; piece_writes

/-! ## What each piece leaves in the stage it computes

Over any contents `W`: the arguments the piece reads are named by hypotheses, an earlier stage it reads is assumed to be
the read module's stage function of the arguments. -/

section Pieces

variable (W : Valuation τ sig (Elt Ideal))
variable (x0 : TF S100000x128) (x1 : TF S5000x128) (x2 x3 x4 x5 : TI S1000000) (x6 : TF S4x128x128) (x7 : TF S4x128)
  (x8 : TF S4x128x128) (x9 : TF S4x128) (x10 : TF S4x128x64) (x11 : TF S4x64)

/-! ### Layer 1 -/

theorem p0_v36 (h0 : W R[main_arg0] = x0) (h2 : W R[main_arg2] = x2) (h3 : W R[main_arg3] = x3) (h6 : W R[main_arg6] = x6)
    (h7 : W R[main_arg7] = x7) :
    StableHlo.after (p0 (F := Ideal)) W R[main_v36] = ReadP.val_main_v36 (F := Ideal) x0 x2 x3 x6 x7 := by
  unfold p0; after_results_simp; rw [h0, h2, h3, h6, h7]; rfl

theorem p1_v73 (h1 : W R[main_arg1] = x1) (h2 : W R[main_arg2] = x2) (h3 : W R[main_arg3] = x3) (h6 : W R[main_arg6] = x6)
    (h7 : W R[main_arg7] = x7) :
    StableHlo.after (p1 (F := Ideal)) W R[main_v73] = ReadP.val_main_v73 (F := Ideal) x1 x2 x3 x6 x7 := by
  unfold p1; after_results_simp; rw [h1, h2, h3, h6, h7]; rfl

theorem p2_v111 (h0 : W R[main_arg0] = x0) (h4 : W R[main_arg4] = x4) (h5 : W R[main_arg5] = x5) (h6 : W R[main_arg6] = x6)
    (h7 : W R[main_arg7] = x7) (h73 : W R[main_v73] = ReadP.val_main_v73 (F := Ideal) x1 x2 x3 x6 x7) :
    StableHlo.after (p2 (F := Ideal)) W R[main_v111] = ReadP.val_main_v111 (F := Ideal) x0 x1 x2 x3 x4 x5 x6 x7 := by
  unfold p2; after_results_simp; rw [h0, h4, h5, h6, h7, h73]; rfl

theorem p3_v149 (h0 : W R[main_arg0] = x0) (h4 : W R[main_arg4] = x4) (h5 : W R[main_arg5] = x5) (h6 : W R[main_arg6] = x6)
    (h7 : W R[main_arg7] = x7) (h111 : W R[main_v111] = ReadP.val_main_v111 (F := Ideal) x0 x1 x2 x3 x4 x5 x6 x7) :
    StableHlo.after (p3 (F := Ideal)) W R[main_v149] = ReadP.val_main_v149 (F := Ideal) x0 x1 x2 x3 x4 x5 x6 x7 := by
  unfold p3; after_results_simp; rw [h0, h4, h5, h6, h7, h111]; rfl

/-- The rectifier's operations are spelt over typed references, whose transports along the buffers' declared types are the
    identity: consecutive ones cancel, and the outermost two are transports along an equation of a type with itself. -/
theorem p4_v150_raw (A : TF S100000x128) (h : W R[main_v149] = A) :
    StableHlo.after (p4 (F := Ideal)) W R[main_v150]
      = maximumf A (broadcastInDim S100000x128 ![] bcast_S_S100000x128 (constant (F := Ideal) S_ .f32 0x00000000#32)) := by
  unfold p4; after_results_simp; simp only [TRef.ofBuf_toBuf]; rw [h]
  exact (cast_eq _ _).trans (congrArg (fun t => maximumf t _) (cast_eq _ _))

theorem p4_v151_raw (A : TF S5000x128) (h : W R[main_v36] = A) :
    StableHlo.after (p4 (F := Ideal)) W R[main_v151]
      = maximumf A (broadcastInDim S5000x128 ![] bcast_S_S5000x128 (constant (F := Ideal) S_ .f32 0x00000000#32)) := by
  unfold p4; after_results_simp; simp only [TRef.ofBuf_toBuf]; rw [h]
  exact (cast_eq _ _).trans (congrArg (fun t => maximumf t _) (cast_eq _ _))

theorem p4_v150 (h149 : W R[main_v149] = ReadP.val_main_v149 (F := Ideal) x0 x1 x2 x3 x4 x5 x6 x7) :
    StableHlo.after (p4 (F := Ideal)) W R[main_v150] = ReadP.val_main_v150 (F := Ideal) x0 x1 x2 x3 x4 x5 x6 x7 := by
  rw [p4_v150_raw W _ h149]; rfl

theorem p4_v151 (h36 : W R[main_v36] = ReadP.val_main_v36 (F := Ideal) x0 x2 x3 x6 x7) :
    StableHlo.after (p4 (F := Ideal)) W R[main_v151] = ReadP.val_main_v151 (F := Ideal) x0 x2 x3 x6 x7 := by
  rw [p4_v151_raw W _ h36]; rfl

/-! ### Layer 2 -/

theorem p5_v188 (h2 : W R[main_arg2] = x2) (h3 : W R[main_arg3] = x3) (h8 : W R[main_arg8] = x8) (h9 : W R[main_arg9] = x9)
    (h150 : W R[main_v150] = ReadP.val_main_v150 (F := Ideal) x0 x1 x2 x3 x4 x5 x6 x7) :
    StableHlo.after (p5 (F := Ideal)) W R[main_v188] = ReadP.val_main_v188 (F := Ideal) x0 x1 x2 x3 x4 x5 x6 x7 x8 x9 := by
  unfold p5; after_results_simp; rw [h2, h3, h8, h9, h150]; rfl

theorem p6_v225 (h2 : W R[main_arg2] = x2) (h3 : W R[main_arg3] = x3) (h8 : W R[main_arg8] = x8) (h9 : W R[main_arg9] = x9)
    (h151 : W R[main_v151] = ReadP.val_main_v151 (F := Ideal) x0 x2 x3 x6 x7) :
    StableHlo.after (p6 (F := Ideal)) W R[main_v225] = ReadP.val_main_v225 (F := Ideal) x0 x2 x3 x6 x7 x8 x9 := by
  unfold p6; after_results_simp; rw [h2, h3, h8, h9, h151]; rfl

theorem p7_v263 (h4 : W R[main_arg4] = x4) (h5 : W R[main_arg5] = x5) (h8 : W R[main_arg8] = x8) (h9 : W R[main_arg9] = x9)
    (h150 : W R[main_v150] = ReadP.val_main_v150 (F := Ideal) x0 x1 x2 x3 x4 x5 x6 x7)
    (h225 : W R[main_v225] = ReadP.val_main_v225 (F := Ideal) x0 x2 x3 x6 x7 x8 x9) :
    StableHlo.after (p7 (F := Ideal)) W R[main_v263] = ReadP.val_main_v263 (F := Ideal) x0 x1 x2 x3 x4 x5 x6 x7 x8 x9 := by
  unfold p7; after_results_simp; rw [h4, h5, h8, h9, h150, h225]; rfl

theorem p8_v301 (h4 : W R[main_arg4] = x4) (h5 : W R[main_arg5] = x5) (h8 : W R[main_arg8] = x8) (h9 : W R[main_arg9] = x9)
    (h150 : W R[main_v150] = ReadP.val_main_v150 (F := Ideal) x0 x1 x2 x3 x4 x5 x6 x7)
    (h263 : W R[main_v263] = ReadP.val_main_v263 (F := Ideal) x0 x1 x2 x3 x4 x5 x6 x7 x8 x9) :
    StableHlo.after (p8 (F := Ideal)) W R[main_v301] = ReadP.val_main_v301 (F := Ideal) x0 x1 x2 x3 x4 x5 x6 x7 x8 x9 := by
  unfold p8; after_results_simp; rw [h4, h5, h8, h9, h150, h263]; rfl

theorem p9_v302_raw (A : TF S100000x128) (h : W R[main_v301] = A) :
    StableHlo.after (p9 (F := Ideal)) W R[main_v302]
      = maximumf A (broadcastInDim S100000x128 ![] bcast_S_S100000x128 (constant (F := Ideal) S_ .f32 0x00000000#32)) := by
  unfold p9; after_results_simp; simp only [TRef.ofBuf_toBuf]; rw [h]
  exact (cast_eq _ _).trans (congrArg (fun t => maximumf t _) (cast_eq _ _))

theorem p9_v303_raw (A : TF S5000x128) (h : W R[main_v188] = A) :
    StableHlo.after (p9 (F := Ideal)) W R[main_v303]
      = maximumf A (broadcastInDim S5000x128 ![] bcast_S_S5000x128 (constant (F := Ideal) S_ .f32 0x00000000#32)) := by
  unfold p9; after_results_simp; simp only [TRef.ofBuf_toBuf]; rw [h]
  exact (cast_eq _ _).trans (congrArg (fun t => maximumf t _) (cast_eq _ _))

theorem p9_v302 (h301 : W R[main_v301] = ReadP.val_main_v301 (F := Ideal) x0 x1 x2 x3 x4 x5 x6 x7 x8 x9) :
    StableHlo.after (p9 (F := Ideal)) W R[main_v302] = ReadP.val_main_v302 (F := Ideal) x0 x1 x2 x3 x4 x5 x6 x7 x8 x9 := by
  rw [p9_v302_raw W _ h301]; rfl

theorem p9_v303 (h188 : W R[main_v188] = ReadP.val_main_v188 (F := Ideal) x0 x1 x2 x3 x4 x5 x6 x7 x8 x9) :
    StableHlo.after (p9 (F := Ideal)) W R[main_v303] = ReadP.val_main_v303 (F := Ideal) x0 x1 x2 x3 x4 x5 x6 x7 x8 x9 := by
  rw [p9_v303_raw W _ h188]; rfl

/-! ### Layer 3 -/

theorem p10_v340 (h2 : W R[main_arg2] = x2) (h3 : W R[main_arg3] = x3) (h10 : W R[main_arg10] = x10)
    (h11 : W R[main_arg11] = x11)
    (h302 : W R[main_v302] = ReadP.val_main_v302 (F := Ideal) x0 x1 x2 x3 x4 x5 x6 x7 x8 x9) :
    StableHlo.after (p10 (F := Ideal)) W R[main_v340]
      = ReadP.val_main_v340 (F := Ideal) x0 x1 x2 x3 x4 x5 x6 x7 x8 x9 x10 x11 := by
  unfold p10; after_results_simp; rw [h2, h3, h10, h11, h302]; rfl

theorem p11_v377 (h2 : W R[main_arg2] = x2) (h3 : W R[main_arg3] = x3) (h10 : W R[main_arg10] = x10)
    (h11 : W R[main_arg11] = x11)
    (h303 : W R[main_v303] = ReadP.val_main_v303 (F := Ideal) x0 x1 x2 x3 x4 x5 x6 x7 x8 x9) :
    StableHlo.after (p11 (F := Ideal)) W R[main_v377]
      = ReadP.val_main_v377 (F := Ideal) x0 x1 x2 x3 x4 x5 x6 x7 x8 x9 x10 x11 := by
  unfold p11; after_results_simp; rw [h2, h3, h10, h11, h303]; rfl

theorem p12_v415 (h4 : W R[main_arg4] = x4) (h5 : W R[main_arg5] = x5) (h10 : W R[main_arg10] = x10)
    (h11 : W R[main_arg11] = x11)
    (h302 : W R[main_v302] = ReadP.val_main_v302 (F := Ideal) x0 x1 x2 x3 x4 x5 x6 x7 x8 x9)
    (h377 : W R[main_v377] = ReadP.val_main_v377 (F := Ideal) x0 x1 x2 x3 x4 x5 x6 x7 x8 x9 x10 x11) :
    StableHlo.after (p12 (F := Ideal)) W R[main_v415]
      = ReadP.val_main_v415 (F := Ideal) x0 x1 x2 x3 x4 x5 x6 x7 x8 x9 x10 x11 := by
  unfold p12; after_results_simp; rw [h4, h5, h10, h11, h302, h377]; rfl

theorem p13_v453 (h4 : W R[main_arg4] = x4) (h5 : W R[main_arg5] = x5) (h10 : W R[main_arg10] = x10)
    (h11 : W R[main_arg11] = x11)
    (h302 : W R[main_v302] = ReadP.val_main_v302 (F := Ideal) x0 x1 x2 x3 x4 x5 x6 x7 x8 x9)
    (h415 : W R[main_v415] = ReadP.val_main_v415 (F := Ideal) x0 x1 x2 x3 x4 x5 x6 x7 x8 x9 x10 x11) :
    StableHlo.after (p13 (F := Ideal)) W R[main_v453]
      = ReadP.val_main_v453 (F := Ideal) x0 x1 x2 x3 x4 x5 x6 x7 x8 x9 x10 x11 := by
  unfold p13; after_results_simp; rw [h4, h5, h10, h11, h302, h415]; rfl

end Pieces

/-! ## The fourteen pieces in a row -/

theorem Keeps.a0 {V W : Valuation τ sig (Elt Ideal)} (h : Keeps V W) : W R[main_arg0] = V R[main_arg0] := h _ (by decide)
theorem Keeps.a1 {V W : Valuation τ sig (Elt Ideal)} (h : Keeps V W) : W R[main_arg1] = V R[main_arg1] := h _ (by decide)
theorem Keeps.a2 {V W : Valuation τ sig (Elt Ideal)} (h : Keeps V W) : W R[main_arg2] = V R[main_arg2] := h _ (by decide)
theorem Keeps.a3 {V W : Valuation τ sig (Elt Ideal)} (h : Keeps V W) : W R[main_arg3] = V R[main_arg3] := h _ (by decide)
theorem Keeps.a4 {V W : Valuation τ sig (Elt Ideal)} (h : Keeps V W) : W R[main_arg4] = V R[main_arg4] := h _ (by decide)
theorem Keeps.a5 {V W : Valuation τ sig (Elt Ideal)} (h : Keeps V W) : W R[main_arg5] = V R[main_arg5] := h _ (by decide)
theorem Keeps.a6 {V W : Valuation τ sig (Elt Ideal)} (h : Keeps V W) : W R[main_arg6] = V R[main_arg6] := h _ (by decide)
theorem Keeps.a7 {V W : Valuation τ sig (Elt Ideal)} (h : Keeps V W) : W R[main_arg7] = V R[main_arg7] := h _ (by decide)
theorem Keeps.a8 {V W : Valuation τ sig (Elt Ideal)} (h : Keeps V W) : W R[main_arg8] = V R[main_arg8] := h _ (by decide)
theorem Keeps.a9 {V W : Valuation τ sig (Elt Ideal)} (h : Keeps V W) : W R[main_arg9] = V R[main_arg9] := h _ (by decide)
theorem Keeps.a10 {V W : Valuation τ sig (Elt Ideal)} (h : Keeps V W) : W R[main_arg10] = V R[main_arg10] := h _ (by decide)
theorem Keeps.a11 {V W : Valuation τ sig (Elt Ideal)} (h : Keeps V W) : W R[main_arg11] = V R[main_arg11] := h _ (by decide)

section Chain

variable (V : Valuation τ sig (Elt Ideal))

/-- The contents after the first k pieces, from `V`. -/
def V1 : Valuation τ sig (Elt Ideal) := StableHlo.after (p0 (F := Ideal)) V
def V2 : Valuation τ sig (Elt Ideal) := StableHlo.after (p1 (F := Ideal)) (V1 V)
def V3 : Valuation τ sig (Elt Ideal) := StableHlo.after (p2 (F := Ideal)) (V2 V)
def V4 : Valuation τ sig (Elt Ideal) := StableHlo.after (p3 (F := Ideal)) (V3 V)
def V5 : Valuation τ sig (Elt Ideal) := StableHlo.after (p4 (F := Ideal)) (V4 V)
def V6 : Valuation τ sig (Elt Ideal) := StableHlo.after (p5 (F := Ideal)) (V5 V)
def V7 : Valuation τ sig (Elt Ideal) := StableHlo.after (p6 (F := Ideal)) (V6 V)
def V8 : Valuation τ sig (Elt Ideal) := StableHlo.after (p7 (F := Ideal)) (V7 V)
def V9 : Valuation τ sig (Elt Ideal) := StableHlo.after (p8 (F := Ideal)) (V8 V)
def V10 : Valuation τ sig (Elt Ideal) := StableHlo.after (p9 (F := Ideal)) (V9 V)
def V11 : Valuation τ sig (Elt Ideal) := StableHlo.after (p10 (F := Ideal)) (V10 V)
def V12 : Valuation τ sig (Elt Ideal) := StableHlo.after (p11 (F := Ideal)) (V11 V)
def V13 : Valuation τ sig (Elt Ideal) := StableHlo.after (p12 (F := Ideal)) (V12 V)
def V14 : Valuation τ sig (Elt Ideal) := StableHlo.after (p13 (F := Ideal)) (V13 V)

/-! ### No piece writes an argument -/

theorem k1 : Keeps V (V1 V) := (Keeps.refl V).step _ p0_W p0_writes (by decide)
theorem k2 : Keeps V (V2 V) := (k1 V).step _ p1_W p1_writes (by decide)
theorem k3 : Keeps V (V3 V) := (k2 V).step _ p2_W p2_writes (by decide)
theorem k4 : Keeps V (V4 V) := (k3 V).step _ p3_W p3_writes (by decide)
theorem k5 : Keeps V (V5 V) := (k4 V).step _ p4_W p4_writes (by decide)
theorem k6 : Keeps V (V6 V) := (k5 V).step _ p5_W p5_writes (by decide)
theorem k7 : Keeps V (V7 V) := (k6 V).step _ p6_W p6_writes (by decide)
theorem k8 : Keeps V (V8 V) := (k7 V).step _ p7_W p7_writes (by decide)
theorem k9 : Keeps V (V9 V) := (k8 V).step _ p8_W p8_writes (by decide)
theorem k10 : Keeps V (V10 V) := (k9 V).step _ p9_W p9_writes (by decide)
theorem k11 : Keeps V (V11 V) := (k10 V).step _ p10_W p10_writes (by decide)
theorem k12 : Keeps V (V12 V) := (k11 V).step _ p11_W p11_writes (by decide)
theorem k13 : Keeps V (V13 V) := (k12 V).step _ p12_W p12_writes (by decide)
theorem k14 : Keeps V (V14 V) := (k13 V).step _ p13_W p13_writes (by decide)

/-! ### The stages, as they are computed and carried

`sK_vN`: after the first K pieces the buffer `main_vN` holds the read module's stage of the arguments. A stage is
computed by one piece and then carried through the pieces that do not write it, up to the last piece that reads it. -/

/-- Argument k of the contents `V`. -/
abbrev A0 := V R[main_arg0]
abbrev A1 := V R[main_arg1]
abbrev A2 := V R[main_arg2]
abbrev A3 := V R[main_arg3]
abbrev A4 := V R[main_arg4]
abbrev A5 := V R[main_arg5]
abbrev A6 := V R[main_arg6]
abbrev A7 := V R[main_arg7]
abbrev A8 := V R[main_arg8]
abbrev A9 := V R[main_arg9]
abbrev A10 := V R[main_arg10]
abbrev A11 := V R[main_arg11]

-- layer 1
theorem s1_v36 : V1 V R[main_v36] = ReadP.val_main_v36 (F := Ideal) (A0 V) (A2 V) (A3 V) (A6 V) (A7 V) :=
  p0_v36 (W := V) (h0 := rfl) (h2 := rfl) (h3 := rfl) (h6 := rfl) (h7 := rfl)
theorem s2_v36 : V2 V R[main_v36] = ReadP.val_main_v36 (F := Ideal) (A0 V) (A2 V) (A3 V) (A6 V) (A7 V) :=
  (StableHlo.after_of_writes_sub _ _ p1_writes (by decide)).trans (s1_v36 V)
theorem s2_v73 : V2 V R[main_v73] = ReadP.val_main_v73 (F := Ideal) (A1 V) (A2 V) (A3 V) (A6 V) (A7 V) :=
  p1_v73 (W := V1 V) (h1 := (k1 V).a1) (h2 := (k1 V).a2) (h3 := (k1 V).a3) (h6 := (k1 V).a6) (h7 := (k1 V).a7)
theorem s3_v36 : V3 V R[main_v36] = ReadP.val_main_v36 (F := Ideal) (A0 V) (A2 V) (A3 V) (A6 V) (A7 V) :=
  (StableHlo.after_of_writes_sub _ _ p2_writes (by decide)).trans (s2_v36 V)
theorem s3_v111 : V3 V R[main_v111] = ReadP.val_main_v111 (F := Ideal) (A0 V) (A1 V) (A2 V) (A3 V) (A4 V) (A5 V) (A6 V) (A7 V) :=
  p2_v111 (W := V2 V) (h0 := (k2 V).a0) (h4 := (k2 V).a4) (h5 := (k2 V).a5) (h6 := (k2 V).a6) (h7 := (k2 V).a7)
    (h73 := s2_v73 V)
theorem s4_v36 : V4 V R[main_v36] = ReadP.val_main_v36 (F := Ideal) (A0 V) (A2 V) (A3 V) (A6 V) (A7 V) :=
  (StableHlo.after_of_writes_sub _ _ p3_writes (by decide)).trans (s3_v36 V)
theorem s4_v149 : V4 V R[main_v149] = ReadP.val_main_v149 (F := Ideal) (A0 V) (A1 V) (A2 V) (A3 V) (A4 V) (A5 V) (A6 V) (A7 V) :=
  p3_v149 (W := V3 V) (h0 := (k3 V).a0) (h4 := (k3 V).a4) (h5 := (k3 V).a5) (h6 := (k3 V).a6) (h7 := (k3 V).a7)
    (h111 := s3_v111 V)
theorem s5_v150 : V5 V R[main_v150] = ReadP.val_main_v150 (F := Ideal) (A0 V) (A1 V) (A2 V) (A3 V) (A4 V) (A5 V) (A6 V) (A7 V) :=
  p4_v150 (W := V4 V) (h149 := s4_v149 V)
theorem s5_v151 : V5 V R[main_v151] = ReadP.val_main_v151 (F := Ideal) (A0 V) (A2 V) (A3 V) (A6 V) (A7 V) :=
  p4_v151 (W := V4 V) (h36 := s4_v36 V)
-- layer 2
theorem s6_v150 : V6 V R[main_v150] = ReadP.val_main_v150 (F := Ideal) (A0 V) (A1 V) (A2 V) (A3 V) (A4 V) (A5 V) (A6 V) (A7 V) :=
  (StableHlo.after_of_writes_sub _ _ p5_writes (by decide)).trans (s5_v150 V)
theorem s6_v151 : V6 V R[main_v151] = ReadP.val_main_v151 (F := Ideal) (A0 V) (A2 V) (A3 V) (A6 V) (A7 V) :=
  (StableHlo.after_of_writes_sub _ _ p5_writes (by decide)).trans (s5_v151 V)
theorem s6_v188 : V6 V R[main_v188] = ReadP.val_main_v188 (F := Ideal) (A0 V) (A1 V) (A2 V) (A3 V) (A4 V) (A5 V) (A6 V) (A7 V) (A8 V) (A9 V) :=
  p5_v188 (W := V5 V) (h2 := (k5 V).a2) (h3 := (k5 V).a3) (h8 := (k5 V).a8) (h9 := (k5 V).a9) (h150 := s5_v150 V)
theorem s7_v150 : V7 V R[main_v150] = ReadP.val_main_v150 (F := Ideal) (A0 V) (A1 V) (A2 V) (A3 V) (A4 V) (A5 V) (A6 V) (A7 V) :=
  (StableHlo.after_of_writes_sub _ _ p6_writes (by decide)).trans (s6_v150 V)
theorem s7_v188 : V7 V R[main_v188] = ReadP.val_main_v188 (F := Ideal) (A0 V) (A1 V) (A2 V) (A3 V) (A4 V) (A5 V) (A6 V) (A7 V) (A8 V) (A9 V) :=
  (StableHlo.after_of_writes_sub _ _ p6_writes (by decide)).trans (s6_v188 V)
theorem s7_v225 : V7 V R[main_v225] = ReadP.val_main_v225 (F := Ideal) (A0 V) (A2 V) (A3 V) (A6 V) (A7 V) (A8 V) (A9 V) :=
  p6_v225 (W := V6 V) (h2 := (k6 V).a2) (h3 := (k6 V).a3) (h8 := (k6 V).a8) (h9 := (k6 V).a9) (h151 := s6_v151 V)
theorem s8_v150 : V8 V R[main_v150] = ReadP.val_main_v150 (F := Ideal) (A0 V) (A1 V) (A2 V) (A3 V) (A4 V) (A5 V) (A6 V) (A7 V) :=
  (StableHlo.after_of_writes_sub _ _ p7_writes (by decide)).trans (s7_v150 V)
theorem s8_v188 : V8 V R[main_v188] = ReadP.val_main_v188 (F := Ideal) (A0 V) (A1 V) (A2 V) (A3 V) (A4 V) (A5 V) (A6 V) (A7 V) (A8 V) (A9 V) :=
  (StableHlo.after_of_writes_sub _ _ p7_writes (by decide)).trans (s7_v188 V)
theorem s8_v263 : V8 V R[main_v263] = ReadP.val_main_v263 (F := Ideal) (A0 V) (A1 V) (A2 V) (A3 V) (A4 V) (A5 V) (A6 V) (A7 V) (A8 V) (A9 V) :=
  p7_v263 (W := V7 V) (h4 := (k7 V).a4) (h5 := (k7 V).a5) (h8 := (k7 V).a8) (h9 := (k7 V).a9) (h150 := s7_v150 V)
    (h225 := s7_v225 V)
theorem s9_v188 : V9 V R[main_v188] = ReadP.val_main_v188 (F := Ideal) (A0 V) (A1 V) (A2 V) (A3 V) (A4 V) (A5 V) (A6 V) (A7 V) (A8 V) (A9 V) :=
  (StableHlo.after_of_writes_sub _ _ p8_writes (by decide)).trans (s8_v188 V)
theorem s9_v301 : V9 V R[main_v301] = ReadP.val_main_v301 (F := Ideal) (A0 V) (A1 V) (A2 V) (A3 V) (A4 V) (A5 V) (A6 V) (A7 V) (A8 V) (A9 V) :=
  p8_v301 (W := V8 V) (h4 := (k8 V).a4) (h5 := (k8 V).a5) (h8 := (k8 V).a8) (h9 := (k8 V).a9) (h150 := s8_v150 V)
    (h263 := s8_v263 V)
theorem s10_v302 : V10 V R[main_v302] = ReadP.val_main_v302 (F := Ideal) (A0 V) (A1 V) (A2 V) (A3 V) (A4 V) (A5 V) (A6 V) (A7 V) (A8 V) (A9 V) :=
  p9_v302 (W := V9 V) (h301 := s9_v301 V)
theorem s10_v303 : V10 V R[main_v303] = ReadP.val_main_v303 (F := Ideal) (A0 V) (A1 V) (A2 V) (A3 V) (A4 V) (A5 V) (A6 V) (A7 V) (A8 V) (A9 V) :=
  p9_v303 (W := V9 V) (h188 := s9_v188 V)
-- layer 3
theorem s11_v302 : V11 V R[main_v302] = ReadP.val_main_v302 (F := Ideal) (A0 V) (A1 V) (A2 V) (A3 V) (A4 V) (A5 V) (A6 V) (A7 V) (A8 V) (A9 V) :=
  (StableHlo.after_of_writes_sub _ _ p10_writes (by decide)).trans (s10_v302 V)
theorem s11_v303 : V11 V R[main_v303] = ReadP.val_main_v303 (F := Ideal) (A0 V) (A1 V) (A2 V) (A3 V) (A4 V) (A5 V) (A6 V) (A7 V) (A8 V) (A9 V) :=
  (StableHlo.after_of_writes_sub _ _ p10_writes (by decide)).trans (s10_v303 V)
theorem s11_v340 : V11 V R[main_v340] = ReadP.val_main_v340 (F := Ideal) (A0 V) (A1 V) (A2 V) (A3 V) (A4 V) (A5 V) (A6 V) (A7 V) (A8 V) (A9 V) (A10 V) (A11 V) :=
  p10_v340 (W := V10 V) (h2 := (k10 V).a2) (h3 := (k10 V).a3) (h10 := (k10 V).a10) (h11 := (k10 V).a11)
    (h302 := s10_v302 V)
theorem s12_v302 : V12 V R[main_v302] = ReadP.val_main_v302 (F := Ideal) (A0 V) (A1 V) (A2 V) (A3 V) (A4 V) (A5 V) (A6 V) (A7 V) (A8 V) (A9 V) :=
  (StableHlo.after_of_writes_sub _ _ p11_writes (by decide)).trans (s11_v302 V)
theorem s12_v340 : V12 V R[main_v340] = ReadP.val_main_v340 (F := Ideal) (A0 V) (A1 V) (A2 V) (A3 V) (A4 V) (A5 V) (A6 V) (A7 V) (A8 V) (A9 V) (A10 V) (A11 V) :=
  (StableHlo.after_of_writes_sub _ _ p11_writes (by decide)).trans (s11_v340 V)
theorem s12_v377 : V12 V R[main_v377] = ReadP.val_main_v377 (F := Ideal) (A0 V) (A1 V) (A2 V) (A3 V) (A4 V) (A5 V) (A6 V) (A7 V) (A8 V) (A9 V) (A10 V) (A11 V) :=
  p11_v377 (W := V11 V) (h2 := (k11 V).a2) (h3 := (k11 V).a3) (h10 := (k11 V).a10) (h11 := (k11 V).a11)
    (h303 := s11_v303 V)
theorem s13_v302 : V13 V R[main_v302] = ReadP.val_main_v302 (F := Ideal) (A0 V) (A1 V) (A2 V) (A3 V) (A4 V) (A5 V) (A6 V) (A7 V) (A8 V) (A9 V) :=
  (StableHlo.after_of_writes_sub _ _ p12_writes (by decide)).trans (s12_v302 V)
theorem s13_v340 : V13 V R[main_v340] = ReadP.val_main_v340 (F := Ideal) (A0 V) (A1 V) (A2 V) (A3 V) (A4 V) (A5 V) (A6 V) (A7 V) (A8 V) (A9 V) (A10 V) (A11 V) :=
  (StableHlo.after_of_writes_sub _ _ p12_writes (by decide)).trans (s12_v340 V)
theorem s13_v415 : V13 V R[main_v415] = ReadP.val_main_v415 (F := Ideal) (A0 V) (A1 V) (A2 V) (A3 V) (A4 V) (A5 V) (A6 V) (A7 V) (A8 V) (A9 V) (A10 V) (A11 V) :=
  p12_v415 (W := V12 V) (h4 := (k12 V).a4) (h5 := (k12 V).a5) (h10 := (k12 V).a10) (h11 := (k12 V).a11)
    (h302 := s12_v302 V) (h377 := s12_v377 V)
theorem s14_v340 : V14 V R[main_v340] = ReadP.val_main_v340 (F := Ideal) (A0 V) (A1 V) (A2 V) (A3 V) (A4 V) (A5 V) (A6 V) (A7 V) (A8 V) (A9 V) (A10 V) (A11 V) :=
  (StableHlo.after_of_writes_sub _ _ p13_writes (by decide)).trans (s13_v340 V)
theorem s14_v453 : V14 V R[main_v453] = ReadP.val_main_v453 (F := Ideal) (A0 V) (A1 V) (A2 V) (A3 V) (A4 V) (A5 V) (A6 V) (A7 V) (A8 V) (A9 V) (A10 V) (A11 V) :=
  p13_v453 (W := V13 V) (h4 := (k13 V).a4) (h5 := (k13 V).a5) (h10 := (k13 V).a10) (h11 := (k13 V).a11)
    (h302 := s13_v302 V) (h415 := s13_v415 V)

/-- The fourteen pieces in a row are the whole run. -/
theorem after_pieces :
    StableHlo.after ((p0 (F := Ideal)) ++ (p1 ++ (p2 ++ (p3 ++ (p4 ++ (p5 ++ (p6 ++ (p7 ++ (p8 ++ (p9 ++ (p10 ++ (p11 ++ (p12 ++ p13))))))))))))) V
      = V14 V := by
  simp only [after_app]
  rfl

end Chain

/-! ## The whole list is the fourteen pieces in a row -/

/-- The operation list of the run module is the concatenation of the pieces. -/
theorem ops_split :
    (ValueL.ops (F := Ideal))
      = p0 ++ (p1 ++ (p2 ++ (p3 ++ (p4 ++ (p5 ++ (p6 ++ (p7 ++ (p8 ++ (p9 ++ (p10 ++ (p11 ++ (p12 ++ p13)))))))))))) := rfl

/-! Every operation determines its results (none allocates a buffer). -/
theorem p0_fresh : ∀ op ∈ (p0 (F := Ideal)), op.fresh = ∅ := by
  unfold p0; intro _ h; (repeat (cases h with | head => rfl | tail _ h => ?_)); exact nomatch h
theorem p1_fresh : ∀ op ∈ (p1 (F := Ideal)), op.fresh = ∅ := by
  unfold p1; intro _ h; (repeat (cases h with | head => rfl | tail _ h => ?_)); exact nomatch h
theorem p2_fresh : ∀ op ∈ (p2 (F := Ideal)), op.fresh = ∅ := by
  unfold p2; intro _ h; (repeat (cases h with | head => rfl | tail _ h => ?_)); exact nomatch h
theorem p3_fresh : ∀ op ∈ (p3 (F := Ideal)), op.fresh = ∅ := by
  unfold p3; intro _ h; (repeat (cases h with | head => rfl | tail _ h => ?_)); exact nomatch h
theorem p4_fresh : ∀ op ∈ (p4 (F := Ideal)), op.fresh = ∅ := by
  unfold p4; intro _ h; (repeat (cases h with | head => rfl | tail _ h => ?_)); exact nomatch h
theorem p5_fresh : ∀ op ∈ (p5 (F := Ideal)), op.fresh = ∅ := by
  unfold p5; intro _ h; (repeat (cases h with | head => rfl | tail _ h => ?_)); exact nomatch h
theorem p6_fresh : ∀ op ∈ (p6 (F := Ideal)), op.fresh = ∅ := by
  unfold p6; intro _ h; (repeat (cases h with | head => rfl | tail _ h => ?_)); exact nomatch h
theorem p7_fresh : ∀ op ∈ (p7 (F := Ideal)), op.fresh = ∅ := by
  unfold p7; intro _ h; (repeat (cases h with | head => rfl | tail _ h => ?_)); exact nomatch h
theorem p8_fresh : ∀ op ∈ (p8 (F := Ideal)), op.fresh = ∅ := by
  unfold p8; intro _ h; (repeat (cases h with | head => rfl | tail _ h => ?_)); exact nomatch h
theorem p9_fresh : ∀ op ∈ (p9 (F := Ideal)), op.fresh = ∅ := by
  unfold p9; intro _ h; (repeat (cases h with | head => rfl | tail _ h => ?_)); exact nomatch h
theorem p10_fresh : ∀ op ∈ (p10 (F := Ideal)), op.fresh = ∅ := by
  unfold p10; intro _ h; (repeat (cases h with | head => rfl | tail _ h => ?_)); exact nomatch h
theorem p11_fresh : ∀ op ∈ (p11 (F := Ideal)), op.fresh = ∅ := by
  unfold p11; intro _ h; (repeat (cases h with | head => rfl | tail _ h => ?_)); exact nomatch h
theorem p12_fresh : ∀ op ∈ (p12 (F := Ideal)), op.fresh = ∅ := by
  unfold p12; intro _ h; (repeat (cases h with | head => rfl | tail _ h => ?_)); exact nomatch h
theorem p13_fresh : ∀ op ∈ (p13 (F := Ideal)), op.fresh = ∅ := by
  unfold p13; intro _ h; (repeat (cases h with | head => rfl | tail _ h => ?_)); exact nomatch h

theorem ops_fresh : ∀ op ∈ (ValueL.ops (F := Ideal)), op.fresh = ∅ := by
  intro op h
  rw [ops_split] at h
  simp only [List.mem_append] at h
  rcases h with h | h | h | h | h | h | h | h | h | h | h | h | h | h
  exacts [p0_fresh op h, p1_fresh op h, p2_fresh op h, p3_fresh op h, p4_fresh op h, p5_fresh op h, p6_fresh op h,
    p7_fresh op h, p8_fresh op h, p9_fresh op h, p10_fresh op h, p11_fresh op h, p12_fresh op h, p13_fresh op h]

/-! Every operation's buffers are TensorCore references. -/
theorem p0_sub : (p0 (F := Ideal)).Forall fun op => op.bufs ⊆ tcRefs τ sig := by
  unfold p0
  simp only [List.Forall, nullary_bufs_sub, unary_bufs_sub, binary_bufs_sub, ternary_bufs_sub, reshape_bufs_sub, and_self]
theorem p1_sub : (p1 (F := Ideal)).Forall fun op => op.bufs ⊆ tcRefs τ sig := by
  unfold p1
  simp only [List.Forall, nullary_bufs_sub, unary_bufs_sub, binary_bufs_sub, ternary_bufs_sub, reshape_bufs_sub, and_self]
theorem p2_sub : (p2 (F := Ideal)).Forall fun op => op.bufs ⊆ tcRefs τ sig := by
  unfold p2
  simp only [List.Forall, nullary_bufs_sub, unary_bufs_sub, binary_bufs_sub, ternary_bufs_sub, reshape_bufs_sub, and_self]
theorem p3_sub : (p3 (F := Ideal)).Forall fun op => op.bufs ⊆ tcRefs τ sig := by
  unfold p3
  simp only [List.Forall, nullary_bufs_sub, unary_bufs_sub, binary_bufs_sub, ternary_bufs_sub, reshape_bufs_sub, and_self]
theorem p4_sub : (p4 (F := Ideal)).Forall fun op => op.bufs ⊆ tcRefs τ sig := by
  unfold p4
  simp only [List.Forall, nullary_bufs_sub, unary_bufs_sub, binary_bufs_sub, ternary_bufs_sub, reshape_bufs_sub, and_self]
theorem p5_sub : (p5 (F := Ideal)).Forall fun op => op.bufs ⊆ tcRefs τ sig := by
  unfold p5
  simp only [List.Forall, nullary_bufs_sub, unary_bufs_sub, binary_bufs_sub, ternary_bufs_sub, reshape_bufs_sub, and_self]
theorem p6_sub : (p6 (F := Ideal)).Forall fun op => op.bufs ⊆ tcRefs τ sig := by
  unfold p6
  simp only [List.Forall, nullary_bufs_sub, unary_bufs_sub, binary_bufs_sub, ternary_bufs_sub, reshape_bufs_sub, and_self]
theorem p7_sub : (p7 (F := Ideal)).Forall fun op => op.bufs ⊆ tcRefs τ sig := by
  unfold p7
  simp only [List.Forall, nullary_bufs_sub, unary_bufs_sub, binary_bufs_sub, ternary_bufs_sub, reshape_bufs_sub, and_self]
theorem p8_sub : (p8 (F := Ideal)).Forall fun op => op.bufs ⊆ tcRefs τ sig := by
  unfold p8
  simp only [List.Forall, nullary_bufs_sub, unary_bufs_sub, binary_bufs_sub, ternary_bufs_sub, reshape_bufs_sub, and_self]
theorem p9_sub : (p9 (F := Ideal)).Forall fun op => op.bufs ⊆ tcRefs τ sig := by
  unfold p9
  simp only [List.Forall, nullary_bufs_sub, unary_bufs_sub, binary_bufs_sub, ternary_bufs_sub, reshape_bufs_sub, and_self]
theorem p10_sub : (p10 (F := Ideal)).Forall fun op => op.bufs ⊆ tcRefs τ sig := by
  unfold p10
  simp only [List.Forall, nullary_bufs_sub, unary_bufs_sub, binary_bufs_sub, ternary_bufs_sub, reshape_bufs_sub, and_self]
theorem p11_sub : (p11 (F := Ideal)).Forall fun op => op.bufs ⊆ tcRefs τ sig := by
  unfold p11
  simp only [List.Forall, nullary_bufs_sub, unary_bufs_sub, binary_bufs_sub, ternary_bufs_sub, reshape_bufs_sub, and_self]
theorem p12_sub : (p12 (F := Ideal)).Forall fun op => op.bufs ⊆ tcRefs τ sig := by
  unfold p12
  simp only [List.Forall, nullary_bufs_sub, unary_bufs_sub, binary_bufs_sub, ternary_bufs_sub, reshape_bufs_sub, and_self]
theorem p13_sub : (p13 (F := Ideal)).Forall fun op => op.bufs ⊆ tcRefs τ sig := by
  unfold p13
  simp only [List.Forall, nullary_bufs_sub, unary_bufs_sub, binary_bufs_sub, ternary_bufs_sub, reshape_bufs_sub, and_self]

theorem ops_sub_pieces : (ValueL.ops (F := Ideal)).Forall fun op => op.bufs ⊆ tcRefs τ sig := by
  rw [List.forall_iff_forall_mem]
  intro op h
  rw [ops_split] at h
  simp only [List.mem_append] at h
  rcases h with h | h | h | h | h | h | h | h | h | h | h | h | h | h
  exacts [List.forall_iff_forall_mem.mp p0_sub op h, List.forall_iff_forall_mem.mp p1_sub op h,
    List.forall_iff_forall_mem.mp p2_sub op h, List.forall_iff_forall_mem.mp p3_sub op h,
    List.forall_iff_forall_mem.mp p4_sub op h, List.forall_iff_forall_mem.mp p5_sub op h,
    List.forall_iff_forall_mem.mp p6_sub op h, List.forall_iff_forall_mem.mp p7_sub op h,
    List.forall_iff_forall_mem.mp p8_sub op h, List.forall_iff_forall_mem.mp p9_sub op h,
    List.forall_iff_forall_mem.mp p10_sub op h, List.forall_iff_forall_mem.mp p11_sub op h,
    List.forall_iff_forall_mem.mp p12_sub op h, List.forall_iff_forall_mem.mp p13_sub op h]

/-- The drug result after the whole list, from any contents: the read module's last stage of the arguments. -/
theorem res_v453 (V : Valuation τ sig (Elt Ideal)) :
    StableHlo.after (ValueL.ops (F := Ideal)) V R[main_v453]
      = ReadP.val_main_v453 (F := Ideal) (V R[main_arg0]) (V R[main_arg1]) (V R[main_arg2]) (V R[main_arg3]) (V R[main_arg4])
          (V R[main_arg5]) (V R[main_arg6]) (V R[main_arg7]) (V R[main_arg8]) (V R[main_arg9]) (V R[main_arg10]) (V R[main_arg11]) := by
  rw [ops_split, after_pieces]
  exact s14_v453 V

/-- The side result after the whole list, from any contents. -/
theorem res_v340 (V : Valuation τ sig (Elt Ideal)) :
    StableHlo.after (ValueL.ops (F := Ideal)) V R[main_v340]
      = ReadP.val_main_v340 (F := Ideal) (V R[main_arg0]) (V R[main_arg1]) (V R[main_arg2]) (V R[main_arg3]) (V R[main_arg4])
          (V R[main_arg5]) (V R[main_arg6]) (V R[main_arg7]) (V R[main_arg8]) (V R[main_arg9]) (V R[main_arg10]) (V R[main_arg11]) := by
  rw [ops_split, after_pieces]
  exact s14_v340 V

/-- An argument after the whole list, from any contents: what it was. -/
theorem arg_kept_pieces (V : Valuation τ sig (Elt Ideal)) (r : Ref sig .tc) (hr : r ∈ argRefs) :
    StableHlo.after (ValueL.ops (F := Ideal)) V R[r] = V R[r] := by
  rw [ops_split, after_pieces]
  exact k14 V r hr

/-! ## The run -/

/-- On every device, from any memory with zero counters: every weakly fair execution of @main terminates with the two
    results at the read module's last stages of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v453) = ReadP.val_main_v453 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v340) = ReadP.val_main_v340 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v453).trans (res_v453 (launchContents m c)),
      (h c main_v340).trans (res_v340 (launchContents m c)),
      (h c main_arg0).trans (arg_kept_pieces (launchContents m c) main_arg0 (by decide)), (h c main_arg1).trans (arg_kept_pieces (launchContents m c) main_arg1 (by decide)),
      (h c main_arg2).trans (arg_kept_pieces (launchContents m c) main_arg2 (by decide)), (h c main_arg3).trans (arg_kept_pieces (launchContents m c) main_arg3 (by decide)),
      (h c main_arg4).trans (arg_kept_pieces (launchContents m c) main_arg4 (by decide)), (h c main_arg5).trans (arg_kept_pieces (launchContents m c) main_arg5 (by decide)),
      (h c main_arg6).trans (arg_kept_pieces (launchContents m c) main_arg6 (by decide)), (h c main_arg7).trans (arg_kept_pieces (launchContents m c) main_arg7 (by decide)),
      (h c main_arg8).trans (arg_kept_pieces (launchContents m c) main_arg8 (by decide)), (h c main_arg9).trans (arg_kept_pieces (launchContents m c) main_arg9 (by decide)),
      (h c main_arg10).trans (arg_kept_pieces (launchContents m c) main_arg10 (by decide)), (h c main_arg11).trans (arg_kept_pieces (launchContents m c) main_arg11 (by decide))⟩)
    (run_seq ValueL.scopedRefs_eq ValueL.scopedSems_eq defs main (fun _ => ValueL.ops) ValueL.main_eq
      (fun _ => ops_sub_pieces) m ρ (fun _ => ops_fresh))

end Cert.ReferenceIdeal.RunH

end
-- ==== Proof.KI.Contents.lean ====
/- Reading the contents of a core's unscoped buffers between the items of @main at a buffer: an argument holds its launch
   contents at every boundary; a vector the first host stretch computes holds it from region 0's entry on; a region's output array
   holds, from that region on, the fold of the region's write-backs. Each by the one-step facts "this stretch does not write it" and
   "this region may change only its output array". -/
import proofs.«166004_j3839700763193_1_alg».proof.Proof.KI.Frame

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-! ## Reading the contents between items at a buffer an item does not write -/
theorem X1_of (c : Dev nD) (r : Ref sig .tc) (h : r ∉ hostOps0_W) : X1 m c r = V0 m c r := V1_of m c r h
theorem X2_of (c : Dev nD) (r : Ref sig .tc) (h : r ∉ ([main_v44] : List (Ref sig .tc))) : X2 m c r = X1 m c r := by
  rw [← V2_eq, ← V1_eq]; exact V2_of m (outs m) c r h
theorem X2_out (c : Dev nD) : X2 m c main_v44 = o2 m c := by
  unfold X2; exact Function.update_self (Proc.devRef (τ := τ) .tc main_v44) (o2 m c) (X1 m c)
theorem X3_of (c : Dev nD) (r : Ref sig .tc) (h : r ∉ hostOps1_W) : X3 m c r = X2 m c r := by
  rw [← V3_eq, ← V2_eq]; exact V3_of m (outs m) c r h
theorem X4_of (c : Dev nD) (r : Ref sig .tc) (h : r ∉ ([main_v96] : List (Ref sig .tc))) : X4 m c r = X3 m c r := by
  rw [← V4_eq, ← V3_eq]; exact V4_of m (outs m) c r h
theorem X4_out (c : Dev nD) : X4 m c main_v96 = o4 m c := by
  unfold X4; exact Function.update_self (Proc.devRef (τ := τ) .tc main_v96) (o4 m c) (X3 m c)
theorem X5_of (c : Dev nD) (r : Ref sig .tc) (h : r ∉ hostOps2_W) : X5 m c r = X4 m c r := by
  rw [← V5_eq, ← V4_eq]; exact V5_of m (outs m) c r h
theorem X6_of (c : Dev nD) (r : Ref sig .tc) (h : r ∉ ([main_v116] : List (Ref sig .tc))) : X6 m c r = X5 m c r := by
  rw [← V6_eq, ← V5_eq]; exact V6_of m (outs m) c r h
theorem X6_out (c : Dev nD) : X6 m c main_v116 = o6 m c := by
  unfold X6; exact Function.update_self (Proc.devRef (τ := τ) .tc main_v116) (o6 m c) (X5 m c)
theorem X7_of (c : Dev nD) (r : Ref sig .tc) (h : r ∉ hostOps3_W) : X7 m c r = X6 m c r := by
  rw [← V7_eq, ← V6_eq]; exact V7_of m (outs m) c r h
theorem X8_of (c : Dev nD) (r : Ref sig .tc) (h : r ∉ ([main_v168] : List (Ref sig .tc))) : X8 m c r = X7 m c r := by
  rw [← V8_eq, ← V7_eq]; exact V8_of m (outs m) c r h
theorem X8_out (c : Dev nD) : X8 m c main_v168 = o8 m c := by
  unfold X8; exact Function.update_self (Proc.devRef (τ := τ) .tc main_v168) (o8 m c) (X7 m c)
theorem X9_of (c : Dev nD) (r : Ref sig .tc) (h : r ∉ hostOps4_W) : X9 m c r = X8 m c r := by
  rw [← V9_eq, ← V8_eq]; exact V9_of m (outs m) c r h
theorem X10_of (c : Dev nD) (r : Ref sig .tc) (h : r ∉ ([main_v188] : List (Ref sig .tc))) : X10 m c r = X9 m c r := by
  rw [← V10_eq, ← V9_eq]; exact V10_of m (outs m) c r h
theorem X10_out (c : Dev nD) : X10 m c main_v188 = o10 m c := by
  unfold X10; exact Function.update_self (Proc.devRef (τ := τ) .tc main_v188) (o10 m c) (X9 m c)
theorem X11_of (c : Dev nD) (r : Ref sig .tc) (h : r ∉ hostOps5_W) : X11 m c r = X10 m c r := by
  rw [← V11_eq, ← V10_eq]; exact V11_of m (outs m) c r h
theorem X12_of (c : Dev nD) (r : Ref sig .tc) (h : r ∉ ([main_v240] : List (Ref sig .tc))) : X12 m c r = X11 m c r := by
  rw [← V12_eq, ← V11_eq]; exact V12_of m (outs m) c r h
theorem X12_out (c : Dev nD) : X12 m c main_v240 = o12 m c := by
  unfold X12; exact Function.update_self (Proc.devRef (τ := τ) .tc main_v240) (o12 m c) (X11 m c)

/-- An argument array is written by no host stretch and by no region: at every boundary it holds its launch contents. -/
theorem X_arg (c : Dev nD) (r : Ref sig .tc) (h0 : r ∉ hostOps0_W) (h1 : r ∉ hostOps1_W) (h2 : r ∉ hostOps2_W) (h3 : r ∉ hostOps3_W) (h4 : r ∉ hostOps4_W) (h5 : r ∉ hostOps5_W)
    (ho : r ∉ ([main_v44, main_v96, main_v116, main_v168, main_v188, main_v240] : List (Ref sig .tc))) :
    X1 m c r = V0 m c r ∧ X2 m c r = V0 m c r ∧ X3 m c r = V0 m c r ∧ X4 m c r = V0 m c r ∧ X5 m c r = V0 m c r ∧ X6 m c r = V0 m c r
    ∧ X7 m c r = V0 m c r ∧ X8 m c r = V0 m c r ∧ X9 m c r = V0 m c r ∧ X10 m c r = V0 m c r ∧ X11 m c r = V0 m c r ∧ X12 m c r = V0 m c r := by
  have ne : ∀ x ∈ ([main_v44, main_v96, main_v116, main_v168, main_v188, main_v240] : List (Ref sig .tc)), r ∉ ([x] : List (Ref sig .tc)) :=
    fun x hx hr => ho ((List.mem_singleton.mp hr) ▸ hx)
  have e1 := X1_of m c r h0
  have e2 := (X2_of m c r (ne _ (by simp))).trans e1
  have e3 := (X3_of m c r h1).trans e2
  have e4 := (X4_of m c r (ne _ (by simp))).trans e3
  have e5 := (X5_of m c r h2).trans e4
  have e6 := (X6_of m c r (ne _ (by simp))).trans e5
  have e7 := (X7_of m c r h3).trans e6
  have e8 := (X8_of m c r (ne _ (by simp))).trans e7
  have e9 := (X9_of m c r h4).trans e8
  have e10 := (X10_of m c r (ne _ (by simp))).trans e9
  have e11 := (X11_of m c r h5).trans e10
  have e12 := (X12_of m c r (ne _ (by simp))).trans e11
  exact ⟨e1, e2, e3, e4, e5, e6, e7, e8, e9, e10, e11, e12⟩

/-- A buffer the first host stretch writes and nothing later writes (the four inverse-square-root degree vectors) holds, at every
    later boundary, what it held when region 0 was entered. -/
theorem X_early (c : Dev nD) (r : Ref sig .tc) (h1 : r ∉ hostOps1_W) (h2 : r ∉ hostOps2_W) (h3 : r ∉ hostOps3_W) (h4 : r ∉ hostOps4_W) (h5 : r ∉ hostOps5_W)
    (ho : r ∉ ([main_v44, main_v96, main_v116, main_v168, main_v188, main_v240] : List (Ref sig .tc))) :
    X2 m c r = X1 m c r ∧ X4 m c r = X1 m c r ∧ X6 m c r = X1 m c r ∧ X8 m c r = X1 m c r ∧ X10 m c r = X1 m c r := by
  have ne : ∀ x ∈ ([main_v44, main_v96, main_v116, main_v168, main_v188, main_v240] : List (Ref sig .tc)), r ∉ ([x] : List (Ref sig .tc)) :=
    fun x hx hr => ho ((List.mem_singleton.mp hr) ▸ hx)
  have e2 := X2_of m c r (ne _ (by simp))
  have e3 := (X3_of m c r h1).trans e2
  have e4 := (X4_of m c r (ne _ (by simp))).trans e3
  have e5 := (X5_of m c r h2).trans e4
  have e6 := (X6_of m c r (ne _ (by simp))).trans e5
  have e7 := (X7_of m c r h3).trans e6
  have e8 := (X8_of m c r (ne _ (by simp))).trans e7
  have e9 := (X9_of m c r h4).trans e8
  have e10 := (X10_of m c r (ne _ (by simp))).trans e9
  exact ⟨e2, e4, e6, e8, e10⟩

/-- The side-effect features of layer 1 (region 0's output) as the later items find them. -/
theorem X_v44 (c : Dev nD) : X4 m c main_v44 = o2 m c ∧ X6 m c main_v44 = o2 m c := by
  have e3 := (X3_of m c main_v44 (by decide)).trans (X2_out m c)
  have e4 := (X4_of m c main_v44 (by decide)).trans e3
  have e5 := (X5_of m c main_v44 (by decide)).trans e4
  have e6 := (X6_of m c main_v44 (by decide)).trans e5
  exact ⟨e4, e6⟩
/-- The drug features of layer 1 (region 1's output) as the later items find them. -/
theorem X_v96 (c : Dev nD) : X4 m c main_v96 = o4 m c ∧ X6 m c main_v96 = o4 m c := by
  have e4 := X4_out m c
  have e5 := (X5_of m c main_v96 (by decide)).trans e4
  have e6 := (X6_of m c main_v96 (by decide)).trans e5
  exact ⟨e4, e6⟩
/-- The side-effect features of layer 2 (region 2's output). -/
theorem X_v116 (c : Dev nD) : X8 m c main_v116 = o6 m c ∧ X10 m c main_v116 = o6 m c := by
  have e7 := (X7_of m c main_v116 (by decide)).trans (X6_out m c)
  have e8 := (X8_of m c main_v116 (by decide)).trans e7
  have e9 := (X9_of m c main_v116 (by decide)).trans e8
  have e10 := (X10_of m c main_v116 (by decide)).trans e9
  exact ⟨e8, e10⟩
/-- The drug features of layer 2 (region 3's output). -/
theorem X_v168 (c : Dev nD) : X8 m c main_v168 = o8 m c ∧ X10 m c main_v168 = o8 m c := by
  have e8 := X8_out m c
  have e9 := (X9_of m c main_v168 (by decide)).trans e8
  have e10 := (X10_of m c main_v168 (by decide)).trans e9
  exact ⟨e8, e10⟩
/-- The program's second result (region 4's output) is still there at the end. -/
theorem X12_v188 (c : Dev nD) : X12 m c main_v188 = o10 m c :=
  (X12_of m c main_v188 (by decide)).trans ((X11_of m c main_v188 (by decide)).trans (X10_out m c))

end Cert.KernelIdeal.Hand

end
-- ==== Proof.Host.Chains.lean ====
/- The host chains the three layers share, each named once as a function of its inputs:
   the inverse square root of a clamped degree count, the index normalisation, and the
   aggregation "scale the rows, gather along the edges, add into zeros". -/
import proofs.«166004_j3839700763193_1_alg».proof.Proof.Gen.KernelIdeal.Regions
import Idealize.ShloMosaic.PureOps.Ideal

set_option maxRecDepth 16384

noncomputable section

namespace Cert.HostK

open Idealize.ShloMosaic Idealize.ShloMosaic.TcCoe
open Cert.KernelIdeal Cert.KernelIdeal.Gen

/-- A vector of floats / of 32-bit integers over a literal shape, read at Ideal. -/
abbrev VF (S : Shape) : Type := (⟨S, .f32⟩ : BufTy).Contents (Elt Ideal)
abbrev VI (S : Shape) : Type := (⟨S, .i32⟩ : BufTy).Contents (Elt Ideal)

/-- 1/sqrt(max(deg, 1)) over the 100000 drug nodes, deg the number of edges whose endpoint `idx` is the node. -/
def invDegD (idx : VI S1000000) : VF S100000 :=
  Host.rsqrt (F := Ideal) (maximumf
    (Host.scatterAdd (F := Ideal) scatter_S100000_S1000000x1_S1000000_n_0_0_1
      (broadcastInDim S100000 ![] bcast_S_S100000 (constant (F := Ideal) S_ .f32 0x00000000#32))
      (broadcastInDim S1000000x1 ![0] bcast_S1000000_S1000000x1_0 idx)
      (broadcastInDim S1000000 ![] bcast_S_S1000000 (constant (F := Ideal) S_ .f32 0x3F800000#32)))
    (broadcastInDim S100000 ![] bcast_S_S100000 (constant (F := Ideal) S_ .f32 0x3F800000#32)))

/-- The same over the 5000 side-effect nodes. -/
def invDegS (idx : VI S1000000) : VF S5000 :=
  Host.rsqrt (F := Ideal) (maximumf
    (Host.scatterAdd (F := Ideal) scatter_S5000_S1000000x1_S1000000_n_0_0_1
      (broadcastInDim S5000 ![] bcast_S_S5000 (constant (F := Ideal) S_ .f32 0x00000000#32))
      (broadcastInDim S1000000x1 ![0] bcast_S1000000_S1000000x1_0 idx)
      (broadcastInDim S1000000 ![] bcast_S_S1000000 (constant (F := Ideal) S_ .f32 0x3F800000#32)))
    (broadcastInDim S5000 ![] bcast_S_S5000 (constant (F := Ideal) S_ .f32 0x3F800000#32)))

/-- A negative index wrapped by the extent of the drug axis, as a column of start indices. -/
def normIdxD (idx : VI S1000000) : VI S1000000x1 :=
  broadcastInDim S1000000x1 ![0] bcast_S1000000_S1000000x1_0
    (select (cmpi .slt idx (broadcastInDim S1000000 ![] bcast_S_S1000000 (constantI S_ 32 0#32)))
      (addi idx (broadcastInDim S1000000 ![] bcast_S_S1000000 (constantI S_ 32 100000#32))) idx)

/-- The same by the extent of the side-effect axis. -/
def normIdxS (idx : VI S1000000) : VI S1000000x1 :=
  broadcastInDim S1000000x1 ![0] bcast_S1000000_S1000000x1_0
    (select (cmpi .slt idx (broadcastInDim S1000000 ![] bcast_S_S1000000 (constantI S_ 32 0#32)))
      (addi idx (broadcastInDim S1000000 ![] bcast_S_S1000000 (constantI S_ 32 5000#32))) idx)

/-- Drug rows scaled by `inv`, gathered at `src`, added into 5000 zero rows at `dst`. -/
def aggDS (x : VF S100000x128) (src dst : VI S1000000) (inv : VF S100000) : VF S5000x128 :=
  Host.scatterAdd (F := Ideal) scatter_S5000x128_S1000000x1_S1000000x128_1_0_0_1
    (broadcastInDim S5000x128 ![] bcast_S_S5000x128 (constant (F := Ideal) S_ .f32 0x00000000#32))
    (broadcastInDim S1000000x1 ![0] bcast_S1000000_S1000000x1_0 dst)
    (Host.gather gather_S100000x128_S1000000x1_S1000000x128_1_0_n_n_0_1_1128
      (mulf x (broadcastInDim S100000x128 ![0, 1] bcast_S100000x1_S100000x128_0_1
        (broadcastInDim S100000x1 ![0] bcast_S100000_S100000x1_0 inv)))
      (normIdxD src))

/-- Side-effect rows scaled by `inv`, gathered at `src`, added into 100000 zero rows at `dst`. -/
def aggSD (x : VF S5000x128) (src dst : VI S1000000) (inv : VF S5000) : VF S100000x128 :=
  Host.scatterAdd (F := Ideal) scatter_S100000x128_S1000000x1_S1000000x128_1_0_0_1
    (broadcastInDim S100000x128 ![] bcast_S_S100000x128 (constant (F := Ideal) S_ .f32 0x00000000#32))
    (broadcastInDim S1000000x1 ![0] bcast_S1000000_S1000000x1_0 dst)
    (Host.gather gather_S5000x128_S1000000x1_S1000000x128_1_0_n_n_0_1_1128
      (mulf x (broadcastInDim S5000x128 ![0, 1] bcast_S5000x1_S5000x128_0_1
        (broadcastInDim S5000x1 ![0] bcast_S5000_S5000x1_0 inv)))
      (normIdxS src))

/-- Drug rows scaled by `inv`, gathered at `src`, added into 100000 zero rows at `dst`. -/
def aggDD (x : VF S100000x128) (src dst : VI S1000000) (inv : VF S100000) : VF S100000x128 :=
  Host.scatterAdd (F := Ideal) scatter_S100000x128_S1000000x1_S1000000x128_1_0_0_1
    (broadcastInDim S100000x128 ![] bcast_S_S100000x128 (constant (F := Ideal) S_ .f32 0x00000000#32))
    (broadcastInDim S1000000x1 ![0] bcast_S1000000_S1000000x1_0 dst)
    (Host.gather gather_S100000x128_S1000000x1_S1000000x128_1_0_n_n_0_1_1128
      (mulf x (broadcastInDim S100000x128 ![0, 1] bcast_S100000x1_S100000x128_0_1
        (broadcastInDim S100000x1 ![0] bcast_S100000_S100000x1_0 inv)))
      (normIdxD src))

end Cert.HostK
-- ==== Proof.Host.Layouts.lean ====
/- The layouts in which the host hands the regions their operands: a leading unit axis, a trailing unit axis,
   three arrays stacked along a new leading axis, and the first / the last three of the four relations' weights and biases. -/
import proofs.«166004_j3839700763193_1_alg».proof.Proof.Host.Chains
import Idealize.ShloMosaic.PureOps.Ideal

set_option maxRecDepth 16384

noncomputable section

namespace Cert.HostK

open Idealize.ShloMosaic Idealize.ShloMosaic.TcCoe
open Cert.KernelIdeal Cert.KernelIdeal.Gen

/-- [5000,128] under a leading unit axis. -/
def leadS (x : VF S5000x128) : VF S1x5000x128 :=
  broadcastInDim S1x5000x128 ![1, 2] bcast_S5000x128_S1x5000x128_1_2 x

/-- A vector over the side-effect nodes as a [1,5000,1] column. -/
def colS (v : VF S5000) : VF S1x5000x1 :=
  shapeCast S1x5000x1 (broadcastInDim S1x5000 ![1] bcast_S5000_S1x5000_1 v) shapeCasts_S1x5000_S1x5000x1

/-- Three [100000,128] arrays stacked along a new leading axis. -/
def stackD (a b c : VF S100000x128) : VF S3x100000x128 :=
  concatenate S3x100000x128 0
    [⟨S1x100000x128, broadcastInDim S1x100000x128 ![1, 2] bcast_S100000x128_S1x100000x128_1_2 a⟩,
     ⟨S1x100000x128, broadcastInDim S1x100000x128 ![1, 2] bcast_S100000x128_S1x100000x128_1_2 b⟩,
     ⟨S1x100000x128, broadcastInDim S1x100000x128 ![1, 2] bcast_S100000x128_S1x100000x128_1_2 c⟩]
    concatenates_S1x100000x128_S1x100000x128_S1x100000x128_S3x100000x128_d0

/-- Three vectors over the drug nodes stacked, as [3,100000,1] columns. -/
def colsD (a b c : VF S100000) : VF S3x100000x1 :=
  shapeCast S3x100000x1
    (concatenate S3x100000 0
      [⟨S1x100000, broadcastInDim S1x100000 ![1] bcast_S100000_S1x100000_1 a⟩,
       ⟨S1x100000, broadcastInDim S1x100000 ![1] bcast_S100000_S1x100000_1 b⟩,
       ⟨S1x100000, broadcastInDim S1x100000 ![1] bcast_S100000_S1x100000_1 c⟩]
      concatenates_S1x100000_S1x100000_S1x100000_S3x100000_d0)
    shapeCasts_S3x100000_S3x100000x1

/-- Relation 0's weights / relations 1–3's weights, out of the four (128 output features). -/
def wHead (w : VF S4x128x128) : VF S1x128x128 := extractStridedSlice S1x128x128 ![0, 0, 0] w slices_S4x128x128_S1x128x128_0_0_0
def wTail (w : VF S4x128x128) : VF S3x128x128 := extractStridedSlice S3x128x128 ![1, 0, 0] w slices_S4x128x128_S3x128x128_1_0_0
/-- Relation 0's bias / relations 1–3's biases, as rows under a unit axis (128 output features). -/
def bHead (b : VF S4x128) : VF S1x1x128 :=
  shapeCast S1x1x128 (extractStridedSlice S1x128 ![0, 0] b slices_S4x128_S1x128_0_0) shapeCasts_S1x128_S1x1x128
def bTail (b : VF S4x128) : VF S3x1x128 :=
  shapeCast S3x1x128 (extractStridedSlice S3x128 ![1, 0] b slices_S4x128_S3x128_1_0) shapeCasts_S3x128_S3x1x128

/-- The same for the last layer's 64 output features. -/
def wHead64 (w : VF S4x128x64) : VF S1x128x64 := extractStridedSlice S1x128x64 ![0, 0, 0] w slices_S4x128x64_S1x128x64_0_0_0
def wTail64 (w : VF S4x128x64) : VF S3x128x64 := extractStridedSlice S3x128x64 ![1, 0, 0] w slices_S4x128x64_S3x128x64_1_0_0
def bHead64 (b : VF S4x64) : VF S1x1x64 :=
  shapeCast S1x1x64 (extractStridedSlice S1x64 ![0, 0] b slices_S4x64_S1x64_0_0) shapeCasts_S1x64_S1x1x64
def bTail64 (b : VF S4x64) : VF S3x1x64 :=
  shapeCast S3x1x64 (extractStridedSlice S3x64 ![1, 0] b slices_S4x64_S3x64_1_0) shapeCasts_S3x64_S3x1x64

/-- Running two lists of host operations one after the other is running their concatenation. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

end Cert.HostK
-- ==== Proof.Host.LayoutsAt.lean ====
/- The operand layouts read at an index: each entry of a region's operand is an entry of the array the layout was made from. -/
import proofs.«166004_j3839700763193_1_alg».proof.Proof.Host.Layouts
import Idealize.ShloMosaic.Lib.ValueIdx
import Idealize.ShloMosaic.Lib.Pipeline.Value
import Idealize.ShloMosaic.PureOps.Ideal

set_option maxRecDepth 16384

noncomputable section

namespace Cert.HostK

open Idealize.ShloMosaic Idealize.ShloMosaic.TcCoe
open Cert.KernelIdeal Cert.KernelIdeal.Gen

open Idealize.ShloMosaic.ValueIdx

/-- The leading unit axis reads through. -/
theorem leadS_apply (x : VF S5000x128) (p : Fin 5000) (k : Fin 128) :
    leadS x (ix3 (0 : Fin 1) p k) = x (ix2 p k) := by
  unfold leadS
  exact broadcastInDim_apply _ _ _ _ _ (fun ax => by match ax with | ⟨0, _⟩ => rfl | ⟨1, _⟩ => rfl)

/-- The column over the side-effect nodes at row `p`. -/
theorem colS_apply (v : VF S5000) (p : Fin 5000) :
    colS v (ix3 (0 : Fin 1) p (0 : Fin 1)) = v (ix1 p) := by
  unfold colS
  refine (shapeCast_apply _ _ _ (ix2 (0 : Fin 1) p) ?_).trans ?_
  · rw [Shape.rowMajor_val_two, Shape.rowMajor_val_three]
    show 0 * 5000 + p.val = (0 * 5000 + p.val) * 1 + 0
    omega
  · exact broadcastInDim_apply _ _ _ _ _ (fun ax => by match ax with | ⟨0, _⟩ => rfl)

/-- Member 0 of the stack. -/
theorem stackD_apply0 (a b c : VF S100000x128) (p : Fin 100000) (k : Fin 128) :
    stackD a b c (ix3 (0 : Fin 3) p k) = a (ix2 p k) := by
  unfold stackD
  refine Eq.trans (concatenate_apply_piece (t := S3x100000x128) 0 _ _ _ 0 (by exact (show 0 < 3 by decide)) S1x100000x128 _ rfl rfl 0 rfl (ix3 (0 : Fin 1) p k) ?_ rfl) ?_
  · intro ax hax; match ax with | ⟨0, _⟩ => exact absurd rfl hax | ⟨1, _⟩ => rfl | ⟨2, _⟩ => rfl
  · exact broadcastInDim_apply _ _ _ _ _ (fun ax => by match ax with | ⟨0, _⟩ => rfl | ⟨1, _⟩ => rfl)

/-- Column 0 of the stacked vectors at row `p`. -/
theorem colsD_apply0 (a b c : VF S100000) (p : Fin 100000) :
    colsD a b c (ix3 (0 : Fin 3) p (0 : Fin 1)) = a (ix1 p) := by
  unfold colsD
  refine (shapeCast_apply _ _ _ (ix2 (0 : Fin 3) p) ?_).trans ?_
  · rw [Shape.rowMajor_val_two, Shape.rowMajor_val_three]
    show 0 * 100000 + p.val = (0 * 100000 + p.val) * 1 + 0
    omega
  · refine Eq.trans (concatenate_apply_piece (t := S3x100000) 0 _ _ _ 0 (by exact (show 0 < 3 by decide)) S1x100000 _ rfl rfl 0 rfl (ix2 (0 : Fin 1) p) ?_ rfl) ?_
    · intro ax hax; match ax with | ⟨0, _⟩ => exact absurd rfl hax | ⟨1, _⟩ => rfl
    · exact broadcastInDim_apply _ _ _ _ _ (fun ax => by match ax with | ⟨0, _⟩ => rfl)

/-- Member 1 of the stack. -/
theorem stackD_apply1 (a b c : VF S100000x128) (p : Fin 100000) (k : Fin 128) :
    stackD a b c (ix3 (1 : Fin 3) p k) = b (ix2 p k) := by
  unfold stackD
  refine Eq.trans (concatenate_apply_piece (t := S3x100000x128) 0 _ _ _ 1 (by exact (show 1 < 3 by decide)) S1x100000x128 _ rfl rfl 1 rfl (ix3 (0 : Fin 1) p k) ?_ rfl) ?_
  · intro ax hax; match ax with | ⟨0, _⟩ => exact absurd rfl hax | ⟨1, _⟩ => rfl | ⟨2, _⟩ => rfl
  · exact broadcastInDim_apply _ _ _ _ _ (fun ax => by match ax with | ⟨0, _⟩ => rfl | ⟨1, _⟩ => rfl)

/-- Column 1 of the stacked vectors at row `p`. -/
theorem colsD_apply1 (a b c : VF S100000) (p : Fin 100000) :
    colsD a b c (ix3 (1 : Fin 3) p (0 : Fin 1)) = b (ix1 p) := by
  unfold colsD
  refine (shapeCast_apply _ _ _ (ix2 (1 : Fin 3) p) ?_).trans ?_
  · rw [Shape.rowMajor_val_two, Shape.rowMajor_val_three]
    show 1 * 100000 + p.val = (1 * 100000 + p.val) * 1 + 0
    omega
  · refine Eq.trans (concatenate_apply_piece (t := S3x100000) 0 _ _ _ 1 (by exact (show 1 < 3 by decide)) S1x100000 _ rfl rfl 1 rfl (ix2 (0 : Fin 1) p) ?_ rfl) ?_
    · intro ax hax; match ax with | ⟨0, _⟩ => exact absurd rfl hax | ⟨1, _⟩ => rfl
    · exact broadcastInDim_apply _ _ _ _ _ (fun ax => by match ax with | ⟨0, _⟩ => rfl)

/-- Member 2 of the stack. -/
theorem stackD_apply2 (a b c : VF S100000x128) (p : Fin 100000) (k : Fin 128) :
    stackD a b c (ix3 (2 : Fin 3) p k) = c (ix2 p k) := by
  unfold stackD
  refine Eq.trans (concatenate_apply_piece (t := S3x100000x128) 0 _ _ _ 2 (by exact (show 2 < 3 by decide)) S1x100000x128 _ rfl rfl 2 rfl (ix3 (0 : Fin 1) p k) ?_ rfl) ?_
  · intro ax hax; match ax with | ⟨0, _⟩ => exact absurd rfl hax | ⟨1, _⟩ => rfl | ⟨2, _⟩ => rfl
  · exact broadcastInDim_apply _ _ _ _ _ (fun ax => by match ax with | ⟨0, _⟩ => rfl | ⟨1, _⟩ => rfl)

/-- Column 2 of the stacked vectors at row `p`. -/
theorem colsD_apply2 (a b c : VF S100000) (p : Fin 100000) :
    colsD a b c (ix3 (2 : Fin 3) p (0 : Fin 1)) = c (ix1 p) := by
  unfold colsD
  refine (shapeCast_apply _ _ _ (ix2 (2 : Fin 3) p) ?_).trans ?_
  · rw [Shape.rowMajor_val_two, Shape.rowMajor_val_three]
    show 2 * 100000 + p.val = (2 * 100000 + p.val) * 1 + 0
    omega
  · refine Eq.trans (concatenate_apply_piece (t := S3x100000) 0 _ _ _ 2 (by exact (show 2 < 3 by decide)) S1x100000 _ rfl rfl 2 rfl (ix2 (0 : Fin 1) p) ?_ rfl) ?_
    · intro ax hax; match ax with | ⟨0, _⟩ => exact absurd rfl hax | ⟨1, _⟩ => rfl
    · exact broadcastInDim_apply _ _ _ _ _ (fun ax => by match ax with | ⟨0, _⟩ => rfl)

/-- Relation 0's weights are the first of the four (128 output features). -/
theorem wHead_apply (w : VF S4x128x128) (k : Fin 128) (q : Fin 128) :
    wHead w (ix3 (0 : Fin 1) k q) = w (ix3 (0 : Fin 4) k q) := by
  unfold wHead
  exact extractStridedSlice_apply _ _ _ _ _ (fun ax => by
    match ax with | ⟨0, _⟩ => rfl | ⟨1, _⟩ => exact (Nat.zero_add _).symm | ⟨2, _⟩ => exact (Nat.zero_add _).symm)

/-- Relation `r + 1`'s weights are member `r` of the last three (128 output features). -/
theorem wTail_apply (w : VF S4x128x128) (r : Fin 3) (k : Fin 128) (q : Fin 128) :
    wTail w (ix3 r k q) = w (ix3 (⟨r.val + 1, by omega⟩ : Fin 4) k q) := by
  unfold wTail
  exact extractStridedSlice_apply _ _ _ _ _ (fun ax => by
    match ax with | ⟨0, _⟩ => exact Nat.add_comm _ _ | ⟨1, _⟩ => exact (Nat.zero_add _).symm | ⟨2, _⟩ => exact (Nat.zero_add _).symm)

/-- Relation 0's bias is the first of the four rows (128 output features). -/
theorem bHead_apply (b : VF S4x128) (q : Fin 128) :
    bHead b (ix3 (0 : Fin 1) (0 : Fin 1) q) = b (ix2 (0 : Fin 4) q) := by
  unfold bHead
  refine (shapeCast_apply _ _ _ (ix2 (0 : Fin 1) q) ?_).trans ?_
  · rw [Shape.rowMajor_val_two, Shape.rowMajor_val_three]
    show 0 * 128 + q.val = (0 * 1 + 0) * 128 + q.val
    omega
  · exact extractStridedSlice_apply _ _ _ _ _ (fun ax => by
      match ax with | ⟨0, _⟩ => rfl | ⟨1, _⟩ => exact (Nat.zero_add _).symm)

/-- Relation `r + 1`'s bias is row `r` of the last three (128 output features). -/
theorem bTail_apply (b : VF S4x128) (r : Fin 3) (q : Fin 128) :
    bTail b (ix3 r (0 : Fin 1) q) = b (ix2 (⟨r.val + 1, by omega⟩ : Fin 4) q) := by
  unfold bTail
  refine (shapeCast_apply _ _ _ (ix2 r q) ?_).trans ?_
  · rw [Shape.rowMajor_val_two, Shape.rowMajor_val_three]
    show r.val * 128 + q.val = (r.val * 1 + 0) * 128 + q.val
    omega
  · exact extractStridedSlice_apply _ _ _ _ _ (fun ax => by
      match ax with | ⟨0, _⟩ => exact Nat.add_comm _ _ | ⟨1, _⟩ => exact (Nat.zero_add _).symm)

theorem wTail_apply0 (w : VF S4x128x128) (k : Fin 128) (q : Fin 128) :
    wTail w (ix3 (0 : Fin 3) k q) = w (ix3 (1 : Fin 4) k q) := wTail_apply w 0 k q
theorem bTail_apply0 (b : VF S4x128) (q : Fin 128) :
    bTail b (ix3 (0 : Fin 3) (0 : Fin 1) q) = b (ix2 (1 : Fin 4) q) := bTail_apply b 0 q

theorem wTail_apply1 (w : VF S4x128x128) (k : Fin 128) (q : Fin 128) :
    wTail w (ix3 (1 : Fin 3) k q) = w (ix3 (2 : Fin 4) k q) := wTail_apply w 1 k q
theorem bTail_apply1 (b : VF S4x128) (q : Fin 128) :
    bTail b (ix3 (1 : Fin 3) (0 : Fin 1) q) = b (ix2 (2 : Fin 4) q) := bTail_apply b 1 q

theorem wTail_apply2 (w : VF S4x128x128) (k : Fin 128) (q : Fin 128) :
    wTail w (ix3 (2 : Fin 3) k q) = w (ix3 (3 : Fin 4) k q) := wTail_apply w 2 k q
theorem bTail_apply2 (b : VF S4x128) (q : Fin 128) :
    bTail b (ix3 (2 : Fin 3) (0 : Fin 1) q) = b (ix2 (3 : Fin 4) q) := bTail_apply b 2 q

/-- Relation 0's weights are the first of the four (64 output features). -/
theorem wHead64_apply (w : VF S4x128x64) (k : Fin 128) (q : Fin 64) :
    wHead64 w (ix3 (0 : Fin 1) k q) = w (ix3 (0 : Fin 4) k q) := by
  unfold wHead64
  exact extractStridedSlice_apply _ _ _ _ _ (fun ax => by
    match ax with | ⟨0, _⟩ => rfl | ⟨1, _⟩ => exact (Nat.zero_add _).symm | ⟨2, _⟩ => exact (Nat.zero_add _).symm)

/-- Relation `r + 1`'s weights are member `r` of the last three (64 output features). -/
theorem wTail64_apply (w : VF S4x128x64) (r : Fin 3) (k : Fin 128) (q : Fin 64) :
    wTail64 w (ix3 r k q) = w (ix3 (⟨r.val + 1, by omega⟩ : Fin 4) k q) := by
  unfold wTail64
  exact extractStridedSlice_apply _ _ _ _ _ (fun ax => by
    match ax with | ⟨0, _⟩ => exact Nat.add_comm _ _ | ⟨1, _⟩ => exact (Nat.zero_add _).symm | ⟨2, _⟩ => exact (Nat.zero_add _).symm)

/-- Relation 0's bias is the first of the four rows (64 output features). -/
theorem bHead64_apply (b : VF S4x64) (q : Fin 64) :
    bHead64 b (ix3 (0 : Fin 1) (0 : Fin 1) q) = b (ix2 (0 : Fin 4) q) := by
  unfold bHead64
  refine (shapeCast_apply _ _ _ (ix2 (0 : Fin 1) q) ?_).trans ?_
  · rw [Shape.rowMajor_val_two, Shape.rowMajor_val_three]
    show 0 * 64 + q.val = (0 * 1 + 0) * 64 + q.val
    omega
  · exact extractStridedSlice_apply _ _ _ _ _ (fun ax => by
      match ax with | ⟨0, _⟩ => rfl | ⟨1, _⟩ => exact (Nat.zero_add _).symm)

/-- Relation `r + 1`'s bias is row `r` of the last three (64 output features). -/
theorem bTail64_apply (b : VF S4x64) (r : Fin 3) (q : Fin 64) :
    bTail64 b (ix3 r (0 : Fin 1) q) = b (ix2 (⟨r.val + 1, by omega⟩ : Fin 4) q) := by
  unfold bTail64
  refine (shapeCast_apply _ _ _ (ix2 r q) ?_).trans ?_
  · rw [Shape.rowMajor_val_two, Shape.rowMajor_val_three]
    show r.val * 64 + q.val = (r.val * 1 + 0) * 64 + q.val
    omega
  · exact extractStridedSlice_apply _ _ _ _ _ (fun ax => by
      match ax with | ⟨0, _⟩ => exact Nat.add_comm _ _ | ⟨1, _⟩ => exact (Nat.zero_add _).symm)

theorem wTail64_apply0 (w : VF S4x128x64) (k : Fin 128) (q : Fin 64) :
    wTail64 w (ix3 (0 : Fin 3) k q) = w (ix3 (1 : Fin 4) k q) := wTail64_apply w 0 k q
theorem bTail64_apply0 (b : VF S4x64) (q : Fin 64) :
    bTail64 b (ix3 (0 : Fin 3) (0 : Fin 1) q) = b (ix2 (1 : Fin 4) q) := bTail64_apply b 0 q

theorem wTail64_apply1 (w : VF S4x128x64) (k : Fin 128) (q : Fin 64) :
    wTail64 w (ix3 (1 : Fin 3) k q) = w (ix3 (2 : Fin 4) k q) := wTail64_apply w 1 k q
theorem bTail64_apply1 (b : VF S4x64) (q : Fin 64) :
    bTail64 b (ix3 (1 : Fin 3) (0 : Fin 1) q) = b (ix2 (2 : Fin 4) q) := bTail64_apply b 1 q

theorem wTail64_apply2 (w : VF S4x128x64) (k : Fin 128) (q : Fin 64) :
    wTail64 w (ix3 (2 : Fin 3) k q) = w (ix3 (3 : Fin 4) k q) := wTail64_apply w 2 k q
theorem bTail64_apply2 (b : VF S4x64) (q : Fin 64) :
    bTail64 b (ix3 (2 : Fin 3) (0 : Fin 1) q) = b (ix2 (3 : Fin 4) q) := bTail64_apply b 2 q

end Cert.HostK
-- ==== Proof.Val.Spec.lean ====
/-
  One layer of the network as a function of its inputs, entry by entry over the extended reals.

  A graph convolution at row p and column q is (Σ_k (agg[p, k] · inv[p]) · W[i, k, q]) + b[i, q]. The layer's side output
  is the convolution of relation 0 over the aggregation of the drug rows along the relate edges; its drug output is the
  left-associated sum of the convolutions of relations 1, 2, 3 over the aggregations of the side rows along the reversed
  relate edges and of the drug rows along the similarity edges in both directions. The aggregations and the degree
  factors are the shared host chains. The rectifier is the maximum with zero at every entry.
-/
import proofs.«166004_j3839700763193_1_alg».proof.Proof.Host.Chains
import Idealize.ShloMosaic.Lib.ValueIdx

noncomputable section

open scoped BigOperators

namespace Cert.Val

open Idealize.ShloMosaic Idealize.ShloMosaic.ValueIdx Cert.HostK Cert.KernelIdeal

/-- One graph convolution at row `p`, column `q`: the aggregated row scaled by its row factor, times column `q` of
    slab `i` of the weights, plus entry `q` of row `i` of the biases. -/
def convAt {N Fo : Nat} (agg : (⟨2, ![N, 128]⟩ : Shape).Idx → EReal) (inv : (⟨1, ![N]⟩ : Shape).Idx → EReal)
    (W : (⟨3, ![4, 128, Fo]⟩ : Shape).Idx → EReal) (b : (⟨2, ![4, Fo]⟩ : Shape).Idx → EReal)
    (i : Fin 4) (p : Fin N) (q : Fin Fo) : EReal :=
  (∑ k : Fin 128, (agg (ix2 p k) * inv (ix1 p)) * W (ix3 i k q)) + b (ix2 i q)

/-- The side output of a layer, before any rectifier, from the drug rows `hd`. -/
def layerSide {Fo : Nat} (hd : VF S100000x128) (x2 x3 : VI S1000000)
    (W : (⟨3, ![4, 128, Fo]⟩ : Shape).Idx → EReal) (b : (⟨2, ![4, Fo]⟩ : Shape).Idx → EReal) :
    (⟨2, ![5000, Fo]⟩ : Shape).Idx → EReal :=
  fun j => convAt (aggDS hd x2 x3 (invDegD x2)) (invDegS x3) W b 0 (j 0) (j 1)

/-- The drug output of a layer, before any rectifier, from the drug rows `hd` and the side rows `hs`. -/
def layerDrug {Fo : Nat} (hd : VF S100000x128) (hs : VF S5000x128) (x2 x3 x4 x5 : VI S1000000)
    (W : (⟨3, ![4, 128, Fo]⟩ : Shape).Idx → EReal) (b : (⟨2, ![4, Fo]⟩ : Shape).Idx → EReal) :
    (⟨2, ![100000, Fo]⟩ : Shape).Idx → EReal :=
  fun j => (convAt (aggSD hs x3 x2 (invDegS x3)) (invDegD x2) W b 1 (j 0) (j 1)
        + convAt (aggDD hd x4 x5 (invDegD x4)) (invDegD x5) W b 2 (j 0) (j 1))
      + convAt (aggDD hd x5 x4 (invDegD x5)) (invDegD x4) W b 3 (j 0) (j 1)

/-- The rectifier on an array: the maximum with zero at every entry. -/
def reluArr {S : Shape} (v : S.Idx → EReal) : S.Idx → EReal := fun j => max (v j) 0

theorem layerSide_apply {Fo : Nat} (hd : VF S100000x128) (x2 x3 : VI S1000000)
    (W : (⟨3, ![4, 128, Fo]⟩ : Shape).Idx → EReal) (b : (⟨2, ![4, Fo]⟩ : Shape).Idx → EReal) (p : Fin 5000) (q : Fin Fo) :
    layerSide hd x2 x3 W b (ix2 p q) = convAt (aggDS hd x2 x3 (invDegD x2)) (invDegS x3) W b 0 p q := rfl

theorem layerDrug_apply {Fo : Nat} (hd : VF S100000x128) (hs : VF S5000x128) (x2 x3 x4 x5 : VI S1000000)
    (W : (⟨3, ![4, 128, Fo]⟩ : Shape).Idx → EReal) (b : (⟨2, ![4, Fo]⟩ : Shape).Idx → EReal) (p : Fin 100000) (q : Fin Fo) :
    layerDrug hd hs x2 x3 x4 x5 W b (ix2 p q)
      = (convAt (aggSD hs x3 x2 (invDegS x3)) (invDegD x2) W b 1 p q
          + convAt (aggDD hd x4 x5 (invDegD x4)) (invDegD x5) W b 2 p q)
        + convAt (aggDD hd x5 x4 (invDegD x5)) (invDegD x4) W b 3 p q := rfl

theorem reluArr_apply {S : Shape} (v : S.Idx → EReal) (j : S.Idx) : reluArr v j = max (v j) 0 := rfl

/-! ## The three layers composed -/

/-- The drug rows after layer 1. -/
def netHd1 (x0 : VF S100000x128) (x1 : VF S5000x128) (x2 x3 x4 x5 : VI S1000000) (x6 : VF S4x128x128) (x7 : VF S4x128) :
    VF S100000x128 :=
  reluArr (layerDrug x0 x1 x2 x3 x4 x5 x6 x7)

/-- The side rows after layer 1. -/
def netHs1 (x0 : VF S100000x128) (x2 x3 : VI S1000000) (x6 : VF S4x128x128) (x7 : VF S4x128) : VF S5000x128 :=
  reluArr (layerSide x0 x2 x3 x6 x7)

/-- The drug rows after layer 2. -/
def netHd2 (x0 : VF S100000x128) (x1 : VF S5000x128) (x2 x3 x4 x5 : VI S1000000) (x6 : VF S4x128x128) (x7 : VF S4x128)
    (x8 : VF S4x128x128) (x9 : VF S4x128) : VF S100000x128 :=
  reluArr (layerDrug (netHd1 x0 x1 x2 x3 x4 x5 x6 x7) (netHs1 x0 x2 x3 x6 x7) x2 x3 x4 x5 x8 x9)

/-- The side rows after layer 2. -/
def netHs2 (x0 : VF S100000x128) (x1 : VF S5000x128) (x2 x3 x4 x5 : VI S1000000) (x6 : VF S4x128x128) (x7 : VF S4x128)
    (x8 : VF S4x128x128) (x9 : VF S4x128) : VF S5000x128 :=
  reluArr (layerSide (netHd1 x0 x1 x2 x3 x4 x5 x6 x7) x2 x3 x8 x9)

/-- The network's drug output: layer 3, not rectified. -/
def netDrug (x0 : VF S100000x128) (x1 : VF S5000x128) (x2 x3 x4 x5 : VI S1000000) (x6 : VF S4x128x128) (x7 : VF S4x128)
    (x8 : VF S4x128x128) (x9 : VF S4x128) (x10 : VF S4x128x64) (x11 : VF S4x64) : (⟨2, ![100000, 64]⟩ : Shape).Idx → EReal :=
  layerDrug (netHd2 x0 x1 x2 x3 x4 x5 x6 x7 x8 x9) (netHs2 x0 x1 x2 x3 x4 x5 x6 x7 x8 x9) x2 x3 x4 x5 x10 x11

/-- The network's side output: layer 3, not rectified. -/
def netSide (x0 : VF S100000x128) (x1 : VF S5000x128) (x2 x3 x4 x5 : VI S1000000) (x6 : VF S4x128x128) (x7 : VF S4x128)
    (x8 : VF S4x128x128) (x9 : VF S4x128) (x10 : VF S4x128x64) (x11 : VF S4x64) : (⟨2, ![5000, 64]⟩ : Shape).Idx → EReal :=
  layerSide (netHd2 x0 x1 x2 x3 x4 x5 x6 x7 x8 x9) x2 x3 x10 x11

end Cert.Val

end
-- ==== Proof.KI.ComposeLayers.lean ====
/- One drug layer over variables: a region whose output is, entry by entry, the left-associated sum from zero of the
   three relations' convolutions over the operands as the host lays them out (stacked rows, stacked row factors, the
   last three relations' weights and biases) is the drug layer of the features those operands were computed from. -/
import proofs.«166004_j3839700763193_1_alg».proof.Proof.Host.LayoutsAt
import proofs.«166004_j3839700763193_1_alg».proof.Proof.Val.Spec
import Idealize.ShloMosaic.Lib.ValueIdx
import Idealize.ShloMosaic.PureOps.Ideal

set_option maxRecDepth 16384

noncomputable section

namespace Cert.KernelIdeal.Hand
open Cert.KernelIdeal Cert.KernelIdeal.Gen Cert.HostK Cert.Val
open Idealize.ShloMosaic Idealize.ShloMosaic.TcCoe Idealize.ShloMosaic.ValueIdx
open Idealize.SL Idealize.SL.Sem
open Idealize.ShloMosaic.Pipeline (Dat)
open scoped BigOperators

/-! ## One drug layer over variables: the region's entrywise output, its operands as the host lays them out -/

/-- A drug region whose output is, entry by entry, the rectified left-associated sum from zero of the three relations'
    convolutions over stacked operands is the rectified drug layer of the features the operands were computed from. -/
theorem drugLayer128 (y : S100000x128.Idx → EReal) (x0 : S3x100000x128.Idx → EReal) (x1 : S3x100000x1.Idx → EReal)
    (x2 : S3x128x128.Idx → EReal) (x3 : S3x1x128.Idx → EReal)
    (hfin : ∀ (r : Fin 100000) (q : Fin 128), y (ix2 r q) = max (((0 + ((∑ k : Fin 128, (x0 (ix3 (0 : Fin 3) r k) * x1 (ix3 (0 : Fin 3) r (0 : Fin 1))) * x2 (ix3 (0 : Fin 3) k q)) + x3 (ix3 (0 : Fin 3) (0 : Fin 1) q))) + ((∑ k : Fin 128, (x0 (ix3 (1 : Fin 3) r k) * x1 (ix3 (1 : Fin 3) r (0 : Fin 1))) * x2 (ix3 (1 : Fin 3) k q)) + x3 (ix3 (1 : Fin 3) (0 : Fin 1) q))) + ((∑ k : Fin 128, (x0 (ix3 (2 : Fin 3) r k) * x1 (ix3 (2 : Fin 3) r (0 : Fin 1))) * x2 (ix3 (2 : Fin 3) k q)) + x3 (ix3 (2 : Fin 3) (0 : Fin 1) q))) 0)
    (hd : VF S100000x128) (hs : VF S5000x128) (j2 j3 j4 j5 : VI S1000000) (W : S4x128x128.Idx → EReal) (b : S4x128.Idx → EReal)
    (h0 : x0 = stackD (aggSD hs j3 j2 (invDegS j3)) (aggDD hd j4 j5 (invDegD j4)) (aggDD hd j5 j4 (invDegD j5)))
    (h1 : x1 = colsD (invDegD j2) (invDegD j5) (invDegD j4)) (h2 : x2 = wTail W) (h3 : x3 = bTail b) :
    y = reluArr (layerDrug hd hs j2 j3 j4 j5 W b) := by
  funext j
  obtain ⟨r, q, rfl⟩ : ∃ (r : Fin 100000) (q : Fin 128), j = ix2 r q := ⟨j 0, j 1, eq_ix2 j⟩
  rw [reluArr_apply, layerDrug_apply, hfin r q, zero_add]
  subst h0 h1 h2 h3
  simp only [stackD_apply0, stackD_apply1, stackD_apply2, colsD_apply0, colsD_apply1, colsD_apply2,
    wTail_apply0, wTail_apply1, wTail_apply2, bTail_apply0, bTail_apply1, bTail_apply2]
  rfl

/-- The same with 64 output columns and no rectifier (the last layer). -/
theorem drugLayer64 (y : S100000x64.Idx → EReal) (x0 : S3x100000x128.Idx → EReal) (x1 : S3x100000x1.Idx → EReal)
    (x2 : S3x128x64.Idx → EReal) (x3 : S3x1x64.Idx → EReal)
    (hfin : ∀ (r : Fin 100000) (q : Fin 64), y (ix2 r q) = ((0 + ((∑ k : Fin 128, (x0 (ix3 (0 : Fin 3) r k) * x1 (ix3 (0 : Fin 3) r (0 : Fin 1))) * x2 (ix3 (0 : Fin 3) k q)) + x3 (ix3 (0 : Fin 3) (0 : Fin 1) q))) + ((∑ k : Fin 128, (x0 (ix3 (1 : Fin 3) r k) * x1 (ix3 (1 : Fin 3) r (0 : Fin 1))) * x2 (ix3 (1 : Fin 3) k q)) + x3 (ix3 (1 : Fin 3) (0 : Fin 1) q))) + ((∑ k : Fin 128, (x0 (ix3 (2 : Fin 3) r k) * x1 (ix3 (2 : Fin 3) r (0 : Fin 1))) * x2 (ix3 (2 : Fin 3) k q)) + x3 (ix3 (2 : Fin 3) (0 : Fin 1) q)))
    (hd : VF S100000x128) (hs : VF S5000x128) (j2 j3 j4 j5 : VI S1000000) (W : S4x128x64.Idx → EReal) (b : S4x64.Idx → EReal)
    (h0 : x0 = stackD (aggSD hs j3 j2 (invDegS j3)) (aggDD hd j4 j5 (invDegD j4)) (aggDD hd j5 j4 (invDegD j5)))
    (h1 : x1 = colsD (invDegD j2) (invDegD j5) (invDegD j4)) (h2 : x2 = wTail64 W) (h3 : x3 = bTail64 b) :
    y = layerDrug hd hs j2 j3 j4 j5 W b := by
  funext j
  obtain ⟨r, q, rfl⟩ : ∃ (r : Fin 100000) (q : Fin 64), j = ix2 r q := ⟨j 0, j 1, eq_ix2 j⟩
  rw [layerDrug_apply, hfin r q, zero_add]
  subst h0 h1 h2 h3
  simp only [stackD_apply0, stackD_apply1, stackD_apply2, colsD_apply0, colsD_apply1, colsD_apply2,
    wTail64_apply0, wTail64_apply1, wTail64_apply2, bTail64_apply0, bTail64_apply1, bTail64_apply2]
  rfl

end Cert.KernelIdeal.Hand

end
-- ==== Proof.KI.UnitZero.lean ====
import Idealize.ShloMosaic.Lib.Pipeline.FrameBody
import Idealize.ShloMosaic.Lib.Pipeline.Value

noncomputable section

namespace Cert.KernelIdeal.Hand

open Idealize.ShloMosaic Idealize.ShloMosaic.TcCoe
open Idealize.SL Idealize.SL.Sem

/-! # Whole-block loads and stores through the unit rectangle at zero offsets -/

/-- The zero offsets of a rank-2 and of a rank-3 whole-block access, as the constant function. -/
theorem sideOff2_zero : (![0, 0] : Fin 2 → Nat) = fun _ => 0 := by funext a; fin_cases a <;> rfl
theorem sideOff3_zero : (![0, 0, 0] : Fin 3 → Nat) = fun _ => 0 := by funext a; fin_cases a <;> rfl

/-- A whole-block load after stores the LAST of which was a whole-block store reads that store's payload, whatever
    the earlier stores were: the last piece alone covers the block. -/
theorem side_readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

end Cert.KernelIdeal.Hand

end
-- ==== Proof.KI.Reg0Val.lean ====
import proofs.«166004_j3839700763193_1_alg».proof.Proof.KI.Reg0
import proofs.«166004_j3839700763193_1_alg».proof.Proof.KI.UnitZero
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the values the body leaves, over the payloads of the point's input blocks -/

/-- The accumulator after the body: zeroed by the first conditional, then one reduction step added — the step's
    payload of the four input blocks over the zero block. -/
theorem sout0_0_eq (c : Dev nD) (i : grid0.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond0_0 i) (hc1 : cond0_1 i)
    (x0 : Vec F S1x5000x128 .f32) (x1 : Vec F S1x5000x1 .f32) (x2 : Vec F S1x128x128 .f32) (x3 : Vec F S1x1x128 .f32) :
    sout0_0 c i arg2 harg2 arg3 harg3 arg4 harg4 arg5 harg5 arg6 harg6 arg7 harg7 hc0 hc1 x0 x1 x2 x3 = k0_pay2 x0 x1 x2 (k0_pay1 (F := F)) x3 := by
  unfold sout0_0
  rw [View.read_writes_eq_canon _ _ _ (scover0_0 c i arg2 harg2 arg3 harg3 arg4 harg4 arg5 harg5 arg6 harg6 arg7 harg7 hc0 hc1 x0 x1 x2 x3)]
  unfold kernelRun0; dsimp only; sl_unfold_run_names
  rw [View.canon_cons_unit_zero sideOff2_zero]
  simp only [View.readAt_eq_ld, harg2.read_unread, harg3.read_unread, harg4.read_unread, harg5.read_unread]
  rw [View.ld_unit_zero (S := S1x5000x128) sideOff3_zero, View.ld_unit_zero (S := S1x5000x1) sideOff3_zero, View.ld_unit_zero (S := S1x128x128) sideOff3_zero,
    View.ld_unit_zero (S := S1x1x128) sideOff3_zero, View.readCov_unit_zero _ sideOff2_zero]

/-- The output block after the body: the maximum with zero of the accumulator, stored by the second conditional. -/
theorem out0_4_eq (c : Dev nD) (i : grid0.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond0_0 i) (hc1 : cond0_1 i)
    (x0 : Vec F S1x5000x128 .f32) (x1 : Vec F S1x5000x1 .f32) (x2 : Vec F S1x128x128 .f32) (x3 : Vec F S1x1x128 .f32) :
    out0_4 c i arg2 harg2 arg3 harg3 arg4 harg4 arg5 harg5 arg6 harg6 arg7 harg7 hc0 hc1 x0 x1 x2 x3 = k0_pay3 (k0_pay2 x0 x1 x2 (k0_pay1 (F := F)) x3) := by
  unfold out0_4
  rw [View.read_writes_eq_canon _ _ _ (cover0_4 c i arg2 harg2 arg3 harg3 arg4 harg4 arg5 harg5 arg6 harg6 arg7 harg7 hc0 hc1 x0 x1 x2 x3)]
  unfold kernelRun0; dsimp only; sl_unfold_run_names
  rw [View.canon_cons_unit_zero sideOff2_zero, side_readCov_cons_unit_zero _ sideOff2_zero]
  simp only [View.readAt_eq_ld, harg2.read_unread, harg3.read_unread, harg4.read_unread, harg5.read_unread]
  rw [View.ld_unit_zero (S := S1x5000x128) sideOff3_zero, View.ld_unit_zero (S := S1x5000x1) sideOff3_zero, View.ld_unit_zero (S := S1x128x128) sideOff3_zero,
    View.ld_unit_zero (S := S1x1x128) sideOff3_zero, View.readCov_unit_zero _ sideOff2_zero]

/-- The accumulator after the body at point `t`, over the point's input blocks. -/
theorem accAt0_eq (c : Dev nD) (t : Fin cfg0.N) :
    accAt0 V c t = k0_pay2 (iblk0 V c 0 t) (iblk0 V c 1 t) (iblk0 V c 2 t) (k0_pay1 (F := F)) (iblk0 V c 3 t) := by
  unfold accAt0
  exact sout0_0_eq c (grid0.coords t) (ms0_0 t) (hs0_0 t) (ms0_1 t) (hs0_1 t) (ms0_2 t) (hs0_2 t) (ms0_3 t) (hs0_3 t) (ms0_4 t) (hs0_4 t) scM0 (Memref.isWhole_whole _) (hcond0_0 t) (hcond0_1 t) (iblk0 V c 0 t) (iblk0 V c 1 t) (iblk0 V c 2 t) (iblk0 V c 3 t)

/-- The output block after the body at point `t` — what the point writes back — over the point's input blocks. -/
theorem outAt0_eq (c : Dev nD) (t : Fin cfg0.N) :
    outAt0 V c t = k0_pay3 (k0_pay2 (iblk0 V c 0 t) (iblk0 V c 1 t) (iblk0 V c 2 t) (k0_pay1 (F := F)) (iblk0 V c 3 t)) := by
  unfold outAt0
  exact out0_4_eq c (grid0.coords t) (ms0_0 t) (hs0_0 t) (ms0_1 t) (hs0_1 t) (ms0_2 t) (hs0_2 t) (ms0_3 t) (hs0_3 t) (ms0_4 t) (hs0_4 t) scM0 (Memref.isWhole_whole _) (hcond0_0 t) (hcond0_1 t) (iblk0 V c 0 t) (iblk0 V c 1 t) (iblk0 V c 2 t) (iblk0 V c 3 t)

/-- What the proof data says the output window's buffer holds after the body at point `t`, over the payloads. -/
theorem after0_4_val (c : Dev nD) (t : Fin cfg0.N) :
    (dat0 V c).after 4 t = k0_pay3 (k0_pay2 (iblk0 V c 0 t) (iblk0 V c 1 t) (iblk0 V c 2 t) (k0_pay1 (F := F)) (iblk0 V c 3 t)) :=
  (after0_4 V c t).trans (outAt0_eq V c t)

end Cert.KernelIdeal.Hand

end
-- ==== Proof.KI.Reg0Final.lean ====
import proofs.«166004_j3839700763193_1_alg».proof.Proof.KI.Reg0Val
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: from the one block to the array

The region has one point, and every window's block there is its whole array. So the output array after the region is
what the point's body stored, and the input blocks it read are the input arrays as the region found them. -/

/-- What the region's single point writes back: the body's stored value over the point's input blocks. -/
abbrev result0 (c : Dev nD) : Buf (Elt F) ((c : Thread nD τ).loc main_v44) :=
  k0_pay3 (k0_pay2 (iblk0 V c 0 t0_0) (iblk0 V c 1 t0_0) (iblk0 V c 2 t0_0) (k0_pay1 (F := F)) (iblk0 V c 3 t0_0))

/-- The one write-back writes `result0`: block (0, 0) of blocks of the array's own sizes, read off `result0`, is
    `result0`. -/
theorem flushed0_eq (c : Dev nD) (t : Fin cfg0.N) (hf : (cfg0.win 4).flush t = true) :
    (dat0 V c).flushed 4 t = ((cfg0.win 4).blk t).view.read (Elt F) (result0 V c) := by
  obtain rfl : t = t0_0 := fin_N0 t
  show (cfg0.win 4).cut (grid0.coords t0_0) ((dat0 V c).after 4 t0_0) = _
  rw [after0_4_val]
  have hz' : (fun a => win0_4.index t0_0 a * main_v44.ty.shape.size a) = fun _ => 0 := funext fun a => by fin_cases a <;> decide +kernel
  exact (Memref.read_access_unit_zero (Elt F) main_v44 hz' (fun a => by rw [congrFun hz' a]; simp) (result0 V c)).symm

/-- So the output array ends holding `result0`: the single point's block covers the array. -/
theorem arr0_result (c : Dev nD) : (dat0 V c).arrAt 4 cfg0.N = result0 V c :=
  (dat0 V c).arrAt_eq_of_cover 4 (result0 V c) (flushed0_eq V c) fun i =>
    ⟨t0_0, flush0_4 t0_0, by
      show i ∈ ((View.whole main_v44).slice (win0_4.rect t0_0)).set
      rw [View.set_slice_whole, Rect.mem_set_unit]
      intro a
      have h0 : (i 0 : Nat) < 5000 := (i 0).isLt
      have h1 : (i 1 : Nat) < 128 := (i 1).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 5000 from by decide +kernel]; omega
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 128 from by decide +kernel]; omega⟩

/-- Input window 0's block at the region's single point is its whole array: block (0, 0, 0) of blocks of the array's
    own sizes. -/
theorem iblk0_0_eq (c : Dev nD) : (iblk0 V c 0 t0_0 : Vec F S1x5000x128 .f32) = (V c main_v38 : S1x5000x128.Idx → Elt F .f32) := by
  unfold iblk0
  have hz' : (fun a => win0_0.index t0_0 a * main_v38.ty.shape.size a) = fun _ => 0 := funext fun a => by fin_cases a <;> decide +kernel
  exact Memref.read_access_unit_zero (Elt F) main_v38 hz' (fun a => by rw [congrFun hz' a]; simp) (V c main_v38)

/-- Input window 1's block at the region's single point is its whole array: block (0, 0, 0) of blocks of the array's
    own sizes. -/
theorem iblk0_1_eq (c : Dev nD) : (iblk0 V c 1 t0_0 : Vec F S1x5000x1 .f32) = (V c main_v42 : S1x5000x1.Idx → Elt F .f32) := by
  unfold iblk0
  have hz' : (fun a => win0_1.index t0_0 a * main_v42.ty.shape.size a) = fun _ => 0 := funext fun a => by fin_cases a <;> decide +kernel
  exact Memref.read_access_unit_zero (Elt F) main_v42 hz' (fun a => by rw [congrFun hz' a]; simp) (V c main_v42)

/-- Input window 2's block at the region's single point is its whole array: block (0, 0, 0) of blocks of the array's
    own sizes. -/
theorem iblk0_2_eq (c : Dev nD) : (iblk0 V c 2 t0_0 : Vec F S1x128x128 .f32) = (V c main_v40 : S1x128x128.Idx → Elt F .f32) := by
  unfold iblk0
  have hz' : (fun a => win0_2.index t0_0 a * main_v40.ty.shape.size a) = fun _ => 0 := funext fun a => by fin_cases a <;> decide +kernel
  exact Memref.read_access_unit_zero (Elt F) main_v40 hz' (fun a => by rw [congrFun hz' a]; simp) (V c main_v40)

/-- Input window 3's block at the region's single point is its whole array: block (0, 0, 0) of blocks of the array's
    own sizes. -/
theorem iblk0_3_eq (c : Dev nD) : (iblk0 V c 3 t0_0 : Vec F S1x1x128 .f32) = (V c main_v43 : S1x1x128.Idx → Elt F .f32) := by
  unfold iblk0
  have hz' : (fun a => win0_3.index t0_0 a * main_v43.ty.shape.size a) = fun _ => 0 := funext fun a => by fin_cases a <;> decide +kernel
  exact Memref.read_access_unit_zero (Elt F) main_v43 hz' (fun a => by rw [congrFun hz' a]; simp) (V c main_v43)

/-- THE OUTPUT ARRAY after the region, over the input arrays as the region found them: the body's stored value
    of the four whole arrays (the accumulator starts from the zero block). -/
theorem arr0_final (c : Dev nD) :
    (dat0 V c).arrAt 4 cfg0.N = (k0_pay3 (k0_pay2 (V c main_v38 : S1x5000x128.Idx → Elt F .f32) (V c main_v42 : S1x5000x1.Idx → Elt F .f32) (V c main_v40 : S1x128x128.Idx → Elt F .f32) (k0_pay1 (F := F)) (V c main_v43 : S1x1x128.Idx → Elt F .f32)) : S5000x128.Idx → Elt F .f32) := by
  rw [arr0_result]
  show (k0_pay3 (k0_pay2 (iblk0 V c 0 t0_0) (iblk0 V c 1 t0_0) (iblk0 V c 2 t0_0) (k0_pay1 (F := F)) (iblk0 V c 3 t0_0)) : S5000x128.Idx → Elt F .f32) = _
  rw [iblk0_0_eq, iblk0_1_eq, iblk0_2_eq, iblk0_3_eq]

end Cert.KernelIdeal.Hand

end
-- ==== Proof.KI.Reg0Ideal.lean ====
import proofs.«166004_j3839700763193_1_alg».proof.Proof.KI.Reg0Final
import Idealize.ShloMosaic.Lib.ValueIdx
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

-- the TensorCore's buffer contents when the region is entered, as extended reals
variable (V : (c : Dev nD) → (b : Ref sig .tc) → Buf (Elt Ideal) ((c : Thread nD τ).loc b))

/-! # Region 0: the output array after the region, entry by entry, as extended reals -/

/-- The region's four input arrays as it finds them, and its output array after it, as extended-real functions of
    literal indices: the aggregated rows, the row factors, the weights, the bias; the result. -/
abbrev xin0_0 (c : Dev nD) : S1x5000x128.Idx → EReal := V c main_v38
abbrev xin0_1 (c : Dev nD) : S1x5000x1.Idx → EReal := V c main_v42
abbrev xin0_2 (c : Dev nD) : S1x128x128.Idx → EReal := V c main_v40
abbrev xin0_3 (c : Dev nD) : S1x1x128.Idx → EReal := V c main_v43
abbrev yout0 (c : Dev nD) : S5000x128.Idx → EReal := (dat0 V c).arrAt 4 cfg0.N

/-- THE OUTPUT ARRAY after the region at row `p`, column `q`: the zero the accumulator starts from, plus the row of
    the first array scaled by its row factor times column `q` of the weights, plus the bias; then the maximum with zero —
    given the payloads read at an index (`hpay·`). -/
theorem final0_of
    (hpay1 : ∀ (p : Fin 5000) (q : Fin 128), k0_pay1 (F := Ideal) (ix2 p q) = 0)
    (hpay2 : ∀ (x3 : Vec Ideal S1x5000x128 .f32) (x5 : Vec Ideal S1x5000x1 .f32) (w10 : Vec Ideal S1x128x128 .f32) (acc : Vec Ideal S5000x128 .f32) (b15 : Vec Ideal S1x1x128 .f32) (p : Fin 5000) (q : Fin 128),
      k0_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (hpay3 : ∀ (v : Vec Ideal S5000x128 .f32) (p : Fin 5000) (q : Fin 128), k0_pay3 (F := Ideal) v (ix2 p q) = max (v (ix2 p q)) 0)
    (c : Dev nD) (p : Fin 5000) (q : Fin 128) :
    yout0 V c (ix2 p q) = max (0 + ((∑ k : Fin 128, (xin0_0 V c (ix3 (0 : Fin 1) p k) * xin0_1 V c (ix3 (0 : Fin 1) p (0 : Fin 1))) * xin0_2 V c (ix3 (0 : Fin 1) k q)) + xin0_3 V c (ix3 (0 : Fin 1) (0 : Fin 1) q))) 0 := by
  have h := congrFun (arr0_final V c) (ix2 p q)
  rw [hpay3, hpay2, hpay1] at h
  exact h

end Cert.KernelIdeal.Hand

end
-- ==== Proof.LibPlainDot.lean ====
/-
  A matrix product with ONE contracted axis, read at an output entry over the extended reals.

  For a product of an [A, K] array by a [K, B] array whose dimension numbers send output entry (p, c) and contraction
  position k to the operand entries (p, k) and (k, c), the accelerator's matmul into a zero accumulator and the host's
  dot_general are both the plain sum  Σ_k lhs[p, k] · rhs[k, c]  — no rounding and no order of summation is left at the
  exact instance. The four coordinate facts are taken as hypotheses, so that one statement serves every such record.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {A K B : Nat} {φ₁ φ₂ : FTy}

/-- The contraction sum re-indexed by the one contracted coordinate, the operand entries written out. -/
theorem contr_sum (d : DotDims ⟨2, ![A, K]⟩ ⟨2, ![K, B]⟩ ⟨2, ![A, B]⟩)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    (∑ q : d.contr.Idx, lhs (d.lhsIdx (ix2 p c) q) * rhs (d.rhsIdx (ix2 p c) q))
      = ∑ k : Fin K, lhs (ix2 p k) * rhs (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- The matmul into the zero accumulator at entry (p, c) is Σ_k lhs[p, k] · rhs[k, c]. -/
theorem matmul_zero_apply (d : DotDims ⟨2, ![A, K]⟩ ⟨2, ![K, B]⟩ ⟨2, ![A, B]⟩) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.matmul d prec lhs rhs (constant (F := Ideal) ⟨2, ![A, B]⟩ .f32 0x00000000#32) (ix2 p c)
      = ∑ k : Fin K, lhs (ix2 p k) * rhs (ix2 k c) :=
  (Ideal.matmul_constant_zero_apply d prec lhs rhs (ix2 p c)).trans (contr_sum d hr hs hl0 hl1 hr0 hr1 lhs rhs p c)

/-- The host's dot_general at entry (p, c) is the same sum. -/
theorem dotGeneral_apply (d : DotDims ⟨2, ![A, K]⟩ ⟨2, ![K, B]⟩ ⟨2, ![A, B]⟩) (prec : Option ContractPrecision)
    (sched : HostSchedule)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.dotGeneral d prec sched lhs rhs (ix2 p c) = ∑ k : Fin K, lhs (ix2 p k) * rhs (ix2 k c) :=
  (Ideal.dotGeneral_apply d prec sched lhs rhs (ix2 p c)).trans (contr_sum d hr hs hl0 hl1 hr0 hr1 lhs rhs p c)

end Idealize.ShloMosaic.PlainDot

end
-- ==== Proof.LibColumn.lean ====
/-
  Column layouts read at an index: a length-`a` vector as an `[a, 1]` column and back, and a column broadcast
  along the second axis. Row-major position of `(i, 0)` in `[a, 1]` is `i · 1 + 0 = i`, the position of `i` in `[a]`;
  a broadcast repeats the operand along each axis where the operand's extent is one.
-/
import Idealize.ShloMosaic.Lib.Pipeline.Value
import Idealize.ShloMosaic.Lib.ValueIdx

noncomputable section

namespace Cert.Column

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.Val.Payload0.lean ====
/-
  The stores of kernel 0 read at one entry over the extended reals.

  The first store writes the zero block. The second writes, at row p and column q, the old accumulator entry plus
  (Σ_k (x[0, p, k] · s[0, p, 0]) · W[0, k, q]) + b[0, 0, q]: the row block scaled by its column of row factors, times
  the weight matrix, plus the bias row. Changing the float format is the identity on extended reals, and a product
  accumulated into the zero block is the plain sum over the contracted coordinate. The last store writes the
  maximum of the accumulator entry and 0.
-/
import proofs.«166004_j3839700763193_1_alg».proof.Proof.Gen.KernelIdeal.Skeleton
import proofs.«166004_j3839700763193_1_alg».proof.Proof.LibPlainDot
import proofs.«166004_j3839700763193_1_alg».proof.Proof.LibColumn
import Idealize.ShloMosaic.Lib.ValueLayout

noncomputable section

open scoped BigOperators

namespace Cert.Val

open Idealize.ShloMosaic Idealize.ShloMosaic.ValueIdx Cert.KernelIdeal Cert.KernelIdeal.Gen

/-- The first store's block is zero at every entry. -/
theorem k0_pay1_apply (p : Fin 5000) (q : Fin 128) : k0_pay1 (F := Ideal) (ix2 p q) = 0 := by
  unfold k0_pay1
  rw [shapeCast_apply _ _ (ix2 p q) (ix2 p q) rfl]
  exact Ideal.ofBits_zero_f32

/-- The second store's block at (p, q): the accumulator entry plus the scaled row times the weight column plus the bias. -/
theorem k0_pay2_apply (x3 : Vec Ideal S1x5000x128 .f32) (x5 : Vec Ideal S1x5000x1 .f32) (w10 : Vec Ideal S1x128x128 .f32)
    (acc : Vec Ideal S5000x128 .f32) (b15 : Vec Ideal S1x1x128 .f32) (p : Fin 5000) (q : Fin 128) :
    k0_pay2 (F := Ideal) x3 x5 w10 acc b15 (ix2 p q)
      = acc (ix2 p q) + ((∑ k : Fin 128, (x3 (ix3 (0 : Fin 1) p k) * x5 (ix3 (0 : Fin 1) p (0 : Fin 1))) * w10 (ix3 (0 : Fin 1) k q))
          + b15 (ix3 (0 : Fin 1) (0 : Fin 1) q)) := by
  unfold k0_pay2
  rw [shapeCast_apply _ _ (ix2 p q) (ix2 p q) rfl, addf_apply, addf_apply]
  simp only [matmul]
  rw [PlainDot.matmul_zero_apply _ _ rfl rfl (fun _ _ => rfl) (fun _ _ => rfl) (fun _ _ => rfl) (fun _ _ => rfl)]
  rw [broadcastTo_1b_ab_apply, shapeCast_1ab_ab_apply]
  congr 2
  refine Finset.sum_congr rfl fun k _ => ?_
  rw [truncf_apply, truncf_apply, mulf_apply, shapeCast_1ab_ab_apply, shapeCast_1ab_ab_apply,
    Cert.Column.broadcastTo_a1_ab_apply, shapeCast_1ab_ab_apply]

/-- The last store's block at (p, q): the larger of the accumulator entry and zero. -/
theorem k0_pay3_apply (v : Vec Ideal S5000x128 .f32) (p : Fin 5000) (q : Fin 128) :
    k0_pay3 (F := Ideal) v (ix2 p q) = max (v (ix2 p q)) 0 := by
  unfold k0_pay3
  rw [maximumf_apply]
  exact congrArg (max (v (ix2 p q))) Ideal.ofBits_zero_f32

end Cert.Val

end
-- ==== Proof.KI.Reg0Closed.lean ====
import proofs.«166004_j3839700763193_1_alg».proof.Proof.KI.Reg0Ideal
import proofs.«166004_j3839700763193_1_alg».proof.Proof.Val.Payload0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

-- the TensorCore's buffer contents when the region is entered, as extended reals
variable (V : (c : Dev nD) → (b : Ref sig .tc) → Buf (Elt Ideal) ((c : Thread nD τ).loc b))

/-! # Region 0: the output array after the region, entry by entry, as extended reals -/

/-- THE OUTPUT ARRAY after the region at row `p`, column `q`, over the region's input arrays as it finds them: the
    payloads read at an index supply the three hypotheses of `final0_of`. -/
theorem final0 (c : Dev nD) (p : Fin 5000) (q : Fin 128) :
    yout0 V c (ix2 p q) = max (0 + ((∑ k : Fin 128, (xin0_0 V c (ix3 (0 : Fin 1) p k) * xin0_1 V c (ix3 (0 : Fin 1) p (0 : Fin 1))) * xin0_2 V c (ix3 (0 : Fin 1) k q)) + xin0_3 V c (ix3 (0 : Fin 1) (0 : Fin 1) q))) 0 :=
  final0_of V Cert.Val.k0_pay1_apply Cert.Val.k0_pay2_apply Cert.Val.k0_pay3_apply c p q

end Cert.KernelIdeal.Hand

end
-- ==== Proof.KI.Reg2Val.lean ====
import proofs.«166004_j3839700763193_1_alg».proof.Proof.KI.Reg2
import proofs.«166004_j3839700763193_1_alg».proof.Proof.KI.UnitZero
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: the values the body leaves, over the payloads of the point's input blocks -/

/-- The accumulator after the body: zeroed by the first conditional, then one reduction step added — the step's
    payload of the four input blocks over the zero block. -/
theorem sout2_0_eq (c : Dev nD) (i : grid2.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond2_0 i) (hc1 : cond2_1 i)
    (x0 : Vec F S1x5000x128 .f32) (x1 : Vec F S1x5000x1 .f32) (x2 : Vec F S1x128x128 .f32) (x3 : Vec F S1x1x128 .f32) :
    sout2_0 c i arg2 harg2 arg3 harg3 arg4 harg4 arg5 harg5 arg6 harg6 arg7 harg7 hc0 hc1 x0 x1 x2 x3 = k2_pay2 x0 x1 x2 (k2_pay1 (F := F)) x3 := by
  unfold sout2_0
  rw [View.read_writes_eq_canon _ _ _ (scover2_0 c i arg2 harg2 arg3 harg3 arg4 harg4 arg5 harg5 arg6 harg6 arg7 harg7 hc0 hc1 x0 x1 x2 x3)]
  unfold kernelRun2; dsimp only; sl_unfold_run_names
  rw [View.canon_cons_unit_zero sideOff2_zero]
  simp only [View.readAt_eq_ld, harg2.read_unread, harg3.read_unread, harg4.read_unread, harg5.read_unread]
  rw [View.ld_unit_zero (S := S1x5000x128) sideOff3_zero, View.ld_unit_zero (S := S1x5000x1) sideOff3_zero, View.ld_unit_zero (S := S1x128x128) sideOff3_zero,
    View.ld_unit_zero (S := S1x1x128) sideOff3_zero, View.readCov_unit_zero _ sideOff2_zero]

/-- The output block after the body: the maximum with zero of the accumulator, stored by the second conditional. -/
theorem out2_4_eq (c : Dev nD) (i : grid2.Coords) (arg2 : Memref sig .tc .vmem S1x5000x128 .f32) (harg2 : arg2.IsWhole) (arg3 : Memref sig .tc .vmem S1x5000x1 .f32) (harg3 : arg3.IsWhole) (arg4 : Memref sig .tc .vmem S1x128x128 .f32) (harg4 : arg4.IsWhole) (arg5 : Memref sig .tc .vmem S1x1x128 .f32) (harg5 : arg5.IsWhole) (arg6 : Memref sig .tc .vmem S5000x128 .f32) (harg6 : arg6.IsWhole) (arg7 : Memref sig .tc .vmem S5000x128 .f32) (harg7 : arg7.IsWhole) (hc0 : cond2_0 i) (hc1 : cond2_1 i)
    (x0 : Vec F S1x5000x128 .f32) (x1 : Vec F S1x5000x1 .f32) (x2 : Vec F S1x128x128 .f32) (x3 : Vec F S1x1x128 .f32) :
    out2_4 c i arg2 harg2 arg3 harg3 arg4 harg4 arg5 harg5 arg6 harg6 arg7 harg7 hc0 hc1 x0 x1 x2 x3 = k2_pay3 (k2_pay2 x0 x1 x2 (k2_pay1 (F := F)) x3) := by
  unfold out2_4
  rw [View.read_writes_eq_canon _ _ _ (cover2_4 c i arg2 harg2 arg3 harg3 arg4 harg4 arg5 harg5 arg6 harg6 arg7 harg7 hc0 hc1 x0 x1 x2 x3)]
  unfold kernelRun2; dsimp only; sl_unfold_run_names
  rw [View.canon_cons_unit_zero sideOff2_zero, side_readCov_cons_unit_zero _ sideOff2_zero]
  simp only [View.readAt_eq_ld, harg2.read_unread, harg3.read_unread, harg4.read_unread, harg5.read_unread]
  rw [View.ld_unit_zero (S := S1x5000x128) sideOff3_zero, View.ld_unit_zero (S := S1x5000x1) sideOff3_zero, View.ld_unit_zero (S := S1x128x128) sideOff3_zero,
    View.ld_unit_zero (S := S1x1x128) sideOff3_zero, View.readCov_unit_zero _ sideOff2_zero]

/-- The accumulator after the body at point `t`, over the point's input blocks. -/
theorem accAt2_eq (c : Dev nD) (t : Fin cfg2.N) :
    accAt2 V c t = k2_pay2 (iblk2 V c 0 t) (iblk2 V c 1 t) (iblk2 V c 2 t) (k2_pay1 (F := F)) (iblk2 V c 3 t) := by
  unfold accAt2
  exact sout2_0_eq c (grid2.coords t) (ms2_0 t) (hs2_0 t) (ms2_1 t) (hs2_1 t) (ms2_2 t) (hs2_2 t) (ms2_3 t) (hs2_3 t) (ms2_4 t) (hs2_4 t) scM2 (Memref.isWhole_whole _) (hcond2_0 t) (hcond2_1 t) (iblk2 V c 0 t) (iblk2 V c 1 t) (iblk2 V c 2 t) (iblk2 V c 3 t)

/-- The output block after the body at point `t` — what the point writes back — over the point's input blocks. -/
theorem outAt2_eq (c : Dev nD) (t : Fin cfg2.N) :
    outAt2 V c t = k2_pay3 (k2_pay2 (iblk2 V c 0 t) (iblk2 V c 1 t) (iblk2 V c 2 t) (k2_pay1 (F := F)) (iblk2 V c 3 t)) := by
  unfold outAt2
  exact out2_4_eq c (grid2.coords t) (ms2_0 t) (hs2_0 t) (ms2_1 t) (hs2_1 t) (ms2_2 t) (hs2_2 t) (ms2_3 t) (hs2_3 t) (ms2_4 t) (hs2_4 t) scM2 (Memref.isWhole_whole _) (hcond2_0 t) (hcond2_1 t) (iblk2 V c 0 t) (iblk2 V c 1 t) (iblk2 V c 2 t) (iblk2 V c 3 t)

/-- What the proof data says the output window's buffer holds after the body at point `t`, over the payloads. -/
theorem after2_4_val (c : Dev nD) (t : Fin cfg2.N) :
    (dat2 V c).after 4 t = k2_pay3 (k2_pay2 (iblk2 V c 0 t) (iblk2 V c 1 t) (iblk2 V c 2 t) (k2_pay1 (F := F)) (iblk2 V c 3 t)) :=
  (after2_4 V c t).trans (outAt2_eq V c t)

end Cert.KernelIdeal.Hand

end
-- ==== Proof.KI.Reg2Final.lean ====
import proofs.«166004_j3839700763193_1_alg».proof.Proof.KI.Reg2Val
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: from the one block to the array

The region has one point, and every window's block there is its whole array. So the output array after the region is
what the point's body stored, and the input blocks it read are the input arrays as the region found them. -/

/-- What the region's single point writes back: the body's stored value over the point's input blocks. -/
abbrev result2 (c : Dev nD) : Buf (Elt F) ((c : Thread nD τ).loc main_v116) :=
  k2_pay3 (k2_pay2 (iblk2 V c 0 t2_0) (iblk2 V c 1 t2_0) (iblk2 V c 2 t2_0) (k2_pay1 (F := F)) (iblk2 V c 3 t2_0))

/-- The one write-back writes `result2`: block (0, 0) of blocks of the array's own sizes, read off `result2`, is
    `result2`. -/
theorem flushed2_eq (c : Dev nD) (t : Fin cfg2.N) (hf : (cfg2.win 4).flush t = true) :
    (dat2 V c).flushed 4 t = ((cfg2.win 4).blk t).view.read (Elt F) (result2 V c) := by
  obtain rfl : t = t2_0 := fin_N2 t
  show (cfg2.win 4).cut (grid2.coords t2_0) ((dat2 V c).after 4 t2_0) = _
  rw [after2_4_val]
  have hz' : (fun a => win2_4.index t2_0 a * main_v116.ty.shape.size a) = fun _ => 0 := funext fun a => by fin_cases a <;> decide +kernel
  exact (Memref.read_access_unit_zero (Elt F) main_v116 hz' (fun a => by rw [congrFun hz' a]; simp) (result2 V c)).symm

/-- So the output array ends holding `result2`: the single point's block covers the array. -/
theorem arr2_result (c : Dev nD) : (dat2 V c).arrAt 4 cfg2.N = result2 V c :=
  (dat2 V c).arrAt_eq_of_cover 4 (result2 V c) (flushed2_eq V c) fun i =>
    ⟨t2_0, flush2_4 t2_0, by
      show i ∈ ((View.whole main_v116).slice (win2_4.rect t2_0)).set
      rw [View.set_slice_whole, Rect.mem_set_unit]
      intro a
      have h0 : (i 0 : Nat) < 5000 := (i 0).isLt
      have h1 : (i 1 : Nat) < 128 := (i 1).isLt
      match a with
      | ⟨0, _⟩ => show win2_4.index t2_0 0 * win2_4.size 0 ≤ (i 0 : Nat) ∧ (i 0 : Nat) < win2_4.index t2_0 0 * win2_4.size 0 + win2_4.xsize (grid2.coords t2_0) 0
                  rw [show win2_4.index t2_0 0 * win2_4.size 0 = 0 from by decide +kernel, show win2_4.xsize (grid2.coords t2_0) 0 = 5000 from by decide +kernel]; omega
      | ⟨1, _⟩ => show win2_4.index t2_0 1 * win2_4.size 1 ≤ (i 1 : Nat) ∧ (i 1 : Nat) < win2_4.index t2_0 1 * win2_4.size 1 + win2_4.xsize (grid2.coords t2_0) 1
                  rw [show win2_4.index t2_0 1 * win2_4.size 1 = 0 from by decide +kernel, show win2_4.xsize (grid2.coords t2_0) 1 = 128 from by decide +kernel]; omega⟩

/-- Input window 0's block at the region's single point is its whole array: block (0, 0, 0) of blocks of the array's
    own sizes. -/
theorem iblk2_0_eq (c : Dev nD) : (iblk2 V c 0 t2_0 : Vec F S1x5000x128 .f32) = (V c main_v110 : S1x5000x128.Idx → Elt F .f32) := by
  unfold iblk2
  have hz' : (fun a => win2_0.index t2_0 a * main_v110.ty.shape.size a) = fun _ => 0 := funext fun a => by fin_cases a <;> decide +kernel
  exact Memref.read_access_unit_zero (Elt F) main_v110 hz' (fun a => by rw [congrFun hz' a]; simp) (V c main_v110)

/-- Input window 1's block at the region's single point is its whole array: block (0, 0, 0) of blocks of the array's
    own sizes. -/
theorem iblk2_1_eq (c : Dev nD) : (iblk2 V c 1 t2_0 : Vec F S1x5000x1 .f32) = (V c main_v114 : S1x5000x1.Idx → Elt F .f32) := by
  unfold iblk2
  have hz' : (fun a => win2_1.index t2_0 a * main_v114.ty.shape.size a) = fun _ => 0 := funext fun a => by fin_cases a <;> decide +kernel
  exact Memref.read_access_unit_zero (Elt F) main_v114 hz' (fun a => by rw [congrFun hz' a]; simp) (V c main_v114)

/-- Input window 2's block at the region's single point is its whole array: block (0, 0, 0) of blocks of the array's
    own sizes. -/
theorem iblk2_2_eq (c : Dev nD) : (iblk2 V c 2 t2_0 : Vec F S1x128x128 .f32) = (V c main_v112 : S1x128x128.Idx → Elt F .f32) := by
  unfold iblk2
  have hz' : (fun a => win2_2.index t2_0 a * main_v112.ty.shape.size a) = fun _ => 0 := funext fun a => by fin_cases a <;> decide +kernel
  exact Memref.read_access_unit_zero (Elt F) main_v112 hz' (fun a => by rw [congrFun hz' a]; simp) (V c main_v112)

/-- Input window 3's block at the region's single point is its whole array: block (0, 0, 0) of blocks of the array's
    own sizes. -/
theorem iblk2_3_eq (c : Dev nD) : (iblk2 V c 3 t2_0 : Vec F S1x1x128 .f32) = (V c main_v115 : S1x1x128.Idx → Elt F .f32) := by
  unfold iblk2
  have hz' : (fun a => win2_3.index t2_0 a * main_v115.ty.shape.size a) = fun _ => 0 := funext fun a => by fin_cases a <;> decide +kernel
  exact Memref.read_access_unit_zero (Elt F) main_v115 hz' (fun a => by rw [congrFun hz' a]; simp) (V c main_v115)

/-- THE OUTPUT ARRAY after the region, over the input arrays as the region found them: the body's stored value
    of the four whole arrays (the accumulator starts from the zero block). -/
theorem arr2_final (c : Dev nD) :
    (dat2 V c).arrAt 4 cfg2.N = (k2_pay3 (k2_pay2 (V c main_v110 : S1x5000x128.Idx → Elt F .f32) (V c main_v114 : S1x5000x1.Idx → Elt F .f32) (V c main_v112 : S1x128x128.Idx → Elt F .f32) (k2_pay1 (F := F)) (V c main_v115 : S1x1x128.Idx → Elt F .f32)) : S5000x128.Idx → Elt F .f32) := by
  rw [arr2_result]
  show (k2_pay3 (k2_pay2 (iblk2 V c 0 t2_0) (iblk2 V c 1 t2_0) (iblk2 V c 2 t2_0) (k2_pay1 (F := F)) (iblk2 V c 3 t2_0)) : S5000x128.Idx → Elt F .f32) = _
  rw [iblk2_0_eq, iblk2_1_eq, iblk2_2_eq, iblk2_3_eq]

end Cert.KernelIdeal.Hand

end
-- ==== Proof.KI.Reg2Ideal.lean ====
import proofs.«166004_j3839700763193_1_alg».proof.Proof.KI.Reg2Final
import Idealize.ShloMosaic.Lib.ValueIdx
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

-- the TensorCore's buffer contents when the region is entered, as extended reals
variable (V : (c : Dev nD) → (b : Ref sig .tc) → Buf (Elt Ideal) ((c : Thread nD τ).loc b))

/-! # Region 2: the output array after the region, entry by entry, as extended reals -/

/-- The region's four input arrays as it finds them, and its output array after it, as extended-real functions of
    literal indices: the aggregated rows, the row factors, the weights, the bias; the result. -/
abbrev xin2_0 (c : Dev nD) : S1x5000x128.Idx → EReal := V c main_v110
abbrev xin2_1 (c : Dev nD) : S1x5000x1.Idx → EReal := V c main_v114
abbrev xin2_2 (c : Dev nD) : S1x128x128.Idx → EReal := V c main_v112
abbrev xin2_3 (c : Dev nD) : S1x1x128.Idx → EReal := V c main_v115
abbrev yout2 (c : Dev nD) : S5000x128.Idx → EReal := (dat2 V c).arrAt 4 cfg2.N

/-- THE OUTPUT ARRAY after the region at row `p`, column `q`: the zero the accumulator starts from, plus the row of
    the first array scaled by its row factor times column `q` of the weights, plus the bias; then the maximum with zero —
    given the payloads read at an index (`hpay·`). -/
theorem final2_of
    (hpay1 : ∀ (p : Fin 5000) (q : Fin 128), k2_pay1 (F := Ideal) (ix2 p q) = 0)
    (hpay2 : ∀ (x3 : Vec Ideal S1x5000x128 .f32) (x5 : Vec Ideal S1x5000x1 .f32) (w10 : Vec Ideal S1x128x128 .f32) (acc : Vec Ideal S5000x128 .f32) (b15 : Vec Ideal S1x1x128 .f32) (p : Fin 5000) (q : Fin 128),
      k2_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (hpay3 : ∀ (v : Vec Ideal S5000x128 .f32) (p : Fin 5000) (q : Fin 128), k2_pay3 (F := Ideal) v (ix2 p q) = max (v (ix2 p q)) 0)
    (c : Dev nD) (p : Fin 5000) (q : Fin 128) :
    yout2 V c (ix2 p q) = max (0 + ((∑ k : Fin 128, (xin2_0 V c (ix3 (0 : Fin 1) p k) * xin2_1 V c (ix3 (0 : Fin 1) p (0 : Fin 1))) * xin2_2 V c (ix3 (0 : Fin 1) k q)) + xin2_3 V c (ix3 (0 : Fin 1) (0 : Fin 1) q))) 0 := by
  have h := congrFun (arr2_final V c) (ix2 p q)
  rw [hpay3, hpay2, hpay1] at h
  exact h

end Cert.KernelIdeal.Hand

end
-- ==== Proof.Val.Payload2.lean ====
/-
  The stores of kernel 2 read at one entry over the extended reals.

  The first store writes the zero block. The second writes, at row p and column q, the old accumulator entry plus
  (Σ_k (x[0, p, k] · s[0, p, 0]) · W[0, k, q]) + b[0, 0, q]: the row block scaled by its column of row factors, times
  the weight matrix, plus the bias row. Changing the float format is the identity on extended reals, and a product
  accumulated into the zero block is the plain sum over the contracted coordinate. The last store writes the
  maximum of the accumulator entry and 0.
-/
import proofs.«166004_j3839700763193_1_alg».proof.Proof.Gen.KernelIdeal.Skeleton
import proofs.«166004_j3839700763193_1_alg».proof.Proof.LibPlainDot
import proofs.«166004_j3839700763193_1_alg».proof.Proof.LibColumn
import Idealize.ShloMosaic.Lib.ValueLayout

noncomputable section

open scoped BigOperators

namespace Cert.Val

open Idealize.ShloMosaic Idealize.ShloMosaic.ValueIdx Cert.KernelIdeal Cert.KernelIdeal.Gen

/-- The first store's block is zero at every entry. -/
theorem k2_pay1_apply (p : Fin 5000) (q : Fin 128) : k2_pay1 (F := Ideal) (ix2 p q) = 0 := by
  unfold k2_pay1
  rw [shapeCast_apply _ _ (ix2 p q) (ix2 p q) rfl]
  exact Ideal.ofBits_zero_f32

/-- The second store's block at (p, q): the accumulator entry plus the scaled row times the weight column plus the bias. -/
theorem k2_pay2_apply (x3 : Vec Ideal S1x5000x128 .f32) (x5 : Vec Ideal S1x5000x1 .f32) (w10 : Vec Ideal S1x128x128 .f32)
    (acc : Vec Ideal S5000x128 .f32) (b15 : Vec Ideal S1x1x128 .f32) (p : Fin 5000) (q : Fin 128) :
    k2_pay2 (F := Ideal) x3 x5 w10 acc b15 (ix2 p q)
      = acc (ix2 p q) + ((∑ k : Fin 128, (x3 (ix3 (0 : Fin 1) p k) * x5 (ix3 (0 : Fin 1) p (0 : Fin 1))) * w10 (ix3 (0 : Fin 1) k q))
          + b15 (ix3 (0 : Fin 1) (0 : Fin 1) q)) := by
  unfold k2_pay2
  rw [shapeCast_apply _ _ (ix2 p q) (ix2 p q) rfl, addf_apply, addf_apply]
  simp only [matmul]
  rw [PlainDot.matmul_zero_apply _ _ rfl rfl (fun _ _ => rfl) (fun _ _ => rfl) (fun _ _ => rfl) (fun _ _ => rfl)]
  rw [broadcastTo_1b_ab_apply, shapeCast_1ab_ab_apply]
  congr 2
  refine Finset.sum_congr rfl fun k _ => ?_
  rw [truncf_apply, truncf_apply, mulf_apply, shapeCast_1ab_ab_apply, shapeCast_1ab_ab_apply,
    Cert.Column.broadcastTo_a1_ab_apply, shapeCast_1ab_ab_apply]

/-- The last store's block at (p, q): the larger of the accumulator entry and zero. -/
theorem k2_pay3_apply (v : Vec Ideal S5000x128 .f32) (p : Fin 5000) (q : Fin 128) :
    k2_pay3 (F := Ideal) v (ix2 p q) = max (v (ix2 p q)) 0 := by
  unfold k2_pay3
  rw [maximumf_apply]
  exact congrArg (max (v (ix2 p q))) Ideal.ofBits_zero_f32

end Cert.Val

end
-- ==== Proof.KI.Reg2Closed.lean ====
import proofs.«166004_j3839700763193_1_alg».proof.Proof.KI.Reg2Ideal
import proofs.«166004_j3839700763193_1_alg».proof.Proof.Val.Payload2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

-- the TensorCore's buffer contents when the region is entered, as extended reals
variable (V : (c : Dev nD) → (b : Ref sig .tc) → Buf (Elt Ideal) ((c : Thread nD τ).loc b))

/-! # Region 2: the output array after the region, entry by entry, as extended reals -/

/-- THE OUTPUT ARRAY after the region at row `p`, column `q`, over the region's input arrays as it finds them: the
    payloads read at an index supply the three hypotheses of `final2_of`. -/
theorem final2 (c : Dev nD) (p : Fin 5000) (q : Fin 128) :
    yout2 V c (ix2 p q) = max (0 + ((∑ k : Fin 128, (xin2_0 V c (ix3 (0 : Fin 1) p k) * xin2_1 V c (ix3 (0 : Fin 1) p (0 : Fin 1))) * xin2_2 V c (ix3 (0 : Fin 1) k q)) + xin2_3 V c (ix3 (0 : Fin 1) (0 : Fin 1) q))) 0 :=
  final2_of V Cert.Val.k2_pay1_apply Cert.Val.k2_pay2_apply Cert.Val.k2_pay3_apply c p q

end Cert.KernelIdeal.Hand

end
-- ==== Proof.KI.Reg4Val.lean ====
import proofs.«166004_j3839700763193_1_alg».proof.Proof.KI.Reg4
import proofs.«166004_j3839700763193_1_alg».proof.Proof.KI.UnitZero
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: the values the body leaves, over the payloads of the point's input blocks -/

/-- The accumulator after the body: zeroed by the first conditional, then one reduction step added — the step's
    payload of the four input blocks over the zero block. -/
theorem sout4_0_eq (c : Dev nD) (i : grid4.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond4_0 i) (hc1 : cond4_1 i)
    (x0 : Vec F S1x5000x128 .f32) (x1 : Vec F S1x5000x1 .f32) (x2 : Vec F S1x128x64 .f32) (x3 : Vec F S1x1x64 .f32) :
    sout4_0 c i arg2 harg2 arg3 harg3 arg4 harg4 arg5 harg5 arg6 harg6 arg7 harg7 hc0 hc1 x0 x1 x2 x3 = k4_pay2 x0 x1 x2 (k4_pay1 (F := F)) x3 := by
  unfold sout4_0
  rw [View.read_writes_eq_canon _ _ _ (scover4_0 c i arg2 harg2 arg3 harg3 arg4 harg4 arg5 harg5 arg6 harg6 arg7 harg7 hc0 hc1 x0 x1 x2 x3)]
  unfold kernelRun4; dsimp only; sl_unfold_run_names
  rw [View.canon_cons_unit_zero sideOff2_zero]
  simp only [View.readAt_eq_ld, harg2.read_unread, harg3.read_unread, harg4.read_unread, harg5.read_unread]
  rw [View.ld_unit_zero (S := S1x5000x128) sideOff3_zero, View.ld_unit_zero (S := S1x5000x1) sideOff3_zero, View.ld_unit_zero (S := S1x128x64) sideOff3_zero,
    View.ld_unit_zero (S := S1x1x64) sideOff3_zero, View.readCov_unit_zero _ sideOff2_zero]

/-- The output block after the body: the accumulator, stored by the second conditional. -/
theorem out4_4_eq (c : Dev nD) (i : grid4.Coords) (arg2 : Memref sig .tc .vmem S1x5000x128 .f32) (harg2 : arg2.IsWhole) (arg3 : Memref sig .tc .vmem S1x5000x1 .f32) (harg3 : arg3.IsWhole) (arg4 : Memref sig .tc .vmem S1x128x64 .f32) (harg4 : arg4.IsWhole) (arg5 : Memref sig .tc .vmem S1x1x64 .f32) (harg5 : arg5.IsWhole) (arg6 : Memref sig .tc .vmem S5000x64 .f32) (harg6 : arg6.IsWhole) (arg7 : Memref sig .tc .vmem S5000x64 .f32) (harg7 : arg7.IsWhole) (hc0 : cond4_0 i) (hc1 : cond4_1 i)
    (x0 : Vec F S1x5000x128 .f32) (x1 : Vec F S1x5000x1 .f32) (x2 : Vec F S1x128x64 .f32) (x3 : Vec F S1x1x64 .f32) :
    out4_4 c i arg2 harg2 arg3 harg3 arg4 harg4 arg5 harg5 arg6 harg6 arg7 harg7 hc0 hc1 x0 x1 x2 x3 = k4_pay2 x0 x1 x2 (k4_pay1 (F := F)) x3 := by
  unfold out4_4
  rw [View.read_writes_eq_canon _ _ _ (cover4_4 c i arg2 harg2 arg3 harg3 arg4 harg4 arg5 harg5 arg6 harg6 arg7 harg7 hc0 hc1 x0 x1 x2 x3)]
  unfold kernelRun4; dsimp only; sl_unfold_run_names
  rw [View.canon_cons_unit_zero sideOff2_zero, side_readCov_cons_unit_zero _ sideOff2_zero]
  simp only [View.readAt_eq_ld, harg2.read_unread, harg3.read_unread, harg4.read_unread, harg5.read_unread]
  rw [View.ld_unit_zero (S := S1x5000x128) sideOff3_zero, View.ld_unit_zero (S := S1x5000x1) sideOff3_zero, View.ld_unit_zero (S := S1x128x64) sideOff3_zero,
    View.ld_unit_zero (S := S1x1x64) sideOff3_zero, View.readCov_unit_zero _ sideOff2_zero]

/-- The accumulator after the body at point `t`, over the point's input blocks. -/
theorem accAt4_eq (c : Dev nD) (t : Fin cfg4.N) :
    accAt4 V c t = k4_pay2 (iblk4 V c 0 t) (iblk4 V c 1 t) (iblk4 V c 2 t) (k4_pay1 (F := F)) (iblk4 V c 3 t) := by
  unfold accAt4
  exact sout4_0_eq c (grid4.coords t) (ms4_0 t) (hs4_0 t) (ms4_1 t) (hs4_1 t) (ms4_2 t) (hs4_2 t) (ms4_3 t) (hs4_3 t) (ms4_4 t) (hs4_4 t) scM4 (Memref.isWhole_whole _) (hcond4_0 t) (hcond4_1 t) (iblk4 V c 0 t) (iblk4 V c 1 t) (iblk4 V c 2 t) (iblk4 V c 3 t)

/-- The output block after the body at point `t` — what the point writes back — over the point's input blocks. -/
theorem outAt4_eq (c : Dev nD) (t : Fin cfg4.N) :
    outAt4 V c t = k4_pay2 (iblk4 V c 0 t) (iblk4 V c 1 t) (iblk4 V c 2 t) (k4_pay1 (F := F)) (iblk4 V c 3 t) := by
  unfold outAt4
  exact out4_4_eq c (grid4.coords t) (ms4_0 t) (hs4_0 t) (ms4_1 t) (hs4_1 t) (ms4_2 t) (hs4_2 t) (ms4_3 t) (hs4_3 t) (ms4_4 t) (hs4_4 t) scM4 (Memref.isWhole_whole _) (hcond4_0 t) (hcond4_1 t) (iblk4 V c 0 t) (iblk4 V c 1 t) (iblk4 V c 2 t) (iblk4 V c 3 t)

/-- What the proof data says the output window's buffer holds after the body at point `t`, over the payloads. -/
theorem after4_4_val (c : Dev nD) (t : Fin cfg4.N) :
    (dat4 V c).after 4 t = k4_pay2 (iblk4 V c 0 t) (iblk4 V c 1 t) (iblk4 V c 2 t) (k4_pay1 (F := F)) (iblk4 V c 3 t) :=
  (after4_4 V c t).trans (outAt4_eq V c t)

end Cert.KernelIdeal.Hand

end
-- ==== Proof.KI.Reg4Final.lean ====
import proofs.«166004_j3839700763193_1_alg».proof.Proof.KI.Reg4Val
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: from the one block to the array

The region has one point, and every window's block there is its whole array. So the output array after the region is
what the point's body stored, and the input blocks it read are the input arrays as the region found them. -/

/-- What the region's single point writes back: the body's stored value over the point's input blocks. -/
abbrev result4 (c : Dev nD) : Buf (Elt F) ((c : Thread nD τ).loc main_v188) :=
  k4_pay2 (iblk4 V c 0 t4_0) (iblk4 V c 1 t4_0) (iblk4 V c 2 t4_0) (k4_pay1 (F := F)) (iblk4 V c 3 t4_0)

/-- The one write-back writes `result4`: block (0, 0) of blocks of the array's own sizes, read off `result4`, is
    `result4`. -/
theorem flushed4_eq (c : Dev nD) (t : Fin cfg4.N) (hf : (cfg4.win 4).flush t = true) :
    (dat4 V c).flushed 4 t = ((cfg4.win 4).blk t).view.read (Elt F) (result4 V c) := by
  obtain rfl : t = t4_0 := fin_N4 t
  show (cfg4.win 4).cut (grid4.coords t4_0) ((dat4 V c).after 4 t4_0) = _
  rw [after4_4_val]
  have hz' : (fun a => win4_4.index t4_0 a * main_v188.ty.shape.size a) = fun _ => 0 := funext fun a => by fin_cases a <;> decide +kernel
  exact (Memref.read_access_unit_zero (Elt F) main_v188 hz' (fun a => by rw [congrFun hz' a]; simp) (result4 V c)).symm

/-- So the output array ends holding `result4`: the single point's block covers the array. -/
theorem arr4_result (c : Dev nD) : (dat4 V c).arrAt 4 cfg4.N = result4 V c :=
  (dat4 V c).arrAt_eq_of_cover 4 (result4 V c) (flushed4_eq V c) fun i =>
    ⟨t4_0, flush4_4 t4_0, by
      show i ∈ ((View.whole main_v188).slice (win4_4.rect t4_0)).set
      rw [View.set_slice_whole, Rect.mem_set_unit]
      intro a
      have h0 : (i 0 : Nat) < 5000 := (i 0).isLt
      have h1 : (i 1 : Nat) < 64 := (i 1).isLt
      match a with
      | ⟨0, _⟩ => show win4_4.index t4_0 0 * win4_4.size 0 ≤ (i 0 : Nat) ∧ (i 0 : Nat) < win4_4.index t4_0 0 * win4_4.size 0 + win4_4.xsize (grid4.coords t4_0) 0
                  rw [show win4_4.index t4_0 0 * win4_4.size 0 = 0 from by decide +kernel, show win4_4.xsize (grid4.coords t4_0) 0 = 5000 from by decide +kernel]; omega
      | ⟨1, _⟩ => show win4_4.index t4_0 1 * win4_4.size 1 ≤ (i 1 : Nat) ∧ (i 1 : Nat) < win4_4.index t4_0 1 * win4_4.size 1 + win4_4.xsize (grid4.coords t4_0) 1
                  rw [show win4_4.index t4_0 1 * win4_4.size 1 = 0 from by decide +kernel, show win4_4.xsize (grid4.coords t4_0) 1 = 64 from by decide +kernel]; omega⟩

/-- Input window 0's block at the region's single point is its whole array: block (0, 0, 0) of blocks of the array's
    own sizes. -/
theorem iblk4_0_eq (c : Dev nD) : (iblk4 V c 0 t4_0 : Vec F S1x5000x128 .f32) = (V c main_v182 : S1x5000x128.Idx → Elt F .f32) := by
  unfold iblk4
  have hz' : (fun a => win4_0.index t4_0 a * main_v182.ty.shape.size a) = fun _ => 0 := funext fun a => by fin_cases a <;> decide +kernel
  exact Memref.read_access_unit_zero (Elt F) main_v182 hz' (fun a => by rw [congrFun hz' a]; simp) (V c main_v182)

/-- Input window 1's block at the region's single point is its whole array: block (0, 0, 0) of blocks of the array's
    own sizes. -/
theorem iblk4_1_eq (c : Dev nD) : (iblk4 V c 1 t4_0 : Vec F S1x5000x1 .f32) = (V c main_v186 : S1x5000x1.Idx → Elt F .f32) := by
  unfold iblk4
  have hz' : (fun a => win4_1.index t4_0 a * main_v186.ty.shape.size a) = fun _ => 0 := funext fun a => by fin_cases a <;> decide +kernel
  exact Memref.read_access_unit_zero (Elt F) main_v186 hz' (fun a => by rw [congrFun hz' a]; simp) (V c main_v186)

/-- Input window 2's block at the region's single point is its whole array: block (0, 0, 0) of blocks of the array's
    own sizes. -/
theorem iblk4_2_eq (c : Dev nD) : (iblk4 V c 2 t4_0 : Vec F S1x128x64 .f32) = (V c main_v184 : S1x128x64.Idx → Elt F .f32) := by
  unfold iblk4
  have hz' : (fun a => win4_2.index t4_0 a * main_v184.ty.shape.size a) = fun _ => 0 := funext fun a => by fin_cases a <;> decide +kernel
  exact Memref.read_access_unit_zero (Elt F) main_v184 hz' (fun a => by rw [congrFun hz' a]; simp) (V c main_v184)

/-- Input window 3's block at the region's single point is its whole array: block (0, 0, 0) of blocks of the array's
    own sizes. -/
theorem iblk4_3_eq (c : Dev nD) : (iblk4 V c 3 t4_0 : Vec F S1x1x64 .f32) = (V c main_v187 : S1x1x64.Idx → Elt F .f32) := by
  unfold iblk4
  have hz' : (fun a => win4_3.index t4_0 a * main_v187.ty.shape.size a) = fun _ => 0 := funext fun a => by fin_cases a <;> decide +kernel
  exact Memref.read_access_unit_zero (Elt F) main_v187 hz' (fun a => by rw [congrFun hz' a]; simp) (V c main_v187)

/-- THE OUTPUT ARRAY after the region, over the input arrays as the region found them: the body's stored value
    of the four whole arrays (the accumulator starts from the zero block). -/
theorem arr4_final (c : Dev nD) :
    (dat4 V c).arrAt 4 cfg4.N = (k4_pay2 (V c main_v182 : S1x5000x128.Idx → Elt F .f32) (V c main_v186 : S1x5000x1.Idx → Elt F .f32) (V c main_v184 : S1x128x64.Idx → Elt F .f32) (k4_pay1 (F := F)) (V c main_v187 : S1x1x64.Idx → Elt F .f32) : S5000x64.Idx → Elt F .f32) := by
  rw [arr4_result]
  show (k4_pay2 (iblk4 V c 0 t4_0) (iblk4 V c 1 t4_0) (iblk4 V c 2 t4_0) (k4_pay1 (F := F)) (iblk4 V c 3 t4_0) : S5000x64.Idx → Elt F .f32) = _
  rw [iblk4_0_eq, iblk4_1_eq, iblk4_2_eq, iblk4_3_eq]

end Cert.KernelIdeal.Hand

end
-- ==== Proof.KI.Reg4Ideal.lean ====
import proofs.«166004_j3839700763193_1_alg».proof.Proof.KI.Reg4Final
import Idealize.ShloMosaic.Lib.ValueIdx
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

-- the TensorCore's buffer contents when the region is entered, as extended reals
variable (V : (c : Dev nD) → (b : Ref sig .tc) → Buf (Elt Ideal) ((c : Thread nD τ).loc b))

/-! # Region 4: the output array after the region, entry by entry, as extended reals -/

/-- The region's four input arrays as it finds them, and its output array after it, as extended-real functions of
    literal indices: the aggregated rows, the row factors, the weights, the bias; the result. -/
abbrev xin4_0 (c : Dev nD) : S1x5000x128.Idx → EReal := V c main_v182
abbrev xin4_1 (c : Dev nD) : S1x5000x1.Idx → EReal := V c main_v186
abbrev xin4_2 (c : Dev nD) : S1x128x64.Idx → EReal := V c main_v184
abbrev xin4_3 (c : Dev nD) : S1x1x64.Idx → EReal := V c main_v187
abbrev yout4 (c : Dev nD) : S5000x64.Idx → EReal := (dat4 V c).arrAt 4 cfg4.N

/-- THE OUTPUT ARRAY after the region at row `p`, column `q`: the zero the accumulator starts from, plus the row of
    the first array scaled by its row factor times column `q` of the weights, plus the bias —
    given the payloads read at an index (`hpay·`). -/
theorem final4_of
    (hpay1 : ∀ (p : Fin 5000) (q : Fin 64), k4_pay1 (F := Ideal) (ix2 p q) = 0)
    (hpay2 : ∀ (x3 : Vec Ideal S1x5000x128 .f32) (x5 : Vec Ideal S1x5000x1 .f32) (w10 : Vec Ideal S1x128x64 .f32) (acc : Vec Ideal S5000x64 .f32) (b15 : Vec Ideal S1x1x64 .f32) (p : Fin 5000) (q : Fin 64),
      k4_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (c : Dev nD) (p : Fin 5000) (q : Fin 64) :
    yout4 V c (ix2 p q) = 0 + ((∑ k : Fin 128, (xin4_0 V c (ix3 (0 : Fin 1) p k) * xin4_1 V c (ix3 (0 : Fin 1) p (0 : Fin 1))) * xin4_2 V c (ix3 (0 : Fin 1) k q)) + xin4_3 V c (ix3 (0 : Fin 1) (0 : Fin 1) q)) := by
  have h := congrFun (arr4_final V c) (ix2 p q)
  rw [hpay2, hpay1] at h
  exact h

end Cert.KernelIdeal.Hand

end
-- ==== Proof.Val.Payload4.lean ====
/-
  The stores of kernel 4 read at one entry over the extended reals.

  The first store writes the zero block. The second writes, at row p and column q, the old accumulator entry plus
  (Σ_k (x[0, p, k] · s[0, p, 0]) · W[0, k, q]) + b[0, 0, q]: the row block scaled by its column of row factors, times
  the weight matrix, plus the bias row. Changing the float format is the identity on extended reals, and a product
  accumulated into the zero block is the plain sum over the contracted coordinate.
-/
import proofs.«166004_j3839700763193_1_alg».proof.Proof.Gen.KernelIdeal.Skeleton
import proofs.«166004_j3839700763193_1_alg».proof.Proof.LibPlainDot
import proofs.«166004_j3839700763193_1_alg».proof.Proof.LibColumn
import Idealize.ShloMosaic.Lib.ValueLayout

noncomputable section

open scoped BigOperators

namespace Cert.Val

open Idealize.ShloMosaic Idealize.ShloMosaic.ValueIdx Cert.KernelIdeal Cert.KernelIdeal.Gen

/-- The first store's block is zero at every entry. -/
theorem k4_pay1_apply (p : Fin 5000) (q : Fin 64) : k4_pay1 (F := Ideal) (ix2 p q) = 0 := by
  unfold k4_pay1
  rw [shapeCast_apply _ _ (ix2 p q) (ix2 p q) rfl]
  exact Ideal.ofBits_zero_f32

/-- The second store's block at (p, q): the accumulator entry plus the scaled row times the weight column plus the bias. -/
theorem k4_pay2_apply (x3 : Vec Ideal S1x5000x128 .f32) (x5 : Vec Ideal S1x5000x1 .f32) (w10 : Vec Ideal S1x128x64 .f32)
    (acc : Vec Ideal S5000x64 .f32) (b15 : Vec Ideal S1x1x64 .f32) (p : Fin 5000) (q : Fin 64) :
    k4_pay2 (F := Ideal) x3 x5 w10 acc b15 (ix2 p q)
      = acc (ix2 p q) + ((∑ k : Fin 128, (x3 (ix3 (0 : Fin 1) p k) * x5 (ix3 (0 : Fin 1) p (0 : Fin 1))) * w10 (ix3 (0 : Fin 1) k q))
          + b15 (ix3 (0 : Fin 1) (0 : Fin 1) q)) := by
  unfold k4_pay2
  rw [shapeCast_apply _ _ (ix2 p q) (ix2 p q) rfl, addf_apply, addf_apply]
  simp only [matmul]
  rw [PlainDot.matmul_zero_apply _ _ rfl rfl (fun _ _ => rfl) (fun _ _ => rfl) (fun _ _ => rfl) (fun _ _ => rfl)]
  rw [broadcastTo_1b_ab_apply, shapeCast_1ab_ab_apply]
  congr 2
  refine Finset.sum_congr rfl fun k _ => ?_
  rw [truncf_apply, truncf_apply, mulf_apply, shapeCast_1ab_ab_apply, shapeCast_1ab_ab_apply,
    Cert.Column.broadcastTo_a1_ab_apply, shapeCast_1ab_ab_apply]

end Cert.Val

end
-- ==== Proof.KI.Reg4Closed.lean ====
import proofs.«166004_j3839700763193_1_alg».proof.Proof.KI.Reg4Ideal
import proofs.«166004_j3839700763193_1_alg».proof.Proof.Val.Payload4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

-- the TensorCore's buffer contents when the region is entered, as extended reals
variable (V : (c : Dev nD) → (b : Ref sig .tc) → Buf (Elt Ideal) ((c : Thread nD τ).loc b))

/-! # Region 4: the output array after the region, entry by entry, as extended reals -/

/-- THE OUTPUT ARRAY after the region at row `p`, column `q`, over the region's input arrays as it finds them: the
    payloads read at an index supply the three hypotheses of `final4_of`. -/
theorem final4 (c : Dev nD) (p : Fin 5000) (q : Fin 64) :
    yout4 V c (ix2 p q) = 0 + ((∑ k : Fin 128, (xin4_0 V c (ix3 (0 : Fin 1) p k) * xin4_1 V c (ix3 (0 : Fin 1) p (0 : Fin 1))) * xin4_2 V c (ix3 (0 : Fin 1) k q)) + xin4_3 V c (ix3 (0 : Fin 1) (0 : Fin 1) q)) :=
  final4_of V Cert.Val.k4_pay1_apply Cert.Val.k4_pay2_apply c p q

end Cert.KernelIdeal.Hand

end
-- ==== Proof.KI.Reg1Final.lean ====
import proofs.«166004_j3839700763193_1_alg».proof.Proof.KI.Reg1Runs
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: from the blocks written back to the whole output array (at the exact reals)

Row block `n` of the output is written back at point `3·n + 2`; row `r` lies in block `r / 5000`. -/

/-- The printed index maps over the grid: at point `t = 3·n + j` the aggregated features and the degree scalings are at
    block `(j, n, 0)`, the weights and the bias at block `(j, 0, 0)`, the output at block `(n, 0)`. -/
theorem idx1 : ∀ t : Fin cfg1.N,
    win1_0.index t (0 : Fin 3) = t.val % 3 ∧ win1_0.index t (1 : Fin 3) = t.val / 3 ∧ win1_0.index t (2 : Fin 3) = 0
    ∧ win1_1.index t (0 : Fin 3) = t.val % 3 ∧ win1_1.index t (1 : Fin 3) = t.val / 3 ∧ win1_1.index t (2 : Fin 3) = 0
    ∧ win1_2.index t (0 : Fin 3) = t.val % 3 ∧ win1_2.index t (1 : Fin 3) = 0 ∧ win1_2.index t (2 : Fin 3) = 0
    ∧ win1_3.index t (0 : Fin 3) = t.val % 3 ∧ win1_3.index t (1 : Fin 3) = 0 ∧ win1_3.index t (2 : Fin 3) = 0
    ∧ win1_4.index t (0 : Fin 2) = t.val / 3 ∧ win1_4.index t (1 : Fin 2) = 0 :=
  (by decide +kernel : ∀ t : Fin grid1.N, _)

/-- The aggregated-features block at point `t` is rows `5000·(t/3) …` of relation `t % 3`. -/
theorem iblk1_0_apply (c : Dev nD) (t : Fin cfg1.N) (y : S1x5000x128.Idx) (i : S3x100000x128.Idx)
    (h0 : (i 0).val = t.val % 3) (h1 : (i 1).val = 5000 * (t.val / 3) + (y 1).val) (h2 : (i 2).val = (y 2).val) :
    (iblk1 V c 0 t : Vec F S1x5000x128 .f32) y = (V c main_v87 : S3x100000x128.Idx → Elt F .f32) i := by
  obtain ⟨e0, e1, e2, -⟩ := idx1 t
  have hy : (y 0).val = 0 := by have hlt : (y 0).val < 1 := (y 0).isLt; omega
  unfold iblk1
  rw [View.read_apply]
  show V c main_v87 _ = V c main_v87 _
  congr 1
  funext a
  apply Fin.ext
  match a with
  | ⟨0, _⟩ => show win1_0.index t 0 * 1 + 1 * (y 0).val = (i 0).val; omega
  | ⟨1, _⟩ => show win1_0.index t 1 * 5000 + 1 * (y 1).val = (i 1).val; omega
  | ⟨2, _⟩ => show win1_0.index t 2 * 128 + 1 * (y 2).val = (i 2).val; omega

/-- The degree-scaling block at point `t`. -/
theorem iblk1_1_apply (c : Dev nD) (t : Fin cfg1.N) (y : S1x5000x1.Idx) (i : S3x100000x1.Idx)
    (h0 : (i 0).val = t.val % 3) (h1 : (i 1).val = 5000 * (t.val / 3) + (y 1).val) :
    (iblk1 V c 1 t : Vec F S1x5000x1 .f32) y = (V c main_v94 : S3x100000x1.Idx → Elt F .f32) i := by
  obtain ⟨-, -, -, e0, e1, e2, -⟩ := idx1 t
  have hy : (y 0).val = 0 := by have hlt : (y 0).val < 1 := (y 0).isLt; omega
  have hy2 : (y 2).val = 0 := by have hlt : (y 2).val < 1 := (y 2).isLt; omega
  have hi2 : (i 2).val = 0 := by have hlt : (i 2).val < 1 := (i 2).isLt; omega
  unfold iblk1
  rw [View.read_apply]
  show V c main_v94 _ = V c main_v94 _
  congr 1
  funext a
  apply Fin.ext
  match a with
  | ⟨0, _⟩ => show win1_1.index t 0 * 1 + 1 * (y 0).val = (i 0).val; omega
  | ⟨1, _⟩ => show win1_1.index t 1 * 5000 + 1 * (y 1).val = (i 1).val; omega
  | ⟨2, _⟩ => show win1_1.index t 2 * 1 + 1 * (y 2).val = (i 2).val; omega

/-- The weight block at point `t`: relation `t % 3`'s matrix. -/
theorem iblk1_2_apply (c : Dev nD) (t : Fin cfg1.N) (y : S1x128x128.Idx) (i : S3x128x128.Idx)
    (h0 : (i 0).val = t.val % 3) (h1 : (i 1).val = (y 1).val) (h2 : (i 2).val = (y 2).val) :
    (iblk1 V c 2 t : Vec F S1x128x128 .f32) y = (V c main_v92 : S3x128x128.Idx → Elt F .f32) i := by
  obtain ⟨-, -, -, -, -, -, e0, e1, e2, -⟩ := idx1 t
  have hy : (y 0).val = 0 := by have hlt : (y 0).val < 1 := (y 0).isLt; omega
  unfold iblk1
  rw [View.read_apply]
  show V c main_v92 _ = V c main_v92 _
  congr 1
  funext a
  apply Fin.ext
  match a with
  | ⟨0, _⟩ => show win1_2.index t 0 * 1 + 1 * (y 0).val = (i 0).val; omega
  | ⟨1, _⟩ => show win1_2.index t 1 * 128 + 1 * (y 1).val = (i 1).val; omega
  | ⟨2, _⟩ => show win1_2.index t 2 * 128 + 1 * (y 2).val = (i 2).val; omega

/-- The bias block at point `t`: relation `t % 3`'s row. -/
theorem iblk1_3_apply (c : Dev nD) (t : Fin cfg1.N) (y : S1x1x128.Idx) (i : S3x1x128.Idx)
    (h0 : (i 0).val = t.val % 3) (h2 : (i 2).val = (y 2).val) :
    (iblk1 V c 3 t : Vec F S1x1x128 .f32) y = (V c main_v95 : S3x1x128.Idx → Elt F .f32) i := by
  obtain ⟨-, -, -, -, -, -, -, -, -, e0, e1, e2, -⟩ := idx1 t
  have hy : (y 0).val = 0 := by have hlt : (y 0).val < 1 := (y 0).isLt; omega
  have hy1 : (y 1).val = 0 := by have hlt : (y 1).val < 1 := (y 1).isLt; omega
  have hi1 : (i 1).val = 0 := by have hlt : (i 1).val < 1 := (i 1).isLt; omega
  unfold iblk1
  rw [View.read_apply]
  show V c main_v95 _ = V c main_v95 _
  congr 1
  funext a
  apply Fin.ext
  match a with
  | ⟨0, _⟩ => show win1_3.index t 0 * 1 + 1 * (y 0).val = (i 0).val; omega
  | ⟨1, _⟩ => show win1_3.index t 1 * 1 + 1 * (y 1).val = (i 1).val; omega
  | ⟨2, _⟩ => show win1_3.index t 2 * 128 + 1 * (y 2).val = (i 2).val; omega

/-- An index of the output array is in point `t`'s block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v96).slice (win1_4.rect t)).set ↔ _
  rw [View.set_slice_whole, Rect.mem_set_unit]
  exact Iff.rfl

/-- Every index of the output array is in some write-back point's block: row `r` in that of point `3·(r / 5000) + 2`. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 60 := N_1
  let t : Fin cfg1.N := ⟨3 * ((i 0).val / 5000) + 2, by rw [hN]; omega⟩
  have htv : t.val = 3 * ((i 0).val / 5000) + 2 := rfl
  obtain ⟨-, -, -, -, -, -, -, -, -, -, -, -, e0, e1⟩ := idx1 t
  refine ⟨t, (flush1_4 t).mpr (by rw [htv]; omega), ?_⟩
  rw [mem_blk1]
  intro a
  match a with
  | ⟨0, _⟩ => show win1_4.index t 0 * 5000 ≤ (i 0).val ∧ (i 0).val < win1_4.index t 0 * 5000 + 5000; omega
  | ⟨1, _⟩ => show win1_4.index t 1 * 128 ≤ (i 1).val ∧ (i 1).val < win1_4.index t 1 * 128 + 128; omega

/-- The array index of a block coordinate of the output window at point `t`: row `5000·(t/3) + p`, column `q`. -/
theorem emb1_4 (t : Fin cfg1.N) (p : Fin 5000) (q : Fin 128) (r : Fin 100000) (hr : r.val = 5000 * (t.val / 3) + p.val) :
    ((cfg1.win 4).blk t).view.emb (ix2 p q : S5000x128.Idx) = (ix2 r q : S100000x128.Idx) := by
  obtain ⟨-, -, -, -, -, -, -, -, -, -, -, -, e0, e1⟩ := idx1 t
  funext a
  apply Fin.ext
  match a with
  | ⟨0, _⟩ => show win1_4.index t 0 * 5000 + 1 * p.val = r.val; omega
  | ⟨1, _⟩ => show win1_4.index t 1 * 128 + 1 * q.val = q.val; omega

end Cert.KernelIdeal.Hand

end
-- ==== Proof.KI.Reg1Ideal.lean ====
import proofs.«166004_j3839700763193_1_alg».proof.Proof.KI.Reg1
import proofs.«166004_j3839700763193_1_alg».proof.Proof.KI.Reg1Final

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! # Region 1 at the exact reals: the output array as one function of the arrays the region finds -/

/-- The arrays the region reads, as it finds them: the aggregated features, the degree scalings, the weights, the biases
    (each stacked over the three relations), -/
abbrev xin1_0 (c : Dev nD) : S3x100000x128.Idx → EReal := V c main_v87
abbrev xin1_1 (c : Dev nD) : S3x100000x1.Idx → EReal := V c main_v94
abbrev xin1_2 (c : Dev nD) : S3x128x128.Idx → EReal := V c main_v92
abbrev xin1_3 (c : Dev nD) : S3x1x128.Idx → EReal := V c main_v95
/-- and the output array after the region. -/
abbrev yout1 (c : Dev nD) : S100000x128.Idx → EReal := (dat1 V c).arrAt 4 cfg1.N

/-- Relation `j`'s contribution to output row `r`, column `q`: the scaled aggregated row times the weight column, plus the bias. -/
def C1 (c : Dev nD) (j : Fin 3) (r : Fin 100000) (q : Fin 128) : EReal :=
  (∑ k : Fin 128, (xin1_0 V c (ix3 j r k) * xin1_1 V c (ix3 j r 0)) * xin1_2 V c (ix3 j k q)) + xin1_3 V c (ix3 j 0 q)

/-- What the output array ends holding: the three relations' contributions added in order to zero, then the maximum with zero. -/
def G1 (c : Dev nD) : S100000x128.Idx → EReal := fun i =>
  max (((0 + C1 V c 0 (i 0) (i 1)) + C1 V c 1 (i 0) (i 1)) + C1 V c 2 (i 0) (i 1)) 0

/-- One reduction step read at an index: the accumulator there plus the point's relation's contribution. -/
theorem step1_apply (hpay2 : ∀ (x3 : Vec Ideal S1x5000x128 .f32) (x5 : Vec Ideal S1x5000x1 .f32) (w10 : Vec Ideal S1x128x128 .f32) (acc : Vec Ideal S5000x128 .f32) (b15 : Vec Ideal S1x1x128 .f32) (p : Fin 5000) (q : Fin 128),
      k1_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (c : Dev nD) (t : Fin cfg1.N) (a : Vec Ideal S5000x128 .f32) (p : Fin 5000) (q : Fin 128) (j : Fin 3) (r : Fin 100000)
    (hj : j.val = t.val % 3) (hr : r.val = 5000 * (t.val / 3) + p.val) :
    step1 V c t a (ix2 p q) = a (ix2 p q) + C1 V c j r q := by
  unfold step1
  rw [hpay2]
  unfold C1
  refine congrArg (a (ix2 p q) + ·) ?_
  refine congrArg₂ (· + ·) (Finset.sum_congr rfl fun k _ => ?_) (iblk1_3_apply V c t (ix3 (0 : Fin 1) (0 : Fin 1) q) (ix3 j 0 q) hj rfl)
  exact congrArg₂ (· * ·) (congrArg₂ (· * ·) (iblk1_0_apply V c t (ix3 (0 : Fin 1) p k) (ix3 j r k) hj hr rfl)
    (iblk1_1_apply V c t (ix3 (0 : Fin 1) p (0 : Fin 1)) (ix3 j r 0) hj hr)) (iblk1_2_apply V c t (ix3 (0 : Fin 1) k q) (ix3 j k q) hj rfl rfl)

/-- The output block of a write-back point `t = 3·n + 2` at block coordinate `(p, q)` is `G1` at row `5000·n + p`. -/
theorem out1_apply (hpay1 : ∀ (p : Fin 5000) (q : Fin 128), k1_pay1 (F := Ideal) (ix2 p q) = 0)
    (hpay2 : ∀ (x3 : Vec Ideal S1x5000x128 .f32) (x5 : Vec Ideal S1x5000x1 .f32) (w10 : Vec Ideal S1x128x128 .f32) (acc : Vec Ideal S5000x128 .f32) (b15 : Vec Ideal S1x1x128 .f32) (p : Fin 5000) (q : Fin 128),
      k1_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (hpay3 : ∀ (v : Vec Ideal S5000x128 .f32) (p : Fin 5000) (q : Fin 128), k1_pay3 (F := Ideal) v (ix2 p q) = max (v (ix2 p q)) 0)
    (c : Dev nD) (t : Fin cfg1.N) (h2 : t.val % 3 = 2) (p : Fin 5000) (q : Fin 128) (r : Fin 100000) (hr : r.val = 5000 * (t.val / 3) + p.val) :
    k1_pay3 (step1 V c t (step1 V c ⟨t.val - 1, by omega⟩ (step1 V c ⟨t.val - 2, by omega⟩ (k1_pay1 (F := Ideal))))) (ix2 p q) = G1 V c (ix2 r q) := by
  have hN : t.val < 60 := lt_of_lt_of_eq t.isLt (show cfg1.N = 60 from N_1)
  rw [hpay3]
  rw [step1_apply V hpay2 c t _ p q (2 : Fin 3) r (by show 2 = t.val % 3; omega) hr,
    step1_apply V hpay2 c ⟨t.val - 1, by omega⟩ _ p q (1 : Fin 3) r (by show 1 = (t.val - 1) % 3; omega) (by show r.val = 5000 * ((t.val - 1) / 3) + p.val; omega),
    step1_apply V hpay2 c ⟨t.val - 2, by omega⟩ _ p q (0 : Fin 3) r (by show 0 = (t.val - 2) % 3; omega) (by show r.val = 5000 * ((t.val - 2) / 3) + p.val; omega),
    hpay1]
  rfl

/-- WHAT A WRITE-BACK POINT WRITES is its block of `G1`. -/
theorem flushed1_eq (hpay1 : ∀ (p : Fin 5000) (q : Fin 128), k1_pay1 (F := Ideal) (ix2 p q) = 0)
    (hpay2 : ∀ (x3 : Vec Ideal S1x5000x128 .f32) (x5 : Vec Ideal S1x5000x1 .f32) (w10 : Vec Ideal S1x128x128 .f32) (acc : Vec Ideal S5000x128 .f32) (b15 : Vec Ideal S1x1x128 .f32) (p : Fin 5000) (q : Fin 128),
      k1_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (hpay3 : ∀ (v : Vec Ideal S5000x128 .f32) (p : Fin 5000) (q : Fin 128), k1_pay3 (F := Ideal) v (ix2 p q) = max (v (ix2 p q)) 0)
    (c : Dev nD) (t : Fin cfg1.N) (hf : (cfg1.win 4).flush t = true) :
    (dat1 V c).flushed 4 t = ((cfg1.win 4).blk t).view.read (Elt Ideal) (G1 V c) := by
  have h2 : t.val % 3 = 2 := (flush1_4 t).mp hf
  have hN : t.val < 60 := lt_of_lt_of_eq t.isLt (show cfg1.N = 60 from N_1)
  show (cfg1.win 4).cut (grid1.coords t) ((dat1 V c).after 4 t) = _
  have hA := after1_4_flush V c t h2
  generalize (dat1 V c).after 4 t = A at hA ⊢
  generalize hG : G1 V c = G
  funext y
  obtain ⟨p, q, rfl⟩ : ∃ (p : Fin 5000) (q : Fin 128), y = (ix2 p q : S5000x128.Idx) := ⟨y 0, y 1, eq_ix2 y⟩
  show A (ix2 p q) = G (((cfg1.win 4).blk t).view.emb (ix2 p q : S5000x128.Idx))
  have hp : p.val < 5000 := p.isLt
  rw [emb1_4 t p q ⟨5000 * (t.val / 3) + p.val, by omega⟩ rfl, hA]
  exact (out1_apply V hpay1 hpay2 hpay3 c t h2 p q ⟨5000 * (t.val / 3) + p.val, by omega⟩ rfl).trans (congrFun hG _)

/-- THE OUTPUT ARRAY after the region is `G1` of the arrays the region found. -/
theorem final1_arr (hpay1 : ∀ (p : Fin 5000) (q : Fin 128), k1_pay1 (F := Ideal) (ix2 p q) = 0)
    (hpay2 : ∀ (x3 : Vec Ideal S1x5000x128 .f32) (x5 : Vec Ideal S1x5000x1 .f32) (w10 : Vec Ideal S1x128x128 .f32) (acc : Vec Ideal S5000x128 .f32) (b15 : Vec Ideal S1x1x128 .f32) (p : Fin 5000) (q : Fin 128),
      k1_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (hpay3 : ∀ (v : Vec Ideal S5000x128 .f32) (p : Fin 5000) (q : Fin 128), k1_pay3 (F := Ideal) v (ix2 p q) = max (v (ix2 p q)) 0)
    (c : Dev nD) : yout1 V c = G1 V c :=
  (dat1 V c).arrAt_eq_of_cover 4 (G1 V c) (flushed1_eq V hpay1 hpay2 hpay3 c) cover1

/-- The same at an index: row `r`, column `q` of the output is the three relations' contributions added in order to
    zero, then the maximum with zero. -/
theorem final1_C (hpay1 : ∀ (p : Fin 5000) (q : Fin 128), k1_pay1 (F := Ideal) (ix2 p q) = 0)
    (hpay2 : ∀ (x3 : Vec Ideal S1x5000x128 .f32) (x5 : Vec Ideal S1x5000x1 .f32) (w10 : Vec Ideal S1x128x128 .f32) (acc : Vec Ideal S5000x128 .f32) (b15 : Vec Ideal S1x1x128 .f32) (p : Fin 5000) (q : Fin 128),
      k1_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (hpay3 : ∀ (v : Vec Ideal S5000x128 .f32) (p : Fin 5000) (q : Fin 128), k1_pay3 (F := Ideal) v (ix2 p q) = max (v (ix2 p q)) 0)
    (c : Dev nD) (r : Fin 100000) (q : Fin 128) :
    yout1 V c (ix2 r q) = max (((0 + C1 V c 0 r q) + C1 V c 1 r q) + C1 V c 2 r q) 0 := by
  rw [final1_arr V hpay1 hpay2 hpay3 c]
  rfl

/-- The same with the contributions written out over the four arrays: relation `j`'s is the sum over `k` of
    `(x0[j, r, k] · x1[j, r, 0]) · x2[j, k, q]`, plus `x3[j, 0, q]`. -/
theorem final1_of (hpay1 : ∀ (p : Fin 5000) (q : Fin 128), k1_pay1 (F := Ideal) (ix2 p q) = 0)
    (hpay2 : ∀ (x3 : Vec Ideal S1x5000x128 .f32) (x5 : Vec Ideal S1x5000x1 .f32) (w10 : Vec Ideal S1x128x128 .f32) (acc : Vec Ideal S5000x128 .f32) (b15 : Vec Ideal S1x1x128 .f32) (p : Fin 5000) (q : Fin 128),
      k1_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (hpay3 : ∀ (v : Vec Ideal S5000x128 .f32) (p : Fin 5000) (q : Fin 128), k1_pay3 (F := Ideal) v (ix2 p q) = max (v (ix2 p q)) 0)
    (c : Dev nD) (r : Fin 100000) (q : Fin 128) :
    yout1 V c (ix2 r q)
      = max (((0 + ((∑ k : Fin 128, (xin1_0 V c (ix3 (0 : Fin 3) r k) * xin1_1 V c (ix3 (0 : Fin 3) r (0 : Fin 1))) * xin1_2 V c (ix3 (0 : Fin 3) k q)) + xin1_3 V c (ix3 (0 : Fin 3) (0 : Fin 1) q))) + ((∑ k : Fin 128, (xin1_0 V c (ix3 (1 : Fin 3) r k) * xin1_1 V c (ix3 (1 : Fin 3) r (0 : Fin 1))) * xin1_2 V c (ix3 (1 : Fin 3) k q)) + xin1_3 V c (ix3 (1 : Fin 3) (0 : Fin 1) q))) + ((∑ k : Fin 128, (xin1_0 V c (ix3 (2 : Fin 3) r k) * xin1_1 V c (ix3 (2 : Fin 3) r (0 : Fin 1))) * xin1_2 V c (ix3 (2 : Fin 3) k q)) + xin1_3 V c (ix3 (2 : Fin 3) (0 : Fin 1) q))) 0 :=
  final1_C V hpay1 hpay2 hpay3 c r q

end Cert.KernelIdeal.Hand

end
-- ==== Proof.KI.Reg3Final.lean ====
import proofs.«166004_j3839700763193_1_alg».proof.Proof.KI.Reg3Runs
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: from the blocks written back to the whole output array (at the exact reals)

Row block `n` of the output is written back at point `3·n + 2`; row `r` lies in block `r / 5000`. -/

/-- The printed index maps over the grid: at point `t = 3·n + j` the aggregated features and the degree scalings are at
    block `(j, n, 0)`, the weights and the bias at block `(j, 0, 0)`, the output at block `(n, 0)`. -/
theorem idx3 : ∀ t : Fin cfg3.N,
    win3_0.index t (0 : Fin 3) = t.val % 3 ∧ win3_0.index t (1 : Fin 3) = t.val / 3 ∧ win3_0.index t (2 : Fin 3) = 0
    ∧ win3_1.index t (0 : Fin 3) = t.val % 3 ∧ win3_1.index t (1 : Fin 3) = t.val / 3 ∧ win3_1.index t (2 : Fin 3) = 0
    ∧ win3_2.index t (0 : Fin 3) = t.val % 3 ∧ win3_2.index t (1 : Fin 3) = 0 ∧ win3_2.index t (2 : Fin 3) = 0
    ∧ win3_3.index t (0 : Fin 3) = t.val % 3 ∧ win3_3.index t (1 : Fin 3) = 0 ∧ win3_3.index t (2 : Fin 3) = 0
    ∧ win3_4.index t (0 : Fin 2) = t.val / 3 ∧ win3_4.index t (1 : Fin 2) = 0 :=
  (by decide +kernel : ∀ t : Fin grid3.N, _)

/-- The aggregated-features block at point `t` is rows `5000·(t/3) …` of relation `t % 3`. -/
theorem iblk3_0_apply (c : Dev nD) (t : Fin cfg3.N) (y : S1x5000x128.Idx) (i : S3x100000x128.Idx)
    (h0 : (i 0).val = t.val % 3) (h1 : (i 1).val = 5000 * (t.val / 3) + (y 1).val) (h2 : (i 2).val = (y 2).val) :
    (iblk3 V c 0 t : Vec F S1x5000x128 .f32) y = (V c main_v159 : S3x100000x128.Idx → Elt F .f32) i := by
  obtain ⟨e0, e1, e2, -⟩ := idx3 t
  have hy : (y 0).val = 0 := by have hlt : (y 0).val < 1 := (y 0).isLt; omega
  unfold iblk3
  rw [View.read_apply]
  show V c main_v159 _ = V c main_v159 _
  congr 1
  funext a
  apply Fin.ext
  match a with
  | ⟨0, _⟩ => show win3_0.index t 0 * 1 + 1 * (y 0).val = (i 0).val; omega
  | ⟨1, _⟩ => show win3_0.index t 1 * 5000 + 1 * (y 1).val = (i 1).val; omega
  | ⟨2, _⟩ => show win3_0.index t 2 * 128 + 1 * (y 2).val = (i 2).val; omega

/-- The degree-scaling block at point `t`. -/
theorem iblk3_1_apply (c : Dev nD) (t : Fin cfg3.N) (y : S1x5000x1.Idx) (i : S3x100000x1.Idx)
    (h0 : (i 0).val = t.val % 3) (h1 : (i 1).val = 5000 * (t.val / 3) + (y 1).val) :
    (iblk3 V c 1 t : Vec F S1x5000x1 .f32) y = (V c main_v166 : S3x100000x1.Idx → Elt F .f32) i := by
  obtain ⟨-, -, -, e0, e1, e2, -⟩ := idx3 t
  have hy : (y 0).val = 0 := by have hlt : (y 0).val < 1 := (y 0).isLt; omega
  have hy2 : (y 2).val = 0 := by have hlt : (y 2).val < 1 := (y 2).isLt; omega
  have hi2 : (i 2).val = 0 := by have hlt : (i 2).val < 1 := (i 2).isLt; omega
  unfold iblk3
  rw [View.read_apply]
  show V c main_v166 _ = V c main_v166 _
  congr 1
  funext a
  apply Fin.ext
  match a with
  | ⟨0, _⟩ => show win3_1.index t 0 * 1 + 1 * (y 0).val = (i 0).val; omega
  | ⟨1, _⟩ => show win3_1.index t 1 * 5000 + 1 * (y 1).val = (i 1).val; omega
  | ⟨2, _⟩ => show win3_1.index t 2 * 1 + 1 * (y 2).val = (i 2).val; omega

/-- The weight block at point `t`: relation `t % 3`'s matrix. -/
theorem iblk3_2_apply (c : Dev nD) (t : Fin cfg3.N) (y : S1x128x128.Idx) (i : S3x128x128.Idx)
    (h0 : (i 0).val = t.val % 3) (h1 : (i 1).val = (y 1).val) (h2 : (i 2).val = (y 2).val) :
    (iblk3 V c 2 t : Vec F S1x128x128 .f32) y = (V c main_v164 : S3x128x128.Idx → Elt F .f32) i := by
  obtain ⟨-, -, -, -, -, -, e0, e1, e2, -⟩ := idx3 t
  have hy : (y 0).val = 0 := by have hlt : (y 0).val < 1 := (y 0).isLt; omega
  unfold iblk3
  rw [View.read_apply]
  show V c main_v164 _ = V c main_v164 _
  congr 1
  funext a
  apply Fin.ext
  match a with
  | ⟨0, _⟩ => show win3_2.index t 0 * 1 + 1 * (y 0).val = (i 0).val; omega
  | ⟨1, _⟩ => show win3_2.index t 1 * 128 + 1 * (y 1).val = (i 1).val; omega
  | ⟨2, _⟩ => show win3_2.index t 2 * 128 + 1 * (y 2).val = (i 2).val; omega

/-- The bias block at point `t`: relation `t % 3`'s row. -/
theorem iblk3_3_apply (c : Dev nD) (t : Fin cfg3.N) (y : S1x1x128.Idx) (i : S3x1x128.Idx)
    (h0 : (i 0).val = t.val % 3) (h2 : (i 2).val = (y 2).val) :
    (iblk3 V c 3 t : Vec F S1x1x128 .f32) y = (V c main_v167 : S3x1x128.Idx → Elt F .f32) i := by
  obtain ⟨-, -, -, -, -, -, -, -, -, e0, e1, e2, -⟩ := idx3 t
  have hy : (y 0).val = 0 := by have hlt : (y 0).val < 1 := (y 0).isLt; omega
  have hy1 : (y 1).val = 0 := by have hlt : (y 1).val < 1 := (y 1).isLt; omega
  have hi1 : (i 1).val = 0 := by have hlt : (i 1).val < 1 := (i 1).isLt; omega
  unfold iblk3
  rw [View.read_apply]
  show V c main_v167 _ = V c main_v167 _
  congr 1
  funext a
  apply Fin.ext
  match a with
  | ⟨0, _⟩ => show win3_3.index t 0 * 1 + 1 * (y 0).val = (i 0).val; omega
  | ⟨1, _⟩ => show win3_3.index t 1 * 1 + 1 * (y 1).val = (i 1).val; omega
  | ⟨2, _⟩ => show win3_3.index t 2 * 128 + 1 * (y 2).val = (i 2).val; omega

/-- An index of the output array is in point `t`'s block iff each coordinate is in the block's range on its axis. -/
theorem mem_blk3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v168).slice (win3_4.rect t)).set ↔ _
  rw [View.set_slice_whole, Rect.mem_set_unit]
  exact Iff.rfl

/-- Every index of the output array is in some write-back point's block: row `r` in that of point `3·(r / 5000) + 2`. -/
theorem cover3 (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 60 := N_3
  let t : Fin cfg3.N := ⟨3 * ((i 0).val / 5000) + 2, by rw [hN]; omega⟩
  have htv : t.val = 3 * ((i 0).val / 5000) + 2 := rfl
  obtain ⟨-, -, -, -, -, -, -, -, -, -, -, -, e0, e1⟩ := idx3 t
  refine ⟨t, (flush3_4 t).mpr (by rw [htv]; omega), ?_⟩
  rw [mem_blk3]
  intro a
  match a with
  | ⟨0, _⟩ => show win3_4.index t 0 * 5000 ≤ (i 0).val ∧ (i 0).val < win3_4.index t 0 * 5000 + 5000; omega
  | ⟨1, _⟩ => show win3_4.index t 1 * 128 ≤ (i 1).val ∧ (i 1).val < win3_4.index t 1 * 128 + 128; omega

/-- The array index of a block coordinate of the output window at point `t`: row `5000·(t/3) + p`, column `q`. -/
theorem emb3_4 (t : Fin cfg3.N) (p : Fin 5000) (q : Fin 128) (r : Fin 100000) (hr : r.val = 5000 * (t.val / 3) + p.val) :
    ((cfg3.win 4).blk t).view.emb (ix2 p q : S5000x128.Idx) = (ix2 r q : S100000x128.Idx) := by
  obtain ⟨-, -, -, -, -, -, -, -, -, -, -, -, e0, e1⟩ := idx3 t
  funext a
  apply Fin.ext
  match a with
  | ⟨0, _⟩ => show win3_4.index t 0 * 5000 + 1 * p.val = r.val; omega
  | ⟨1, _⟩ => show win3_4.index t 1 * 128 + 1 * q.val = q.val; omega

end Cert.KernelIdeal.Hand

end
-- ==== Proof.KI.Reg3Ideal.lean ====
import proofs.«166004_j3839700763193_1_alg».proof.Proof.KI.Reg3
import proofs.«166004_j3839700763193_1_alg».proof.Proof.KI.Reg3Final

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! # Region 3 at the exact reals: the output array as one function of the arrays the region finds -/

/-- The arrays the region reads, as it finds them: the aggregated features, the degree scalings, the weights, the biases
    (each stacked over the three relations), -/
abbrev xin3_0 (c : Dev nD) : S3x100000x128.Idx → EReal := V c main_v159
abbrev xin3_1 (c : Dev nD) : S3x100000x1.Idx → EReal := V c main_v166
abbrev xin3_2 (c : Dev nD) : S3x128x128.Idx → EReal := V c main_v164
abbrev xin3_3 (c : Dev nD) : S3x1x128.Idx → EReal := V c main_v167
/-- and the output array after the region. -/
abbrev yout3 (c : Dev nD) : S100000x128.Idx → EReal := (dat3 V c).arrAt 4 cfg3.N

/-- Relation `j`'s contribution to output row `r`, column `q`: the scaled aggregated row times the weight column, plus the bias. -/
def C3 (c : Dev nD) (j : Fin 3) (r : Fin 100000) (q : Fin 128) : EReal :=
  (∑ k : Fin 128, (xin3_0 V c (ix3 j r k) * xin3_1 V c (ix3 j r 0)) * xin3_2 V c (ix3 j k q)) + xin3_3 V c (ix3 j 0 q)

/-- What the output array ends holding: the three relations' contributions added in order to zero, then the maximum with zero. -/
def G3 (c : Dev nD) : S100000x128.Idx → EReal := fun i =>
  max (((0 + C3 V c 0 (i 0) (i 1)) + C3 V c 1 (i 0) (i 1)) + C3 V c 2 (i 0) (i 1)) 0

/-- One reduction step read at an index: the accumulator there plus the point's relation's contribution. -/
theorem step3_apply (hpay2 : ∀ (x3 : Vec Ideal S1x5000x128 .f32) (x5 : Vec Ideal S1x5000x1 .f32) (w10 : Vec Ideal S1x128x128 .f32) (acc : Vec Ideal S5000x128 .f32) (b15 : Vec Ideal S1x1x128 .f32) (p : Fin 5000) (q : Fin 128),
      k3_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (c : Dev nD) (t : Fin cfg3.N) (a : Vec Ideal S5000x128 .f32) (p : Fin 5000) (q : Fin 128) (j : Fin 3) (r : Fin 100000)
    (hj : j.val = t.val % 3) (hr : r.val = 5000 * (t.val / 3) + p.val) :
    step3 V c t a (ix2 p q) = a (ix2 p q) + C3 V c j r q := by
  unfold step3
  rw [hpay2]
  unfold C3
  refine congrArg (a (ix2 p q) + ·) ?_
  refine congrArg₂ (· + ·) (Finset.sum_congr rfl fun k _ => ?_) (iblk3_3_apply V c t (ix3 (0 : Fin 1) (0 : Fin 1) q) (ix3 j 0 q) hj rfl)
  exact congrArg₂ (· * ·) (congrArg₂ (· * ·) (iblk3_0_apply V c t (ix3 (0 : Fin 1) p k) (ix3 j r k) hj hr rfl)
    (iblk3_1_apply V c t (ix3 (0 : Fin 1) p (0 : Fin 1)) (ix3 j r 0) hj hr)) (iblk3_2_apply V c t (ix3 (0 : Fin 1) k q) (ix3 j k q) hj rfl rfl)

/-- The output block of a write-back point `t = 3·n + 2` at block coordinate `(p, q)` is `G3` at row `5000·n + p`. -/
theorem out3_apply (hpay1 : ∀ (p : Fin 5000) (q : Fin 128), k3_pay1 (F := Ideal) (ix2 p q) = 0)
    (hpay2 : ∀ (x3 : Vec Ideal S1x5000x128 .f32) (x5 : Vec Ideal S1x5000x1 .f32) (w10 : Vec Ideal S1x128x128 .f32) (acc : Vec Ideal S5000x128 .f32) (b15 : Vec Ideal S1x1x128 .f32) (p : Fin 5000) (q : Fin 128),
      k3_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (hpay3 : ∀ (v : Vec Ideal S5000x128 .f32) (p : Fin 5000) (q : Fin 128), k3_pay3 (F := Ideal) v (ix2 p q) = max (v (ix2 p q)) 0)
    (c : Dev nD) (t : Fin cfg3.N) (h2 : t.val % 3 = 2) (p : Fin 5000) (q : Fin 128) (r : Fin 100000) (hr : r.val = 5000 * (t.val / 3) + p.val) :
    k3_pay3 (step3 V c t (step3 V c ⟨t.val - 1, by omega⟩ (step3 V c ⟨t.val - 2, by omega⟩ (k3_pay1 (F := Ideal))))) (ix2 p q) = G3 V c (ix2 r q) := by
  have hN : t.val < 60 := lt_of_lt_of_eq t.isLt (show cfg3.N = 60 from N_3)
  rw [hpay3]
  rw [step3_apply V hpay2 c t _ p q (2 : Fin 3) r (by show 2 = t.val % 3; omega) hr,
    step3_apply V hpay2 c ⟨t.val - 1, by omega⟩ _ p q (1 : Fin 3) r (by show 1 = (t.val - 1) % 3; omega) (by show r.val = 5000 * ((t.val - 1) / 3) + p.val; omega),
    step3_apply V hpay2 c ⟨t.val - 2, by omega⟩ _ p q (0 : Fin 3) r (by show 0 = (t.val - 2) % 3; omega) (by show r.val = 5000 * ((t.val - 2) / 3) + p.val; omega),
    hpay1]
  rfl

/-- WHAT A WRITE-BACK POINT WRITES is its block of `G3`. -/
theorem flushed3_eq (hpay1 : ∀ (p : Fin 5000) (q : Fin 128), k3_pay1 (F := Ideal) (ix2 p q) = 0)
    (hpay2 : ∀ (x3 : Vec Ideal S1x5000x128 .f32) (x5 : Vec Ideal S1x5000x1 .f32) (w10 : Vec Ideal S1x128x128 .f32) (acc : Vec Ideal S5000x128 .f32) (b15 : Vec Ideal S1x1x128 .f32) (p : Fin 5000) (q : Fin 128),
      k3_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (hpay3 : ∀ (v : Vec Ideal S5000x128 .f32) (p : Fin 5000) (q : Fin 128), k3_pay3 (F := Ideal) v (ix2 p q) = max (v (ix2 p q)) 0)
    (c : Dev nD) (t : Fin cfg3.N) (hf : (cfg3.win 4).flush t = true) :
    (dat3 V c).flushed 4 t = ((cfg3.win 4).blk t).view.read (Elt Ideal) (G3 V c) := by
  have h2 : t.val % 3 = 2 := (flush3_4 t).mp hf
  have hN : t.val < 60 := lt_of_lt_of_eq t.isLt (show cfg3.N = 60 from N_3)
  show (cfg3.win 4).cut (grid3.coords t) ((dat3 V c).after 4 t) = _
  have hA := after3_4_flush V c t h2
  generalize (dat3 V c).after 4 t = A at hA ⊢
  generalize hG : G3 V c = G
  funext y
  obtain ⟨p, q, rfl⟩ : ∃ (p : Fin 5000) (q : Fin 128), y = (ix2 p q : S5000x128.Idx) := ⟨y 0, y 1, eq_ix2 y⟩
  show A (ix2 p q) = G (((cfg3.win 4).blk t).view.emb (ix2 p q : S5000x128.Idx))
  have hp : p.val < 5000 := p.isLt
  rw [emb3_4 t p q ⟨5000 * (t.val / 3) + p.val, by omega⟩ rfl, hA]
  exact (out3_apply V hpay1 hpay2 hpay3 c t h2 p q ⟨5000 * (t.val / 3) + p.val, by omega⟩ rfl).trans (congrFun hG _)

/-- THE OUTPUT ARRAY after the region is `G3` of the arrays the region found. -/
theorem final3_arr (hpay1 : ∀ (p : Fin 5000) (q : Fin 128), k3_pay1 (F := Ideal) (ix2 p q) = 0)
    (hpay2 : ∀ (x3 : Vec Ideal S1x5000x128 .f32) (x5 : Vec Ideal S1x5000x1 .f32) (w10 : Vec Ideal S1x128x128 .f32) (acc : Vec Ideal S5000x128 .f32) (b15 : Vec Ideal S1x1x128 .f32) (p : Fin 5000) (q : Fin 128),
      k3_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (hpay3 : ∀ (v : Vec Ideal S5000x128 .f32) (p : Fin 5000) (q : Fin 128), k3_pay3 (F := Ideal) v (ix2 p q) = max (v (ix2 p q)) 0)
    (c : Dev nD) : yout3 V c = G3 V c :=
  (dat3 V c).arrAt_eq_of_cover 4 (G3 V c) (flushed3_eq V hpay1 hpay2 hpay3 c) cover3

/-- The same at an index: row `r`, column `q` of the output is the three relations' contributions added in order to
    zero, then the maximum with zero. -/
theorem final3_C (hpay1 : ∀ (p : Fin 5000) (q : Fin 128), k3_pay1 (F := Ideal) (ix2 p q) = 0)
    (hpay2 : ∀ (x3 : Vec Ideal S1x5000x128 .f32) (x5 : Vec Ideal S1x5000x1 .f32) (w10 : Vec Ideal S1x128x128 .f32) (acc : Vec Ideal S5000x128 .f32) (b15 : Vec Ideal S1x1x128 .f32) (p : Fin 5000) (q : Fin 128),
      k3_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (hpay3 : ∀ (v : Vec Ideal S5000x128 .f32) (p : Fin 5000) (q : Fin 128), k3_pay3 (F := Ideal) v (ix2 p q) = max (v (ix2 p q)) 0)
    (c : Dev nD) (r : Fin 100000) (q : Fin 128) :
    yout3 V c (ix2 r q) = max (((0 + C3 V c 0 r q) + C3 V c 1 r q) + C3 V c 2 r q) 0 := by
  rw [final3_arr V hpay1 hpay2 hpay3 c]
  rfl

/-- The same with the contributions written out over the four arrays: relation `j`'s is the sum over `k` of
    `(x0[j, r, k] · x1[j, r, 0]) · x2[j, k, q]`, plus `x3[j, 0, q]`. -/
theorem final3_of (hpay1 : ∀ (p : Fin 5000) (q : Fin 128), k3_pay1 (F := Ideal) (ix2 p q) = 0)
    (hpay2 : ∀ (x3 : Vec Ideal S1x5000x128 .f32) (x5 : Vec Ideal S1x5000x1 .f32) (w10 : Vec Ideal S1x128x128 .f32) (acc : Vec Ideal S5000x128 .f32) (b15 : Vec Ideal S1x1x128 .f32) (p : Fin 5000) (q : Fin 128),
      k3_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (hpay3 : ∀ (v : Vec Ideal S5000x128 .f32) (p : Fin 5000) (q : Fin 128), k3_pay3 (F := Ideal) v (ix2 p q) = max (v (ix2 p q)) 0)
    (c : Dev nD) (r : Fin 100000) (q : Fin 128) :
    yout3 V c (ix2 r q)
      = max (((0 + ((∑ k : Fin 128, (xin3_0 V c (ix3 (0 : Fin 3) r k) * xin3_1 V c (ix3 (0 : Fin 3) r (0 : Fin 1))) * xin3_2 V c (ix3 (0 : Fin 3) k q)) + xin3_3 V c (ix3 (0 : Fin 3) (0 : Fin 1) q))) + ((∑ k : Fin 128, (xin3_0 V c (ix3 (1 : Fin 3) r k) * xin3_1 V c (ix3 (1 : Fin 3) r (0 : Fin 1))) * xin3_2 V c (ix3 (1 : Fin 3) k q)) + xin3_3 V c (ix3 (1 : Fin 3) (0 : Fin 1) q))) + ((∑ k : Fin 128, (xin3_0 V c (ix3 (2 : Fin 3) r k) * xin3_1 V c (ix3 (2 : Fin 3) r (0 : Fin 1))) * xin3_2 V c (ix3 (2 : Fin 3) k q)) + xin3_3 V c (ix3 (2 : Fin 3) (0 : Fin 1) q))) 0 :=
  final3_C V hpay1 hpay2 hpay3 c r q

end Cert.KernelIdeal.Hand

end
-- ==== Proof.KI.Reg5Final.lean ====
import proofs.«166004_j3839700763193_1_alg».proof.Proof.KI.Reg5Runs
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: from the blocks written back to the whole output array (at the exact reals)

Row block `n` of the output is written back at point `3·n + 2`; row `r` lies in block `r / 5000`. -/

/-- The printed index maps over the grid: at point `t = 3·n + j` the aggregated features and the degree scalings are at
    block `(j, n, 0)`, the weights and the bias at block `(j, 0, 0)`, the output at block `(n, 0)`. -/
theorem idx5 : ∀ t : Fin cfg5.N,
    win5_0.index t (0 : Fin 3) = t.val % 3 ∧ win5_0.index t (1 : Fin 3) = t.val / 3 ∧ win5_0.index t (2 : Fin 3) = 0
    ∧ win5_1.index t (0 : Fin 3) = t.val % 3 ∧ win5_1.index t (1 : Fin 3) = t.val / 3 ∧ win5_1.index t (2 : Fin 3) = 0
    ∧ win5_2.index t (0 : Fin 3) = t.val % 3 ∧ win5_2.index t (1 : Fin 3) = 0 ∧ win5_2.index t (2 : Fin 3) = 0
    ∧ win5_3.index t (0 : Fin 3) = t.val % 3 ∧ win5_3.index t (1 : Fin 3) = 0 ∧ win5_3.index t (2 : Fin 3) = 0
    ∧ win5_4.index t (0 : Fin 2) = t.val / 3 ∧ win5_4.index t (1 : Fin 2) = 0 :=
  (by decide +kernel : ∀ t : Fin grid5.N, _)

/-- The aggregated-features block at point `t` is rows `5000·(t/3) …` of relation `t % 3`. -/
theorem iblk5_0_apply (c : Dev nD) (t : Fin cfg5.N) (y : S1x5000x128.Idx) (i : S3x100000x128.Idx)
    (h0 : (i 0).val = t.val % 3) (h1 : (i 1).val = 5000 * (t.val / 3) + (y 1).val) (h2 : (i 2).val = (y 2).val) :
    (iblk5 V c 0 t : Vec F S1x5000x128 .f32) y = (V c main_v231 : S3x100000x128.Idx → Elt F .f32) i := by
  obtain ⟨e0, e1, e2, -⟩ := idx5 t
  have hy : (y 0).val = 0 := by have hlt : (y 0).val < 1 := (y 0).isLt; omega
  unfold iblk5
  rw [View.read_apply]
  show V c main_v231 _ = V c main_v231 _
  congr 1
  funext a
  apply Fin.ext
  match a with
  | ⟨0, _⟩ => show win5_0.index t 0 * 1 + 1 * (y 0).val = (i 0).val; omega
  | ⟨1, _⟩ => show win5_0.index t 1 * 5000 + 1 * (y 1).val = (i 1).val; omega
  | ⟨2, _⟩ => show win5_0.index t 2 * 128 + 1 * (y 2).val = (i 2).val; omega

/-- The degree-scaling block at point `t`. -/
theorem iblk5_1_apply (c : Dev nD) (t : Fin cfg5.N) (y : S1x5000x1.Idx) (i : S3x100000x1.Idx)
    (h0 : (i 0).val = t.val % 3) (h1 : (i 1).val = 5000 * (t.val / 3) + (y 1).val) :
    (iblk5 V c 1 t : Vec F S1x5000x1 .f32) y = (V c main_v238 : S3x100000x1.Idx → Elt F .f32) i := by
  obtain ⟨-, -, -, e0, e1, e2, -⟩ := idx5 t
  have hy : (y 0).val = 0 := by have hlt : (y 0).val < 1 := (y 0).isLt; omega
  have hy2 : (y 2).val = 0 := by have hlt : (y 2).val < 1 := (y 2).isLt; omega
  have hi2 : (i 2).val = 0 := by have hlt : (i 2).val < 1 := (i 2).isLt; omega
  unfold iblk5
  rw [View.read_apply]
  show V c main_v238 _ = V c main_v238 _
  congr 1
  funext a
  apply Fin.ext
  match a with
  | ⟨0, _⟩ => show win5_1.index t 0 * 1 + 1 * (y 0).val = (i 0).val; omega
  | ⟨1, _⟩ => show win5_1.index t 1 * 5000 + 1 * (y 1).val = (i 1).val; omega
  | ⟨2, _⟩ => show win5_1.index t 2 * 1 + 1 * (y 2).val = (i 2).val; omega

/-- The weight block at point `t`: relation `t % 3`'s matrix. -/
theorem iblk5_2_apply (c : Dev nD) (t : Fin cfg5.N) (y : S1x128x64.Idx) (i : S3x128x64.Idx)
    (h0 : (i 0).val = t.val % 3) (h1 : (i 1).val = (y 1).val) (h2 : (i 2).val = (y 2).val) :
    (iblk5 V c 2 t : Vec F S1x128x64 .f32) y = (V c main_v236 : S3x128x64.Idx → Elt F .f32) i := by
  obtain ⟨-, -, -, -, -, -, e0, e1, e2, -⟩ := idx5 t
  have hy : (y 0).val = 0 := by have hlt : (y 0).val < 1 := (y 0).isLt; omega
  unfold iblk5
  rw [View.read_apply]
  show V c main_v236 _ = V c main_v236 _
  congr 1
  funext a
  apply Fin.ext
  match a with
  | ⟨0, _⟩ => show win5_2.index t 0 * 1 + 1 * (y 0).val = (i 0).val; omega
  | ⟨1, _⟩ => show win5_2.index t 1 * 128 + 1 * (y 1).val = (i 1).val; omega
  | ⟨2, _⟩ => show win5_2.index t 2 * 64 + 1 * (y 2).val = (i 2).val; omega

/-- The bias block at point `t`: relation `t % 3`'s row. -/
theorem iblk5_3_apply (c : Dev nD) (t : Fin cfg5.N) (y : S1x1x64.Idx) (i : S3x1x64.Idx)
    (h0 : (i 0).val = t.val % 3) (h2 : (i 2).val = (y 2).val) :
    (iblk5 V c 3 t : Vec F S1x1x64 .f32) y = (V c main_v239 : S3x1x64.Idx → Elt F .f32) i := by
  obtain ⟨-, -, -, -, -, -, -, -, -, e0, e1, e2, -⟩ := idx5 t
  have hy : (y 0).val = 0 := by have hlt : (y 0).val < 1 := (y 0).isLt; omega
  have hy1 : (y 1).val = 0 := by have hlt : (y 1).val < 1 := (y 1).isLt; omega
  have hi1 : (i 1).val = 0 := by have hlt : (i 1).val < 1 := (i 1).isLt; omega
  unfold iblk5
  rw [View.read_apply]
  show V c main_v239 _ = V c main_v239 _
  congr 1
  funext a
  apply Fin.ext
  match a with
  | ⟨0, _⟩ => show win5_3.index t 0 * 1 + 1 * (y 0).val = (i 0).val; omega
  | ⟨1, _⟩ => show win5_3.index t 1 * 1 + 1 * (y 1).val = (i 1).val; omega
  | ⟨2, _⟩ => show win5_3.index t 2 * 64 + 1 * (y 2).val = (i 2).val; omega

/-- An index of the output array is in point `t`'s block iff each coordinate is in the block's range on its axis. -/
theorem mem_blk5 (t : Fin cfg5.N) (i : S100000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v240).slice (win5_4.rect t)).set ↔ _
  rw [View.set_slice_whole, Rect.mem_set_unit]
  exact Iff.rfl

/-- Every index of the output array is in some write-back point's block: row `r` in that of point `3·(r / 5000) + 2`. -/
theorem cover5 (i : S100000x64.Idx) : ∃ t : Fin cfg5.N, (cfg5.win 4).flush t = true ∧ i ∈ ((cfg5.win 4).blk t).view.set := by
  have hi0 : (i 0).val < 100000 := (i 0).isLt
  have hi1 : (i 1).val < 64 := (i 1).isLt
  have hN : cfg5.N = 60 := N_5
  let t : Fin cfg5.N := ⟨3 * ((i 0).val / 5000) + 2, by rw [hN]; omega⟩
  have htv : t.val = 3 * ((i 0).val / 5000) + 2 := rfl
  obtain ⟨-, -, -, -, -, -, -, -, -, -, -, -, e0, e1⟩ := idx5 t
  refine ⟨t, (flush5_4 t).mpr (by rw [htv]; omega), ?_⟩
  rw [mem_blk5]
  intro a
  match a with
  | ⟨0, _⟩ => show win5_4.index t 0 * 5000 ≤ (i 0).val ∧ (i 0).val < win5_4.index t 0 * 5000 + 5000; omega
  | ⟨1, _⟩ => show win5_4.index t 1 * 64 ≤ (i 1).val ∧ (i 1).val < win5_4.index t 1 * 64 + 64; omega

/-- The array index of a block coordinate of the output window at point `t`: row `5000·(t/3) + p`, column `q`. -/
theorem emb5_4 (t : Fin cfg5.N) (p : Fin 5000) (q : Fin 64) (r : Fin 100000) (hr : r.val = 5000 * (t.val / 3) + p.val) :
    ((cfg5.win 4).blk t).view.emb (ix2 p q : S5000x64.Idx) = (ix2 r q : S100000x64.Idx) := by
  obtain ⟨-, -, -, -, -, -, -, -, -, -, -, -, e0, e1⟩ := idx5 t
  funext a
  apply Fin.ext
  match a with
  | ⟨0, _⟩ => show win5_4.index t 0 * 5000 + 1 * p.val = r.val; omega
  | ⟨1, _⟩ => show win5_4.index t 1 * 64 + 1 * q.val = q.val; omega

end Cert.KernelIdeal.Hand

end
-- ==== Proof.KI.Reg5Ideal.lean ====
import proofs.«166004_j3839700763193_1_alg».proof.Proof.KI.Reg5
import proofs.«166004_j3839700763193_1_alg».proof.Proof.KI.Reg5Final

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! # Region 5 at the exact reals: the output array as one function of the arrays the region finds -/

/-- The arrays the region reads, as it finds them: the aggregated features, the degree scalings, the weights, the biases
    (each stacked over the three relations), -/
abbrev xin5_0 (c : Dev nD) : S3x100000x128.Idx → EReal := V c main_v231
abbrev xin5_1 (c : Dev nD) : S3x100000x1.Idx → EReal := V c main_v238
abbrev xin5_2 (c : Dev nD) : S3x128x64.Idx → EReal := V c main_v236
abbrev xin5_3 (c : Dev nD) : S3x1x64.Idx → EReal := V c main_v239
/-- and the output array after the region. -/
abbrev yout5 (c : Dev nD) : S100000x64.Idx → EReal := (dat5 V c).arrAt 4 cfg5.N

/-- Relation `j`'s contribution to output row `r`, column `q`: the scaled aggregated row times the weight column, plus the bias. -/
def C5 (c : Dev nD) (j : Fin 3) (r : Fin 100000) (q : Fin 64) : EReal :=
  (∑ k : Fin 128, (xin5_0 V c (ix3 j r k) * xin5_1 V c (ix3 j r 0)) * xin5_2 V c (ix3 j k q)) + xin5_3 V c (ix3 j 0 q)

/-- What the output array ends holding: the three relations' contributions added in order to zero. -/
def G5 (c : Dev nD) : S100000x64.Idx → EReal := fun i =>
  ((0 + C5 V c 0 (i 0) (i 1)) + C5 V c 1 (i 0) (i 1)) + C5 V c 2 (i 0) (i 1)

/-- One reduction step read at an index: the accumulator there plus the point's relation's contribution. -/
theorem step5_apply (hpay2 : ∀ (x3 : Vec Ideal S1x5000x128 .f32) (x5 : Vec Ideal S1x5000x1 .f32) (w10 : Vec Ideal S1x128x64 .f32) (acc : Vec Ideal S5000x64 .f32) (b15 : Vec Ideal S1x1x64 .f32) (p : Fin 5000) (q : Fin 64),
      k5_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (c : Dev nD) (t : Fin cfg5.N) (a : Vec Ideal S5000x64 .f32) (p : Fin 5000) (q : Fin 64) (j : Fin 3) (r : Fin 100000)
    (hj : j.val = t.val % 3) (hr : r.val = 5000 * (t.val / 3) + p.val) :
    step5 V c t a (ix2 p q) = a (ix2 p q) + C5 V c j r q := by
  unfold step5
  rw [hpay2]
  unfold C5
  refine congrArg (a (ix2 p q) + ·) ?_
  refine congrArg₂ (· + ·) (Finset.sum_congr rfl fun k _ => ?_) (iblk5_3_apply V c t (ix3 (0 : Fin 1) (0 : Fin 1) q) (ix3 j 0 q) hj rfl)
  exact congrArg₂ (· * ·) (congrArg₂ (· * ·) (iblk5_0_apply V c t (ix3 (0 : Fin 1) p k) (ix3 j r k) hj hr rfl)
    (iblk5_1_apply V c t (ix3 (0 : Fin 1) p (0 : Fin 1)) (ix3 j r 0) hj hr)) (iblk5_2_apply V c t (ix3 (0 : Fin 1) k q) (ix3 j k q) hj rfl rfl)

/-- The output block of a write-back point `t = 3·n + 2` at block coordinate `(p, q)` is `G5` at row `5000·n + p`. -/
theorem out5_apply (hpay1 : ∀ (p : Fin 5000) (q : Fin 64), k5_pay1 (F := Ideal) (ix2 p q) = 0)
    (hpay2 : ∀ (x3 : Vec Ideal S1x5000x128 .f32) (x5 : Vec Ideal S1x5000x1 .f32) (w10 : Vec Ideal S1x128x64 .f32) (acc : Vec Ideal S5000x64 .f32) (b15 : Vec Ideal S1x1x64 .f32) (p : Fin 5000) (q : Fin 64),
      k5_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (c : Dev nD) (t : Fin cfg5.N) (h2 : t.val % 3 = 2) (p : Fin 5000) (q : Fin 64) (r : Fin 100000) (hr : r.val = 5000 * (t.val / 3) + p.val) :
    (step5 V c t (step5 V c ⟨t.val - 1, by omega⟩ (step5 V c ⟨t.val - 2, by omega⟩ (k5_pay1 (F := Ideal))))) (ix2 p q) = G5 V c (ix2 r q) := by
  have hN : t.val < 60 := lt_of_lt_of_eq t.isLt (show cfg5.N = 60 from N_5)
  rw [step5_apply V hpay2 c t _ p q (2 : Fin 3) r (by show 2 = t.val % 3; omega) hr,
    step5_apply V hpay2 c ⟨t.val - 1, by omega⟩ _ p q (1 : Fin 3) r (by show 1 = (t.val - 1) % 3; omega) (by show r.val = 5000 * ((t.val - 1) / 3) + p.val; omega),
    step5_apply V hpay2 c ⟨t.val - 2, by omega⟩ _ p q (0 : Fin 3) r (by show 0 = (t.val - 2) % 3; omega) (by show r.val = 5000 * ((t.val - 2) / 3) + p.val; omega),
    hpay1]
  rfl

/-- WHAT A WRITE-BACK POINT WRITES is its block of `G5`. -/
theorem flushed5_eq (hpay1 : ∀ (p : Fin 5000) (q : Fin 64), k5_pay1 (F := Ideal) (ix2 p q) = 0)
    (hpay2 : ∀ (x3 : Vec Ideal S1x5000x128 .f32) (x5 : Vec Ideal S1x5000x1 .f32) (w10 : Vec Ideal S1x128x64 .f32) (acc : Vec Ideal S5000x64 .f32) (b15 : Vec Ideal S1x1x64 .f32) (p : Fin 5000) (q : Fin 64),
      k5_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (c : Dev nD) (t : Fin cfg5.N) (hf : (cfg5.win 4).flush t = true) :
    (dat5 V c).flushed 4 t = ((cfg5.win 4).blk t).view.read (Elt Ideal) (G5 V c) := by
  have h2 : t.val % 3 = 2 := (flush5_4 t).mp hf
  have hN : t.val < 60 := lt_of_lt_of_eq t.isLt (show cfg5.N = 60 from N_5)
  show (cfg5.win 4).cut (grid5.coords t) ((dat5 V c).after 4 t) = _
  have hA := after5_4_flush V c t h2
  generalize (dat5 V c).after 4 t = A at hA ⊢
  generalize hG : G5 V c = G
  funext y
  obtain ⟨p, q, rfl⟩ : ∃ (p : Fin 5000) (q : Fin 64), y = (ix2 p q : S5000x64.Idx) := ⟨y 0, y 1, eq_ix2 y⟩
  show A (ix2 p q) = G (((cfg5.win 4).blk t).view.emb (ix2 p q : S5000x64.Idx))
  have hp : p.val < 5000 := p.isLt
  rw [emb5_4 t p q ⟨5000 * (t.val / 3) + p.val, by omega⟩ rfl, hA]
  exact (out5_apply V hpay1 hpay2 c t h2 p q ⟨5000 * (t.val / 3) + p.val, by omega⟩ rfl).trans (congrFun hG _)

/-- THE OUTPUT ARRAY after the region is `G5` of the arrays the region found. -/
theorem final5_arr (hpay1 : ∀ (p : Fin 5000) (q : Fin 64), k5_pay1 (F := Ideal) (ix2 p q) = 0)
    (hpay2 : ∀ (x3 : Vec Ideal S1x5000x128 .f32) (x5 : Vec Ideal S1x5000x1 .f32) (w10 : Vec Ideal S1x128x64 .f32) (acc : Vec Ideal S5000x64 .f32) (b15 : Vec Ideal S1x1x64 .f32) (p : Fin 5000) (q : Fin 64),
      k5_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (c : Dev nD) : yout5 V c = G5 V c :=
  (dat5 V c).arrAt_eq_of_cover 4 (G5 V c) (flushed5_eq V hpay1 hpay2 c) cover5

/-- The same at an index: row `r`, column `q` of the output is the three relations' contributions added in order to
    zero. -/
theorem final5_C (hpay1 : ∀ (p : Fin 5000) (q : Fin 64), k5_pay1 (F := Ideal) (ix2 p q) = 0)
    (hpay2 : ∀ (x3 : Vec Ideal S1x5000x128 .f32) (x5 : Vec Ideal S1x5000x1 .f32) (w10 : Vec Ideal S1x128x64 .f32) (acc : Vec Ideal S5000x64 .f32) (b15 : Vec Ideal S1x1x64 .f32) (p : Fin 5000) (q : Fin 64),
      k5_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (c : Dev nD) (r : Fin 100000) (q : Fin 64) :
    yout5 V c (ix2 r q) = ((0 + C5 V c 0 r q) + C5 V c 1 r q) + C5 V c 2 r q := by
  rw [final5_arr V hpay1 hpay2 c]
  rfl

/-- The same with the contributions written out over the four arrays: relation `j`'s is the sum over `k` of
    `(x0[j, r, k] · x1[j, r, 0]) · x2[j, k, q]`, plus `x3[j, 0, q]`. -/
theorem final5_of (hpay1 : ∀ (p : Fin 5000) (q : Fin 64), k5_pay1 (F := Ideal) (ix2 p q) = 0)
    (hpay2 : ∀ (x3 : Vec Ideal S1x5000x128 .f32) (x5 : Vec Ideal S1x5000x1 .f32) (w10 : Vec Ideal S1x128x64 .f32) (acc : Vec Ideal S5000x64 .f32) (b15 : Vec Ideal S1x1x64 .f32) (p : Fin 5000) (q : Fin 64),
      k5_pay2 (F := Ideal) x3 x5 w10 acc b15 (ix2 p q) = acc (ix2 p q) + ((∑ k : Fin 128, (x3 (ix3 (0 : Fin 1) p k) * x5 (ix3 (0 : Fin 1) p (0 : Fin 1))) * w10 (ix3 (0 : Fin 1) k q)) + b15 (ix3 (0 : Fin 1) (0 : Fin 1) q)))
    (c : Dev nD) (r : Fin 100000) (q : Fin 64) :
    yout5 V c (ix2 r q)
      = ((0 + ((∑ k : Fin 128, (xin5_0 V c (ix3 (0 : Fin 3) r k) * xin5_1 V c (ix3 (0 : Fin 3) r (0 : Fin 1))) * xin5_2 V c (ix3 (0 : Fin 3) k q)) + xin5_3 V c (ix3 (0 : Fin 3) (0 : Fin 1) q))) + ((∑ k : Fin 128, (xin5_0 V c (ix3 (1 : Fin 3) r k) * xin5_1 V c (ix3 (1 : Fin 3) r (0 : Fin 1))) * xin5_2 V c (ix3 (1 : Fin 3) k q)) + xin5_3 V c (ix3 (1 : Fin 3) (0 : Fin 1) q))) + ((∑ k : Fin 128, (xin5_0 V c (ix3 (2 : Fin 3) r k) * xin5_1 V c (ix3 (2 : Fin 3) r (0 : Fin 1))) * xin5_2 V c (ix3 (2 : Fin 3) k q)) + xin5_3 V c (ix3 (2 : Fin 3) (0 : Fin 1) q)) :=
  final5_C V hpay1 hpay2 c r q

end Cert.KernelIdeal.Hand

end
-- ==== Proof.Val.Payload1.lean ====
/-
  The stores of kernel 1 read at one entry over the extended reals.

  The first store writes the zero block. The second writes, at row p and column q, the old accumulator entry plus
  (Σ_k (x[0, p, k] · s[0, p, 0]) · W[0, k, q]) + b[0, 0, q]: the row block scaled by its column of row factors, times
  the weight matrix, plus the bias row. Changing the float format is the identity on extended reals, and a product
  accumulated into the zero block is the plain sum over the contracted coordinate. The last store writes the
  maximum of the accumulator entry and 0.
-/
import proofs.«166004_j3839700763193_1_alg».proof.Proof.Gen.KernelIdeal.Skeleton
import proofs.«166004_j3839700763193_1_alg».proof.Proof.LibPlainDot
import proofs.«166004_j3839700763193_1_alg».proof.Proof.LibColumn
import Idealize.ShloMosaic.Lib.ValueLayout

noncomputable section

open scoped BigOperators

namespace Cert.Val

open Idealize.ShloMosaic Idealize.ShloMosaic.ValueIdx Cert.KernelIdeal Cert.KernelIdeal.Gen

/-- The first store's block is zero at every entry. -/
theorem k1_pay1_apply (p : Fin 5000) (q : Fin 128) : k1_pay1 (F := Ideal) (ix2 p q) = 0 := by
  unfold k1_pay1
  rw [shapeCast_apply _ _ (ix2 p q) (ix2 p q) rfl]
  exact Ideal.ofBits_zero_f32

/-- The second store's block at (p, q): the accumulator entry plus the scaled row times the weight column plus the bias. -/
theorem k1_pay2_apply (x3 : Vec Ideal S1x5000x128 .f32) (x5 : Vec Ideal S1x5000x1 .f32) (w10 : Vec Ideal S1x128x128 .f32)
    (acc : Vec Ideal S5000x128 .f32) (b15 : Vec Ideal S1x1x128 .f32) (p : Fin 5000) (q : Fin 128) :
    k1_pay2 (F := Ideal) x3 x5 w10 acc b15 (ix2 p q)
      = acc (ix2 p q) + ((∑ k : Fin 128, (x3 (ix3 (0 : Fin 1) p k) * x5 (ix3 (0 : Fin 1) p (0 : Fin 1))) * w10 (ix3 (0 : Fin 1) k q))
          + b15 (ix3 (0 : Fin 1) (0 : Fin 1) q)) := by
  unfold k1_pay2
  rw [shapeCast_apply _ _ (ix2 p q) (ix2 p q) rfl, addf_apply, addf_apply]
  simp only [matmul]
  rw [PlainDot.matmul_zero_apply _ _ rfl rfl (fun _ _ => rfl) (fun _ _ => rfl) (fun _ _ => rfl) (fun _ _ => rfl)]
  rw [broadcastTo_1b_ab_apply, shapeCast_1ab_ab_apply]
  congr 2
  refine Finset.sum_congr rfl fun k _ => ?_
  rw [truncf_apply, truncf_apply, mulf_apply, shapeCast_1ab_ab_apply, shapeCast_1ab_ab_apply,
    Cert.Column.broadcastTo_a1_ab_apply, shapeCast_1ab_ab_apply]

/-- The last store's block at (p, q): the larger of the accumulator entry and zero. -/
theorem k1_pay3_apply (v : Vec Ideal S5000x128 .f32) (p : Fin 5000) (q : Fin 128) :
    k1_pay3 (F := Ideal) v (ix2 p q) = max (v (ix2 p q)) 0 := by
  unfold k1_pay3
  rw [maximumf_apply]
  exact congrArg (max (v (ix2 p q))) Ideal.ofBits_zero_f32

end Cert.Val

end
-- ==== Proof.Val.Payload3.lean ====
/-
  The stores of kernel 3 read at one entry over the extended reals.

  The first store writes the zero block. The second writes, at row p and column q, the old accumulator entry plus
  (Σ_k (x[0, p, k] · s[0, p, 0]) · W[0, k, q]) + b[0, 0, q]: the row block scaled by its column of row factors, times
  the weight matrix, plus the bias row. Changing the float format is the identity on extended reals, and a product
  accumulated into the zero block is the plain sum over the contracted coordinate. The last store writes the
  maximum of the accumulator entry and 0.
-/
import proofs.«166004_j3839700763193_1_alg».proof.Proof.Gen.KernelIdeal.Skeleton
import proofs.«166004_j3839700763193_1_alg».proof.Proof.LibPlainDot
import proofs.«166004_j3839700763193_1_alg».proof.Proof.LibColumn
import Idealize.ShloMosaic.Lib.ValueLayout

noncomputable section

open scoped BigOperators

namespace Cert.Val

open Idealize.ShloMosaic Idealize.ShloMosaic.ValueIdx Cert.KernelIdeal Cert.KernelIdeal.Gen

/-- The first store's block is zero at every entry. -/
theorem k3_pay1_apply (p : Fin 5000) (q : Fin 128) : k3_pay1 (F := Ideal) (ix2 p q) = 0 := by
  unfold k3_pay1
  rw [shapeCast_apply _ _ (ix2 p q) (ix2 p q) rfl]
  exact Ideal.ofBits_zero_f32

/-- The second store's block at (p, q): the accumulator entry plus the scaled row times the weight column plus the bias. -/
theorem k3_pay2_apply (x3 : Vec Ideal S1x5000x128 .f32) (x5 : Vec Ideal S1x5000x1 .f32) (w10 : Vec Ideal S1x128x128 .f32)
    (acc : Vec Ideal S5000x128 .f32) (b15 : Vec Ideal S1x1x128 .f32) (p : Fin 5000) (q : Fin 128) :
    k3_pay2 (F := Ideal) x3 x5 w10 acc b15 (ix2 p q)
      = acc (ix2 p q) + ((∑ k : Fin 128, (x3 (ix3 (0 : Fin 1) p k) * x5 (ix3 (0 : Fin 1) p (0 : Fin 1))) * w10 (ix3 (0 : Fin 1) k q))
          + b15 (ix3 (0 : Fin 1) (0 : Fin 1) q)) := by
  unfold k3_pay2
  rw [shapeCast_apply _ _ (ix2 p q) (ix2 p q) rfl, addf_apply, addf_apply]
  simp only [matmul]
  rw [PlainDot.matmul_zero_apply _ _ rfl rfl (fun _ _ => rfl) (fun _ _ => rfl) (fun _ _ => rfl) (fun _ _ => rfl)]
  rw [broadcastTo_1b_ab_apply, shapeCast_1ab_ab_apply]
  congr 2
  refine Finset.sum_congr rfl fun k _ => ?_
  rw [truncf_apply, truncf_apply, mulf_apply, shapeCast_1ab_ab_apply, shapeCast_1ab_ab_apply,
    Cert.Column.broadcastTo_a1_ab_apply, shapeCast_1ab_ab_apply]

/-- The last store's block at (p, q): the larger of the accumulator entry and zero. -/
theorem k3_pay3_apply (v : Vec Ideal S5000x128 .f32) (p : Fin 5000) (q : Fin 128) :
    k3_pay3 (F := Ideal) v (ix2 p q) = max (v (ix2 p q)) 0 := by
  unfold k3_pay3
  rw [maximumf_apply]
  exact congrArg (max (v (ix2 p q))) Ideal.ofBits_zero_f32

end Cert.Val

end
-- ==== Proof.Val.Payload5.lean ====
/-
  The stores of kernel 5 read at one entry over the extended reals.

  The first store writes the zero block. The second writes, at row p and column q, the old accumulator entry plus
  (Σ_k (x[0, p, k] · s[0, p, 0]) · W[0, k, q]) + b[0, 0, q]: the row block scaled by its column of row factors, times
  the weight matrix, plus the bias row. Changing the float format is the identity on extended reals, and a product
  accumulated into the zero block is the plain sum over the contracted coordinate.
-/
import proofs.«166004_j3839700763193_1_alg».proof.Proof.Gen.KernelIdeal.Skeleton
import proofs.«166004_j3839700763193_1_alg».proof.Proof.LibPlainDot
import proofs.«166004_j3839700763193_1_alg».proof.Proof.LibColumn
import Idealize.ShloMosaic.Lib.ValueLayout

noncomputable section

open scoped BigOperators

namespace Cert.Val

open Idealize.ShloMosaic Idealize.ShloMosaic.ValueIdx Cert.KernelIdeal Cert.KernelIdeal.Gen

/-- The first store's block is zero at every entry. -/
theorem k5_pay1_apply (p : Fin 5000) (q : Fin 64) : k5_pay1 (F := Ideal) (ix2 p q) = 0 := by
  unfold k5_pay1
  rw [shapeCast_apply _ _ (ix2 p q) (ix2 p q) rfl]
  exact Ideal.ofBits_zero_f32

/-- The second store's block at (p, q): the accumulator entry plus the scaled row times the weight column plus the bias. -/
theorem k5_pay2_apply (x3 : Vec Ideal S1x5000x128 .f32) (x5 : Vec Ideal S1x5000x1 .f32) (w10 : Vec Ideal S1x128x64 .f32)
    (acc : Vec Ideal S5000x64 .f32) (b15 : Vec Ideal S1x1x64 .f32) (p : Fin 5000) (q : Fin 64) :
    k5_pay2 (F := Ideal) x3 x5 w10 acc b15 (ix2 p q)
      = acc (ix2 p q) + ((∑ k : Fin 128, (x3 (ix3 (0 : Fin 1) p k) * x5 (ix3 (0 : Fin 1) p (0 : Fin 1))) * w10 (ix3 (0 : Fin 1) k q))
          + b15 (ix3 (0 : Fin 1) (0 : Fin 1) q)) := by
  unfold k5_pay2
  rw [shapeCast_apply _ _ (ix2 p q) (ix2 p q) rfl, addf_apply, addf_apply]
  simp only [matmul]
  rw [PlainDot.matmul_zero_apply _ _ rfl rfl (fun _ _ => rfl) (fun _ _ => rfl) (fun _ _ => rfl) (fun _ _ => rfl)]
  rw [broadcastTo_1b_ab_apply, shapeCast_1ab_ab_apply]
  congr 2
  refine Finset.sum_congr rfl fun k _ => ?_
  rw [truncf_apply, truncf_apply, mulf_apply, shapeCast_1ab_ab_apply, shapeCast_1ab_ab_apply,
    Cert.Column.broadcastTo_a1_ab_apply, shapeCast_1ab_ab_apply]

end Cert.Val

end
-- ==== Proof.Host.Stretch0.lean ====
/- What the first host stretch (the four degree vectors, the first aggregation, and the
   layouts of region 0's four operands) leaves in the buffers later items read, over any contents at entry. -/
import proofs.«166004_j3839700763193_1_alg».proof.Proof.Host.Layouts
import Idealize.ShloMosaic.PureOps.Ideal

set_option maxRecDepth 16384

noncomputable section

namespace Cert.HostK

open Idealize.ShloMosaic Idealize.ShloMosaic.TcCoe
open Cert.KernelIdeal Cert.KernelIdeal.Gen

variable (W : Valuation τ sig (Elt Ideal))

/-- 1/sqrt of the clamped out-degree of relation "relate" at the drug nodes. -/
theorem s0_v6 : StableHlo.after (hostOps0 (F := Ideal)) W (Proc.devRef .tc main_v6) = invDegD (W (Proc.devRef .tc main_arg2)) := by
  dsimp only [hostOps0]; after_results_simp; rfl

/-- 1/sqrt of the clamped in-degree of relation "relate" at the side-effect nodes. -/
theorem s0_v12 : StableHlo.after (hostOps0 (F := Ideal)) W (Proc.devRef .tc main_v12) = invDegS (W (Proc.devRef .tc main_arg3)) := by
  dsimp only [hostOps0]; after_results_simp; rfl

/-- 1/sqrt of the clamped out-degree of relation "similar". -/
theorem s0_v18 : StableHlo.after (hostOps0 (F := Ideal)) W (Proc.devRef .tc main_v18) = invDegD (W (Proc.devRef .tc main_arg4)) := by
  dsimp only [hostOps0]; after_results_simp; rfl

/-- 1/sqrt of the clamped in-degree of relation "similar". -/
theorem s0_v24 : StableHlo.after (hostOps0 (F := Ideal)) W (Proc.devRef .tc main_v24) = invDegD (W (Proc.devRef .tc main_arg5)) := by
  dsimp only [hostOps0]; after_results_simp; rfl

/-- Region 0's rows: the drug embeddings aggregated along "relate". -/
theorem s0_v38 : StableHlo.after (hostOps0 (F := Ideal)) W (Proc.devRef .tc main_v38) = leadS (aggDS (W (Proc.devRef .tc main_arg0)) (W (Proc.devRef .tc main_arg2)) (W (Proc.devRef .tc main_arg3)) (invDegD (W (Proc.devRef .tc main_arg2)))) := by
  dsimp only [hostOps0]; after_results_simp; rfl

/-- Region 0's row scales. -/
theorem s0_v42 : StableHlo.after (hostOps0 (F := Ideal)) W (Proc.devRef .tc main_v42) = colS (invDegS (W (Proc.devRef .tc main_arg3))) := by
  dsimp only [hostOps0]; after_results_simp; rfl

/-- Region 0's weights. -/
theorem s0_v40 : StableHlo.after (hostOps0 (F := Ideal)) W (Proc.devRef .tc main_v40) = wHead (W (Proc.devRef .tc main_arg6)) := by
  dsimp only [hostOps0]; after_results_simp; rfl

/-- Region 0's bias. -/
theorem s0_v43 : StableHlo.after (hostOps0 (F := Ideal)) W (Proc.devRef .tc main_v43) = bHead (W (Proc.devRef .tc main_arg7)) := by
  dsimp only [hostOps0]; after_results_simp; rfl

end Cert.HostK
-- ==== Proof.Host.Stretch1.lean ====
/- What the second host stretch (layer 1's three aggregations into the drug nodes and region 1's operand layouts)
   leaves in the buffers region 1 reads, over any contents at entry. -/
import proofs.«166004_j3839700763193_1_alg».proof.Proof.Host.Layouts
import Idealize.ShloMosaic.PureOps.Ideal

set_option maxRecDepth 16384

noncomputable section

namespace Cert.HostK

open Idealize.ShloMosaic Idealize.ShloMosaic.TcCoe
open Cert.KernelIdeal Cert.KernelIdeal.Gen

variable (W : Valuation τ sig (Elt Ideal))

/-- The side-effect features aggregated into the drug nodes along "relate", reversed. -/
theorem s1a_v57 : StableHlo.after (List.take 48 (hostOps1 (F := Ideal))) W (Proc.devRef .tc main_v57) = aggSD (W (Proc.devRef .tc main_arg1)) (W (Proc.devRef .tc main_arg3)) (W (Proc.devRef .tc main_arg2)) (W (Proc.devRef .tc main_v12)) := by
  simp only [hostOps1, List.take_succ_cons, List.take_zero]; after_results_simp; rfl

/-- The drug features aggregated along "similar". -/
theorem s1a_v70 : StableHlo.after (List.take 48 (hostOps1 (F := Ideal))) W (Proc.devRef .tc main_v70) = aggDD (W (Proc.devRef .tc main_arg0)) (W (Proc.devRef .tc main_arg4)) (W (Proc.devRef .tc main_arg5)) (W (Proc.devRef .tc main_v18)) := by
  simp only [hostOps1, List.take_succ_cons, List.take_zero]; after_results_simp; rfl

/-- The drug features aggregated along "similar", reversed. -/
theorem s1a_v83 : StableHlo.after (List.take 48 (hostOps1 (F := Ideal))) W (Proc.devRef .tc main_v83) = aggDD (W (Proc.devRef .tc main_arg0)) (W (Proc.devRef .tc main_arg5)) (W (Proc.devRef .tc main_arg4)) (W (Proc.devRef .tc main_v24)) := by
  simp only [hostOps1, List.take_succ_cons, List.take_zero]; after_results_simp; rfl

/-- The stretch's last twelve operations stack what the first forty-eight aggregated. -/
theorem s1b_v87 : StableHlo.after (List.drop 48 (hostOps1 (F := Ideal))) W (Proc.devRef .tc main_v87)
    = stackD (W (Proc.devRef .tc main_v57)) (W (Proc.devRef .tc main_v70)) (W (Proc.devRef .tc main_v83)) := by
  simp only [hostOps1, List.drop_succ_cons, List.drop_zero]; after_results_simp; rfl

/-- Region 1's rows: the three aggregations into the drug nodes, stacked. -/
theorem s1_v87 : StableHlo.after (hostOps1 (F := Ideal)) W (Proc.devRef .tc main_v87)
    = stackD (aggSD (W (Proc.devRef .tc main_arg1)) (W (Proc.devRef .tc main_arg3)) (W (Proc.devRef .tc main_arg2)) (W (Proc.devRef .tc main_v12)))
      (aggDD (W (Proc.devRef .tc main_arg0)) (W (Proc.devRef .tc main_arg4)) (W (Proc.devRef .tc main_arg5)) (W (Proc.devRef .tc main_v18)))
      (aggDD (W (Proc.devRef .tc main_arg0)) (W (Proc.devRef .tc main_arg5)) (W (Proc.devRef .tc main_arg4)) (W (Proc.devRef .tc main_v24))) := by
  rw [← List.take_append_drop 48 (hostOps1 (F := Ideal)), after_append, s1b_v87, s1a_v57, s1a_v70, s1a_v83]

/-- Region 1's row scales, one column per relation. -/
theorem s1_v94 : StableHlo.after (hostOps1 (F := Ideal)) W (Proc.devRef .tc main_v94) = colsD (W (Proc.devRef .tc main_v6)) (W (Proc.devRef .tc main_v24)) (W (Proc.devRef .tc main_v18)) := by
  dsimp only [hostOps1]; after_results_simp; rfl

/-- Region 1's weights. -/
theorem s1_v92 : StableHlo.after (hostOps1 (F := Ideal)) W (Proc.devRef .tc main_v92) = wTail (W (Proc.devRef .tc main_arg6)) := by
  dsimp only [hostOps1]; after_results_simp; rfl

/-- Region 1's biases. -/
theorem s1_v95 : StableHlo.after (hostOps1 (F := Ideal)) W (Proc.devRef .tc main_v95) = bTail (W (Proc.devRef .tc main_arg7)) := by
  dsimp only [hostOps1]; after_results_simp; rfl

end Cert.HostK
-- ==== Proof.Host.Stretch2.lean ====
/- What the third host stretch (layer 2's aggregation into the side-effect nodes and region 2's operand layouts)
   leaves in the buffers region 2 reads, over any contents at entry. -/
import proofs.«166004_j3839700763193_1_alg».proof.Proof.Host.Layouts
import Idealize.ShloMosaic.PureOps.Ideal

set_option maxRecDepth 16384

noncomputable section

namespace Cert.HostK

open Idealize.ShloMosaic Idealize.ShloMosaic.TcCoe
open Cert.KernelIdeal Cert.KernelIdeal.Gen

variable (W : Valuation τ sig (Elt Ideal))

/-- Region 2's rows: the drug features aggregated along "relate". -/
theorem s2_v110 : StableHlo.after (hostOps2 (F := Ideal)) W (Proc.devRef .tc main_v110) = leadS (aggDS (W (Proc.devRef .tc main_v96)) (W (Proc.devRef .tc main_arg2)) (W (Proc.devRef .tc main_arg3)) (W (Proc.devRef .tc main_v6))) := by
  dsimp only [hostOps2]; after_results_simp; rfl

/-- Region 2's row scales. -/
theorem s2_v114 : StableHlo.after (hostOps2 (F := Ideal)) W (Proc.devRef .tc main_v114) = colS (W (Proc.devRef .tc main_v12)) := by
  dsimp only [hostOps2]; after_results_simp; rfl

/-- Region 2's weights. -/
theorem s2_v112 : StableHlo.after (hostOps2 (F := Ideal)) W (Proc.devRef .tc main_v112) = wHead (W (Proc.devRef .tc main_arg8)) := by
  dsimp only [hostOps2]; after_results_simp; rfl

/-- Region 2's bias. -/
theorem s2_v115 : StableHlo.after (hostOps2 (F := Ideal)) W (Proc.devRef .tc main_v115) = bHead (W (Proc.devRef .tc main_arg9)) := by
  dsimp only [hostOps2]; after_results_simp; rfl

end Cert.HostK
-- ==== Proof.Host.Stretch3.lean ====
/- What the fourth host stretch (layer 2's three aggregations into the drug nodes and region 3's operand layouts)
   leaves in the buffers region 3 reads, over any contents at entry. -/
import proofs.«166004_j3839700763193_1_alg».proof.Proof.Host.Layouts
import Idealize.ShloMosaic.PureOps.Ideal

set_option maxRecDepth 16384

noncomputable section

namespace Cert.HostK

open Idealize.ShloMosaic Idealize.ShloMosaic.TcCoe
open Cert.KernelIdeal Cert.KernelIdeal.Gen

variable (W : Valuation τ sig (Elt Ideal))

/-- The side-effect features aggregated into the drug nodes along "relate", reversed. -/
theorem s3a_v129 : StableHlo.after (List.take 48 (hostOps3 (F := Ideal))) W (Proc.devRef .tc main_v129) = aggSD (W (Proc.devRef .tc main_v44)) (W (Proc.devRef .tc main_arg3)) (W (Proc.devRef .tc main_arg2)) (W (Proc.devRef .tc main_v12)) := by
  simp only [hostOps3, List.take_succ_cons, List.take_zero]; after_results_simp; rfl

/-- The drug features aggregated along "similar". -/
theorem s3a_v142 : StableHlo.after (List.take 48 (hostOps3 (F := Ideal))) W (Proc.devRef .tc main_v142) = aggDD (W (Proc.devRef .tc main_v96)) (W (Proc.devRef .tc main_arg4)) (W (Proc.devRef .tc main_arg5)) (W (Proc.devRef .tc main_v18)) := by
  simp only [hostOps3, List.take_succ_cons, List.take_zero]; after_results_simp; rfl

/-- The drug features aggregated along "similar", reversed. -/
theorem s3a_v155 : StableHlo.after (List.take 48 (hostOps3 (F := Ideal))) W (Proc.devRef .tc main_v155) = aggDD (W (Proc.devRef .tc main_v96)) (W (Proc.devRef .tc main_arg5)) (W (Proc.devRef .tc main_arg4)) (W (Proc.devRef .tc main_v24)) := by
  simp only [hostOps3, List.take_succ_cons, List.take_zero]; after_results_simp; rfl

/-- The stretch's last twelve operations stack what the first forty-eight aggregated. -/
theorem s3b_v159 : StableHlo.after (List.drop 48 (hostOps3 (F := Ideal))) W (Proc.devRef .tc main_v159)
    = stackD (W (Proc.devRef .tc main_v129)) (W (Proc.devRef .tc main_v142)) (W (Proc.devRef .tc main_v155)) := by
  simp only [hostOps3, List.drop_succ_cons, List.drop_zero]; after_results_simp; rfl

/-- Region 3's rows: the three aggregations into the drug nodes, stacked. -/
theorem s3_v159 : StableHlo.after (hostOps3 (F := Ideal)) W (Proc.devRef .tc main_v159)
    = stackD (aggSD (W (Proc.devRef .tc main_v44)) (W (Proc.devRef .tc main_arg3)) (W (Proc.devRef .tc main_arg2)) (W (Proc.devRef .tc main_v12)))
      (aggDD (W (Proc.devRef .tc main_v96)) (W (Proc.devRef .tc main_arg4)) (W (Proc.devRef .tc main_arg5)) (W (Proc.devRef .tc main_v18)))
      (aggDD (W (Proc.devRef .tc main_v96)) (W (Proc.devRef .tc main_arg5)) (W (Proc.devRef .tc main_arg4)) (W (Proc.devRef .tc main_v24))) := by
  rw [← List.take_append_drop 48 (hostOps3 (F := Ideal)), after_append, s3b_v159, s3a_v129, s3a_v142, s3a_v155]

/-- Region 3's row scales, one column per relation. -/
theorem s3_v166 : StableHlo.after (hostOps3 (F := Ideal)) W (Proc.devRef .tc main_v166) = colsD (W (Proc.devRef .tc main_v6)) (W (Proc.devRef .tc main_v24)) (W (Proc.devRef .tc main_v18)) := by
  dsimp only [hostOps3]; after_results_simp; rfl

/-- Region 3's weights. -/
theorem s3_v164 : StableHlo.after (hostOps3 (F := Ideal)) W (Proc.devRef .tc main_v164) = wTail (W (Proc.devRef .tc main_arg8)) := by
  dsimp only [hostOps3]; after_results_simp; rfl

/-- Region 3's biases. -/
theorem s3_v167 : StableHlo.after (hostOps3 (F := Ideal)) W (Proc.devRef .tc main_v167) = bTail (W (Proc.devRef .tc main_arg9)) := by
  dsimp only [hostOps3]; after_results_simp; rfl

end Cert.HostK
-- ==== Proof.Host.Stretch4.lean ====
/- What the fifth host stretch (layer 3's aggregation into the side-effect nodes and region 4's operand layouts)
   leaves in the buffers region 4 reads, over any contents at entry. -/
import proofs.«166004_j3839700763193_1_alg».proof.Proof.Host.Layouts
import Idealize.ShloMosaic.PureOps.Ideal

set_option maxRecDepth 16384

noncomputable section

namespace Cert.HostK

open Idealize.ShloMosaic Idealize.ShloMosaic.TcCoe
open Cert.KernelIdeal Cert.KernelIdeal.Gen

variable (W : Valuation τ sig (Elt Ideal))

/-- Region 4's rows: the drug features aggregated along "relate". -/
theorem s4_v182 : StableHlo.after (hostOps4 (F := Ideal)) W (Proc.devRef .tc main_v182) = leadS (aggDS (W (Proc.devRef .tc main_v168)) (W (Proc.devRef .tc main_arg2)) (W (Proc.devRef .tc main_arg3)) (W (Proc.devRef .tc main_v6))) := by
  dsimp only [hostOps4]; after_results_simp; rfl

/-- Region 4's row scales. -/
theorem s4_v186 : StableHlo.after (hostOps4 (F := Ideal)) W (Proc.devRef .tc main_v186) = colS (W (Proc.devRef .tc main_v12)) := by
  dsimp only [hostOps4]; after_results_simp; rfl

/-- Region 4's weights. -/
theorem s4_v184 : StableHlo.after (hostOps4 (F := Ideal)) W (Proc.devRef .tc main_v184) = wHead64 (W (Proc.devRef .tc main_arg10)) := by
  dsimp only [hostOps4]; after_results_simp; rfl

/-- Region 4's bias. -/
theorem s4_v187 : StableHlo.after (hostOps4 (F := Ideal)) W (Proc.devRef .tc main_v187) = bHead64 (W (Proc.devRef .tc main_arg11)) := by
  dsimp only [hostOps4]; after_results_simp; rfl

end Cert.HostK
-- ==== Proof.Host.Stretch5.lean ====
/- What the last host stretch (layer 3's three aggregations into the drug nodes and region 5's operand layouts)
   leaves in the buffers region 5 reads, over any contents at entry. -/
import proofs.«166004_j3839700763193_1_alg».proof.Proof.Host.Layouts
import Idealize.ShloMosaic.PureOps.Ideal

set_option maxRecDepth 16384

noncomputable section

namespace Cert.HostK

open Idealize.ShloMosaic Idealize.ShloMosaic.TcCoe
open Cert.KernelIdeal Cert.KernelIdeal.Gen

variable (W : Valuation τ sig (Elt Ideal))

/-- The side-effect features aggregated into the drug nodes along "relate", reversed. -/
theorem s5a_v201 : StableHlo.after (List.take 48 (hostOps5 (F := Ideal))) W (Proc.devRef .tc main_v201) = aggSD (W (Proc.devRef .tc main_v116)) (W (Proc.devRef .tc main_arg3)) (W (Proc.devRef .tc main_arg2)) (W (Proc.devRef .tc main_v12)) := by
  simp only [hostOps5, List.take_succ_cons, List.take_zero]; after_results_simp; rfl

/-- The drug features aggregated along "similar". -/
theorem s5a_v214 : StableHlo.after (List.take 48 (hostOps5 (F := Ideal))) W (Proc.devRef .tc main_v214) = aggDD (W (Proc.devRef .tc main_v168)) (W (Proc.devRef .tc main_arg4)) (W (Proc.devRef .tc main_arg5)) (W (Proc.devRef .tc main_v18)) := by
  simp only [hostOps5, List.take_succ_cons, List.take_zero]; after_results_simp; rfl

/-- The drug features aggregated along "similar", reversed. -/
theorem s5a_v227 : StableHlo.after (List.take 48 (hostOps5 (F := Ideal))) W (Proc.devRef .tc main_v227) = aggDD (W (Proc.devRef .tc main_v168)) (W (Proc.devRef .tc main_arg5)) (W (Proc.devRef .tc main_arg4)) (W (Proc.devRef .tc main_v24)) := by
  simp only [hostOps5, List.take_succ_cons, List.take_zero]; after_results_simp; rfl

/-- The stretch's last twelve operations stack what the first forty-eight aggregated. -/
theorem s5b_v231 : StableHlo.after (List.drop 48 (hostOps5 (F := Ideal))) W (Proc.devRef .tc main_v231)
    = stackD (W (Proc.devRef .tc main_v201)) (W (Proc.devRef .tc main_v214)) (W (Proc.devRef .tc main_v227)) := by
  simp only [hostOps5, List.drop_succ_cons, List.drop_zero]; after_results_simp; rfl

/-- Region 5's rows: the three aggregations into the drug nodes, stacked. -/
theorem s5_v231 : StableHlo.after (hostOps5 (F := Ideal)) W (Proc.devRef .tc main_v231)
    = stackD (aggSD (W (Proc.devRef .tc main_v116)) (W (Proc.devRef .tc main_arg3)) (W (Proc.devRef .tc main_arg2)) (W (Proc.devRef .tc main_v12)))
      (aggDD (W (Proc.devRef .tc main_v168)) (W (Proc.devRef .tc main_arg4)) (W (Proc.devRef .tc main_arg5)) (W (Proc.devRef .tc main_v18)))
      (aggDD (W (Proc.devRef .tc main_v168)) (W (Proc.devRef .tc main_arg5)) (W (Proc.devRef .tc main_arg4)) (W (Proc.devRef .tc main_v24))) := by
  rw [← List.take_append_drop 48 (hostOps5 (F := Ideal)), after_append, s5b_v231, s5a_v201, s5a_v214, s5a_v227]

/-- Region 5's row scales, one column per relation. -/
theorem s5_v238 : StableHlo.after (hostOps5 (F := Ideal)) W (Proc.devRef .tc main_v238) = colsD (W (Proc.devRef .tc main_v6)) (W (Proc.devRef .tc main_v24)) (W (Proc.devRef .tc main_v18)) := by
  dsimp only [hostOps5]; after_results_simp; rfl

/-- Region 5's weights. -/
theorem s5_v236 : StableHlo.after (hostOps5 (F := Ideal)) W (Proc.devRef .tc main_v236) = wTail64 (W (Proc.devRef .tc main_arg10)) := by
  dsimp only [hostOps5]; after_results_simp; rfl

/-- Region 5's biases. -/
theorem s5_v239 : StableHlo.after (hostOps5 (F := Ideal)) W (Proc.devRef .tc main_v239) = bTail64 (W (Proc.devRef .tc main_arg11)) := by
  dsimp only [hostOps5]; after_results_simp; rfl

end Cert.HostK
-- ==== Proof.KI.Compose.lean ====
/- The kernel program's values composed, as extended reals: each region's output array is one layer of the network —
   the side layer or the drug layer of the launch arrays and of the layer before, rectified in layers 1 and 2. Each
   region's operands are what the host stretch before it computes from the buffers it finds; an argument array and the
   four degree vectors are found unchanged, a region's output as the region left it. -/
import proofs.«166004_j3839700763193_1_alg».proof.Proof.KI.Contents
import proofs.«166004_j3839700763193_1_alg».proof.Proof.KI.ComposeLayers
import proofs.«166004_j3839700763193_1_alg».proof.Proof.KI.Reg0Closed
import proofs.«166004_j3839700763193_1_alg».proof.Proof.KI.Reg2Closed
import proofs.«166004_j3839700763193_1_alg».proof.Proof.KI.Reg4Closed
import proofs.«166004_j3839700763193_1_alg».proof.Proof.KI.Reg1Ideal
import proofs.«166004_j3839700763193_1_alg».proof.Proof.KI.Reg3Ideal
import proofs.«166004_j3839700763193_1_alg».proof.Proof.KI.Reg5Ideal
import proofs.«166004_j3839700763193_1_alg».proof.Proof.Val.Payload1
import proofs.«166004_j3839700763193_1_alg».proof.Proof.Val.Payload3
import proofs.«166004_j3839700763193_1_alg».proof.Proof.Val.Payload5
import proofs.«166004_j3839700763193_1_alg».proof.Proof.Host.Stretch0
import proofs.«166004_j3839700763193_1_alg».proof.Proof.Host.Stretch1
import proofs.«166004_j3839700763193_1_alg».proof.Proof.Host.Stretch2
import proofs.«166004_j3839700763193_1_alg».proof.Proof.Host.Stretch3
import proofs.«166004_j3839700763193_1_alg».proof.Proof.Host.Stretch4
import proofs.«166004_j3839700763193_1_alg».proof.Proof.Host.Stretch5
import proofs.«166004_j3839700763193_1_alg».proof.Proof.Host.LayoutsAt
import proofs.«166004_j3839700763193_1_alg».proof.Proof.Val.Spec
import Idealize.ShloMosaic.Lib.ValueIdx
import Idealize.ShloMosaic.PureOps.Ideal

set_option maxRecDepth 16384

noncomputable section

namespace Cert.KernelIdeal.Hand
open Cert.KernelIdeal Cert.KernelIdeal.Gen Cert.HostK Cert.Val
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ)

/-! # The kernel program's values, composed: each region's output array over the launch arrays and the layer before -/

/-- The launch arrays on core `c`: the two embedding tables, the four edge-endpoint vectors, and the three layers'
    weights and biases (four relations each). -/
abbrev a0 (c : Dev nD) : VF S100000x128 := V0 m c main_arg0
abbrev a1 (c : Dev nD) : VF S5000x128 := V0 m c main_arg1
abbrev i2 (c : Dev nD) : VI S1000000 := V0 m c main_arg2
abbrev i3 (c : Dev nD) : VI S1000000 := V0 m c main_arg3
abbrev i4 (c : Dev nD) : VI S1000000 := V0 m c main_arg4
abbrev i5 (c : Dev nD) : VI S1000000 := V0 m c main_arg5
abbrev w6 (c : Dev nD) : S4x128x128.Idx → EReal := V0 m c main_arg6
abbrev b7 (c : Dev nD) : S4x128.Idx → EReal := V0 m c main_arg7
abbrev w8 (c : Dev nD) : S4x128x128.Idx → EReal := V0 m c main_arg8
abbrev b9 (c : Dev nD) : S4x128.Idx → EReal := V0 m c main_arg9
abbrev w10 (c : Dev nD) : S4x128x64.Idx → EReal := V0 m c main_arg10
abbrev b11 (c : Dev nD) : S4x64.Idx → EReal := V0 m c main_arg11

/-- The features each region leaves: the side-effect and the drug nodes' after layers 1, 2 and 3. -/
abbrev hs1 (c : Dev nD) : S5000x128.Idx → EReal := o2 m c
abbrev hd1 (c : Dev nD) : S100000x128.Idx → EReal := o4 m c
abbrev hs2 (c : Dev nD) : S5000x128.Idx → EReal := o6 m c
abbrev hd2 (c : Dev nD) : S100000x128.Idx → EReal := o8 m c
abbrev hs3 (c : Dev nD) : S5000x64.Idx → EReal := o10 m c
abbrev hd3 (c : Dev nD) : S100000x64.Idx → EReal := o12 m c

/-- A host vector read as extended reals at a literal index. -/
abbrev rd {S : Shape} (x : VF S) : S.Idx → EReal := x

/-! ## The buffers a region's operands are computed from, as the host stretch before it finds them -/

/-- An argument array holds its launch contents when each host stretch after the first is entered. -/
theorem Xarg0 (c : Dev nD) : X2 m c main_arg0 = V0 m c main_arg0 ∧ X4 m c main_arg0 = V0 m c main_arg0 ∧ X6 m c main_arg0 = V0 m c main_arg0 ∧ X8 m c main_arg0 = V0 m c main_arg0 ∧ X10 m c main_arg0 = V0 m c main_arg0 := by
  obtain ⟨_, e2, _, e4, _, e6, _, e8, _, e10, _, _⟩ := X_arg m c main_arg0 (by decide) (by decide) (by decide) (by decide) (by decide) (by decide) (by decide)
  exact ⟨e2, e4, e6, e8, e10⟩
theorem Xarg1 (c : Dev nD) : X2 m c main_arg1 = V0 m c main_arg1 ∧ X4 m c main_arg1 = V0 m c main_arg1 ∧ X6 m c main_arg1 = V0 m c main_arg1 ∧ X8 m c main_arg1 = V0 m c main_arg1 ∧ X10 m c main_arg1 = V0 m c main_arg1 := by
  obtain ⟨_, e2, _, e4, _, e6, _, e8, _, e10, _, _⟩ := X_arg m c main_arg1 (by decide) (by decide) (by decide) (by decide) (by decide) (by decide) (by decide)
  exact ⟨e2, e4, e6, e8, e10⟩
theorem Xarg2 (c : Dev nD) : X2 m c main_arg2 = V0 m c main_arg2 ∧ X4 m c main_arg2 = V0 m c main_arg2 ∧ X6 m c main_arg2 = V0 m c main_arg2 ∧ X8 m c main_arg2 = V0 m c main_arg2 ∧ X10 m c main_arg2 = V0 m c main_arg2 := by
  obtain ⟨_, e2, _, e4, _, e6, _, e8, _, e10, _, _⟩ := X_arg m c main_arg2 (by decide) (by decide) (by decide) (by decide) (by decide) (by decide) (by decide)
  exact ⟨e2, e4, e6, e8, e10⟩
theorem Xarg3 (c : Dev nD) : X2 m c main_arg3 = V0 m c main_arg3 ∧ X4 m c main_arg3 = V0 m c main_arg3 ∧ X6 m c main_arg3 = V0 m c main_arg3 ∧ X8 m c main_arg3 = V0 m c main_arg3 ∧ X10 m c main_arg3 = V0 m c main_arg3 := by
  obtain ⟨_, e2, _, e4, _, e6, _, e8, _, e10, _, _⟩ := X_arg m c main_arg3 (by decide) (by decide) (by decide) (by decide) (by decide) (by decide) (by decide)
  exact ⟨e2, e4, e6, e8, e10⟩
theorem Xarg4 (c : Dev nD) : X2 m c main_arg4 = V0 m c main_arg4 ∧ X4 m c main_arg4 = V0 m c main_arg4 ∧ X6 m c main_arg4 = V0 m c main_arg4 ∧ X8 m c main_arg4 = V0 m c main_arg4 ∧ X10 m c main_arg4 = V0 m c main_arg4 := by
  obtain ⟨_, e2, _, e4, _, e6, _, e8, _, e10, _, _⟩ := X_arg m c main_arg4 (by decide) (by decide) (by decide) (by decide) (by decide) (by decide) (by decide)
  exact ⟨e2, e4, e6, e8, e10⟩
theorem Xarg5 (c : Dev nD) : X2 m c main_arg5 = V0 m c main_arg5 ∧ X4 m c main_arg5 = V0 m c main_arg5 ∧ X6 m c main_arg5 = V0 m c main_arg5 ∧ X8 m c main_arg5 = V0 m c main_arg5 ∧ X10 m c main_arg5 = V0 m c main_arg5 := by
  obtain ⟨_, e2, _, e4, _, e6, _, e8, _, e10, _, _⟩ := X_arg m c main_arg5 (by decide) (by decide) (by decide) (by decide) (by decide) (by decide) (by decide)
  exact ⟨e2, e4, e6, e8, e10⟩
theorem Xarg6 (c : Dev nD) : X2 m c main_arg6 = V0 m c main_arg6 ∧ X4 m c main_arg6 = V0 m c main_arg6 ∧ X6 m c main_arg6 = V0 m c main_arg6 ∧ X8 m c main_arg6 = V0 m c main_arg6 ∧ X10 m c main_arg6 = V0 m c main_arg6 := by
  obtain ⟨_, e2, _, e4, _, e6, _, e8, _, e10, _, _⟩ := X_arg m c main_arg6 (by decide) (by decide) (by decide) (by decide) (by decide) (by decide) (by decide)
  exact ⟨e2, e4, e6, e8, e10⟩
theorem Xarg7 (c : Dev nD) : X2 m c main_arg7 = V0 m c main_arg7 ∧ X4 m c main_arg7 = V0 m c main_arg7 ∧ X6 m c main_arg7 = V0 m c main_arg7 ∧ X8 m c main_arg7 = V0 m c main_arg7 ∧ X10 m c main_arg7 = V0 m c main_arg7 := by
  obtain ⟨_, e2, _, e4, _, e6, _, e8, _, e10, _, _⟩ := X_arg m c main_arg7 (by decide) (by decide) (by decide) (by decide) (by decide) (by decide) (by decide)
  exact ⟨e2, e4, e6, e8, e10⟩
theorem Xarg8 (c : Dev nD) : X2 m c main_arg8 = V0 m c main_arg8 ∧ X4 m c main_arg8 = V0 m c main_arg8 ∧ X6 m c main_arg8 = V0 m c main_arg8 ∧ X8 m c main_arg8 = V0 m c main_arg8 ∧ X10 m c main_arg8 = V0 m c main_arg8 := by
  obtain ⟨_, e2, _, e4, _, e6, _, e8, _, e10, _, _⟩ := X_arg m c main_arg8 (by decide) (by decide) (by decide) (by decide) (by decide) (by decide) (by decide)
  exact ⟨e2, e4, e6, e8, e10⟩
theorem Xarg9 (c : Dev nD) : X2 m c main_arg9 = V0 m c main_arg9 ∧ X4 m c main_arg9 = V0 m c main_arg9 ∧ X6 m c main_arg9 = V0 m c main_arg9 ∧ X8 m c main_arg9 = V0 m c main_arg9 ∧ X10 m c main_arg9 = V0 m c main_arg9 := by
  obtain ⟨_, e2, _, e4, _, e6, _, e8, _, e10, _, _⟩ := X_arg m c main_arg9 (by decide) (by decide) (by decide) (by decide) (by decide) (by decide) (by decide)
  exact ⟨e2, e4, e6, e8, e10⟩
theorem Xarg10 (c : Dev nD) : X2 m c main_arg10 = V0 m c main_arg10 ∧ X4 m c main_arg10 = V0 m c main_arg10 ∧ X6 m c main_arg10 = V0 m c main_arg10 ∧ X8 m c main_arg10 = V0 m c main_arg10 ∧ X10 m c main_arg10 = V0 m c main_arg10 := by
  obtain ⟨_, e2, _, e4, _, e6, _, e8, _, e10, _, _⟩ := X_arg m c main_arg10 (by decide) (by decide) (by decide) (by decide) (by decide) (by decide) (by decide)
  exact ⟨e2, e4, e6, e8, e10⟩
theorem Xarg11 (c : Dev nD) : X2 m c main_arg11 = V0 m c main_arg11 ∧ X4 m c main_arg11 = V0 m c main_arg11 ∧ X6 m c main_arg11 = V0 m c main_arg11 ∧ X8 m c main_arg11 = V0 m c main_arg11 ∧ X10 m c main_arg11 = V0 m c main_arg11 := by
  obtain ⟨_, e2, _, e4, _, e6, _, e8, _, e10, _, _⟩ := X_arg m c main_arg11 (by decide) (by decide) (by decide) (by decide) (by decide) (by decide) (by decide)
  exact ⟨e2, e4, e6, e8, e10⟩

/-- The four inverse-square-root degree vectors when region 0 is entered, -/
theorem X1_v6 (c : Dev nD) : X1 m c main_v6 = invDegD (i2 m c) := by unfold X1; exact s0_v6 (V0 m c)
theorem X1_v12 (c : Dev nD) : X1 m c main_v12 = invDegS (i3 m c) := by unfold X1; exact s0_v12 (V0 m c)
theorem X1_v18 (c : Dev nD) : X1 m c main_v18 = invDegD (i4 m c) := by unfold X1; exact s0_v18 (V0 m c)
theorem X1_v24 (c : Dev nD) : X1 m c main_v24 = invDegD (i5 m c) := by unfold X1; exact s0_v24 (V0 m c)
/-- and when each later host stretch is entered: nothing writes them again. -/
theorem Xv6 (c : Dev nD) : X2 m c main_v6 = invDegD (i2 m c) ∧ X4 m c main_v6 = invDegD (i2 m c) ∧ X6 m c main_v6 = invDegD (i2 m c) ∧ X8 m c main_v6 = invDegD (i2 m c) ∧ X10 m c main_v6 = invDegD (i2 m c) := by
  obtain ⟨e2, e4, e6, e8, e10⟩ := X_early m c main_v6 (by decide) (by decide) (by decide) (by decide) (by decide) (by decide)
  rw [X1_v6] at e2 e4 e6 e8 e10
  exact ⟨e2, e4, e6, e8, e10⟩
theorem Xv12 (c : Dev nD) : X2 m c main_v12 = invDegS (i3 m c) ∧ X4 m c main_v12 = invDegS (i3 m c) ∧ X6 m c main_v12 = invDegS (i3 m c) ∧ X8 m c main_v12 = invDegS (i3 m c) ∧ X10 m c main_v12 = invDegS (i3 m c) := by
  obtain ⟨e2, e4, e6, e8, e10⟩ := X_early m c main_v12 (by decide) (by decide) (by decide) (by decide) (by decide) (by decide)
  rw [X1_v12] at e2 e4 e6 e8 e10
  exact ⟨e2, e4, e6, e8, e10⟩
theorem Xv18 (c : Dev nD) : X2 m c main_v18 = invDegD (i4 m c) ∧ X4 m c main_v18 = invDegD (i4 m c) ∧ X6 m c main_v18 = invDegD (i4 m c) ∧ X8 m c main_v18 = invDegD (i4 m c) ∧ X10 m c main_v18 = invDegD (i4 m c) := by
  obtain ⟨e2, e4, e6, e8, e10⟩ := X_early m c main_v18 (by decide) (by decide) (by decide) (by decide) (by decide) (by decide)
  rw [X1_v18] at e2 e4 e6 e8 e10
  exact ⟨e2, e4, e6, e8, e10⟩
theorem Xv24 (c : Dev nD) : X2 m c main_v24 = invDegD (i5 m c) ∧ X4 m c main_v24 = invDegD (i5 m c) ∧ X6 m c main_v24 = invDegD (i5 m c) ∧ X8 m c main_v24 = invDegD (i5 m c) ∧ X10 m c main_v24 = invDegD (i5 m c) := by
  obtain ⟨e2, e4, e6, e8, e10⟩ := X_early m c main_v24 (by decide) (by decide) (by decide) (by decide) (by decide) (by decide)
  rw [X1_v24] at e2 e4 e6 e8 e10
  exact ⟨e2, e4, e6, e8, e10⟩

/-! ## The side-effect nodes, layer by layer, entry by entry -/

/-- LAYER 1, the side-effect nodes: region 0's output over the launch arrays. -/
theorem hs1_val (c : Dev nD) (p : Fin 5000) (q : Fin 128) :
    hs1 m c (ix2 p q) = max (0 + ((∑ k : Fin 128, (rd (aggDS (a0 m c) (i2 m c) (i3 m c) (invDegD (i2 m c))) (ix2 p k) * rd (invDegS (i3 m c)) (ix1 p)) * w6 m c (ix3 (0 : Fin 4) k q)) + b7 m c (ix2 (0 : Fin 4) q))) 0 := by
  have h := final0 (T1 m) c p q
  have e0 : xin0_0 (T1 m) c = leadS (aggDS (a0 m c) (i2 m c) (i3 m c) (invDegD (i2 m c))) := by
    show X1 m c main_v38 = _; unfold X1; exact s0_v38 (V0 m c)
  have e1 : xin0_1 (T1 m) c = colS (invDegS (i3 m c)) := by
    show X1 m c main_v42 = _; unfold X1; exact s0_v42 (V0 m c)
  have e2 : xin0_2 (T1 m) c = wHead (w6 m c) := by
    show X1 m c main_v40 = _; unfold X1; exact s0_v40 (V0 m c)
  have e3 : xin0_3 (T1 m) c = bHead (b7 m c) := by
    show X1 m c main_v43 = _; unfold X1; exact s0_v43 (V0 m c)
  rw [e0, e1, e2, e3] at h
  simp only [leadS_apply, colS_apply, wHead_apply, bHead_apply] at h
  exact h

/-- LAYER 2, the side-effect nodes: region 2's output over layer 1's drug features and the launch arrays. -/
theorem hs2_val (c : Dev nD) (p : Fin 5000) (q : Fin 128) :
    hs2 m c (ix2 p q) = max (0 + ((∑ k : Fin 128, (rd (aggDS (hd1 m c) (i2 m c) (i3 m c) (invDegD (i2 m c))) (ix2 p k) * rd (invDegS (i3 m c)) (ix1 p)) * w8 m c (ix3 (0 : Fin 4) k q)) + b9 m c (ix2 (0 : Fin 4) q))) 0 := by
  have h := final2 (T5 m) c p q
  have e0 : xin2_0 (T5 m) c = leadS (aggDS (hd1 m c) (i2 m c) (i3 m c) (invDegD (i2 m c))) := by
    show X5 m c main_v110 = _; unfold X5; rw [s2_v110 (X4 m c), (X_v96 m c).1, (Xarg2 m c).2.1, (Xarg3 m c).2.1, (Xv6 m c).2.1]
  have e1 : xin2_1 (T5 m) c = colS (invDegS (i3 m c)) := by
    show X5 m c main_v114 = _; unfold X5; rw [s2_v114 (X4 m c), (Xv12 m c).2.1]
  have e2 : xin2_2 (T5 m) c = wHead (w8 m c) := by
    show X5 m c main_v112 = _; unfold X5; rw [s2_v112 (X4 m c), (Xarg8 m c).2.1]
  have e3 : xin2_3 (T5 m) c = bHead (b9 m c) := by
    show X5 m c main_v115 = _; unfold X5; rw [s2_v115 (X4 m c), (Xarg9 m c).2.1]
  rw [e0, e1, e2, e3] at h
  simp only [leadS_apply, colS_apply, wHead_apply, bHead_apply] at h
  exact h

/-- LAYER 3, the side-effect nodes: region 4's output over layer 2's drug features and the launch arrays. -/
theorem hs3_val (c : Dev nD) (p : Fin 5000) (q : Fin 64) :
    hs3 m c (ix2 p q) = 0 + ((∑ k : Fin 128, (rd (aggDS (hd2 m c) (i2 m c) (i3 m c) (invDegD (i2 m c))) (ix2 p k) * rd (invDegS (i3 m c)) (ix1 p)) * w10 m c (ix3 (0 : Fin 4) k q)) + b11 m c (ix2 (0 : Fin 4) q)) := by
  have h := final4 (T9 m) c p q
  have e0 : xin4_0 (T9 m) c = leadS (aggDS (hd2 m c) (i2 m c) (i3 m c) (invDegD (i2 m c))) := by
    show X9 m c main_v182 = _; unfold X9; rw [s4_v182 (X8 m c), (X_v168 m c).1, (Xarg2 m c).2.2.2.1, (Xarg3 m c).2.2.2.1, (Xv6 m c).2.2.2.1]
  have e1 : xin4_1 (T9 m) c = colS (invDegS (i3 m c)) := by
    show X9 m c main_v186 = _; unfold X9; rw [s4_v186 (X8 m c), (Xv12 m c).2.2.2.1]
  have e2 : xin4_2 (T9 m) c = wHead64 (w10 m c) := by
    show X9 m c main_v184 = _; unfold X9; rw [s4_v184 (X8 m c), (Xarg10 m c).2.2.2.1]
  have e3 : xin4_3 (T9 m) c = bHead64 (b11 m c) := by
    show X9 m c main_v187 = _; unfold X9; rw [s4_v187 (X8 m c), (Xarg11 m c).2.2.2.1]
  rw [e0, e1, e2, e3] at h
  simp only [leadS_apply, colS_apply, wHead64_apply, bHead64_apply] at h
  exact h

/-! ## The side-effect nodes' features as arrays: one layer of the network each -/

/-- LAYER 1: the side-effect features are the rectified side layer of the drug embeddings. -/
theorem hs1_eq (c : Dev nD) : hs1 m c = reluArr (layerSide (a0 m c) (i2 m c) (i3 m c) (w6 m c) (b7 m c)) := by
  funext j
  obtain ⟨p, q, rfl⟩ : ∃ (p : Fin 5000) (q : Fin 128), j = ix2 p q := ⟨j 0, j 1, eq_ix2 j⟩
  rw [reluArr_apply, layerSide_apply, hs1_val m c p q, zero_add]
  rfl

/-- LAYER 2: the same of layer 1's drug features, with the second layer's weights. -/
theorem hs2_eq (c : Dev nD) : hs2 m c = reluArr (layerSide (hd1 m c) (i2 m c) (i3 m c) (w8 m c) (b9 m c)) := by
  funext j
  obtain ⟨p, q, rfl⟩ : ∃ (p : Fin 5000) (q : Fin 128), j = ix2 p q := ⟨j 0, j 1, eq_ix2 j⟩
  rw [reluArr_apply, layerSide_apply, hs2_val m c p q, zero_add]
  rfl

/-- LAYER 3: the side layer of layer 2's drug features with the last layer's weights (64 columns), not rectified. -/
theorem hs3_eq (c : Dev nD) : hs3 m c = layerSide (hd2 m c) (i2 m c) (i3 m c) (w10 m c) (b11 m c) := by
  funext j
  obtain ⟨p, q, rfl⟩ : ∃ (p : Fin 5000) (q : Fin 64), j = ix2 p q := ⟨j 0, j 1, eq_ix2 j⟩
  rw [layerSide_apply, hs3_val m c p q, zero_add]
  rfl

/-! ## The drug nodes' features as arrays, given each drug region's output entry by entry -/

/-- Region 1's operands as it finds them: the host stretch before it, read over the launch arrays and the layer before. -/
theorem din1_0_eq (c : Dev nD) : X3 m c main_v87 = stackD (aggSD (a1 m c) (i3 m c) (i2 m c) (invDegS (i3 m c))) (aggDD (a0 m c) (i4 m c) (i5 m c) (invDegD (i4 m c))) (aggDD (a0 m c) (i5 m c) (i4 m c) (invDegD (i5 m c))) := by
  unfold X3; rw [s1_v87 (X2 m c), (Xarg1 m c).1, (Xarg3 m c).1, (Xarg2 m c).1, (Xv12 m c).1, (Xarg0 m c).1, (Xarg4 m c).1, (Xarg5 m c).1, (Xv18 m c).1, (Xv24 m c).1]
theorem din1_1_eq (c : Dev nD) : X3 m c main_v94 = colsD (invDegD (i2 m c)) (invDegD (i5 m c)) (invDegD (i4 m c)) := by
  unfold X3; rw [s1_v94 (X2 m c), (Xv6 m c).1, (Xv24 m c).1, (Xv18 m c).1]
theorem din1_2_eq (c : Dev nD) : X3 m c main_v92 = wTail (w6 m c) := by
  unfold X3; rw [s1_v92 (X2 m c), (Xarg6 m c).1]
theorem din1_3_eq (c : Dev nD) : X3 m c main_v95 = bTail (b7 m c) := by
  unfold X3; rw [s1_v95 (X2 m c), (Xarg7 m c).1]

/-- Region 1's operands as extended-real functions of literal indices. -/
abbrev din1_0 (c : Dev nD) : S3x100000x128.Idx → EReal := X3 m c main_v87
abbrev din1_1 (c : Dev nD) : S3x100000x1.Idx → EReal := X3 m c main_v94
abbrev din1_2 (c : Dev nD) : S3x128x128.Idx → EReal := X3 m c main_v92
abbrev din1_3 (c : Dev nD) : S3x1x128.Idx → EReal := X3 m c main_v95

/-- LAYER 1: the drug features are the rectified drug layer of the two embedding tables. -/
theorem hd1_eq_of (c : Dev nD)
    (hfin : ∀ (r : Fin 100000) (q : Fin 128), hd1 m c (ix2 r q) = max (((0 + ((∑ k : Fin 128, (din1_0 m c (ix3 (0 : Fin 3) r k) * din1_1 m c (ix3 (0 : Fin 3) r (0 : Fin 1))) * din1_2 m c (ix3 (0 : Fin 3) k q)) + din1_3 m c (ix3 (0 : Fin 3) (0 : Fin 1) q))) + ((∑ k : Fin 128, (din1_0 m c (ix3 (1 : Fin 3) r k) * din1_1 m c (ix3 (1 : Fin 3) r (0 : Fin 1))) * din1_2 m c (ix3 (1 : Fin 3) k q)) + din1_3 m c (ix3 (1 : Fin 3) (0 : Fin 1) q))) + ((∑ k : Fin 128, (din1_0 m c (ix3 (2 : Fin 3) r k) * din1_1 m c (ix3 (2 : Fin 3) r (0 : Fin 1))) * din1_2 m c (ix3 (2 : Fin 3) k q)) + din1_3 m c (ix3 (2 : Fin 3) (0 : Fin 1) q))) 0) :
    hd1 m c = reluArr (layerDrug (a0 m c) (a1 m c) (i2 m c) (i3 m c) (i4 m c) (i5 m c) (w6 m c) (b7 m c)) :=
  drugLayer128 (hd1 m c) (din1_0 m c) (din1_1 m c) (din1_2 m c) (din1_3 m c) hfin
    (a0 m c) (a1 m c) (i2 m c) (i3 m c) (i4 m c) (i5 m c) (w6 m c) (b7 m c)
    (din1_0_eq m c) (din1_1_eq m c) (din1_2_eq m c) (din1_3_eq m c)

/-- Region 3's operands as it finds them: the host stretch before it, read over the launch arrays and the layer before. -/
theorem din3_0_eq (c : Dev nD) : X7 m c main_v159 = stackD (aggSD (hs1 m c) (i3 m c) (i2 m c) (invDegS (i3 m c))) (aggDD (hd1 m c) (i4 m c) (i5 m c) (invDegD (i4 m c))) (aggDD (hd1 m c) (i5 m c) (i4 m c) (invDegD (i5 m c))) := by
  unfold X7; rw [s3_v159 (X6 m c), (X_v44 m c).2, (Xarg3 m c).2.2.1, (Xarg2 m c).2.2.1, (Xv12 m c).2.2.1, (X_v96 m c).2, (Xarg4 m c).2.2.1, (Xarg5 m c).2.2.1, (Xv18 m c).2.2.1, (Xv24 m c).2.2.1]
theorem din3_1_eq (c : Dev nD) : X7 m c main_v166 = colsD (invDegD (i2 m c)) (invDegD (i5 m c)) (invDegD (i4 m c)) := by
  unfold X7; rw [s3_v166 (X6 m c), (Xv6 m c).2.2.1, (Xv24 m c).2.2.1, (Xv18 m c).2.2.1]
theorem din3_2_eq (c : Dev nD) : X7 m c main_v164 = wTail (w8 m c) := by
  unfold X7; rw [s3_v164 (X6 m c), (Xarg8 m c).2.2.1]
theorem din3_3_eq (c : Dev nD) : X7 m c main_v167 = bTail (b9 m c) := by
  unfold X7; rw [s3_v167 (X6 m c), (Xarg9 m c).2.2.1]

/-- Region 3's operands as extended-real functions of literal indices. -/
abbrev din3_0 (c : Dev nD) : S3x100000x128.Idx → EReal := X7 m c main_v159
abbrev din3_1 (c : Dev nD) : S3x100000x1.Idx → EReal := X7 m c main_v166
abbrev din3_2 (c : Dev nD) : S3x128x128.Idx → EReal := X7 m c main_v164
abbrev din3_3 (c : Dev nD) : S3x1x128.Idx → EReal := X7 m c main_v167

/-- LAYER 2: the same of layer 1's features, with the second layer's weights. -/
theorem hd2_eq_of (c : Dev nD)
    (hfin : ∀ (r : Fin 100000) (q : Fin 128), hd2 m c (ix2 r q) = max (((0 + ((∑ k : Fin 128, (din3_0 m c (ix3 (0 : Fin 3) r k) * din3_1 m c (ix3 (0 : Fin 3) r (0 : Fin 1))) * din3_2 m c (ix3 (0 : Fin 3) k q)) + din3_3 m c (ix3 (0 : Fin 3) (0 : Fin 1) q))) + ((∑ k : Fin 128, (din3_0 m c (ix3 (1 : Fin 3) r k) * din3_1 m c (ix3 (1 : Fin 3) r (0 : Fin 1))) * din3_2 m c (ix3 (1 : Fin 3) k q)) + din3_3 m c (ix3 (1 : Fin 3) (0 : Fin 1) q))) + ((∑ k : Fin 128, (din3_0 m c (ix3 (2 : Fin 3) r k) * din3_1 m c (ix3 (2 : Fin 3) r (0 : Fin 1))) * din3_2 m c (ix3 (2 : Fin 3) k q)) + din3_3 m c (ix3 (2 : Fin 3) (0 : Fin 1) q))) 0) :
    hd2 m c = reluArr (layerDrug (hd1 m c) (hs1 m c) (i2 m c) (i3 m c) (i4 m c) (i5 m c) (w8 m c) (b9 m c)) :=
  drugLayer128 (hd2 m c) (din3_0 m c) (din3_1 m c) (din3_2 m c) (din3_3 m c) hfin
    (hd1 m c) (hs1 m c) (i2 m c) (i3 m c) (i4 m c) (i5 m c) (w8 m c) (b9 m c)
    (din3_0_eq m c) (din3_1_eq m c) (din3_2_eq m c) (din3_3_eq m c)

/-- Region 5's operands as it finds them: the host stretch before it, read over the launch arrays and the layer before. -/
theorem din5_0_eq (c : Dev nD) : X11 m c main_v231 = stackD (aggSD (hs2 m c) (i3 m c) (i2 m c) (invDegS (i3 m c))) (aggDD (hd2 m c) (i4 m c) (i5 m c) (invDegD (i4 m c))) (aggDD (hd2 m c) (i5 m c) (i4 m c) (invDegD (i5 m c))) := by
  unfold X11; rw [s5_v231 (X10 m c), (X_v116 m c).2, (Xarg3 m c).2.2.2.2, (Xarg2 m c).2.2.2.2, (Xv12 m c).2.2.2.2, (X_v168 m c).2, (Xarg4 m c).2.2.2.2, (Xarg5 m c).2.2.2.2, (Xv18 m c).2.2.2.2, (Xv24 m c).2.2.2.2]
theorem din5_1_eq (c : Dev nD) : X11 m c main_v238 = colsD (invDegD (i2 m c)) (invDegD (i5 m c)) (invDegD (i4 m c)) := by
  unfold X11; rw [s5_v238 (X10 m c), (Xv6 m c).2.2.2.2, (Xv24 m c).2.2.2.2, (Xv18 m c).2.2.2.2]
theorem din5_2_eq (c : Dev nD) : X11 m c main_v236 = wTail64 (w10 m c) := by
  unfold X11; rw [s5_v236 (X10 m c), (Xarg10 m c).2.2.2.2]
theorem din5_3_eq (c : Dev nD) : X11 m c main_v239 = bTail64 (b11 m c) := by
  unfold X11; rw [s5_v239 (X10 m c), (Xarg11 m c).2.2.2.2]

/-- Region 5's operands as extended-real functions of literal indices. -/
abbrev din5_0 (c : Dev nD) : S3x100000x128.Idx → EReal := X11 m c main_v231
abbrev din5_1 (c : Dev nD) : S3x100000x1.Idx → EReal := X11 m c main_v238
abbrev din5_2 (c : Dev nD) : S3x128x64.Idx → EReal := X11 m c main_v236
abbrev din5_3 (c : Dev nD) : S3x1x64.Idx → EReal := X11 m c main_v239

/-- LAYER 3: the drug layer of layer 2's features with the last layer's weights (64 columns), not rectified. -/
theorem hd3_eq_of (c : Dev nD)
    (hfin : ∀ (r : Fin 100000) (q : Fin 64), hd3 m c (ix2 r q) = ((0 + ((∑ k : Fin 128, (din5_0 m c (ix3 (0 : Fin 3) r k) * din5_1 m c (ix3 (0 : Fin 3) r (0 : Fin 1))) * din5_2 m c (ix3 (0 : Fin 3) k q)) + din5_3 m c (ix3 (0 : Fin 3) (0 : Fin 1) q))) + ((∑ k : Fin 128, (din5_0 m c (ix3 (1 : Fin 3) r k) * din5_1 m c (ix3 (1 : Fin 3) r (0 : Fin 1))) * din5_2 m c (ix3 (1 : Fin 3) k q)) + din5_3 m c (ix3 (1 : Fin 3) (0 : Fin 1) q))) + ((∑ k : Fin 128, (din5_0 m c (ix3 (2 : Fin 3) r k) * din5_1 m c (ix3 (2 : Fin 3) r (0 : Fin 1))) * din5_2 m c (ix3 (2 : Fin 3) k q)) + din5_3 m c (ix3 (2 : Fin 3) (0 : Fin 1) q))) :
    hd3 m c = layerDrug (hd2 m c) (hs2 m c) (i2 m c) (i3 m c) (i4 m c) (i5 m c) (w10 m c) (b11 m c) :=
  drugLayer64 (hd3 m c) (din5_0 m c) (din5_1 m c) (din5_2 m c) (din5_3 m c) hfin
    (hd2 m c) (hs2 m c) (i2 m c) (i3 m c) (i4 m c) (i5 m c) (w10 m c) (b11 m c)
    (din5_0_eq m c) (din5_1_eq m c) (din5_2_eq m c) (din5_3_eq m c)

/-! ## The drug nodes' features as arrays -/

/-- LAYER 1: the drug features are the rectified drug layer of the two embedding tables. -/
theorem hd1_eq (c : Dev nD) :
    hd1 m c = reluArr (layerDrug (a0 m c) (a1 m c) (i2 m c) (i3 m c) (i4 m c) (i5 m c) (w6 m c) (b7 m c)) :=
  hd1_eq_of m c fun r q => final1_of (T3 m) Cert.Val.k1_pay1_apply Cert.Val.k1_pay2_apply Cert.Val.k1_pay3_apply c r q

/-- LAYER 2: the same of layer 1's features, with the second layer's weights. -/
theorem hd2_eq (c : Dev nD) :
    hd2 m c = reluArr (layerDrug (hd1 m c) (hs1 m c) (i2 m c) (i3 m c) (i4 m c) (i5 m c) (w8 m c) (b9 m c)) :=
  hd2_eq_of m c fun r q => final3_of (T7 m) Cert.Val.k3_pay1_apply Cert.Val.k3_pay2_apply Cert.Val.k3_pay3_apply c r q

/-- LAYER 3: the drug layer of layer 2's features with the last layer's weights (64 columns), not rectified. -/
theorem hd3_eq (c : Dev nD) :
    hd3 m c = layerDrug (hd2 m c) (hs2 m c) (i2 m c) (i3 m c) (i4 m c) (i5 m c) (w10 m c) (b11 m c) :=
  hd3_eq_of m c fun r q => final5_of (T11 m) Cert.Val.k5_pay1_apply Cert.Val.k5_pay2_apply c r q

end Cert.KernelIdeal.Hand

end
-- ==== Proof.Val.Ref1.lean ====
/-
  Layer 1 of the reference read at an entry over the extended reals.

  Each of the layer's four graph convolutions is, at row p and column q,
      (Σ_k (agg[p, k] · inv[p]) · W[i, k, q]) + b[i, q],
  where agg is the scatter-add stage feeding it and inv the reciprocal-square-root stage of the clamped in-degrees,
  both kept as named stages and never opened, and W, b are the layer's weight and bias arguments with i the relation.
  The drug output is the left-associated sum of the three drug convolutions, and the rectifier after the layer is the
  maximum with zero.
-/
import proofs.«166004_j3839700763193_1_alg».proof.Proof.Ref.Read
import Idealize.ShloMosaic.PureOps.Ideal.Laws
import Idealize.ShloMosaic.Lib.ValueIdx

noncomputable section

open scoped BigOperators

namespace Cert.Val

open Idealize.ShloMosaic Idealize.ShloMosaic.ValueIdx Cert.ReferenceIdeal Cert.ReferenceIdeal.Gen

/-! ## The convolution whose result is stage `val_main_v36` (relation 0, 5000 rows, 128 columns) -/

/-- The weight matrix of this convolution is the first slab of the weight argument. -/
theorem W_main_v1 (x6 : (⟨S4x128x128, .f32⟩ : BufTy).Contents (Elt Ideal)) (k : Fin 128) (q : Fin 128) :
    ReadP.val_main_v1 (F := Ideal) x6 (ix2 k q) = x6 (ix3 (0 : Fin 4) k q) := by
  rw [ReadP.val_main_v1_apply, ReadP.val_main_v0_apply]
  refine congrArg x6 (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega

/-- The bias broadcast over the rows is the first row of the bias argument. -/
theorem b_main_v35 (x7 : (⟨S4x128, .f32⟩ : BufTy).Contents (Elt Ideal)) (p : Fin 5000) (q : Fin 128) :
    ReadP.val_main_v35 (F := Ideal) x7 (ix2 p q) = x7 (ix2 (0 : Fin 4) q) := by
  rw [ReadP.val_main_v35_apply, ReadP.val_main_v34_apply, ReadP.val_main_v3_apply, ReadP.val_main_v2_apply]
  refine congrArg x7 (funext fun a => Fin.ext ?_)
  have hq := q.isLt
  match a with
  | ⟨0, _⟩ => rfl
  | ⟨1, _⟩ => show q.val % 128 = q.val; omega

/-- The row factor broadcast over the columns is the reciprocal square root stage at the row. -/
theorem inv_main_v31 (x3 : (⟨S1000000, .i32⟩ : BufTy).Contents (Elt Ideal)) (p : Fin 5000) (k : Fin 128) :
    ReadP.val_main_v31 (F := Ideal) x3 (ix2 p k) = ReadP.val_main_v29 (F := Ideal) x3 (ix1 p) := by
  rw [ReadP.val_main_v31_apply, ReadP.val_main_v30_apply]
  exact congrArg (ReadP.val_main_v29 (F := Ideal) x3) (funext fun a => match a with | ⟨0, _⟩ => rfl)

/-- The convolution at (p, q): the aggregated row scaled by its row factor, times the weight column, plus the bias. -/
theorem conv_main_v36 (x0 : (⟨S100000x128, .f32⟩ : BufTy).Contents (Elt Ideal)) (x2 x3 : (⟨S1000000, .i32⟩ : BufTy).Contents (Elt Ideal)) (x6 : (⟨S4x128x128, .f32⟩ : BufTy).Contents (Elt Ideal)) (x7 : (⟨S4x128, .f32⟩ : BufTy).Contents (Elt Ideal)) (p : Fin 5000) (q : Fin 128) :
    ReadP.val_main_v36 (F := Ideal) x0 x2 x3 x6 x7 (ix2 p q)
      = (∑ k : Fin 128, (ReadP.val_main_v28 (F := Ideal) x0 x2 x3 (ix2 p k) * ReadP.val_main_v29 (F := Ideal) x3 (ix1 p)) * x6 (ix3 (0 : Fin 4) k q))
          + x7 (ix2 (0 : Fin 4) q) := by
  rw [ReadP.val_main_v36_apply, ReadP.val_main_v33_apply, b_main_v35]
  refine congrArg (· + x7 (ix2 (0 : Fin 4) q)) (Finset.sum_congr rfl fun k _ => ?_)
  have hl : ReadP.lidx_main_v33 (ix2 p q) k = ix2 p k := funext fun a => match a with | ⟨0, _⟩ => rfl | ⟨1, _⟩ => rfl
  have hr : ReadP.ridx_main_v33 (ix2 p q) k = ix2 k q := funext fun a => match a with | ⟨0, _⟩ => rfl | ⟨1, _⟩ => rfl
  rw [hl, hr, ReadP.val_main_v32_apply, inv_main_v31, W_main_v1]
  rfl

/-! ## The convolution whose result is stage `val_main_v73` (relation 1, 100000 rows, 128 columns) -/

/-- The weight matrix of this convolution is the second slab of the weight argument. -/
theorem W_main_v38 (x6 : (⟨S4x128x128, .f32⟩ : BufTy).Contents (Elt Ideal)) (k : Fin 128) (q : Fin 128) :
    ReadP.val_main_v38 (F := Ideal) x6 (ix2 k q) = x6 (ix3 (1 : Fin 4) k q) := by
  rw [ReadP.val_main_v38_apply, ReadP.val_main_v37_apply]
  refine congrArg x6 (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega

/-- The bias broadcast over the rows is the second row of the bias argument. -/
theorem b_main_v72 (x7 : (⟨S4x128, .f32⟩ : BufTy).Contents (Elt Ideal)) (p : Fin 100000) (q : Fin 128) :
    ReadP.val_main_v72 (F := Ideal) x7 (ix2 p q) = x7 (ix2 (1 : Fin 4) q) := by
  rw [ReadP.val_main_v72_apply, ReadP.val_main_v71_apply, ReadP.val_main_v40_apply, ReadP.val_main_v39_apply]
  refine congrArg x7 (funext fun a => Fin.ext ?_)
  have hq := q.isLt
  match a with
  | ⟨0, _⟩ => rfl
  | ⟨1, _⟩ => show q.val % 128 = q.val; omega

/-- The row factor broadcast over the columns is the reciprocal square root stage at the row. -/
theorem inv_main_v68 (x2 : (⟨S1000000, .i32⟩ : BufTy).Contents (Elt Ideal)) (p : Fin 100000) (k : Fin 128) :
    ReadP.val_main_v68 (F := Ideal) x2 (ix2 p k) = ReadP.val_main_v66 (F := Ideal) x2 (ix1 p) := by
  rw [ReadP.val_main_v68_apply, ReadP.val_main_v67_apply]
  exact congrArg (ReadP.val_main_v66 (F := Ideal) x2) (funext fun a => match a with | ⟨0, _⟩ => rfl)

/-- The convolution at (p, q): the aggregated row scaled by its row factor, times the weight column, plus the bias. -/
theorem conv_main_v73 (x1 : (⟨S5000x128, .f32⟩ : BufTy).Contents (Elt Ideal)) (x2 x3 : (⟨S1000000, .i32⟩ : BufTy).Contents (Elt Ideal)) (x6 : (⟨S4x128x128, .f32⟩ : BufTy).Contents (Elt Ideal)) (x7 : (⟨S4x128, .f32⟩ : BufTy).Contents (Elt Ideal)) (p : Fin 100000) (q : Fin 128) :
    ReadP.val_main_v73 (F := Ideal) x1 x2 x3 x6 x7 (ix2 p q)
      = (∑ k : Fin 128, (ReadP.val_main_v65 (F := Ideal) x1 x2 x3 (ix2 p k) * ReadP.val_main_v66 (F := Ideal) x2 (ix1 p)) * x6 (ix3 (1 : Fin 4) k q))
          + x7 (ix2 (1 : Fin 4) q) := by
  rw [ReadP.val_main_v73_apply, ReadP.val_main_v70_apply, b_main_v72]
  refine congrArg (· + x7 (ix2 (1 : Fin 4) q)) (Finset.sum_congr rfl fun k _ => ?_)
  have hl : ReadP.lidx_main_v70 (ix2 p q) k = ix2 p k := funext fun a => match a with | ⟨0, _⟩ => rfl | ⟨1, _⟩ => rfl
  have hr : ReadP.ridx_main_v70 (ix2 p q) k = ix2 k q := funext fun a => match a with | ⟨0, _⟩ => rfl | ⟨1, _⟩ => rfl
  rw [hl, hr, ReadP.val_main_v69_apply, inv_main_v68, W_main_v38]
  rfl

/-! ## The convolution whose result is stage `val_main_v110` (relation 2, 100000 rows, 128 columns) -/

/-- The weight matrix of this convolution is the third slab of the weight argument. -/
theorem W_main_v75 (x6 : (⟨S4x128x128, .f32⟩ : BufTy).Contents (Elt Ideal)) (k : Fin 128) (q : Fin 128) :
    ReadP.val_main_v75 (F := Ideal) x6 (ix2 k q) = x6 (ix3 (2 : Fin 4) k q) := by
  rw [ReadP.val_main_v75_apply, ReadP.val_main_v74_apply]
  refine congrArg x6 (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega

/-- The bias broadcast over the rows is the third row of the bias argument. -/
theorem b_main_v109 (x7 : (⟨S4x128, .f32⟩ : BufTy).Contents (Elt Ideal)) (p : Fin 100000) (q : Fin 128) :
    ReadP.val_main_v109 (F := Ideal) x7 (ix2 p q) = x7 (ix2 (2 : Fin 4) q) := by
  rw [ReadP.val_main_v109_apply, ReadP.val_main_v108_apply, ReadP.val_main_v77_apply, ReadP.val_main_v76_apply]
  refine congrArg x7 (funext fun a => Fin.ext ?_)
  have hq := q.isLt
  match a with
  | ⟨0, _⟩ => rfl
  | ⟨1, _⟩ => show q.val % 128 = q.val; omega

/-- The row factor broadcast over the columns is the reciprocal square root stage at the row. -/
theorem inv_main_v105 (x5 : (⟨S1000000, .i32⟩ : BufTy).Contents (Elt Ideal)) (p : Fin 100000) (k : Fin 128) :
    ReadP.val_main_v105 (F := Ideal) x5 (ix2 p k) = ReadP.val_main_v103 (F := Ideal) x5 (ix1 p) := by
  rw [ReadP.val_main_v105_apply, ReadP.val_main_v104_apply]
  exact congrArg (ReadP.val_main_v103 (F := Ideal) x5) (funext fun a => match a with | ⟨0, _⟩ => rfl)

/-- The convolution at (p, q): the aggregated row scaled by its row factor, times the weight column, plus the bias. -/
theorem conv_main_v110 (x0 : (⟨S100000x128, .f32⟩ : BufTy).Contents (Elt Ideal)) (x4 x5 : (⟨S1000000, .i32⟩ : BufTy).Contents (Elt Ideal)) (x6 : (⟨S4x128x128, .f32⟩ : BufTy).Contents (Elt Ideal)) (x7 : (⟨S4x128, .f32⟩ : BufTy).Contents (Elt Ideal)) (p : Fin 100000) (q : Fin 128) :
    ReadP.val_main_v110 (F := Ideal) x0 x4 x5 x6 x7 (ix2 p q)
      = (∑ k : Fin 128, (ReadP.val_main_v102 (F := Ideal) x0 x4 x5 (ix2 p k) * ReadP.val_main_v103 (F := Ideal) x5 (ix1 p)) * x6 (ix3 (2 : Fin 4) k q))
          + x7 (ix2 (2 : Fin 4) q) := by
  rw [ReadP.val_main_v110_apply, ReadP.val_main_v107_apply, b_main_v109]
  refine congrArg (· + x7 (ix2 (2 : Fin 4) q)) (Finset.sum_congr rfl fun k _ => ?_)
  have hl : ReadP.lidx_main_v107 (ix2 p q) k = ix2 p k := funext fun a => match a with | ⟨0, _⟩ => rfl | ⟨1, _⟩ => rfl
  have hr : ReadP.ridx_main_v107 (ix2 p q) k = ix2 k q := funext fun a => match a with | ⟨0, _⟩ => rfl | ⟨1, _⟩ => rfl
  rw [hl, hr, ReadP.val_main_v106_apply, inv_main_v105, W_main_v75]
  rfl

/-! ## The convolution whose result is stage `val_main_v148` (relation 3, 100000 rows, 128 columns) -/

/-- The weight matrix of this convolution is the fourth slab of the weight argument. -/
theorem W_main_v113 (x6 : (⟨S4x128x128, .f32⟩ : BufTy).Contents (Elt Ideal)) (k : Fin 128) (q : Fin 128) :
    ReadP.val_main_v113 (F := Ideal) x6 (ix2 k q) = x6 (ix3 (3 : Fin 4) k q) := by
  rw [ReadP.val_main_v113_apply, ReadP.val_main_v112_apply]
  refine congrArg x6 (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega

/-- The bias broadcast over the rows is the fourth row of the bias argument. -/
theorem b_main_v147 (x7 : (⟨S4x128, .f32⟩ : BufTy).Contents (Elt Ideal)) (p : Fin 100000) (q : Fin 128) :
    ReadP.val_main_v147 (F := Ideal) x7 (ix2 p q) = x7 (ix2 (3 : Fin 4) q) := by
  rw [ReadP.val_main_v147_apply, ReadP.val_main_v146_apply, ReadP.val_main_v115_apply, ReadP.val_main_v114_apply]
  refine congrArg x7 (funext fun a => Fin.ext ?_)
  have hq := q.isLt
  match a with
  | ⟨0, _⟩ => rfl
  | ⟨1, _⟩ => show q.val % 128 = q.val; omega

/-- The row factor broadcast over the columns is the reciprocal square root stage at the row. -/
theorem inv_main_v143 (x4 : (⟨S1000000, .i32⟩ : BufTy).Contents (Elt Ideal)) (p : Fin 100000) (k : Fin 128) :
    ReadP.val_main_v143 (F := Ideal) x4 (ix2 p k) = ReadP.val_main_v141 (F := Ideal) x4 (ix1 p) := by
  rw [ReadP.val_main_v143_apply, ReadP.val_main_v142_apply]
  exact congrArg (ReadP.val_main_v141 (F := Ideal) x4) (funext fun a => match a with | ⟨0, _⟩ => rfl)

/-- The convolution at (p, q): the aggregated row scaled by its row factor, times the weight column, plus the bias. -/
theorem conv_main_v148 (x0 : (⟨S100000x128, .f32⟩ : BufTy).Contents (Elt Ideal)) (x4 x5 : (⟨S1000000, .i32⟩ : BufTy).Contents (Elt Ideal)) (x6 : (⟨S4x128x128, .f32⟩ : BufTy).Contents (Elt Ideal)) (x7 : (⟨S4x128, .f32⟩ : BufTy).Contents (Elt Ideal)) (p : Fin 100000) (q : Fin 128) :
    ReadP.val_main_v148 (F := Ideal) x0 x4 x5 x6 x7 (ix2 p q)
      = (∑ k : Fin 128, (ReadP.val_main_v140 (F := Ideal) x0 x4 x5 (ix2 p k) * ReadP.val_main_v141 (F := Ideal) x4 (ix1 p)) * x6 (ix3 (3 : Fin 4) k q))
          + x7 (ix2 (3 : Fin 4) q) := by
  rw [ReadP.val_main_v148_apply, ReadP.val_main_v145_apply, b_main_v147]
  refine congrArg (· + x7 (ix2 (3 : Fin 4) q)) (Finset.sum_congr rfl fun k _ => ?_)
  have hl : ReadP.lidx_main_v145 (ix2 p q) k = ix2 p k := funext fun a => match a with | ⟨0, _⟩ => rfl | ⟨1, _⟩ => rfl
  have hr : ReadP.ridx_main_v145 (ix2 p q) k = ix2 k q := funext fun a => match a with | ⟨0, _⟩ => rfl | ⟨1, _⟩ => rfl
  rw [hl, hr, ReadP.val_main_v144_apply, inv_main_v143, W_main_v113]
  rfl

/-! ## The layer's drug output: the three drug convolutions added, left to right -/

/-- Stage `val_main_v149` at (p, q) is the sum of the three drug convolutions there, associated to the left. -/
theorem sum_main_v149 (x0 : (⟨S100000x128, .f32⟩ : BufTy).Contents (Elt Ideal)) (x1 : (⟨S5000x128, .f32⟩ : BufTy).Contents (Elt Ideal)) (x2 x3 x4 x5 : (⟨S1000000, .i32⟩ : BufTy).Contents (Elt Ideal)) (x6 : (⟨S4x128x128, .f32⟩ : BufTy).Contents (Elt Ideal)) (x7 : (⟨S4x128, .f32⟩ : BufTy).Contents (Elt Ideal)) (p : Fin 100000) (q : Fin 128) :
    ReadP.val_main_v149 (F := Ideal) x0 x1 x2 x3 x4 x5 x6 x7 (ix2 p q)
      = (ReadP.val_main_v73 (F := Ideal) x1 x2 x3 x6 x7 (ix2 p q) + ReadP.val_main_v110 (F := Ideal) x0 x4 x5 x6 x7 (ix2 p q)) + ReadP.val_main_v148 (F := Ideal) x0 x4 x5 x6 x7 (ix2 p q) := by
  rw [ReadP.val_main_v149_apply, ReadP.val_main_v111_apply]
  rfl

/-! ## The rectifier after the layer -/

/-- The rectifier: stage `val_main_v150` at (p, q) is the larger of stage `val_main_v149` there and zero. -/
theorem relu_main_v150 (x0 : (⟨S100000x128, .f32⟩ : BufTy).Contents (Elt Ideal)) (x1 : (⟨S5000x128, .f32⟩ : BufTy).Contents (Elt Ideal)) (x2 x3 x4 x5 : (⟨S1000000, .i32⟩ : BufTy).Contents (Elt Ideal)) (x6 : (⟨S4x128x128, .f32⟩ : BufTy).Contents (Elt Ideal)) (x7 : (⟨S4x128, .f32⟩ : BufTy).Contents (Elt Ideal)) (p : Fin 100000) (q : Fin 128) :
    ReadP.val_main_v150 (F := Ideal) x0 x1 x2 x3 x4 x5 x6 x7 (ix2 p q) = max (ReadP.val_main_v149 (F := Ideal) x0 x1 x2 x3 x4 x5 x6 x7 (ix2 p q)) 0 := by
  rw [ReadP.val_main_v150_apply, ReadP.val_main_call0_v0_apply, ReadP.val_main_call0_cst_apply]
  exact congrArg (max (ReadP.val_main_v149 (F := Ideal) x0 x1 x2 x3 x4 x5 x6 x7 (ix2 p q))) Ideal.ofBits_zero_f32

/-- The rectifier: stage `val_main_v151` at (p, q) is the larger of stage `val_main_v36` there and zero. -/
theorem relu_main_v151 (x0 : (⟨S100000x128, .f32⟩ : BufTy).Contents (Elt Ideal)) (x2 x3 : (⟨S1000000, .i32⟩ : BufTy).Contents (Elt Ideal)) (x6 : (⟨S4x128x128, .f32⟩ : BufTy).Contents (Elt Ideal)) (x7 : (⟨S4x128, .f32⟩ : BufTy).Contents (Elt Ideal)) (p : Fin 5000) (q : Fin 128) :
    ReadP.val_main_v151 (F := Ideal) x0 x2 x3 x6 x7 (ix2 p q) = max (ReadP.val_main_v36 (F := Ideal) x0 x2 x3 x6 x7 (ix2 p q)) 0 := by
  rw [ReadP.val_main_v151_apply, ReadP.val_main_call1_v0_apply, ReadP.val_main_call1_cst_apply]
  exact congrArg (max (ReadP.val_main_v36 (F := Ideal) x0 x2 x3 x6 x7 (ix2 p q))) Ideal.ofBits_zero_f32

end Cert.Val

end
-- ==== Proof.Val.RefChain1.lean ====
/-
  Layer 1 of the reference: its aggregation stages and degree factors are the shared host chains.

  Each convolution's scatter-add stage is "scale the source rows by the out-degree factor, gather them along the edges,
  add them into zero rows at the edge targets" of the layer's input, and each degree factor is the reciprocal square
  root of the degree count clamped below by one. Both programs spell these chains operation for operation alike, over
  equal literal shapes, so each equation holds by unfolding the stage names.
-/
import proofs.«166004_j3839700763193_1_alg».proof.Proof.Ref.Read
import proofs.«166004_j3839700763193_1_alg».proof.Proof.Host.Chains

set_option maxRecDepth 16384

noncomputable section

namespace Cert.Val

open Idealize.ShloMosaic Cert.ReferenceIdeal

/-! ## The aggregation and the two degree factors of the convolution whose result is stage `val_main_v36` -/

/-- The out-degree factor scaling the source rows: the shared chain "reciprocal square root of the clamped degree count". -/
theorem deg_main_v15_eq (x2 : Cert.HostK.VI Cert.KernelIdeal.S1000000) :
    ReadP.val_main_v15 (F := Ideal) x2 = Cert.HostK.invDegD x2 := by
  unfold ReadP.val_main_v15 ReadP.val_main_v9 ReadP.val_main_v7 ReadP.val_main_v8 ReadP.val_main_v5 ReadP.val_main_v6 ReadP.val_main_v4 ReadP.val_main_cst_0 ReadP.val_main_cst ReadP.val_main_cst_1
    Cert.HostK.invDegD
  rfl

/-- The in-degree factor scaling the aggregated rows: the shared chain "reciprocal square root of the clamped degree count". -/
theorem deg_main_v29_eq (x3 : Cert.HostK.VI Cert.KernelIdeal.S1000000) :
    ReadP.val_main_v29 (F := Ideal) x3 = Cert.HostK.invDegS x3 := by
  unfold ReadP.val_main_v29 ReadP.val_main_v14 ReadP.val_main_v12 ReadP.val_main_v13 ReadP.val_main_v10 ReadP.val_main_v11 ReadP.val_main_v4 ReadP.val_main_cst_2 ReadP.val_main_cst ReadP.val_main_cst_3
    Cert.HostK.invDegS
  rfl

/-- The aggregation stage is the shared chain "scale the rows, gather along the edges, add into zeros" of its input. -/
theorem agg_main_v28_eq (x0 : Cert.HostK.VF Cert.KernelIdeal.S100000x128) (x2 : Cert.HostK.VI Cert.KernelIdeal.S1000000) (x3 : Cert.HostK.VI Cert.KernelIdeal.S1000000) :
    ReadP.val_main_v28 (F := Ideal) x0 x2 x3
      = Cert.HostK.aggDS x0 x2 x3 (Cert.HostK.invDegD x2) := by
  rw [← deg_main_v15_eq]
  unfold ReadP.val_main_v28 ReadP.val_main_v26 ReadP.val_main_v27 ReadP.val_main_v25 ReadP.val_main_v18 ReadP.val_main_v17 ReadP.val_main_v16 ReadP.val_main_v24 ReadP.val_main_v23 ReadP.val_main_v20 ReadP.val_main_v22 ReadP.val_main_v19 ReadP.val_main_v21 ReadP.val_main_cst_5 ReadP.val_main_c ReadP.val_main_c_4
    Cert.HostK.aggDS Cert.HostK.normIdxD
  rfl

/-! ## The aggregation and the two degree factors of the convolution whose result is stage `val_main_v73` -/

/-- The out-degree factor scaling the source rows: the shared chain "reciprocal square root of the clamped degree count". -/
theorem deg_main_v52_eq (x3 : Cert.HostK.VI Cert.KernelIdeal.S1000000) :
    ReadP.val_main_v52 (F := Ideal) x3 = Cert.HostK.invDegS x3 := by
  unfold ReadP.val_main_v52 ReadP.val_main_v46 ReadP.val_main_v44 ReadP.val_main_v45 ReadP.val_main_v42 ReadP.val_main_v43 ReadP.val_main_v41 ReadP.val_main_cst_7 ReadP.val_main_cst_6 ReadP.val_main_cst_8
    Cert.HostK.invDegS
  rfl

/-- The in-degree factor scaling the aggregated rows: the shared chain "reciprocal square root of the clamped degree count". -/
theorem deg_main_v66_eq (x2 : Cert.HostK.VI Cert.KernelIdeal.S1000000) :
    ReadP.val_main_v66 (F := Ideal) x2 = Cert.HostK.invDegD x2 := by
  unfold ReadP.val_main_v66 ReadP.val_main_v51 ReadP.val_main_v49 ReadP.val_main_v50 ReadP.val_main_v47 ReadP.val_main_v48 ReadP.val_main_v41 ReadP.val_main_cst_9 ReadP.val_main_cst_6 ReadP.val_main_cst_10
    Cert.HostK.invDegD
  rfl

/-- The aggregation stage is the shared chain "scale the rows, gather along the edges, add into zeros" of its input. -/
theorem agg_main_v65_eq (x1 : Cert.HostK.VF Cert.KernelIdeal.S5000x128) (x2 : Cert.HostK.VI Cert.KernelIdeal.S1000000) (x3 : Cert.HostK.VI Cert.KernelIdeal.S1000000) :
    ReadP.val_main_v65 (F := Ideal) x1 x2 x3
      = Cert.HostK.aggSD x1 x3 x2 (Cert.HostK.invDegS x3) := by
  rw [← deg_main_v52_eq]
  unfold ReadP.val_main_v65 ReadP.val_main_v63 ReadP.val_main_v64 ReadP.val_main_v62 ReadP.val_main_v55 ReadP.val_main_v54 ReadP.val_main_v53 ReadP.val_main_v61 ReadP.val_main_v60 ReadP.val_main_v57 ReadP.val_main_v59 ReadP.val_main_v56 ReadP.val_main_v58 ReadP.val_main_cst_13 ReadP.val_main_c_11 ReadP.val_main_c_12
    Cert.HostK.aggSD Cert.HostK.normIdxS
  rfl

/-! ## The aggregation and the two degree factors of the convolution whose result is stage `val_main_v110` -/

/-- The out-degree factor scaling the source rows: the shared chain "reciprocal square root of the clamped degree count". -/
theorem deg_main_v89_eq (x4 : Cert.HostK.VI Cert.KernelIdeal.S1000000) :
    ReadP.val_main_v89 (F := Ideal) x4 = Cert.HostK.invDegD x4 := by
  unfold ReadP.val_main_v89 ReadP.val_main_v83 ReadP.val_main_v81 ReadP.val_main_v82 ReadP.val_main_v79 ReadP.val_main_v80 ReadP.val_main_v78 ReadP.val_main_cst_15 ReadP.val_main_cst_14 ReadP.val_main_cst_16
    Cert.HostK.invDegD
  rfl

/-- The in-degree factor scaling the aggregated rows: the shared chain "reciprocal square root of the clamped degree count". -/
theorem deg_main_v103_eq (x5 : Cert.HostK.VI Cert.KernelIdeal.S1000000) :
    ReadP.val_main_v103 (F := Ideal) x5 = Cert.HostK.invDegD x5 := by
  unfold ReadP.val_main_v103 ReadP.val_main_v88 ReadP.val_main_v86 ReadP.val_main_v87 ReadP.val_main_v84 ReadP.val_main_v85 ReadP.val_main_v78 ReadP.val_main_cst_17 ReadP.val_main_cst_14 ReadP.val_main_cst_18
    Cert.HostK.invDegD
  rfl

/-- The aggregation stage is the shared chain "scale the rows, gather along the edges, add into zeros" of its input. -/
theorem agg_main_v102_eq (x0 : Cert.HostK.VF Cert.KernelIdeal.S100000x128) (x4 : Cert.HostK.VI Cert.KernelIdeal.S1000000) (x5 : Cert.HostK.VI Cert.KernelIdeal.S1000000) :
    ReadP.val_main_v102 (F := Ideal) x0 x4 x5
      = Cert.HostK.aggDD x0 x4 x5 (Cert.HostK.invDegD x4) := by
  rw [← deg_main_v89_eq]
  unfold ReadP.val_main_v102 ReadP.val_main_v100 ReadP.val_main_v101 ReadP.val_main_v99 ReadP.val_main_v92 ReadP.val_main_v91 ReadP.val_main_v90 ReadP.val_main_v98 ReadP.val_main_v97 ReadP.val_main_v94 ReadP.val_main_v96 ReadP.val_main_v93 ReadP.val_main_v95 ReadP.val_main_cst_21 ReadP.val_main_c_19 ReadP.val_main_c_20
    Cert.HostK.aggDD Cert.HostK.normIdxD
  rfl

/-! ## The aggregation and the two degree factors of the convolution whose result is stage `val_main_v148` -/

/-- The out-degree factor scaling the source rows: the shared chain "reciprocal square root of the clamped degree count". -/
theorem deg_main_v127_eq (x5 : Cert.HostK.VI Cert.KernelIdeal.S1000000) :
    ReadP.val_main_v127 (F := Ideal) x5 = Cert.HostK.invDegD x5 := by
  unfold ReadP.val_main_v127 ReadP.val_main_v121 ReadP.val_main_v119 ReadP.val_main_v120 ReadP.val_main_v117 ReadP.val_main_v118 ReadP.val_main_v116 ReadP.val_main_cst_23 ReadP.val_main_cst_22 ReadP.val_main_cst_24
    Cert.HostK.invDegD
  rfl

/-- The in-degree factor scaling the aggregated rows: the shared chain "reciprocal square root of the clamped degree count". -/
theorem deg_main_v141_eq (x4 : Cert.HostK.VI Cert.KernelIdeal.S1000000) :
    ReadP.val_main_v141 (F := Ideal) x4 = Cert.HostK.invDegD x4 := by
  unfold ReadP.val_main_v141 ReadP.val_main_v126 ReadP.val_main_v124 ReadP.val_main_v125 ReadP.val_main_v122 ReadP.val_main_v123 ReadP.val_main_v116 ReadP.val_main_cst_25 ReadP.val_main_cst_22 ReadP.val_main_cst_26
    Cert.HostK.invDegD
  rfl

/-- The aggregation stage is the shared chain "scale the rows, gather along the edges, add into zeros" of its input. -/
theorem agg_main_v140_eq (x0 : Cert.HostK.VF Cert.KernelIdeal.S100000x128) (x4 : Cert.HostK.VI Cert.KernelIdeal.S1000000) (x5 : Cert.HostK.VI Cert.KernelIdeal.S1000000) :
    ReadP.val_main_v140 (F := Ideal) x0 x4 x5
      = Cert.HostK.aggDD x0 x5 x4 (Cert.HostK.invDegD x5) := by
  rw [← deg_main_v127_eq]
  unfold ReadP.val_main_v140 ReadP.val_main_v138 ReadP.val_main_v139 ReadP.val_main_v137 ReadP.val_main_v130 ReadP.val_main_v129 ReadP.val_main_v128 ReadP.val_main_v136 ReadP.val_main_v135 ReadP.val_main_v132 ReadP.val_main_v134 ReadP.val_main_v131 ReadP.val_main_v133 ReadP.val_main_cst_29 ReadP.val_main_c_27 ReadP.val_main_c_28
    Cert.HostK.aggDD Cert.HostK.normIdxD
  rfl

end Cert.Val

end
-- ==== Proof.Val.RefLayer1.lean ====
/-
  Layer 1 of the reference as one function of the layer's inputs: its side output is the layer function of the drug
  rows, its drug output the layer function of the drug and side rows, each followed by the rectifier. Obtained entry by entry from
  the convolutions read at an index and from the aggregation stages being the shared host chains.
-/
import proofs.«166004_j3839700763193_1_alg».proof.Proof.Val.Ref1
import proofs.«166004_j3839700763193_1_alg».proof.Proof.Val.RefChain1
import proofs.«166004_j3839700763193_1_alg».proof.Proof.Val.Spec

noncomputable section

open scoped BigOperators

namespace Cert.Val

open Idealize.ShloMosaic Idealize.ShloMosaic.ValueIdx Cert.ReferenceIdeal

/-! ## Layer 1: the two outputs as functions of the layer's inputs -/

/-- The side output before the rectifier. -/
theorem side1_pre (x0 : Cert.HostK.VF Cert.KernelIdeal.S100000x128) (x2 : Cert.HostK.VI Cert.KernelIdeal.S1000000) (x3 : Cert.HostK.VI Cert.KernelIdeal.S1000000) (x6 : Cert.HostK.VF Cert.KernelIdeal.S4x128x128) (x7 : Cert.HostK.VF Cert.KernelIdeal.S4x128) :
    ReadP.val_main_v36 (F := Ideal) x0 x2 x3 x6 x7 = layerSide x0 x2 x3 x6 x7 := by
  funext j
  obtain ⟨p, q, rfl⟩ : ∃ (p : Fin 5000) (q : Fin 128), j = ix2 p q := ⟨j 0, j 1, eq_ix2 j⟩
  rw [conv_main_v36, layerSide_apply, agg_main_v28_eq, deg_main_v29_eq]
  rfl

/-- The drug output before the rectifier. -/
theorem drug1_pre (x0 : Cert.HostK.VF Cert.KernelIdeal.S100000x128) (x1 : Cert.HostK.VF Cert.KernelIdeal.S5000x128) (x2 : Cert.HostK.VI Cert.KernelIdeal.S1000000) (x3 : Cert.HostK.VI Cert.KernelIdeal.S1000000) (x4 : Cert.HostK.VI Cert.KernelIdeal.S1000000) (x5 : Cert.HostK.VI Cert.KernelIdeal.S1000000) (x6 : Cert.HostK.VF Cert.KernelIdeal.S4x128x128) (x7 : Cert.HostK.VF Cert.KernelIdeal.S4x128) :
    ReadP.val_main_v149 (F := Ideal) x0 x1 x2 x3 x4 x5 x6 x7 = layerDrug x0 x1 x2 x3 x4 x5 x6 x7 := by
  funext j
  obtain ⟨p, q, rfl⟩ : ∃ (p : Fin 100000) (q : Fin 128), j = ix2 p q := ⟨j 0, j 1, eq_ix2 j⟩
  rw [sum_main_v149, conv_main_v73, conv_main_v110, conv_main_v148, layerDrug_apply,
    agg_main_v65_eq, deg_main_v66_eq, agg_main_v102_eq, deg_main_v103_eq,
    agg_main_v140_eq, deg_main_v141_eq]
  rfl

/-- The side output after the rectifier. -/
theorem side1_out (x0 : Cert.HostK.VF Cert.KernelIdeal.S100000x128) (x2 : Cert.HostK.VI Cert.KernelIdeal.S1000000) (x3 : Cert.HostK.VI Cert.KernelIdeal.S1000000) (x6 : Cert.HostK.VF Cert.KernelIdeal.S4x128x128) (x7 : Cert.HostK.VF Cert.KernelIdeal.S4x128) :
    ReadP.val_main_v151 (F := Ideal) x0 x2 x3 x6 x7 = reluArr (layerSide x0 x2 x3 x6 x7) := by
  rw [← side1_pre]
  funext j
  obtain ⟨p, q, rfl⟩ : ∃ (p : Fin 5000) (q : Fin 128), j = ix2 p q := ⟨j 0, j 1, eq_ix2 j⟩
  rw [relu_main_v151, reluArr_apply]

/-- The drug output after the rectifier. -/
theorem drug1_out (x0 : Cert.HostK.VF Cert.KernelIdeal.S100000x128) (x1 : Cert.HostK.VF Cert.KernelIdeal.S5000x128) (x2 : Cert.HostK.VI Cert.KernelIdeal.S1000000) (x3 : Cert.HostK.VI Cert.KernelIdeal.S1000000) (x4 : Cert.HostK.VI Cert.KernelIdeal.S1000000) (x5 : Cert.HostK.VI Cert.KernelIdeal.S1000000) (x6 : Cert.HostK.VF Cert.KernelIdeal.S4x128x128) (x7 : Cert.HostK.VF Cert.KernelIdeal.S4x128) :
    ReadP.val_main_v150 (F := Ideal) x0 x1 x2 x3 x4 x5 x6 x7 = reluArr (layerDrug x0 x1 x2 x3 x4 x5 x6 x7) := by
  rw [← drug1_pre]
  funext j
  obtain ⟨p, q, rfl⟩ : ∃ (p : Fin 100000) (q : Fin 128), j = ix2 p q := ⟨j 0, j 1, eq_ix2 j⟩
  rw [relu_main_v150, reluArr_apply]

end Cert.Val

end
-- ==== Proof.Val.Ref2.lean ====
/-
  Layer 2 of the reference read at an entry over the extended reals.

  Each of the layer's four graph convolutions is, at row p and column q,
      (Σ_k (agg[p, k] · inv[p]) · W[i, k, q]) + b[i, q],
  where agg is the scatter-add stage feeding it and inv the reciprocal-square-root stage of the clamped in-degrees,
  both kept as named stages and never opened, and W, b are the layer's weight and bias arguments with i the relation.
  The drug output is the left-associated sum of the three drug convolutions, and the rectifier after the layer is the
  maximum with zero.
-/
import proofs.«166004_j3839700763193_1_alg».proof.Proof.Ref.Read
import Idealize.ShloMosaic.PureOps.Ideal.Laws
import Idealize.ShloMosaic.Lib.ValueIdx

noncomputable section

open scoped BigOperators

namespace Cert.Val

open Idealize.ShloMosaic Idealize.ShloMosaic.ValueIdx Cert.ReferenceIdeal Cert.ReferenceIdeal.Gen

/-! ## The convolution whose result is stage `val_main_v188` (relation 0, 5000 rows, 128 columns) -/

/-- The weight matrix of this convolution is the first slab of the weight argument. -/
theorem W_main_v153 (x8 : (⟨S4x128x128, .f32⟩ : BufTy).Contents (Elt Ideal)) (k : Fin 128) (q : Fin 128) :
    ReadP.val_main_v153 (F := Ideal) x8 (ix2 k q) = x8 (ix3 (0 : Fin 4) k q) := by
  rw [ReadP.val_main_v153_apply, ReadP.val_main_v152_apply]
  refine congrArg x8 (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega

/-- The bias broadcast over the rows is the first row of the bias argument. -/
theorem b_main_v187 (x9 : (⟨S4x128, .f32⟩ : BufTy).Contents (Elt Ideal)) (p : Fin 5000) (q : Fin 128) :
    ReadP.val_main_v187 (F := Ideal) x9 (ix2 p q) = x9 (ix2 (0 : Fin 4) q) := by
  rw [ReadP.val_main_v187_apply, ReadP.val_main_v186_apply, ReadP.val_main_v155_apply, ReadP.val_main_v154_apply]
  refine congrArg x9 (funext fun a => Fin.ext ?_)
  have hq := q.isLt
  match a with
  | ⟨0, _⟩ => rfl
  | ⟨1, _⟩ => show q.val % 128 = q.val; omega

/-- The row factor broadcast over the columns is the reciprocal square root stage at the row. -/
theorem inv_main_v183 (x3 : (⟨S1000000, .i32⟩ : BufTy).Contents (Elt Ideal)) (p : Fin 5000) (k : Fin 128) :
    ReadP.val_main_v183 (F := Ideal) x3 (ix2 p k) = ReadP.val_main_v181 (F := Ideal) x3 (ix1 p) := by
  rw [ReadP.val_main_v183_apply, ReadP.val_main_v182_apply]
  exact congrArg (ReadP.val_main_v181 (F := Ideal) x3) (funext fun a => match a with | ⟨0, _⟩ => rfl)

/-- The convolution at (p, q): the aggregated row scaled by its row factor, times the weight column, plus the bias. -/
theorem conv_main_v188 (x0 : (⟨S100000x128, .f32⟩ : BufTy).Contents (Elt Ideal)) (x1 : (⟨S5000x128, .f32⟩ : BufTy).Contents (Elt Ideal)) (x2 x3 x4 x5 : (⟨S1000000, .i32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) (p : Fin 5000) (q : Fin 128) :
    ReadP.val_main_v188 (F := Ideal) x0 x1 x2 x3 x4 x5 x6 x7 x8 x9 (ix2 p q)
      = (∑ k : Fin 128, (ReadP.val_main_v180 (F := Ideal) x0 x1 x2 x3 x4 x5 x6 x7 (ix2 p k) * ReadP.val_main_v181 (F := Ideal) x3 (ix1 p)) * x8 (ix3 (0 : Fin 4) k q))
          + x9 (ix2 (0 : Fin 4) q) := by
  rw [ReadP.val_main_v188_apply, ReadP.val_main_v185_apply, b_main_v187]
  refine congrArg (· + x9 (ix2 (0 : Fin 4) q)) (Finset.sum_congr rfl fun k _ => ?_)
  have hl : ReadP.lidx_main_v185 (ix2 p q) k = ix2 p k := funext fun a => match a with | ⟨0, _⟩ => rfl | ⟨1, _⟩ => rfl
  have hr : ReadP.ridx_main_v185 (ix2 p q) k = ix2 k q := funext fun a => match a with | ⟨0, _⟩ => rfl | ⟨1, _⟩ => rfl
  rw [hl, hr, ReadP.val_main_v184_apply, inv_main_v183, W_main_v153]
  rfl

/-! ## The convolution whose result is stage `val_main_v225` (relation 1, 100000 rows, 128 columns) -/

/-- The weight matrix of this convolution is the second slab of the weight argument. -/
theorem W_main_v190 (x8 : (⟨S4x128x128, .f32⟩ : BufTy).Contents (Elt Ideal)) (k : Fin 128) (q : Fin 128) :
    ReadP.val_main_v190 (F := Ideal) x8 (ix2 k q) = x8 (ix3 (1 : Fin 4) k q) := by
  rw [ReadP.val_main_v190_apply, ReadP.val_main_v189_apply]
  refine congrArg x8 (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega

/-- The bias broadcast over the rows is the second row of the bias argument. -/
theorem b_main_v224 (x9 : (⟨S4x128, .f32⟩ : BufTy).Contents (Elt Ideal)) (p : Fin 100000) (q : Fin 128) :
    ReadP.val_main_v224 (F := Ideal) x9 (ix2 p q) = x9 (ix2 (1 : Fin 4) q) := by
  rw [ReadP.val_main_v224_apply, ReadP.val_main_v223_apply, ReadP.val_main_v192_apply, ReadP.val_main_v191_apply]
  refine congrArg x9 (funext fun a => Fin.ext ?_)
  have hq := q.isLt
  match a with
  | ⟨0, _⟩ => rfl
  | ⟨1, _⟩ => show q.val % 128 = q.val; omega

/-- The row factor broadcast over the columns is the reciprocal square root stage at the row. -/
theorem inv_main_v220 (x2 : (⟨S1000000, .i32⟩ : BufTy).Contents (Elt Ideal)) (p : Fin 100000) (k : Fin 128) :
    ReadP.val_main_v220 (F := Ideal) x2 (ix2 p k) = ReadP.val_main_v218 (F := Ideal) x2 (ix1 p) := by
  rw [ReadP.val_main_v220_apply, ReadP.val_main_v219_apply]
  exact congrArg (ReadP.val_main_v218 (F := Ideal) x2) (funext fun a => match a with | ⟨0, _⟩ => rfl)

/-- The convolution at (p, q): the aggregated row scaled by its row factor, times the weight column, plus the bias. -/
theorem conv_main_v225 (x0 : (⟨S100000x128, .f32⟩ : BufTy).Contents (Elt Ideal)) (x2 x3 : (⟨S1000000, .i32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) (p : Fin 100000) (q : Fin 128) :
    ReadP.val_main_v225 (F := Ideal) x0 x2 x3 x6 x7 x8 x9 (ix2 p q)
      = (∑ k : Fin 128, (ReadP.val_main_v217 (F := Ideal) x0 x2 x3 x6 x7 (ix2 p k) * ReadP.val_main_v218 (F := Ideal) x2 (ix1 p)) * x8 (ix3 (1 : Fin 4) k q))
          + x9 (ix2 (1 : Fin 4) q) := by
  rw [ReadP.val_main_v225_apply, ReadP.val_main_v222_apply, b_main_v224]
  refine congrArg (· + x9 (ix2 (1 : Fin 4) q)) (Finset.sum_congr rfl fun k _ => ?_)
  have hl : ReadP.lidx_main_v222 (ix2 p q) k = ix2 p k := funext fun a => match a with | ⟨0, _⟩ => rfl | ⟨1, _⟩ => rfl
  have hr : ReadP.ridx_main_v222 (ix2 p q) k = ix2 k q := funext fun a => match a with | ⟨0, _⟩ => rfl | ⟨1, _⟩ => rfl
  rw [hl, hr, ReadP.val_main_v221_apply, inv_main_v220, W_main_v190]
  rfl

/-! ## The convolution whose result is stage `val_main_v262` (relation 2, 100000 rows, 128 columns) -/

/-- The weight matrix of this convolution is the third slab of the weight argument. -/
theorem W_main_v227 (x8 : (⟨S4x128x128, .f32⟩ : BufTy).Contents (Elt Ideal)) (k : Fin 128) (q : Fin 128) :
    ReadP.val_main_v227 (F := Ideal) x8 (ix2 k q) = x8 (ix3 (2 : Fin 4) k q) := by
  rw [ReadP.val_main_v227_apply, ReadP.val_main_v226_apply]
  refine congrArg x8 (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega

/-- The bias broadcast over the rows is the third row of the bias argument. -/
theorem b_main_v261 (x9 : (⟨S4x128, .f32⟩ : BufTy).Contents (Elt Ideal)) (p : Fin 100000) (q : Fin 128) :
    ReadP.val_main_v261 (F := Ideal) x9 (ix2 p q) = x9 (ix2 (2 : Fin 4) q) := by
  rw [ReadP.val_main_v261_apply, ReadP.val_main_v260_apply, ReadP.val_main_v229_apply, ReadP.val_main_v228_apply]
  refine congrArg x9 (funext fun a => Fin.ext ?_)
  have hq := q.isLt
  match a with
  | ⟨0, _⟩ => rfl
  | ⟨1, _⟩ => show q.val % 128 = q.val; omega

/-- The row factor broadcast over the columns is the reciprocal square root stage at the row. -/
theorem inv_main_v257 (x5 : (⟨S1000000, .i32⟩ : BufTy).Contents (Elt Ideal)) (p : Fin 100000) (k : Fin 128) :
    ReadP.val_main_v257 (F := Ideal) x5 (ix2 p k) = ReadP.val_main_v255 (F := Ideal) x5 (ix1 p) := by
  rw [ReadP.val_main_v257_apply, ReadP.val_main_v256_apply]
  exact congrArg (ReadP.val_main_v255 (F := Ideal) x5) (funext fun a => match a with | ⟨0, _⟩ => rfl)

/-- The convolution at (p, q): the aggregated row scaled by its row factor, times the weight column, plus the bias. -/
theorem conv_main_v262 (x0 : (⟨S100000x128, .f32⟩ : BufTy).Contents (Elt Ideal)) (x1 : (⟨S5000x128, .f32⟩ : BufTy).Contents (Elt Ideal)) (x2 x3 x4 x5 : (⟨S1000000, .i32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) (p : Fin 100000) (q : Fin 128) :
    ReadP.val_main_v262 (F := Ideal) x0 x1 x2 x3 x4 x5 x6 x7 x8 x9 (ix2 p q)
      = (∑ k : Fin 128, (ReadP.val_main_v254 (F := Ideal) x0 x1 x2 x3 x4 x5 x6 x7 (ix2 p k) * ReadP.val_main_v255 (F := Ideal) x5 (ix1 p)) * x8 (ix3 (2 : Fin 4) k q))
          + x9 (ix2 (2 : Fin 4) q) := by
  rw [ReadP.val_main_v262_apply, ReadP.val_main_v259_apply, b_main_v261]
  refine congrArg (· + x9 (ix2 (2 : Fin 4) q)) (Finset.sum_congr rfl fun k _ => ?_)
  have hl : ReadP.lidx_main_v259 (ix2 p q) k = ix2 p k := funext fun a => match a with | ⟨0, _⟩ => rfl | ⟨1, _⟩ => rfl
  have hr : ReadP.ridx_main_v259 (ix2 p q) k = ix2 k q := funext fun a => match a with | ⟨0, _⟩ => rfl | ⟨1, _⟩ => rfl
  rw [hl, hr, ReadP.val_main_v258_apply, inv_main_v257, W_main_v227]
  rfl

/-! ## The convolution whose result is stage `val_main_v300` (relation 3, 100000 rows, 128 columns) -/

/-- The weight matrix of this convolution is the fourth slab of the weight argument. -/
theorem W_main_v265 (x8 : (⟨S4x128x128, .f32⟩ : BufTy).Contents (Elt Ideal)) (k : Fin 128) (q : Fin 128) :
    ReadP.val_main_v265 (F := Ideal) x8 (ix2 k q) = x8 (ix3 (3 : Fin 4) k q) := by
  rw [ReadP.val_main_v265_apply, ReadP.val_main_v264_apply]
  refine congrArg x8 (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega

/-- The bias broadcast over the rows is the fourth row of the bias argument. -/
theorem b_main_v299 (x9 : (⟨S4x128, .f32⟩ : BufTy).Contents (Elt Ideal)) (p : Fin 100000) (q : Fin 128) :
    ReadP.val_main_v299 (F := Ideal) x9 (ix2 p q) = x9 (ix2 (3 : Fin 4) q) := by
  rw [ReadP.val_main_v299_apply, ReadP.val_main_v298_apply, ReadP.val_main_v267_apply, ReadP.val_main_v266_apply]
  refine congrArg x9 (funext fun a => Fin.ext ?_)
  have hq := q.isLt
  match a with
  | ⟨0, _⟩ => rfl
  | ⟨1, _⟩ => show q.val % 128 = q.val; omega

/-- The row factor broadcast over the columns is the reciprocal square root stage at the row. -/
theorem inv_main_v295 (x4 : (⟨S1000000, .i32⟩ : BufTy).Contents (Elt Ideal)) (p : Fin 100000) (k : Fin 128) :
    ReadP.val_main_v295 (F := Ideal) x4 (ix2 p k) = ReadP.val_main_v293 (F := Ideal) x4 (ix1 p) := by
  rw [ReadP.val_main_v295_apply, ReadP.val_main_v294_apply]
  exact congrArg (ReadP.val_main_v293 (F := Ideal) x4) (funext fun a => match a with | ⟨0, _⟩ => rfl)

/-- The convolution at (p, q): the aggregated row scaled by its row factor, times the weight column, plus the bias. -/
theorem conv_main_v300 (x0 : (⟨S100000x128, .f32⟩ : BufTy).Contents (Elt Ideal)) (x1 : (⟨S5000x128, .f32⟩ : BufTy).Contents (Elt Ideal)) (x2 x3 x4 x5 : (⟨S1000000, .i32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) (p : Fin 100000) (q : Fin 128) :
    ReadP.val_main_v300 (F := Ideal) x0 x1 x2 x3 x4 x5 x6 x7 x8 x9 (ix2 p q)
      = (∑ k : Fin 128, (ReadP.val_main_v292 (F := Ideal) x0 x1 x2 x3 x4 x5 x6 x7 (ix2 p k) * ReadP.val_main_v293 (F := Ideal) x4 (ix1 p)) * x8 (ix3 (3 : Fin 4) k q))
          + x9 (ix2 (3 : Fin 4) q) := by
  rw [ReadP.val_main_v300_apply, ReadP.val_main_v297_apply, b_main_v299]
  refine congrArg (· + x9 (ix2 (3 : Fin 4) q)) (Finset.sum_congr rfl fun k _ => ?_)
  have hl : ReadP.lidx_main_v297 (ix2 p q) k = ix2 p k := funext fun a => match a with | ⟨0, _⟩ => rfl | ⟨1, _⟩ => rfl
  have hr : ReadP.ridx_main_v297 (ix2 p q) k = ix2 k q := funext fun a => match a with | ⟨0, _⟩ => rfl | ⟨1, _⟩ => rfl
  rw [hl, hr, ReadP.val_main_v296_apply, inv_main_v295, W_main_v265]
  rfl

/-! ## The layer's drug output: the three drug convolutions added, left to right -/

/-- Stage `val_main_v301` at (p, q) is the sum of the three drug convolutions there, associated to the left. -/
theorem sum_main_v301 (x0 : (⟨S100000x128, .f32⟩ : BufTy).Contents (Elt Ideal)) (x1 : (⟨S5000x128, .f32⟩ : BufTy).Contents (Elt Ideal)) (x2 x3 x4 x5 : (⟨S1000000, .i32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) (p : Fin 100000) (q : Fin 128) :
    ReadP.val_main_v301 (F := Ideal) x0 x1 x2 x3 x4 x5 x6 x7 x8 x9 (ix2 p q)
      = (ReadP.val_main_v225 (F := Ideal) x0 x2 x3 x6 x7 x8 x9 (ix2 p q) + ReadP.val_main_v262 (F := Ideal) x0 x1 x2 x3 x4 x5 x6 x7 x8 x9 (ix2 p q)) + ReadP.val_main_v300 (F := Ideal) x0 x1 x2 x3 x4 x5 x6 x7 x8 x9 (ix2 p q) := by
  rw [ReadP.val_main_v301_apply, ReadP.val_main_v263_apply]
  rfl

/-! ## The rectifier after the layer -/

/-- The rectifier: stage `val_main_v302` at (p, q) is the larger of stage `val_main_v301` there and zero. -/
theorem relu_main_v302 (x0 : (⟨S100000x128, .f32⟩ : BufTy).Contents (Elt Ideal)) (x1 : (⟨S5000x128, .f32⟩ : BufTy).Contents (Elt Ideal)) (x2 x3 x4 x5 : (⟨S1000000, .i32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) (p : Fin 100000) (q : Fin 128) :
    ReadP.val_main_v302 (F := Ideal) x0 x1 x2 x3 x4 x5 x6 x7 x8 x9 (ix2 p q) = max (ReadP.val_main_v301 (F := Ideal) x0 x1 x2 x3 x4 x5 x6 x7 x8 x9 (ix2 p q)) 0 := by
  rw [ReadP.val_main_v302_apply, ReadP.val_main_call2_v0_apply, ReadP.val_main_call2_cst_apply]
  exact congrArg (max (ReadP.val_main_v301 (F := Ideal) x0 x1 x2 x3 x4 x5 x6 x7 x8 x9 (ix2 p q))) Ideal.ofBits_zero_f32

/-- The rectifier: stage `val_main_v303` at (p, q) is the larger of stage `val_main_v188` there and zero. -/
theorem relu_main_v303 (x0 : (⟨S100000x128, .f32⟩ : BufTy).Contents (Elt Ideal)) (x1 : (⟨S5000x128, .f32⟩ : BufTy).Contents (Elt Ideal)) (x2 x3 x4 x5 : (⟨S1000000, .i32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) (p : Fin 5000) (q : Fin 128) :
    ReadP.val_main_v303 (F := Ideal) x0 x1 x2 x3 x4 x5 x6 x7 x8 x9 (ix2 p q) = max (ReadP.val_main_v188 (F := Ideal) x0 x1 x2 x3 x4 x5 x6 x7 x8 x9 (ix2 p q)) 0 := by
  rw [ReadP.val_main_v303_apply, ReadP.val_main_call3_v0_apply, ReadP.val_main_call3_cst_apply]
  exact congrArg (max (ReadP.val_main_v188 (F := Ideal) x0 x1 x2 x3 x4 x5 x6 x7 x8 x9 (ix2 p q))) Ideal.ofBits_zero_f32

end Cert.Val

end
-- ==== Proof.Val.RefChain2.lean ====
/-
  Layer 2 of the reference: its aggregation stages and degree factors are the shared host chains.

  Each convolution's scatter-add stage is "scale the source rows by the out-degree factor, gather them along the edges,
  add them into zero rows at the edge targets" of the layer's input, and each degree factor is the reciprocal square
  root of the degree count clamped below by one. Both programs spell these chains operation for operation alike, over
  equal literal shapes, so each equation holds by unfolding the stage names.
-/
import proofs.«166004_j3839700763193_1_alg».proof.Proof.Ref.Read
import proofs.«166004_j3839700763193_1_alg».proof.Proof.Host.Chains

set_option maxRecDepth 16384

noncomputable section

namespace Cert.Val

open Idealize.ShloMosaic Cert.ReferenceIdeal

/-! ## The aggregation and the two degree factors of the convolution whose result is stage `val_main_v188` -/

/-- The out-degree factor scaling the source rows: the shared chain "reciprocal square root of the clamped degree count". -/
theorem deg_main_v167_eq (x2 : Cert.HostK.VI Cert.KernelIdeal.S1000000) :
    ReadP.val_main_v167 (F := Ideal) x2 = Cert.HostK.invDegD x2 := by
  unfold ReadP.val_main_v167 ReadP.val_main_v161 ReadP.val_main_v159 ReadP.val_main_v160 ReadP.val_main_v157 ReadP.val_main_v158 ReadP.val_main_v156 ReadP.val_main_cst_31 ReadP.val_main_cst_30 ReadP.val_main_cst_32
    Cert.HostK.invDegD
  rfl

/-- The in-degree factor scaling the aggregated rows: the shared chain "reciprocal square root of the clamped degree count". -/
theorem deg_main_v181_eq (x3 : Cert.HostK.VI Cert.KernelIdeal.S1000000) :
    ReadP.val_main_v181 (F := Ideal) x3 = Cert.HostK.invDegS x3 := by
  unfold ReadP.val_main_v181 ReadP.val_main_v166 ReadP.val_main_v164 ReadP.val_main_v165 ReadP.val_main_v162 ReadP.val_main_v163 ReadP.val_main_v156 ReadP.val_main_cst_33 ReadP.val_main_cst_30 ReadP.val_main_cst_34
    Cert.HostK.invDegS
  rfl

/-- The aggregation stage is the shared chain "scale the rows, gather along the edges, add into zeros" of its input. -/
theorem agg_main_v180_eq (x0 : Cert.HostK.VF Cert.KernelIdeal.S100000x128) (x1 : Cert.HostK.VF Cert.KernelIdeal.S5000x128) (x2 : Cert.HostK.VI Cert.KernelIdeal.S1000000) (x3 : Cert.HostK.VI Cert.KernelIdeal.S1000000) (x4 : Cert.HostK.VI Cert.KernelIdeal.S1000000) (x5 : Cert.HostK.VI Cert.KernelIdeal.S1000000) (x6 : Cert.HostK.VF Cert.KernelIdeal.S4x128x128) (x7 : Cert.HostK.VF Cert.KernelIdeal.S4x128) :
    ReadP.val_main_v180 (F := Ideal) x0 x1 x2 x3 x4 x5 x6 x7
      = Cert.HostK.aggDS (ReadP.val_main_v150 (F := Ideal) x0 x1 x2 x3 x4 x5 x6 x7) x2 x3 (Cert.HostK.invDegD x2) := by
  rw [← deg_main_v167_eq]
  unfold ReadP.val_main_v180 ReadP.val_main_v178 ReadP.val_main_v179 ReadP.val_main_v177 ReadP.val_main_v170 ReadP.val_main_v169 ReadP.val_main_v168 ReadP.val_main_v176 ReadP.val_main_v175 ReadP.val_main_v172 ReadP.val_main_v174 ReadP.val_main_v171 ReadP.val_main_v173 ReadP.val_main_cst_37 ReadP.val_main_c_35 ReadP.val_main_c_36
    Cert.HostK.aggDS Cert.HostK.normIdxD
  rfl

/-! ## The aggregation and the two degree factors of the convolution whose result is stage `val_main_v225` -/

/-- The out-degree factor scaling the source rows: the shared chain "reciprocal square root of the clamped degree count". -/
theorem deg_main_v204_eq (x3 : Cert.HostK.VI Cert.KernelIdeal.S1000000) :
    ReadP.val_main_v204 (F := Ideal) x3 = Cert.HostK.invDegS x3 := by
  unfold ReadP.val_main_v204 ReadP.val_main_v198 ReadP.val_main_v196 ReadP.val_main_v197 ReadP.val_main_v194 ReadP.val_main_v195 ReadP.val_main_v193 ReadP.val_main_cst_39 ReadP.val_main_cst_38 ReadP.val_main_cst_40
    Cert.HostK.invDegS
  rfl

/-- The in-degree factor scaling the aggregated rows: the shared chain "reciprocal square root of the clamped degree count". -/
theorem deg_main_v218_eq (x2 : Cert.HostK.VI Cert.KernelIdeal.S1000000) :
    ReadP.val_main_v218 (F := Ideal) x2 = Cert.HostK.invDegD x2 := by
  unfold ReadP.val_main_v218 ReadP.val_main_v203 ReadP.val_main_v201 ReadP.val_main_v202 ReadP.val_main_v199 ReadP.val_main_v200 ReadP.val_main_v193 ReadP.val_main_cst_41 ReadP.val_main_cst_38 ReadP.val_main_cst_42
    Cert.HostK.invDegD
  rfl

/-- The aggregation stage is the shared chain "scale the rows, gather along the edges, add into zeros" of its input. -/
theorem agg_main_v217_eq (x0 : Cert.HostK.VF Cert.KernelIdeal.S100000x128) (x2 : Cert.HostK.VI Cert.KernelIdeal.S1000000) (x3 : Cert.HostK.VI Cert.KernelIdeal.S1000000) (x6 : Cert.HostK.VF Cert.KernelIdeal.S4x128x128) (x7 : Cert.HostK.VF Cert.KernelIdeal.S4x128) :
    ReadP.val_main_v217 (F := Ideal) x0 x2 x3 x6 x7
      = Cert.HostK.aggSD (ReadP.val_main_v151 (F := Ideal) x0 x2 x3 x6 x7) x3 x2 (Cert.HostK.invDegS x3) := by
  rw [← deg_main_v204_eq]
  unfold ReadP.val_main_v217 ReadP.val_main_v215 ReadP.val_main_v216 ReadP.val_main_v214 ReadP.val_main_v207 ReadP.val_main_v206 ReadP.val_main_v205 ReadP.val_main_v213 ReadP.val_main_v212 ReadP.val_main_v209 ReadP.val_main_v211 ReadP.val_main_v208 ReadP.val_main_v210 ReadP.val_main_cst_45 ReadP.val_main_c_43 ReadP.val_main_c_44
    Cert.HostK.aggSD Cert.HostK.normIdxS
  rfl

/-! ## The aggregation and the two degree factors of the convolution whose result is stage `val_main_v262` -/

/-- The out-degree factor scaling the source rows: the shared chain "reciprocal square root of the clamped degree count". -/
theorem deg_main_v241_eq (x4 : Cert.HostK.VI Cert.KernelIdeal.S1000000) :
    ReadP.val_main_v241 (F := Ideal) x4 = Cert.HostK.invDegD x4 := by
  unfold ReadP.val_main_v241 ReadP.val_main_v235 ReadP.val_main_v233 ReadP.val_main_v234 ReadP.val_main_v231 ReadP.val_main_v232 ReadP.val_main_v230 ReadP.val_main_cst_47 ReadP.val_main_cst_46 ReadP.val_main_cst_48
    Cert.HostK.invDegD
  rfl

/-- The in-degree factor scaling the aggregated rows: the shared chain "reciprocal square root of the clamped degree count". -/
theorem deg_main_v255_eq (x5 : Cert.HostK.VI Cert.KernelIdeal.S1000000) :
    ReadP.val_main_v255 (F := Ideal) x5 = Cert.HostK.invDegD x5 := by
  unfold ReadP.val_main_v255 ReadP.val_main_v240 ReadP.val_main_v238 ReadP.val_main_v239 ReadP.val_main_v236 ReadP.val_main_v237 ReadP.val_main_v230 ReadP.val_main_cst_49 ReadP.val_main_cst_46 ReadP.val_main_cst_50
    Cert.HostK.invDegD
  rfl

/-- The aggregation stage is the shared chain "scale the rows, gather along the edges, add into zeros" of its input. -/
theorem agg_main_v254_eq (x0 : Cert.HostK.VF Cert.KernelIdeal.S100000x128) (x1 : Cert.HostK.VF Cert.KernelIdeal.S5000x128) (x2 : Cert.HostK.VI Cert.KernelIdeal.S1000000) (x3 : Cert.HostK.VI Cert.KernelIdeal.S1000000) (x4 : Cert.HostK.VI Cert.KernelIdeal.S1000000) (x5 : Cert.HostK.VI Cert.KernelIdeal.S1000000) (x6 : Cert.HostK.VF Cert.KernelIdeal.S4x128x128) (x7 : Cert.HostK.VF Cert.KernelIdeal.S4x128) :
    ReadP.val_main_v254 (F := Ideal) x0 x1 x2 x3 x4 x5 x6 x7
      = Cert.HostK.aggDD (ReadP.val_main_v150 (F := Ideal) x0 x1 x2 x3 x4 x5 x6 x7) x4 x5 (Cert.HostK.invDegD x4) := by
  rw [← deg_main_v241_eq]
  unfold ReadP.val_main_v254 ReadP.val_main_v252 ReadP.val_main_v253 ReadP.val_main_v251 ReadP.val_main_v244 ReadP.val_main_v243 ReadP.val_main_v242 ReadP.val_main_v250 ReadP.val_main_v249 ReadP.val_main_v246 ReadP.val_main_v248 ReadP.val_main_v245 ReadP.val_main_v247 ReadP.val_main_cst_53 ReadP.val_main_c_51 ReadP.val_main_c_52
    Cert.HostK.aggDD Cert.HostK.normIdxD
  rfl

/-! ## The aggregation and the two degree factors of the convolution whose result is stage `val_main_v300` -/

/-- The out-degree factor scaling the source rows: the shared chain "reciprocal square root of the clamped degree count". -/
theorem deg_main_v279_eq (x5 : Cert.HostK.VI Cert.KernelIdeal.S1000000) :
    ReadP.val_main_v279 (F := Ideal) x5 = Cert.HostK.invDegD x5 := by
  unfold ReadP.val_main_v279 ReadP.val_main_v273 ReadP.val_main_v271 ReadP.val_main_v272 ReadP.val_main_v269 ReadP.val_main_v270 ReadP.val_main_v268 ReadP.val_main_cst_55 ReadP.val_main_cst_54 ReadP.val_main_cst_56
    Cert.HostK.invDegD
  rfl

/-- The in-degree factor scaling the aggregated rows: the shared chain "reciprocal square root of the clamped degree count". -/
theorem deg_main_v293_eq (x4 : Cert.HostK.VI Cert.KernelIdeal.S1000000) :
    ReadP.val_main_v293 (F := Ideal) x4 = Cert.HostK.invDegD x4 := by
  unfold ReadP.val_main_v293 ReadP.val_main_v278 ReadP.val_main_v276 ReadP.val_main_v277 ReadP.val_main_v274 ReadP.val_main_v275 ReadP.val_main_v268 ReadP.val_main_cst_57 ReadP.val_main_cst_54 ReadP.val_main_cst_58
    Cert.HostK.invDegD
  rfl

/-- The aggregation stage is the shared chain "scale the rows, gather along the edges, add into zeros" of its input. -/
theorem agg_main_v292_eq (x0 : Cert.HostK.VF Cert.KernelIdeal.S100000x128) (x1 : Cert.HostK.VF Cert.KernelIdeal.S5000x128) (x2 : Cert.HostK.VI Cert.KernelIdeal.S1000000) (x3 : Cert.HostK.VI Cert.KernelIdeal.S1000000) (x4 : Cert.HostK.VI Cert.KernelIdeal.S1000000) (x5 : Cert.HostK.VI Cert.KernelIdeal.S1000000) (x6 : Cert.HostK.VF Cert.KernelIdeal.S4x128x128) (x7 : Cert.HostK.VF Cert.KernelIdeal.S4x128) :
    ReadP.val_main_v292 (F := Ideal) x0 x1 x2 x3 x4 x5 x6 x7
      = Cert.HostK.aggDD (ReadP.val_main_v150 (F := Ideal) x0 x1 x2 x3 x4 x5 x6 x7) x5 x4 (Cert.HostK.invDegD x5) := by
  rw [← deg_main_v279_eq]
  unfold ReadP.val_main_v292 ReadP.val_main_v290 ReadP.val_main_v291 ReadP.val_main_v289 ReadP.val_main_v282 ReadP.val_main_v281 ReadP.val_main_v280 ReadP.val_main_v288 ReadP.val_main_v287 ReadP.val_main_v284 ReadP.val_main_v286 ReadP.val_main_v283 ReadP.val_main_v285 ReadP.val_main_cst_61 ReadP.val_main_c_59 ReadP.val_main_c_60
    Cert.HostK.aggDD Cert.HostK.normIdxD
  rfl

end Cert.Val

end
-- ==== Proof.Val.RefLayer2.lean ====
/-
  Layer 2 of the reference as one function of the layer's inputs: its side output is the layer function of the drug
  rows, its drug output the layer function of the drug and side rows, each followed by the rectifier. Obtained entry by entry from
  the convolutions read at an index and from the aggregation stages being the shared host chains.
-/
import proofs.«166004_j3839700763193_1_alg».proof.Proof.Val.Ref2
import proofs.«166004_j3839700763193_1_alg».proof.Proof.Val.RefChain2
import proofs.«166004_j3839700763193_1_alg».proof.Proof.Val.Spec

noncomputable section

open scoped BigOperators

namespace Cert.Val

open Idealize.ShloMosaic Idealize.ShloMosaic.ValueIdx Cert.ReferenceIdeal

/-! ## Layer 2: the two outputs as functions of the layer's inputs -/

/-- The side output before the rectifier. -/
theorem side2_pre (x0 : Cert.HostK.VF Cert.KernelIdeal.S100000x128) (x1 : Cert.HostK.VF Cert.KernelIdeal.S5000x128) (x2 : Cert.HostK.VI Cert.KernelIdeal.S1000000) (x3 : Cert.HostK.VI Cert.KernelIdeal.S1000000) (x4 : Cert.HostK.VI Cert.KernelIdeal.S1000000) (x5 : Cert.HostK.VI Cert.KernelIdeal.S1000000) (x6 : Cert.HostK.VF Cert.KernelIdeal.S4x128x128) (x7 : Cert.HostK.VF Cert.KernelIdeal.S4x128) (x8 : Cert.HostK.VF Cert.KernelIdeal.S4x128x128) (x9 : Cert.HostK.VF Cert.KernelIdeal.S4x128) :
    ReadP.val_main_v188 (F := Ideal) x0 x1 x2 x3 x4 x5 x6 x7 x8 x9 = layerSide (ReadP.val_main_v150 (F := Ideal) x0 x1 x2 x3 x4 x5 x6 x7) x2 x3 x8 x9 := by
  funext j
  obtain ⟨p, q, rfl⟩ : ∃ (p : Fin 5000) (q : Fin 128), j = ix2 p q := ⟨j 0, j 1, eq_ix2 j⟩
  rw [conv_main_v188, layerSide_apply, agg_main_v180_eq, deg_main_v181_eq]
  rfl

/-- The drug output before the rectifier. -/
theorem drug2_pre (x0 : Cert.HostK.VF Cert.KernelIdeal.S100000x128) (x1 : Cert.HostK.VF Cert.KernelIdeal.S5000x128) (x2 : Cert.HostK.VI Cert.KernelIdeal.S1000000) (x3 : Cert.HostK.VI Cert.KernelIdeal.S1000000) (x4 : Cert.HostK.VI Cert.KernelIdeal.S1000000) (x5 : Cert.HostK.VI Cert.KernelIdeal.S1000000) (x6 : Cert.HostK.VF Cert.KernelIdeal.S4x128x128) (x7 : Cert.HostK.VF Cert.KernelIdeal.S4x128) (x8 : Cert.HostK.VF Cert.KernelIdeal.S4x128x128) (x9 : Cert.HostK.VF Cert.KernelIdeal.S4x128) :
    ReadP.val_main_v301 (F := Ideal) x0 x1 x2 x3 x4 x5 x6 x7 x8 x9 = layerDrug (ReadP.val_main_v150 (F := Ideal) x0 x1 x2 x3 x4 x5 x6 x7) (ReadP.val_main_v151 (F := Ideal) x0 x2 x3 x6 x7) x2 x3 x4 x5 x8 x9 := by
  funext j
  obtain ⟨p, q, rfl⟩ : ∃ (p : Fin 100000) (q : Fin 128), j = ix2 p q := ⟨j 0, j 1, eq_ix2 j⟩
  rw [sum_main_v301, conv_main_v225, conv_main_v262, conv_main_v300, layerDrug_apply,
    agg_main_v217_eq, deg_main_v218_eq, agg_main_v254_eq, deg_main_v255_eq,
    agg_main_v292_eq, deg_main_v293_eq]
  rfl

/-- The side output after the rectifier. -/
theorem side2_out (x0 : Cert.HostK.VF Cert.KernelIdeal.S100000x128) (x1 : Cert.HostK.VF Cert.KernelIdeal.S5000x128) (x2 : Cert.HostK.VI Cert.KernelIdeal.S1000000) (x3 : Cert.HostK.VI Cert.KernelIdeal.S1000000) (x4 : Cert.HostK.VI Cert.KernelIdeal.S1000000) (x5 : Cert.HostK.VI Cert.KernelIdeal.S1000000) (x6 : Cert.HostK.VF Cert.KernelIdeal.S4x128x128) (x7 : Cert.HostK.VF Cert.KernelIdeal.S4x128) (x8 : Cert.HostK.VF Cert.KernelIdeal.S4x128x128) (x9 : Cert.HostK.VF Cert.KernelIdeal.S4x128) :
    ReadP.val_main_v303 (F := Ideal) x0 x1 x2 x3 x4 x5 x6 x7 x8 x9 = reluArr (layerSide (ReadP.val_main_v150 (F := Ideal) x0 x1 x2 x3 x4 x5 x6 x7) x2 x3 x8 x9) := by
  rw [← side2_pre]
  funext j
  obtain ⟨p, q, rfl⟩ : ∃ (p : Fin 5000) (q : Fin 128), j = ix2 p q := ⟨j 0, j 1, eq_ix2 j⟩
  rw [relu_main_v303, reluArr_apply]

/-- The drug output after the rectifier. -/
theorem drug2_out (x0 : Cert.HostK.VF Cert.KernelIdeal.S100000x128) (x1 : Cert.HostK.VF Cert.KernelIdeal.S5000x128) (x2 : Cert.HostK.VI Cert.KernelIdeal.S1000000) (x3 : Cert.HostK.VI Cert.KernelIdeal.S1000000) (x4 : Cert.HostK.VI Cert.KernelIdeal.S1000000) (x5 : Cert.HostK.VI Cert.KernelIdeal.S1000000) (x6 : Cert.HostK.VF Cert.KernelIdeal.S4x128x128) (x7 : Cert.HostK.VF Cert.KernelIdeal.S4x128) (x8 : Cert.HostK.VF Cert.KernelIdeal.S4x128x128) (x9 : Cert.HostK.VF Cert.KernelIdeal.S4x128) :
    ReadP.val_main_v302 (F := Ideal) x0 x1 x2 x3 x4 x5 x6 x7 x8 x9 = reluArr (layerDrug (ReadP.val_main_v150 (F := Ideal) x0 x1 x2 x3 x4 x5 x6 x7) (ReadP.val_main_v151 (F := Ideal) x0 x2 x3 x6 x7) x2 x3 x4 x5 x8 x9) := by
  rw [← drug2_pre]
  funext j
  obtain ⟨p, q, rfl⟩ : ∃ (p : Fin 100000) (q : Fin 128), j = ix2 p q := ⟨j 0, j 1, eq_ix2 j⟩
  rw [relu_main_v302, reluArr_apply]

end Cert.Val

end
-- ==== Proof.Val.Ref3.lean ====
/-
  Layer 3 of the reference read at an entry over the extended reals.

  Each of the layer's four graph convolutions is, at row p and column q,
      (Σ_k (agg[p, k] · inv[p]) · W[i, k, q]) + b[i, q],
  where agg is the scatter-add stage feeding it and inv the reciprocal-square-root stage of the clamped in-degrees,
  both kept as named stages and never opened, and W, b are the layer's weight and bias arguments with i the relation.
  The drug output is the left-associated sum of the three drug convolutions; this layer has no rectifier.
-/
import proofs.«166004_j3839700763193_1_alg».proof.Proof.Ref.Read
import Idealize.ShloMosaic.PureOps.Ideal.Laws
import Idealize.ShloMosaic.Lib.ValueIdx

noncomputable section

open scoped BigOperators

namespace Cert.Val

open Idealize.ShloMosaic Idealize.ShloMosaic.ValueIdx Cert.ReferenceIdeal Cert.ReferenceIdeal.Gen

/-! ## The convolution whose result is stage `val_main_v340` (relation 0, 5000 rows, 64 columns) -/

/-- The weight matrix of this convolution is the first slab of the weight argument. -/
theorem W_main_v305 (x10 : (⟨S4x128x64, .f32⟩ : BufTy).Contents (Elt Ideal)) (k : Fin 128) (q : Fin 64) :
    ReadP.val_main_v305 (F := Ideal) x10 (ix2 k q) = x10 (ix3 (0 : Fin 4) k q) := by
  rw [ReadP.val_main_v305_apply, ReadP.val_main_v304_apply]
  refine congrArg x10 (funext fun a => Fin.ext ?_)
  have hk := k.isLt
  have hq := q.isLt
  match a with
  | ⟨0, _⟩ => rfl
  | ⟨1, _⟩ => show (k.val * 64 + q.val) / 64 % 128 = k.val; omega
  | ⟨2, _⟩ => show (k.val * 64 + q.val) % 64 = q.val; omega

/-- The bias broadcast over the rows is the first row of the bias argument. -/
theorem b_main_v339 (x11 : (⟨S4x64, .f32⟩ : BufTy).Contents (Elt Ideal)) (p : Fin 5000) (q : Fin 64) :
    ReadP.val_main_v339 (F := Ideal) x11 (ix2 p q) = x11 (ix2 (0 : Fin 4) q) := by
  rw [ReadP.val_main_v339_apply, ReadP.val_main_v338_apply, ReadP.val_main_v307_apply, ReadP.val_main_v306_apply]
  refine congrArg x11 (funext fun a => Fin.ext ?_)
  have hq := q.isLt
  match a with
  | ⟨0, _⟩ => rfl
  | ⟨1, _⟩ => show q.val % 64 = q.val; omega

/-- The row factor broadcast over the columns is the reciprocal square root stage at the row. -/
theorem inv_main_v335 (x3 : (⟨S1000000, .i32⟩ : BufTy).Contents (Elt Ideal)) (p : Fin 5000) (k : Fin 128) :
    ReadP.val_main_v335 (F := Ideal) x3 (ix2 p k) = ReadP.val_main_v333 (F := Ideal) x3 (ix1 p) := by
  rw [ReadP.val_main_v335_apply, ReadP.val_main_v334_apply]
  exact congrArg (ReadP.val_main_v333 (F := Ideal) x3) (funext fun a => match a with | ⟨0, _⟩ => rfl)

/-- The convolution at (p, q): the aggregated row scaled by its row factor, times the weight column, plus the bias. -/
theorem conv_main_v340 (x0 : (⟨S100000x128, .f32⟩ : BufTy).Contents (Elt Ideal)) (x1 : (⟨S5000x128, .f32⟩ : BufTy).Contents (Elt Ideal)) (x2 x3 x4 x5 : (⟨S1000000, .i32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) (x10 : (⟨S4x128x64, .f32⟩ : BufTy).Contents (Elt Ideal)) (x11 : (⟨S4x64, .f32⟩ : BufTy).Contents (Elt Ideal)) (p : Fin 5000) (q : Fin 64) :
    ReadP.val_main_v340 (F := Ideal) x0 x1 x2 x3 x4 x5 x6 x7 x8 x9 x10 x11 (ix2 p q)
      = (∑ k : Fin 128, (ReadP.val_main_v332 (F := Ideal) x0 x1 x2 x3 x4 x5 x6 x7 x8 x9 (ix2 p k) * ReadP.val_main_v333 (F := Ideal) x3 (ix1 p)) * x10 (ix3 (0 : Fin 4) k q))
          + x11 (ix2 (0 : Fin 4) q) := by
  rw [ReadP.val_main_v340_apply, ReadP.val_main_v337_apply, b_main_v339]
  refine congrArg (· + x11 (ix2 (0 : Fin 4) q)) (Finset.sum_congr rfl fun k _ => ?_)
  have hl : ReadP.lidx_main_v337 (ix2 p q) k = ix2 p k := funext fun a => match a with | ⟨0, _⟩ => rfl | ⟨1, _⟩ => rfl
  have hr : ReadP.ridx_main_v337 (ix2 p q) k = ix2 k q := funext fun a => match a with | ⟨0, _⟩ => rfl | ⟨1, _⟩ => rfl
  rw [hl, hr, ReadP.val_main_v336_apply, inv_main_v335, W_main_v305]
  rfl

/-! ## The convolution whose result is stage `val_main_v377` (relation 1, 100000 rows, 64 columns) -/

/-- The weight matrix of this convolution is the second slab of the weight argument. -/
theorem W_main_v342 (x10 : (⟨S4x128x64, .f32⟩ : BufTy).Contents (Elt Ideal)) (k : Fin 128) (q : Fin 64) :
    ReadP.val_main_v342 (F := Ideal) x10 (ix2 k q) = x10 (ix3 (1 : Fin 4) k q) := by
  rw [ReadP.val_main_v342_apply, ReadP.val_main_v341_apply]
  refine congrArg x10 (funext fun a => Fin.ext ?_)
  have hk := k.isLt
  have hq := q.isLt
  match a with
  | ⟨0, _⟩ => rfl
  | ⟨1, _⟩ => show (k.val * 64 + q.val) / 64 % 128 = k.val; omega
  | ⟨2, _⟩ => show (k.val * 64 + q.val) % 64 = q.val; omega

/-- The bias broadcast over the rows is the second row of the bias argument. -/
theorem b_main_v376 (x11 : (⟨S4x64, .f32⟩ : BufTy).Contents (Elt Ideal)) (p : Fin 100000) (q : Fin 64) :
    ReadP.val_main_v376 (F := Ideal) x11 (ix2 p q) = x11 (ix2 (1 : Fin 4) q) := by
  rw [ReadP.val_main_v376_apply, ReadP.val_main_v375_apply, ReadP.val_main_v344_apply, ReadP.val_main_v343_apply]
  refine congrArg x11 (funext fun a => Fin.ext ?_)
  have hq := q.isLt
  match a with
  | ⟨0, _⟩ => rfl
  | ⟨1, _⟩ => show q.val % 64 = q.val; omega

/-- The row factor broadcast over the columns is the reciprocal square root stage at the row. -/
theorem inv_main_v372 (x2 : (⟨S1000000, .i32⟩ : BufTy).Contents (Elt Ideal)) (p : Fin 100000) (k : Fin 128) :
    ReadP.val_main_v372 (F := Ideal) x2 (ix2 p k) = ReadP.val_main_v370 (F := Ideal) x2 (ix1 p) := by
  rw [ReadP.val_main_v372_apply, ReadP.val_main_v371_apply]
  exact congrArg (ReadP.val_main_v370 (F := Ideal) x2) (funext fun a => match a with | ⟨0, _⟩ => rfl)

/-- The convolution at (p, q): the aggregated row scaled by its row factor, times the weight column, plus the bias. -/
theorem conv_main_v377 (x0 : (⟨S100000x128, .f32⟩ : BufTy).Contents (Elt Ideal)) (x1 : (⟨S5000x128, .f32⟩ : BufTy).Contents (Elt Ideal)) (x2 x3 x4 x5 : (⟨S1000000, .i32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) (x10 : (⟨S4x128x64, .f32⟩ : BufTy).Contents (Elt Ideal)) (x11 : (⟨S4x64, .f32⟩ : BufTy).Contents (Elt Ideal)) (p : Fin 100000) (q : Fin 64) :
    ReadP.val_main_v377 (F := Ideal) x0 x1 x2 x3 x4 x5 x6 x7 x8 x9 x10 x11 (ix2 p q)
      = (∑ k : Fin 128, (ReadP.val_main_v369 (F := Ideal) x0 x1 x2 x3 x4 x5 x6 x7 x8 x9 (ix2 p k) * ReadP.val_main_v370 (F := Ideal) x2 (ix1 p)) * x10 (ix3 (1 : Fin 4) k q))
          + x11 (ix2 (1 : Fin 4) q) := by
  rw [ReadP.val_main_v377_apply, ReadP.val_main_v374_apply, b_main_v376]
  refine congrArg (· + x11 (ix2 (1 : Fin 4) q)) (Finset.sum_congr rfl fun k _ => ?_)
  have hl : ReadP.lidx_main_v374 (ix2 p q) k = ix2 p k := funext fun a => match a with | ⟨0, _⟩ => rfl | ⟨1, _⟩ => rfl
  have hr : ReadP.ridx_main_v374 (ix2 p q) k = ix2 k q := funext fun a => match a with | ⟨0, _⟩ => rfl | ⟨1, _⟩ => rfl
  rw [hl, hr, ReadP.val_main_v373_apply, inv_main_v372, W_main_v342]
  rfl

/-! ## The convolution whose result is stage `val_main_v414` (relation 2, 100000 rows, 64 columns) -/

/-- The weight matrix of this convolution is the third slab of the weight argument. -/
theorem W_main_v379 (x10 : (⟨S4x128x64, .f32⟩ : BufTy).Contents (Elt Ideal)) (k : Fin 128) (q : Fin 64) :
    ReadP.val_main_v379 (F := Ideal) x10 (ix2 k q) = x10 (ix3 (2 : Fin 4) k q) := by
  rw [ReadP.val_main_v379_apply, ReadP.val_main_v378_apply]
  refine congrArg x10 (funext fun a => Fin.ext ?_)
  have hk := k.isLt
  have hq := q.isLt
  match a with
  | ⟨0, _⟩ => rfl
  | ⟨1, _⟩ => show (k.val * 64 + q.val) / 64 % 128 = k.val; omega
  | ⟨2, _⟩ => show (k.val * 64 + q.val) % 64 = q.val; omega

/-- The bias broadcast over the rows is the third row of the bias argument. -/
theorem b_main_v413 (x11 : (⟨S4x64, .f32⟩ : BufTy).Contents (Elt Ideal)) (p : Fin 100000) (q : Fin 64) :
    ReadP.val_main_v413 (F := Ideal) x11 (ix2 p q) = x11 (ix2 (2 : Fin 4) q) := by
  rw [ReadP.val_main_v413_apply, ReadP.val_main_v412_apply, ReadP.val_main_v381_apply, ReadP.val_main_v380_apply]
  refine congrArg x11 (funext fun a => Fin.ext ?_)
  have hq := q.isLt
  match a with
  | ⟨0, _⟩ => rfl
  | ⟨1, _⟩ => show q.val % 64 = q.val; omega

/-- The row factor broadcast over the columns is the reciprocal square root stage at the row. -/
theorem inv_main_v409 (x5 : (⟨S1000000, .i32⟩ : BufTy).Contents (Elt Ideal)) (p : Fin 100000) (k : Fin 128) :
    ReadP.val_main_v409 (F := Ideal) x5 (ix2 p k) = ReadP.val_main_v407 (F := Ideal) x5 (ix1 p) := by
  rw [ReadP.val_main_v409_apply, ReadP.val_main_v408_apply]
  exact congrArg (ReadP.val_main_v407 (F := Ideal) x5) (funext fun a => match a with | ⟨0, _⟩ => rfl)

/-- The convolution at (p, q): the aggregated row scaled by its row factor, times the weight column, plus the bias. -/
theorem conv_main_v414 (x0 : (⟨S100000x128, .f32⟩ : BufTy).Contents (Elt Ideal)) (x1 : (⟨S5000x128, .f32⟩ : BufTy).Contents (Elt Ideal)) (x2 x3 x4 x5 : (⟨S1000000, .i32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) (x10 : (⟨S4x128x64, .f32⟩ : BufTy).Contents (Elt Ideal)) (x11 : (⟨S4x64, .f32⟩ : BufTy).Contents (Elt Ideal)) (p : Fin 100000) (q : Fin 64) :
    ReadP.val_main_v414 (F := Ideal) x0 x1 x2 x3 x4 x5 x6 x7 x8 x9 x10 x11 (ix2 p q)
      = (∑ k : Fin 128, (ReadP.val_main_v406 (F := Ideal) x0 x1 x2 x3 x4 x5 x6 x7 x8 x9 (ix2 p k) * ReadP.val_main_v407 (F := Ideal) x5 (ix1 p)) * x10 (ix3 (2 : Fin 4) k q))
          + x11 (ix2 (2 : Fin 4) q) := by
  rw [ReadP.val_main_v414_apply, ReadP.val_main_v411_apply, b_main_v413]
  refine congrArg (· + x11 (ix2 (2 : Fin 4) q)) (Finset.sum_congr rfl fun k _ => ?_)
  have hl : ReadP.lidx_main_v411 (ix2 p q) k = ix2 p k := funext fun a => match a with | ⟨0, _⟩ => rfl | ⟨1, _⟩ => rfl
  have hr : ReadP.ridx_main_v411 (ix2 p q) k = ix2 k q := funext fun a => match a with | ⟨0, _⟩ => rfl | ⟨1, _⟩ => rfl
  rw [hl, hr, ReadP.val_main_v410_apply, inv_main_v409, W_main_v379]
  rfl

/-! ## The convolution whose result is stage `val_main_v452` (relation 3, 100000 rows, 64 columns) -/

/-- The weight matrix of this convolution is the fourth slab of the weight argument. -/
theorem W_main_v417 (x10 : (⟨S4x128x64, .f32⟩ : BufTy).Contents (Elt Ideal)) (k : Fin 128) (q : Fin 64) :
    ReadP.val_main_v417 (F := Ideal) x10 (ix2 k q) = x10 (ix3 (3 : Fin 4) k q) := by
  rw [ReadP.val_main_v417_apply, ReadP.val_main_v416_apply]
  refine congrArg x10 (funext fun a => Fin.ext ?_)
  have hk := k.isLt
  have hq := q.isLt
  match a with
  | ⟨0, _⟩ => rfl
  | ⟨1, _⟩ => show (k.val * 64 + q.val) / 64 % 128 = k.val; omega
  | ⟨2, _⟩ => show (k.val * 64 + q.val) % 64 = q.val; omega

/-- The bias broadcast over the rows is the fourth row of the bias argument. -/
theorem b_main_v451 (x11 : (⟨S4x64, .f32⟩ : BufTy).Contents (Elt Ideal)) (p : Fin 100000) (q : Fin 64) :
    ReadP.val_main_v451 (F := Ideal) x11 (ix2 p q) = x11 (ix2 (3 : Fin 4) q) := by
  rw [ReadP.val_main_v451_apply, ReadP.val_main_v450_apply, ReadP.val_main_v419_apply, ReadP.val_main_v418_apply]
  refine congrArg x11 (funext fun a => Fin.ext ?_)
  have hq := q.isLt
  match a with
  | ⟨0, _⟩ => rfl
  | ⟨1, _⟩ => show q.val % 64 = q.val; omega

/-- The row factor broadcast over the columns is the reciprocal square root stage at the row. -/
theorem inv_main_v447 (x4 : (⟨S1000000, .i32⟩ : BufTy).Contents (Elt Ideal)) (p : Fin 100000) (k : Fin 128) :
    ReadP.val_main_v447 (F := Ideal) x4 (ix2 p k) = ReadP.val_main_v445 (F := Ideal) x4 (ix1 p) := by
  rw [ReadP.val_main_v447_apply, ReadP.val_main_v446_apply]
  exact congrArg (ReadP.val_main_v445 (F := Ideal) x4) (funext fun a => match a with | ⟨0, _⟩ => rfl)

/-- The convolution at (p, q): the aggregated row scaled by its row factor, times the weight column, plus the bias. -/
theorem conv_main_v452 (x0 : (⟨S100000x128, .f32⟩ : BufTy).Contents (Elt Ideal)) (x1 : (⟨S5000x128, .f32⟩ : BufTy).Contents (Elt Ideal)) (x2 x3 x4 x5 : (⟨S1000000, .i32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) (x10 : (⟨S4x128x64, .f32⟩ : BufTy).Contents (Elt Ideal)) (x11 : (⟨S4x64, .f32⟩ : BufTy).Contents (Elt Ideal)) (p : Fin 100000) (q : Fin 64) :
    ReadP.val_main_v452 (F := Ideal) x0 x1 x2 x3 x4 x5 x6 x7 x8 x9 x10 x11 (ix2 p q)
      = (∑ k : Fin 128, (ReadP.val_main_v444 (F := Ideal) x0 x1 x2 x3 x4 x5 x6 x7 x8 x9 (ix2 p k) * ReadP.val_main_v445 (F := Ideal) x4 (ix1 p)) * x10 (ix3 (3 : Fin 4) k q))
          + x11 (ix2 (3 : Fin 4) q) := by
  rw [ReadP.val_main_v452_apply, ReadP.val_main_v449_apply, b_main_v451]
  refine congrArg (· + x11 (ix2 (3 : Fin 4) q)) (Finset.sum_congr rfl fun k _ => ?_)
  have hl : ReadP.lidx_main_v449 (ix2 p q) k = ix2 p k := funext fun a => match a with | ⟨0, _⟩ => rfl | ⟨1, _⟩ => rfl
  have hr : ReadP.ridx_main_v449 (ix2 p q) k = ix2 k q := funext fun a => match a with | ⟨0, _⟩ => rfl | ⟨1, _⟩ => rfl
  rw [hl, hr, ReadP.val_main_v448_apply, inv_main_v447, W_main_v417]
  rfl

/-! ## The layer's drug output: the three drug convolutions added, left to right -/

/-- Stage `val_main_v453` at (p, q) is the sum of the three drug convolutions there, associated to the left. -/
theorem sum_main_v453 (x0 : (⟨S100000x128, .f32⟩ : BufTy).Contents (Elt Ideal)) (x1 : (⟨S5000x128, .f32⟩ : BufTy).Contents (Elt Ideal)) (x2 x3 x4 x5 : (⟨S1000000, .i32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) (x10 : (⟨S4x128x64, .f32⟩ : BufTy).Contents (Elt Ideal)) (x11 : (⟨S4x64, .f32⟩ : BufTy).Contents (Elt Ideal)) (p : Fin 100000) (q : Fin 64) :
    ReadP.val_main_v453 (F := Ideal) x0 x1 x2 x3 x4 x5 x6 x7 x8 x9 x10 x11 (ix2 p q)
      = (ReadP.val_main_v377 (F := Ideal) x0 x1 x2 x3 x4 x5 x6 x7 x8 x9 x10 x11 (ix2 p q) + ReadP.val_main_v414 (F := Ideal) x0 x1 x2 x3 x4 x5 x6 x7 x8 x9 x10 x11 (ix2 p q)) + ReadP.val_main_v452 (F := Ideal) x0 x1 x2 x3 x4 x5 x6 x7 x8 x9 x10 x11 (ix2 p q) := by
  rw [ReadP.val_main_v453_apply, ReadP.val_main_v415_apply]
  rfl

end Cert.Val

end
-- ==== Proof.Val.RefChain3.lean ====
/-
  Layer 3 of the reference: its aggregation stages and degree factors are the shared host chains.

  Each convolution's scatter-add stage is "scale the source rows by the out-degree factor, gather them along the edges,
  add them into zero rows at the edge targets" of the layer's input, and each degree factor is the reciprocal square
  root of the degree count clamped below by one. Both programs spell these chains operation for operation alike, over
  equal literal shapes, so each equation holds by unfolding the stage names.
-/
import proofs.«166004_j3839700763193_1_alg».proof.Proof.Ref.Read
import proofs.«166004_j3839700763193_1_alg».proof.Proof.Host.Chains

set_option maxRecDepth 16384

noncomputable section

namespace Cert.Val

open Idealize.ShloMosaic Cert.ReferenceIdeal

/-! ## The aggregation and the two degree factors of the convolution whose result is stage `val_main_v340` -/

/-- The out-degree factor scaling the source rows: the shared chain "reciprocal square root of the clamped degree count". -/
theorem deg_main_v319_eq (x2 : Cert.HostK.VI Cert.KernelIdeal.S1000000) :
    ReadP.val_main_v319 (F := Ideal) x2 = Cert.HostK.invDegD x2 := by
  unfold ReadP.val_main_v319 ReadP.val_main_v313 ReadP.val_main_v311 ReadP.val_main_v312 ReadP.val_main_v309 ReadP.val_main_v310 ReadP.val_main_v308 ReadP.val_main_cst_63 ReadP.val_main_cst_62 ReadP.val_main_cst_64
    Cert.HostK.invDegD
  rfl

/-- The in-degree factor scaling the aggregated rows: the shared chain "reciprocal square root of the clamped degree count". -/
theorem deg_main_v333_eq (x3 : Cert.HostK.VI Cert.KernelIdeal.S1000000) :
    ReadP.val_main_v333 (F := Ideal) x3 = Cert.HostK.invDegS x3 := by
  unfold ReadP.val_main_v333 ReadP.val_main_v318 ReadP.val_main_v316 ReadP.val_main_v317 ReadP.val_main_v314 ReadP.val_main_v315 ReadP.val_main_v308 ReadP.val_main_cst_65 ReadP.val_main_cst_62 ReadP.val_main_cst_66
    Cert.HostK.invDegS
  rfl

/-- The aggregation stage is the shared chain "scale the rows, gather along the edges, add into zeros" of its input. -/
theorem agg_main_v332_eq (x0 : Cert.HostK.VF Cert.KernelIdeal.S100000x128) (x1 : Cert.HostK.VF Cert.KernelIdeal.S5000x128) (x2 : Cert.HostK.VI Cert.KernelIdeal.S1000000) (x3 : Cert.HostK.VI Cert.KernelIdeal.S1000000) (x4 : Cert.HostK.VI Cert.KernelIdeal.S1000000) (x5 : Cert.HostK.VI Cert.KernelIdeal.S1000000) (x6 : Cert.HostK.VF Cert.KernelIdeal.S4x128x128) (x7 : Cert.HostK.VF Cert.KernelIdeal.S4x128) (x8 : Cert.HostK.VF Cert.KernelIdeal.S4x128x128) (x9 : Cert.HostK.VF Cert.KernelIdeal.S4x128) :
    ReadP.val_main_v332 (F := Ideal) x0 x1 x2 x3 x4 x5 x6 x7 x8 x9
      = Cert.HostK.aggDS (ReadP.val_main_v302 (F := Ideal) x0 x1 x2 x3 x4 x5 x6 x7 x8 x9) x2 x3 (Cert.HostK.invDegD x2) := by
  rw [← deg_main_v319_eq]
  unfold ReadP.val_main_v332 ReadP.val_main_v330 ReadP.val_main_v331 ReadP.val_main_v329 ReadP.val_main_v322 ReadP.val_main_v321 ReadP.val_main_v320 ReadP.val_main_v328 ReadP.val_main_v327 ReadP.val_main_v324 ReadP.val_main_v326 ReadP.val_main_v323 ReadP.val_main_v325 ReadP.val_main_cst_69 ReadP.val_main_c_67 ReadP.val_main_c_68
    Cert.HostK.aggDS Cert.HostK.normIdxD
  rfl

/-! ## The aggregation and the two degree factors of the convolution whose result is stage `val_main_v377` -/

/-- The out-degree factor scaling the source rows: the shared chain "reciprocal square root of the clamped degree count". -/
theorem deg_main_v356_eq (x3 : Cert.HostK.VI Cert.KernelIdeal.S1000000) :
    ReadP.val_main_v356 (F := Ideal) x3 = Cert.HostK.invDegS x3 := by
  unfold ReadP.val_main_v356 ReadP.val_main_v350 ReadP.val_main_v348 ReadP.val_main_v349 ReadP.val_main_v346 ReadP.val_main_v347 ReadP.val_main_v345 ReadP.val_main_cst_71 ReadP.val_main_cst_70 ReadP.val_main_cst_72
    Cert.HostK.invDegS
  rfl

/-- The in-degree factor scaling the aggregated rows: the shared chain "reciprocal square root of the clamped degree count". -/
theorem deg_main_v370_eq (x2 : Cert.HostK.VI Cert.KernelIdeal.S1000000) :
    ReadP.val_main_v370 (F := Ideal) x2 = Cert.HostK.invDegD x2 := by
  unfold ReadP.val_main_v370 ReadP.val_main_v355 ReadP.val_main_v353 ReadP.val_main_v354 ReadP.val_main_v351 ReadP.val_main_v352 ReadP.val_main_v345 ReadP.val_main_cst_73 ReadP.val_main_cst_70 ReadP.val_main_cst_74
    Cert.HostK.invDegD
  rfl

/-- The aggregation stage is the shared chain "scale the rows, gather along the edges, add into zeros" of its input. -/
theorem agg_main_v369_eq (x0 : Cert.HostK.VF Cert.KernelIdeal.S100000x128) (x1 : Cert.HostK.VF Cert.KernelIdeal.S5000x128) (x2 : Cert.HostK.VI Cert.KernelIdeal.S1000000) (x3 : Cert.HostK.VI Cert.KernelIdeal.S1000000) (x4 : Cert.HostK.VI Cert.KernelIdeal.S1000000) (x5 : Cert.HostK.VI Cert.KernelIdeal.S1000000) (x6 : Cert.HostK.VF Cert.KernelIdeal.S4x128x128) (x7 : Cert.HostK.VF Cert.KernelIdeal.S4x128) (x8 : Cert.HostK.VF Cert.KernelIdeal.S4x128x128) (x9 : Cert.HostK.VF Cert.KernelIdeal.S4x128) :
    ReadP.val_main_v369 (F := Ideal) x0 x1 x2 x3 x4 x5 x6 x7 x8 x9
      = Cert.HostK.aggSD (ReadP.val_main_v303 (F := Ideal) x0 x1 x2 x3 x4 x5 x6 x7 x8 x9) x3 x2 (Cert.HostK.invDegS x3) := by
  rw [← deg_main_v356_eq]
  unfold ReadP.val_main_v369 ReadP.val_main_v367 ReadP.val_main_v368 ReadP.val_main_v366 ReadP.val_main_v359 ReadP.val_main_v358 ReadP.val_main_v357 ReadP.val_main_v365 ReadP.val_main_v364 ReadP.val_main_v361 ReadP.val_main_v363 ReadP.val_main_v360 ReadP.val_main_v362 ReadP.val_main_cst_77 ReadP.val_main_c_75 ReadP.val_main_c_76
    Cert.HostK.aggSD Cert.HostK.normIdxS
  rfl

/-! ## The aggregation and the two degree factors of the convolution whose result is stage `val_main_v414` -/

/-- The out-degree factor scaling the source rows: the shared chain "reciprocal square root of the clamped degree count". -/
theorem deg_main_v393_eq (x4 : Cert.HostK.VI Cert.KernelIdeal.S1000000) :
    ReadP.val_main_v393 (F := Ideal) x4 = Cert.HostK.invDegD x4 := by
  unfold ReadP.val_main_v393 ReadP.val_main_v387 ReadP.val_main_v385 ReadP.val_main_v386 ReadP.val_main_v383 ReadP.val_main_v384 ReadP.val_main_v382 ReadP.val_main_cst_79 ReadP.val_main_cst_78 ReadP.val_main_cst_80
    Cert.HostK.invDegD
  rfl

/-- The in-degree factor scaling the aggregated rows: the shared chain "reciprocal square root of the clamped degree count". -/
theorem deg_main_v407_eq (x5 : Cert.HostK.VI Cert.KernelIdeal.S1000000) :
    ReadP.val_main_v407 (F := Ideal) x5 = Cert.HostK.invDegD x5 := by
  unfold ReadP.val_main_v407 ReadP.val_main_v392 ReadP.val_main_v390 ReadP.val_main_v391 ReadP.val_main_v388 ReadP.val_main_v389 ReadP.val_main_v382 ReadP.val_main_cst_81 ReadP.val_main_cst_78 ReadP.val_main_cst_82
    Cert.HostK.invDegD
  rfl

/-- The aggregation stage is the shared chain "scale the rows, gather along the edges, add into zeros" of its input. -/
theorem agg_main_v406_eq (x0 : Cert.HostK.VF Cert.KernelIdeal.S100000x128) (x1 : Cert.HostK.VF Cert.KernelIdeal.S5000x128) (x2 : Cert.HostK.VI Cert.KernelIdeal.S1000000) (x3 : Cert.HostK.VI Cert.KernelIdeal.S1000000) (x4 : Cert.HostK.VI Cert.KernelIdeal.S1000000) (x5 : Cert.HostK.VI Cert.KernelIdeal.S1000000) (x6 : Cert.HostK.VF Cert.KernelIdeal.S4x128x128) (x7 : Cert.HostK.VF Cert.KernelIdeal.S4x128) (x8 : Cert.HostK.VF Cert.KernelIdeal.S4x128x128) (x9 : Cert.HostK.VF Cert.KernelIdeal.S4x128) :
    ReadP.val_main_v406 (F := Ideal) x0 x1 x2 x3 x4 x5 x6 x7 x8 x9
      = Cert.HostK.aggDD (ReadP.val_main_v302 (F := Ideal) x0 x1 x2 x3 x4 x5 x6 x7 x8 x9) x4 x5 (Cert.HostK.invDegD x4) := by
  rw [← deg_main_v393_eq]
  unfold ReadP.val_main_v406 ReadP.val_main_v404 ReadP.val_main_v405 ReadP.val_main_v403 ReadP.val_main_v396 ReadP.val_main_v395 ReadP.val_main_v394 ReadP.val_main_v402 ReadP.val_main_v401 ReadP.val_main_v398 ReadP.val_main_v400 ReadP.val_main_v397 ReadP.val_main_v399 ReadP.val_main_cst_85 ReadP.val_main_c_83 ReadP.val_main_c_84
    Cert.HostK.aggDD Cert.HostK.normIdxD
  rfl

/-! ## The aggregation and the two degree factors of the convolution whose result is stage `val_main_v452` -/

/-- The out-degree factor scaling the source rows: the shared chain "reciprocal square root of the clamped degree count". -/
theorem deg_main_v431_eq (x5 : Cert.HostK.VI Cert.KernelIdeal.S1000000) :
    ReadP.val_main_v431 (F := Ideal) x5 = Cert.HostK.invDegD x5 := by
  unfold ReadP.val_main_v431 ReadP.val_main_v425 ReadP.val_main_v423 ReadP.val_main_v424 ReadP.val_main_v421 ReadP.val_main_v422 ReadP.val_main_v420 ReadP.val_main_cst_87 ReadP.val_main_cst_86 ReadP.val_main_cst_88
    Cert.HostK.invDegD
  rfl

/-- The in-degree factor scaling the aggregated rows: the shared chain "reciprocal square root of the clamped degree count". -/
theorem deg_main_v445_eq (x4 : Cert.HostK.VI Cert.KernelIdeal.S1000000) :
    ReadP.val_main_v445 (F := Ideal) x4 = Cert.HostK.invDegD x4 := by
  unfold ReadP.val_main_v445 ReadP.val_main_v430 ReadP.val_main_v428 ReadP.val_main_v429 ReadP.val_main_v426 ReadP.val_main_v427 ReadP.val_main_v420 ReadP.val_main_cst_89 ReadP.val_main_cst_86 ReadP.val_main_cst_90
    Cert.HostK.invDegD
  rfl

/-- The aggregation stage is the shared chain "scale the rows, gather along the edges, add into zeros" of its input. -/
theorem agg_main_v444_eq (x0 : Cert.HostK.VF Cert.KernelIdeal.S100000x128) (x1 : Cert.HostK.VF Cert.KernelIdeal.S5000x128) (x2 : Cert.HostK.VI Cert.KernelIdeal.S1000000) (x3 : Cert.HostK.VI Cert.KernelIdeal.S1000000) (x4 : Cert.HostK.VI Cert.KernelIdeal.S1000000) (x5 : Cert.HostK.VI Cert.KernelIdeal.S1000000) (x6 : Cert.HostK.VF Cert.KernelIdeal.S4x128x128) (x7 : Cert.HostK.VF Cert.KernelIdeal.S4x128) (x8 : Cert.HostK.VF Cert.KernelIdeal.S4x128x128) (x9 : Cert.HostK.VF Cert.KernelIdeal.S4x128) :
    ReadP.val_main_v444 (F := Ideal) x0 x1 x2 x3 x4 x5 x6 x7 x8 x9
      = Cert.HostK.aggDD (ReadP.val_main_v302 (F := Ideal) x0 x1 x2 x3 x4 x5 x6 x7 x8 x9) x5 x4 (Cert.HostK.invDegD x5) := by
  rw [← deg_main_v431_eq]
  unfold ReadP.val_main_v444 ReadP.val_main_v442 ReadP.val_main_v443 ReadP.val_main_v441 ReadP.val_main_v434 ReadP.val_main_v433 ReadP.val_main_v432 ReadP.val_main_v440 ReadP.val_main_v439 ReadP.val_main_v436 ReadP.val_main_v438 ReadP.val_main_v435 ReadP.val_main_v437 ReadP.val_main_cst_93 ReadP.val_main_c_91 ReadP.val_main_c_92
    Cert.HostK.aggDD Cert.HostK.normIdxD
  rfl

end Cert.Val

end
-- ==== Proof.Val.RefLayer3.lean ====
/-
  Layer 3 of the reference as one function of the layer's inputs: its side output is the layer function of the drug
  rows, its drug output the layer function of the drug and side rows. Obtained entry by entry from
  the convolutions read at an index and from the aggregation stages being the shared host chains.
-/
import proofs.«166004_j3839700763193_1_alg».proof.Proof.Val.Ref3
import proofs.«166004_j3839700763193_1_alg».proof.Proof.Val.RefChain3
import proofs.«166004_j3839700763193_1_alg».proof.Proof.Val.Spec

noncomputable section

open scoped BigOperators

namespace Cert.Val

open Idealize.ShloMosaic Idealize.ShloMosaic.ValueIdx Cert.ReferenceIdeal

/-! ## Layer 3: the two outputs as functions of the layer's inputs -/

/-- The side output before the rectifier. -/
theorem side3_pre (x0 : Cert.HostK.VF Cert.KernelIdeal.S100000x128) (x1 : Cert.HostK.VF Cert.KernelIdeal.S5000x128) (x2 : Cert.HostK.VI Cert.KernelIdeal.S1000000) (x3 : Cert.HostK.VI Cert.KernelIdeal.S1000000) (x4 : Cert.HostK.VI Cert.KernelIdeal.S1000000) (x5 : Cert.HostK.VI Cert.KernelIdeal.S1000000) (x6 : Cert.HostK.VF Cert.KernelIdeal.S4x128x128) (x7 : Cert.HostK.VF Cert.KernelIdeal.S4x128) (x8 : Cert.HostK.VF Cert.KernelIdeal.S4x128x128) (x9 : Cert.HostK.VF Cert.KernelIdeal.S4x128) (x10 : Cert.HostK.VF Cert.KernelIdeal.S4x128x64) (x11 : Cert.HostK.VF Cert.KernelIdeal.S4x64) :
    ReadP.val_main_v340 (F := Ideal) x0 x1 x2 x3 x4 x5 x6 x7 x8 x9 x10 x11 = layerSide (ReadP.val_main_v302 (F := Ideal) x0 x1 x2 x3 x4 x5 x6 x7 x8 x9) x2 x3 x10 x11 := by
  funext j
  obtain ⟨p, q, rfl⟩ : ∃ (p : Fin 5000) (q : Fin 64), j = ix2 p q := ⟨j 0, j 1, eq_ix2 j⟩
  rw [conv_main_v340, layerSide_apply, agg_main_v332_eq, deg_main_v333_eq]
  rfl

/-- The drug output before the rectifier. -/
theorem drug3_pre (x0 : Cert.HostK.VF Cert.KernelIdeal.S100000x128) (x1 : Cert.HostK.VF Cert.KernelIdeal.S5000x128) (x2 : Cert.HostK.VI Cert.KernelIdeal.S1000000) (x3 : Cert.HostK.VI Cert.KernelIdeal.S1000000) (x4 : Cert.HostK.VI Cert.KernelIdeal.S1000000) (x5 : Cert.HostK.VI Cert.KernelIdeal.S1000000) (x6 : Cert.HostK.VF Cert.KernelIdeal.S4x128x128) (x7 : Cert.HostK.VF Cert.KernelIdeal.S4x128) (x8 : Cert.HostK.VF Cert.KernelIdeal.S4x128x128) (x9 : Cert.HostK.VF Cert.KernelIdeal.S4x128) (x10 : Cert.HostK.VF Cert.KernelIdeal.S4x128x64) (x11 : Cert.HostK.VF Cert.KernelIdeal.S4x64) :
    ReadP.val_main_v453 (F := Ideal) x0 x1 x2 x3 x4 x5 x6 x7 x8 x9 x10 x11 = layerDrug (ReadP.val_main_v302 (F := Ideal) x0 x1 x2 x3 x4 x5 x6 x7 x8 x9) (ReadP.val_main_v303 (F := Ideal) x0 x1 x2 x3 x4 x5 x6 x7 x8 x9) x2 x3 x4 x5 x10 x11 := by
  funext j
  obtain ⟨p, q, rfl⟩ : ∃ (p : Fin 100000) (q : Fin 64), j = ix2 p q := ⟨j 0, j 1, eq_ix2 j⟩
  rw [sum_main_v453, conv_main_v377, conv_main_v414, conv_main_v452, layerDrug_apply,
    agg_main_v369_eq, deg_main_v370_eq, agg_main_v406_eq, deg_main_v407_eq,
    agg_main_v444_eq, deg_main_v445_eq]
  rfl

end Cert.Val

end
-- ==== Proof.Val.RefAll.lean ====
/-
  The reference's two results as the three layers composed: each layer's reference outputs are the layer functions of the
  previous layer's outputs, so substituting layer by layer gives the closed form of both results in the arguments.
-/
import proofs.«166004_j3839700763193_1_alg».proof.Proof.Val.RefLayer1
import proofs.«166004_j3839700763193_1_alg».proof.Proof.Val.RefLayer2
import proofs.«166004_j3839700763193_1_alg».proof.Proof.Val.RefLayer3

noncomputable section

namespace Cert.Val

open Idealize.ShloMosaic Cert.ReferenceIdeal

/-- The reference's side result is the composed network's side output. -/
theorem ref_side (x0 : Cert.HostK.VF Cert.KernelIdeal.S100000x128) (x1 : Cert.HostK.VF Cert.KernelIdeal.S5000x128) (x2 : Cert.HostK.VI Cert.KernelIdeal.S1000000) (x3 : Cert.HostK.VI Cert.KernelIdeal.S1000000) (x4 : Cert.HostK.VI Cert.KernelIdeal.S1000000) (x5 : Cert.HostK.VI Cert.KernelIdeal.S1000000) (x6 : Cert.HostK.VF Cert.KernelIdeal.S4x128x128) (x7 : Cert.HostK.VF Cert.KernelIdeal.S4x128) (x8 : Cert.HostK.VF Cert.KernelIdeal.S4x128x128) (x9 : Cert.HostK.VF Cert.KernelIdeal.S4x128) (x10 : Cert.HostK.VF Cert.KernelIdeal.S4x128x64) (x11 : Cert.HostK.VF Cert.KernelIdeal.S4x64) :
    ReadP.val_main_v340 (F := Ideal) x0 x1 x2 x3 x4 x5 x6 x7 x8 x9 x10 x11 = netSide x0 x1 x2 x3 x4 x5 x6 x7 x8 x9 x10 x11 := by
  rw [side3_pre, drug2_out, drug1_out, side1_out]
  rfl

/-- The reference's drug result is the composed network's drug output. -/
theorem ref_drug (x0 : Cert.HostK.VF Cert.KernelIdeal.S100000x128) (x1 : Cert.HostK.VF Cert.KernelIdeal.S5000x128) (x2 : Cert.HostK.VI Cert.KernelIdeal.S1000000) (x3 : Cert.HostK.VI Cert.KernelIdeal.S1000000) (x4 : Cert.HostK.VI Cert.KernelIdeal.S1000000) (x5 : Cert.HostK.VI Cert.KernelIdeal.S1000000) (x6 : Cert.HostK.VF Cert.KernelIdeal.S4x128x128) (x7 : Cert.HostK.VF Cert.KernelIdeal.S4x128) (x8 : Cert.HostK.VF Cert.KernelIdeal.S4x128x128) (x9 : Cert.HostK.VF Cert.KernelIdeal.S4x128) (x10 : Cert.HostK.VF Cert.KernelIdeal.S4x128x64) (x11 : Cert.HostK.VF Cert.KernelIdeal.S4x64) :
    ReadP.val_main_v453 (F := Ideal) x0 x1 x2 x3 x4 x5 x6 x7 x8 x9 x10 x11 = netDrug x0 x1 x2 x3 x4 x5 x6 x7 x8 x9 x10 x11 := by
  rw [drug3_pre, drug2_out, side2_out, drug1_out, side1_out]
  rfl

end Cert.Val

end
-- ==== Proof.Join.lean ====
/- The join of the two programs. The kernel program's two results are the last two regions' output arrays; read layer by layer they
   are the third layer's side and drug functions of the second layer's rectified features, themselves functions of the first
   layer's, themselves functions of the argument arrays: the network the reference's last two stages were shown to compute. -/
import proofs.«166004_j3839700763193_1_alg».proof.Proof.KI.Compose
import proofs.«166004_j3839700763193_1_alg».proof.Proof.Val.RefAll

noncomputable section

namespace Cert.Join

open Idealize.ShloMosaic Idealize.ShloMosaic.TcCoe Idealize.SL.Sem
open Cert.KernelIdeal Cert.KernelIdeal.Gen Cert.KernelIdeal.Hand Cert.HostK Cert.Val

variable (m : (ℓ : Loc nD τ sig) → Buf (Elt Ideal) ℓ)

/-- The side-effect result: region 4's output array, still in place at the end, is the network's side output of the arguments. -/
theorem side_result (c : Dev nD) :
    V12 m (outs m) c main_v188
      = Cert.ReferenceIdeal.ReadP.val_main_v340 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [V12_eq, X12_v188]
  show hs3 m c = _
  rw [Cert.Val.ref_side, hs3_eq, hd2_eq, hd1_eq, hs1_eq]
  rfl

/-- The drug result: region 5's output array is the network's drug output of the arguments. -/
theorem drug_result (c : Dev nD) :
    V12 m (outs m) c main_v240
      = Cert.ReferenceIdeal.ReadP.val_main_v453 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [V12_eq, X12_out]
  show hd3 m c = _
  rw [Cert.Val.ref_drug, hd3_eq, hd2_eq, hs2_eq, hd1_eq, hs1_eq]
  rfl

end Cert.Join

end
-- ==== Proof.lean ====
/- The kernel is a three-layer heterogeneous graph convolution over two node types (100000 drug nodes, 5000 side-effect nodes)
   and four edge relations. In each layer every relation contributes  D_in^(-1/2) · A · D_out^(-1/2) · X · W + b : the source
   features are scaled by the inverse square root of the clamped out-degree, gathered along the edges and summed at the edge
   targets (all of this on the host, in both programs), then scaled by the inverse square root of the clamped in-degree,
   multiplied by the relation's weight matrix and shifted by its bias; the drug side sums three relations; the first two layers end
   with max(·, 0).  The kernel program computes the four degree vectors once and does the dense part in six kernel regions: a region
   accumulates, over its reduction axis, zero plus the relations' contributions in a scratch accumulator carried from grid point to
   grid point, and writes the (rectified) accumulator back at the last reduction step.  The reference recomputes the degree vectors
   per convolution and does the dense part on the host.  Over the extended reals the two agree entry by entry: a change of float
   format is the identity, a product into a zero accumulator is the plain sum over the contracted axis, the host chains are the same
   operations on equal inputs, and the only law used is 0 + x = x — no finiteness of the inputs is needed, so the precondition is
   never opened.  The frames: each kernel region runs its pipeline under proof data that carry the accumulator in the region's
   invariant; between regions every unscoped buffer is held at a named valuation; the arguments are written by nothing. -/
import proofs.«166004_j3839700763193_1_alg».proof.Defs
import proofs.«166004_j3839700763193_1_alg».proof.Proof.Gen.Kernel
import proofs.«166004_j3839700763193_1_alg».proof.Proof.Gen.KernelIdeal
import proofs.«166004_j3839700763193_1_alg».proof.Proof.Gen.ReferenceIdeal
import proofs.«166004_j3839700763193_1_alg».proof.Proof.Gen.Pre_finite_inputs
import proofs.«166004_j3839700763193_1_alg».proof.Proof.K.Frame
import proofs.«166004_j3839700763193_1_alg».proof.Proof.KI.Frame
import proofs.«166004_j3839700763193_1_alg».proof.Proof.Ref.RunH
import proofs.«166004_j3839700763193_1_alg».proof.Proof.Join

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

/-- The reference is a host program: its frame is its run with the two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.RunH.run m ρ)

/-- Both programs end with the reference's two last stages of the argument arrays: the reference by its run, the kernel program by
    its frame run with the results named, each result then read layer by layer down to the arguments. -/
theorem algebraic : @Cert.algebraic_KernelIdeal_ReferenceIdeal Cert.KernelIdeal.Gen.facts Cert.ReferenceIdeal.Gen.facts Cert.Pre_finite_inputs.Gen.facts :=
  fun m ρ m' ρ' _ hagree =>
    ⟨fun c => Cert.ReferenceIdeal.ReadP.val_main_v453 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
     fun c => Cert.ReferenceIdeal.ReadP.val_main_v340 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
     (θ_run (Cert.KernelIdeal.defs (F := Ideal)) _ _).mono (fun r h c =>
        ⟨(h c).1.trans (Cert.Join.drug_result m c), (h c).2.1.trans (Cert.Join.side_result m c), (h c).2.2⟩)
       (Cert.KernelIdeal.Hand.frame_val (F := Ideal) m ρ),
     (θ_run (Cert.ReferenceIdeal.defs (F := Ideal)) _ _).mono (fun r h c => by
        obtain ⟨e0, e1, e2, e3, e4, e5, e6, e7, e8, e9, e10, e11⟩ := hagree c
        refine ⟨(h c).1.trans ?_, (h c).2.1.trans ?_, (h c).2.2⟩
        · rw [e0, e1, e2, e3, e4, e5, e6, e7, e8, e9, e10, e11]
        · rw [e0, e1, e2, e3, e4, e5, e6, e7, e8, e9, e10, e11])
       (Cert.ReferenceIdeal.RunH.run m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
